-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x256 : Shape := ⟨2, ![4096, 256]⟩
abbrev S4096x8192 : Shape := ⟨2, ![4096, 8192]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S4096x256 .f32) (main_arg1 : FVec F S4096x8192 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Pre_finite_inputs_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn {F : FTy → Type} [FloatOps F] (main_arg0 : FVec F S4096x4096 .f32) (main_arg1 : FVec F S4096x8192 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x256 : Shape := ⟨2, ![4096, 256]⟩
abbrev S4096x8192 : Shape := ⟨2, ![4096, 8192]⟩
abbrev S256x8192 : Shape := ⟨2, ![256, 8192]⟩
abbrev S16x256x256 : Shape := ⟨3, ![16, 256, 256]⟩
abbrev S3x256x8192 : Shape := ⟨3, ![3, 256, 8192]⟩
abbrev S16 : Shape := ⟨1, ![16]⟩
abbrev S3 : Shape := ⟨1, ![3]⟩
abbrev S1 : Shape := ⟨1, ![1]⟩
abbrev S_ : Shape := ⟨0, ![]⟩
abbrev S1x256x8192 : Shape := ⟨3, ![1, 256, 8192]⟩
abbrev S1x256x256 : Shape := ⟨3, ![1, 256, 256]⟩
abbrev S256x256 : Shape := ⟨2, ![256, 256]⟩

abbrev nBuf : Space → Nat
  | .hbm => 3
  | .vmem => 4
  | .smem => 0
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S16x256x256, .f32⟩
  | .local _ .vmem, ⟨3, _⟩ => ⟨S3x256x8192, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  { ofTc nBuf bufTy 1 37 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 c0_i32
  let c16_i32_0 : BitVec 32 := 16#32
  let c0_i32_1 : BitVec 32 := 0#32
  let v4 : BitVec 1 := Scalar.cmpi .eq c16_i32_0 c0_i32_1
  let c1_i32_2 : BitVec 32 := 1#32
  let v5 : BitVec 32 := Scalar.select v4 c1_i32_2 c16_i32_0
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c256_i32 : BitVec 32 := 256#32
  let v14 : BitVec 32 := Scalar.muli v13 c256_i32
  let c0_i32_10 : BitVec 32 := 0#32
  ![v14.toNat, 0]
def k0_dev1 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_36 : BitVec 32 := 1#32
  let v55 : BitVec 32 := Scalar.addi v2 c1_i32_36
  let c16_i32_37 : BitVec 32 := 16#32
  let c0_i32_38 : BitVec 32 := 0#32
  let v56 : BitVec 1 := Scalar.cmpi .eq c16_i32_37 c0_i32_38
  let c1_i32_39 : BitVec 32 := 1#32
  let v57 : BitVec 32 := Scalar.select v56 c1_i32_39 c16_i32_37
  let v58 : BitVec 32 := Scalar.remsi v55 v57
  let c0_i32_41 : BitVec 32 := 0#32
  let v60 : BitVec 1 := Scalar.cmpi .slt v58 c0_i32_41
  let c0_i32_42 : BitVec 32 := 0#32
  let v61 : BitVec 1 := Scalar.cmpi .slt v57 c0_i32_42
  let v62 : BitVec 1 := Scalar.xori v60 v61
  let c0_i32_40 : BitVec 32 := 0#32
  let v59 : BitVec 1 := Scalar.cmpi .ne v58 c0_i32_40
  let v63 : BitVec 1 := Scalar.andi v62 v59
  let v64 : BitVec 32 := Scalar.addi v58 v57
  let v65 : BitVec 32 := Scalar.select v63 v64 v58
  let c1_i32_44 : BitVec 32 := 1#32
  let v66 : BitVec 32 := Scalar.muli v65 c1_i32_44
  let v67 : BitVec 32 := Scalar.addi c0_i32_45 v66
  v67.toNat
def k0_dev2 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_46 : BitVec 32 := 2#32
  let v68 : BitVec 32 := Scalar.addi v2 c2_i32_46
  let c16_i32_47 : BitVec 32 := 16#32
  let c0_i32_48 : BitVec 32 := 0#32
  let v69 : BitVec 1 := Scalar.cmpi .eq c16_i32_47 c0_i32_48
  let c1_i32_49 : BitVec 32 := 1#32
  let v70 : BitVec 32 := Scalar.select v69 c1_i32_49 c16_i32_47
  let v71 : BitVec 32 := Scalar.remsi v68 v70
  let c0_i32_51 : BitVec 32 := 0#32
  let v73 : BitVec 1 := Scalar.cmpi .slt v71 c0_i32_51
  let c0_i32_52 : BitVec 32 := 0#32
  let v74 : BitVec 1 := Scalar.cmpi .slt v70 c0_i32_52
  let v75 : BitVec 1 := Scalar.xori v73 v74
  let c0_i32_50 : BitVec 32 := 0#32
  let v72 : BitVec 1 := Scalar.cmpi .ne v71 c0_i32_50
  let v76 : BitVec 1 := Scalar.andi v75 v72
  let v77 : BitVec 32 := Scalar.addi v71 v70
  let v78 : BitVec 32 := Scalar.select v76 v77 v71
  let c1_i32_54 : BitVec 32 := 1#32
  let v79 : BitVec 32 := Scalar.muli v78 c1_i32_54
  let v80 : BitVec 32 := Scalar.addi c0_i32_55 v79
  v80.toNat
def k0_dev3 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v81 : BitVec 32 := Scalar.addi v2 c3_i32
  let c16_i32_56 : BitVec 32 := 16#32
  let c0_i32_57 : BitVec 32 := 0#32
  let v82 : BitVec 1 := Scalar.cmpi .eq c16_i32_56 c0_i32_57
  let c1_i32_58 : BitVec 32 := 1#32
  let v83 : BitVec 32 := Scalar.select v82 c1_i32_58 c16_i32_56
  let v84 : BitVec 32 := Scalar.remsi v81 v83
  let c0_i32_60 : BitVec 32 := 0#32
  let v86 : BitVec 1 := Scalar.cmpi .slt v84 c0_i32_60
  let c0_i32_61 : BitVec 32 := 0#32
  let v87 : BitVec 1 := Scalar.cmpi .slt v83 c0_i32_61
  let v88 : BitVec 1 := Scalar.xori v86 v87
  let c0_i32_59 : BitVec 32 := 0#32
  let v85 : BitVec 1 := Scalar.cmpi .ne v84 c0_i32_59
  let v89 : BitVec 1 := Scalar.andi v88 v85
  let v90 : BitVec 32 := Scalar.addi v84 v83
  let v91 : BitVec 32 := Scalar.select v89 v90 v84
  let c1_i32_63 : BitVec 32 := 1#32
  let v92 : BitVec 32 := Scalar.muli v91 c1_i32_63
  let v93 : BitVec 32 := Scalar.addi c0_i32_64 v92
  v93.toNat
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v94 : BitVec 32 := Scalar.addi v2 c4_i32
  let c16_i32_65 : BitVec 32 := 16#32
  let c0_i32_66 : BitVec 32 := 0#32
  let v95 : BitVec 1 := Scalar.cmpi .eq c16_i32_65 c0_i32_66
  let c1_i32_67 : BitVec 32 := 1#32
  let v96 : BitVec 32 := Scalar.select v95 c1_i32_67 c16_i32_65
  let v97 : BitVec 32 := Scalar.remsi v94 v96
  let c0_i32_69 : BitVec 32 := 0#32
  let v99 : BitVec 1 := Scalar.cmpi .slt v97 c0_i32_69
  let c0_i32_70 : BitVec 32 := 0#32
  let v100 : BitVec 1 := Scalar.cmpi .slt v96 c0_i32_70
  let v101 : BitVec 1 := Scalar.xori v99 v100
  let c0_i32_68 : BitVec 32 := 0#32
  let v98 : BitVec 1 := Scalar.cmpi .ne v97 c0_i32_68
  let v102 : BitVec 1 := Scalar.andi v101 v98
  let v103 : BitVec 32 := Scalar.addi v97 v96
  let v104 : BitVec 32 := Scalar.select v102 v103 v97
  let c1_i32_72 : BitVec 32 := 1#32
  let v105 : BitVec 32 := Scalar.muli v104 c1_i32_72
  let v106 : BitVec 32 := Scalar.addi c0_i32_73 v105
  v106.toNat
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v107 : BitVec 32 := Scalar.addi v2 c5_i32
  let c16_i32_74 : BitVec 32 := 16#32
  let c0_i32_75 : BitVec 32 := 0#32
  let v108 : BitVec 1 := Scalar.cmpi .eq c16_i32_74 c0_i32_75
  let c1_i32_76 : BitVec 32 := 1#32
  let v109 : BitVec 32 := Scalar.select v108 c1_i32_76 c16_i32_74
  let v110 : BitVec 32 := Scalar.remsi v107 v109
  let c0_i32_78 : BitVec 32 := 0#32
  let v112 : BitVec 1 := Scalar.cmpi .slt v110 c0_i32_78
  let c0_i32_79 : BitVec 32 := 0#32
  let v113 : BitVec 1 := Scalar.cmpi .slt v109 c0_i32_79
  let v114 : BitVec 1 := Scalar.xori v112 v113
  let c0_i32_77 : BitVec 32 := 0#32
  let v111 : BitVec 1 := Scalar.cmpi .ne v110 c0_i32_77
  let v115 : BitVec 1 := Scalar.andi v114 v111
  let v116 : BitVec 32 := Scalar.addi v110 v109
  let v117 : BitVec 32 := Scalar.select v115 v116 v110
  let c1_i32_81 : BitVec 32 := 1#32
  let v118 : BitVec 32 := Scalar.muli v117 c1_i32_81
  let v119 : BitVec 32 := Scalar.addi c0_i32_82 v118
  v119.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v120 : BitVec 32 := Scalar.addi v2 c6_i32
  let c16_i32_83 : BitVec 32 := 16#32
  let c0_i32_84 : BitVec 32 := 0#32
  let v121 : BitVec 1 := Scalar.cmpi .eq c16_i32_83 c0_i32_84
  let c1_i32_85 : BitVec 32 := 1#32
  let v122 : BitVec 32 := Scalar.select v121 c1_i32_85 c16_i32_83
  let v123 : BitVec 32 := Scalar.remsi v120 v122
  let c0_i32_87 : BitVec 32 := 0#32
  let v125 : BitVec 1 := Scalar.cmpi .slt v123 c0_i32_87
  let c0_i32_88 : BitVec 32 := 0#32
  let v126 : BitVec 1 := Scalar.cmpi .slt v122 c0_i32_88
  let v127 : BitVec 1 := Scalar.xori v125 v126
  let c0_i32_86 : BitVec 32 := 0#32
  let v124 : BitVec 1 := Scalar.cmpi .ne v123 c0_i32_86
  let v128 : BitVec 1 := Scalar.andi v127 v124
  let v129 : BitVec 32 := Scalar.addi v123 v122
  let v130 : BitVec 32 := Scalar.select v128 v129 v123
  let c1_i32_90 : BitVec 32 := 1#32
  let v131 : BitVec 32 := Scalar.muli v130 c1_i32_90
  let v132 : BitVec 32 := Scalar.addi c0_i32_91 v131
  v132.toNat
def k0_dev7 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v133 : BitVec 32 := Scalar.addi v2 c7_i32
  let c16_i32_92 : BitVec 32 := 16#32
  let c0_i32_93 : BitVec 32 := 0#32
  let v134 : BitVec 1 := Scalar.cmpi .eq c16_i32_92 c0_i32_93
  let c1_i32_94 : BitVec 32 := 1#32
  let v135 : BitVec 32 := Scalar.select v134 c1_i32_94 c16_i32_92
  let v136 : BitVec 32 := Scalar.remsi v133 v135
  let c0_i32_96 : BitVec 32 := 0#32
  let v138 : BitVec 1 := Scalar.cmpi .slt v136 c0_i32_96
  let c0_i32_97 : BitVec 32 := 0#32
  let v139 : BitVec 1 := Scalar.cmpi .slt v135 c0_i32_97
  let v140 : BitVec 1 := Scalar.xori v138 v139
  let c0_i32_95 : BitVec 32 := 0#32
  let v137 : BitVec 1 := Scalar.cmpi .ne v136 c0_i32_95
  let v141 : BitVec 1 := Scalar.andi v140 v137
  let v142 : BitVec 32 := Scalar.addi v136 v135
  let v143 : BitVec 32 := Scalar.select v141 v142 v136
  let c1_i32_99 : BitVec 32 := 1#32
  let v144 : BitVec 32 := Scalar.muli v143 c1_i32_99
  let v145 : BitVec 32 := Scalar.addi c0_i32_100 v144
  v145.toNat
def k0_dev8 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v146 : BitVec 32 := Scalar.addi v2 c8_i32
  let c16_i32_101 : BitVec 32 := 16#32
  let c0_i32_102 : BitVec 32 := 0#32
  let v147 : BitVec 1 := Scalar.cmpi .eq c16_i32_101 c0_i32_102
  let c1_i32_103 : BitVec 32 := 1#32
  let v148 : BitVec 32 := Scalar.select v147 c1_i32_103 c16_i32_101
  let v149 : BitVec 32 := Scalar.remsi v146 v148
  let c0_i32_105 : BitVec 32 := 0#32
  let v151 : BitVec 1 := Scalar.cmpi .slt v149 c0_i32_105
  let c0_i32_106 : BitVec 32 := 0#32
  let v152 : BitVec 1 := Scalar.cmpi .slt v148 c0_i32_106
  let v153 : BitVec 1 := Scalar.xori v151 v152
  let c0_i32_104 : BitVec 32 := 0#32
  let v150 : BitVec 1 := Scalar.cmpi .ne v149 c0_i32_104
  let v154 : BitVec 1 := Scalar.andi v153 v150
  let v155 : BitVec 32 := Scalar.addi v149 v148
  let v156 : BitVec 32 := Scalar.select v154 v155 v149
  let c1_i32_108 : BitVec 32 := 1#32
  let v157 : BitVec 32 := Scalar.muli v156 c1_i32_108
  let v158 : BitVec 32 := Scalar.addi c0_i32_109 v157
  v158.toNat
def k0_dev9 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v159 : BitVec 32 := Scalar.addi v2 c9_i32
  let c16_i32_110 : BitVec 32 := 16#32
  let c0_i32_111 : BitVec 32 := 0#32
  let v160 : BitVec 1 := Scalar.cmpi .eq c16_i32_110 c0_i32_111
  let c1_i32_112 : BitVec 32 := 1#32
  let v161 : BitVec 32 := Scalar.select v160 c1_i32_112 c16_i32_110
  let v162 : BitVec 32 := Scalar.remsi v159 v161
  let c0_i32_114 : BitVec 32 := 0#32
  let v164 : BitVec 1 := Scalar.cmpi .slt v162 c0_i32_114
  let c0_i32_115 : BitVec 32 := 0#32
  let v165 : BitVec 1 := Scalar.cmpi .slt v161 c0_i32_115
  let v166 : BitVec 1 := Scalar.xori v164 v165
  let c0_i32_113 : BitVec 32 := 0#32
  let v163 : BitVec 1 := Scalar.cmpi .ne v162 c0_i32_113
  let v167 : BitVec 1 := Scalar.andi v166 v163
  let v168 : BitVec 32 := Scalar.addi v162 v161
  let v169 : BitVec 32 := Scalar.select v167 v168 v162
  let c1_i32_117 : BitVec 32 := 1#32
  let v170 : BitVec 32 := Scalar.muli v169 c1_i32_117
  let v171 : BitVec 32 := Scalar.addi c0_i32_118 v170
  v171.toNat
def k0_dev10 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v172 : BitVec 32 := Scalar.addi v2 c10_i32
  let c16_i32_119 : BitVec 32 := 16#32
  let c0_i32_120 : BitVec 32 := 0#32
  let v173 : BitVec 1 := Scalar.cmpi .eq c16_i32_119 c0_i32_120
  let c1_i32_121 : BitVec 32 := 1#32
  let v174 : BitVec 32 := Scalar.select v173 c1_i32_121 c16_i32_119
  let v175 : BitVec 32 := Scalar.remsi v172 v174
  let c0_i32_123 : BitVec 32 := 0#32
  let v177 : BitVec 1 := Scalar.cmpi .slt v175 c0_i32_123
  let c0_i32_124 : BitVec 32 := 0#32
  let v178 : BitVec 1 := Scalar.cmpi .slt v174 c0_i32_124
  let v179 : BitVec 1 := Scalar.xori v177 v178
  let c0_i32_122 : BitVec 32 := 0#32
  let v176 : BitVec 1 := Scalar.cmpi .ne v175 c0_i32_122
  let v180 : BitVec 1 := Scalar.andi v179 v176
  let v181 : BitVec 32 := Scalar.addi v175 v174
  let v182 : BitVec 32 := Scalar.select v180 v181 v175
  let c1_i32_126 : BitVec 32 := 1#32
  let v183 : BitVec 32 := Scalar.muli v182 c1_i32_126
  let v184 : BitVec 32 := Scalar.addi c0_i32_127 v183
  v184.toNat
def k0_dev11 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v185 : BitVec 32 := Scalar.addi v2 c11_i32
  let c16_i32_128 : BitVec 32 := 16#32
  let c0_i32_129 : BitVec 32 := 0#32
  let v186 : BitVec 1 := Scalar.cmpi .eq c16_i32_128 c0_i32_129
  let c1_i32_130 : BitVec 32 := 1#32
  let v187 : BitVec 32 := Scalar.select v186 c1_i32_130 c16_i32_128
  let v188 : BitVec 32 := Scalar.remsi v185 v187
  let c0_i32_132 : BitVec 32 := 0#32
  let v190 : BitVec 1 := Scalar.cmpi .slt v188 c0_i32_132
  let c0_i32_133 : BitVec 32 := 0#32
  let v191 : BitVec 1 := Scalar.cmpi .slt v187 c0_i32_133
  let v192 : BitVec 1 := Scalar.xori v190 v191
  let c0_i32_131 : BitVec 32 := 0#32
  let v189 : BitVec 1 := Scalar.cmpi .ne v188 c0_i32_131
  let v193 : BitVec 1 := Scalar.andi v192 v189
  let v194 : BitVec 32 := Scalar.addi v188 v187
  let v195 : BitVec 32 := Scalar.select v193 v194 v188
  let c1_i32_135 : BitVec 32 := 1#32
  let v196 : BitVec 32 := Scalar.muli v195 c1_i32_135
  let v197 : BitVec 32 := Scalar.addi c0_i32_136 v196
  v197.toNat
def k0_dev12 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v198 : BitVec 32 := Scalar.addi v2 c12_i32
  let c16_i32_137 : BitVec 32 := 16#32
  let c0_i32_138 : BitVec 32 := 0#32
  let v199 : BitVec 1 := Scalar.cmpi .eq c16_i32_137 c0_i32_138
  let c1_i32_139 : BitVec 32 := 1#32
  let v200 : BitVec 32 := Scalar.select v199 c1_i32_139 c16_i32_137
  let v201 : BitVec 32 := Scalar.remsi v198 v200
  let c0_i32_141 : BitVec 32 := 0#32
  let v203 : BitVec 1 := Scalar.cmpi .slt v201 c0_i32_141
  let c0_i32_142 : BitVec 32 := 0#32
  let v204 : BitVec 1 := Scalar.cmpi .slt v200 c0_i32_142
  let v205 : BitVec 1 := Scalar.xori v203 v204
  let c0_i32_140 : BitVec 32 := 0#32
  let v202 : BitVec 1 := Scalar.cmpi .ne v201 c0_i32_140
  let v206 : BitVec 1 := Scalar.andi v205 v202
  let v207 : BitVec 32 := Scalar.addi v201 v200
  let v208 : BitVec 32 := Scalar.select v206 v207 v201
  let c1_i32_144 : BitVec 32 := 1#32
  let v209 : BitVec 32 := Scalar.muli v208 c1_i32_144
  let v210 : BitVec 32 := Scalar.addi c0_i32_145 v209
  v210.toNat
def k0_dev13 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v211 : BitVec 32 := Scalar.addi v2 c13_i32
  let c16_i32_146 : BitVec 32 := 16#32
  let c0_i32_147 : BitVec 32 := 0#32
  let v212 : BitVec 1 := Scalar.cmpi .eq c16_i32_146 c0_i32_147
  let c1_i32_148 : BitVec 32 := 1#32
  let v213 : BitVec 32 := Scalar.select v212 c1_i32_148 c16_i32_146
  let v214 : BitVec 32 := Scalar.remsi v211 v213
  let c0_i32_150 : BitVec 32 := 0#32
  let v216 : BitVec 1 := Scalar.cmpi .slt v214 c0_i32_150
  let c0_i32_151 : BitVec 32 := 0#32
  let v217 : BitVec 1 := Scalar.cmpi .slt v213 c0_i32_151
  let v218 : BitVec 1 := Scalar.xori v216 v217
  let c0_i32_149 : BitVec 32 := 0#32
  let v215 : BitVec 1 := Scalar.cmpi .ne v214 c0_i32_149
  let v219 : BitVec 1 := Scalar.andi v218 v215
  let v220 : BitVec 32 := Scalar.addi v214 v213
  let v221 : BitVec 32 := Scalar.select v219 v220 v214
  let c1_i32_153 : BitVec 32 := 1#32
  let v222 : BitVec 32 := Scalar.muli v221 c1_i32_153
  let v223 : BitVec 32 := Scalar.addi c0_i32_154 v222
  v223.toNat
def k0_dev14 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v224 : BitVec 32 := Scalar.addi v2 c14_i32
  let c16_i32_155 : BitVec 32 := 16#32
  let c0_i32_156 : BitVec 32 := 0#32
  let v225 : BitVec 1 := Scalar.cmpi .eq c16_i32_155 c0_i32_156
  let c1_i32_157 : BitVec 32 := 1#32
  let v226 : BitVec 32 := Scalar.select v225 c1_i32_157 c16_i32_155
  let v227 : BitVec 32 := Scalar.remsi v224 v226
  let c0_i32_159 : BitVec 32 := 0#32
  let v229 : BitVec 1 := Scalar.cmpi .slt v227 c0_i32_159
  let c0_i32_160 : BitVec 32 := 0#32
  let v230 : BitVec 1 := Scalar.cmpi .slt v226 c0_i32_160
  let v231 : BitVec 1 := Scalar.xori v229 v230
  let c0_i32_158 : BitVec 32 := 0#32
  let v228 : BitVec 1 := Scalar.cmpi .ne v227 c0_i32_158
  let v232 : BitVec 1 := Scalar.andi v231 v228
  let v233 : BitVec 32 := Scalar.addi v227 v226
  let v234 : BitVec 32 := Scalar.select v232 v233 v227
  let c1_i32_162 : BitVec 32 := 1#32
  let v235 : BitVec 32 := Scalar.muli v234 c1_i32_162
  let v236 : BitVec 32 := Scalar.addi c0_i32_163 v235
  v236.toNat
def k0_dev15 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v237 : BitVec 32 := Scalar.addi v2 c15_i32
  let c16_i32_164 : BitVec 32 := 16#32
  let c0_i32_165 : BitVec 32 := 0#32
  let v238 : BitVec 1 := Scalar.cmpi .eq c16_i32_164 c0_i32_165
  let c1_i32_166 : BitVec 32 := 1#32
  let v239 : BitVec 32 := Scalar.select v238 c1_i32_166 c16_i32_164
  let v240 : BitVec 32 := Scalar.remsi v237 v239
  let c0_i32_168 : BitVec 32 := 0#32
  let v242 : BitVec 1 := Scalar.cmpi .slt v240 c0_i32_168
  let c0_i32_169 : BitVec 32 := 0#32
  let v243 : BitVec 1 := Scalar.cmpi .slt v239 c0_i32_169
  let v244 : BitVec 1 := Scalar.xori v242 v243
  let c0_i32_167 : BitVec 32 := 0#32
  let v241 : BitVec 1 := Scalar.cmpi .ne v240 c0_i32_167
  let v245 : BitVec 1 := Scalar.andi v244 v241
  let v246 : BitVec 32 := Scalar.addi v240 v239
  let v247 : BitVec 32 := Scalar.select v245 v246 v240
  let c1_i32_171 : BitVec 32 := 1#32
  let v248 : BitVec 32 := Scalar.muli v247 c1_i32_171
  let v249 : BitVec 32 := Scalar.addi c0_i32_172 v248
  v249.toNat
def k0_off2 (d0 : Dev nD) (c1_i32_174 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v250 : BitVec 32 := Scalar.addi v2 c1_i32_174
  let c16_i32_175 : BitVec 32 := 16#32
  let c0_i32_176 : BitVec 32 := 0#32
  let v251 : BitVec 1 := Scalar.cmpi .eq c16_i32_175 c0_i32_176
  let c1_i32_177 : BitVec 32 := 1#32
  let v252 : BitVec 32 := Scalar.select v251 c1_i32_177 c16_i32_175
  let v253 : BitVec 32 := Scalar.remsi v250 v252
  let c0_i32_179 : BitVec 32 := 0#32
  let v255 : BitVec 1 := Scalar.cmpi .slt v253 c0_i32_179
  let c0_i32_180 : BitVec 32 := 0#32
  let v256 : BitVec 1 := Scalar.cmpi .slt v252 c0_i32_180
  let v257 : BitVec 1 := Scalar.xori v255 v256
  let c0_i32_178 : BitVec 32 := 0#32
  let v254 : BitVec 1 := Scalar.cmpi .ne v253 c0_i32_178
  let v258 : BitVec 1 := Scalar.andi v257 v254
  let v259 : BitVec 32 := Scalar.addi v253 v252
  let v260 : BitVec 32 := Scalar.select v258 v259 v253
  let c256_i32_181 : BitVec 32 := 256#32
  let v261 : BitVec 32 := Scalar.muli v260 c256_i32_181
  let c0_i32_189 : BitVec 32 := 0#32
  ![v261.toNat, 0]
def k0_dev16 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_174 : BitVec 32 := 1#32
  let v250 : BitVec 32 := Scalar.addi v2 c1_i32_174
  let c16_i32_175 : BitVec 32 := 16#32
  let c0_i32_176 : BitVec 32 := 0#32
  let v251 : BitVec 1 := Scalar.cmpi .eq c16_i32_175 c0_i32_176
  let c1_i32_177 : BitVec 32 := 1#32
  let v252 : BitVec 32 := Scalar.select v251 c1_i32_177 c16_i32_175
  let v253 : BitVec 32 := Scalar.remsi v250 v252
  let c0_i32_179 : BitVec 32 := 0#32
  let v255 : BitVec 1 := Scalar.cmpi .slt v253 c0_i32_179
  let c0_i32_180 : BitVec 32 := 0#32
  let v256 : BitVec 1 := Scalar.cmpi .slt v252 c0_i32_180
  let v257 : BitVec 1 := Scalar.xori v255 v256
  let c0_i32_178 : BitVec 32 := 0#32
  let v254 : BitVec 1 := Scalar.cmpi .ne v253 c0_i32_178
  let v258 : BitVec 1 := Scalar.andi v257 v254
  let v259 : BitVec 32 := Scalar.addi v253 v252
  let v260 : BitVec 32 := Scalar.select v258 v259 v253
  let c1_i32_185 : BitVec 32 := 1#32
  let v262 : BitVec 32 := Scalar.muli v260 c1_i32_185
  let v263 : BitVec 32 := Scalar.addi c0_i32_186 v262
  v263.toNat
def k0_dev17 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_190 : BitVec 32 := 2#32
  let v271 : BitVec 32 := Scalar.addi v2 c2_i32_190
  let c16_i32_191 : BitVec 32 := 16#32
  let c0_i32_192 : BitVec 32 := 0#32
  let v272 : BitVec 1 := Scalar.cmpi .eq c16_i32_191 c0_i32_192
  let c1_i32_193 : BitVec 32 := 1#32
  let v273 : BitVec 32 := Scalar.select v272 c1_i32_193 c16_i32_191
  let v274 : BitVec 32 := Scalar.remsi v271 v273
  let c0_i32_195 : BitVec 32 := 0#32
  let v276 : BitVec 1 := Scalar.cmpi .slt v274 c0_i32_195
  let c0_i32_196 : BitVec 32 := 0#32
  let v277 : BitVec 1 := Scalar.cmpi .slt v273 c0_i32_196
  let v278 : BitVec 1 := Scalar.xori v276 v277
  let c0_i32_194 : BitVec 32 := 0#32
  let v275 : BitVec 1 := Scalar.cmpi .ne v274 c0_i32_194
  let v279 : BitVec 1 := Scalar.andi v278 v275
  let v280 : BitVec 32 := Scalar.addi v274 v273
  let v281 : BitVec 32 := Scalar.select v279 v280 v274
  let c1_i32_201 : BitVec 32 := 1#32
  let v283 : BitVec 32 := Scalar.muli v281 c1_i32_201
  let v284 : BitVec 32 := Scalar.addi c0_i32_202 v283
  v284.toNat
def k0_dev18 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_206 : BitVec 32 := 3#32
  let v292 : BitVec 32 := Scalar.addi v2 c3_i32_206
  let c16_i32_207 : BitVec 32 := 16#32
  let c0_i32_208 : BitVec 32 := 0#32
  let v293 : BitVec 1 := Scalar.cmpi .eq c16_i32_207 c0_i32_208
  let c1_i32_209 : BitVec 32 := 1#32
  let v294 : BitVec 32 := Scalar.select v293 c1_i32_209 c16_i32_207
  let v295 : BitVec 32 := Scalar.remsi v292 v294
  let c0_i32_211 : BitVec 32 := 0#32
  let v297 : BitVec 1 := Scalar.cmpi .slt v295 c0_i32_211
  let c0_i32_212 : BitVec 32 := 0#32
  let v298 : BitVec 1 := Scalar.cmpi .slt v294 c0_i32_212
  let v299 : BitVec 1 := Scalar.xori v297 v298
  let c0_i32_210 : BitVec 32 := 0#32
  let v296 : BitVec 1 := Scalar.cmpi .ne v295 c0_i32_210
  let v300 : BitVec 1 := Scalar.andi v299 v296
  let v301 : BitVec 32 := Scalar.addi v295 v294
  let v302 : BitVec 32 := Scalar.select v300 v301 v295
  let c1_i32_217 : BitVec 32 := 1#32
  let v304 : BitVec 32 := Scalar.muli v302 c1_i32_217
  let v305 : BitVec 32 := Scalar.addi c0_i32_218 v304
  v305.toNat
def k0_dev19 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_222 : BitVec 32 := 4#32
  let v313 : BitVec 32 := Scalar.addi v2 c4_i32_222
  let c16_i32_223 : BitVec 32 := 16#32
  let c0_i32_224 : BitVec 32 := 0#32
  let v314 : BitVec 1 := Scalar.cmpi .eq c16_i32_223 c0_i32_224
  let c1_i32_225 : BitVec 32 := 1#32
  let v315 : BitVec 32 := Scalar.select v314 c1_i32_225 c16_i32_223
  let v316 : BitVec 32 := Scalar.remsi v313 v315
  let c0_i32_227 : BitVec 32 := 0#32
  let v318 : BitVec 1 := Scalar.cmpi .slt v316 c0_i32_227
  let c0_i32_228 : BitVec 32 := 0#32
  let v319 : BitVec 1 := Scalar.cmpi .slt v315 c0_i32_228
  let v320 : BitVec 1 := Scalar.xori v318 v319
  let c0_i32_226 : BitVec 32 := 0#32
  let v317 : BitVec 1 := Scalar.cmpi .ne v316 c0_i32_226
  let v321 : BitVec 1 := Scalar.andi v320 v317
  let v322 : BitVec 32 := Scalar.addi v316 v315
  let v323 : BitVec 32 := Scalar.select v321 v322 v316
  let c1_i32_233 : BitVec 32 := 1#32
  let v325 : BitVec 32 := Scalar.muli v323 c1_i32_233
  let v326 : BitVec 32 := Scalar.addi c0_i32_234 v325
  v326.toNat
def k0_dev20 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_238 : BitVec 32 := 5#32
  let v334 : BitVec 32 := Scalar.addi v2 c5_i32_238
  let c16_i32_239 : BitVec 32 := 16#32
  let c0_i32_240 : BitVec 32 := 0#32
  let v335 : BitVec 1 := Scalar.cmpi .eq c16_i32_239 c0_i32_240
  let c1_i32_241 : BitVec 32 := 1#32
  let v336 : BitVec 32 := Scalar.select v335 c1_i32_241 c16_i32_239
  let v337 : BitVec 32 := Scalar.remsi v334 v336
  let c0_i32_243 : BitVec 32 := 0#32
  let v339 : BitVec 1 := Scalar.cmpi .slt v337 c0_i32_243
  let c0_i32_244 : BitVec 32 := 0#32
  let v340 : BitVec 1 := Scalar.cmpi .slt v336 c0_i32_244
  let v341 : BitVec 1 := Scalar.xori v339 v340
  let c0_i32_242 : BitVec 32 := 0#32
  let v338 : BitVec 1 := Scalar.cmpi .ne v337 c0_i32_242
  let v342 : BitVec 1 := Scalar.andi v341 v338
  let v343 : BitVec 32 := Scalar.addi v337 v336
  let v344 : BitVec 32 := Scalar.select v342 v343 v337
  let c1_i32_249 : BitVec 32 := 1#32
  let v346 : BitVec 32 := Scalar.muli v344 c1_i32_249
  let v347 : BitVec 32 := Scalar.addi c0_i32_250 v346
  v347.toNat
def k0_dev21 (d0 : Dev nD) : Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_254 : BitVec 32 := 6#32
  let v355 : BitVec 32 := Scalar.addi v2 c6_i32_254
  let c16_i32_255 : BitVec 32 := 16#32
  let c0_i32_256 : BitVec 32 := 0#32
  let v356 : BitVec 1 := Scalar.cmpi .eq c16_i32_255 c0_i32_256
  let c1_i32_257 : BitVec 32 := 1#32
  let v357 : BitVec 32 := Scalar.select v356 c1_i32_257 c16_i32_255
  let v358 : BitVec 32 := Scalar.remsi v355 v357
  let c0_i32_259 : BitVec 32 := 0#32
  let v360 : BitVec 1 := Scalar.cmpi .slt v358 c0_i32_259
  let c0_i32_260 : BitVec 32 := 0#32
  let v361 : BitVec 1 := Scalar.cmpi .slt v357 c0_i32_260
  let v362 : BitVec 1 := Scalar.xori v360 v361
  let c0_i32_258 : BitVec 32 := 0#32
  let v359 : BitVec 1 := Scalar.cmpi .ne v358 c0_i32_258
  let v363 : BitVec 1 := Scalar.andi v362 v359
  let v364 : BitVec 32 := Scalar.addi v358 v357
  let v365 : BitVec 32 := Scalar.select v363 v364 v358
  let c1_i32_265 : BitVec 32 := 1#32
  let v367 : BitVec 32 := Scalar.muli v365 c1_i32_265
  let v368 : BitVec 32 := Scalar.addi c0_i32_266 v367
  v368.toNat
def k0_dev22 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_270 : BitVec 32 := 7#32
  let v376 : BitVec 32 := Scalar.addi v2 c7_i32_270
  let c16_i32_271 : BitVec 32 := 16#32
  let c0_i32_272 : BitVec 32 := 0#32
  let v377 : BitVec 1 := Scalar.cmpi .eq c16_i32_271 c0_i32_272
  let c1_i32_273 : BitVec 32 := 1#32
  let v378 : BitVec 32 := Scalar.select v377 c1_i32_273 c16_i32_271
  let v379 : BitVec 32 := Scalar.remsi v376 v378
  let c0_i32_275 : BitVec 32 := 0#32
  let v381 : BitVec 1 := Scalar.cmpi .slt v379 c0_i32_275
  let c0_i32_276 : BitVec 32 := 0#32
  let v382 : BitVec 1 := Scalar.cmpi .slt v378 c0_i32_276
  let v383 : BitVec 1 := Scalar.xori v381 v382
  let c0_i32_274 : BitVec 32 := 0#32
  let v380 : BitVec 1 := Scalar.cmpi .ne v379 c0_i32_274
  let v384 : BitVec 1 := Scalar.andi v383 v380
  let v385 : BitVec 32 := Scalar.addi v379 v378
  let v386 : BitVec 32 := Scalar.select v384 v385 v379
  let c1_i32_281 : BitVec 32 := 1#32
  let v388 : BitVec 32 := Scalar.muli v386 c1_i32_281
  let v389 : BitVec 32 := Scalar.addi c0_i32_282 v388
  v389.toNat
def k0_dev23 (d0 : Dev nD) : Nat :=
  let c0_i32_298 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_286 : BitVec 32 := 8#32
  let v397 : BitVec 32 := Scalar.addi v2 c8_i32_286
  let c16_i32_287 : BitVec 32 := 16#32
  let c0_i32_288 : BitVec 32 := 0#32
  let v398 : BitVec 1 := Scalar.cmpi .eq c16_i32_287 c0_i32_288
  let c1_i32_289 : BitVec 32 := 1#32
  let v399 : BitVec 32 := Scalar.select v398 c1_i32_289 c16_i32_287
  let v400 : BitVec 32 := Scalar.remsi v397 v399
  let c0_i32_291 : BitVec 32 := 0#32
  let v402 : BitVec 1 := Scalar.cmpi .slt v400 c0_i32_291
  let c0_i32_292 : BitVec 32 := 0#32
  let v403 : BitVec 1 := Scalar.cmpi .slt v399 c0_i32_292
  let v404 : BitVec 1 := Scalar.xori v402 v403
  let c0_i32_290 : BitVec 32 := 0#32
  let v401 : BitVec 1 := Scalar.cmpi .ne v400 c0_i32_290
  let v405 : BitVec 1 := Scalar.andi v404 v401
  let v406 : BitVec 32 := Scalar.addi v400 v399
  let v407 : BitVec 32 := Scalar.select v405 v406 v400
  let c1_i32_297 : BitVec 32 := 1#32
  let v409 : BitVec 32 := Scalar.muli v407 c1_i32_297
  let v410 : BitVec 32 := Scalar.addi c0_i32_298 v409
  v410.toNat
def k0_dev24 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_302 : BitVec 32 := 9#32
  let v418 : BitVec 32 := Scalar.addi v2 c9_i32_302
  let c16_i32_303 : BitVec 32 := 16#32
  let c0_i32_304 : BitVec 32 := 0#32
  let v419 : BitVec 1 := Scalar.cmpi .eq c16_i32_303 c0_i32_304
  let c1_i32_305 : BitVec 32 := 1#32
  let v420 : BitVec 32 := Scalar.select v419 c1_i32_305 c16_i32_303
  let v421 : BitVec 32 := Scalar.remsi v418 v420
  let c0_i32_307 : BitVec 32 := 0#32
  let v423 : BitVec 1 := Scalar.cmpi .slt v421 c0_i32_307
  let c0_i32_308 : BitVec 32 := 0#32
  let v424 : BitVec 1 := Scalar.cmpi .slt v420 c0_i32_308
  let v425 : BitVec 1 := Scalar.xori v423 v424
  let c0_i32_306 : BitVec 32 := 0#32
  let v422 : BitVec 1 := Scalar.cmpi .ne v421 c0_i32_306
  let v426 : BitVec 1 := Scalar.andi v425 v422
  let v427 : BitVec 32 := Scalar.addi v421 v420
  let v428 : BitVec 32 := Scalar.select v426 v427 v421
  let c1_i32_313 : BitVec 32 := 1#32
  let v430 : BitVec 32 := Scalar.muli v428 c1_i32_313
  let v431 : BitVec 32 := Scalar.addi c0_i32_314 v430
  v431.toNat
def k0_dev25 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_318 : BitVec 32 := 10#32
  let v439 : BitVec 32 := Scalar.addi v2 c10_i32_318
  let c16_i32_319 : BitVec 32 := 16#32
  let c0_i32_320 : BitVec 32 := 0#32
  let v440 : BitVec 1 := Scalar.cmpi .eq c16_i32_319 c0_i32_320
  let c1_i32_321 : BitVec 32 := 1#32
  let v441 : BitVec 32 := Scalar.select v440 c1_i32_321 c16_i32_319
  let v442 : BitVec 32 := Scalar.remsi v439 v441
  let c0_i32_323 : BitVec 32 := 0#32
  let v444 : BitVec 1 := Scalar.cmpi .slt v442 c0_i32_323
  let c0_i32_324 : BitVec 32 := 0#32
  let v445 : BitVec 1 := Scalar.cmpi .slt v441 c0_i32_324
  let v446 : BitVec 1 := Scalar.xori v444 v445
  let c0_i32_322 : BitVec 32 := 0#32
  let v443 : BitVec 1 := Scalar.cmpi .ne v442 c0_i32_322
  let v447 : BitVec 1 := Scalar.andi v446 v443
  let v448 : BitVec 32 := Scalar.addi v442 v441
  let v449 : BitVec 32 := Scalar.select v447 v448 v442
  let c1_i32_329 : BitVec 32 := 1#32
  let v451 : BitVec 32 := Scalar.muli v449 c1_i32_329
  let v452 : BitVec 32 := Scalar.addi c0_i32_330 v451
  v452.toNat
def k0_dev26 (d0 : Dev nD) : Nat :=
  let c0_i32_346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_334 : BitVec 32 := 11#32
  let v460 : BitVec 32 := Scalar.addi v2 c11_i32_334
  let c16_i32_335 : BitVec 32 := 16#32
  let c0_i32_336 : BitVec 32 := 0#32
  let v461 : BitVec 1 := Scalar.cmpi .eq c16_i32_335 c0_i32_336
  let c1_i32_337 : BitVec 32 := 1#32
  let v462 : BitVec 32 := Scalar.select v461 c1_i32_337 c16_i32_335
  let v463 : BitVec 32 := Scalar.remsi v460 v462
  let c0_i32_339 : BitVec 32 := 0#32
  let v465 : BitVec 1 := Scalar.cmpi .slt v463 c0_i32_339
  let c0_i32_340 : BitVec 32 := 0#32
  let v466 : BitVec 1 := Scalar.cmpi .slt v462 c0_i32_340
  let v467 : BitVec 1 := Scalar.xori v465 v466
  let c0_i32_338 : BitVec 32 := 0#32
  let v464 : BitVec 1 := Scalar.cmpi .ne v463 c0_i32_338
  let v468 : BitVec 1 := Scalar.andi v467 v464
  let v469 : BitVec 32 := Scalar.addi v463 v462
  let v470 : BitVec 32 := Scalar.select v468 v469 v463
  let c1_i32_345 : BitVec 32 := 1#32
  let v472 : BitVec 32 := Scalar.muli v470 c1_i32_345
  let v473 : BitVec 32 := Scalar.addi c0_i32_346 v472
  v473.toNat
def k0_dev27 (d0 : Dev nD) : Nat :=
  let c0_i32_362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_350 : BitVec 32 := 12#32
  let v481 : BitVec 32 := Scalar.addi v2 c12_i32_350
  let c16_i32_351 : BitVec 32 := 16#32
  let c0_i32_352 : BitVec 32 := 0#32
  let v482 : BitVec 1 := Scalar.cmpi .eq c16_i32_351 c0_i32_352
  let c1_i32_353 : BitVec 32 := 1#32
  let v483 : BitVec 32 := Scalar.select v482 c1_i32_353 c16_i32_351
  let v484 : BitVec 32 := Scalar.remsi v481 v483
  let c0_i32_355 : BitVec 32 := 0#32
  let v486 : BitVec 1 := Scalar.cmpi .slt v484 c0_i32_355
  let c0_i32_356 : BitVec 32 := 0#32
  let v487 : BitVec 1 := Scalar.cmpi .slt v483 c0_i32_356
  let v488 : BitVec 1 := Scalar.xori v486 v487
  let c0_i32_354 : BitVec 32 := 0#32
  let v485 : BitVec 1 := Scalar.cmpi .ne v484 c0_i32_354
  let v489 : BitVec 1 := Scalar.andi v488 v485
  let v490 : BitVec 32 := Scalar.addi v484 v483
  let v491 : BitVec 32 := Scalar.select v489 v490 v484
  let c1_i32_361 : BitVec 32 := 1#32
  let v493 : BitVec 32 := Scalar.muli v491 c1_i32_361
  let v494 : BitVec 32 := Scalar.addi c0_i32_362 v493
  v494.toNat
def k0_dev28 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_366 : BitVec 32 := 13#32
  let v502 : BitVec 32 := Scalar.addi v2 c13_i32_366
  let c16_i32_367 : BitVec 32 := 16#32
  let c0_i32_368 : BitVec 32 := 0#32
  let v503 : BitVec 1 := Scalar.cmpi .eq c16_i32_367 c0_i32_368
  let c1_i32_369 : BitVec 32 := 1#32
  let v504 : BitVec 32 := Scalar.select v503 c1_i32_369 c16_i32_367
  let v505 : BitVec 32 := Scalar.remsi v502 v504
  let c0_i32_371 : BitVec 32 := 0#32
  let v507 : BitVec 1 := Scalar.cmpi .slt v505 c0_i32_371
  let c0_i32_372 : BitVec 32 := 0#32
  let v508 : BitVec 1 := Scalar.cmpi .slt v504 c0_i32_372
  let v509 : BitVec 1 := Scalar.xori v507 v508
  let c0_i32_370 : BitVec 32 := 0#32
  let v506 : BitVec 1 := Scalar.cmpi .ne v505 c0_i32_370
  let v510 : BitVec 1 := Scalar.andi v509 v506
  let v511 : BitVec 32 := Scalar.addi v505 v504
  let v512 : BitVec 32 := Scalar.select v510 v511 v505
  let c1_i32_377 : BitVec 32 := 1#32
  let v514 : BitVec 32 := Scalar.muli v512 c1_i32_377
  let v515 : BitVec 32 := Scalar.addi c0_i32_378 v514
  v515.toNat
def k0_dev29 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_382 : BitVec 32 := 14#32
  let v523 : BitVec 32 := Scalar.addi v2 c14_i32_382
  let c16_i32_383 : BitVec 32 := 16#32
  let c0_i32_384 : BitVec 32 := 0#32
  let v524 : BitVec 1 := Scalar.cmpi .eq c16_i32_383 c0_i32_384
  let c1_i32_385 : BitVec 32 := 1#32
  let v525 : BitVec 32 := Scalar.select v524 c1_i32_385 c16_i32_383
  let v526 : BitVec 32 := Scalar.remsi v523 v525
  let c0_i32_387 : BitVec 32 := 0#32
  let v528 : BitVec 1 := Scalar.cmpi .slt v526 c0_i32_387
  let c0_i32_388 : BitVec 32 := 0#32
  let v529 : BitVec 1 := Scalar.cmpi .slt v525 c0_i32_388
  let v530 : BitVec 1 := Scalar.xori v528 v529
  let c0_i32_386 : BitVec 32 := 0#32
  let v527 : BitVec 1 := Scalar.cmpi .ne v526 c0_i32_386
  let v531 : BitVec 1 := Scalar.andi v530 v527
  let v532 : BitVec 32 := Scalar.addi v526 v525
  let v533 : BitVec 32 := Scalar.select v531 v532 v526
  let c1_i32_393 : BitVec 32 := 1#32
  let v535 : BitVec 32 := Scalar.muli v533 c1_i32_393
  let v536 : BitVec 32 := Scalar.addi c0_i32_394 v535
  v536.toNat
def k0_dev30 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_398 : BitVec 32 := 15#32
  let v544 : BitVec 32 := Scalar.addi v2 c15_i32_398
  let c16_i32_399 : BitVec 32 := 16#32
  let c0_i32_400 : BitVec 32 := 0#32
  let v545 : BitVec 1 := Scalar.cmpi .eq c16_i32_399 c0_i32_400
  let c1_i32_401 : BitVec 32 := 1#32
  let v546 : BitVec 32 := Scalar.select v545 c1_i32_401 c16_i32_399
  let v547 : BitVec 32 := Scalar.remsi v544 v546
  let c0_i32_403 : BitVec 32 := 0#32
  let v549 : BitVec 1 := Scalar.cmpi .slt v547 c0_i32_403
  let c0_i32_404 : BitVec 32 := 0#32
  let v550 : BitVec 1 := Scalar.cmpi .slt v546 c0_i32_404
  let v551 : BitVec 1 := Scalar.xori v549 v550
  let c0_i32_402 : BitVec 32 := 0#32
  let v548 : BitVec 1 := Scalar.cmpi .ne v547 c0_i32_402
  let v552 : BitVec 1 := Scalar.andi v551 v548
  let v553 : BitVec 32 := Scalar.addi v547 v546
  let v554 : BitVec 32 := Scalar.select v552 v553 v547
  let c1_i32_409 : BitVec 32 := 1#32
  let v556 : BitVec 32 := Scalar.muli v554 c1_i32_409
  let v557 : BitVec 32 := Scalar.addi c0_i32_410 v556
  v557.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_419 : BitVec 32 := 256#32
  let v570 : BitVec 32 := Scalar.muli v2 c256_i32_419
  let v571 : Index := Scalar.indexCast v570
  let c0 : Index := 0#32
  ![v571.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S3_S1_0 : ∀ a, (![0] : Fin 1 → Nat) a + S1.size a ≤ S3.size a
  squeezes_S1_S_ : S1.Squeezes S_
  inb_S3x256x8192_S1x256x8192_0_0_0 : ∀ a, (![0, 0, 0] : Fin 3 → Nat) a + S1x256x8192.size a ≤ S3x256x8192.size a
  squeezes_S1x256x8192_S256x8192 : S1x256x8192.Squeezes S256x8192
  inb_S3_S1_1 : ∀ a, (![1] : Fin 1 → Nat) a + S1.size a ≤ S3.size a
  inb_S3x256x8192_S1x256x8192_1_0_0 : ∀ a, (![1, 0, 0] : Fin 3 → Nat) a + S1x256x8192.size a ≤ S3x256x8192.size a
  inb_S3_S1_2 : ∀ a, (![2] : Fin 1 → Nat) a + S1.size a ≤ S3.size a
  inb_S3x256x8192_S1x256x8192_2_0_0 : ∀ a, (![2, 0, 0] : Fin 3 → Nat) a + S1x256x8192.size a ≤ S3x256x8192.size a
  hamt_1 : (1#32 : BitVec 32).msb = false
  hamt_15 : (15#32 : BitVec 32).msb = false
  inb_S16_S1_1 : ∀ a, (![1] : Fin 1 → Nat) a + S1.size a ≤ S16.size a
  inb_S16x256x256_S1x256x256_1_0_0 : ∀ a, (![1, 0, 0] : Fin 3 → Nat) a + S1x256x256.size a ≤ S16x256x256.size a
  squeezes_S1x256x256_S256x256 : S1x256x256.Squeezes S256x256
  inb_S16_S1_2 : ∀ a, (![2] : Fin 1 → Nat) a + S1.size a ≤ S16.size a
  inb_S16x256x256_S1x256x256_2_0_0 : ∀ a, (![2, 0, 0] : Fin 3 → Nat) a + S1x256x256.size a ≤ S16x256x256.size a
  inb_S16_S1_3 : ∀ a, (![3] : Fin 1 → Nat) a + S1.size a ≤ S16.size a
  inb_S16x256x256_S1x256x256_3_0_0 : ∀ a, (![3, 0, 0] : Fin 3 → Nat) a + S1x256x256.size a ≤ S16x256x256.size a
  inb_S16_S1_4 : ∀ a, (![4] : Fin 1 → Nat) a + S1.size a ≤ S16.size a
  inb_S16x256x256_S1x256x256_4_0_0 : ∀ a, (![4, 0, 0] : Fin 3 → Nat) a + S1x256x256.size a ≤ S16x256x256.size a
  inb_S16_S1_5 : ∀ a, (![5] : Fin 1 → Nat) a + S1.size a ≤ S16.size a
  inb_S16x256x256_S1x256x256_5_0_0 : ∀ a, (![5, 0, 0] : Fin 3 → Nat) a + S1x256x256.size a ≤ S16x256x256.size a
  inb_S16_S1_6 : ∀ a, (![6] : Fin 1 → Nat) a + S1.size a ≤ S16.size a
  inb_S16x256x256_S1x256x256_6_0_0 : ∀ a, (![6, 0, 0] : Fin 3 → Nat) a + S1x256x256.size a ≤ S16x256x256.size a
  inb_S16_S1_7 : ∀ a, (![7] : Fin 1 → Nat) a + S1.size a ≤ S16.size a
  inb_S16x256x256_S1x256x256_7_0_0 : ∀ a, (![7, 0, 0] : Fin 3 → Nat) a + S1x256x256.size a ≤ S16x256x256.size a
  inb_S16_S1_8 : ∀ a, (![8] : Fin 1 → Nat) a + S1.size a ≤ S16.size a
  inb_S16x256x256_S1x256x256_8_0_0 : ∀ a, (![8, 0, 0] : Fin 3 → Nat) a + S1x256x256.size a ≤ S16x256x256.size a
  inb_S16_S1_9 : ∀ a, (![9] : Fin 1 → Nat) a + S1.size a ≤ S16.size a
  inb_S16x256x256_S1x256x256_9_0_0 : ∀ a, (![9, 0, 0] : Fin 3 → Nat) a + S1x256x256.size a ≤ S16x256x256.size a
  inb_S16_S1_10 : ∀ a, (![10] : Fin 1 → Nat) a + S1.size a ≤ S16.size a
  inb_S16x256x256_S1x256x256_10_0_0 : ∀ a, (![10, 0, 0] : Fin 3 → Nat) a + S1x256x256.size a ≤ S16x256x256.size a
  inb_S16_S1_11 : ∀ a, (![11] : Fin 1 → Nat) a + S1.size a ≤ S16.size a
  inb_S16x256x256_S1x256x256_11_0_0 : ∀ a, (![11, 0, 0] : Fin 3 → Nat) a + S1x256x256.size a ≤ S16x256x256.size a
  inb_S16_S1_12 : ∀ a, (![12] : Fin 1 → Nat) a + S1.size a ≤ S16.size a
  inb_S16x256x256_S1x256x256_12_0_0 : ∀ a, (![12, 0, 0] : Fin 3 → Nat) a + S1x256x256.size a ≤ S16x256x256.size a
  inb_S16_S1_13 : ∀ a, (![13] : Fin 1 → Nat) a + S1.size a ≤ S16.size a
  inb_S16x256x256_S1x256x256_13_0_0 : ∀ a, (![13, 0, 0] : Fin 3 → Nat) a + S1x256x256.size a ≤ S16x256x256.size a
  inb_S16_S1_14 : ∀ a, (![14] : Fin 1 → Nat) a + S1.size a ≤ S16.size a
  inb_S16x256x256_S1x256x256_14_0_0 : ∀ a, (![14, 0, 0] : Fin 3 → Nat) a + S1x256x256.size a ≤ S16x256x256.size a
  inb_S16_S1_15 : ∀ a, (![15] : Fin 1 → Nat) a + S1.size a ≤ S16.size a
  inb_S16x256x256_S1x256x256_15_0_0 : ∀ a, (![15, 0, 0] : Fin 3 → Nat) a + S1x256x256.size a ≤ S16x256x256.size a
  h_S256x256 : 0 < S256x256.numel
  shapeCasts_S256x256_S256x256 : S256x256.ShapeCasts S256x256
  h_S1x256x8192 : 0 < S1x256x8192.numel
  shapeCasts_S1x256x8192_S256x8192 : S1x256x8192.ShapeCasts S256x8192
  inb_S256x8192_S256x8192_0_0 : ∀ a, (![0, 0] : Fin 2 → Nat) a + S256x8192.size a ≤ S256x8192.size a
  h_S256x8192 : 0 < S256x8192.numel
  h_S1x256x256 : 0 < S1x256x256.numel
  shapeCasts_S1x256x256_S256x256 : S1x256x256.ShapeCasts S256x256
  shapeCasts_S256x8192_S256x8192 : S256x8192.ShapeCasts S256x8192
  dot_S256x256_S256x8192_S256x8192_1_0_0_1_n_n_wf : DotDims.WF S256x256 S256x8192 S256x8192 [1] [0] [0] [1] [] []
  hcc0_scratch2 : 2 + S16.numel ≤ 37
  hcc0_scratch3 : 18 + S16.numel ≤ 37
  hcc0_scratch4 : 34 + S3.numel ≤ 37
  k0_off1_inb : ∀ d0 : Dev nD, ∀ (r : Fin 16), ∀ a, (k0_off1 d0 (BitVec.ofNat 32 r.val)) a + S256x8192.size a ≤ S4096x8192.size a
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off2_inb : ∀ d0 : Dev nD, ∀ (r : Fin 15), ∀ a, (k0_off2 d0 (BitVec.ofNat 32 (1 + r.val))) a + S256x256.size a ≤ S4096x256.size a
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off3_inb : ∀ d0 : Dev nD, ∀ a, (k0_off3 d0) a + S256x256.size a ≤ S4096x256.size a
  hstage0_0 : ∀ j, (stage0_0 j).IsWhole
  hstage0_1 : ∀ j, (stage0_1 j).IsWhole

variable [Facts₀]

abbrev cc0_scratch2 : DmaSems sig S16 := SemArray.consecutive 2 S16 hcc0_scratch2
abbrev cc0_scratch3 : DmaSems sig S16 := SemArray.consecutive 18 S16 hcc0_scratch3
abbrev cc0_scratch4 : DmaSems sig S3 := SemArray.consecutive 34 S3 hcc0_scratch4
def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.Mesh.lean ====
/-
  The mesh arithmetic of the sixteen-device all-to-all.

  Device `c` sends, for every offset `e = 1 … 15`, one 256-row slab of its column block to the device
  `e` places after it on the ring (`fwd c e`, the residue of `c + e` modulo 16), and receives into its
  slot `e` from the device `e` places before it (`bwd c e`, the residue of `c - e`).  The kernel
  computes these residues by a signed remainder followed by a sign correction; here each printed
  chain is evaluated once over the mesh and stated as the residue it is.
-/
import proofs.«900405_g7700000000000406_dist_a2a_gemm_m4096_k4096_n8192_f32_gelu_v7x_i16_1_alg».proof.Proof.Gen.KernelIdeal

set_option Elab.async false

namespace Cert.KernelIdeal.Mesh

open Cert.KernelIdeal Cert.KernelIdeal.Gen Idealize.ShloMosaic Idealize.SL.Sem

/-- The device `e` places after `c` on the ring of sixteen. -/
def fwd (c : Dev nD) (e : Fin 16) : Dev nD := ⟨(c.val + e.val) % 16, Nat.mod_lt _ (by decide)⟩
/-- The device `e` places before `c`. -/
def bwd (c : Dev nD) (e : Fin 16) : Dev nD := ⟨(c.val + 16 - e.val) % 16, Nat.mod_lt _ (by decide)⟩

theorem bwd_fwd (c : Dev nD) (e : Fin 16) : bwd (fwd c e) e = c := by revert c e; decide
theorem fwd_bwd (c : Dev nD) (e : Fin 16) : fwd (bwd c e) e = c := by revert c e; decide
theorem fwd_zero (c : Dev nD) : fwd c 0 = c := by revert c; decide
theorem bwd_zero (c : Dev nD) : bwd c 0 = c := by revert c; decide
/-- Going `e` forward is going `16 - e` back. -/
theorem fwd_eq_bwd_neg (c : Dev nD) (e : Fin 16) : fwd c e = bwd c (-e) := by revert c e; decide
theorem fwd_ne_self (c : Dev nD) (e : Fin 16) (he : e ≠ 0) : fwd c e ≠ c := by revert c e; decide
theorem fwd_inj_off (c : Dev nD) : Function.Injective (fwd c) := by revert c; decide

/-- Moving every device `e` places forward permutes the mesh. -/
def rot (e : Fin 16) : Dev nD ≃ Dev nD := ⟨fun c => fwd c e, fun c => bwd c e, fun c => bwd_fwd c e, fun c => fwd_bwd c e⟩

theorem k0_dev1_eq : ∀ d0 : Dev nD, k0_dev1 d0 = (d0.val + 1) % 16 := by decide +kernel
theorem k0_dev2_eq : ∀ d0 : Dev nD, k0_dev2 d0 = (d0.val + 2) % 16 := by decide +kernel
theorem k0_dev3_eq : ∀ d0 : Dev nD, k0_dev3 d0 = (d0.val + 3) % 16 := by decide +kernel
theorem k0_dev4_eq : ∀ d0 : Dev nD, k0_dev4 d0 = (d0.val + 4) % 16 := by decide +kernel
theorem k0_dev5_eq : ∀ d0 : Dev nD, k0_dev5 d0 = (d0.val + 5) % 16 := by decide +kernel
theorem k0_dev6_eq : ∀ d0 : Dev nD, k0_dev6 d0 = (d0.val + 6) % 16 := by decide +kernel
theorem k0_dev7_eq : ∀ d0 : Dev nD, k0_dev7 d0 = (d0.val + 7) % 16 := by decide +kernel
theorem k0_dev8_eq : ∀ d0 : Dev nD, k0_dev8 d0 = (d0.val + 8) % 16 := by decide +kernel
theorem k0_dev9_eq : ∀ d0 : Dev nD, k0_dev9 d0 = (d0.val + 9) % 16 := by decide +kernel
theorem k0_dev10_eq : ∀ d0 : Dev nD, k0_dev10 d0 = (d0.val + 10) % 16 := by decide +kernel
theorem k0_dev11_eq : ∀ d0 : Dev nD, k0_dev11 d0 = (d0.val + 11) % 16 := by decide +kernel
theorem k0_dev12_eq : ∀ d0 : Dev nD, k0_dev12 d0 = (d0.val + 12) % 16 := by decide +kernel
theorem k0_dev13_eq : ∀ d0 : Dev nD, k0_dev13 d0 = (d0.val + 13) % 16 := by decide +kernel
theorem k0_dev14_eq : ∀ d0 : Dev nD, k0_dev14 d0 = (d0.val + 14) % 16 := by decide +kernel
theorem k0_dev15_eq : ∀ d0 : Dev nD, k0_dev15 d0 = (d0.val + 15) % 16 := by decide +kernel
theorem k0_dev16_eq : ∀ d0 : Dev nD, k0_dev16 d0 = (d0.val + 1) % 16 := by decide +kernel
theorem k0_dev17_eq : ∀ d0 : Dev nD, k0_dev17 d0 = (d0.val + 2) % 16 := by decide +kernel
theorem k0_dev18_eq : ∀ d0 : Dev nD, k0_dev18 d0 = (d0.val + 3) % 16 := by decide +kernel
theorem k0_dev19_eq : ∀ d0 : Dev nD, k0_dev19 d0 = (d0.val + 4) % 16 := by decide +kernel
theorem k0_dev20_eq : ∀ d0 : Dev nD, k0_dev20 d0 = (d0.val + 5) % 16 := by decide +kernel
theorem k0_dev21_eq : ∀ d0 : Dev nD, k0_dev21 d0 = (d0.val + 6) % 16 := by decide +kernel
theorem k0_dev22_eq : ∀ d0 : Dev nD, k0_dev22 d0 = (d0.val + 7) % 16 := by decide +kernel
theorem k0_dev23_eq : ∀ d0 : Dev nD, k0_dev23 d0 = (d0.val + 8) % 16 := by decide +kernel
theorem k0_dev24_eq : ∀ d0 : Dev nD, k0_dev24 d0 = (d0.val + 9) % 16 := by decide +kernel
theorem k0_dev25_eq : ∀ d0 : Dev nD, k0_dev25 d0 = (d0.val + 10) % 16 := by decide +kernel
theorem k0_dev26_eq : ∀ d0 : Dev nD, k0_dev26 d0 = (d0.val + 11) % 16 := by decide +kernel
theorem k0_dev27_eq : ∀ d0 : Dev nD, k0_dev27 d0 = (d0.val + 12) % 16 := by decide +kernel
theorem k0_dev28_eq : ∀ d0 : Dev nD, k0_dev28 d0 = (d0.val + 13) % 16 := by decide +kernel
theorem k0_dev29_eq : ∀ d0 : Dev nD, k0_dev29 d0 = (d0.val + 14) % 16 := by decide +kernel
theorem k0_dev30_eq : ∀ d0 : Dev nD, k0_dev30 d0 = (d0.val + 15) % 16 := by decide +kernel

/-- The barrier signals address the devices 1 … 15 places forward, in that order; -/
theorem dev1_eq (c : Dev nD) : (⟨k0_dev1 c, k0_dev1_lt c⟩ : Dev nD) = fwd c 1 := Fin.ext (k0_dev1_eq c)
theorem dev2_eq (c : Dev nD) : (⟨k0_dev2 c, k0_dev2_lt c⟩ : Dev nD) = fwd c 2 := Fin.ext (k0_dev2_eq c)
theorem dev3_eq (c : Dev nD) : (⟨k0_dev3 c, k0_dev3_lt c⟩ : Dev nD) = fwd c 3 := Fin.ext (k0_dev3_eq c)
theorem dev4_eq (c : Dev nD) : (⟨k0_dev4 c, k0_dev4_lt c⟩ : Dev nD) = fwd c 4 := Fin.ext (k0_dev4_eq c)
theorem dev5_eq (c : Dev nD) : (⟨k0_dev5 c, k0_dev5_lt c⟩ : Dev nD) = fwd c 5 := Fin.ext (k0_dev5_eq c)
theorem dev6_eq (c : Dev nD) : (⟨k0_dev6 c, k0_dev6_lt c⟩ : Dev nD) = fwd c 6 := Fin.ext (k0_dev6_eq c)
theorem dev7_eq (c : Dev nD) : (⟨k0_dev7 c, k0_dev7_lt c⟩ : Dev nD) = fwd c 7 := Fin.ext (k0_dev7_eq c)
theorem dev8_eq (c : Dev nD) : (⟨k0_dev8 c, k0_dev8_lt c⟩ : Dev nD) = fwd c 8 := Fin.ext (k0_dev8_eq c)
theorem dev9_eq (c : Dev nD) : (⟨k0_dev9 c, k0_dev9_lt c⟩ : Dev nD) = fwd c 9 := Fin.ext (k0_dev9_eq c)
theorem dev10_eq (c : Dev nD) : (⟨k0_dev10 c, k0_dev10_lt c⟩ : Dev nD) = fwd c 10 := Fin.ext (k0_dev10_eq c)
theorem dev11_eq (c : Dev nD) : (⟨k0_dev11 c, k0_dev11_lt c⟩ : Dev nD) = fwd c 11 := Fin.ext (k0_dev11_eq c)
theorem dev12_eq (c : Dev nD) : (⟨k0_dev12 c, k0_dev12_lt c⟩ : Dev nD) = fwd c 12 := Fin.ext (k0_dev12_eq c)
theorem dev13_eq (c : Dev nD) : (⟨k0_dev13 c, k0_dev13_lt c⟩ : Dev nD) = fwd c 13 := Fin.ext (k0_dev13_eq c)
theorem dev14_eq (c : Dev nD) : (⟨k0_dev14 c, k0_dev14_lt c⟩ : Dev nD) = fwd c 14 := Fin.ext (k0_dev14_eq c)
theorem dev15_eq (c : Dev nD) : (⟨k0_dev15 c, k0_dev15_lt c⟩ : Dev nD) = fwd c 15 := Fin.ext (k0_dev15_eq c)
/-- and so do the fifteen slab transfers. -/
theorem dev16_eq (c : Dev nD) : (⟨k0_dev16 c, k0_dev16_lt c⟩ : Dev nD) = fwd c 1 := Fin.ext (k0_dev16_eq c)
theorem dev17_eq (c : Dev nD) : (⟨k0_dev17 c, k0_dev17_lt c⟩ : Dev nD) = fwd c 2 := Fin.ext (k0_dev17_eq c)
theorem dev18_eq (c : Dev nD) : (⟨k0_dev18 c, k0_dev18_lt c⟩ : Dev nD) = fwd c 3 := Fin.ext (k0_dev18_eq c)
theorem dev19_eq (c : Dev nD) : (⟨k0_dev19 c, k0_dev19_lt c⟩ : Dev nD) = fwd c 4 := Fin.ext (k0_dev19_eq c)
theorem dev20_eq (c : Dev nD) : (⟨k0_dev20 c, k0_dev20_lt c⟩ : Dev nD) = fwd c 5 := Fin.ext (k0_dev20_eq c)
theorem dev21_eq (c : Dev nD) : (⟨k0_dev21 c, k0_dev21_lt c⟩ : Dev nD) = fwd c 6 := Fin.ext (k0_dev21_eq c)
theorem dev22_eq (c : Dev nD) : (⟨k0_dev22 c, k0_dev22_lt c⟩ : Dev nD) = fwd c 7 := Fin.ext (k0_dev22_eq c)
theorem dev23_eq (c : Dev nD) : (⟨k0_dev23 c, k0_dev23_lt c⟩ : Dev nD) = fwd c 8 := Fin.ext (k0_dev23_eq c)
theorem dev24_eq (c : Dev nD) : (⟨k0_dev24 c, k0_dev24_lt c⟩ : Dev nD) = fwd c 9 := Fin.ext (k0_dev24_eq c)
theorem dev25_eq (c : Dev nD) : (⟨k0_dev25 c, k0_dev25_lt c⟩ : Dev nD) = fwd c 10 := Fin.ext (k0_dev25_eq c)
theorem dev26_eq (c : Dev nD) : (⟨k0_dev26 c, k0_dev26_lt c⟩ : Dev nD) = fwd c 11 := Fin.ext (k0_dev26_eq c)
theorem dev27_eq (c : Dev nD) : (⟨k0_dev27 c, k0_dev27_lt c⟩ : Dev nD) = fwd c 12 := Fin.ext (k0_dev27_eq c)
theorem dev28_eq (c : Dev nD) : (⟨k0_dev28 c, k0_dev28_lt c⟩ : Dev nD) = fwd c 13 := Fin.ext (k0_dev28_eq c)
theorem dev29_eq (c : Dev nD) : (⟨k0_dev29 c, k0_dev29_lt c⟩ : Dev nD) = fwd c 14 := Fin.ext (k0_dev29_eq c)
theorem dev30_eq (c : Dev nD) : (⟨k0_dev30 c, k0_dev30_lt c⟩ : Dev nD) = fwd c 15 := Fin.ext (k0_dev30_eq c)

/-- Step `k` of the accumulation reads the 256 rows of the weight matrix that belong to the device `k` places back. -/
theorem k0_off1_eq : ∀ d0 : Dev nD, ∀ r : Fin 16, k0_off1 d0 (BitVec.ofNat 32 r.val) = ![256 * ((d0.val + 16 - r.val) % 16), 0] := by decide +kernel
/-- The slab sent `e` places forward is the 256 rows the receiver will multiply: rows `256 · (c + e mod 16)`. -/
theorem k0_off2_eq : ∀ d0 : Dev nD, ∀ r : Fin 15, k0_off2 d0 (BitVec.ofNat 32 (1 + r.val)) = ![256 * ((d0.val + (1 + r.val)) % 16), 0] := by decide +kernel

end Cert.KernelIdeal.Mesh
-- ==== Proof.Schedule.lean ====
/-
  The protocol of the sixteen-device all-to-all, as one round per semaphore cell.

  Every device `c` owns, besides the barrier cell, a send cell and a receive cell for each offset
  `e = 1 … 15`.  Transfer `e` of device `c` carries the 256 rows of `c`'s column block that belong to
  the device `e` places forward (`fwd c e`) into slot `e` of that device's landing scratch; it credits
  `c`'s send cell `e` once its rows are read and the receiver's receive cell `e` once they are written.
  So slot `e` of device `c` ends holding rows `256·c … 256·c + 255` of the column block of the device
  `e` places back (`bwd c e`).

  Before any transfer each device tells every other device, on the barrier cell, that its landing
  scratch exists.  Duty `e` of `c`'s barrier cell is the unit signalled by `fwd c e`; it hands `c`
  that device's slot `e` — the slot transfer `e` of `c` writes — and the fact that the device has
  opened its receive cell `e`.

  A cell's only round is round 0.  The barrier cell has fifteen duties of one unit; a send or a receive
  cell one duty of the block's credit.
-/
import proofs.«900405_g7700000000000406_dist_a2a_gemm_m4096_k4096_n8192_f32_gelu_v7x_i16_1_alg».proof.Proof.Mesh
import proofs.«900405_g7700000000000406_dist_a2a_gemm_m4096_k4096_n8192_f32_gelu_v7x_i16_1_alg».proof.Proof.Gen.KernelIdeal.Skeleton
import proofs.«900405_g7700000000000406_dist_a2a_gemm_m4096_k4096_n8192_f32_gelu_v7x_i16_1_alg».proof.Proof.Gen.KernelIdeal.Launch
import Idealize.ShloMosaic.Lib.Pipeline.Launch
import Idealize.ShloMosaic.Lib.Pipeline.Kit
import Idealize.ShloMosaic.Lib.Pipeline.Value
import Idealize.ShloMosaic.Lib.Transfers
import Idealize.ShloMosaic.Lib.Tactic

noncomputable section

namespace Cert.KernelIdeal.A2A

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the rounds of this protocol (duties named by an offset), and the
    counters of the local weight copies -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER (F := F)).LandsIn (upEmb : UEmb _ (MT nD τ sig Unit (Elt F) ℕ UU ℕ)) := by unfold ER; infer_instance

variable (m : (ℓ : Loc nD τ sig) → Buf (Elt F) ℓ) (ρ : Dev nD → PrngReg)

/-! ## Memrefs and cells -/

/-- The column block as staged for the body, the result's staging buffer, the landing scratch, the weight slots. -/
abbrev xM : Memref sig .tc .vmem S4096x256 .f32 := Memref.whole cc0_stg0_0
abbrev oM : Memref sig .tc .vmem S256x8192 .f32 := Memref.whole cc0_stg1_0
abbrev rM : Memref sig .tc .vmem S16x256x256 .f32 := Memref.whole cc0_scratch0
abbrev wbM : Memref sig .tc .vmem S3x256x8192 .f32 := Memref.whole cc0_scratch1

abbrev barS : Sem sig := (SemArray.scalar (sig.barrier 0 rfl) : Sems sig S_).sem

/-- Transfer `r` (of fifteen) goes `1 + r` places forward. -/
def off (r : Fin 15) : Fin 16 := ⟨1 + r.val, by omega⟩

theorem sem_inb (r : Fin 15) : ∀ a, (![1 + r.val] : Fin 1 → Nat) a + S1.size a ≤ S16.size a := by
  revert r; decide
theorem slot_inb (r : Fin 15) : ∀ a, (![1 + r.val, 0, 0] : Fin 3 → Nat) a + S1x256x256.size a ≤ S16x256x256.size a := by
  revert r; decide

/-- The send semaphore of transfer `r`, -/
abbrev sendS (r : Fin 15) : DmaSems sig S_ := (cc0_scratch2.slice (Rect.unit (s := S16) ![1 + r.val] S1.size (sem_inb r))).squeeze S_ squeezes_S1_S_
/-- the receive semaphore of slot `1 + r`, -/
abbrev recvS (r : Fin 15) : DmaSems sig S_ := (cc0_scratch3.slice (Rect.unit (s := S16) ![1 + r.val] S1.size (sem_inb r))).squeeze S_ squeezes_S1_S_
/-- and slot `1 + r` of the landing scratch: a 256 × 256 block. -/
abbrev slot (r : Fin 15) : Memref sig .tc .vmem S256x256 .f32 :=
  ((Memref.whole cc0_scratch0 : Memref sig .tc .vmem S16x256x256 .f32).slice (Rect.unit (s := S16x256x256) ![1 + r.val, 0, 0] S1x256x256.size (slot_inb r)) (fun _ => rfl)).squeeze S256x256 squeezes_S1x256x256_S256x256
/-- The rows of `c`'s column block that transfer `r` carries: rows `256 · (c + 1 + r mod 16)` on. -/
abbrev slab (c : Dev nD) (r : Fin 15) : Memref sig .tc .vmem S256x256 .f32 :=
  xM.slice (Rect.unit (s := S4096x256) (k0_off2 c (BitVec.ofNat 32 (1 + r.val))) S256x256.size (k0_off2_inb c r)) (fun _ => rfl)
/-- The rows `c` multiplies itself: rows `256 · c` on. -/
abbrev slab0 (c : Dev nD) : Memref sig .tc .vmem S256x256 .f32 :=
  xM.slice (Rect.unit (s := S4096x256) (k0_off3 c) S256x256.size (k0_off3_inb c)) (fun _ => rfl)

abbrev barCell (c : Dev nD) : GSem nD τ sig := ((c : Thread nD τ), .reg barS)
abbrev sendCell (c : Dev nD) (r : Fin 15) : GSem nD τ sig := ((c : Thread nD τ), .dma (sendS r).sem)
abbrev recvCell (c : Dev nD) (r : Fin 15) : GSem nD τ sig := ((c : Thread nD τ), .dma (recvS r).sem)

/-- The credit of one 256 × 256 block. -/
abbrev N : ℕ := (slot 0).view.dmaCredit
theorem N_pos : 0 < N := View.dmaCredit_pos _ (by decide)

/-- Which transfer a semaphore of the send array, or of the receive array, serves. -/
def sendOf (q : DmaSem sig) : Option (Fin 15) := if h : 3 ≤ q.val ∧ q.val ≤ 17 then some ⟨q.val - 3, by omega⟩ else none
def recvOf (q : DmaSem sig) : Option (Fin 15) := if h : 19 ≤ q.val ∧ q.val ≤ 33 then some ⟨q.val - 19, by omega⟩ else none

theorem sendOf_sendS : ∀ r : Fin 15, sendOf (sendS r).sem = some r := by decide
theorem recvOf_recvS : ∀ r : Fin 15, recvOf (recvS r).sem = some r := by decide
theorem recvOf_sendS : ∀ r : Fin 15, recvOf (sendS r).sem = none := by decide
theorem sendOf_recvS : ∀ r : Fin 15, sendOf (recvS r).sem = none := by decide

/-! ## Contents -/

/-- Device `c`'s column block as the body finds it staged. -/
def xstg (c : Dev nD) : (cc0_stg0_0 : Ref sig .tc).ty.Contents (Elt F) :=
  (win0_0.blk t0_0).view.read (Elt F) (m ((c : Thread nD τ).loc main_arg0))

/-- The rows transfer `r` of device `s` carries, as a 256 × 256 block. -/
def sentBlock (s : Dev nD) (r : Fin 15) : S256x256.Idx → Elt F .f32 := (slab s r).view.read (Elt F) (xstg m s)

/-- What slot `1 + r` of device `c` holds once transfer `r` of the device `1 + r` places back has landed: that device's
    rows `256·c …` written over the slot (the scratch's other elements are not the slot's; `base` stands for them). -/
def landed (c : Dev nD) (r : Fin 15) (base : Buf (Elt F) ((slot r).view.loc (c : Thread nD τ))) : Buf (Elt F) ((slot r).view.loc (c : Thread nD τ)) :=
  (slot r).view.write (Elt F) base (sentBlock m (bwd c (off r)) r) Finset.univ

def slotPts (c : Dev nD) (r : Fin 15) (f : Buf (Elt F) ((slot r).view.loc (c : Thread nD τ))) : sProp 𝕄 :=
  (slot r).view.loc (c : Thread nD τ) ↦[(slot r).view.set]{fullShare} f
/-- The staged column block is only read: transfer `r` borrows its rows at a share of its own, the `r`-th of fifteen
    read tokens cut from the full share. -/
def xShare (r : Fin 15) : PosShare TreeShare := Transfers.shareTok fullShare 15 r
def slabPts (c : Dev nD) (r : Fin 15) : sProp 𝕄 :=
  (slab c r).view.loc (c : Thread nD τ) ↦[(slab c r).view.set]{xShare r} xstg m c

omit [FloatOps F] in
/-- Only a slot's own elements matter to its points-to: a landing written over any base contents is the same. -/
theorem slotPts_landed (c : Dev nD) (r : Fin 15) (b b' : Buf (Elt F) ((slot r).view.loc (c : Thread nD τ))) :
    slotPts c r (landed m c r b) = slotPts c r (landed m c r b') := by
  unfold slotPts landed
  refine pointsTo_congr fun i hi => ?_
  obtain ⟨y, rfl⟩ := View.exists_emb_of_mem_set _ hi
  rw [View.write_emb_of_mem _ _ (Finset.mem_univ y), View.write_emb_of_mem _ _ (Finset.mem_univ y)]

/-- Some contents of the slot's buffer, to state a landing over. -/
def base₀ (c : Dev nD) (r : Fin 15) : Buf (Elt F) ((slot r).view.loc (c : Thread nD τ)) := Classical.arbitrary _

/-! ## The schedule -/

/-- What duty `r` of `c`'s barrier cell hands `c`: slot `1 + r` of the device `1 + r` places forward, at some contents,
    and that that device has opened its receive cell `r` — what `c`'s transfer `r` needs. -/
def barPay (c : Dev nD) (r : Fin 15) : sProp 𝕄 :=
  iprop((∃ f, slotPts (fwd c (off r)) r f) ∗ reached ER (recvCell (fwd c (off r)) r) 0)
/-- What the landing of transfer `r` hands its receiver: the slot, holding the sender's rows. -/
def recvPay (c : Dev nD) (r : Fin 15) : sProp 𝕄 := iprop(∃ b, slotPts c r (landed m c r b))
/-- What the departure of transfer `r` hands its sender back: its rows. -/
def sendPay (c : Dev nD) (r : Fin 15) : sProp 𝕄 := slabPts m c r

omit [FloatOps F] in
instance slotPts_storable (c : Dev nD) (r : Fin 15) (f) : BI.Storable (upEmb : UEmb _ 𝕄) (slotPts (F := F) c r f) := by unfold slotPts; infer_instance
omit [FloatOps F] in
instance slabPts_storable (c : Dev nD) (r : Fin 15) : BI.Storable (upEmb : UEmb _ 𝕄) (slabPts (F := F) m c r) := by unfold slabPts; infer_instance

/-- One round, round 0.  A barrier cell's duties are the fifteen offsets, one unit each; a send or receive cell has the
    one duty `0` of the block's credit. -/
def a2aRd : Rounds.Schedule (GSem nD τ sig) (Fin 15) 𝕄 where
  duties g r := if r = 0 ∧ g.1.2 = .tc then
      (match g.2 with
        | .reg s => if s = barS then Finset.univ else ∅
        | .dma q => if (sendOf q).isSome ∨ (recvOf q).isSome then {0} else ∅)
    else ∅
  unitless _ := False
  amount g _ _ := match g.2 with
    | .reg _ => 1
    | .dma _ => N
  payload g _ d := match g.2 with
    | .reg _ => barPay g.1.1 d
    | .dma q => match sendOf q with
      | some r => sendPay m g.1.1 r
      | none => match recvOf q with
        | some r => recvPay m g.1.1 r
        | none => iprop(emp)
  amount_pos g _ _ _ := by
    cases g.2 with
    | reg _ => exact Nat.one_pos
    | dma _ => exact N_pos

instance a2aRd_payload_storable (g : GSem nD τ sig) (r : ℕ) (d : Fin 15) :
    BI.Storable (upEmb : UEmb _ 𝕄) ((a2aRd (F := F) m).payload g r d) := by
  obtain ⟨th, sm⟩ := g
  cases sm with
  | reg s => show BI.Storable upEmb (barPay th.1 d); unfold barPay; infer_instance
  | dma q =>
    show BI.Storable upEmb (match sendOf q with
      | some r => sendPay m th.1 r
      | none => match recvOf q with
        | some r => recvPay m th.1 r
        | none => iprop(emp))
    cases sendOf q with
    | some r => show BI.Storable upEmb (sendPay m th.1 r); unfold sendPay; infer_instance
    | none =>
      cases recvOf q with
      | some r => show BI.Storable upEmb (recvPay m th.1 r); unfold recvPay; infer_instance
      | none => show BI.Storable upEmb iprop(emp); infer_instance

section Tables
variable (c : Dev nD) (r : Fin 15)

theorem duties_bar : (a2aRd (F := F) m).duties (barCell c) 0 = Finset.univ := by
  dsimp only [a2aRd]
  rw [if_pos ⟨rfl, rfl⟩, if_pos rfl]
theorem duties_send : (a2aRd (F := F) m).duties (sendCell c r) 0 = {0} := by
  dsimp only [a2aRd]
  rw [if_pos ⟨rfl, rfl⟩, if_pos (Or.inl (by rw [sendOf_sendS]; rfl))]
theorem duties_recv : (a2aRd (F := F) m).duties (recvCell c r) 0 = {0} := by
  dsimp only [a2aRd]
  rw [if_pos ⟨rfl, rfl⟩, if_pos (Or.inr (by rw [recvOf_recvS]; rfl))]
theorem duties_later (g : GSem nD τ sig) : ∀ k, 1 ≤ k → (a2aRd (F := F) m).duties g k = ∅ :=
  fun k hk => by dsimp only [a2aRd]; rw [if_neg fun h => by omega]

theorem amount_bar (d : Fin 15) : (a2aRd (F := F) m).amount (barCell c) 0 d = 1 := rfl
theorem amount_send (d : Fin 15) : (a2aRd (F := F) m).amount (sendCell c r) 0 d = N := rfl
theorem amount_recv (d : Fin 15) : (a2aRd (F := F) m).amount (recvCell c r) 0 d = N := rfl

theorem expect_bar : (a2aRd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send : (a2aRd (F := F) m).expect (sendCell c r) 0 = N := by
  unfold Schedule.expect Schedule.amountOf; rw [duties_send, Finset.sum_singleton, amount_send]
theorem expect_recv : (a2aRd (F := F) m).expect (recvCell c r) 0 = N := by
  unfold Schedule.expect Schedule.amountOf; rw [duties_recv, Finset.sum_singleton, amount_recv]

theorem payload_bar (d : Fin 15) : (a2aRd (F := F) m).payload (barCell c) 0 d = barPay c d := rfl
theorem payload_send (d : Fin 15) : (a2aRd (F := F) m).payload (sendCell c r) 0 d = sendPay m c r := by
  show (match sendOf (sendS r).sem with
      | some r => sendPay m c r
      | none => match recvOf (sendS r).sem with
        | some r => recvPay m c r
        | none => iprop(emp)) = _
  rw [sendOf_sendS]
theorem payload_recv (d : Fin 15) : (a2aRd (F := F) m).payload (recvCell c r) 0 d = recvPay m c r := by
  show (match sendOf (recvS r).sem with
      | some r => sendPay m c r
      | none => match recvOf (recvS r).sem with
        | some r => recvPay m c r
        | none => iprop(emp)) = _
  rw [sendOf_recvS, recvOf_recvS]

end Tables

end Cert.KernelIdeal.A2A

end
-- ==== Proof.Data.lean ====
/-
  What each device holds when its body starts, what it owes, and the pipeline's proof data.

  Device `c` pays, in this order: fifteen barrier units, signal `j` going to the device `1 + j` places forward, where
  it is duty `14 - j` (that device sees `c` at `15 - j` places forward); then fifteen transfers, transfer `r` crediting
  the receive cell `r` of the device `1 + r` places forward and `c`'s own send cell `r`.  It waits for fifteen units on its
  own barrier cell, and once on each of its receive and send cells.

  Levels: a barrier cell sits at 1, a receive cell at 2, every other cell at 0.  At its barrier wait a device owes only
  receive cells; at every later wait it owes nothing.
-/
import proofs.«900405_g7700000000000406_dist_a2a_gemm_m4096_k4096_n8192_f32_gelu_v7x_i16_1_alg».proof.Proof.Schedule

noncomputable section

namespace Cert.KernelIdeal.A2A

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells of one device -/

abbrev CK : Type := Unit ⊕ (Fin 15 ⊕ Fin 15)
abbrev CK.bar : CK := .inl ()
abbrev CK.send (r : Fin 15) : CK := .inr (.inl r)
abbrev CK.recv (r : Fin 15) : CK := .inr (.inr r)

abbrev csem : CK → SemLoc sig
  | .inl _ => .reg barS
  | .inr (.inl r) => .dma (sendS r).sem
  | .inr (.inr r) => .dma (recvS r).sem
abbrev kcell (ck : Dev nD × CK) : GSem nD τ sig := ((ck.1 : Thread nD τ), csem ck.2)

theorem sendS_inj : ∀ r r' : Fin 15, (sendS r).sem = (sendS r').sem → r = r' := by decide
theorem recvS_inj : ∀ r r' : Fin 15, (recvS r).sem = (recvS r').sem → r = r' := by decide
theorem sendS_ne_recvS : ∀ r r' : Fin 15, (sendS r).sem ≠ (recvS r').sem := by decide
theorem csem_injective : Function.Injective csem := by
  rintro (⟨⟩ | r | r) (⟨⟩ | r' | r') h
  · rfl
  · exact absurd h (fun h' => by cases h')
  · exact absurd h (fun h' => by cases h')
  · exact absurd h (fun h' => by cases h')
  · rw [sendS_inj r r' (SemLoc.dma.inj h)]
  · exact absurd (SemLoc.dma.inj h) (sendS_ne_recvS r r')
  · exact absurd h (fun h' => by cases h')
  · exact absurd (SemLoc.dma.inj h).symm (sendS_ne_recvS r' r)
  · rw [recvS_inj r r' (SemLoc.dma.inj h)]

/-- Signal `j` is duty `14 - j` of the barrier cell it reaches. -/
def rev (j : Fin 15) : Fin 15 := ⟨14 - j.val, by omega⟩
theorem rev_rev (j : Fin 15) : rev (rev j) = j := by revert j; decide
theorem fwd_fwd_rev (c : Dev nD) (j : Fin 15) : fwd (fwd c (off j)) (off (rev j)) = c := by revert c j; decide
theorem off_ne_zero (r : Fin 15) : off r ≠ 0 := by revert r; decide

/-! ## What a device owes, and the levels -/

/-- Device `c` owes every other device's barrier cell a unit and the receive cell its transfer lands on the block's
    credit — written as the sum the body pays off from the right. -/
def O₀ (c : Dev nD) : CellTallies nD τ sig Unit :=
  tallyAt (recvCell (fwd c (off 14)) 14) () N
    + tallyAt (recvCell (fwd c (off 13)) 13) () N
    + tallyAt (recvCell (fwd c (off 12)) 12) () N
    + tallyAt (recvCell (fwd c (off 11)) 11) () N
    + tallyAt (recvCell (fwd c (off 10)) 10) () N
    + tallyAt (recvCell (fwd c (off 9)) 9) () N
    + tallyAt (recvCell (fwd c (off 8)) 8) () N
    + tallyAt (recvCell (fwd c (off 7)) 7) () N
    + tallyAt (recvCell (fwd c (off 6)) 6) () N
    + tallyAt (recvCell (fwd c (off 5)) 5) () N
    + tallyAt (recvCell (fwd c (off 4)) 4) () N
    + tallyAt (recvCell (fwd c (off 3)) 3) () N
    + tallyAt (recvCell (fwd c (off 2)) 2) () N
    + tallyAt (recvCell (fwd c (off 1)) 1) () N
    + tallyAt (recvCell (fwd c (off 0)) 0) () N
    + tallyAt (barCell (fwd c (off 14))) () 1
    + tallyAt (barCell (fwd c (off 13))) () 1
    + tallyAt (barCell (fwd c (off 12))) () 1
    + tallyAt (barCell (fwd c (off 11))) () 1
    + tallyAt (barCell (fwd c (off 10))) () 1
    + tallyAt (barCell (fwd c (off 9))) () 1
    + tallyAt (barCell (fwd c (off 8))) () 1
    + tallyAt (barCell (fwd c (off 7))) () 1
    + tallyAt (barCell (fwd c (off 6))) () 1
    + tallyAt (barCell (fwd c (off 5))) () 1
    + tallyAt (barCell (fwd c (off 4))) () 1
    + tallyAt (barCell (fwd c (off 3))) () 1
    + tallyAt (barCell (fwd c (off 2))) () 1
    + tallyAt (barCell (fwd c (off 1))) () 1
    + tallyAt (barCell (fwd c (off 0))) () 1

def L (g : GSem nD τ sig) : Finset Unit := if g.1.2 = .tc then {()} else ∅
/-- barrier cells at 1, receive cells at 2, everything else (staging, send, the weight copies' cells) at 0. -/
def lv (g : GSem nD τ sig) (_ : Unit) : ℕ := match g.2 with
  | .reg s => if s = barS then 1 else 0
  | .dma q => if (recvOf q).isSome then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device starts from -/

/-- The cells' invariants device `c`'s body opens, under the names `K` the launch allocated them at: its own thirty-one,
    the fifteen barrier cells it signals, the fifteen receive cells its transfers credit. -/
def invs (K : Dev nD × CK → ℕ) (c : Dev nD) : sProp 𝕄 :=
  iprop(cellInv ER (a2aRd m) (K (c, CK.bar)) (barCell c)
    ∗ (bigSep Finset.univ fun r : Fin 15 => cellInv ER (a2aRd m) (K (c, CK.send r)) (sendCell c r))
    ∗ (bigSep Finset.univ fun r : Fin 15 => cellInv ER (a2aRd m) (K (c, CK.recv r)) (recvCell c r))
    ∗ (bigSep Finset.univ fun j : Fin 15 => cellInv ER (a2aRd m) (K (fwd c (off j), CK.bar)) (barCell (fwd c (off j))))
    ∗ (bigSep Finset.univ fun r : Fin 15 => cellInv ER (a2aRd m) (K (fwd c (off r), CK.recv r)) (recvCell (fwd c (off r)) r)))

/-- Its positions at round 0 of its own cells. -/
def positions (c : Dev nD) : sProp 𝕄 :=
  iprop(atPos ER (barCell c) 0 ∅ 0
    ∗ (bigSep Finset.univ fun r : Fin 15 => atPos ER (sendCell c r) 0 ∅ 0)
    ∗ (bigSep Finset.univ fun r : Fin 15 => atPos ER (recvCell c r) 0 ∅ 0))

/-- Round 0 reached, of the cells it pays and of its own send and receive cells. -/
def marks (c : Dev nD) : sProp 𝕄 :=
  iprop((bigSep Finset.univ fun j : Fin 15 => reached ER (barCell (fwd c (off j))) 0)
    ∗ (bigSep Finset.univ fun r : Fin 15 => reached ER (recvCell (fwd c (off r)) r) 0)
    ∗ (bigSep Finset.univ fun r : Fin 15 => reached ER (sendCell c r) 0)
    ∗ (bigSep Finset.univ fun r : Fin 15 => reached ER (recvCell c r) 0))

/-- The tokens of the duties it pays. -/
def payToks (c : Dev nD) : sProp 𝕄 :=
  iprop((bigSep Finset.univ fun j : Fin 15 => dutyTok ER (barCell (fwd c (off j))) 0 (rev j))
    ∗ (bigSep Finset.univ fun r : Fin 15 => dutyTok ER (recvCell (fwd c (off r)) r) 0 0)
    ∗ (bigSep Finset.univ fun r : Fin 15 => dutyTok ER (sendCell c r) 0 0))

def ghost (K : Dev nD × CK → ℕ) (c : Dev nD) : sProp 𝕄 :=
  iprop(invs m K c ∗ positions c ∗ marks c ∗ payToks c)

/-- The semaphores of the kernel's scratch that no other device touches: the unused first cell of the send and of the
    receive array, and the three cells of the weight copies.  Their counters stay in the device's hand. -/
abbrev idleSem : Fin 5 → SemLoc sig
  | 0 => .dma (⟨2, by decide⟩ : DmaSem sig)
  | 1 => .dma (⟨18, by decide⟩ : DmaSem sig)
  | 2 => .dma (⟨34, by decide⟩ : DmaSem sig)
  | 3 => .dma (⟨35, by decide⟩ : DmaSem sig)
  | 4 => .dma (⟨36, by decide⟩ : DmaSem sig)
def idleSems (c : Dev nD) : sProp 𝕄 := bigSep Finset.univ fun i : Fin 5 => semVal ((c : Thread nD τ), idleSem i) 0

/-- What device `c`'s body starts from besides its buffers: the ghost state at some names, the credit dealt at launch for
    what the others owe its cells, the level facts, and the counters nobody else touches. -/
def start (c : Dev nD) : sProp 𝕄 :=
  iprop((∃ K, ghost m K c) ∗ cred (tallyAt (barCell c) () 15)
    ∗ (bigSep Finset.univ fun r : Fin 15 => cred (tallyAt (recvCell c r) () N))
    ∗ levAts L lv ∗ idleSems c)

/-- The weight matrix, which the body reads through copies of its own and the pipeline does not stage. -/
def wPts (c : Dev nD) : sProp 𝕄 := ((c : Thread nD τ).loc main_arg1) ↦{fullShare} m ((c : Thread nD τ).loc main_arg1)

def Φ₀ (c : Dev nD) : sProp 𝕄 :=
  iprop(start m c ∗ wPts m c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- After the point: the weight matrix as it was, the two scratch buffers at some contents, and every counter of the kernel's
    own thirty-five semaphores back at zero (the barrier cell is the runtime's: nothing to hand back). -/
def Φ₁ (c : Dev nD) : sProp 𝕄 :=
  iprop(wPts m c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep Finset.univ fun r : Fin 15 => semVal (sendCell c r) 0)
    ∗ (bigSep Finset.univ fun r : Fin 15 => semVal (recvCell c r) 0)
    ∗ idleSems c)

/-! ## The result, and the pipeline's proof data -/

/-- The weight matrix as the body's copies read it. -/
abbrev wM : Memref sig .tc .hbm S4096x8192 .f32 := Memref.whole main_arg1

theorem wslot_inb (i : Fin 3) : ∀ a, (![i.val, 0, 0] : Fin 3 → Nat) a + S1x256x8192.size a ≤ S3x256x8192.size a := by
  revert i; decide

/-- Slot `i` of the three weight slots; -/
abbrev wslot (i : Fin 3) : Memref sig .tc .vmem S256x8192 .f32 :=
  (wbM.slice (Rect.unit (s := S3x256x8192) ![i.val, 0, 0] S1x256x8192.size (wslot_inb i)) (fun _ => rfl)).squeeze S256x8192 squeezes_S1x256x8192_S256x8192
/-- the 256 rows of the weight matrix that step `k` multiplies: those of the device `k` places back. -/
abbrev wsrc (c : Dev nD) (k : Fin 16) : Memref sig .tc .hbm S256x8192 .f32 :=
  wM.slice (Rect.unit (s := S4096x8192) (k0_off1 c (BitVec.ofNat 32 k.val)) S256x8192.size (k0_off1_inb c k)) (fun _ => rfl)

/-- Step `k` uses weight slot `k mod 3`. -/
def wslotOf (k : Fin 16) : Fin 3 := ⟨k.val % 3, Nat.mod_lt _ (by decide)⟩

/-- What weight slot `k mod 3` holds when step `k` reads it: the rows of step `k`, written over the slot. -/
def wlanded (c : Dev nD) (k : Fin 16) (base : Buf (Elt F) ((wslot (wslotOf k)).view.loc (c : Thread nD τ))) : Buf (Elt F) ((wslot (wslotOf k)).view.loc (c : Thread nD τ)) :=
  (wslot (wslotOf k)).view.write (Elt F) base ((wsrc c k).view.read (Elt F) (m ((c : Thread nD τ).loc main_arg1))) Finset.univ

/-- The body's arithmetic composed: sixteen products accumulated in order, then the activation. -/
def outTerm (a0 : Vec F S256x256 .f32) (a : Fin 15 → Vec F S1x256x256 .f32) (w : Fin 16 → Vec F S1x256x8192 .f32) : FVec F S256x8192 .f32 :=
  k0_pay21 (k0_pay20 (a 14) (w 15) (k0_pay19 (a 13) (w 14) (k0_pay18 (a 12) (w 13) (k0_pay17 (a 11) (w 12)
    (k0_pay16 (k0_pay14 (a 10)) (k0_pay15 (w 11)) (constant S256x8192 .f32 0x00000000#32)
    (k0_pay13 (a 9) (w 10) (k0_pay12 (a 8) (w 9) (k0_pay11 (k0_pay10 (a 7)) (w 8) (k0_pay9 (a 6) (w 7) (k0_pay8 (a 5) (w 6)
    (k0_pay7 (k0_pay6 (a 4)) (w 5) (k0_pay5 (a 3) (w 4) (k0_pay4 (a 2) (w 3) (k0_pay3 (a 1) (w 2) (k0_pay2 (a 0) (w 1) (k0_pay1 a0 (w 0)))))))))))))))))

/-- The device's own rows as step 0 loads them, -/
def a0At (c : Dev nD) : Vec F S256x256 .f32 :=
  xM.view.readAt (Elt F) (Rect.unit (s := S4096x256) (k0_off3 c) S256x256.size (k0_off3_inb c)).toLoadRect (xstg m c)
/-- slot `1 + i` as step `1 + i` loads it, -/
def aAt (c : Dev nD) (i : Fin 15) : Vec F S1x256x256 .f32 :=
  rM.view.readAt (Elt F) (Rect.unit (s := S16x256x256) ![1 + i.val, 0, 0] S1x256x256.size (slot_inb i)).toLoadRect (landed m c i (base₀ c i))
/-- and weight slot `k mod 3` as step `k` loads it. -/
def wAt (c : Dev nD) (k : Fin 16) : Vec F S1x256x8192 .f32 :=
  wbM.view.readAt (Elt F) (Rect.unit (s := S3x256x8192) ![(wslotOf k).val, 0, 0] S1x256x8192.size (wslot_inb (wslotOf k))).toLoadRect (wlanded m c k (Classical.arbitrary _))

/-- The kernel's result on device `c`. -/
def outAt (c : Dev nD) : (cc0_stg1_0 : Ref sig .tc).ty.Contents (Elt F) := outTerm (a0At m c) (aAt m c) (wAt m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.A2A

end
-- ==== Proof.AssembleFrame.lean ====
/-
  From a run of the whole mesh to its final arrays.

  A run of the program leaves, on every device, each array the kernel call stages at what the write-backs of the call's
  one grid point made of it, and the weight matrix untouched. The column block is an input: it is never written back,
  so it ends as it started. The result array is written back once, whole, with what the body left in its staging
  buffer; so it ends holding exactly that. The frame of the program (it terminates, faults nowhere, leaves both
  arguments unchanged) is read off such a run.
-/
import proofs.«900405_g7700000000000406_dist_a2a_gemm_m4096_k4096_n8192_f32_gelu_v7x_i16_1_alg».proof.Proof.Data
import proofs.«900405_g7700000000000406_dist_a2a_gemm_m4096_k4096_n8192_f32_gelu_v7x_i16_1_alg».proof.Proof.Gen.KernelIdeal.Points
import Idealize.ShloMosaic.Lib.Pipeline.Value
import Idealize.ShloMosaic.Lib.Pipeline.Cells

noncomputable section

namespace Cert.KernelIdeal.A2A

open Cert.KernelIdeal Cert.KernelIdeal.Gen Cert.KernelIdeal.Mesh

open Idealize.ShloMosaic
open Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- What a run of the mesh ends with: on every device, each staged array at its final contents and the weight matrix
    as it was. -/
def RunPost : PUnit × MemSt nD τ sig (Elt F) → Prop := fun r => ∀ c : Dev nD,
  (∀ w : Fin cfg0.W, r.2.mem ((cfg0.win w).arr.view.loc (c : Thread nD τ)) = (dats m ρ 0 c).arrAt w cfg0.N)
  ∧ r.2.mem ((c : Thread nD τ).loc main_arg1) = m ((c : Thread nD τ).loc main_arg1)

/-- The column block is an input of the call: it ends as it started. -/
theorem finalA_x (c : Dev nD) : (dats m ρ 0 c).arrAt (0 : Fin 2) cfg0.N = m ((c : Thread nD τ).loc main_arg0) :=
  (dats (F := F) m ρ 0 c).arrAt_in (0 : Fin 2) rfl _

/-- The result array is written back once, whole: it ends holding what the body left for it. -/
theorem finalA_out (c : Dev nD) : (dats m ρ 0 c).arrAt (1 : Fin 2) cfg0.N = outAt m c := by
  refine (dats (F := F) m ρ 0 c).arrAt_eq_of_cover (1 : Fin 2) (outAt m c) (fun t _ => ?_) (fun i => ⟨t0_0, flush0_1 t0_0, ?_⟩)
  · exact (Memref.read_access_unit_zero (Elt F) main_v1 (funext fun a => Nat.zero_mul _) _ (outAt m c)).symm
  · show i ∈ ((View.whole main_v1).slice (win0_1.rect t0_0)).set
    rw [View.set_slice_whole, Rect.mem_set_unit]
    intro a
    refine ⟨?_, ?_⟩
    · show 0 * win0_1.size a ≤ (i a : ℕ)
      rw [Nat.zero_mul]; exact Nat.zero_le _
    · show (i a : ℕ) < 0 * win0_1.size a + win0_1.size a
      rw [Nat.zero_mul, Nat.zero_add]; exact (i a).isLt

/-- The frame, read off a run: every fair execution terminates without a fault, and both argument arrays end as they
    started. -/
theorem frame_of_run (hrun : θ_run (defs (F := F)) (onTc (τ := τ) (main (F := F))) (s₀ m ρ) (RunPost m ρ)) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (finalA_x m ρ c), (h c).2⟩) hrun

end Cert.KernelIdeal.A2A

end
-- ==== Proof.RefSide.lean ====
/-
  The reference side of the certificate: the reference's frame, and the reference's result as ONE function of the
  whole argument arrays X : f32[4096,4096] and W : f32[4096,8192], read index by index:
  entry (r, q) is act (∑ t, X[r,t] · W[t,q]) with
  act y = (1/2 · y) · (1 + tanh (c₁ · (y + c₀ · ((y·y)·y)))), the tanh form of GELU on one extended real.
-/
import proofs.«900405_g7700000000000406_dist_a2a_gemm_m4096_k4096_n8192_f32_gelu_v7x_i16_1_alg».proof.Defs
import proofs.«900405_g7700000000000406_dist_a2a_gemm_m4096_k4096_n8192_f32_gelu_v7x_i16_1_alg».proof.Proof.Gen.Pre_finite_inputs_ReferenceIdeal
import proofs.«900405_g7700000000000406_dist_a2a_gemm_m4096_k4096_n8192_f32_gelu_v7x_i16_1_alg».proof.Proof.Gen.ReferenceIdeal.Read
import Idealize.ShloMosaic.Lib.ValueIdx
import Idealize.ShloMosaic.PureOps.Ideal.Laws

noncomputable section

open Idealize.ShloMosaic Idealize.SL.Sem Idealize.ShloMosaic.ValueIdx

namespace Cert.Proof.RefSide

/-- The reference runs to the end, faults nowhere and leaves its two argument arrays as they were. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

namespace Cert.Bridge

/-- The activation on one extended real: (1/2 · y) · (1 + tanh (c₁ · (y + c₀ · ((y·y)·y)))), where 1/2, c₀, c₁ and 1
    are the extended reals that the four f32 words below denote (the same four words occur on both sides of the
    certificate, so their values are never needed). -/
def act (y : EReal) : EReal :=
  (Ideal.ofBits .f32 0x3F000000#32 * y)
    * (Ideal.ofBits .f32 0x3F800000#32
        + Ideal.tanh (Ideal.ofBits .f32 0x3F4C422A#32 * (y + Ideal.ofBits .f32 0x3D372713#32 * ((y * y) * y))))

/-- The reference's result as one function of the whole argument arrays: the activation of the matrix product. -/
def refG (X : FVec Ideal Cert.ReferenceIdeal.S4096x4096 .f32) (W : FVec Ideal Cert.ReferenceIdeal.S4096x8192 .f32) :
    FVec Ideal Cert.ReferenceIdeal.S4096x8192 .f32 :=
  fun i => act (∑ t : Fin 4096, X (ix2 (i 0) t) * W (ix2 t (i 1)))

/-- At an index given by its coordinates. -/
theorem refG_apply (X : FVec Ideal Cert.ReferenceIdeal.S4096x4096 .f32) (W : FVec Ideal Cert.ReferenceIdeal.S4096x8192 .f32)
    (r : Fin 4096) (q : Fin 8192) :
    refG X W (ix2 r q) = act (∑ t : Fin 4096, X (ix2 r t) * W (ix2 t q)) := rfl

open Cert.ReferenceIdeal Cert.ReferenceIdeal.Read in
/-- The reference's last stage, as a function of the two argument arrays, is `refG`: entry by entry the host's
    contraction is the sum over the 4096 shared coordinates, and the pointwise stages compose to `act`. -/
theorem ref_term_eq (X : (⟨S4096x4096, .f32⟩ : BufTy).Contents (Elt Ideal)) (W : (⟨S4096x8192, .f32⟩ : BufTy).Contents (Elt Ideal)) :
    val_main_v13 (F := Ideal) X W = refG X W := by
  funext i
  have el : ∀ k : Fin 4096, lidx_main_v0 i k = ix2 (i 0) k := fun k =>
    funext fun a => Fin.ext (by match a with | ⟨0, _⟩ => rfl | ⟨1, _⟩ => rfl)
  have er : ∀ k : Fin 4096, ridx_main_v0 i k = ix2 k (i 1) := fun k =>
    funext fun a => Fin.ext (by match a with | ⟨0, _⟩ => rfl | ⟨1, _⟩ => rfl)
  rw [val_main_v13_apply, val_main_v2_apply, val_main_v12_apply, val_main_v1_apply, val_main_cst_apply,
    val_main_v11_apply, val_main_cst_2_apply, val_main_v10_apply, val_main_v9_apply, val_main_v8_apply,
    val_main_cst_1_apply, val_main_v7_apply, val_main_v6_apply, val_main_v5_apply, val_main_cst_0_apply,
    val_main_v4_apply, val_main_v3_apply, val_main_v0_apply]
  simp only [el, er, Ideal.mulf_def, Ideal.addf_def, Ideal.hostUnary_tanh_def, Ideal.ofBits_def]
  rfl

open Cert.ReferenceIdeal in
/-- Every weakly fair execution of the reference terminates with its result array at `refG` of the argument arrays
    as they were at the start, and the argument arrays unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = refG (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c).1.trans ((Cert.ReferenceIdeal.Read.val_main_v13_eq _ _).trans (ref_term_eq _ _)), (h c).2⟩)
    (Cert.ReferenceIdeal.Value.run (F := Ideal) m ρ)

end Cert.Bridge

end
-- ==== Proof.Accum.lean ====
/-
  The arithmetic of one device's body, as pure functions of the vectors it loads.

  The device forms sixteen products of a 256×256 block with a 256×8192 block, adds them up in the order it receives
  them (the first product starts the sum, each later one is added on the right), and applies the activation `act`
  to every entry of the sum. `result` is that term over the generated payload functions; at the ideal values its
  entry (p, q) is `act` of the sixteen inner products of row p of the k-th left block with column q of the k-th
  right block, added up from the left.
-/
import proofs.«900405_g7700000000000406_dist_a2a_gemm_m4096_k4096_n8192_f32_gelu_v7x_i16_1_alg».proof.Proof.Gen.KernelIdeal.Skeleton
import proofs.«900405_g7700000000000406_dist_a2a_gemm_m4096_k4096_n8192_f32_gelu_v7x_i16_1_alg».proof.Proof.RefSide
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.SL.Sem Idealize.ShloMosaic.ValueIdx

namespace Cert.Bridge

open Cert.KernelIdeal Cert.KernelIdeal.Gen

section AnyInstance
variable {F : FTy → Type} [FloatOps F]

/-- One accumulation step: the running sum plus the product of a received left block with a right block (both
    arrive with a leading axis of extent one, which is dropped). -/
def step (a : Vec F S1x256x256 .f32) (w : Vec F S1x256x8192 .f32) (prev : Vec F S256x8192 .f32) : FVec F S256x8192 .f32 :=
  addf (shapeCast S256x8192 prev shapeCasts_S256x8192_S256x8192)
    (matmul dot_S256x256_S256x8192_S256x8192_1_0_0_1_n_n none
      (shapeCast S256x256 a shapeCasts_S1x256x256_S256x256)
      (shapeCast S256x8192 w shapeCasts_S1x256x8192_S256x8192)
      (constant S256x8192 .f32 0x00000000#32))

/-- The whole body's value: the first product, fifteen steps, the activation. `a i` is the left block of step
    `i + 1`, `w k` the right block of step `k`. -/
def result (a0 : Vec F S256x256 .f32) (a : Fin 15 → Vec F S1x256x256 .f32) (w : Fin 16 → Vec F S1x256x8192 .f32) :
    FVec F S256x8192 .f32 :=
  k0_pay21 (k0_pay20 (a 14) (w 15) (k0_pay19 (a 13) (w 14) (k0_pay18 (a 12) (w 13) (k0_pay17 (a 11) (w 12)
    (k0_pay16 (k0_pay14 (a 10)) (k0_pay15 (w 11)) (constant S256x8192 .f32 0x00000000#32)
      (k0_pay13 (a 9) (w 10) (k0_pay12 (a 8) (w 9) (k0_pay11 (k0_pay10 (a 7)) (w 8) (k0_pay9 (a 6) (w 7)
        (k0_pay8 (a 5) (w 6) (k0_pay7 (k0_pay6 (a 4)) (w 5) (k0_pay5 (a 3) (w 4) (k0_pay4 (a 2) (w 3)
          (k0_pay3 (a 1) (w 2) (k0_pay2 (a 0) (w 1) (k0_pay1 a0 (w 0)))))))))))))))))

/-- Every one of the fifteen later payloads is the same step. -/
theorem result_eq_steps (a0 : Vec F S256x256 .f32) (a : Fin 15 → Vec F S1x256x256 .f32) (w : Fin 16 → Vec F S1x256x8192 .f32) :
    result a0 a w =
      k0_pay21 (step (a 14) (w 15) (step (a 13) (w 14) (step (a 12) (w 13) (step (a 11) (w 12)
        (step (a 10) (w 11) (step (a 9) (w 10) (step (a 8) (w 9) (step (a 7) (w 8) (step (a 6) (w 7)
          (step (a 5) (w 6) (step (a 4) (w 5) (step (a 3) (w 4) (step (a 2) (w 3)
            (step (a 1) (w 2) (step (a 0) (w 1) (k0_pay1 a0 (w 0))))))))))))))))) := rfl

end AnyInstance

/-! ## At the ideal values, entry by entry -/

/-- The inner product of row `p` of a 256×256 block with column `q` of a 256×8192 block, the right block carrying a
    leading axis of extent one. -/
def dot0 (a0 : Vec Ideal S256x256 .f32) (w : Vec Ideal S1x256x8192 .f32) (p : Fin 256) (q : Fin 8192) : EReal :=
  ∑ j : Fin 256, a0 (ix2 p j) * w (ix3 0 j q)

/-- The same with the left block carrying a leading axis of extent one too. -/
def dot1 (a : Vec Ideal S1x256x256 .f32) (w : Vec Ideal S1x256x8192 .f32) (p : Fin 256) (q : Fin 8192) : EReal :=
  ∑ j : Fin 256, a (ix3 0 p j) * w (ix3 0 j q)

theorem lhs_0 (i : S256x8192.Idx) (k : dot_S256x256_S256x8192_S256x8192_1_0_0_1_n_n.contr.Idx) : (dot_S256x256_S256x8192_S256x8192_1_0_0_1_n_n.lhsIdx i k 0).val = (i 0).val := by
  unfold DotDims.lhsIdx
  rw [dif_neg (show ¬(0 : Fin S256x256.rank) ∈ dot_S256x256_S256x8192_S256x8192_1_0_0_1_n_n.lhsBatch by decide),
    dif_pos (show (0 : Fin S256x256.rank) ∈ dot_S256x256_S256x8192_S256x8192_1_0_0_1_n_n.lhsNonContracting by decide)]
  rfl
theorem lhs_1 (i : S256x8192.Idx) (k : dot_S256x256_S256x8192_S256x8192_1_0_0_1_n_n.contr.Idx) : (dot_S256x256_S256x8192_S256x8192_1_0_0_1_n_n.lhsIdx i k 1).val = (k ⟨0, by decide⟩).val :=
  dot_S256x256_S256x8192_S256x8192_1_0_0_1_n_n.lhsIdx_val_of_single rfl i k
theorem rhs_0 (i : S256x8192.Idx) (k : dot_S256x256_S256x8192_S256x8192_1_0_0_1_n_n.contr.Idx) : (dot_S256x256_S256x8192_S256x8192_1_0_0_1_n_n.rhsIdx i k 0).val = (k ⟨0, by decide⟩).val :=
  dot_S256x256_S256x8192_S256x8192_1_0_0_1_n_n.rhsIdx_val_of_single rfl i k
theorem rhs_1 (i : S256x8192.Idx) (k : dot_S256x256_S256x8192_S256x8192_1_0_0_1_n_n.contr.Idx) : (dot_S256x256_S256x8192_S256x8192_1_0_0_1_n_n.rhsIdx i k 1).val = (i 1).val := by
  unfold DotDims.rhsIdx
  rw [dif_neg (show ¬(1 : Fin S256x8192.rank) ∈ dot_S256x256_S256x8192_S256x8192_1_0_0_1_n_n.rhsBatch by decide),
    dif_pos (show (1 : Fin S256x8192.rank) ∈ dot_S256x256_S256x8192_S256x8192_1_0_0_1_n_n.rhsNonContracting by decide)]
  rfl

/-- The matrix unit's product into a zero accumulator, at entry (p, q): the sum over the 256 shared coordinates. -/
theorem matmul_zero_apply (l : FVec Ideal S256x256 .f32) (r : FVec Ideal S256x8192 .f32) (p : Fin 256) (q : Fin 8192) :
    matmul dot_S256x256_S256x8192_S256x8192_1_0_0_1_n_n none l r (constant S256x8192 .f32 0x00000000#32) (ix2 p q) = ∑ j : Fin 256, l (ix2 p j) * r (ix2 j q) := by
  show FloatOps.matmul dot_S256x256_S256x8192_S256x8192_1_0_0_1_n_n none l r (constant S256x8192 .f32 0x00000000#32) (ix2 p q) = _
  rw [Ideal.matmul_constant_zero_apply, ← Equiv.sum_comp (contrEquiv1 dot_S256x256_S256x8192_S256x8192_1_0_0_1_n_n 256 rfl rfl).symm]
  refine Finset.sum_congr rfl fun k _ => ?_
  have hk := contrEquiv1_symm_val dot_S256x256_S256x8192_S256x8192_1_0_0_1_n_n 256 rfl rfl k
  have el : dot_S256x256_S256x8192_S256x8192_1_0_0_1_n_n.lhsIdx (ix2 p q) ((contrEquiv1 dot_S256x256_S256x8192_S256x8192_1_0_0_1_n_n 256 rfl rfl).symm k) = ix2 p k := funext fun a => Fin.ext (by
    match a with
    | ⟨0, _⟩ => exact lhs_0 _ _
    | ⟨1, _⟩ => exact (lhs_1 _ _).trans hk)
  have er : dot_S256x256_S256x8192_S256x8192_1_0_0_1_n_n.rhsIdx (ix2 p q) ((contrEquiv1 dot_S256x256_S256x8192_S256x8192_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The first product at entry (p, q). -/
theorem pay1_apply (a0 : Vec Ideal S256x256 .f32) (w : Vec Ideal S1x256x8192 .f32) (p : Fin 256) (q : Fin 8192) :
    k0_pay1 (F := Ideal) a0 w (ix2 p q) = dot0 a0 w p q := by
  unfold k0_pay1 dot0
  rw [matmul_zero_apply]
  refine Finset.sum_congr rfl fun j _ => ?_
  rw [shapeCast_self, shapeCast_1ab_ab_apply]

/-- One step at entry (p, q): the running sum there plus the inner product. -/
theorem step_apply (a : Vec Ideal S1x256x256 .f32) (w : Vec Ideal S1x256x8192 .f32) (prev : Vec Ideal S256x8192 .f32)
    (p : Fin 256) (q : Fin 8192) :
    step (F := Ideal) a w prev (ix2 p q) = prev (ix2 p q) + dot1 a w p q := by
  unfold step dot1
  rw [addf_apply, matmul_zero_apply, shapeCast_self]
  refine congrArg (prev (ix2 p q) + ·) (Finset.sum_congr rfl fun j _ => ?_)
  rw [shapeCast_1ab_ab_apply, shapeCast_1ab_ab_apply]

/-- The last payload at entry (p, q) is the activation of the sum's entry: (c₀·y)·y·y is c₀·((y·y)·y) because the product
    of extended reals is associative. -/
theorem pay21_apply (y : Vec Ideal S256x8192 .f32) (i : S256x8192.Idx) :
    k0_pay21 (F := Ideal) y i = act (y i) := by
  unfold k0_pay21 act
  rw [shapeCast_self]
  show (Ideal.ofBits .f32 0x3F000000#32 * y i)
      * (Ideal.ofBits .f32 0x3F800000#32
          + Ideal.tanh (Ideal.ofBits .f32 0x3F4C422A#32 * (y i + Ideal.ofBits .f32 0x3D372713#32 * y i * y i * y i))) = _
  rw [mul_assoc (Ideal.ofBits .f32 0x3D372713#32 * y i), mul_assoc (Ideal.ofBits .f32 0x3D372713#32) (y i) (y i * y i),
    ← mul_assoc (y i) (y i) (y i)]

/-- The body's value at entry (p, q): the activation of the sixteen inner products added up from the left. -/
theorem result_apply (a0 : Vec Ideal S256x256 .f32) (a : Fin 15 → Vec Ideal S1x256x256 .f32)
    (w : Fin 16 → Vec Ideal S1x256x8192 .f32) (p : Fin 256) (q : Fin 8192) :
    result (F := Ideal) a0 a w (ix2 p q) =
      act (dot0 a0 (w 0) p q + dot1 (a 0) (w 1) p q + dot1 (a 1) (w 2) p q + dot1 (a 2) (w 3) p q
        + dot1 (a 3) (w 4) p q + dot1 (a 4) (w 5) p q + dot1 (a 5) (w 6) p q + dot1 (a 6) (w 7) p q
        + dot1 (a 7) (w 8) p q + dot1 (a 8) (w 9) p q + dot1 (a 9) (w 10) p q + dot1 (a 10) (w 11) p q
        + dot1 (a 11) (w 12) p q + dot1 (a 12) (w 13) p q + dot1 (a 13) (w 14) p q + dot1 (a 14) (w 15) p q) := by
  rw [result_eq_steps, pay21_apply]
  simp only [step_apply, pay1_apply]

end Cert.Bridge

end
-- ==== Proof.Bridge.lean ====
/-
  The join of the two sides: what one device's body computes is its block of the reference's result.

  Device c of sixteen holds the column slab c of X (columns c·256 … c·256+255) and all of W, and must end with the row
  slab c of gelu (X · W) (rows c·256 … c·256+255). Entry (p, q) of that slab is `act` of
  ∑ t < 4096, X[c·256+p, t] · W[t, q]. Cut the 4096 shared coordinates into sixteen runs of 256: t = s·256 + j. The
  part of the sum over run s needs only column slab s of X — which device s holds, and of which it sends rows
  c·256 … c·256+255 to device c — and rows s·256 … s·256+255 of W. Device c adds the sixteen parts in the order
  s = c, c-1, …, c-15 (mod 16), a permutation of the sixteen runs; addition of extended reals is commutative and
  associative, so the order does not matter, and no entry needs to be finite.
-/
import proofs.«900405_g7700000000000406_dist_a2a_gemm_m4096_k4096_n8192_f32_gelu_v7x_i16_1_alg».proof.Proof.Accum
import Idealize.ShloMosaic.Lib.Layout

noncomputable section

open Idealize.ShloMosaic Idealize.SL.Sem Idealize.ShloMosaic.ValueIdx

namespace Cert.Bridge

/-! ## Sixteen runs of 256 -/

/-- Coordinate `j` of run `s`, among the 4096: `s · 256 + j`. -/
def blk (s : Fin 16) (j : Fin 256) : Fin 4096 := ⟨s.val * 256 + j.val, by omega⟩

@[simp] theorem blk_val (s : Fin 16) (j : Fin 256) : (blk s j).val = s.val * 256 + j.val := rfl

/-- A sum over the 4096 coordinates is the sum over the runs of the sums over each run. -/
theorem sum_blk {M : Type*} [AddCommMonoid M] (f : Fin 4096 → M) :
    ∑ t : Fin 4096, f t = ∑ s : Fin 16, ∑ j : Fin 256, f (blk s j) := by
  rw [← Equiv.sum_comp (finProdFinEquiv : Fin 16 × Fin 256 ≃ Fin 4096) f, Fintype.sum_prod_type]
  refine Finset.sum_congr rfl fun s _ => Finset.sum_congr rfl fun j _ => congrArg f (Fin.ext ?_)
  show j.val + 256 * s.val = s.val * 256 + j.val
  omega

/-- The run device `c` works on at step `k`: `c - k` modulo sixteen. -/
def src (c : Fin 16) (k : ℕ) : Fin 16 := ⟨(c.val + 16 - k) % 16, Nat.mod_lt _ (by decide)⟩

@[simp] theorem src_val (c : Fin 16) (k : ℕ) : (src c k).val = (c.val + 16 - k) % 16 := rfl

/-- Over the sixteen steps, `k ↦ c - k` is a permutation of the runs (it is its own inverse). -/
def srcPerm (c : Fin 16) : Equiv.Perm (Fin 16) where
  toFun k := src c k.val
  invFun k := src c k.val
  left_inv k := Fin.ext (by have := c.isLt; have := k.isLt; simp only [src_val]; omega)
  right_inv k := Fin.ext (by have := c.isLt; have := k.isLt; simp only [src_val]; omega)

/-- Sixteen terms taken in the device's order and added from the left are the sum over all runs. -/
theorem sum_src {M : Type*} [AddCommMonoid M] (c : Fin 16) (T : Fin 16 → M) :
    T (src c 0) + T (src c 1) + T (src c 2) + T (src c 3) + T (src c 4) + T (src c 5) + T (src c 6) + T (src c 7)
      + T (src c 8) + T (src c 9) + T (src c 10) + T (src c 11) + T (src c 12) + T (src c 13) + T (src c 14)
      + T (src c 15) = ∑ s : Fin 16, T s := by
  rw [← Equiv.sum_comp (srcPerm c) T]
  show _ = ∑ k : Fin 16, (fun k : ℕ => T (src c k)) k.val
  rw [Fin.sum_univ_eq_sum_range (fun k : ℕ => T (src c k)) 16]
  simp only [Finset.sum_range_succ, Finset.sum_range_zero, zero_add]

/-! ## The blocks, by coordinates -/

/-- Column slab `s` of X at (r, j) is X at (r, s·256 + j). -/
theorem colSlab_apply (X : FVec Ideal ⟨2, ![4096, 4096]⟩ .f32) (s : Fin 16) (r : Fin 4096) (j : Fin 256) :
    (Layout.block ⟨2, ![4096, 256]⟩ ⟨2, ![4096, 4096]⟩ 1 16 s X) (ix2 r j) = X (ix2 r (blk s j)) := by
  rw [Layout.block_apply]
  refine congrArg X (funext fun a => Fin.ext ?_)
  match a with
  | ⟨0, _⟩ => rfl
  | ⟨1, _⟩ => rfl

/-- Row slab `c` of an array of shape [4096, 8192] at (p, q) is the array at (c·256 + p, q). -/
theorem rowSlab_apply {α : Type} (v : (⟨2, ![4096, 8192]⟩ : Shape).Idx → α) (c : Fin 16) (p : Fin 256) (q : Fin 8192) :
    (Layout.block ⟨2, ![256, 8192]⟩ ⟨2, ![4096, 8192]⟩ 0 16 c v) (ix2 p q) = v (ix2 (blk c p) q) := by
  rw [Layout.block_apply]
  refine congrArg v (funext fun a => Fin.ext ?_)
  match a with
  | ⟨0, _⟩ => rfl
  | ⟨1, _⟩ => rfl

/-! ## One device's result -/

/-- The part of entry (c·256 + p, q) of X · W that comes from run `s` of the shared coordinate. -/
def part (X : FVec Ideal ⟨2, ![4096, 4096]⟩ .f32) (W : FVec Ideal ⟨2, ![4096, 8192]⟩ .f32) (c : Fin 16) (p : Fin 256)
    (q : Fin 8192) (s : Fin 16) : EReal :=
  ∑ j : Fin 256, X (ix2 (blk c p) (blk s j)) * W (ix2 (blk s j) q)

/-- What device `c`'s body computes from the vectors it loads is row slab `c` of the reference's result, given that
    the vectors hold these entries of the whole arrays: `a0` rows c·256… of column run `c` of X, `a k` the same rows
    of column run `c - (k+1)`, `w k` rows (c-k)·256… of W. -/
theorem device_result_whole (X : FVec Ideal ⟨2, ![4096, 4096]⟩ .f32) (W : FVec Ideal ⟨2, ![4096, 8192]⟩ .f32)
    (c : Fin 16)
    (a0 : Vec Ideal ⟨2, ![256, 256]⟩ .f32) (a : Fin 15 → Vec Ideal ⟨3, ![1, 256, 256]⟩ .f32)
    (w : Fin 16 → Vec Ideal ⟨3, ![1, 256, 8192]⟩ .f32)
    (ha0 : ∀ (p j : Fin 256), a0 (ix2 p j) = X (ix2 (blk c p) (blk c j)))
    (ha : ∀ (k : Fin 15) (p j : Fin 256), a k (ix3 0 p j) = X (ix2 (blk c p) (blk (src c (k.val + 1)) j)))
    (hw : ∀ (k : Fin 16) (j : Fin 256) (q : Fin 8192), w k (ix3 0 j q) = W (ix2 (blk (src c k.val) j) q)) :
    result (F := Ideal) a0 a w = Layout.block ⟨2, ![256, 8192]⟩ ⟨2, ![4096, 8192]⟩ 0 16 c (refG X W) := by
  funext i
  obtain ⟨p, q, rfl⟩ : ∃ (p : Fin 256) (q : Fin 8192), i = ix2 p q := ⟨i 0, i 1, eq_ix2 i⟩
  rw [result_apply, rowSlab_apply, refG_apply, sum_blk]
  have hc : src c 0 = c := Fin.ext (by have := c.isLt; simp only [src_val]; omega)
  have hc' : src c (0 : Fin 16).val = c := hc
  have e0 : dot0 a0 (w 0) p q = part X W c p q (src c 0) := by
    rw [hc]
    unfold dot0 part
    refine Finset.sum_congr rfl fun j _ => ?_
    rw [ha0 p j, hw 0 j q, hc']
  have e : ∀ (k : Fin 15) (k' : Fin 16) (n : ℕ), k.val + 1 = n → k'.val = n →
      dot1 (a k) (w k') p q = part X W c p q (src c n) := by
    intro k k' n hk hk'
    unfold dot1 part
    refine Finset.sum_congr rfl fun j _ => ?_
    rw [ha k p j, hw k' j q, hk, hk']
  rw [e0, e 0 1 1 rfl rfl, e 1 2 2 rfl rfl, e 2 3 3 rfl rfl, e 3 4 4 rfl rfl, e 4 5 5 rfl rfl, e 5 6 6 rfl rfl,
    e 6 7 7 rfl rfl, e 7 8 8 rfl rfl, e 8 9 9 rfl rfl, e 9 10 10 rfl rfl, e 10 11 11 rfl rfl, e 11 12 12 rfl rfl,
    e 12 13 13 rfl rfl, e 13 14 14 rfl rfl, e 14 15 15 rfl rfl]
  exact congrArg act (sum_src c (part X W c p q))

/-- The same, with the left blocks described through the devices' own column slabs `xs s` of X (device `s` holds
    column slab `s`): `a0` is rows c·256… of device `c`'s slab, `a k` the same rows of the slab of device `c - (k+1)`. -/
theorem device_result (X : FVec Ideal ⟨2, ![4096, 4096]⟩ .f32) (W : FVec Ideal ⟨2, ![4096, 8192]⟩ .f32)
    (xs : Fin 16 → Vec Ideal ⟨2, ![4096, 256]⟩ .f32)
    (hx : ∀ s, xs s = Layout.block ⟨2, ![4096, 256]⟩ ⟨2, ![4096, 4096]⟩ 1 16 s X)
    (c : Fin 16)
    (a0 : Vec Ideal ⟨2, ![256, 256]⟩ .f32) (a : Fin 15 → Vec Ideal ⟨3, ![1, 256, 256]⟩ .f32)
    (w : Fin 16 → Vec Ideal ⟨3, ![1, 256, 8192]⟩ .f32)
    (ha0 : ∀ (p j : Fin 256), a0 (ix2 p j) = xs c (ix2 (blk c p) j))
    (ha : ∀ (k : Fin 15) (p j : Fin 256), a k (ix3 0 p j) = xs (src c (k.val + 1)) (ix2 (blk c p) j))
    (hw : ∀ (k : Fin 16) (j : Fin 256) (q : Fin 8192), w k (ix3 0 j q) = W (ix2 (blk (src c k.val) j) q)) :
    result (F := Ideal) a0 a w = Layout.block ⟨2, ![256, 8192]⟩ ⟨2, ![4096, 8192]⟩ 0 16 c (refG X W) :=
  device_result_whole X W c a0 a w
    (fun p j => by rw [ha0 p j, hx, colSlab_apply])
    (fun k p j => by rw [ha k p j, hx, colSlab_apply]) hw

end Cert.Bridge

end
-- ==== Proof.LibViews.lean ====
/-
  Reading a buffer back through the views it was written through: facts about index placement only, for any values.

  A read through a rectangle of a whole buffer is the buffer at the rectangle's placement of the index. Writing a
  payload through "a rectangle with its unit axes dropped" and loading the buffer at that rectangle gives the payload
  back with the dropped axes re-inserted, whatever the buffer held before. Writing the whole of a buffer replaces its
  contents, whatever was written before.
-/
import Idealize.ShloMosaic.Lib.Writes
import Idealize.ShloMosaic.Lib.ValueIdx
import Idealize.ShloMosaic.Lib.Exec.Geometry

noncomputable section

namespace Cert.Views

open Idealize.ShloMosaic Idealize.ShloMosaic.ValueIdx

variable {sig : RefSig} {κ : Kind} {Val : EltTy → Type}

/-- A read through a rectangle of a whole buffer is the buffer at the rectangle's placement of the index. -/
theorem read_slice_whole_apply (b : Ref sig κ) (R : Rect b.ty.shape) (f : b.ty.Contents Val) (y : R.shape.Idx) :
    ((View.whole b).slice R).read Val f y = f (R.emb y) := rfl

/-- A load through a whole buffer at a rectangle is the buffer at the rectangle's placement of the index. -/
theorem readAt_whole_apply (b : Ref sig κ) (R : Rect b.ty.shape) (f : b.ty.Contents Val) (y : R.shape.Idx) :
    (View.whole b).readAt Val R.toLoadRect f y = f (R.emb y) := rfl

/-- Write a payload through a rectangle of a memref with its unit axes dropped, then load the memref at that
    rectangle: the payload comes back, read at the index with the unit axes dropped. -/
theorem readAt_write_squeeze_slice {cs : Space} {s s' : Shape} {e : EltTy} (M : Memref sig κ cs s e) (R : Rect s)
    (hr : ∀ a, R.stride a = 1) (hq : R.shape.Squeezes s') (f : M.view.ty.Contents Val) (w : s'.Idx → Val e) :
    M.view.readAt Val R.toLoadRect (((M.slice R hr).squeeze s' hq).view.write Val f w Finset.univ)
      = fun x => w ((Shape.reshapeEquiv hq.numel_eq).symm x) := by
  show (M.view.slice R).read Val (((M.view.slice R).reshape s' hq.numel_eq).write Val f w Finset.univ) = _
  rw [View.write_reshape_univ, View.read_write_univ]

/-- The same when the write is recorded as one whole piece over earlier pieces. -/
theorem readAt_writes_whole_squeeze_slice {cs : Space} {s s' : Shape} {e : EltTy} (M : Memref sig κ cs s e) (R : Rect s)
    (hr : ∀ a, R.stride a = 1) (hq : R.shape.Squeezes s') (f : M.view.ty.Contents Val) (L : List (View.Piece Val s' e))
    (w : s'.Idx → Val e) :
    M.view.readAt Val R.toLoadRect (((M.slice R hr).squeeze s' hq).view.writes Val f (⟨Rect.whole s', w⟩ :: L))
      = fun x => w ((Shape.reshapeEquiv hq.numel_eq).symm x) := by
  rw [← View.write_univ_eq_writes_whole]
  exact readAt_write_squeeze_slice M R hr hq _ w

/-- So two such loads agree whatever lay underneath. -/
theorem readAt_writes_whole_eq_write {cs : Space} {s s' : Shape} {e : EltTy} (M : Memref sig κ cs s e) (R : Rect s)
    (hr : ∀ a, R.stride a = 1) (hq : R.shape.Squeezes s') (f g : M.view.ty.Contents Val) (L : List (View.Piece Val s' e))
    (w : s'.Idx → Val e) :
    M.view.readAt Val R.toLoadRect (((M.slice R hr).squeeze s' hq).view.writes Val f (⟨Rect.whole s', w⟩ :: L))
      = M.view.readAt Val R.toLoadRect (((M.slice R hr).squeeze s' hq).view.write Val g w Finset.univ) :=
  (readAt_writes_whole_squeeze_slice M R hr hq f L w).trans (readAt_write_squeeze_slice M R hr hq g w).symm

/-- Dropping a leading unit axis: the index (0, p, j) of [1, a, b] is the index (p, j) of [a, b]. -/
theorem reshapeEquiv_symm_ix3 {a b : ℕ} (h : (⟨2, ![a, b]⟩ : Shape).numel = (⟨3, ![1, a, b]⟩ : Shape).numel)
    (p : Fin a) (j : Fin b) : (Shape.reshapeEquiv h).symm (ix3 (0 : Fin 1) p j) = ix2 p j := by
  rw [Equiv.symm_apply_eq]
  refine (Shape.reshapeEquiv_eq_of_rowMajor h ?_).symm
  rw [Shape.rowMajor_val_three, Shape.rowMajor_val_two]
  show (0 * a + p.val) * b + j.val = p.val * b + j.val
  rw [Nat.zero_mul, Nat.zero_add]

/-- A list of writes through a whole buffer whose last one covers the whole buffer leaves that write's payload. -/
theorem writes_unit_zero_cons (b : Ref sig κ) {off : Fin b.ty.shape.rank → Nat} (h : off = fun _ => 0)
    (inb : ∀ a, off a + b.ty.shape.size a ≤ b.ty.shape.size a) (f : b.ty.Contents Val) (V : b.ty.Contents Val)
    (L : List (View.Piece Val b.ty.shape b.ty.elt)) :
    (Memref.whole b : Memref sig κ _ _ _).view.writes Val f (⟨Rect.unit off b.ty.shape.size inb, V⟩ :: L) = V := by
  rw [View.writes_cons]
  exact Memref.write_access_unit_zero_univ Val b h inb _ V

end Cert.Views

end
-- ==== Proof.Reads.lean ====
/-
  What the body's loads read, entry by entry, and the value of one device's result.

  Three facts about moving data, none about arithmetic. A whole-array block read is the array. A buffer written
  through "a rectangle of it with its unit axes dropped" and then loaded at the same rectangle gives back what was
  written, the dropped axes re-inserted. A read through a rectangle of a whole array is the array at the rectangle's
  offset plus the coordinate. With these, the device's own rows, the rows that landed in its slots and the weight rows
  it copied are entries of the devices' argument arrays, and the joined value follows from `device_result_whole`.
-/
import proofs.«900405_g7700000000000406_dist_a2a_gemm_m4096_k4096_n8192_f32_gelu_v7x_i16_1_alg».proof.Proof.Data
import proofs.«900405_g7700000000000406_dist_a2a_gemm_m4096_k4096_n8192_f32_gelu_v7x_i16_1_alg».proof.Proof.Bridge
import proofs.«900405_g7700000000000406_dist_a2a_gemm_m4096_k4096_n8192_f32_gelu_v7x_i16_1_alg».proof.Proof.LibViews
import Idealize.ShloMosaic.Lib.ValueIdx

noncomputable section

namespace Cert.KernelIdeal.A2A

open Cert.KernelIdeal Cert.KernelIdeal.Gen Cert.KernelIdeal.Mesh Cert.Views

open Idealize.ShloMosaic Idealize.ShloMosaic.ValueIdx
open Idealize.ShloMosaic.TcCoe
open Idealize.SL Idealize.SL.Sem

variable {F : FTy → Type} [FloatOps F]
variable (m : (ℓ : Loc nD τ sig) → Buf (Elt F) ℓ)

/-- The body's composed arithmetic is the term whose value `Cert.Bridge.result_apply` reads. -/
theorem outTerm_eq (a0 : Vec F S256x256 .f32) (a : Fin 15 → Vec F S1x256x256 .f32) (w : Fin 16 → Vec F S1x256x8192 .f32) :
    outTerm a0 a w = Cert.Bridge.result a0 a w := rfl

/-! ## The three loads -/

omit [FloatOps F] in
/-- The column block as staged is the device's argument array. -/
theorem xstg_eq (c : Dev nD) : xstg m c = m ((c : Thread nD τ).loc main_arg0) :=
  Memref.read_access_unit_zero (Elt F) main_arg0 (funext fun a => Nat.zero_mul _) _ _

omit [FloatOps F] in
/-- (a) The device's own rows, as step 0 loads them: rows 256·c … of its argument array. -/
theorem a0At_apply (c : Dev nD) (p j : Fin 256) (r : Fin 4096) (hr : r.val = 256 * c.val + p.val) :
    a0At m c (ix2 p j) = m ((c : Thread nD τ).loc main_arg0) (ix2 r j) := by
  show xstg m c ((Rect.unit (s := S4096x256) (k0_off3 c) S256x256.size (k0_off3_inb c)).emb (ix2 p j)) = _
  rw [xstg_eq]
  refine congrArg (m ((c : Thread nD τ).loc main_arg0)) (funext fun a => Fin.ext ?_)
  match a with
  | ⟨0, _⟩ =>
    show k0_off3 c 0 + 1 * p.val = r.val
    rw [k0_off3_eq c, hr]
    show 256 * c.val + 1 * p.val = _
    omega
  | ⟨1, _⟩ =>
    show k0_off3 c 1 + 1 * j.val = j.val
    rw [k0_off3_eq c]
    show 0 + 1 * j.val = _
    omega

omit [FloatOps F] in
/-- The rows transfer `i` of device `s` carries: rows 256·(s + 1 + i mod 16) … of `s`'s argument array. -/
theorem sentBlock_apply (s : Dev nD) (i : Fin 15) (p j : Fin 256) (r : Fin 4096)
    (hr : r.val = 256 * ((s.val + (1 + i.val)) % 16) + p.val) :
    sentBlock m s i (ix2 p j) = m ((s : Thread nD τ).loc main_arg0) (ix2 r j) := by
  show xstg m s ((Rect.unit (s := S4096x256) (k0_off2 s (BitVec.ofNat 32 (1 + i.val))) S256x256.size (k0_off2_inb s i)).emb (ix2 p j)) = _
  rw [xstg_eq]
  refine congrArg (m ((s : Thread nD τ).loc main_arg0)) (funext fun a => Fin.ext ?_)
  match a with
  | ⟨0, _⟩ =>
    show k0_off2 s (BitVec.ofNat 32 (1 + i.val)) 0 + 1 * p.val = r.val
    rw [k0_off2_eq s i, hr]
    show 256 * ((s.val + (1 + i.val)) % 16) + 1 * p.val = _
    omega
  | ⟨1, _⟩ =>
    show k0_off2 s (BitVec.ofNat 32 (1 + i.val)) 1 + 1 * j.val = j.val
    rw [k0_off2_eq s i]
    show 0 + 1 * j.val = _
    omega

/-- Slot `1 + i` as step `1 + i` loads it holds the block that landed there, the leading unit axis re-inserted. -/
theorem aAt_block (c : Dev nD) (i : Fin 15) (p j : Fin 256) :
    aAt m c i (ix3 0 p j) = sentBlock m (bwd c (off i)) i (ix2 p j) := by
  have h := readAt_write_squeeze_slice (Val := Elt F) (rM : Memref sig .tc .vmem S16x256x256 .f32)
    (Rect.unit (s := S16x256x256) ![1 + i.val, 0, 0] S1x256x256.size (slot_inb i)) (fun _ => rfl)
    squeezes_S1x256x256_S256x256 (base₀ c i) (sentBlock m (bwd c (off i)) i)
  exact (congrFun h (ix3 0 p j)).trans (congrArg (sentBlock m (bwd c (off i)) i) (reshapeEquiv_symm_ix3 _ p j))

/-- (b) So it holds rows 256·c … of the argument array of the device `1 + i` places back. -/
theorem aAt_apply (c : Dev nD) (i : Fin 15) (p j : Fin 256) (r : Fin 4096) (hr : r.val = 256 * c.val + p.val) :
    aAt m c i (ix3 0 p j) = m (((bwd c (off i) : Dev nD) : Thread nD τ).loc main_arg0) (ix2 r j) := by
  rw [aAt_block]
  refine sentBlock_apply m (bwd c (off i)) i p j r ?_
  have h : ((bwd c (off i)).val + (1 + i.val)) % 16 = c.val := congrArg Fin.val (fwd_bwd c (off i))
  rw [h, hr]

/-- (c) Weight slot `k mod 3` as step `k` loads it: rows 256·(c - k mod 16) … of the weight matrix. -/
theorem wAt_apply (c : Dev nD) (k : Fin 16) (j : Fin 256) (q : Fin 8192) (r : Fin 4096)
    (hr : r.val = 256 * ((c.val + 16 - k.val) % 16) + j.val) :
    wAt m c k (ix3 0 j q) = m ((c : Thread nD τ).loc main_arg1) (ix2 r q) := by
  have h := readAt_write_squeeze_slice (Val := Elt F) (wbM : Memref sig .tc .vmem S3x256x8192 .f32)
    (Rect.unit (s := S3x256x8192) ![(wslotOf k).val, 0, 0] S1x256x8192.size (wslot_inb (wslotOf k))) (fun _ => rfl)
    squeezes_S1x256x8192_S256x8192 (Classical.arbitrary _)
    ((wsrc c k).view.read (Elt F) (m ((c : Thread nD τ).loc main_arg1)))
  refine ((congrFun h (ix3 0 j q)).trans (congrArg _ (reshapeEquiv_symm_ix3 _ j q))).trans ?_
  show m ((c : Thread nD τ).loc main_arg1)
      ((Rect.unit (s := S4096x8192) (k0_off1 c (BitVec.ofNat 32 k.val)) S256x8192.size (k0_off1_inb c k)).emb (ix2 j q)) = _
  refine congrArg (m ((c : Thread nD τ).loc main_arg1)) (funext fun a => Fin.ext ?_)
  match a with
  | ⟨0, _⟩ =>
    show k0_off1 c (BitVec.ofNat 32 k.val) 0 + 1 * j.val = r.val
    rw [k0_off1_eq c k, hr]
    show 256 * ((c.val + 16 - k.val) % 16) + 1 * j.val = _
    omega
  | ⟨1, _⟩ =>
    show k0_off1 c (BitVec.ofNat 32 k.val) 1 + 1 * q.val = q.val
    rw [k0_off1_eq c k]
    show 0 + 1 * q.val = _
    omega

/-! ## The value of one device's result -/

/-- (d) When every device's first argument is its column slab of X and its second is W, the term the body leaves in
    device `c`'s result buffer is row slab `c` of the reference's result. -/
theorem device_value (m : (ℓ : Loc nD τ sig) → Buf (Elt Ideal) ℓ)
    (X : FVec Ideal ⟨2, ![4096, 4096]⟩ .f32) (W : FVec Ideal ⟨2, ![4096, 8192]⟩ .f32)
    (hx : ∀ s : Dev nD, m ((s : Thread nD τ).loc main_arg0) = Layout.block ⟨2, ![4096, 256]⟩ ⟨2, ![4096, 4096]⟩ 1 16 s X)
    (hw : ∀ s : Dev nD, m ((s : Thread nD τ).loc main_arg1) = W) (c : Dev nD) :
    outAt (F := Ideal) m c = Layout.block ⟨2, ![256, 8192]⟩ ⟨2, ![4096, 8192]⟩ 0 16 c (Cert.Bridge.refG X W) := by
  unfold outAt
  rw [outTerm_eq]
  refine Cert.Bridge.device_result_whole X W c _ _ _ (fun p j => ?_) (fun k p j => ?_) (fun k j q => ?_)
  · rw [a0At_apply m c p j (Cert.Bridge.blk c p) (by rw [Cert.Bridge.blk_val]; omega), hx, Cert.Bridge.colSlab_apply]
  · have hb : bwd c (off k) = Cert.Bridge.src c (k.val + 1) :=
      Fin.ext (by
        show (c.val + 16 - (1 + k.val)) % 16 = (c.val + 16 - (k.val + 1)) % 16
        rw [Nat.add_comm 1 k.val])
    rw [aAt_apply m c k p j (Cert.Bridge.blk c p) (by rw [Cert.Bridge.blk_val]; omega), hx, Cert.Bridge.colSlab_apply, hb]
  · rw [wAt_apply m c k j q (Cert.Bridge.blk (Cert.Bridge.src c k.val) j)
      (by rw [Cert.Bridge.blk_val, Cert.Bridge.src_val]; omega), hw]

end Cert.KernelIdeal.A2A

end
-- ==== Proof.Assemble.lean ====
/-
  The claims about the idealized kernel, each from a run of the whole mesh.

  Given that every fair execution of the sixteen devices terminates with each device's result array at what its body
  left and its arguments untouched, the frame is immediate, and the algebraic claim follows: when device `s` starts
  with column slab `s` of X and a copy of W, what the body leaves on device `c` is row slab `c` of gelu (X · W)
  (`device_value`), which is what the reference, run on the whole arrays, ends with (`ref_run`).
-/
import proofs.«900405_g7700000000000406_dist_a2a_gemm_m4096_k4096_n8192_f32_gelu_v7x_i16_1_alg».proof.Proof.AssembleFrame
import proofs.«900405_g7700000000000406_dist_a2a_gemm_m4096_k4096_n8192_f32_gelu_v7x_i16_1_alg».proof.Proof.Reads
import proofs.«900405_g7700000000000406_dist_a2a_gemm_m4096_k4096_n8192_f32_gelu_v7x_i16_1_alg».proof.Proof.Gen.Pre_finite_inputs_Kernel

noncomputable section

namespace Cert.KernelIdeal.A2A

open Cert.KernelIdeal Cert.KernelIdeal.Gen Cert.KernelIdeal.Mesh

open Idealize.ShloMosaic
open Idealize.ShloMosaic.TcCoe
open Idealize.SL Idealize.SL.Sem

/-- The idealized kernel's frame, from a run. -/
theorem frame_ki_of_run
    (hrun : ∀ (m : (ℓ : Loc nD τ sig) → Buf (Elt Ideal) ℓ) (ρ : Dev nD → PrngReg),
      θ_run (defs (F := Ideal)) (onTc (τ := τ) (main (F := Ideal))) (s₀ m ρ) (RunPost m ρ)) :
    Cert.frame_KernelIdeal := fun m ρ _ => frame_of_run m ρ (hrun m ρ)

/-- No operation of the kernel was rewritten for the ideal reading: nothing to preserve. -/
theorem preserves : Cert.preserves_Kernel_KernelIdeal := trivial

/-- The kernel on sixteen devices and the reference on the whole arrays end with the same values, from a run. -/
theorem algebraic_of_run
    (hrun : ∀ (m : (ℓ : Loc nD τ sig) → Buf (Elt Ideal) ℓ) (ρ : Dev nD → PrngReg),
      θ_run (defs (F := Ideal)) (onTc (τ := τ) (main (F := Ideal))) (s₀ m ρ) (RunPost m ρ)) :
    Cert.algebraic_KernelIdeal_ReferenceIdeal := by
  intro m ρ m' ρ' _ hagree
  refine ⟨Cert.Bridge.refG
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    ?_, ?_⟩
  · refine (θ_run _ _ _).mono (fun _ h c => ⟨?_, ?_, ?_⟩) (hrun m ρ)
    · exact ((h c).1 1).trans ((finalA_out m ρ c).trans
        (device_value m _ _ (fun s => (hagree s).1) (fun s => (hagree s).2) c))
    · exact ((h c).1 0).trans (finalA_x m ρ c)
    · exact (h c).2
  · exact (θ_run _ _ _).mono (fun _ h => h 0) (Cert.Bridge.ref_run m' ρ')

end Cert.KernelIdeal.A2A

end
-- ==== Proof.Levels.lean ====
/-
  The levels of the sixteen-device all-to-all: a wait is allowed only on a cell that lies strictly below every cell
  the waiting device still owes.  Barrier cells sit at level 1, receive cells at level 2, every other cell at 0.
  What a device owes at launch is fifteen receive cells' credit and fifteen barrier cells' unit; so it may wait on any
  level-0 cell at any time, and on its barrier cell once the barrier units are paid.
-/
import proofs.«900405_g7700000000000406_dist_a2a_gemm_m4096_k4096_n8192_f32_gelu_v7x_i16_1_alg».proof.Proof.Data
import Mathlib.Data.Fin.Tuple.Reflection

noncomputable section

namespace Cert.KernelIdeal.A2A

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device owes, as two sums over the offsets -/

/-- The receive credit device `c` owes: the block's credit on receive cell `r` of the device `1 + r` places forward. -/
def Orecv (c : Dev nD) : CellTallies nD τ sig Unit := ∑ r : Fin 15, tallyAt (recvCell (fwd c (off r)) r) () N
/-- The barrier units device `c` owes: one on the barrier cell of every other device. -/
def Obar (c : Dev nD) : CellTallies nD τ sig Unit := ∑ j : Fin 15, tallyAt (barCell (fwd c (off j))) () 1

theorem Orecv_eq (c : Dev nD) : Orecv c =
    tallyAt (recvCell (fwd c (off 14)) 14) () N
    + tallyAt (recvCell (fwd c (off 13)) 13) () N
    + tallyAt (recvCell (fwd c (off 12)) 12) () N
    + tallyAt (recvCell (fwd c (off 11)) 11) () N
    + tallyAt (recvCell (fwd c (off 10)) 10) () N
    + tallyAt (recvCell (fwd c (off 9)) 9) () N
    + tallyAt (recvCell (fwd c (off 8)) 8) () N
    + tallyAt (recvCell (fwd c (off 7)) 7) () N
    + tallyAt (recvCell (fwd c (off 6)) 6) () N
    + tallyAt (recvCell (fwd c (off 5)) 5) () N
    + tallyAt (recvCell (fwd c (off 4)) 4) () N
    + tallyAt (recvCell (fwd c (off 3)) 3) () N
    + tallyAt (recvCell (fwd c (off 2)) 2) () N
    + tallyAt (recvCell (fwd c (off 1)) 1) () N
    + tallyAt (recvCell (fwd c (off 0)) 0) () N := by
  unfold Orecv
  simp only [Fin.sum_univ_ofNat]
  ac_rfl

theorem O₀_eq (c : Dev nD) : O₀ c = Orecv c + Obar c := by
  rw [Orecv_eq]
  unfold O₀ Obar
  simp only [Fin.sum_univ_ofNat]
  ac_rfl

theorem Orecv_pos {c : Dev nD} {g : GSem nD τ sig} {u : Unit} (h : 0 < Orecv c g u) : ∃ r : Fin 15, g = recvCell (fwd c (off r)) r := by
  obtain ⟨r, -, hr⟩ := Pipeline.sum_pos_exists h
  exact ⟨r, (Pipeline.tallyAt_pos hr).1⟩
theorem Obar_pos {c : Dev nD} {g : GSem nD τ sig} {u : Unit} (h : 0 < Obar c g u) : ∃ j : Fin 15, g = barCell (fwd c (off j)) := by
  obtain ⟨j, -, hj⟩ := Pipeline.sum_pos_exists h
  exact ⟨j, (Pipeline.tallyAt_pos hj).1⟩

/-! ## The levels of the cells that are owed -/

theorem lv_recv (d : Dev nD) (r : Fin 15) (u : Unit) : lv (recvCell d r) u = 2 := by
  show (if (recvOf (recvS r).sem).isSome then 2 else 0) = 2
  rw [recvOf_recvS]; rfl
theorem lv_bar (d : Dev nD) (u : Unit) : lv (barCell d) u = 1 := by
  show (if barS = barS then 1 else 0) = 1
  rw [if_pos rfl]
theorem lv_dma (c : Dev nD) (q : DmaSem sig) (hq : recvOf q = none) (u : Unit) : lv ((c : Thread nD τ), .dma q) u = 0 := by
  show (if (recvOf q).isSome then 2 else 0) = 0
  rw [hq]; rfl

omit [FloatOps F] in
/-- A cell of the DMA pool that is no receive cell (a staging cell, a send cell, a cell of the weight copies) sits at
    level 0, below everything a device can owe: it may be waited on while the device owes all of `O₀`, or nothing. -/
theorem mayWait_stage (c : Dev nD) (q : DmaSem sig) (hq : recvOf q = none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    rw [O₀_eq] at hg
    rcases Pipeline.add_pos_cases hg with h | h
    · obtain ⟨r, rfl⟩ := Orecv_pos h
      exact ⟨by rw [L_tc]; exact Finset.mem_singleton_self _, by rw [lv_dma c q hq, lv_recv]; decide⟩
    · obtain ⟨j, rfl⟩ := Obar_pos h
      exact ⟨by rw [L_tc]; exact Finset.mem_singleton_self _, by rw [lv_dma c q hq, lv_bar]; decide⟩
  · rw [MayWait_zero]; iintro -; iempintro

omit [FloatOps F] in
/-- At its barrier wait a device owes only receive cells, which lie above its barrier cell. -/
theorem mayWait_bar (c : Dev nD) :
    (levAts L lv : sProp 𝕄) ⊢ MayWait (c : Thread nD τ) (.reg barS) ()
      (tallyAt (recvCell (fwd c (off 14)) 14) () N
        + tallyAt (recvCell (fwd c (off 13)) 13) () N
        + tallyAt (recvCell (fwd c (off 12)) 12) () N
        + tallyAt (recvCell (fwd c (off 11)) 11) () N
        + tallyAt (recvCell (fwd c (off 10)) 10) () N
        + tallyAt (recvCell (fwd c (off 9)) 9) () N
        + tallyAt (recvCell (fwd c (off 8)) 8) () N
        + tallyAt (recvCell (fwd c (off 7)) 7) () N
        + tallyAt (recvCell (fwd c (off 6)) 6) () N
        + tallyAt (recvCell (fwd c (off 5)) 5) () N
        + tallyAt (recvCell (fwd c (off 4)) 4) () N
        + tallyAt (recvCell (fwd c (off 3)) 3) () N
        + tallyAt (recvCell (fwd c (off 2)) 2) () N
        + tallyAt (recvCell (fwd c (off 1)) 1) () N
        + tallyAt (recvCell (fwd c (off 0)) 0) () N) := by
  rw [← Orecv_eq]
  refine Pipeline.mayWait_of_levAts (by rw [L_tc]; exact Finset.mem_singleton_self _) fun g i hg => ?_
  obtain ⟨r, rfl⟩ := Orecv_pos hg
  exact ⟨by rw [L_tc]; exact Finset.mem_singleton_self _, by rw [lv_bar, lv_recv]; decide⟩

end Cert.KernelIdeal.A2A

end
-- ==== Proof.Launch.lean ====
/-
  The launch of the sixteen-device all-to-all: from "each device's body is proved" to the run of the whole program.

  The launch element of the protocol's algebra opens, for every device, its thirty-one cells (the barrier cell, fifteen
  send cells, fifteen receive cells) at round 0 and mints the tokens of their duties.  One global step turns the
  semaphores' zero counters and the opened rounds into the cells' invariants, and deals every duty token to the device
  that PAYS the duty: duty `rev j` of the barrier cell of the device `1 + j` places forward and the duty of that
  device's receive cell `j` go to the device itself; the send tokens stay where they are minted.  The credit the launch
  deals a device is what the others owe its cells: fifteen units on its barrier cell, and the block's credit on each
  receive cell.
-/
import proofs.«900405_g7700000000000406_dist_a2a_gemm_m4096_k4096_n8192_f32_gelu_v7x_i16_1_alg».proof.Proof.Levels

noncomputable section

namespace Cert.KernelIdeal.A2A

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's thirty-five scoped DMA semaphores: every semaphore of the pool after the pipeline's two staging ones. -/
abbrev osem : Fin 35 → SemLoc sig := fun i => .dma ⟨2 + i.val, by have := i.isLt; show 2 + i.val < 37; omega⟩

theorem ownSemFacts : Pipeline.OwnSemFacts cfg0.spec osem := by decide

/-- Which of the thirty-five a send cell, a receive cell, an untouched semaphore is. -/
def osIdx : Fin 15 ⊕ (Fin 15 ⊕ Fin 5) → Fin 35
  | .inl r => ⟨1 + r.val, by omega⟩
  | .inr (.inl r) => ⟨17 + r.val, by omega⟩
  | .inr (.inr i) => match i with
    | 0 => 0 | 1 => 16 | 2 => 32 | 3 => 33 | 4 => 34
theorem osIdx_bijective : Function.Bijective osIdx := by decide
def osEquiv : Fin 15 ⊕ (Fin 15 ⊕ Fin 5) ≃ Fin 35 := Equiv.ofBijective osIdx osIdx_bijective
theorem osem_send : ∀ r : Fin 15, osem (osIdx (.inl r)) = .dma (sendS r).sem := by decide
theorem osem_recv : ∀ r : Fin 15, osem (osIdx (.inr (.inl r))) = .dma (recvS r).sem := by decide
theorem osem_idle : ∀ i : Fin 5, osem (osIdx (.inr (.inr i))) = idleSem i := by decide

/-! ## The cells and the tokens of the launch element -/

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- A device's own cells' duty tokens as minted: the fifteen duties of its barrier cell, the one duty of each send cell
    and of each receive cell. -/
abbrev TK : Type := Fin 15 ⊕ (Fin 15 ⊕ Fin 15)
abbrev tkCell : TK → CK
  | .inl _ => CK.bar
  | .inr (.inl r) => CK.send r
  | .inr (.inr r) => CK.recv r
abbrev tkDuty : TK → Fin 15
  | .inl d => d
  | .inr _ => 0
theorem tk_inj : ∀ k k' : TK, tkCell k = tkCell k' → tkDuty k = tkDuty k' → k = k' := by decide
abbrev tokOf (cj : Dev nD × TK) : GSem nD τ sig × ℕ × Fin 15 := (kcell (cj.1, tkCell cj.2), 0, tkDuty cj.2)
theorem tokOf_injective : Function.Injective (tokOf : Dev nD × TK → GSem nD τ sig × ℕ × Fin 15) := by
  rintro ⟨c, j⟩ ⟨c', j'⟩ h
  have hk : ((c, tkCell j) : Dev nD × CK) = (c', tkCell j') := kcell_injective (congrArg (fun x : GSem nD τ sig × ℕ × Fin 15 => x.1) h)
  have hd : tkDuty j = tkDuty j' := congrArg (fun x : GSem nD τ sig × ℕ × Fin 15 => x.2.2) h
  obtain ⟨h1, h2⟩ := Prod.mk.inj hk
  subst h1
  rw [tk_inj j j' h2 hd]
def ringToks : Finset (GSem nD τ sig × ℕ × Fin 15) := Finset.univ.map ⟨tokOf, tokOf_injective⟩

def u₀ : UU :=
  (initOf (Pipeline.cells cfgs cellOf_inj) (Pipeline.launchToks cfgs cellOf_inj), (initOf ringCells ringToks, 1))

omit [FloatOps F] in
theorem bigSep_CK (Φ : CK → sProp 𝕄) : bigSep Finset.univ Φ
    = iprop(Φ CK.bar ∗ (bigSep Finset.univ fun r : Fin 15 => Φ (CK.send r)) ∗ (bigSep Finset.univ fun r : Fin 15 => Φ (CK.recv r))) := by
  rw [bigSep_univ_sum, bigSep_univ_sum, bigSep_univ_of_subsingleton ()]; rfl
omit [FloatOps F] in
theorem bigSep_TK (Φ : TK → sProp 𝕄) : bigSep Finset.univ Φ
    = iprop((bigSep Finset.univ fun d : Fin 15 => Φ (.inl d)) ∗ (bigSep Finset.univ fun r : Fin 15 => Φ (.inr (.inl r))) ∗ (bigSep Finset.univ fun r : Fin 15 => Φ (.inr (.inr r)))) := by
  rw [bigSep_univ_sum, bigSep_univ_sum]; rfl

/-- The duty tokens of device `c`'s own cells. -/
def toks (c : Dev nD) : sProp 𝕄 :=
  iprop((bigSep Finset.univ fun d : Fin 15 => dutyTok ER (barCell c) 0 d)
    ∗ (bigSep Finset.univ fun r : Fin 15 => dutyTok ER (sendCell c r) 0 0)
    ∗ (bigSep Finset.univ fun r : Fin 15 => dutyTok ER (recvCell c r) 0 0))

/-- What the launch element deals device `c`. -/
def G (c : Dev nD) : sProp 𝕄 :=
  iprop((bigSep Finset.univ fun k : CK => roundState ER (a2aRd m) (kcell (c, k)) 0)
    ∗ (bigSep Finset.univ fun k : CK => iprop(atPos ER (kcell (c, k)) 0 ∅ 0 ∗ reached ER (kcell (c, k)) 0)) ∗ toks c)

/-- What the global step makes of it: the ghost state the body starts from, and the counters no other device touches. -/
def G' (c : Dev nD) : sProp 𝕄 := iprop((∃ K, ghost m K c) ∗ idleSems c)

theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_TK]; rfl
  iintro HX
  imod (Rounds.fund ER (a2aRd m) ringCells ringToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
/-- The kernel's own semaphores are the fifteen send cells', the fifteen receive cells', and five nobody else touches; -/
theorem ownSems0_eq (c : Dev nD) : (Pipeline.ownSems0 (Ix := Unit) (Name := ℕ) (U := UU) (Lvl := ℕ) (Val := Elt F) (τ := τ) osem c : sProp 𝕄)
    = iprop((bigSep Finset.univ fun r : Fin 15 => semVal (sendCell c r) 0) ∗ (bigSep Finset.univ fun r : Fin 15 => semVal (recvCell c r) 0) ∗ idleSems c) := by
  have e1 : (bigSep Finset.univ fun r : Fin 15 => (semVal ((c : Thread nD τ), osem (osEquiv (.inl r))) 0 : sProp 𝕄)) = bigSep Finset.univ fun r : Fin 15 => semVal (sendCell c r) 0 :=
    bigSep_congr fun r _ => by rw [show osEquiv (.inl r) = osIdx (.inl r) from rfl, osem_send]
  have e2 : (bigSep Finset.univ fun r : Fin 15 => (semVal ((c : Thread nD τ), osem (osEquiv (.inr (.inl r)))) 0 : sProp 𝕄)) = bigSep Finset.univ fun r : Fin 15 => semVal (recvCell c r) 0 :=
    bigSep_congr fun r _ => by rw [show osEquiv (.inr (.inl r)) = osIdx (.inr (.inl r)) from rfl, osem_recv]
  have e3 : (bigSep Finset.univ fun i : Fin 5 => (semVal ((c : Thread nD τ), osem (osEquiv (.inr (.inr i)))) 0 : sProp 𝕄)) = bigSep Finset.univ fun i : Fin 5 => semVal ((c : Thread nD τ), idleSem i) 0 :=
    bigSep_congr fun i _ => by rw [show osEquiv (.inr (.inr i)) = osIdx (.inr (.inr i)) from rfl, osem_idle]
  unfold Pipeline.ownSems0 idleSems
  rw [bigSep_univ_equiv osEquiv, bigSep_univ_sum, bigSep_univ_sum, e1, e2, e3]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ idleSems c) : sProp 𝕄) := by
  rw [ownSems0_eq, unscopedSems0_eq, bigSep_CK]
  iintro ⟨⟨HS, HV, HI⟩, HB⟩
  isplitr [HI]
  · isplitl [HB]; · iexact HB
    isplitl [HS] <;> iassumption
  · iexact HI

/-! ## The global step: the cells' invariants, and every token to the device that pays its duty -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (a2aRd m) κ (kcell (c, k))))
          ∗ (bigSep Finset.univ fun k : CK => iprop(atPos ER (kcell (c, k)) 0 ∅ 0 ∗ reached ER (kcell (c, k)) 0)) ∗ toks c ∗ idleSems c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun k : CK => semVal (kcell (c, k)) 0) ∗ bigSep Finset.univ fun k : CK => roundState ER (a2aRd m) (kcell (c, k)) 0)
      ⊢ (|={Set.univ}=> bigSep Finset.univ fun k : CK => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-- The persistent part of the ghost state: every cell's invariant at its name, and round 0 of every cell reached. -/
def records (K : Dev nD × CK → ℕ) : sProp 𝕄 :=
  iprop((bigSep Finset.univ fun ck : Dev nD × CK => cellInv ER (a2aRd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) :
    (bigSep Finset.univ fun ck : Dev nD × CK => (cellInv ER (a2aRd m) (K ck) (kcell ck) : sProp 𝕄)) ⊢ cellInv ER (a2aRd m) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)

/-- What stays with device `c`: its positions, the tokens of the duties IT pays, and its untouched counters. -/
def linear (c : Dev nD) : sProp 𝕄 := iprop(positions c ∗ payToks c ∗ idleSems c)

theorem ghost_intro (K : Dev nD × CK → ℕ) (c : Dev nD) : iprop(records m K ∗ linear c) ⊢ G' m c := by
  unfold records linear G' ghost invs marks
  iintro ⟨⟨#HI, #HR⟩, Hpos, Htok, Hidle⟩
  isplitr [Hidle]
  · iexists K
    isplitr
    · isplitr; · iapply (inv_at m K (c, CK.bar)); iexact HI
      isplitr; · iapply (bigSep_intro_persistent fun r _ => inv_at m K (c, CK.send r)); iexact HI
      isplitr; · iapply (bigSep_intro_persistent fun r _ => inv_at m K (c, CK.recv r)); iexact HI
      isplitr; · iapply (bigSep_intro_persistent fun j _ => inv_at m K (fwd c (off j), CK.bar)); iexact HI
      iapply (bigSep_intro_persistent fun r _ => inv_at m K (fwd c (off r), CK.recv r)); iexact HI
    isplitl [Hpos]; · iexact Hpos
    isplitr
    · isplitr; · iapply (bigSep_intro_persistent fun j _ => reached_at (F := F) (fwd c (off j), CK.bar)); iexact HR
      isplitr; · iapply (bigSep_intro_persistent fun r _ => reached_at (F := F) (fwd c (off r), CK.recv r)); iexact HR
      isplitr; · iapply (bigSep_intro_persistent fun r _ => reached_at (F := F) (c, CK.send r)); iexact HR
      iapply (bigSep_intro_persistent fun r _ => reached_at (F := F) (c, CK.recv r)); iexact HR
    iexact Htok
  · iexact Hidle

/-- Reversing the fifteen offsets. -/
def revEquiv : Fin 15 ≃ Fin 15 := ⟨rev, rev, rev_rev, rev_rev⟩

omit [FloatOps F] in
/-- Something indexed by (device, offset), collected device by device, is the same collected at the device the offset
    leads to: for each offset, moving every device that many places forward permutes the mesh. -/
theorem deal (Φ : Dev nD → Fin 15 → sProp 𝕄) :
    (bigSep Finset.univ fun c : Dev nD => bigSep Finset.univ fun r : Fin 15 => Φ c r)
      = bigSep Finset.univ fun c : Dev nD => bigSep Finset.univ fun r : Fin 15 => Φ (fwd c (off r)) r := by
  rw [bigSep_univ_comm (fun c r => Φ c r),
    bigSep_congr (s := Finset.univ) (fun (r : Fin 15) _ => bigSep_univ_equiv (rot (off r)) (fun c : Dev nD => Φ c r)),
    bigSep_univ_comm (fun (r : Fin 15) (c : Dev nD) => Φ (rot (off r) c) r)]
  rfl

omit [FloatOps F] in
/-- The tokens dealt to their payers: duty `rev j` of the barrier cell `1 + j` places forward and the duty of the receive
    cell `r` that lies `1 + r` places forward come to the device; its send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_congr (s := Finset.univ) (fun (c : Dev nD) _ => bigSep_univ_equiv revEquiv (fun d : Fin 15 => (dutyTok ER (barCell c) 0 d : sProp 𝕄))),
    deal (fun c j => (dutyTok ER (barCell c) 0 (revEquiv j) : sProp 𝕄)),
    deal (fun c r => (dutyTok ER (recvCell c r) 0 0 : sProp 𝕄))]
  iintro ⟨H1, H2, H3⟩
  isplitl [H1]; · iexact H1
  isplitl [H3]; · iexact H3
  iexact H2

theorem regroup :
    (bigSep Finset.univ fun c : Dev nD => iprop((bigSep Finset.univ fun k : CK => iprop(∃ κ : ℕ, cellInv ER (a2aRd m) κ (kcell (c, k))))
          ∗ (bigSep Finset.univ fun k : CK => iprop(atPos ER (kcell (c, k)) 0 ∅ 0 ∗ reached ER (kcell (c, k)) 0)) ∗ toks c ∗ idleSems c) : sProp 𝕄)
      ⊢ bigSep Finset.univ (G' m) := by
  rw [bigSep_sep', bigSep_sep', bigSep_sep', ← bigSep_univ_prod (fun ck : Dev nD × CK => iprop(∃ κ : ℕ, cellInv ER (a2aRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hidle⟩
  ihave HK := (BI.bigSep_exists_pi Finset.univ (fun (ck : Dev nD × CK) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq ((bigSep_sep' Finset.univ (fun c : Dev nD => bigSep Finset.univ fun k : CK => (atPos ER (kcell (c, k)) 0 ∅ 0 : sProp 𝕄)) (fun c => iprop(payToks c ∗ idleSems c))).symm)).trans
      (bigSep_mono fun c _ => show _ ⊢ linear c from Entails.of_eq (by unfold linear positions; rw [bigSep_CK])))
    isplitl [Hat]; · iexact Hat
    rw [bigSep_sep']
    isplitl [Htk]; · iexact Htk
    iexact Hidle

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem nsmul_tallyAt (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

omit [FloatOps F] in
/-- Every other device owes `c`'s barrier cell one unit: the device `1 + j` places back, for each offset `j`. -/
theorem cred_bar (c : Dev nD) :
    (bigSep Finset.univ fun j : Fin 15 => Pipeline.launchCred (fun d : Dev nD => (tallyAt (barCell (fwd d (off j))) () 1 : CellTallies nD τ sig Unit)) c : sProp 𝕄)
      ⊢ cred (tallyAt (barCell c) () 15) := by
  refine (bigSep_mono fun j _ => Pipeline.launchCred_tallyAt (SemLoc.reg barS) (fun d => fwd d (off j)) (fun c => bwd c (off j))
    (fun c => fwd_bwd c (off j)) (fun d => bwd_fwd d (off j)) () 1 c).trans ?_
  rw [← Pipeline.cred_finsetSum Finset.univ (fun _ : Fin 15 => (tallyAt (barCell c) () 1 : CellTallies nD τ sig Unit)),
    Finset.sum_const, Finset.card_univ, Fintype.card_fin, nsmul_tallyAt]
  exact BI.Entails.refl _

omit [FloatOps F] in
/-- Only the device `1 + r` places back owes `c`'s receive cell `r`: the block's credit. -/
theorem cred_recv (c : Dev nD) :
    (bigSep Finset.univ fun r : Fin 15 => Pipeline.launchCred (fun d : Dev nD => (tallyAt (recvCell (fwd d (off r)) r) () N : CellTallies nD τ sig Unit)) c : sProp 𝕄)
      ⊢ bigSep Finset.univ fun r : Fin 15 => cred (tallyAt (recvCell c r) () N) :=
  bigSep_mono fun r _ => Pipeline.launchCred_tallyAt (SemLoc.dma (recvS r).sem) (fun d => fwd d (off r)) (fun c => bwd c (off r))
    (fun c => fwd_bwd c (off r)) (fun d => bwd_fwd d (off r)) () N c

omit [FloatOps F] in
theorem creds (c : Dev nD) :
    (Pipeline.launchCred O₀ c : sProp 𝕄) ⊢ iprop(cred (tallyAt (barCell c) () 15) ∗ bigSep Finset.univ fun r : Fin 15 => cred (tallyAt (recvCell c r) () N)) := by
  rw [show (O₀ : Dev nD → CellTallies nD τ sig Unit) = fun d => Orecv d + Obar d from funext O₀_eq, Pipeline.launchCred_add]
  unfold Orecv Obar
  rw [Pipeline.launchCred_sum Finset.univ (fun (r : Fin 15) (d : Dev nD) => (tallyAt (recvCell (fwd d (off r)) r) () N : CellTallies nD τ sig Unit)) c,
    Pipeline.launchCred_sum Finset.univ (fun (j : Fin 15) (d : Dev nD) => (tallyAt (barCell (fwd d (off j))) () 1 : CellTallies nD τ sig Unit)) c]
  iintro ⟨HR, HB⟩
  isplitl [HB]
  · iapply (cred_bar (F := F) c); iexact HB
  · iapply (cred_recv (F := F) c); iexact HR

/-! ## The theorem's side conditions -/

theorem share_eq (c : Dev nD) (w : Fin cfg0.W) : (dats m ρ 0 c).share w = fullShare := by unfold Dat.share; split <;> rfl

/-- What a device holds between the launch and its first point: what its body starts from, and the weight matrix. -/
def X (c : Dev nD) : sProp 𝕄 := iprop(start m c ∗ wPts m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨Hw, Hlev, Hcr, -, HG, Hidle⟩
  ihave Hc := (creds (F := F) c) $$ Hcr
  icases Hc with ⟨H1, HN⟩
  imodintro
  unfold X start wPts
  isplitl
  · isplitr [Hw]
    · isplitl [HG]; · iexact HG
      isplitl [H1]; · iexact H1
      isplitl [HN]; · iexact HN
      isplitl [Hlev]; · iexact Hlev
      iexact Hidle
    · iexact Hw
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ X
  iintro ⟨⟨Hs, Hw⟩, -, ⟨H0, H1⟩⟩
  isplitl [Hs]; · iexact Hs
  isplitl [Hw]; · iexact Hw
  isplitl [H0]; · iexact H0
  iexact H1

theorem phi1_exit (c : Dev nD) :
    (dats m ρ 0 c).Φ (Fin.last cfg0.N) ⊢ iprop(wPts m c ∗ Pipeline.ownSems0 osem c ∗ Pipeline.scopedRest cfg0.spec c) := by
  rw [show (dats m ρ 0 c).Φ (Fin.last cfg0.N) = Φ₁ m c from rfl, scopedRest0_eq, ownSems0_eq]
  unfold Φ₁
  iintro ⟨Hw, H0, H1, HS, HV, HI⟩
  isplitl [Hw]; · iexact Hw
  isplitl [HS HV HI]
  · isplitl [HS]; · iexact HS
    isplitl [HV]; · iexact HV
    iexact HI
  isplitl [H0]; · iexact H0
  iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

omit [FloatOps F] in
/-- The protocol's half of the launch element, out of the pair it forms with the counters' unit. -/
theorem own_ring (a : UB) (b : Counters) :
    (BI.own ((embR : Emb (UB × Counters) (MT nD τ sig Unit (Elt F) ℕ UU ℕ)) (a, b)) : sProp 𝕄) ⊢ BI.own (ER (F := F) a) := by
  unfold ER
  iintro H
  ihave H2 := (own_pair_emb (embR : Emb (UB × Counters) (MT nD τ sig Unit (Elt F) ℕ UU ℕ)) a b) $$ H
  icases H2 with ⟨HR, -⟩
  iexact HR

set_option maxRecDepth 8000 in
/-- At the compiled mesh of sixteen devices, for any float values, from any memory with zero counters: given each
    device's body, every weakly fair execution of @main — the sixteen kernels greeting one another on the runtime's
    barrier semaphore, then exchanging their slabs — terminates, and every final state has each device's windows' arrays
    at the computed contents and the weight matrix unchanged. -/
theorem run_main (m : (ℓ : Loc nD τ sig) → Buf (Elt F) ℓ) (ρ : Dev nD → PrngReg)
    (hbody : ∀ c, BodyObligation (dats (F := F) m ρ 0 c) (defs₀ (F := F)) Variants.none () Set.univ) :
    θ_run defs (onTc (τ := τ) (main (F := F))) (s₀ m ρ)
      (fun r => ∀ c : Dev nD, (∀ w : Fin cfg0.W, r.2.mem ((cfg0.win w).arr.view.loc (c : Thread nD τ)) = (dats m ρ 0 c).arrAt w cfg0.N)
        ∧ r.2.mem ((c : Thread nD τ).loc main_arg1) = m ((c : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HR := (own_ring (F := F) _ _) $$ HX
      imod (fund_ring m) $$ HR with HG
      imodintro
      isplitl [HP] <;> iassumption)
    (hglob := glob m)
    (hA := fun _ _ => rfl) (hpf := fun _ k => k.elim0)
    (X := X m) (Y := wPts m) (Z := fun _ => iprop(emp))
    (hX := start_intro m ρ) (hin := phi0_intro m ρ) (hout := phi1_exit m ρ)
    (QY := fun c s => s.mem ((c : Thread nD τ).loc main_arg1) = m ((c : Thread nD τ).loc main_arg1))
    (hY := fun c s' => by
      unfold wPts
      iintro ⟨Hw, -, HSI⟩
      icombine HSI Hw gives %hw
      imodintro
      isplitr; · ipureintro; exact Buf.eq_of_forall_mem_univ hw
      iexact HSI)
    (hQ := fun _ h c => ⟨(h c).1, (h c).2.2⟩)

/-- info: 'Cert.KernelIdeal.A2A.run_main' depends on axioms: [propext, Classical.choice, Quot.sound] -/
#guard_msgs in #print axioms run_main

end Cert.KernelIdeal.A2A

end
-- ==== Proof.Cuts.lean ====
/-
  Two scratch buffers of a device, cut into their slots.

  The landing scratch has shape [16, 256, 256]: sixteen slots, slot `e` being the elements whose first coordinate
  is `e`. Slot 0 is never written by a transfer; slot `1 + r` is where transfer `r` lands. The slots are pairwise
  disjoint and together are the whole scratch, so the scratch held whole is slot 0 together with the fifteen others,
  and the sixteen slots, each held at some contents, join to the scratch held whole at some contents.

  The weight scratch has shape [3, 256, 8192]: three slots, slot `i` being the elements whose first coordinate is
  `i`; they are cut and joined the same way.
-/
import proofs.«900405_g7700000000000406_dist_a2a_gemm_m4096_k4096_n8192_f32_gelu_v7x_i16_1_alg».proof.Proof.Data
import Idealize.ShloMosaic.Lib.Ring
import Idealize.ShloMosaic.Rules.PointsTo

noncomputable section

namespace Cert.KernelIdeal.A2A

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists lead_disjoint lead_cover)

variable {F : FTy → Type} [FloatOps F]

local notation "𝕄" => MT nD τ sig Unit (Elt F) ℕ UU ℕ

/-- A separating conjunction over `n + 1` indices is the first conjunct and the conjunction over the successors. -/
theorem bigSep_fin_succ {M : Type*} [URA M] {n : ℕ} (Φ : Fin (n + 1) → sProp M) :
    bigSep Finset.univ Φ = iprop(Φ 0 ∗ bigSep Finset.univ fun r : Fin n => Φ r.succ) := by
  rw [Fin.univ_succ]
  unfold bigSep
  rw [Finset.fold_cons, Finset.fold_map]
  rfl

/-! ## The landing scratch: sixteen slots -/

theorem row_inb (e : Fin 16) : ∀ a, (![e.val, 0, 0] : Fin 3 → Nat) a + S1x256x256.size a ≤ S16x256x256.size a := by
  revert e; decide

/-- The elements of slot `e`: first coordinate `e`, the other two free. -/
def rowSet (e : Fin 16) : Finset S16x256x256.Idx :=
  (Rect.unit (s := S16x256x256) ![e.val, 0, 0] S1x256x256.size (row_inb e)).set

theorem rowSet_disjoint (e e' : Fin 16) (h : e ≠ e') : Disjoint (rowSet e) (rowSet e') :=
  lead_disjoint (s := S16x256x256) (NB := 16) 0 1 (fun e : Fin 16 => ![e.val, 0, 0]) S1x256x256.size row_inb
    (fun e => (Nat.one_mul _).symm) rfl e e' h

theorem rowSet_cover : Finset.univ.biUnion rowSet = Finset.univ :=
  lead_cover (s := S16x256x256) (NB := 16) 0 1 (fun e : Fin 16 => ![e.val, 0, 0]) S1x256x256.size row_inb
    (fun e => (Nat.one_mul _).symm) (by decide) rfl (by decide) rfl

/-- Slot `1 + r`, as transfer `r` addresses it, is the elements with first coordinate `1 + r`. -/
theorem slot_set (r : Fin 15) : (slot r).view.set = rowSet r.succ := by
  show (((View.whole cc0_scratch0).slice _).reshape S256x256 _).set = _
  rw [View.set_reshape, View.set_slice_whole]
  exact congrArg (fun R : Rect S16x256x256 => R.set)
    (Rect.unit_congr (show (![1 + r.val, 0, 0] : Fin 3 → ℕ) = ![r.succ.val, 0, 0] by rw [Fin.val_succ, Nat.add_comm])
      (slot_inb r) (row_inb r.succ))

/-- Slot 0 of the landing scratch, held at the scratch's contents `f`. -/
def slot0Pts (c : Dev nD) (f : Buf (Elt F) ((c : Thread nD τ).loc cc0_scratch0)) : sProp 𝕄 :=
  ((c : Thread nD τ).loc cc0_scratch0) ↦[rowSet 0]{fullShare} f

omit [FloatOps F] in
theorem slotPts_eq (c : Dev nD) (r : Fin 15) (f : Buf (Elt F) ((c : Thread nD τ).loc cc0_scratch0)) :
    slotPts c r f = (((c : Thread nD τ).loc cc0_scratch0) ↦[rowSet r.succ]{fullShare} f : sProp 𝕄) := by
  unfold slotPts
  rw [slot_set]

omit [FloatOps F] in
/-- The scratch held whole is slot 0 and the fifteen landing slots. -/
theorem slots_cut (c : Dev nD) (f : Buf (Elt F) ((c : Thread nD τ).loc cc0_scratch0)) :
    (((c : Thread nD τ).loc cc0_scratch0) ↦{fullShare} f : sProp 𝕄)
      = iprop(slot0Pts c f ∗ bigSep Finset.univ fun r : Fin 15 => slotPts c r f) := by
  rw [pointsTo_blocks rowSet rowSet_disjoint rowSet_cover f, bigSep_fin_succ]
  unfold slot0Pts
  exact congrArg (fun X : sProp 𝕄 => iprop((((c : Thread nD τ).loc cc0_scratch0) ↦[rowSet 0]{fullShare} f) ∗ X))
    (bigSep_congr fun r _ => (slotPts_eq c r f).symm)

/-- The sixteen slots, each held at some contents, are the scratch held whole at some contents. -/
theorem slots_join (c : Dev nD) :
    iprop((∃ f, slot0Pts (F := F) c f) ∗ bigSep Finset.univ fun r : Fin 15 => iprop(∃ f, slotPts (F := F) c r f))
      ⊢ (iprop(∃ g, ((c : Thread nD τ).loc cc0_scratch0) ↦{fullShare} g) : sProp 𝕄) := by
  have h := pointsTo_blocks_join_exists (Ix := Unit) (Val := Elt F) (Name := ℕ) (U := UU) (Lvl := ℕ)
    (ℓ := (c : Thread nD τ).loc cc0_scratch0) rowSet rowSet_disjoint rowSet_cover (q := fullShare) (Classical.arbitrary _)
  rw [bigSep_fin_succ] at h
  refine (Entails.of_eq ?_).trans h
  unfold slot0Pts
  exact congrArg (fun X : sProp 𝕄 => iprop((∃ f, ((c : Thread nD τ).loc cc0_scratch0) ↦[rowSet 0]{fullShare} f) ∗ X))
    (bigSep_congr fun r _ => congrArg (fun Ψ : Buf (Elt F) ((c : Thread nD τ).loc cc0_scratch0) → sProp 𝕄 => iprop(∃ f, Ψ f))
      (funext fun f => slotPts_eq c r f))

/-! ## The weight scratch: three slots -/

/-- A separating conjunction over three indices, written out. -/
theorem bigSep_fin_three {M : Type*} [URA M] (Φ : Fin 3 → sProp M) :
    bigSep Finset.univ Φ = iprop(Φ 0 ∗ Φ 1 ∗ Φ 2) := by
  rw [show (Finset.univ : Finset (Fin 3)) = {0, 1, 2} by decide, bigSep_insert (by decide), bigSep_insert (by decide),
    bigSep_singleton]
  rfl

/-- The elements of weight slot `i`: first coordinate `i`, the other two free. -/
def wrowSet (i : Fin 3) : Finset S3x256x8192.Idx :=
  (Rect.unit (s := S3x256x8192) ![i.val, 0, 0] S1x256x8192.size (wslot_inb i)).set

theorem wrowSet_disjoint (i i' : Fin 3) (h : i ≠ i') : Disjoint (wrowSet i) (wrowSet i') :=
  lead_disjoint (s := S3x256x8192) (NB := 3) 0 1 (fun i : Fin 3 => ![i.val, 0, 0]) S1x256x8192.size wslot_inb
    (fun i => (Nat.one_mul _).symm) rfl i i' h

theorem wrowSet_cover : Finset.univ.biUnion wrowSet = Finset.univ :=
  lead_cover (s := S3x256x8192) (NB := 3) 0 1 (fun i : Fin 3 => ![i.val, 0, 0]) S1x256x8192.size wslot_inb
    (fun i => (Nat.one_mul _).symm) (by decide) rfl (by decide) rfl

/-- Weight slot `i`, as the copies and the loads address it, is the elements with first coordinate `i`. -/
theorem wslot_set (i : Fin 3) : (wslot i).view.set = wrowSet i := by
  show (((View.whole cc0_scratch1).slice _).reshape S256x8192 _).set = _
  rw [View.set_reshape, View.set_slice_whole]
  rfl

omit [FloatOps F] in
theorem wslotPts_eq (c : Dev nD) (i : Fin 3) (f : Buf (Elt F) ((c : Thread nD τ).loc cc0_scratch1)) :
    ((wslot i).view.loc (c : Thread nD τ) ↦[(wslot i).view.set]{fullShare} f : sProp 𝕄)
      = (((c : Thread nD τ).loc cc0_scratch1) ↦[wrowSet i]{fullShare} f : sProp 𝕄) := by
  rw [wslot_set]

omit [FloatOps F] in
/-- The weight scratch held whole is its three slots. -/
theorem wslots_cut (c : Dev nD) (f : Buf (Elt F) ((c : Thread nD τ).loc cc0_scratch1)) :
    (((c : Thread nD τ).loc cc0_scratch1) ↦{fullShare} f : sProp 𝕄)
      = iprop(bigSep Finset.univ fun i : Fin 3 => (wslot i).view.loc (c : Thread nD τ) ↦[(wslot i).view.set]{fullShare} f) := by
  rw [pointsTo_blocks wrowSet wrowSet_disjoint wrowSet_cover f]
  exact bigSep_congr fun i _ => (wslotPts_eq c i f).symm

omit [FloatOps F] in
/-- The same with the three slots written out. -/
theorem wslots_cut3 (c : Dev nD) (f : Buf (Elt F) ((c : Thread nD τ).loc cc0_scratch1)) :
    (((c : Thread nD τ).loc cc0_scratch1) ↦{fullShare} f : sProp 𝕄)
      = iprop(((wslot 0).view.loc (c : Thread nD τ) ↦[(wslot 0).view.set]{fullShare} f)
          ∗ ((wslot 1).view.loc (c : Thread nD τ) ↦[(wslot 1).view.set]{fullShare} f)
          ∗ ((wslot 2).view.loc (c : Thread nD τ) ↦[(wslot 2).view.set]{fullShare} f)) := by
  rw [wslots_cut, bigSep_fin_three]

/-- The three slots, each held at some contents, are the weight scratch held whole at some contents. -/
theorem wslots_join (c : Dev nD) :
    iprop(bigSep Finset.univ fun i : Fin 3 =>
        iprop(∃ f : Buf (Elt F) ((c : Thread nD τ).loc cc0_scratch1), (wslot i).view.loc (c : Thread nD τ) ↦[(wslot i).view.set]{fullShare} f))
      ⊢ (iprop(∃ g, ((c : Thread nD τ).loc cc0_scratch1) ↦{fullShare} g) : sProp 𝕄) := by
  have h := pointsTo_blocks_join_exists (Ix := Unit) (Val := Elt F) (Name := ℕ) (U := UU) (Lvl := ℕ)
    (ℓ := (c : Thread nD τ).loc cc0_scratch1) wrowSet wrowSet_disjoint wrowSet_cover (q := fullShare) (Classical.arbitrary _)
  refine (Entails.of_eq ?_).trans h
  exact bigSep_congr fun i _ => congrArg (fun Ψ : Buf (Elt F) ((c : Thread nD τ).loc cc0_scratch1) → sProp 𝕄 => iprop(∃ f, Ψ f))
    (funext fun f => wslotPts_eq c i f)

/-- The same with the three slots written out. -/
theorem wslots_join3 (c : Dev nD) :
    iprop((∃ f : Buf (Elt F) ((c : Thread nD τ).loc cc0_scratch1), (wslot 0).view.loc (c : Thread nD τ) ↦[(wslot 0).view.set]{fullShare} f)
        ∗ (∃ f : Buf (Elt F) ((c : Thread nD τ).loc cc0_scratch1), (wslot 1).view.loc (c : Thread nD τ) ↦[(wslot 1).view.set]{fullShare} f)
        ∗ (∃ f : Buf (Elt F) ((c : Thread nD τ).loc cc0_scratch1), (wslot 2).view.loc (c : Thread nD τ) ↦[(wslot 2).view.set]{fullShare} f))
      ⊢ (iprop(∃ g, ((c : Thread nD τ).loc cc0_scratch1) ↦{fullShare} g) : sProp 𝕄) := by
  refine (Entails.of_eq ?_).trans (wslots_join c)
  rw [bigSep_fin_three]

end Cert.KernelIdeal.A2A

end
-- ==== Proof.Stg.lean ====
/-
  A staging buffer held whole: the form in which the pipeline hands a window's current buffer to the body and takes it back.
-/
import proofs.«900405_g7700000000000406_dist_a2a_gemm_m4096_k4096_n8192_f32_gelu_v7x_i16_1_alg».proof.Proof.Data

noncomputable section

namespace Cert.KernelIdeal.A2A

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Staging buffer `b` of device `c`, held whole at contents equal to `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- It is the memref's ownership at the full share, reading `X`. -/
theorem stg_eq_owns (c : Dev nD) (b : Ref sig .tc) (X : b.ty.Contents (Elt F)) :
    (stg c b X : sProp 𝕄) = owns (c : Thread nD τ) (Memref.whole b) fullShare X := by
  rw [owns_whole_eq]; rfl

end Cert.KernelIdeal.A2A

end
-- ==== Proof.BodyExit.lean ====
/-
  The end of a device's body: its cells closed, its buffers rejoined.

  When the body returns, each of the device's send and receive cells has been waited on once, for the whole of its only
  round; no later round has a duty, so the owner closes the cell and takes its counter back at zero.  The landing
  scratch, cut into its sixteen slots for the transfers, is the sixteen slots joined again; the weight scratch its three
  slots; the column block and the weight matrix, lent out as read tokens, are whole again once every token is back.
-/
import proofs.«900405_g7700000000000406_dist_a2a_gemm_m4096_k4096_n8192_f32_gelu_v7x_i16_1_alg».proof.Proof.Cuts
import proofs.«900405_g7700000000000406_dist_a2a_gemm_m4096_k4096_n8192_f32_gelu_v7x_i16_1_alg».proof.Proof.Levels
import proofs.«900405_g7700000000000406_dist_a2a_gemm_m4096_k4096_n8192_f32_gelu_v7x_i16_1_alg».proof.Proof.Stg

noncomputable section

namespace Cert.KernelIdeal.A2A

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Fifteen conjuncts, written out -/

/-- A separating conjunction over the fifteen offsets, written out. -/
theorem bigSep_fin15 {M : Type*} [URA M] (Φ : Fin 15 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-! ## Closing the cells -/

/-- A cell whose owner has consumed its only round closes: the counter, at zero, is the owner's again. -/
theorem cell_close1 (g : GSem nD τ sig) (κ : ℕ) :
    iprop(cellInv ER (a2aRd m) κ g ∗ atPos ER g 1 ∅ 0) ⊢ (|={Set.univ}=> semVal g 0 : sProp 𝕄) :=
  Rounds.cell_close ER (a2aRd m) (Set.mem_univ κ) (fun h => h) (R := 1) (duties_later m g)

/-- Fifteen cells at once. -/
theorem family_close (g : Fin 15 → GSem nD τ sig) (κ : Fin 15 → ℕ) :
    iprop((bigSep Finset.univ fun r : Fin 15 => cellInv ER (a2aRd m) (κ r) (g r)) ∗ (bigSep Finset.univ fun r : Fin 15 => atPos ER (g r) 1 ∅ 0))
      ⊢ (|={Set.univ}=> bigSep Finset.univ fun r : Fin 15 => semVal (g r) 0 : sProp 𝕄) := by
  rw [← bigSep_sep']
  exact (bigSep_mono fun r _ => cell_close1 m (g r) (κ r)).trans (bigSep_fupd _ _)

/-- The device's thirty send and receive cells close: their counters come back at zero. -/
theorem cells_close (K : Dev nD × CK → ℕ) (c : Dev nD) :
    iprop((bigSep Finset.univ fun r : Fin 15 => cellInv ER (a2aRd m) (K (c, CK.send r)) (sendCell c r))
        ∗ (bigSep Finset.univ fun r : Fin 15 => cellInv ER (a2aRd m) (K (c, CK.recv r)) (recvCell c r))
        ∗ (bigSep Finset.univ fun r : Fin 15 => atPos ER (sendCell c r) 1 ∅ 0)
        ∗ (bigSep Finset.univ fun r : Fin 15 => atPos ER (recvCell c r) 1 ∅ 0))
      ⊢ (|={Set.univ}=> iprop((bigSep Finset.univ fun r : Fin 15 => semVal (sendCell c r) 0)
          ∗ (bigSep Finset.univ fun r : Fin 15 => semVal (recvCell c r) 0)) : sProp 𝕄) := by
  iintro ⟨HIs, HIr, Has, Har⟩
  imod (family_close m (fun r => sendCell c r) (fun r => K (c, CK.send r))) $$ [HIs Has] with HS
  · isplitl [HIs] <;> iassumption
  imod (family_close m (fun r => recvCell c r) (fun r => K (c, CK.recv r))) $$ [HIr Har] with HV
  · isplitl [HIr] <;> iassumption
  imodintro
  isplitl [HS] <;> iassumption

/-- The same with the thirty invariants and the thirty positions written out. -/
theorem cells_close_chain (K : Dev nD × CK → ℕ) (c : Dev nD) :
    iprop((cellInv ER (a2aRd m) (K (c, CK.send 0)) (sendCell c 0)
      ∗ cellInv ER (a2aRd m) (K (c, CK.send 1)) (sendCell c 1)
      ∗ cellInv ER (a2aRd m) (K (c, CK.send 2)) (sendCell c 2)
      ∗ cellInv ER (a2aRd m) (K (c, CK.send 3)) (sendCell c 3)
      ∗ cellInv ER (a2aRd m) (K (c, CK.send 4)) (sendCell c 4)
      ∗ cellInv ER (a2aRd m) (K (c, CK.send 5)) (sendCell c 5)
      ∗ cellInv ER (a2aRd m) (K (c, CK.send 6)) (sendCell c 6)
      ∗ cellInv ER (a2aRd m) (K (c, CK.send 7)) (sendCell c 7)
      ∗ cellInv ER (a2aRd m) (K (c, CK.send 8)) (sendCell c 8)
      ∗ cellInv ER (a2aRd m) (K (c, CK.send 9)) (sendCell c 9)
      ∗ cellInv ER (a2aRd m) (K (c, CK.send 10)) (sendCell c 10)
      ∗ cellInv ER (a2aRd m) (K (c, CK.send 11)) (sendCell c 11)
      ∗ cellInv ER (a2aRd m) (K (c, CK.send 12)) (sendCell c 12)
      ∗ cellInv ER (a2aRd m) (K (c, CK.send 13)) (sendCell c 13)
      ∗ cellInv ER (a2aRd m) (K (c, CK.send 14)) (sendCell c 14))
        ∗ (cellInv ER (a2aRd m) (K (c, CK.recv 0)) (recvCell c 0)
      ∗ cellInv ER (a2aRd m) (K (c, CK.recv 1)) (recvCell c 1)
      ∗ cellInv ER (a2aRd m) (K (c, CK.recv 2)) (recvCell c 2)
      ∗ cellInv ER (a2aRd m) (K (c, CK.recv 3)) (recvCell c 3)
      ∗ cellInv ER (a2aRd m) (K (c, CK.recv 4)) (recvCell c 4)
      ∗ cellInv ER (a2aRd m) (K (c, CK.recv 5)) (recvCell c 5)
      ∗ cellInv ER (a2aRd m) (K (c, CK.recv 6)) (recvCell c 6)
      ∗ cellInv ER (a2aRd m) (K (c, CK.recv 7)) (recvCell c 7)
      ∗ cellInv ER (a2aRd m) (K (c, CK.recv 8)) (recvCell c 8)
      ∗ cellInv ER (a2aRd m) (K (c, CK.recv 9)) (recvCell c 9)
      ∗ cellInv ER (a2aRd m) (K (c, CK.recv 10)) (recvCell c 10)
      ∗ cellInv ER (a2aRd m) (K (c, CK.recv 11)) (recvCell c 11)
      ∗ cellInv ER (a2aRd m) (K (c, CK.recv 12)) (recvCell c 12)
      ∗ cellInv ER (a2aRd m) (K (c, CK.recv 13)) (recvCell c 13)
      ∗ cellInv ER (a2aRd m) (K (c, CK.recv 14)) (recvCell c 14))
        ∗ (atPos ER (sendCell c 0) 1 ∅ 0
      ∗ atPos ER (sendCell c 1) 1 ∅ 0
      ∗ atPos ER (sendCell c 2) 1 ∅ 0
      ∗ atPos ER (sendCell c 3) 1 ∅ 0
      ∗ atPos ER (sendCell c 4) 1 ∅ 0
      ∗ atPos ER (sendCell c 5) 1 ∅ 0
      ∗ atPos ER (sendCell c 6) 1 ∅ 0
      ∗ atPos ER (sendCell c 7) 1 ∅ 0
      ∗ atPos ER (sendCell c 8) 1 ∅ 0
      ∗ atPos ER (sendCell c 9) 1 ∅ 0
      ∗ atPos ER (sendCell c 10) 1 ∅ 0
      ∗ atPos ER (sendCell c 11) 1 ∅ 0
      ∗ atPos ER (sendCell c 12) 1 ∅ 0
      ∗ atPos ER (sendCell c 13) 1 ∅ 0
      ∗ atPos ER (sendCell c 14) 1 ∅ 0)
        ∗ (atPos ER (recvCell c 0) 1 ∅ 0
      ∗ atPos ER (recvCell c 1) 1 ∅ 0
      ∗ atPos ER (recvCell c 2) 1 ∅ 0
      ∗ atPos ER (recvCell c 3) 1 ∅ 0
      ∗ atPos ER (recvCell c 4) 1 ∅ 0
      ∗ atPos ER (recvCell c 5) 1 ∅ 0
      ∗ atPos ER (recvCell c 6) 1 ∅ 0
      ∗ atPos ER (recvCell c 7) 1 ∅ 0
      ∗ atPos ER (recvCell c 8) 1 ∅ 0
      ∗ atPos ER (recvCell c 9) 1 ∅ 0
      ∗ atPos ER (recvCell c 10) 1 ∅ 0
      ∗ atPos ER (recvCell c 11) 1 ∅ 0
      ∗ atPos ER (recvCell c 12) 1 ∅ 0
      ∗ atPos ER (recvCell c 13) 1 ∅ 0
      ∗ atPos ER (recvCell c 14) 1 ∅ 0))
      ⊢ (|={Set.univ}=> iprop((bigSep Finset.univ fun r : Fin 15 => semVal (sendCell c r) 0)
          ∗ (bigSep Finset.univ fun r : Fin 15 => semVal (recvCell c r) 0)) : sProp 𝕄) := by
  have h := cells_close m K c
  rw [bigSep_fin15 (fun r : Fin 15 => cellInv ER (a2aRd m) (K (c, CK.send r)) (sendCell c r)),
    bigSep_fin15 (fun r : Fin 15 => cellInv ER (a2aRd m) (K (c, CK.recv r)) (recvCell c r)),
    bigSep_fin15 (fun r : Fin 15 => (atPos ER (sendCell c r) 1 ∅ 0 : sProp 𝕄)),
    bigSep_fin15 (fun r : Fin 15 => (atPos ER (recvCell c r) 1 ∅ 0 : sProp 𝕄))] at h
  exact h

/-! ## The buffers rejoined -/

/-- The sixteen slots of the landing scratch, written out and each at some contents, are the scratch held whole. -/
theorem slots_join_chain (c : Dev nD) :
    iprop((∃ f, slot0Pts (F := F) c f)
      ∗ (∃ f, slotPts (F := F) c 0 f)
      ∗ (∃ f, slotPts (F := F) c 1 f)
      ∗ (∃ f, slotPts (F := F) c 2 f)
      ∗ (∃ f, slotPts (F := F) c 3 f)
      ∗ (∃ f, slotPts (F := F) c 4 f)
      ∗ (∃ f, slotPts (F := F) c 5 f)
      ∗ (∃ f, slotPts (F := F) c 6 f)
      ∗ (∃ f, slotPts (F := F) c 7 f)
      ∗ (∃ f, slotPts (F := F) c 8 f)
      ∗ (∃ f, slotPts (F := F) c 9 f)
      ∗ (∃ f, slotPts (F := F) c 10 f)
      ∗ (∃ f, slotPts (F := F) c 11 f)
      ∗ (∃ f, slotPts (F := F) c 12 f)
      ∗ (∃ f, slotPts (F := F) c 13 f)
      ∗ (∃ f, slotPts (F := F) c 14 f))
      ⊢ (iprop(∃ g, ((c : Thread nD τ).loc cc0_scratch0) ↦{fullShare} g) : sProp 𝕄) := by
  have h := slots_join (F := F) c
  rw [bigSep_fin15 (fun r : Fin 15 => iprop(∃ f, slotPts (F := F) c r f))] at h
  exact h

omit [FloatOps F] in
/-- A buffer held whole at a share, less fifteen read tokens, together with the fifteen tokens, is the buffer at the share. -/
theorem toks15_join (ℓ : Loc nD τ sig) (f : Buf (Elt F) ℓ) :
    iprop((ℓ ↦[Finset.univ]{Transfers.shareDrop fullShare 15} f) ∗ bigSep Finset.univ fun r : Fin 15 => (ℓ ↦[Finset.univ]{Transfers.shareTok fullShare 15 r} f))
      ⊢ (ℓ ↦{fullShare} f : sProp 𝕄) :=
  Transfers.pointsTo_toks_join fullShare 15

/-- The column block: what is left after fifteen read tokens, and the fifteen tokens, are the staged block whole. -/
theorem x_join (c : Dev nD) :
    iprop(((xM : Memref sig .tc .vmem S4096x256 .f32).view.loc (c : Thread nD τ) ↦[(xM : Memref sig .tc .vmem S4096x256 .f32).view.set]{Transfers.shareDrop fullShare 15} xstg m c)
        ∗ bigSep Finset.univ fun r : Fin 15 => ((xM : Memref sig .tc .vmem S4096x256 .f32).view.loc (c : Thread nD τ) ↦[(xM : Memref sig .tc .vmem S4096x256 .f32).view.set]{xShare r} xstg m c))
      ⊢ ((((c : Thread nD τ).loc cc0_stg0_0) ↦{fullShare} xstg m c) : sProp 𝕄) := by
  rw [show (xM : Memref sig .tc .vmem S4096x256 .f32).view.set = Finset.univ from View.set_whole _]
  exact toks15_join ((c : Thread nD τ).loc cc0_stg0_0) (xstg m c)

/-- The same with the fifteen tokens written out. -/
theorem x_join_chain (c : Dev nD) :
    iprop(((xM : Memref sig .tc .vmem S4096x256 .f32).view.loc (c : Thread nD τ) ↦[(xM : Memref sig .tc .vmem S4096x256 .f32).view.set]{Transfers.shareDrop fullShare 15} xstg m c)
      ∗ ((xM : Memref sig .tc .vmem S4096x256 .f32).view.loc (c : Thread nD τ) ↦[(xM : Memref sig .tc .vmem S4096x256 .f32).view.set]{xShare 0} xstg m c)
      ∗ ((xM : Memref sig .tc .vmem S4096x256 .f32).view.loc (c : Thread nD τ) ↦[(xM : Memref sig .tc .vmem S4096x256 .f32).view.set]{xShare 1} xstg m c)
      ∗ ((xM : Memref sig .tc .vmem S4096x256 .f32).view.loc (c : Thread nD τ) ↦[(xM : Memref sig .tc .vmem S4096x256 .f32).view.set]{xShare 2} xstg m c)
      ∗ ((xM : Memref sig .tc .vmem S4096x256 .f32).view.loc (c : Thread nD τ) ↦[(xM : Memref sig .tc .vmem S4096x256 .f32).view.set]{xShare 3} xstg m c)
      ∗ ((xM : Memref sig .tc .vmem S4096x256 .f32).view.loc (c : Thread nD τ) ↦[(xM : Memref sig .tc .vmem S4096x256 .f32).view.set]{xShare 4} xstg m c)
      ∗ ((xM : Memref sig .tc .vmem S4096x256 .f32).view.loc (c : Thread nD τ) ↦[(xM : Memref sig .tc .vmem S4096x256 .f32).view.set]{xShare 5} xstg m c)
      ∗ ((xM : Memref sig .tc .vmem S4096x256 .f32).view.loc (c : Thread nD τ) ↦[(xM : Memref sig .tc .vmem S4096x256 .f32).view.set]{xShare 6} xstg m c)
      ∗ ((xM : Memref sig .tc .vmem S4096x256 .f32).view.loc (c : Thread nD τ) ↦[(xM : Memref sig .tc .vmem S4096x256 .f32).view.set]{xShare 7} xstg m c)
      ∗ ((xM : Memref sig .tc .vmem S4096x256 .f32).view.loc (c : Thread nD τ) ↦[(xM : Memref sig .tc .vmem S4096x256 .f32).view.set]{xShare 8} xstg m c)
      ∗ ((xM : Memref sig .tc .vmem S4096x256 .f32).view.loc (c : Thread nD τ) ↦[(xM : Memref sig .tc .vmem S4096x256 .f32).view.set]{xShare 9} xstg m c)
      ∗ ((xM : Memref sig .tc .vmem S4096x256 .f32).view.loc (c : Thread nD τ) ↦[(xM : Memref sig .tc .vmem S4096x256 .f32).view.set]{xShare 10} xstg m c)
      ∗ ((xM : Memref sig .tc .vmem S4096x256 .f32).view.loc (c : Thread nD τ) ↦[(xM : Memref sig .tc .vmem S4096x256 .f32).view.set]{xShare 11} xstg m c)
      ∗ ((xM : Memref sig .tc .vmem S4096x256 .f32).view.loc (c : Thread nD τ) ↦[(xM : Memref sig .tc .vmem S4096x256 .f32).view.set]{xShare 12} xstg m c)
      ∗ ((xM : Memref sig .tc .vmem S4096x256 .f32).view.loc (c : Thread nD τ) ↦[(xM : Memref sig .tc .vmem S4096x256 .f32).view.set]{xShare 13} xstg m c)
      ∗ ((xM : Memref sig .tc .vmem S4096x256 .f32).view.loc (c : Thread nD τ) ↦[(xM : Memref sig .tc .vmem S4096x256 .f32).view.set]{xShare 14} xstg m c))
      ⊢ ((((c : Thread nD τ).loc cc0_stg0_0) ↦{fullShare} xstg m c) : sProp 𝕄) := by
  have h := x_join m c
  rw [bigSep_fin15 (fun r : Fin 15 => ((xM : Memref sig .tc .vmem S4096x256 .f32).view.loc (c : Thread nD τ) ↦[(xM : Memref sig .tc .vmem S4096x256 .f32).view.set]{xShare r} xstg m c : sProp 𝕄))] at h
  exact h

omit [FloatOps F] in
/-- The weight matrix: what is left after three read tokens, and the three tokens, are the matrix whole. -/
theorem w_join (c : Dev nD) :
    iprop(((wM : Memref sig .tc .hbm S4096x8192 .f32).view.loc (c : Thread nD τ) ↦[(wM : Memref sig .tc .hbm S4096x8192 .f32).view.set]{Transfers.shareDrop fullShare 3} m ((c : Thread nD τ).loc main_arg1))
        ∗ ((wM : Memref sig .tc .hbm S4096x8192 .f32).view.loc (c : Thread nD τ) ↦[(wM : Memref sig .tc .hbm S4096x8192 .f32).view.set]{Transfers.shareTok fullShare 3 0} m ((c : Thread nD τ).loc main_arg1))
        ∗ ((wM : Memref sig .tc .hbm S4096x8192 .f32).view.loc (c : Thread nD τ) ↦[(wM : Memref sig .tc .hbm S4096x8192 .f32).view.set]{Transfers.shareTok fullShare 3 1} m ((c : Thread nD τ).loc main_arg1))
        ∗ ((wM : Memref sig .tc .hbm S4096x8192 .f32).view.loc (c : Thread nD τ) ↦[(wM : Memref sig .tc .hbm S4096x8192 .f32).view.set]{Transfers.shareTok fullShare 3 2} m ((c : Thread nD τ).loc main_arg1)))
      ⊢ (wPts m c : sProp 𝕄) := by
  have h := Transfers.pointsTo_toks_join (Ix := Unit) (Val := Elt F) (Name := ℕ) (U := UU) (Lvl := ℕ) (ℓ := (c : Thread nD τ).loc main_arg1)
    (S := Finset.univ) (f := m ((c : Thread nD τ).loc main_arg1)) fullShare 3
  rw [bigSep_fin_three] at h
  rw [show (wM : Memref sig .tc .hbm S4096x8192 .f32).view.set = Finset.univ from View.set_whole _]
  exact h

/-! ## The column block's read tokens, carved -/

omit [FloatOps F] in
/-- The rows transfer `r` carries are among the staged block's elements. -/
theorem slab_subset (c : Dev nD) (r : Fin 15) : (slab c r).view.set ⊆ (xM : Memref sig .tc .vmem S4096x256 .f32).view.set := by
  show ((xM : Memref sig .tc .vmem S4096x256 .f32).view.slice _).set ⊆ _
  exact View.set_slice_subset _ _

/-- What is left of read token `r` of the column block once the rows of transfer `r` are carved out of it. -/
def xRest (c : Dev nD) (r : Fin 15) : sProp 𝕄 :=
  (xM : Memref sig .tc .vmem S4096x256 .f32).view.loc (c : Thread nD τ) ↦[(xM : Memref sig .tc .vmem S4096x256 .f32).view.set \ (slab c r).view.set]{xShare r} xstg m c

/-- Read token `r` of the column block is the rows transfer `r` carries, at the token's share, and the rest of the token. -/
theorem tok_carve (c : Dev nD) (r : Fin 15) :
    ((xM : Memref sig .tc .vmem S4096x256 .f32).view.loc (c : Thread nD τ) ↦[(xM : Memref sig .tc .vmem S4096x256 .f32).view.set]{xShare r} xstg m c : sProp 𝕄)
      ⊣⊢ iprop(slabPts m c r ∗ xRest m c r) := by
  unfold slabPts xRest
  exact pointsTo_split_subset (slab_subset c r)

/-- Carving: a token held whole gives the slab's rows and the rest; -/
theorem tok_split (c : Dev nD) (r : Fin 15) :
    ((xM : Memref sig .tc .vmem S4096x256 .f32).view.loc (c : Thread nD τ) ↦[(xM : Memref sig .tc .vmem S4096x256 .f32).view.set]{xShare r} xstg m c : sProp 𝕄) ⊢ iprop(slabPts m c r ∗ xRest m c r) :=
  (tok_carve m c r).1
/-- and putting them back. -/
theorem tok_join (c : Dev nD) (r : Fin 15) :
    iprop(slabPts m c r ∗ xRest m c r) ⊢ ((xM : Memref sig .tc .vmem S4096x256 .f32).view.loc (c : Thread nD τ) ↦[(xM : Memref sig .tc .vmem S4096x256 .f32).view.set]{xShare r} xstg m c : sProp 𝕄) :=
  (tok_carve m c r).2

/-- The column block whole again from what is left after fifteen tokens and the fifteen tokens, each held carved. -/
theorem x_join_carved (c : Dev nD) :
    iprop(((xM : Memref sig .tc .vmem S4096x256 .f32).view.loc (c : Thread nD τ) ↦[(xM : Memref sig .tc .vmem S4096x256 .f32).view.set]{Transfers.shareDrop fullShare 15} xstg m c)
        ∗ bigSep Finset.univ fun r : Fin 15 => iprop(slabPts m c r ∗ xRest m c r))
      ⊢ ((((c : Thread nD τ).loc cc0_stg0_0) ↦{fullShare} xstg m c) : sProp 𝕄) :=
  (BI.sep_mono (BI.Entails.refl _) (bigSep_mono fun r _ => tok_join m c r)).trans (x_join m c)

/-- The same with the fifteen carved tokens written out. -/
theorem x_join_carved_chain (c : Dev nD) :
    iprop(((xM : Memref sig .tc .vmem S4096x256 .f32).view.loc (c : Thread nD τ) ↦[(xM : Memref sig .tc .vmem S4096x256 .f32).view.set]{Transfers.shareDrop fullShare 15} xstg m c)
      ∗ (slabPts m c 0 ∗ xRest m c 0)
      ∗ (slabPts m c 1 ∗ xRest m c 1)
      ∗ (slabPts m c 2 ∗ xRest m c 2)
      ∗ (slabPts m c 3 ∗ xRest m c 3)
      ∗ (slabPts m c 4 ∗ xRest m c 4)
      ∗ (slabPts m c 5 ∗ xRest m c 5)
      ∗ (slabPts m c 6 ∗ xRest m c 6)
      ∗ (slabPts m c 7 ∗ xRest m c 7)
      ∗ (slabPts m c 8 ∗ xRest m c 8)
      ∗ (slabPts m c 9 ∗ xRest m c 9)
      ∗ (slabPts m c 10 ∗ xRest m c 10)
      ∗ (slabPts m c 11 ∗ xRest m c 11)
      ∗ (slabPts m c 12 ∗ xRest m c 12)
      ∗ (slabPts m c 13 ∗ xRest m c 13)
      ∗ (slabPts m c 14 ∗ xRest m c 14))
      ⊢ ((((c : Thread nD τ).loc cc0_stg0_0) ↦{fullShare} xstg m c) : sProp 𝕄) := by
  have h := x_join_carved m c
  rw [bigSep_fin15 (fun r : Fin 15 => (iprop(slabPts m c r ∗ xRest m c r) : sProp 𝕄))] at h
  exact h

/-- Cutting at entry: the staged block whole is what is left after fifteen tokens and the fifteen tokens, each carved. -/
theorem x_split_carved (c : Dev nD) :
    ((((c : Thread nD τ).loc cc0_stg0_0) ↦{fullShare} xstg m c) : sProp 𝕄)
      ⊢ iprop(((xM : Memref sig .tc .vmem S4096x256 .f32).view.loc (c : Thread nD τ) ↦[(xM : Memref sig .tc .vmem S4096x256 .f32).view.set]{Transfers.shareDrop fullShare 15} xstg m c)
        ∗ bigSep Finset.univ fun r : Fin 15 => iprop(slabPts m c r ∗ xRest m c r)) := by
  refine (show ((((c : Thread nD τ).loc cc0_stg0_0) ↦{fullShare} xstg m c) : sProp 𝕄)
      ⊢ iprop(((xM : Memref sig .tc .vmem S4096x256 .f32).view.loc (c : Thread nD τ) ↦[(xM : Memref sig .tc .vmem S4096x256 .f32).view.set]{Transfers.shareDrop fullShare 15} xstg m c)
        ∗ bigSep Finset.univ fun r : Fin 15 => ((xM : Memref sig .tc .vmem S4096x256 .f32).view.loc (c : Thread nD τ) ↦[(xM : Memref sig .tc .vmem S4096x256 .f32).view.set]{xShare r} xstg m c)) from ?_).trans
    (BI.sep_mono (BI.Entails.refl _) (bigSep_mono fun r _ => tok_split m c r))
  rw [show (xM : Memref sig .tc .vmem S4096x256 .f32).view.set = Finset.univ from View.set_whole _]
  exact Transfers.pointsTo_toks_split fullShare 15

/-! ## The exit -/

/-- A separating conjunction over five indices, written out. -/
theorem bigSep_fin5 {M : Type*} [URA M] (Φ : Fin 5 → sProp M) :
    bigSep Finset.univ Φ = iprop(Φ 0 ∗ Φ 1 ∗ Φ 2 ∗ Φ 3 ∗ Φ 4) :=
  bigSep_univ_eq_bigSepL [0, 1, 2, 3, 4] (by decide) (by decide) Φ

/-- What a device holds when its body returns gives back what the point after the body asks: the weight matrix whole, the
    two scratch buffers whole at some contents, every counter of the kernel's own semaphores at zero, nothing owed, and
    the two staging buffers — the column block as it was staged, the result at the computed contents.  Here the column
    block is already whole again. -/
theorem exit_core (K : Dev nD × CK → ℕ) (c : Dev nD) (t : Fin cfg0.N) (W' : Finset (SemLoc sig × Unit)) :
    iprop(((cellInv ER (a2aRd m) (K (c, CK.send 0)) (sendCell c 0)
      ∗ cellInv ER (a2aRd m) (K (c, CK.send 1)) (sendCell c 1)
      ∗ cellInv ER (a2aRd m) (K (c, CK.send 2)) (sendCell c 2)
      ∗ cellInv ER (a2aRd m) (K (c, CK.send 3)) (sendCell c 3)
      ∗ cellInv ER (a2aRd m) (K (c, CK.send 4)) (sendCell c 4)
      ∗ cellInv ER (a2aRd m) (K (c, CK.send 5)) (sendCell c 5)
      ∗ cellInv ER (a2aRd m) (K (c, CK.send 6)) (sendCell c 6)
      ∗ cellInv ER (a2aRd m) (K (c, CK.send 7)) (sendCell c 7)
      ∗ cellInv ER (a2aRd m) (K (c, CK.send 8)) (sendCell c 8)
      ∗ cellInv ER (a2aRd m) (K (c, CK.send 9)) (sendCell c 9)
      ∗ cellInv ER (a2aRd m) (K (c, CK.send 10)) (sendCell c 10)
      ∗ cellInv ER (a2aRd m) (K (c, CK.send 11)) (sendCell c 11)
      ∗ cellInv ER (a2aRd m) (K (c, CK.send 12)) (sendCell c 12)
      ∗ cellInv ER (a2aRd m) (K (c, CK.send 13)) (sendCell c 13)
      ∗ cellInv ER (a2aRd m) (K (c, CK.send 14)) (sendCell c 14))
        ∗ (cellInv ER (a2aRd m) (K (c, CK.recv 0)) (recvCell c 0)
      ∗ cellInv ER (a2aRd m) (K (c, CK.recv 1)) (recvCell c 1)
      ∗ cellInv ER (a2aRd m) (K (c, CK.recv 2)) (recvCell c 2)
      ∗ cellInv ER (a2aRd m) (K (c, CK.recv 3)) (recvCell c 3)
      ∗ cellInv ER (a2aRd m) (K (c, CK.recv 4)) (recvCell c 4)
      ∗ cellInv ER (a2aRd m) (K (c, CK.recv 5)) (recvCell c 5)
      ∗ cellInv ER (a2aRd m) (K (c, CK.recv 6)) (recvCell c 6)
      ∗ cellInv ER (a2aRd m) (K (c, CK.recv 7)) (recvCell c 7)
      ∗ cellInv ER (a2aRd m) (K (c, CK.recv 8)) (recvCell c 8)
      ∗ cellInv ER (a2aRd m) (K (c, CK.recv 9)) (recvCell c 9)
      ∗ cellInv ER (a2aRd m) (K (c, CK.recv 10)) (recvCell c 10)
      ∗ cellInv ER (a2aRd m) (K (c, CK.recv 11)) (recvCell c 11)
      ∗ cellInv ER (a2aRd m) (K (c, CK.recv 12)) (recvCell c 12)
      ∗ cellInv ER (a2aRd m) (K (c, CK.recv 13)) (recvCell c 13)
      ∗ cellInv ER (a2aRd m) (K (c, CK.recv 14)) (recvCell c 14))
        ∗ (atPos ER (sendCell c 0) 1 ∅ 0
      ∗ atPos ER (sendCell c 1) 1 ∅ 0
      ∗ atPos ER (sendCell c 2) 1 ∅ 0
      ∗ atPos ER (sendCell c 3) 1 ∅ 0
      ∗ atPos ER (sendCell c 4) 1 ∅ 0
      ∗ atPos ER (sendCell c 5) 1 ∅ 0
      ∗ atPos ER (sendCell c 6) 1 ∅ 0
      ∗ atPos ER (sendCell c 7) 1 ∅ 0
      ∗ atPos ER (sendCell c 8) 1 ∅ 0
      ∗ atPos ER (sendCell c 9) 1 ∅ 0
      ∗ atPos ER (sendCell c 10) 1 ∅ 0
      ∗ atPos ER (sendCell c 11) 1 ∅ 0
      ∗ atPos ER (sendCell c 12) 1 ∅ 0
      ∗ atPos ER (sendCell c 13) 1 ∅ 0
      ∗ atPos ER (sendCell c 14) 1 ∅ 0)
        ∗ (atPos ER (recvCell c 0) 1 ∅ 0
      ∗ atPos ER (recvCell c 1) 1 ∅ 0
      ∗ atPos ER (recvCell c 2) 1 ∅ 0
      ∗ atPos ER (recvCell c 3) 1 ∅ 0
      ∗ atPos ER (recvCell c 4) 1 ∅ 0
      ∗ atPos ER (recvCell c 5) 1 ∅ 0
      ∗ atPos ER (recvCell c 6) 1 ∅ 0
      ∗ atPos ER (recvCell c 7) 1 ∅ 0
      ∗ atPos ER (recvCell c 8) 1 ∅ 0
      ∗ atPos ER (recvCell c 9) 1 ∅ 0
      ∗ atPos ER (recvCell c 10) 1 ∅ 0
      ∗ atPos ER (recvCell c 11) 1 ∅ 0
      ∗ atPos ER (recvCell c 12) 1 ∅ 0
      ∗ atPos ER (recvCell c 13) 1 ∅ 0
      ∗ atPos ER (recvCell c 14) 1 ∅ 0))
      ∗ ((∃ f, slot0Pts (F := F) c f)
      ∗ (∃ f, slotPts (F := F) c 0 f)
      ∗ (∃ f, slotPts (F := F) c 1 f)
      ∗ (∃ f, slotPts (F := F) c 2 f)
      ∗ (∃ f, slotPts (F := F) c 3 f)
      ∗ (∃ f, slotPts (F := F) c 4 f)
      ∗ (∃ f, slotPts (F := F) c 5 f)
      ∗ (∃ f, slotPts (F := F) c 6 f)
      ∗ (∃ f, slotPts (F := F) c 7 f)
      ∗ (∃ f, slotPts (F := F) c 8 f)
      ∗ (∃ f, slotPts (F := F) c 9 f)
      ∗ (∃ f, slotPts (F := F) c 10 f)
      ∗ (∃ f, slotPts (F := F) c 11 f)
      ∗ (∃ f, slotPts (F := F) c 12 f)
      ∗ (∃ f, slotPts (F := F) c 13 f)
      ∗ (∃ f, slotPts (F := F) c 14 f))
      ∗ ((∃ f : Buf (Elt F) ((c : Thread nD τ).loc cc0_scratch1), (wslot 0).view.loc (c : Thread nD τ) ↦[(wslot 0).view.set]{fullShare} f)
        ∗ (∃ f : Buf (Elt F) ((c : Thread nD τ).loc cc0_scratch1), (wslot 1).view.loc (c : Thread nD τ) ↦[(wslot 1).view.set]{fullShare} f)
        ∗ (∃ f : Buf (Elt F) ((c : Thread nD τ).loc cc0_scratch1), (wslot 2).view.loc (c : Thread nD τ) ↦[(wslot 2).view.set]{fullShare} f))
      ∗ (((c : Thread nD τ).loc cc0_stg0_0) ↦{fullShare} xstg m c)
      ∗ (((wM : Memref sig .tc .hbm S4096x8192 .f32).view.loc (c : Thread nD τ) ↦[(wM : Memref sig .tc .hbm S4096x8192 .f32).view.set]{Transfers.shareDrop fullShare 3} m ((c : Thread nD τ).loc main_arg1))
        ∗ ((wM : Memref sig .tc .hbm S4096x8192 .f32).view.loc (c : Thread nD τ) ↦[(wM : Memref sig .tc .hbm S4096x8192 .f32).view.set]{Transfers.shareTok fullShare 3 0} m ((c : Thread nD τ).loc main_arg1))
        ∗ ((wM : Memref sig .tc .hbm S4096x8192 .f32).view.loc (c : Thread nD τ) ↦[(wM : Memref sig .tc .hbm S4096x8192 .f32).view.set]{Transfers.shareTok fullShare 3 1} m ((c : Thread nD τ).loc main_arg1))
        ∗ ((wM : Memref sig .tc .hbm S4096x8192 .f32).view.loc (c : Thread nD τ) ↦[(wM : Memref sig .tc .hbm S4096x8192 .f32).view.set]{Transfers.shareTok fullShare 3 2} m ((c : Thread nD τ).loc main_arg1)))
      ∗ (semVal ((c : Thread nD τ), idleSem 0) 0 ∗ semVal ((c : Thread nD τ), idleSem 1) 0 ∗ semVal ((c : Thread nD τ), idleSem 2) 0
        ∗ semVal ((c : Thread nD τ), idleSem 3) 0 ∗ semVal ((c : Thread nD τ), idleSem 4) 0)
      ∗ ((oM : Memref sig .tc .vmem S256x8192 .f32).view.loc (c : Thread nD τ) ↦[(oM : Memref sig .tc .vmem S256x8192 .f32).view.set]{fullShare} outAt m c)
      ∗ owes (c : Thread nD τ) (0 : CellTallies nD τ sig Unit) W')
      ⊢ (|={Set.univ}=> iprop(Φ₁ m c ∗ (dats m ρ 0 c).owesAt () t.succ ∗ stg c cc0_stg0_0 (xstg m c) ∗ stg c cc0_stg1_0 (outAt m c)) : sProp 𝕄) := by
  iintro ⟨Hcells, Hslots, Hws, Hxw, Hw, Hidle, Hout, HO⟩
  imod (cells_close_chain m K c) $$ Hcells with ⟨HS, HV⟩
  ihave Hscr := (slots_join_chain (F := F) c) $$ Hslots
  ihave Hwscr := (wslots_join3 (F := F) c) $$ Hws
  ihave Hww := (w_join m c) $$ Hw
  imodintro
  unfold Φ₁ stg
  isplitl [Hww Hscr Hwscr HS HV Hidle]
  · isplitl [Hww]; · iexact Hww
    isplitl [Hscr]; · iexact Hscr
    isplitl [Hwscr]; · iexact Hwscr
    isplitl [HS]; · iexact HS
    isplitl [HV]; · iexact HV
    unfold idleSems; rw [bigSep_fin5]; iexact Hidle
  isplitl [HO]
  · iexists W'
    isplitr; · ipureintro; exact fun _ _ => Or.inl (Set.mem_univ _)
    iexact HO
  isplitl [Hxw]
  · iexists (xstg m c); isplitr; · ipureintro; rfl
    iexact Hxw
  · iexists (outAt m c); isplitr; · ipureintro; rfl
    rw [show (oM : Memref sig .tc .vmem S256x8192 .f32).view.set = Finset.univ from View.set_whole _]
    iexact Hout

/-- The exit with the column block's fifteen read tokens held whole. -/
theorem exit (K : Dev nD × CK → ℕ) (c : Dev nD) (t : Fin cfg0.N) (W' : Finset (SemLoc sig × Unit)) :
    iprop(((cellInv ER (a2aRd m) (K (c, CK.send 0)) (sendCell c 0)
      ∗ cellInv ER (a2aRd m) (K (c, CK.send 1)) (sendCell c 1)
      ∗ cellInv ER (a2aRd m) (K (c, CK.send 2)) (sendCell c 2)
      ∗ cellInv ER (a2aRd m) (K (c, CK.send 3)) (sendCell c 3)
      ∗ cellInv ER (a2aRd m) (K (c, CK.send 4)) (sendCell c 4)
      ∗ cellInv ER (a2aRd m) (K (c, CK.send 5)) (sendCell c 5)
      ∗ cellInv ER (a2aRd m) (K (c, CK.send 6)) (sendCell c 6)
      ∗ cellInv ER (a2aRd m) (K (c, CK.send 7)) (sendCell c 7)
      ∗ cellInv ER (a2aRd m) (K (c, CK.send 8)) (sendCell c 8)
      ∗ cellInv ER (a2aRd m) (K (c, CK.send 9)) (sendCell c 9)
      ∗ cellInv ER (a2aRd m) (K (c, CK.send 10)) (sendCell c 10)
      ∗ cellInv ER (a2aRd m) (K (c, CK.send 11)) (sendCell c 11)
      ∗ cellInv ER (a2aRd m) (K (c, CK.send 12)) (sendCell c 12)
      ∗ cellInv ER (a2aRd m) (K (c, CK.send 13)) (sendCell c 13)
      ∗ cellInv ER (a2aRd m) (K (c, CK.send 14)) (sendCell c 14))
        ∗ (cellInv ER (a2aRd m) (K (c, CK.recv 0)) (recvCell c 0)
      ∗ cellInv ER (a2aRd m) (K (c, CK.recv 1)) (recvCell c 1)
      ∗ cellInv ER (a2aRd m) (K (c, CK.recv 2)) (recvCell c 2)
      ∗ cellInv ER (a2aRd m) (K (c, CK.recv 3)) (recvCell c 3)
      ∗ cellInv ER (a2aRd m) (K (c, CK.recv 4)) (recvCell c 4)
      ∗ cellInv ER (a2aRd m) (K (c, CK.recv 5)) (recvCell c 5)
      ∗ cellInv ER (a2aRd m) (K (c, CK.recv 6)) (recvCell c 6)
      ∗ cellInv ER (a2aRd m) (K (c, CK.recv 7)) (recvCell c 7)
      ∗ cellInv ER (a2aRd m) (K (c, CK.recv 8)) (recvCell c 8)
      ∗ cellInv ER (a2aRd m) (K (c, CK.recv 9)) (recvCell c 9)
      ∗ cellInv ER (a2aRd m) (K (c, CK.recv 10)) (recvCell c 10)
      ∗ cellInv ER (a2aRd m) (K (c, CK.recv 11)) (recvCell c 11)
      ∗ cellInv ER (a2aRd m) (K (c, CK.recv 12)) (recvCell c 12)
      ∗ cellInv ER (a2aRd m) (K (c, CK.recv 13)) (recvCell c 13)
      ∗ cellInv ER (a2aRd m) (K (c, CK.recv 14)) (recvCell c 14))
        ∗ (atPos ER (sendCell c 0) 1 ∅ 0
      ∗ atPos ER (sendCell c 1) 1 ∅ 0
      ∗ atPos ER (sendCell c 2) 1 ∅ 0
      ∗ atPos ER (sendCell c 3) 1 ∅ 0
      ∗ atPos ER (sendCell c 4) 1 ∅ 0
      ∗ atPos ER (sendCell c 5) 1 ∅ 0
      ∗ atPos ER (sendCell c 6) 1 ∅ 0
      ∗ atPos ER (sendCell c 7) 1 ∅ 0
      ∗ atPos ER (sendCell c 8) 1 ∅ 0
      ∗ atPos ER (sendCell c 9) 1 ∅ 0
      ∗ atPos ER (sendCell c 10) 1 ∅ 0
      ∗ atPos ER (sendCell c 11) 1 ∅ 0
      ∗ atPos ER (sendCell c 12) 1 ∅ 0
      ∗ atPos ER (sendCell c 13) 1 ∅ 0
      ∗ atPos ER (sendCell c 14) 1 ∅ 0)
        ∗ (atPos ER (recvCell c 0) 1 ∅ 0
      ∗ atPos ER (recvCell c 1) 1 ∅ 0
      ∗ atPos ER (recvCell c 2) 1 ∅ 0
      ∗ atPos ER (recvCell c 3) 1 ∅ 0
      ∗ atPos ER (recvCell c 4) 1 ∅ 0
      ∗ atPos ER (recvCell c 5) 1 ∅ 0
      ∗ atPos ER (recvCell c 6) 1 ∅ 0
      ∗ atPos ER (recvCell c 7) 1 ∅ 0
      ∗ atPos ER (recvCell c 8) 1 ∅ 0
      ∗ atPos ER (recvCell c 9) 1 ∅ 0
      ∗ atPos ER (recvCell c 10) 1 ∅ 0
      ∗ atPos ER (recvCell c 11) 1 ∅ 0
      ∗ atPos ER (recvCell c 12) 1 ∅ 0
      ∗ atPos ER (recvCell c 13) 1 ∅ 0
      ∗ atPos ER (recvCell c 14) 1 ∅ 0))
      ∗ ((∃ f, slot0Pts (F := F) c f)
      ∗ (∃ f, slotPts (F := F) c 0 f)
      ∗ (∃ f, slotPts (F := F) c 1 f)
      ∗ (∃ f, slotPts (F := F) c 2 f)
      ∗ (∃ f, slotPts (F := F) c 3 f)
      ∗ (∃ f, slotPts (F := F) c 4 f)
      ∗ (∃ f, slotPts (F := F) c 5 f)
      ∗ (∃ f, slotPts (F := F) c 6 f)
      ∗ (∃ f, slotPts (F := F) c 7 f)
      ∗ (∃ f, slotPts (F := F) c 8 f)
      ∗ (∃ f, slotPts (F := F) c 9 f)
      ∗ (∃ f, slotPts (F := F) c 10 f)
      ∗ (∃ f, slotPts (F := F) c 11 f)
      ∗ (∃ f, slotPts (F := F) c 12 f)
      ∗ (∃ f, slotPts (F := F) c 13 f)
      ∗ (∃ f, slotPts (F := F) c 14 f))
      ∗ ((∃ f : Buf (Elt F) ((c : Thread nD τ).loc cc0_scratch1), (wslot 0).view.loc (c : Thread nD τ) ↦[(wslot 0).view.set]{fullShare} f)
        ∗ (∃ f : Buf (Elt F) ((c : Thread nD τ).loc cc0_scratch1), (wslot 1).view.loc (c : Thread nD τ) ↦[(wslot 1).view.set]{fullShare} f)
        ∗ (∃ f : Buf (Elt F) ((c : Thread nD τ).loc cc0_scratch1), (wslot 2).view.loc (c : Thread nD τ) ↦[(wslot 2).view.set]{fullShare} f))
      ∗ (((xM : Memref sig .tc .vmem S4096x256 .f32).view.loc (c : Thread nD τ) ↦[(xM : Memref sig .tc .vmem S4096x256 .f32).view.set]{Transfers.shareDrop fullShare 15} xstg m c)
      ∗ ((xM : Memref sig .tc .vmem S4096x256 .f32).view.loc (c : Thread nD τ) ↦[(xM : Memref sig .tc .vmem S4096x256 .f32).view.set]{xShare 0} xstg m c)
      ∗ ((xM : Memref sig .tc .vmem S4096x256 .f32).view.loc (c : Thread nD τ) ↦[(xM : Memref sig .tc .vmem S4096x256 .f32).view.set]{xShare 1} xstg m c)
      ∗ ((xM : Memref sig .tc .vmem S4096x256 .f32).view.loc (c : Thread nD τ) ↦[(xM : Memref sig .tc .vmem S4096x256 .f32).view.set]{xShare 2} xstg m c)
      ∗ ((xM : Memref sig .tc .vmem S4096x256 .f32).view.loc (c : Thread nD τ) ↦[(xM : Memref sig .tc .vmem S4096x256 .f32).view.set]{xShare 3} xstg m c)
      ∗ ((xM : Memref sig .tc .vmem S4096x256 .f32).view.loc (c : Thread nD τ) ↦[(xM : Memref sig .tc .vmem S4096x256 .f32).view.set]{xShare 4} xstg m c)
      ∗ ((xM : Memref sig .tc .vmem S4096x256 .f32).view.loc (c : Thread nD τ) ↦[(xM : Memref sig .tc .vmem S4096x256 .f32).view.set]{xShare 5} xstg m c)
      ∗ ((xM : Memref sig .tc .vmem S4096x256 .f32).view.loc (c : Thread nD τ) ↦[(xM : Memref sig .tc .vmem S4096x256 .f32).view.set]{xShare 6} xstg m c)
      ∗ ((xM : Memref sig .tc .vmem S4096x256 .f32).view.loc (c : Thread nD τ) ↦[(xM : Memref sig .tc .vmem S4096x256 .f32).view.set]{xShare 7} xstg m c)
      ∗ ((xM : Memref sig .tc .vmem S4096x256 .f32).view.loc (c : Thread nD τ) ↦[(xM : Memref sig .tc .vmem S4096x256 .f32).view.set]{xShare 8} xstg m c)
      ∗ ((xM : Memref sig .tc .vmem S4096x256 .f32).view.loc (c : Thread nD τ) ↦[(xM : Memref sig .tc .vmem S4096x256 .f32).view.set]{xShare 9} xstg m c)
      ∗ ((xM : Memref sig .tc .vmem S4096x256 .f32).view.loc (c : Thread nD τ) ↦[(xM : Memref sig .tc .vmem S4096x256 .f32).view.set]{xShare 10} xstg m c)
      ∗ ((xM : Memref sig .tc .vmem S4096x256 .f32).view.loc (c : Thread nD τ) ↦[(xM : Memref sig .tc .vmem S4096x256 .f32).view.set]{xShare 11} xstg m c)
      ∗ ((xM : Memref sig .tc .vmem S4096x256 .f32).view.loc (c : Thread nD τ) ↦[(xM : Memref sig .tc .vmem S4096x256 .f32).view.set]{xShare 12} xstg m c)
      ∗ ((xM : Memref sig .tc .vmem S4096x256 .f32).view.loc (c : Thread nD τ) ↦[(xM : Memref sig .tc .vmem S4096x256 .f32).view.set]{xShare 13} xstg m c)
      ∗ ((xM : Memref sig .tc .vmem S4096x256 .f32).view.loc (c : Thread nD τ) ↦[(xM : Memref sig .tc .vmem S4096x256 .f32).view.set]{xShare 14} xstg m c))
      ∗ (((wM : Memref sig .tc .hbm S4096x8192 .f32).view.loc (c : Thread nD τ) ↦[(wM : Memref sig .tc .hbm S4096x8192 .f32).view.set]{Transfers.shareDrop fullShare 3} m ((c : Thread nD τ).loc main_arg1))
        ∗ ((wM : Memref sig .tc .hbm S4096x8192 .f32).view.loc (c : Thread nD τ) ↦[(wM : Memref sig .tc .hbm S4096x8192 .f32).view.set]{Transfers.shareTok fullShare 3 0} m ((c : Thread nD τ).loc main_arg1))
        ∗ ((wM : Memref sig .tc .hbm S4096x8192 .f32).view.loc (c : Thread nD τ) ↦[(wM : Memref sig .tc .hbm S4096x8192 .f32).view.set]{Transfers.shareTok fullShare 3 1} m ((c : Thread nD τ).loc main_arg1))
        ∗ ((wM : Memref sig .tc .hbm S4096x8192 .f32).view.loc (c : Thread nD τ) ↦[(wM : Memref sig .tc .hbm S4096x8192 .f32).view.set]{Transfers.shareTok fullShare 3 2} m ((c : Thread nD τ).loc main_arg1)))
      ∗ (semVal ((c : Thread nD τ), idleSem 0) 0 ∗ semVal ((c : Thread nD τ), idleSem 1) 0 ∗ semVal ((c : Thread nD τ), idleSem 2) 0
        ∗ semVal ((c : Thread nD τ), idleSem 3) 0 ∗ semVal ((c : Thread nD τ), idleSem 4) 0)
      ∗ ((oM : Memref sig .tc .vmem S256x8192 .f32).view.loc (c : Thread nD τ) ↦[(oM : Memref sig .tc .vmem S256x8192 .f32).view.set]{fullShare} outAt m c)
      ∗ owes (c : Thread nD τ) (0 : CellTallies nD τ sig Unit) W')
      ⊢ (|={Set.univ}=> iprop(Φ₁ m c ∗ (dats m ρ 0 c).owesAt () t.succ ∗ stg c cc0_stg0_0 (xstg m c) ∗ stg c cc0_stg1_0 (outAt m c)) : sProp 𝕄) := by
  iintro ⟨Hcells, Hslots, Hws, Hx, Hrest⟩
  ihave Hxw := (x_join_chain m c) $$ Hx
  iapply (exit_core m ρ K c t W')
  isplitl [Hcells]; · iexact Hcells
  isplitl [Hslots]; · iexact Hslots
  isplitl [Hws]; · iexact Hws
  isplitl [Hxw]; · iexact Hxw
  iexact Hrest

/-- The exit with each of the fifteen read tokens held carved: the rows its transfer carries, and the rest. -/
theorem exit_carved (K : Dev nD × CK → ℕ) (c : Dev nD) (t : Fin cfg0.N) (W' : Finset (SemLoc sig × Unit)) :
    iprop(((cellInv ER (a2aRd m) (K (c, CK.send 0)) (sendCell c 0)
      ∗ cellInv ER (a2aRd m) (K (c, CK.send 1)) (sendCell c 1)
      ∗ cellInv ER (a2aRd m) (K (c, CK.send 2)) (sendCell c 2)
      ∗ cellInv ER (a2aRd m) (K (c, CK.send 3)) (sendCell c 3)
      ∗ cellInv ER (a2aRd m) (K (c, CK.send 4)) (sendCell c 4)
      ∗ cellInv ER (a2aRd m) (K (c, CK.send 5)) (sendCell c 5)
      ∗ cellInv ER (a2aRd m) (K (c, CK.send 6)) (sendCell c 6)
      ∗ cellInv ER (a2aRd m) (K (c, CK.send 7)) (sendCell c 7)
      ∗ cellInv ER (a2aRd m) (K (c, CK.send 8)) (sendCell c 8)
      ∗ cellInv ER (a2aRd m) (K (c, CK.send 9)) (sendCell c 9)
      ∗ cellInv ER (a2aRd m) (K (c, CK.send 10)) (sendCell c 10)
      ∗ cellInv ER (a2aRd m) (K (c, CK.send 11)) (sendCell c 11)
      ∗ cellInv ER (a2aRd m) (K (c, CK.send 12)) (sendCell c 12)
      ∗ cellInv ER (a2aRd m) (K (c, CK.send 13)) (sendCell c 13)
      ∗ cellInv ER (a2aRd m) (K (c, CK.send 14)) (sendCell c 14))
        ∗ (cellInv ER (a2aRd m) (K (c, CK.recv 0)) (recvCell c 0)
      ∗ cellInv ER (a2aRd m) (K (c, CK.recv 1)) (recvCell c 1)
      ∗ cellInv ER (a2aRd m) (K (c, CK.recv 2)) (recvCell c 2)
      ∗ cellInv ER (a2aRd m) (K (c, CK.recv 3)) (recvCell c 3)
      ∗ cellInv ER (a2aRd m) (K (c, CK.recv 4)) (recvCell c 4)
      ∗ cellInv ER (a2aRd m) (K (c, CK.recv 5)) (recvCell c 5)
      ∗ cellInv ER (a2aRd m) (K (c, CK.recv 6)) (recvCell c 6)
      ∗ cellInv ER (a2aRd m) (K (c, CK.recv 7)) (recvCell c 7)
      ∗ cellInv ER (a2aRd m) (K (c, CK.recv 8)) (recvCell c 8)
      ∗ cellInv ER (a2aRd m) (K (c, CK.recv 9)) (recvCell c 9)
      ∗ cellInv ER (a2aRd m) (K (c, CK.recv 10)) (recvCell c 10)
      ∗ cellInv ER (a2aRd m) (K (c, CK.recv 11)) (recvCell c 11)
      ∗ cellInv ER (a2aRd m) (K (c, CK.recv 12)) (recvCell c 12)
      ∗ cellInv ER (a2aRd m) (K (c, CK.recv 13)) (recvCell c 13)
      ∗ cellInv ER (a2aRd m) (K (c, CK.recv 14)) (recvCell c 14))
        ∗ (atPos ER (sendCell c 0) 1 ∅ 0
      ∗ atPos ER (sendCell c 1) 1 ∅ 0
      ∗ atPos ER (sendCell c 2) 1 ∅ 0
      ∗ atPos ER (sendCell c 3) 1 ∅ 0
      ∗ atPos ER (sendCell c 4) 1 ∅ 0
      ∗ atPos ER (sendCell c 5) 1 ∅ 0
      ∗ atPos ER (sendCell c 6) 1 ∅ 0
      ∗ atPos ER (sendCell c 7) 1 ∅ 0
      ∗ atPos ER (sendCell c 8) 1 ∅ 0
      ∗ atPos ER (sendCell c 9) 1 ∅ 0
      ∗ atPos ER (sendCell c 10) 1 ∅ 0
      ∗ atPos ER (sendCell c 11) 1 ∅ 0
      ∗ atPos ER (sendCell c 12) 1 ∅ 0
      ∗ atPos ER (sendCell c 13) 1 ∅ 0
      ∗ atPos ER (sendCell c 14) 1 ∅ 0)
        ∗ (atPos ER (recvCell c 0) 1 ∅ 0
      ∗ atPos ER (recvCell c 1) 1 ∅ 0
      ∗ atPos ER (recvCell c 2) 1 ∅ 0
      ∗ atPos ER (recvCell c 3) 1 ∅ 0
      ∗ atPos ER (recvCell c 4) 1 ∅ 0
      ∗ atPos ER (recvCell c 5) 1 ∅ 0
      ∗ atPos ER (recvCell c 6) 1 ∅ 0
      ∗ atPos ER (recvCell c 7) 1 ∅ 0
      ∗ atPos ER (recvCell c 8) 1 ∅ 0
      ∗ atPos ER (recvCell c 9) 1 ∅ 0
      ∗ atPos ER (recvCell c 10) 1 ∅ 0
      ∗ atPos ER (recvCell c 11) 1 ∅ 0
      ∗ atPos ER (recvCell c 12) 1 ∅ 0
      ∗ atPos ER (recvCell c 13) 1 ∅ 0
      ∗ atPos ER (recvCell c 14) 1 ∅ 0))
      ∗ ((∃ f, slot0Pts (F := F) c f)
      ∗ (∃ f, slotPts (F := F) c 0 f)
      ∗ (∃ f, slotPts (F := F) c 1 f)
      ∗ (∃ f, slotPts (F := F) c 2 f)
      ∗ (∃ f, slotPts (F := F) c 3 f)
      ∗ (∃ f, slotPts (F := F) c 4 f)
      ∗ (∃ f, slotPts (F := F) c 5 f)
      ∗ (∃ f, slotPts (F := F) c 6 f)
      ∗ (∃ f, slotPts (F := F) c 7 f)
      ∗ (∃ f, slotPts (F := F) c 8 f)
      ∗ (∃ f, slotPts (F := F) c 9 f)
      ∗ (∃ f, slotPts (F := F) c 10 f)
      ∗ (∃ f, slotPts (F := F) c 11 f)
      ∗ (∃ f, slotPts (F := F) c 12 f)
      ∗ (∃ f, slotPts (F := F) c 13 f)
      ∗ (∃ f, slotPts (F := F) c 14 f))
      ∗ ((∃ f : Buf (Elt F) ((c : Thread nD τ).loc cc0_scratch1), (wslot 0).view.loc (c : Thread nD τ) ↦[(wslot 0).view.set]{fullShare} f)
        ∗ (∃ f : Buf (Elt F) ((c : Thread nD τ).loc cc0_scratch1), (wslot 1).view.loc (c : Thread nD τ) ↦[(wslot 1).view.set]{fullShare} f)
        ∗ (∃ f : Buf (Elt F) ((c : Thread nD τ).loc cc0_scratch1), (wslot 2).view.loc (c : Thread nD τ) ↦[(wslot 2).view.set]{fullShare} f))
      ∗ (((xM : Memref sig .tc .vmem S4096x256 .f32).view.loc (c : Thread nD τ) ↦[(xM : Memref sig .tc .vmem S4096x256 .f32).view.set]{Transfers.shareDrop fullShare 15} xstg m c)
      ∗ (slabPts m c 0 ∗ xRest m c 0)
      ∗ (slabPts m c 1 ∗ xRest m c 1)
      ∗ (slabPts m c 2 ∗ xRest m c 2)
      ∗ (slabPts m c 3 ∗ xRest m c 3)
      ∗ (slabPts m c 4 ∗ xRest m c 4)
      ∗ (slabPts m c 5 ∗ xRest m c 5)
      ∗ (slabPts m c 6 ∗ xRest m c 6)
      ∗ (slabPts m c 7 ∗ xRest m c 7)
      ∗ (slabPts m c 8 ∗ xRest m c 8)
      ∗ (slabPts m c 9 ∗ xRest m c 9)
      ∗ (slabPts m c 10 ∗ xRest m c 10)
      ∗ (slabPts m c 11 ∗ xRest m c 11)
      ∗ (slabPts m c 12 ∗ xRest m c 12)
      ∗ (slabPts m c 13 ∗ xRest m c 13)
      ∗ (slabPts m c 14 ∗ xRest m c 14))
      ∗ (((wM : Memref sig .tc .hbm S4096x8192 .f32).view.loc (c : Thread nD τ) ↦[(wM : Memref sig .tc .hbm S4096x8192 .f32).view.set]{Transfers.shareDrop fullShare 3} m ((c : Thread nD τ).loc main_arg1))
        ∗ ((wM : Memref sig .tc .hbm S4096x8192 .f32).view.loc (c : Thread nD τ) ↦[(wM : Memref sig .tc .hbm S4096x8192 .f32).view.set]{Transfers.shareTok fullShare 3 0} m ((c : Thread nD τ).loc main_arg1))
        ∗ ((wM : Memref sig .tc .hbm S4096x8192 .f32).view.loc (c : Thread nD τ) ↦[(wM : Memref sig .tc .hbm S4096x8192 .f32).view.set]{Transfers.shareTok fullShare 3 1} m ((c : Thread nD τ).loc main_arg1))
        ∗ ((wM : Memref sig .tc .hbm S4096x8192 .f32).view.loc (c : Thread nD τ) ↦[(wM : Memref sig .tc .hbm S4096x8192 .f32).view.set]{Transfers.shareTok fullShare 3 2} m ((c : Thread nD τ).loc main_arg1)))
      ∗ (semVal ((c : Thread nD τ), idleSem 0) 0 ∗ semVal ((c : Thread nD τ), idleSem 1) 0 ∗ semVal ((c : Thread nD τ), idleSem 2) 0
        ∗ semVal ((c : Thread nD τ), idleSem 3) 0 ∗ semVal ((c : Thread nD τ), idleSem 4) 0)
      ∗ ((oM : Memref sig .tc .vmem S256x8192 .f32).view.loc (c : Thread nD τ) ↦[(oM : Memref sig .tc .vmem S256x8192 .f32).view.set]{fullShare} outAt m c)
      ∗ owes (c : Thread nD τ) (0 : CellTallies nD τ sig Unit) W')
      ⊢ (|={Set.univ}=> iprop(Φ₁ m c ∗ (dats m ρ 0 c).owesAt () t.succ ∗ stg c cc0_stg0_0 (xstg m c) ∗ stg c cc0_stg1_0 (outAt m c)) : sProp 𝕄) := by
  iintro ⟨Hcells, Hslots, Hws, Hx, Hrest⟩
  ihave Hxw := (x_join_carved_chain m c) $$ Hx
  iapply (exit_core m ρ K c t W')
  isplitl [Hcells]; · iexact Hcells
  isplitl [Hslots]; · iexact Hslots
  isplitl [Hws]; · iexact Hws
  isplitl [Hxw]; · iexact Hxw
  iexact Hrest

/-- info: 'Cert.KernelIdeal.A2A.exit' depends on axioms: [propext, Classical.choice, Quot.sound] -/
#guard_msgs in #print axioms exit
/-- info: 'Cert.KernelIdeal.A2A.exit_carved' depends on axioms: [propext, Classical.choice, Quot.sound] -/
#guard_msgs in #print axioms exit_carved

end Cert.KernelIdeal.A2A

end
-- ==== Proof.BodyCtx.lean ====
/-
  What a device's body starts from, one conjunct per line.

  At its one grid point a device is handed: its staged column block and the weight matrix, each whole; the staging
  buffer of its result; the two scratch buffers at some contents; the ghost state of the protocol (the invariants of
  the cells it touches, its positions, the rounds it has reached, the tokens of the duties it pays); the credit for
  what the others owe its cells; the level facts; and what it owes. The body wants these spread out: the column block
  and the weight matrix as read tokens (fifteen and three, one per transfer that reads them, plus a remainder), each
  scratch buffer slot by slot, every family over the fifteen offsets written out term by term. `chain l` is the
  separating conjunction of a list, `bodyCtx` the 257 conjuncts in the order the body takes them; cutting a family
  into its members, or a buffer into its slots or tokens, is an equation between assertions, so the spread-out form
  equals a short conjunction of the pieces as handed over, and the entry lemma only has to put those in order.
-/
import proofs.«900405_g7700000000000406_dist_a2a_gemm_m4096_k4096_n8192_f32_gelu_v7x_i16_1_alg».proof.Proof.Cuts
import proofs.«900405_g7700000000000406_dist_a2a_gemm_m4096_k4096_n8192_f32_gelu_v7x_i16_1_alg».proof.Proof.Levels
import proofs.«900405_g7700000000000406_dist_a2a_gemm_m4096_k4096_n8192_f32_gelu_v7x_i16_1_alg».proof.Proof.Stg
import proofs.«900405_g7700000000000406_dist_a2a_gemm_m4096_k4096_n8192_f32_gelu_v7x_i16_1_alg».proof.Proof.BodyExit
import proofs.«900405_g7700000000000406_dist_a2a_gemm_m4096_k4096_n8192_f32_gelu_v7x_i16_1_alg».proof.Proof.Gen.KernelIdeal.Points
import Idealize.ShloMosaic.Lib.Transfers
import Idealize.ShloMosaic.Lib.Pipeline.Kit

set_option maxRecDepth 16384

noncomputable section

namespace Cert.KernelIdeal.A2A

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The separating conjunction of a list -/

section Chain
variable {M : Type _} [URA M] {I : Type _}

/-- `P₁ ∗ (P₂ ∗ (… ∗ Pₙ))`; `emp` for the empty list. -/
def chain : List (sProp M) → sProp M
  | [] => BI.emp
  | [P] => P
  | P :: Q :: l => BI.sep P (chain (Q :: l))

theorem chain_cons (P : sProp M) (l : List (sProp M)) : chain (P :: l) = BI.sep P (chain l) := by
  cases l with
  | nil => exact (equiv_iff.mp sep_emp).symm
  | cons Q l => rfl

theorem chain_append (l₁ l₂ : List (sProp M)) : chain (l₁ ++ l₂) = BI.sep (chain l₁) (chain l₂) := by
  induction l₁ with
  | nil => exact (equiv_iff.mp emp_sep).symm
  | cons P l ih =>
    rw [List.cons_append, chain_cons P (l ++ l₂), ih, chain_cons P l]
    exact (Std.Associative.assoc (op := (BI.sep : sProp M → _ → _)) _ _ _).symm

/-- A conjunction of conjunctions is the conjunction of all the members. -/
theorem chain_flatten (ls : List (List (sProp M))) : chain (ls.map chain) = chain ls.flatten := by
  induction ls with
  | nil => rfl
  | cons l ls ih => rw [List.map_cons, chain_cons, ih, List.flatten_cons, chain_append]

theorem bigSepL_eq_chain (l : List I) (Φ : I → sProp M) : bigSepL l Φ = chain (l.map Φ) := by
  induction l with
  | nil => rfl
  | cons i l ih =>
    cases l with
    | nil => rfl
    | cons j l =>
      show BI.sep (Φ i) (bigSepL (j :: l) Φ) = BI.sep (Φ i) (chain ((j :: l).map Φ))
      rw [ih]

/-- A family over a finite type, listed. -/
theorem bigSep_chain [Fintype I] [DecidableEq I] (l : List I) (h : Finset.univ = l.toFinset) (hl : l.Nodup) (Φ : I → sProp M) :
    bigSep Finset.univ Φ = chain (l.map Φ) :=
  (bigSep_univ_eq_bigSepL l h hl Φ).trans (bigSepL_eq_chain l Φ)

end Chain

variable {F : FTy → Type} [FloatOps F]

local notation "𝕄" => MT nD τ sig Unit (Elt F) ℕ UU ℕ

omit [FloatOps F] in
/-- A points-to cut into `n` read tokens and the remainder, listed. -/
theorem toks_chain {ℓ : Loc nD τ sig} {S : Finset (Idx ℓ)} {f : Buf (Elt F) ℓ} (q : PosShare TreeShare) (n : ℕ) (l : List (Fin n))
    (h : Finset.univ = l.toFinset) (hl : l.Nodup) :
    (ℓ ↦[S]{q} f : sProp 𝕄)
      = chain ((ℓ ↦[S]{Transfers.shareDrop q n} f : sProp 𝕄) :: l.map fun i => (ℓ ↦[S]{Transfers.shareTok q n i} f : sProp 𝕄)) := by
  rw [chain_cons, ← bigSep_chain l h hl]
  exact BI.equiv_iff.mp ⟨(Transfers.pointsTo_toks q n).1, (Transfers.pointsTo_toks q n).2⟩

variable (m : (ℓ : Loc nD τ sig) → Buf (Elt F) ℓ) (ρ : Dev nD → PrngReg)

/-! ## The conjuncts, family by family -/

def gXs (c : Dev nD) : List (sProp 𝕄) :=
  [ (xM.slice (Rect.unit (s := S4096x256) (k0_off2 c 1#32) S256x256.size (k0_off2_inb c 0)) (fun _ => rfl)).view.loc (c : Thread nD τ) ↦[(xM.slice (Rect.unit (s := S4096x256) (k0_off2 c 1#32) S256x256.size (k0_off2_inb c 0)) (fun _ => rfl)).view.set]{xShare 0} xstg m c,
    (xM.slice (Rect.unit (s := S4096x256) (k0_off2 c 2#32) S256x256.size (k0_off2_inb c 1)) (fun _ => rfl)).view.loc (c : Thread nD τ) ↦[(xM.slice (Rect.unit (s := S4096x256) (k0_off2 c 2#32) S256x256.size (k0_off2_inb c 1)) (fun _ => rfl)).view.set]{xShare 1} xstg m c,
    (xM.slice (Rect.unit (s := S4096x256) (k0_off2 c 3#32) S256x256.size (k0_off2_inb c 2)) (fun _ => rfl)).view.loc (c : Thread nD τ) ↦[(xM.slice (Rect.unit (s := S4096x256) (k0_off2 c 3#32) S256x256.size (k0_off2_inb c 2)) (fun _ => rfl)).view.set]{xShare 2} xstg m c,
    (xM.slice (Rect.unit (s := S4096x256) (k0_off2 c 4#32) S256x256.size (k0_off2_inb c 3)) (fun _ => rfl)).view.loc (c : Thread nD τ) ↦[(xM.slice (Rect.unit (s := S4096x256) (k0_off2 c 4#32) S256x256.size (k0_off2_inb c 3)) (fun _ => rfl)).view.set]{xShare 3} xstg m c,
    (xM.slice (Rect.unit (s := S4096x256) (k0_off2 c 5#32) S256x256.size (k0_off2_inb c 4)) (fun _ => rfl)).view.loc (c : Thread nD τ) ↦[(xM.slice (Rect.unit (s := S4096x256) (k0_off2 c 5#32) S256x256.size (k0_off2_inb c 4)) (fun _ => rfl)).view.set]{xShare 4} xstg m c,
    (xM.slice (Rect.unit (s := S4096x256) (k0_off2 c 6#32) S256x256.size (k0_off2_inb c 5)) (fun _ => rfl)).view.loc (c : Thread nD τ) ↦[(xM.slice (Rect.unit (s := S4096x256) (k0_off2 c 6#32) S256x256.size (k0_off2_inb c 5)) (fun _ => rfl)).view.set]{xShare 5} xstg m c,
    (xM.slice (Rect.unit (s := S4096x256) (k0_off2 c 7#32) S256x256.size (k0_off2_inb c 6)) (fun _ => rfl)).view.loc (c : Thread nD τ) ↦[(xM.slice (Rect.unit (s := S4096x256) (k0_off2 c 7#32) S256x256.size (k0_off2_inb c 6)) (fun _ => rfl)).view.set]{xShare 6} xstg m c,
    (xM.slice (Rect.unit (s := S4096x256) (k0_off2 c 8#32) S256x256.size (k0_off2_inb c 7)) (fun _ => rfl)).view.loc (c : Thread nD τ) ↦[(xM.slice (Rect.unit (s := S4096x256) (k0_off2 c 8#32) S256x256.size (k0_off2_inb c 7)) (fun _ => rfl)).view.set]{xShare 7} xstg m c,
    (xM.slice (Rect.unit (s := S4096x256) (k0_off2 c 9#32) S256x256.size (k0_off2_inb c 8)) (fun _ => rfl)).view.loc (c : Thread nD τ) ↦[(xM.slice (Rect.unit (s := S4096x256) (k0_off2 c 9#32) S256x256.size (k0_off2_inb c 8)) (fun _ => rfl)).view.set]{xShare 8} xstg m c,
    (xM.slice (Rect.unit (s := S4096x256) (k0_off2 c 10#32) S256x256.size (k0_off2_inb c 9)) (fun _ => rfl)).view.loc (c : Thread nD τ) ↦[(xM.slice (Rect.unit (s := S4096x256) (k0_off2 c 10#32) S256x256.size (k0_off2_inb c 9)) (fun _ => rfl)).view.set]{xShare 9} xstg m c,
    (xM.slice (Rect.unit (s := S4096x256) (k0_off2 c 11#32) S256x256.size (k0_off2_inb c 10)) (fun _ => rfl)).view.loc (c : Thread nD τ) ↦[(xM.slice (Rect.unit (s := S4096x256) (k0_off2 c 11#32) S256x256.size (k0_off2_inb c 10)) (fun _ => rfl)).view.set]{xShare 10} xstg m c,
    (xM.slice (Rect.unit (s := S4096x256) (k0_off2 c 12#32) S256x256.size (k0_off2_inb c 11)) (fun _ => rfl)).view.loc (c : Thread nD τ) ↦[(xM.slice (Rect.unit (s := S4096x256) (k0_off2 c 12#32) S256x256.size (k0_off2_inb c 11)) (fun _ => rfl)).view.set]{xShare 11} xstg m c,
    (xM.slice (Rect.unit (s := S4096x256) (k0_off2 c 13#32) S256x256.size (k0_off2_inb c 12)) (fun _ => rfl)).view.loc (c : Thread nD τ) ↦[(xM.slice (Rect.unit (s := S4096x256) (k0_off2 c 13#32) S256x256.size (k0_off2_inb c 12)) (fun _ => rfl)).view.set]{xShare 12} xstg m c,
    (xM.slice (Rect.unit (s := S4096x256) (k0_off2 c 14#32) S256x256.size (k0_off2_inb c 13)) (fun _ => rfl)).view.loc (c : Thread nD τ) ↦[(xM.slice (Rect.unit (s := S4096x256) (k0_off2 c 14#32) S256x256.size (k0_off2_inb c 13)) (fun _ => rfl)).view.set]{xShare 13} xstg m c,
    (xM.slice (Rect.unit (s := S4096x256) (k0_off2 c 15#32) S256x256.size (k0_off2_inb c 14)) (fun _ => rfl)).view.loc (c : Thread nD τ) ↦[(xM.slice (Rect.unit (s := S4096x256) (k0_off2 c 15#32) S256x256.size (k0_off2_inb c 14)) (fun _ => rfl)).view.set]{xShare 14} xstg m c ]

def gXr (c : Dev nD) : List (sProp 𝕄) :=
  [ (xM : Memref sig .tc .vmem S4096x256 .f32).view.loc (c : Thread nD τ) ↦[(xM : Memref sig .tc .vmem S4096x256 .f32).view.set \ (xM.slice (Rect.unit (s := S4096x256) (k0_off2 c 1#32) S256x256.size (k0_off2_inb c 0)) (fun _ => rfl)).view.set]{xShare 0} xstg m c,
    (xM : Memref sig .tc .vmem S4096x256 .f32).view.loc (c : Thread nD τ) ↦[(xM : Memref sig .tc .vmem S4096x256 .f32).view.set \ (xM.slice (Rect.unit (s := S4096x256) (k0_off2 c 2#32) S256x256.size (k0_off2_inb c 1)) (fun _ => rfl)).view.set]{xShare 1} xstg m c,
    (xM : Memref sig .tc .vmem S4096x256 .f32).view.loc (c : Thread nD τ) ↦[(xM : Memref sig .tc .vmem S4096x256 .f32).view.set \ (xM.slice (Rect.unit (s := S4096x256) (k0_off2 c 3#32) S256x256.size (k0_off2_inb c 2)) (fun _ => rfl)).view.set]{xShare 2} xstg m c,
    (xM : Memref sig .tc .vmem S4096x256 .f32).view.loc (c : Thread nD τ) ↦[(xM : Memref sig .tc .vmem S4096x256 .f32).view.set \ (xM.slice (Rect.unit (s := S4096x256) (k0_off2 c 4#32) S256x256.size (k0_off2_inb c 3)) (fun _ => rfl)).view.set]{xShare 3} xstg m c,
    (xM : Memref sig .tc .vmem S4096x256 .f32).view.loc (c : Thread nD τ) ↦[(xM : Memref sig .tc .vmem S4096x256 .f32).view.set \ (xM.slice (Rect.unit (s := S4096x256) (k0_off2 c 5#32) S256x256.size (k0_off2_inb c 4)) (fun _ => rfl)).view.set]{xShare 4} xstg m c,
    (xM : Memref sig .tc .vmem S4096x256 .f32).view.loc (c : Thread nD τ) ↦[(xM : Memref sig .tc .vmem S4096x256 .f32).view.set \ (xM.slice (Rect.unit (s := S4096x256) (k0_off2 c 6#32) S256x256.size (k0_off2_inb c 5)) (fun _ => rfl)).view.set]{xShare 5} xstg m c,
    (xM : Memref sig .tc .vmem S4096x256 .f32).view.loc (c : Thread nD τ) ↦[(xM : Memref sig .tc .vmem S4096x256 .f32).view.set \ (xM.slice (Rect.unit (s := S4096x256) (k0_off2 c 7#32) S256x256.size (k0_off2_inb c 6)) (fun _ => rfl)).view.set]{xShare 6} xstg m c,
    (xM : Memref sig .tc .vmem S4096x256 .f32).view.loc (c : Thread nD τ) ↦[(xM : Memref sig .tc .vmem S4096x256 .f32).view.set \ (xM.slice (Rect.unit (s := S4096x256) (k0_off2 c 8#32) S256x256.size (k0_off2_inb c 7)) (fun _ => rfl)).view.set]{xShare 7} xstg m c,
    (xM : Memref sig .tc .vmem S4096x256 .f32).view.loc (c : Thread nD τ) ↦[(xM : Memref sig .tc .vmem S4096x256 .f32).view.set \ (xM.slice (Rect.unit (s := S4096x256) (k0_off2 c 9#32) S256x256.size (k0_off2_inb c 8)) (fun _ => rfl)).view.set]{xShare 8} xstg m c,
    (xM : Memref sig .tc .vmem S4096x256 .f32).view.loc (c : Thread nD τ) ↦[(xM : Memref sig .tc .vmem S4096x256 .f32).view.set \ (xM.slice (Rect.unit (s := S4096x256) (k0_off2 c 10#32) S256x256.size (k0_off2_inb c 9)) (fun _ => rfl)).view.set]{xShare 9} xstg m c,
    (xM : Memref sig .tc .vmem S4096x256 .f32).view.loc (c : Thread nD τ) ↦[(xM : Memref sig .tc .vmem S4096x256 .f32).view.set \ (xM.slice (Rect.unit (s := S4096x256) (k0_off2 c 11#32) S256x256.size (k0_off2_inb c 10)) (fun _ => rfl)).view.set]{xShare 10} xstg m c,
    (xM : Memref sig .tc .vmem S4096x256 .f32).view.loc (c : Thread nD τ) ↦[(xM : Memref sig .tc .vmem S4096x256 .f32).view.set \ (xM.slice (Rect.unit (s := S4096x256) (k0_off2 c 12#32) S256x256.size (k0_off2_inb c 11)) (fun _ => rfl)).view.set]{xShare 11} xstg m c,
    (xM : Memref sig .tc .vmem S4096x256 .f32).view.loc (c : Thread nD τ) ↦[(xM : Memref sig .tc .vmem S4096x256 .f32).view.set \ (xM.slice (Rect.unit (s := S4096x256) (k0_off2 c 13#32) S256x256.size (k0_off2_inb c 12)) (fun _ => rfl)).view.set]{xShare 12} xstg m c,
    (xM : Memref sig .tc .vmem S4096x256 .f32).view.loc (c : Thread nD τ) ↦[(xM : Memref sig .tc .vmem S4096x256 .f32).view.set \ (xM.slice (Rect.unit (s := S4096x256) (k0_off2 c 14#32) S256x256.size (k0_off2_inb c 13)) (fun _ => rfl)).view.set]{xShare 13} xstg m c,
    (xM : Memref sig .tc .vmem S4096x256 .f32).view.loc (c : Thread nD τ) ↦[(xM : Memref sig .tc .vmem S4096x256 .f32).view.set \ (xM.slice (Rect.unit (s := S4096x256) (k0_off2 c 15#32) S256x256.size (k0_off2_inb c 14)) (fun _ => rfl)).view.set]{xShare 14} xstg m c ]

def gW (c : Dev nD) : List (sProp 𝕄) :=
  [ (wM : Memref sig .tc .hbm S4096x8192 .f32).view.loc (c : Thread nD τ) ↦[(wM : Memref sig .tc .hbm S4096x8192 .f32).view.set]{Transfers.shareDrop fullShare 3} m ((c : Thread nD τ).loc main_arg1),
    (wM : Memref sig .tc .hbm S4096x8192 .f32).view.loc (c : Thread nD τ) ↦[(wM : Memref sig .tc .hbm S4096x8192 .f32).view.set]{Transfers.shareTok fullShare 3 0} m ((c : Thread nD τ).loc main_arg1),
    (wM : Memref sig .tc .hbm S4096x8192 .f32).view.loc (c : Thread nD τ) ↦[(wM : Memref sig .tc .hbm S4096x8192 .f32).view.set]{Transfers.shareTok fullShare 3 1} m ((c : Thread nD τ).loc main_arg1),
    (wM : Memref sig .tc .hbm S4096x8192 .f32).view.loc (c : Thread nD τ) ↦[(wM : Memref sig .tc .hbm S4096x8192 .f32).view.set]{Transfers.shareTok fullShare 3 2} m ((c : Thread nD τ).loc main_arg1) ]

def gOut (c : Dev nD) (g1 : Buf (Elt F) ((oM : Memref sig .tc .vmem S256x8192 .f32).view.loc (c : Thread nD τ))) : List (sProp 𝕄) :=
  [ (oM : Memref sig .tc .vmem S256x8192 .f32).view.loc (c : Thread nD τ) ↦[(oM : Memref sig .tc .vmem S256x8192 .f32).view.set]{fullShare} g1 ]

def gSl (c : Dev nD) (fs0 : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ))) (fs1 : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ))) (fs2 : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ))) (fs3 : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ))) (fs4 : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ))) (fs5 : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ))) (fs6 : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ))) (fs7 : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ))) (fs8 : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ))) (fs9 : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ))) (fs10 : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ))) (fs11 : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ))) (fs12 : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ))) (fs13 : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ))) (fs14 : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ))) : List (sProp 𝕄) :=
  [ ((rM.slice (Rect.unit (s := S16x256x256) ![15, 0, 0] S1x256x256.size inb_S16x256x256_S1x256x256_15_0_0) (fun _ => rfl)).squeeze S256x256 squeezes_S1x256x256_S256x256).view.loc (c : Thread nD τ) ↦[((rM.slice (Rect.unit (s := S16x256x256) ![15, 0, 0] S1x256x256.size inb_S16x256x256_S1x256x256_15_0_0) (fun _ => rfl)).squeeze S256x256 squeezes_S1x256x256_S256x256).view.set]{fullShare} fs14,
    ((rM.slice (Rect.unit (s := S16x256x256) ![14, 0, 0] S1x256x256.size inb_S16x256x256_S1x256x256_14_0_0) (fun _ => rfl)).squeeze S256x256 squeezes_S1x256x256_S256x256).view.loc (c : Thread nD τ) ↦[((rM.slice (Rect.unit (s := S16x256x256) ![14, 0, 0] S1x256x256.size inb_S16x256x256_S1x256x256_14_0_0) (fun _ => rfl)).squeeze S256x256 squeezes_S1x256x256_S256x256).view.set]{fullShare} fs13,
    ((rM.slice (Rect.unit (s := S16x256x256) ![13, 0, 0] S1x256x256.size inb_S16x256x256_S1x256x256_13_0_0) (fun _ => rfl)).squeeze S256x256 squeezes_S1x256x256_S256x256).view.loc (c : Thread nD τ) ↦[((rM.slice (Rect.unit (s := S16x256x256) ![13, 0, 0] S1x256x256.size inb_S16x256x256_S1x256x256_13_0_0) (fun _ => rfl)).squeeze S256x256 squeezes_S1x256x256_S256x256).view.set]{fullShare} fs12,
    ((rM.slice (Rect.unit (s := S16x256x256) ![12, 0, 0] S1x256x256.size inb_S16x256x256_S1x256x256_12_0_0) (fun _ => rfl)).squeeze S256x256 squeezes_S1x256x256_S256x256).view.loc (c : Thread nD τ) ↦[((rM.slice (Rect.unit (s := S16x256x256) ![12, 0, 0] S1x256x256.size inb_S16x256x256_S1x256x256_12_0_0) (fun _ => rfl)).squeeze S256x256 squeezes_S1x256x256_S256x256).view.set]{fullShare} fs11,
    ((rM.slice (Rect.unit (s := S16x256x256) ![11, 0, 0] S1x256x256.size inb_S16x256x256_S1x256x256_11_0_0) (fun _ => rfl)).squeeze S256x256 squeezes_S1x256x256_S256x256).view.loc (c : Thread nD τ) ↦[((rM.slice (Rect.unit (s := S16x256x256) ![11, 0, 0] S1x256x256.size inb_S16x256x256_S1x256x256_11_0_0) (fun _ => rfl)).squeeze S256x256 squeezes_S1x256x256_S256x256).view.set]{fullShare} fs10,
    ((rM.slice (Rect.unit (s := S16x256x256) ![10, 0, 0] S1x256x256.size inb_S16x256x256_S1x256x256_10_0_0) (fun _ => rfl)).squeeze S256x256 squeezes_S1x256x256_S256x256).view.loc (c : Thread nD τ) ↦[((rM.slice (Rect.unit (s := S16x256x256) ![10, 0, 0] S1x256x256.size inb_S16x256x256_S1x256x256_10_0_0) (fun _ => rfl)).squeeze S256x256 squeezes_S1x256x256_S256x256).view.set]{fullShare} fs9,
    ((rM.slice (Rect.unit (s := S16x256x256) ![9, 0, 0] S1x256x256.size inb_S16x256x256_S1x256x256_9_0_0) (fun _ => rfl)).squeeze S256x256 squeezes_S1x256x256_S256x256).view.loc (c : Thread nD τ) ↦[((rM.slice (Rect.unit (s := S16x256x256) ![9, 0, 0] S1x256x256.size inb_S16x256x256_S1x256x256_9_0_0) (fun _ => rfl)).squeeze S256x256 squeezes_S1x256x256_S256x256).view.set]{fullShare} fs8,
    ((rM.slice (Rect.unit (s := S16x256x256) ![8, 0, 0] S1x256x256.size inb_S16x256x256_S1x256x256_8_0_0) (fun _ => rfl)).squeeze S256x256 squeezes_S1x256x256_S256x256).view.loc (c : Thread nD τ) ↦[((rM.slice (Rect.unit (s := S16x256x256) ![8, 0, 0] S1x256x256.size inb_S16x256x256_S1x256x256_8_0_0) (fun _ => rfl)).squeeze S256x256 squeezes_S1x256x256_S256x256).view.set]{fullShare} fs7,
    ((rM.slice (Rect.unit (s := S16x256x256) ![7, 0, 0] S1x256x256.size inb_S16x256x256_S1x256x256_7_0_0) (fun _ => rfl)).squeeze S256x256 squeezes_S1x256x256_S256x256).view.loc (c : Thread nD τ) ↦[((rM.slice (Rect.unit (s := S16x256x256) ![7, 0, 0] S1x256x256.size inb_S16x256x256_S1x256x256_7_0_0) (fun _ => rfl)).squeeze S256x256 squeezes_S1x256x256_S256x256).view.set]{fullShare} fs6,
    ((rM.slice (Rect.unit (s := S16x256x256) ![6, 0, 0] S1x256x256.size inb_S16x256x256_S1x256x256_6_0_0) (fun _ => rfl)).squeeze S256x256 squeezes_S1x256x256_S256x256).view.loc (c : Thread nD τ) ↦[((rM.slice (Rect.unit (s := S16x256x256) ![6, 0, 0] S1x256x256.size inb_S16x256x256_S1x256x256_6_0_0) (fun _ => rfl)).squeeze S256x256 squeezes_S1x256x256_S256x256).view.set]{fullShare} fs5,
    ((rM.slice (Rect.unit (s := S16x256x256) ![5, 0, 0] S1x256x256.size inb_S16x256x256_S1x256x256_5_0_0) (fun _ => rfl)).squeeze S256x256 squeezes_S1x256x256_S256x256).view.loc (c : Thread nD τ) ↦[((rM.slice (Rect.unit (s := S16x256x256) ![5, 0, 0] S1x256x256.size inb_S16x256x256_S1x256x256_5_0_0) (fun _ => rfl)).squeeze S256x256 squeezes_S1x256x256_S256x256).view.set]{fullShare} fs4,
    ((rM.slice (Rect.unit (s := S16x256x256) ![4, 0, 0] S1x256x256.size inb_S16x256x256_S1x256x256_4_0_0) (fun _ => rfl)).squeeze S256x256 squeezes_S1x256x256_S256x256).view.loc (c : Thread nD τ) ↦[((rM.slice (Rect.unit (s := S16x256x256) ![4, 0, 0] S1x256x256.size inb_S16x256x256_S1x256x256_4_0_0) (fun _ => rfl)).squeeze S256x256 squeezes_S1x256x256_S256x256).view.set]{fullShare} fs3,
    ((rM.slice (Rect.unit (s := S16x256x256) ![3, 0, 0] S1x256x256.size inb_S16x256x256_S1x256x256_3_0_0) (fun _ => rfl)).squeeze S256x256 squeezes_S1x256x256_S256x256).view.loc (c : Thread nD τ) ↦[((rM.slice (Rect.unit (s := S16x256x256) ![3, 0, 0] S1x256x256.size inb_S16x256x256_S1x256x256_3_0_0) (fun _ => rfl)).squeeze S256x256 squeezes_S1x256x256_S256x256).view.set]{fullShare} fs2,
    ((rM.slice (Rect.unit (s := S16x256x256) ![2, 0, 0] S1x256x256.size inb_S16x256x256_S1x256x256_2_0_0) (fun _ => rfl)).squeeze S256x256 squeezes_S1x256x256_S256x256).view.loc (c : Thread nD τ) ↦[((rM.slice (Rect.unit (s := S16x256x256) ![2, 0, 0] S1x256x256.size inb_S16x256x256_S1x256x256_2_0_0) (fun _ => rfl)).squeeze S256x256 squeezes_S1x256x256_S256x256).view.set]{fullShare} fs1,
    ((rM.slice (Rect.unit (s := S16x256x256) ![1, 0, 0] S1x256x256.size inb_S16x256x256_S1x256x256_1_0_0) (fun _ => rfl)).squeeze S256x256 squeezes_S1x256x256_S256x256).view.loc (c : Thread nD τ) ↦[((rM.slice (Rect.unit (s := S16x256x256) ![1, 0, 0] S1x256x256.size inb_S16x256x256_S1x256x256_1_0_0) (fun _ => rfl)).squeeze S256x256 squeezes_S1x256x256_S256x256).view.set]{fullShare} fs0 ]

def gWb (c : Dev nD) (fw : Buf (Elt F) ((wbM : Memref sig .tc .vmem S3x256x8192 .f32).view.loc (c : Thread nD τ))) : List (sProp 𝕄) :=
  [ ((wbM.slice (Rect.unit (s := S3x256x8192) ![0, 0, 0] S1x256x8192.size inb_S3x256x8192_S1x256x8192_0_0_0) (fun _ => rfl)).squeeze S256x8192 squeezes_S1x256x8192_S256x8192).view.loc (c : Thread nD τ) ↦[((wbM.slice (Rect.unit (s := S3x256x8192) ![0, 0, 0] S1x256x8192.size inb_S3x256x8192_S1x256x8192_0_0_0) (fun _ => rfl)).squeeze S256x8192 squeezes_S1x256x8192_S256x8192).view.set]{fullShare} fw,
    ((wbM.slice (Rect.unit (s := S3x256x8192) ![1, 0, 0] S1x256x8192.size inb_S3x256x8192_S1x256x8192_1_0_0) (fun _ => rfl)).squeeze S256x8192 squeezes_S1x256x8192_S256x8192).view.loc (c : Thread nD τ) ↦[((wbM.slice (Rect.unit (s := S3x256x8192) ![1, 0, 0] S1x256x8192.size inb_S3x256x8192_S1x256x8192_1_0_0) (fun _ => rfl)).squeeze S256x8192 squeezes_S1x256x8192_S256x8192).view.set]{fullShare} fw,
    ((wbM.slice (Rect.unit (s := S3x256x8192) ![2, 0, 0] S1x256x8192.size inb_S3x256x8192_S1x256x8192_2_0_0) (fun _ => rfl)).squeeze S256x8192 squeezes_S1x256x8192_S256x8192).view.loc (c : Thread nD τ) ↦[((wbM.slice (Rect.unit (s := S3x256x8192) ![2, 0, 0] S1x256x8192.size inb_S3x256x8192_S1x256x8192_2_0_0) (fun _ => rfl)).squeeze S256x8192 squeezes_S1x256x8192_S256x8192).view.set]{fullShare} fw ]

def gS (c : Dev nD) : List (sProp 𝕄) :=
  [ semVal ((c : Thread nD τ), idleSem 2) 0,
    semVal ((c : Thread nD τ), idleSem 3) 0,
    semVal ((c : Thread nD τ), idleSem 4) 0 ]

def gIbar (c : Dev nD) (K : Dev nD × CK → ℕ) : List (sProp 𝕄) :=
  [ cellInv ER (a2aRd m) (K (c, CK.bar)) (barCell c) ]

def gIs (c : Dev nD) (K : Dev nD × CK → ℕ) : List (sProp 𝕄) :=
  [ cellInv ER (a2aRd m) (K (c, CK.send 0)) (sendCell c 0),
    cellInv ER (a2aRd m) (K (c, CK.send 1)) (sendCell c 1),
    cellInv ER (a2aRd m) (K (c, CK.send 2)) (sendCell c 2),
    cellInv ER (a2aRd m) (K (c, CK.send 3)) (sendCell c 3),
    cellInv ER (a2aRd m) (K (c, CK.send 4)) (sendCell c 4),
    cellInv ER (a2aRd m) (K (c, CK.send 5)) (sendCell c 5),
    cellInv ER (a2aRd m) (K (c, CK.send 6)) (sendCell c 6),
    cellInv ER (a2aRd m) (K (c, CK.send 7)) (sendCell c 7),
    cellInv ER (a2aRd m) (K (c, CK.send 8)) (sendCell c 8),
    cellInv ER (a2aRd m) (K (c, CK.send 9)) (sendCell c 9),
    cellInv ER (a2aRd m) (K (c, CK.send 10)) (sendCell c 10),
    cellInv ER (a2aRd m) (K (c, CK.send 11)) (sendCell c 11),
    cellInv ER (a2aRd m) (K (c, CK.send 12)) (sendCell c 12),
    cellInv ER (a2aRd m) (K (c, CK.send 13)) (sendCell c 13),
    cellInv ER (a2aRd m) (K (c, CK.send 14)) (sendCell c 14) ]

def gIr (c : Dev nD) (K : Dev nD × CK → ℕ) : List (sProp 𝕄) :=
  [ cellInv ER (a2aRd m) (K (c, CK.recv 0)) (recvCell c 0),
    cellInv ER (a2aRd m) (K (c, CK.recv 1)) (recvCell c 1),
    cellInv ER (a2aRd m) (K (c, CK.recv 2)) (recvCell c 2),
    cellInv ER (a2aRd m) (K (c, CK.recv 3)) (recvCell c 3),
    cellInv ER (a2aRd m) (K (c, CK.recv 4)) (recvCell c 4),
    cellInv ER (a2aRd m) (K (c, CK.recv 5)) (recvCell c 5),
    cellInv ER (a2aRd m) (K (c, CK.recv 6)) (recvCell c 6),
    cellInv ER (a2aRd m) (K (c, CK.recv 7)) (recvCell c 7),
    cellInv ER (a2aRd m) (K (c, CK.recv 8)) (recvCell c 8),
    cellInv ER (a2aRd m) (K (c, CK.recv 9)) (recvCell c 9),
    cellInv ER (a2aRd m) (K (c, CK.recv 10)) (recvCell c 10),
    cellInv ER (a2aRd m) (K (c, CK.recv 11)) (recvCell c 11),
    cellInv ER (a2aRd m) (K (c, CK.recv 12)) (recvCell c 12),
    cellInv ER (a2aRd m) (K (c, CK.recv 13)) (recvCell c 13),
    cellInv ER (a2aRd m) (K (c, CK.recv 14)) (recvCell c 14) ]

def gIb (c : Dev nD) (K : Dev nD × CK → ℕ) : List (sProp 𝕄) :=
  [ cellInv ER (a2aRd m) (K (fwd c 1, CK.bar)) (barCell (fwd c 1)),
    cellInv ER (a2aRd m) (K (fwd c 2, CK.bar)) (barCell (fwd c 2)),
    cellInv ER (a2aRd m) (K (fwd c 3, CK.bar)) (barCell (fwd c 3)),
    cellInv ER (a2aRd m) (K (fwd c 4, CK.bar)) (barCell (fwd c 4)),
    cellInv ER (a2aRd m) (K (fwd c 5, CK.bar)) (barCell (fwd c 5)),
    cellInv ER (a2aRd m) (K (fwd c 6, CK.bar)) (barCell (fwd c 6)),
    cellInv ER (a2aRd m) (K (fwd c 7, CK.bar)) (barCell (fwd c 7)),
    cellInv ER (a2aRd m) (K (fwd c 8, CK.bar)) (barCell (fwd c 8)),
    cellInv ER (a2aRd m) (K (fwd c 9, CK.bar)) (barCell (fwd c 9)),
    cellInv ER (a2aRd m) (K (fwd c 10, CK.bar)) (barCell (fwd c 10)),
    cellInv ER (a2aRd m) (K (fwd c 11, CK.bar)) (barCell (fwd c 11)),
    cellInv ER (a2aRd m) (K (fwd c 12, CK.bar)) (barCell (fwd c 12)),
    cellInv ER (a2aRd m) (K (fwd c 13, CK.bar)) (barCell (fwd c 13)),
    cellInv ER (a2aRd m) (K (fwd c 14, CK.bar)) (barCell (fwd c 14)),
    cellInv ER (a2aRd m) (K (fwd c 15, CK.bar)) (barCell (fwd c 15)) ]

def gIv (c : Dev nD) (K : Dev nD × CK → ℕ) : List (sProp 𝕄) :=
  [ cellInv ER (a2aRd m) (K (fwd c 1, CK.recv 0)) (recvCell (fwd c 1) 0),
    cellInv ER (a2aRd m) (K (fwd c 2, CK.recv 1)) (recvCell (fwd c 2) 1),
    cellInv ER (a2aRd m) (K (fwd c 3, CK.recv 2)) (recvCell (fwd c 3) 2),
    cellInv ER (a2aRd m) (K (fwd c 4, CK.recv 3)) (recvCell (fwd c 4) 3),
    cellInv ER (a2aRd m) (K (fwd c 5, CK.recv 4)) (recvCell (fwd c 5) 4),
    cellInv ER (a2aRd m) (K (fwd c 6, CK.recv 5)) (recvCell (fwd c 6) 5),
    cellInv ER (a2aRd m) (K (fwd c 7, CK.recv 6)) (recvCell (fwd c 7) 6),
    cellInv ER (a2aRd m) (K (fwd c 8, CK.recv 7)) (recvCell (fwd c 8) 7),
    cellInv ER (a2aRd m) (K (fwd c 9, CK.recv 8)) (recvCell (fwd c 9) 8),
    cellInv ER (a2aRd m) (K (fwd c 10, CK.recv 9)) (recvCell (fwd c 10) 9),
    cellInv ER (a2aRd m) (K (fwd c 11, CK.recv 10)) (recvCell (fwd c 11) 10),
    cellInv ER (a2aRd m) (K (fwd c 12, CK.recv 11)) (recvCell (fwd c 12) 11),
    cellInv ER (a2aRd m) (K (fwd c 13, CK.recv 12)) (recvCell (fwd c 13) 12),
    cellInv ER (a2aRd m) (K (fwd c 14, CK.recv 13)) (recvCell (fwd c 14) 13),
    cellInv ER (a2aRd m) (K (fwd c 15, CK.recv 14)) (recvCell (fwd c 15) 14) ]

def gAtB (c : Dev nD) : List (sProp 𝕄) :=
  [ atPos ER (barCell c) 0 ∅ 0 ]

def gAtS (c : Dev nD) : List (sProp 𝕄) :=
  [ atPos ER (sendCell c 0) 0 ∅ 0,
    atPos ER (sendCell c 1) 0 ∅ 0,
    atPos ER (sendCell c 2) 0 ∅ 0,
    atPos ER (sendCell c 3) 0 ∅ 0,
    atPos ER (sendCell c 4) 0 ∅ 0,
    atPos ER (sendCell c 5) 0 ∅ 0,
    atPos ER (sendCell c 6) 0 ∅ 0,
    atPos ER (sendCell c 7) 0 ∅ 0,
    atPos ER (sendCell c 8) 0 ∅ 0,
    atPos ER (sendCell c 9) 0 ∅ 0,
    atPos ER (sendCell c 10) 0 ∅ 0,
    atPos ER (sendCell c 11) 0 ∅ 0,
    atPos ER (sendCell c 12) 0 ∅ 0,
    atPos ER (sendCell c 13) 0 ∅ 0,
    atPos ER (sendCell c 14) 0 ∅ 0 ]

def gAtV (c : Dev nD) : List (sProp 𝕄) :=
  [ atPos ER (recvCell c 0) 0 ∅ 0,
    atPos ER (recvCell c 1) 0 ∅ 0,
    atPos ER (recvCell c 2) 0 ∅ 0,
    atPos ER (recvCell c 3) 0 ∅ 0,
    atPos ER (recvCell c 4) 0 ∅ 0,
    atPos ER (recvCell c 5) 0 ∅ 0,
    atPos ER (recvCell c 6) 0 ∅ 0,
    atPos ER (recvCell c 7) 0 ∅ 0,
    atPos ER (recvCell c 8) 0 ∅ 0,
    atPos ER (recvCell c 9) 0 ∅ 0,
    atPos ER (recvCell c 10) 0 ∅ 0,
    atPos ER (recvCell c 11) 0 ∅ 0,
    atPos ER (recvCell c 12) 0 ∅ 0,
    atPos ER (recvCell c 13) 0 ∅ 0,
    atPos ER (recvCell c 14) 0 ∅ 0 ]

def gRB (c : Dev nD) : List (sProp 𝕄) :=
  [ reached ER (barCell (fwd c 1)) 0,
    reached ER (barCell (fwd c 2)) 0,
    reached ER (barCell (fwd c 3)) 0,
    reached ER (barCell (fwd c 4)) 0,
    reached ER (barCell (fwd c 5)) 0,
    reached ER (barCell (fwd c 6)) 0,
    reached ER (barCell (fwd c 7)) 0,
    reached ER (barCell (fwd c 8)) 0,
    reached ER (barCell (fwd c 9)) 0,
    reached ER (barCell (fwd c 10)) 0,
    reached ER (barCell (fwd c 11)) 0,
    reached ER (barCell (fwd c 12)) 0,
    reached ER (barCell (fwd c 13)) 0,
    reached ER (barCell (fwd c 14)) 0,
    reached ER (barCell (fwd c 15)) 0 ]

def gRV (c : Dev nD) : List (sProp 𝕄) :=
  [ reached ER (recvCell (fwd c 1) 0) 0,
    reached ER (recvCell (fwd c 2) 1) 0,
    reached ER (recvCell (fwd c 3) 2) 0,
    reached ER (recvCell (fwd c 4) 3) 0,
    reached ER (recvCell (fwd c 5) 4) 0,
    reached ER (recvCell (fwd c 6) 5) 0,
    reached ER (recvCell (fwd c 7) 6) 0,
    reached ER (recvCell (fwd c 8) 7) 0,
    reached ER (recvCell (fwd c 9) 8) 0,
    reached ER (recvCell (fwd c 10) 9) 0,
    reached ER (recvCell (fwd c 11) 10) 0,
    reached ER (recvCell (fwd c 12) 11) 0,
    reached ER (recvCell (fwd c 13) 12) 0,
    reached ER (recvCell (fwd c 14) 13) 0,
    reached ER (recvCell (fwd c 15) 14) 0 ]

def gRS (c : Dev nD) : List (sProp 𝕄) :=
  [ reached ER (sendCell c 0) 0,
    reached ER (sendCell c 1) 0,
    reached ER (sendCell c 2) 0,
    reached ER (sendCell c 3) 0,
    reached ER (sendCell c 4) 0,
    reached ER (sendCell c 5) 0,
    reached ER (sendCell c 6) 0,
    reached ER (sendCell c 7) 0,
    reached ER (sendCell c 8) 0,
    reached ER (sendCell c 9) 0,
    reached ER (sendCell c 10) 0,
    reached ER (sendCell c 11) 0,
    reached ER (sendCell c 12) 0,
    reached ER (sendCell c 13) 0,
    reached ER (sendCell c 14) 0 ]

def gRO (c : Dev nD) : List (sProp 𝕄) :=
  [ reached ER (recvCell c (rev 14)) 0,
    reached ER (recvCell c (rev 13)) 0,
    reached ER (recvCell c (rev 12)) 0,
    reached ER (recvCell c (rev 11)) 0,
    reached ER (recvCell c (rev 10)) 0,
    reached ER (recvCell c (rev 9)) 0,
    reached ER (recvCell c (rev 8)) 0,
    reached ER (recvCell c (rev 7)) 0,
    reached ER (recvCell c (rev 6)) 0,
    reached ER (recvCell c (rev 5)) 0,
    reached ER (recvCell c (rev 4)) 0,
    reached ER (recvCell c (rev 3)) 0,
    reached ER (recvCell c (rev 2)) 0,
    reached ER (recvCell c (rev 1)) 0,
    reached ER (recvCell c (rev 0)) 0 ]

def gTB (c : Dev nD) : List (sProp 𝕄) :=
  [ dutyTok ER (barCell (fwd c 1)) 0 (rev 0),
    dutyTok ER (barCell (fwd c 2)) 0 (rev 1),
    dutyTok ER (barCell (fwd c 3)) 0 (rev 2),
    dutyTok ER (barCell (fwd c 4)) 0 (rev 3),
    dutyTok ER (barCell (fwd c 5)) 0 (rev 4),
    dutyTok ER (barCell (fwd c 6)) 0 (rev 5),
    dutyTok ER (barCell (fwd c 7)) 0 (rev 6),
    dutyTok ER (barCell (fwd c 8)) 0 (rev 7),
    dutyTok ER (barCell (fwd c 9)) 0 (rev 8),
    dutyTok ER (barCell (fwd c 10)) 0 (rev 9),
    dutyTok ER (barCell (fwd c 11)) 0 (rev 10),
    dutyTok ER (barCell (fwd c 12)) 0 (rev 11),
    dutyTok ER (barCell (fwd c 13)) 0 (rev 12),
    dutyTok ER (barCell (fwd c 14)) 0 (rev 13),
    dutyTok ER (barCell (fwd c 15)) 0 (rev 14) ]

def gTV (c : Dev nD) : List (sProp 𝕄) :=
  [ dutyTok ER (recvCell (fwd c 1) 0) 0 0,
    dutyTok ER (recvCell (fwd c 2) 1) 0 0,
    dutyTok ER (recvCell (fwd c 3) 2) 0 0,
    dutyTok ER (recvCell (fwd c 4) 3) 0 0,
    dutyTok ER (recvCell (fwd c 5) 4) 0 0,
    dutyTok ER (recvCell (fwd c 6) 5) 0 0,
    dutyTok ER (recvCell (fwd c 7) 6) 0 0,
    dutyTok ER (recvCell (fwd c 8) 7) 0 0,
    dutyTok ER (recvCell (fwd c 9) 8) 0 0,
    dutyTok ER (recvCell (fwd c 10) 9) 0 0,
    dutyTok ER (recvCell (fwd c 11) 10) 0 0,
    dutyTok ER (recvCell (fwd c 12) 11) 0 0,
    dutyTok ER (recvCell (fwd c 13) 12) 0 0,
    dutyTok ER (recvCell (fwd c 14) 13) 0 0,
    dutyTok ER (recvCell (fwd c 15) 14) 0 0 ]

def gTS (c : Dev nD) : List (sProp 𝕄) :=
  [ dutyTok ER (sendCell c 0) 0 0,
    dutyTok ER (sendCell c 1) 0 0,
    dutyTok ER (sendCell c 2) 0 0,
    dutyTok ER (sendCell c 3) 0 0,
    dutyTok ER (sendCell c 4) 0 0,
    dutyTok ER (sendCell c 5) 0 0,
    dutyTok ER (sendCell c 6) 0 0,
    dutyTok ER (sendCell c 7) 0 0,
    dutyTok ER (sendCell c 8) 0 0,
    dutyTok ER (sendCell c 9) 0 0,
    dutyTok ER (sendCell c 10) 0 0,
    dutyTok ER (sendCell c 11) 0 0,
    dutyTok ER (sendCell c 12) 0 0,
    dutyTok ER (sendCell c 13) 0 0,
    dutyTok ER (sendCell c 14) 0 0 ]

def gCB (c : Dev nD) : List (sProp 𝕄) :=
  [ cred (tallyAt (barCell c) () 15) ]

def gCV (c : Dev nD) : List (sProp 𝕄) :=
  [ cred (tallyAt (recvCell c 0) () N),
    cred (tallyAt (recvCell c 1) () N),
    cred (tallyAt (recvCell c 2) () N),
    cred (tallyAt (recvCell c 3) () N),
    cred (tallyAt (recvCell c 4) () N),
    cred (tallyAt (recvCell c 5) () N),
    cred (tallyAt (recvCell c 6) () N),
    cred (tallyAt (recvCell c 7) () N),
    cred (tallyAt (recvCell c 8) () N),
    cred (tallyAt (recvCell c 9) () N),
    cred (tallyAt (recvCell c 10) () N),
    cred (tallyAt (recvCell c 11) () N),
    cred (tallyAt (recvCell c 12) () N),
    cred (tallyAt (recvCell c 13) () N),
    cred (tallyAt (recvCell c 14) () N) ]

def gLev  : List (sProp 𝕄) :=
  [ levAts L lv ]

def gO (c : Dev nD) (W : Waits sig Unit) : List (sProp 𝕄) :=
  [ owes (c : Thread nD τ) (tallyAt (recvCell (fwd c 15) 14) () N + tallyAt (recvCell (fwd c 14) 13) () N + tallyAt (recvCell (fwd c 13) 12) () N + tallyAt (recvCell (fwd c 12) 11) () N + tallyAt (recvCell (fwd c 11) 10) () N + tallyAt (recvCell (fwd c 10) 9) () N + tallyAt (recvCell (fwd c 9) 8) () N + tallyAt (recvCell (fwd c 8) 7) () N + tallyAt (recvCell (fwd c 7) 6) () N + tallyAt (recvCell (fwd c 6) 5) () N + tallyAt (recvCell (fwd c 5) 4) () N + tallyAt (recvCell (fwd c 4) 3) () N + tallyAt (recvCell (fwd c 3) 2) () N + tallyAt (recvCell (fwd c 2) 1) () N + tallyAt (recvCell (fwd c 1) 0) () N + tallyAt (barCell (fwd c 15)) () 1 + tallyAt (barCell (fwd c 14)) () 1 + tallyAt (barCell (fwd c 13)) () 1 + tallyAt (barCell (fwd c 12)) () 1 + tallyAt (barCell (fwd c 11)) () 1 + tallyAt (barCell (fwd c 10)) () 1 + tallyAt (barCell (fwd c 9)) () 1 + tallyAt (barCell (fwd c 8)) () 1 + tallyAt (barCell (fwd c 7)) () 1 + tallyAt (barCell (fwd c 6)) () 1 + tallyAt (barCell (fwd c 5)) () 1 + tallyAt (barCell (fwd c 4)) () 1 + tallyAt (barCell (fwd c 3)) () 1 + tallyAt (barCell (fwd c 2)) () 1 + tallyAt (barCell (fwd c 1)) () 1) W ]

def gS0 (c : Dev nD) (f0 : Buf (Elt F) ((c : Thread nD τ).loc cc0_scratch0)) : List (sProp 𝕄) :=
  [ slot0Pts c f0 ]

def gI (c : Dev nD) : List (sProp 𝕄) :=
  [ semVal ((c : Thread nD τ), idleSem 0) 0,
    semVal ((c : Thread nD τ), idleSem 1) 0 ]

/-- The column block's conjuncts: what is left after fifteen read tokens, then of each token the rows its transfer
    carries, then of each token the rest. -/
def gX (c : Dev nD) : List (sProp 𝕄) :=
  ((xM : Memref sig .tc .vmem S4096x256 .f32).view.loc (c : Thread nD τ) ↦[(xM : Memref sig .tc .vmem S4096x256 .f32).view.set]{Transfers.shareDrop fullShare 15} xstg m c) :: (gXs m c ++ gXr m c)

/-- Everything the body starts from, spread out. -/
def bodyCtx (c : Dev nD) (K : Dev nD × CK → ℕ) (W : Waits sig Unit) (g1 : Buf (Elt F) ((oM : Memref sig .tc .vmem S256x8192 .f32).view.loc (c : Thread nD τ))) (fw : Buf (Elt F) ((wbM : Memref sig .tc .vmem S3x256x8192 .f32).view.loc (c : Thread nD τ))) (fs0 : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ))) (fs1 : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ))) (fs2 : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ))) (fs3 : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ))) (fs4 : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ))) (fs5 : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ))) (fs6 : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ))) (fs7 : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ))) (fs8 : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ))) (fs9 : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ))) (fs10 : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ))) (fs11 : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ))) (fs12 : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ))) (fs13 : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ))) (fs14 : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ))) (f0 : Buf (Elt F) ((c : Thread nD τ).loc cc0_scratch0)) : sProp 𝕄 :=
  iprop(((xM : Memref sig .tc .vmem S4096x256 .f32).view.loc (c : Thread nD τ) ↦[(xM : Memref sig .tc .vmem S4096x256 .f32).view.set]{Transfers.shareDrop fullShare 15} xstg m c)
      ∗ ((xM.slice (Rect.unit (s := S4096x256) (k0_off2 c 1#32) S256x256.size (k0_off2_inb c 0)) (fun _ => rfl)).view.loc (c : Thread nD τ) ↦[(xM.slice (Rect.unit (s := S4096x256) (k0_off2 c 1#32) S256x256.size (k0_off2_inb c 0)) (fun _ => rfl)).view.set]{xShare 0} xstg m c)
      ∗ ((xM.slice (Rect.unit (s := S4096x256) (k0_off2 c 2#32) S256x256.size (k0_off2_inb c 1)) (fun _ => rfl)).view.loc (c : Thread nD τ) ↦[(xM.slice (Rect.unit (s := S4096x256) (k0_off2 c 2#32) S256x256.size (k0_off2_inb c 1)) (fun _ => rfl)).view.set]{xShare 1} xstg m c)
      ∗ ((xM.slice (Rect.unit (s := S4096x256) (k0_off2 c 3#32) S256x256.size (k0_off2_inb c 2)) (fun _ => rfl)).view.loc (c : Thread nD τ) ↦[(xM.slice (Rect.unit (s := S4096x256) (k0_off2 c 3#32) S256x256.size (k0_off2_inb c 2)) (fun _ => rfl)).view.set]{xShare 2} xstg m c)
      ∗ ((xM.slice (Rect.unit (s := S4096x256) (k0_off2 c 4#32) S256x256.size (k0_off2_inb c 3)) (fun _ => rfl)).view.loc (c : Thread nD τ) ↦[(xM.slice (Rect.unit (s := S4096x256) (k0_off2 c 4#32) S256x256.size (k0_off2_inb c 3)) (fun _ => rfl)).view.set]{xShare 3} xstg m c)
      ∗ ((xM.slice (Rect.unit (s := S4096x256) (k0_off2 c 5#32) S256x256.size (k0_off2_inb c 4)) (fun _ => rfl)).view.loc (c : Thread nD τ) ↦[(xM.slice (Rect.unit (s := S4096x256) (k0_off2 c 5#32) S256x256.size (k0_off2_inb c 4)) (fun _ => rfl)).view.set]{xShare 4} xstg m c)
      ∗ ((xM.slice (Rect.unit (s := S4096x256) (k0_off2 c 6#32) S256x256.size (k0_off2_inb c 5)) (fun _ => rfl)).view.loc (c : Thread nD τ) ↦[(xM.slice (Rect.unit (s := S4096x256) (k0_off2 c 6#32) S256x256.size (k0_off2_inb c 5)) (fun _ => rfl)).view.set]{xShare 5} xstg m c)
      ∗ ((xM.slice (Rect.unit (s := S4096x256) (k0_off2 c 7#32) S256x256.size (k0_off2_inb c 6)) (fun _ => rfl)).view.loc (c : Thread nD τ) ↦[(xM.slice (Rect.unit (s := S4096x256) (k0_off2 c 7#32) S256x256.size (k0_off2_inb c 6)) (fun _ => rfl)).view.set]{xShare 6} xstg m c)
      ∗ ((xM.slice (Rect.unit (s := S4096x256) (k0_off2 c 8#32) S256x256.size (k0_off2_inb c 7)) (fun _ => rfl)).view.loc (c : Thread nD τ) ↦[(xM.slice (Rect.unit (s := S4096x256) (k0_off2 c 8#32) S256x256.size (k0_off2_inb c 7)) (fun _ => rfl)).view.set]{xShare 7} xstg m c)
      ∗ ((xM.slice (Rect.unit (s := S4096x256) (k0_off2 c 9#32) S256x256.size (k0_off2_inb c 8)) (fun _ => rfl)).view.loc (c : Thread nD τ) ↦[(xM.slice (Rect.unit (s := S4096x256) (k0_off2 c 9#32) S256x256.size (k0_off2_inb c 8)) (fun _ => rfl)).view.set]{xShare 8} xstg m c)
      ∗ ((xM.slice (Rect.unit (s := S4096x256) (k0_off2 c 10#32) S256x256.size (k0_off2_inb c 9)) (fun _ => rfl)).view.loc (c : Thread nD τ) ↦[(xM.slice (Rect.unit (s := S4096x256) (k0_off2 c 10#32) S256x256.size (k0_off2_inb c 9)) (fun _ => rfl)).view.set]{xShare 9} xstg m c)
      ∗ ((xM.slice (Rect.unit (s := S4096x256) (k0_off2 c 11#32) S256x256.size (k0_off2_inb c 10)) (fun _ => rfl)).view.loc (c : Thread nD τ) ↦[(xM.slice (Rect.unit (s := S4096x256) (k0_off2 c 11#32) S256x256.size (k0_off2_inb c 10)) (fun _ => rfl)).view.set]{xShare 10} xstg m c)
      ∗ ((xM.slice (Rect.unit (s := S4096x256) (k0_off2 c 12#32) S256x256.size (k0_off2_inb c 11)) (fun _ => rfl)).view.loc (c : Thread nD τ) ↦[(xM.slice (Rect.unit (s := S4096x256) (k0_off2 c 12#32) S256x256.size (k0_off2_inb c 11)) (fun _ => rfl)).view.set]{xShare 11} xstg m c)
      ∗ ((xM.slice (Rect.unit (s := S4096x256) (k0_off2 c 13#32) S256x256.size (k0_off2_inb c 12)) (fun _ => rfl)).view.loc (c : Thread nD τ) ↦[(xM.slice (Rect.unit (s := S4096x256) (k0_off2 c 13#32) S256x256.size (k0_off2_inb c 12)) (fun _ => rfl)).view.set]{xShare 12} xstg m c)
      ∗ ((xM.slice (Rect.unit (s := S4096x256) (k0_off2 c 14#32) S256x256.size (k0_off2_inb c 13)) (fun _ => rfl)).view.loc (c : Thread nD τ) ↦[(xM.slice (Rect.unit (s := S4096x256) (k0_off2 c 14#32) S256x256.size (k0_off2_inb c 13)) (fun _ => rfl)).view.set]{xShare 13} xstg m c)
      ∗ ((xM.slice (Rect.unit (s := S4096x256) (k0_off2 c 15#32) S256x256.size (k0_off2_inb c 14)) (fun _ => rfl)).view.loc (c : Thread nD τ) ↦[(xM.slice (Rect.unit (s := S4096x256) (k0_off2 c 15#32) S256x256.size (k0_off2_inb c 14)) (fun _ => rfl)).view.set]{xShare 14} xstg m c)
      ∗ ((xM : Memref sig .tc .vmem S4096x256 .f32).view.loc (c : Thread nD τ) ↦[(xM : Memref sig .tc .vmem S4096x256 .f32).view.set \ (xM.slice (Rect.unit (s := S4096x256) (k0_off2 c 1#32) S256x256.size (k0_off2_inb c 0)) (fun _ => rfl)).view.set]{xShare 0} xstg m c)
      ∗ ((xM : Memref sig .tc .vmem S4096x256 .f32).view.loc (c : Thread nD τ) ↦[(xM : Memref sig .tc .vmem S4096x256 .f32).view.set \ (xM.slice (Rect.unit (s := S4096x256) (k0_off2 c 2#32) S256x256.size (k0_off2_inb c 1)) (fun _ => rfl)).view.set]{xShare 1} xstg m c)
      ∗ ((xM : Memref sig .tc .vmem S4096x256 .f32).view.loc (c : Thread nD τ) ↦[(xM : Memref sig .tc .vmem S4096x256 .f32).view.set \ (xM.slice (Rect.unit (s := S4096x256) (k0_off2 c 3#32) S256x256.size (k0_off2_inb c 2)) (fun _ => rfl)).view.set]{xShare 2} xstg m c)
      ∗ ((xM : Memref sig .tc .vmem S4096x256 .f32).view.loc (c : Thread nD τ) ↦[(xM : Memref sig .tc .vmem S4096x256 .f32).view.set \ (xM.slice (Rect.unit (s := S4096x256) (k0_off2 c 4#32) S256x256.size (k0_off2_inb c 3)) (fun _ => rfl)).view.set]{xShare 3} xstg m c)
      ∗ ((xM : Memref sig .tc .vmem S4096x256 .f32).view.loc (c : Thread nD τ) ↦[(xM : Memref sig .tc .vmem S4096x256 .f32).view.set \ (xM.slice (Rect.unit (s := S4096x256) (k0_off2 c 5#32) S256x256.size (k0_off2_inb c 4)) (fun _ => rfl)).view.set]{xShare 4} xstg m c)
      ∗ ((xM : Memref sig .tc .vmem S4096x256 .f32).view.loc (c : Thread nD τ) ↦[(xM : Memref sig .tc .vmem S4096x256 .f32).view.set \ (xM.slice (Rect.unit (s := S4096x256) (k0_off2 c 6#32) S256x256.size (k0_off2_inb c 5)) (fun _ => rfl)).view.set]{xShare 5} xstg m c)
      ∗ ((xM : Memref sig .tc .vmem S4096x256 .f32).view.loc (c : Thread nD τ) ↦[(xM : Memref sig .tc .vmem S4096x256 .f32).view.set \ (xM.slice (Rect.unit (s := S4096x256) (k0_off2 c 7#32) S256x256.size (k0_off2_inb c 6)) (fun _ => rfl)).view.set]{xShare 6} xstg m c)
      ∗ ((xM : Memref sig .tc .vmem S4096x256 .f32).view.loc (c : Thread nD τ) ↦[(xM : Memref sig .tc .vmem S4096x256 .f32).view.set \ (xM.slice (Rect.unit (s := S4096x256) (k0_off2 c 8#32) S256x256.size (k0_off2_inb c 7)) (fun _ => rfl)).view.set]{xShare 7} xstg m c)
      ∗ ((xM : Memref sig .tc .vmem S4096x256 .f32).view.loc (c : Thread nD τ) ↦[(xM : Memref sig .tc .vmem S4096x256 .f32).view.set \ (xM.slice (Rect.unit (s := S4096x256) (k0_off2 c 9#32) S256x256.size (k0_off2_inb c 8)) (fun _ => rfl)).view.set]{xShare 8} xstg m c)
      ∗ ((xM : Memref sig .tc .vmem S4096x256 .f32).view.loc (c : Thread nD τ) ↦[(xM : Memref sig .tc .vmem S4096x256 .f32).view.set \ (xM.slice (Rect.unit (s := S4096x256) (k0_off2 c 10#32) S256x256.size (k0_off2_inb c 9)) (fun _ => rfl)).view.set]{xShare 9} xstg m c)
      ∗ ((xM : Memref sig .tc .vmem S4096x256 .f32).view.loc (c : Thread nD τ) ↦[(xM : Memref sig .tc .vmem S4096x256 .f32).view.set \ (xM.slice (Rect.unit (s := S4096x256) (k0_off2 c 11#32) S256x256.size (k0_off2_inb c 10)) (fun _ => rfl)).view.set]{xShare 10} xstg m c)
      ∗ ((xM : Memref sig .tc .vmem S4096x256 .f32).view.loc (c : Thread nD τ) ↦[(xM : Memref sig .tc .vmem S4096x256 .f32).view.set \ (xM.slice (Rect.unit (s := S4096x256) (k0_off2 c 12#32) S256x256.size (k0_off2_inb c 11)) (fun _ => rfl)).view.set]{xShare 11} xstg m c)
      ∗ ((xM : Memref sig .tc .vmem S4096x256 .f32).view.loc (c : Thread nD τ) ↦[(xM : Memref sig .tc .vmem S4096x256 .f32).view.set \ (xM.slice (Rect.unit (s := S4096x256) (k0_off2 c 13#32) S256x256.size (k0_off2_inb c 12)) (fun _ => rfl)).view.set]{xShare 12} xstg m c)
      ∗ ((xM : Memref sig .tc .vmem S4096x256 .f32).view.loc (c : Thread nD τ) ↦[(xM : Memref sig .tc .vmem S4096x256 .f32).view.set \ (xM.slice (Rect.unit (s := S4096x256) (k0_off2 c 14#32) S256x256.size (k0_off2_inb c 13)) (fun _ => rfl)).view.set]{xShare 13} xstg m c)
      ∗ ((xM : Memref sig .tc .vmem S4096x256 .f32).view.loc (c : Thread nD τ) ↦[(xM : Memref sig .tc .vmem S4096x256 .f32).view.set \ (xM.slice (Rect.unit (s := S4096x256) (k0_off2 c 15#32) S256x256.size (k0_off2_inb c 14)) (fun _ => rfl)).view.set]{xShare 14} xstg m c)
      ∗ ((wM : Memref sig .tc .hbm S4096x8192 .f32).view.loc (c : Thread nD τ) ↦[(wM : Memref sig .tc .hbm S4096x8192 .f32).view.set]{Transfers.shareDrop fullShare 3} m ((c : Thread nD τ).loc main_arg1))
      ∗ ((wM : Memref sig .tc .hbm S4096x8192 .f32).view.loc (c : Thread nD τ) ↦[(wM : Memref sig .tc .hbm S4096x8192 .f32).view.set]{Transfers.shareTok fullShare 3 0} m ((c : Thread nD τ).loc main_arg1))
      ∗ ((wM : Memref sig .tc .hbm S4096x8192 .f32).view.loc (c : Thread nD τ) ↦[(wM : Memref sig .tc .hbm S4096x8192 .f32).view.set]{Transfers.shareTok fullShare 3 1} m ((c : Thread nD τ).loc main_arg1))
      ∗ ((wM : Memref sig .tc .hbm S4096x8192 .f32).view.loc (c : Thread nD τ) ↦[(wM : Memref sig .tc .hbm S4096x8192 .f32).view.set]{Transfers.shareTok fullShare 3 2} m ((c : Thread nD τ).loc main_arg1))
      ∗ ((oM : Memref sig .tc .vmem S256x8192 .f32).view.loc (c : Thread nD τ) ↦[(oM : Memref sig .tc .vmem S256x8192 .f32).view.set]{fullShare} g1)
      ∗ (((rM.slice (Rect.unit (s := S16x256x256) ![15, 0, 0] S1x256x256.size inb_S16x256x256_S1x256x256_15_0_0) (fun _ => rfl)).squeeze S256x256 squeezes_S1x256x256_S256x256).view.loc (c : Thread nD τ) ↦[((rM.slice (Rect.unit (s := S16x256x256) ![15, 0, 0] S1x256x256.size inb_S16x256x256_S1x256x256_15_0_0) (fun _ => rfl)).squeeze S256x256 squeezes_S1x256x256_S256x256).view.set]{fullShare} fs14)
      ∗ (((rM.slice (Rect.unit (s := S16x256x256) ![14, 0, 0] S1x256x256.size inb_S16x256x256_S1x256x256_14_0_0) (fun _ => rfl)).squeeze S256x256 squeezes_S1x256x256_S256x256).view.loc (c : Thread nD τ) ↦[((rM.slice (Rect.unit (s := S16x256x256) ![14, 0, 0] S1x256x256.size inb_S16x256x256_S1x256x256_14_0_0) (fun _ => rfl)).squeeze S256x256 squeezes_S1x256x256_S256x256).view.set]{fullShare} fs13)
      ∗ (((rM.slice (Rect.unit (s := S16x256x256) ![13, 0, 0] S1x256x256.size inb_S16x256x256_S1x256x256_13_0_0) (fun _ => rfl)).squeeze S256x256 squeezes_S1x256x256_S256x256).view.loc (c : Thread nD τ) ↦[((rM.slice (Rect.unit (s := S16x256x256) ![13, 0, 0] S1x256x256.size inb_S16x256x256_S1x256x256_13_0_0) (fun _ => rfl)).squeeze S256x256 squeezes_S1x256x256_S256x256).view.set]{fullShare} fs12)
      ∗ (((rM.slice (Rect.unit (s := S16x256x256) ![12, 0, 0] S1x256x256.size inb_S16x256x256_S1x256x256_12_0_0) (fun _ => rfl)).squeeze S256x256 squeezes_S1x256x256_S256x256).view.loc (c : Thread nD τ) ↦[((rM.slice (Rect.unit (s := S16x256x256) ![12, 0, 0] S1x256x256.size inb_S16x256x256_S1x256x256_12_0_0) (fun _ => rfl)).squeeze S256x256 squeezes_S1x256x256_S256x256).view.set]{fullShare} fs11)
      ∗ (((rM.slice (Rect.unit (s := S16x256x256) ![11, 0, 0] S1x256x256.size inb_S16x256x256_S1x256x256_11_0_0) (fun _ => rfl)).squeeze S256x256 squeezes_S1x256x256_S256x256).view.loc (c : Thread nD τ) ↦[((rM.slice (Rect.unit (s := S16x256x256) ![11, 0, 0] S1x256x256.size inb_S16x256x256_S1x256x256_11_0_0) (fun _ => rfl)).squeeze S256x256 squeezes_S1x256x256_S256x256).view.set]{fullShare} fs10)
      ∗ (((rM.slice (Rect.unit (s := S16x256x256) ![10, 0, 0] S1x256x256.size inb_S16x256x256_S1x256x256_10_0_0) (fun _ => rfl)).squeeze S256x256 squeezes_S1x256x256_S256x256).view.loc (c : Thread nD τ) ↦[((rM.slice (Rect.unit (s := S16x256x256) ![10, 0, 0] S1x256x256.size inb_S16x256x256_S1x256x256_10_0_0) (fun _ => rfl)).squeeze S256x256 squeezes_S1x256x256_S256x256).view.set]{fullShare} fs9)
      ∗ (((rM.slice (Rect.unit (s := S16x256x256) ![9, 0, 0] S1x256x256.size inb_S16x256x256_S1x256x256_9_0_0) (fun _ => rfl)).squeeze S256x256 squeezes_S1x256x256_S256x256).view.loc (c : Thread nD τ) ↦[((rM.slice (Rect.unit (s := S16x256x256) ![9, 0, 0] S1x256x256.size inb_S16x256x256_S1x256x256_9_0_0) (fun _ => rfl)).squeeze S256x256 squeezes_S1x256x256_S256x256).view.set]{fullShare} fs8)
      ∗ (((rM.slice (Rect.unit (s := S16x256x256) ![8, 0, 0] S1x256x256.size inb_S16x256x256_S1x256x256_8_0_0) (fun _ => rfl)).squeeze S256x256 squeezes_S1x256x256_S256x256).view.loc (c : Thread nD τ) ↦[((rM.slice (Rect.unit (s := S16x256x256) ![8, 0, 0] S1x256x256.size inb_S16x256x256_S1x256x256_8_0_0) (fun _ => rfl)).squeeze S256x256 squeezes_S1x256x256_S256x256).view.set]{fullShare} fs7)
      ∗ (((rM.slice (Rect.unit (s := S16x256x256) ![7, 0, 0] S1x256x256.size inb_S16x256x256_S1x256x256_7_0_0) (fun _ => rfl)).squeeze S256x256 squeezes_S1x256x256_S256x256).view.loc (c : Thread nD τ) ↦[((rM.slice (Rect.unit (s := S16x256x256) ![7, 0, 0] S1x256x256.size inb_S16x256x256_S1x256x256_7_0_0) (fun _ => rfl)).squeeze S256x256 squeezes_S1x256x256_S256x256).view.set]{fullShare} fs6)
      ∗ (((rM.slice (Rect.unit (s := S16x256x256) ![6, 0, 0] S1x256x256.size inb_S16x256x256_S1x256x256_6_0_0) (fun _ => rfl)).squeeze S256x256 squeezes_S1x256x256_S256x256).view.loc (c : Thread nD τ) ↦[((rM.slice (Rect.unit (s := S16x256x256) ![6, 0, 0] S1x256x256.size inb_S16x256x256_S1x256x256_6_0_0) (fun _ => rfl)).squeeze S256x256 squeezes_S1x256x256_S256x256).view.set]{fullShare} fs5)
      ∗ (((rM.slice (Rect.unit (s := S16x256x256) ![5, 0, 0] S1x256x256.size inb_S16x256x256_S1x256x256_5_0_0) (fun _ => rfl)).squeeze S256x256 squeezes_S1x256x256_S256x256).view.loc (c : Thread nD τ) ↦[((rM.slice (Rect.unit (s := S16x256x256) ![5, 0, 0] S1x256x256.size inb_S16x256x256_S1x256x256_5_0_0) (fun _ => rfl)).squeeze S256x256 squeezes_S1x256x256_S256x256).view.set]{fullShare} fs4)
      ∗ (((rM.slice (Rect.unit (s := S16x256x256) ![4, 0, 0] S1x256x256.size inb_S16x256x256_S1x256x256_4_0_0) (fun _ => rfl)).squeeze S256x256 squeezes_S1x256x256_S256x256).view.loc (c : Thread nD τ) ↦[((rM.slice (Rect.unit (s := S16x256x256) ![4, 0, 0] S1x256x256.size inb_S16x256x256_S1x256x256_4_0_0) (fun _ => rfl)).squeeze S256x256 squeezes_S1x256x256_S256x256).view.set]{fullShare} fs3)
      ∗ (((rM.slice (Rect.unit (s := S16x256x256) ![3, 0, 0] S1x256x256.size inb_S16x256x256_S1x256x256_3_0_0) (fun _ => rfl)).squeeze S256x256 squeezes_S1x256x256_S256x256).view.loc (c : Thread nD τ) ↦[((rM.slice (Rect.unit (s := S16x256x256) ![3, 0, 0] S1x256x256.size inb_S16x256x256_S1x256x256_3_0_0) (fun _ => rfl)).squeeze S256x256 squeezes_S1x256x256_S256x256).view.set]{fullShare} fs2)
      ∗ (((rM.slice (Rect.unit (s := S16x256x256) ![2, 0, 0] S1x256x256.size inb_S16x256x256_S1x256x256_2_0_0) (fun _ => rfl)).squeeze S256x256 squeezes_S1x256x256_S256x256).view.loc (c : Thread nD τ) ↦[((rM.slice (Rect.unit (s := S16x256x256) ![2, 0, 0] S1x256x256.size inb_S16x256x256_S1x256x256_2_0_0) (fun _ => rfl)).squeeze S256x256 squeezes_S1x256x256_S256x256).view.set]{fullShare} fs1)
      ∗ (((rM.slice (Rect.unit (s := S16x256x256) ![1, 0, 0] S1x256x256.size inb_S16x256x256_S1x256x256_1_0_0) (fun _ => rfl)).squeeze S256x256 squeezes_S1x256x256_S256x256).view.loc (c : Thread nD τ) ↦[((rM.slice (Rect.unit (s := S16x256x256) ![1, 0, 0] S1x256x256.size inb_S16x256x256_S1x256x256_1_0_0) (fun _ => rfl)).squeeze S256x256 squeezes_S1x256x256_S256x256).view.set]{fullShare} fs0)
      ∗ (((wbM.slice (Rect.unit (s := S3x256x8192) ![0, 0, 0] S1x256x8192.size inb_S3x256x8192_S1x256x8192_0_0_0) (fun _ => rfl)).squeeze S256x8192 squeezes_S1x256x8192_S256x8192).view.loc (c : Thread nD τ) ↦[((wbM.slice (Rect.unit (s := S3x256x8192) ![0, 0, 0] S1x256x8192.size inb_S3x256x8192_S1x256x8192_0_0_0) (fun _ => rfl)).squeeze S256x8192 squeezes_S1x256x8192_S256x8192).view.set]{fullShare} fw)
      ∗ (((wbM.slice (Rect.unit (s := S3x256x8192) ![1, 0, 0] S1x256x8192.size inb_S3x256x8192_S1x256x8192_1_0_0) (fun _ => rfl)).squeeze S256x8192 squeezes_S1x256x8192_S256x8192).view.loc (c : Thread nD τ) ↦[((wbM.slice (Rect.unit (s := S3x256x8192) ![1, 0, 0] S1x256x8192.size inb_S3x256x8192_S1x256x8192_1_0_0) (fun _ => rfl)).squeeze S256x8192 squeezes_S1x256x8192_S256x8192).view.set]{fullShare} fw)
      ∗ (((wbM.slice (Rect.unit (s := S3x256x8192) ![2, 0, 0] S1x256x8192.size inb_S3x256x8192_S1x256x8192_2_0_0) (fun _ => rfl)).squeeze S256x8192 squeezes_S1x256x8192_S256x8192).view.loc (c : Thread nD τ) ↦[((wbM.slice (Rect.unit (s := S3x256x8192) ![2, 0, 0] S1x256x8192.size inb_S3x256x8192_S1x256x8192_2_0_0) (fun _ => rfl)).squeeze S256x8192 squeezes_S1x256x8192_S256x8192).view.set]{fullShare} fw)
      ∗ (semVal ((c : Thread nD τ), idleSem 2) 0)
      ∗ (semVal ((c : Thread nD τ), idleSem 3) 0)
      ∗ (semVal ((c : Thread nD τ), idleSem 4) 0)
      ∗ (cellInv ER (a2aRd m) (K (c, CK.bar)) (barCell c))
      ∗ (cellInv ER (a2aRd m) (K (c, CK.send 0)) (sendCell c 0))
      ∗ (cellInv ER (a2aRd m) (K (c, CK.send 1)) (sendCell c 1))
      ∗ (cellInv ER (a2aRd m) (K (c, CK.send 2)) (sendCell c 2))
      ∗ (cellInv ER (a2aRd m) (K (c, CK.send 3)) (sendCell c 3))
      ∗ (cellInv ER (a2aRd m) (K (c, CK.send 4)) (sendCell c 4))
      ∗ (cellInv ER (a2aRd m) (K (c, CK.send 5)) (sendCell c 5))
      ∗ (cellInv ER (a2aRd m) (K (c, CK.send 6)) (sendCell c 6))
      ∗ (cellInv ER (a2aRd m) (K (c, CK.send 7)) (sendCell c 7))
      ∗ (cellInv ER (a2aRd m) (K (c, CK.send 8)) (sendCell c 8))
      ∗ (cellInv ER (a2aRd m) (K (c, CK.send 9)) (sendCell c 9))
      ∗ (cellInv ER (a2aRd m) (K (c, CK.send 10)) (sendCell c 10))
      ∗ (cellInv ER (a2aRd m) (K (c, CK.send 11)) (sendCell c 11))
      ∗ (cellInv ER (a2aRd m) (K (c, CK.send 12)) (sendCell c 12))
      ∗ (cellInv ER (a2aRd m) (K (c, CK.send 13)) (sendCell c 13))
      ∗ (cellInv ER (a2aRd m) (K (c, CK.send 14)) (sendCell c 14))
      ∗ (cellInv ER (a2aRd m) (K (c, CK.recv 0)) (recvCell c 0))
      ∗ (cellInv ER (a2aRd m) (K (c, CK.recv 1)) (recvCell c 1))
      ∗ (cellInv ER (a2aRd m) (K (c, CK.recv 2)) (recvCell c 2))
      ∗ (cellInv ER (a2aRd m) (K (c, CK.recv 3)) (recvCell c 3))
      ∗ (cellInv ER (a2aRd m) (K (c, CK.recv 4)) (recvCell c 4))
      ∗ (cellInv ER (a2aRd m) (K (c, CK.recv 5)) (recvCell c 5))
      ∗ (cellInv ER (a2aRd m) (K (c, CK.recv 6)) (recvCell c 6))
      ∗ (cellInv ER (a2aRd m) (K (c, CK.recv 7)) (recvCell c 7))
      ∗ (cellInv ER (a2aRd m) (K (c, CK.recv 8)) (recvCell c 8))
      ∗ (cellInv ER (a2aRd m) (K (c, CK.recv 9)) (recvCell c 9))
      ∗ (cellInv ER (a2aRd m) (K (c, CK.recv 10)) (recvCell c 10))
      ∗ (cellInv ER (a2aRd m) (K (c, CK.recv 11)) (recvCell c 11))
      ∗ (cellInv ER (a2aRd m) (K (c, CK.recv 12)) (recvCell c 12))
      ∗ (cellInv ER (a2aRd m) (K (c, CK.recv 13)) (recvCell c 13))
      ∗ (cellInv ER (a2aRd m) (K (c, CK.recv 14)) (recvCell c 14))
      ∗ (cellInv ER (a2aRd m) (K (fwd c 1, CK.bar)) (barCell (fwd c 1)))
      ∗ (cellInv ER (a2aRd m) (K (fwd c 2, CK.bar)) (barCell (fwd c 2)))
      ∗ (cellInv ER (a2aRd m) (K (fwd c 3, CK.bar)) (barCell (fwd c 3)))
      ∗ (cellInv ER (a2aRd m) (K (fwd c 4, CK.bar)) (barCell (fwd c 4)))
      ∗ (cellInv ER (a2aRd m) (K (fwd c 5, CK.bar)) (barCell (fwd c 5)))
      ∗ (cellInv ER (a2aRd m) (K (fwd c 6, CK.bar)) (barCell (fwd c 6)))
      ∗ (cellInv ER (a2aRd m) (K (fwd c 7, CK.bar)) (barCell (fwd c 7)))
      ∗ (cellInv ER (a2aRd m) (K (fwd c 8, CK.bar)) (barCell (fwd c 8)))
      ∗ (cellInv ER (a2aRd m) (K (fwd c 9, CK.bar)) (barCell (fwd c 9)))
      ∗ (cellInv ER (a2aRd m) (K (fwd c 10, CK.bar)) (barCell (fwd c 10)))
      ∗ (cellInv ER (a2aRd m) (K (fwd c 11, CK.bar)) (barCell (fwd c 11)))
      ∗ (cellInv ER (a2aRd m) (K (fwd c 12, CK.bar)) (barCell (fwd c 12)))
      ∗ (cellInv ER (a2aRd m) (K (fwd c 13, CK.bar)) (barCell (fwd c 13)))
      ∗ (cellInv ER (a2aRd m) (K (fwd c 14, CK.bar)) (barCell (fwd c 14)))
      ∗ (cellInv ER (a2aRd m) (K (fwd c 15, CK.bar)) (barCell (fwd c 15)))
      ∗ (cellInv ER (a2aRd m) (K (fwd c 1, CK.recv 0)) (recvCell (fwd c 1) 0))
      ∗ (cellInv ER (a2aRd m) (K (fwd c 2, CK.recv 1)) (recvCell (fwd c 2) 1))
      ∗ (cellInv ER (a2aRd m) (K (fwd c 3, CK.recv 2)) (recvCell (fwd c 3) 2))
      ∗ (cellInv ER (a2aRd m) (K (fwd c 4, CK.recv 3)) (recvCell (fwd c 4) 3))
      ∗ (cellInv ER (a2aRd m) (K (fwd c 5, CK.recv 4)) (recvCell (fwd c 5) 4))
      ∗ (cellInv ER (a2aRd m) (K (fwd c 6, CK.recv 5)) (recvCell (fwd c 6) 5))
      ∗ (cellInv ER (a2aRd m) (K (fwd c 7, CK.recv 6)) (recvCell (fwd c 7) 6))
      ∗ (cellInv ER (a2aRd m) (K (fwd c 8, CK.recv 7)) (recvCell (fwd c 8) 7))
      ∗ (cellInv ER (a2aRd m) (K (fwd c 9, CK.recv 8)) (recvCell (fwd c 9) 8))
      ∗ (cellInv ER (a2aRd m) (K (fwd c 10, CK.recv 9)) (recvCell (fwd c 10) 9))
      ∗ (cellInv ER (a2aRd m) (K (fwd c 11, CK.recv 10)) (recvCell (fwd c 11) 10))
      ∗ (cellInv ER (a2aRd m) (K (fwd c 12, CK.recv 11)) (recvCell (fwd c 12) 11))
      ∗ (cellInv ER (a2aRd m) (K (fwd c 13, CK.recv 12)) (recvCell (fwd c 13) 12))
      ∗ (cellInv ER (a2aRd m) (K (fwd c 14, CK.recv 13)) (recvCell (fwd c 14) 13))
      ∗ (cellInv ER (a2aRd m) (K (fwd c 15, CK.recv 14)) (recvCell (fwd c 15) 14))
      ∗ (atPos ER (barCell c) 0 ∅ 0)
      ∗ (atPos ER (sendCell c 0) 0 ∅ 0)
      ∗ (atPos ER (sendCell c 1) 0 ∅ 0)
      ∗ (atPos ER (sendCell c 2) 0 ∅ 0)
      ∗ (atPos ER (sendCell c 3) 0 ∅ 0)
      ∗ (atPos ER (sendCell c 4) 0 ∅ 0)
      ∗ (atPos ER (sendCell c 5) 0 ∅ 0)
      ∗ (atPos ER (sendCell c 6) 0 ∅ 0)
      ∗ (atPos ER (sendCell c 7) 0 ∅ 0)
      ∗ (atPos ER (sendCell c 8) 0 ∅ 0)
      ∗ (atPos ER (sendCell c 9) 0 ∅ 0)
      ∗ (atPos ER (sendCell c 10) 0 ∅ 0)
      ∗ (atPos ER (sendCell c 11) 0 ∅ 0)
      ∗ (atPos ER (sendCell c 12) 0 ∅ 0)
      ∗ (atPos ER (sendCell c 13) 0 ∅ 0)
      ∗ (atPos ER (sendCell c 14) 0 ∅ 0)
      ∗ (atPos ER (recvCell c 0) 0 ∅ 0)
      ∗ (atPos ER (recvCell c 1) 0 ∅ 0)
      ∗ (atPos ER (recvCell c 2) 0 ∅ 0)
      ∗ (atPos ER (recvCell c 3) 0 ∅ 0)
      ∗ (atPos ER (recvCell c 4) 0 ∅ 0)
      ∗ (atPos ER (recvCell c 5) 0 ∅ 0)
      ∗ (atPos ER (recvCell c 6) 0 ∅ 0)
      ∗ (atPos ER (recvCell c 7) 0 ∅ 0)
      ∗ (atPos ER (recvCell c 8) 0 ∅ 0)
      ∗ (atPos ER (recvCell c 9) 0 ∅ 0)
      ∗ (atPos ER (recvCell c 10) 0 ∅ 0)
      ∗ (atPos ER (recvCell c 11) 0 ∅ 0)
      ∗ (atPos ER (recvCell c 12) 0 ∅ 0)
      ∗ (atPos ER (recvCell c 13) 0 ∅ 0)
      ∗ (atPos ER (recvCell c 14) 0 ∅ 0)
      ∗ (reached ER (barCell (fwd c 1)) 0)
      ∗ (reached ER (barCell (fwd c 2)) 0)
      ∗ (reached ER (barCell (fwd c 3)) 0)
      ∗ (reached ER (barCell (fwd c 4)) 0)
      ∗ (reached ER (barCell (fwd c 5)) 0)
      ∗ (reached ER (barCell (fwd c 6)) 0)
      ∗ (reached ER (barCell (fwd c 7)) 0)
      ∗ (reached ER (barCell (fwd c 8)) 0)
      ∗ (reached ER (barCell (fwd c 9)) 0)
      ∗ (reached ER (barCell (fwd c 10)) 0)
      ∗ (reached ER (barCell (fwd c 11)) 0)
      ∗ (reached ER (barCell (fwd c 12)) 0)
      ∗ (reached ER (barCell (fwd c 13)) 0)
      ∗ (reached ER (barCell (fwd c 14)) 0)
      ∗ (reached ER (barCell (fwd c 15)) 0)
      ∗ (reached ER (recvCell (fwd c 1) 0) 0)
      ∗ (reached ER (recvCell (fwd c 2) 1) 0)
      ∗ (reached ER (recvCell (fwd c 3) 2) 0)
      ∗ (reached ER (recvCell (fwd c 4) 3) 0)
      ∗ (reached ER (recvCell (fwd c 5) 4) 0)
      ∗ (reached ER (recvCell (fwd c 6) 5) 0)
      ∗ (reached ER (recvCell (fwd c 7) 6) 0)
      ∗ (reached ER (recvCell (fwd c 8) 7) 0)
      ∗ (reached ER (recvCell (fwd c 9) 8) 0)
      ∗ (reached ER (recvCell (fwd c 10) 9) 0)
      ∗ (reached ER (recvCell (fwd c 11) 10) 0)
      ∗ (reached ER (recvCell (fwd c 12) 11) 0)
      ∗ (reached ER (recvCell (fwd c 13) 12) 0)
      ∗ (reached ER (recvCell (fwd c 14) 13) 0)
      ∗ (reached ER (recvCell (fwd c 15) 14) 0)
      ∗ (reached ER (sendCell c 0) 0)
      ∗ (reached ER (sendCell c 1) 0)
      ∗ (reached ER (sendCell c 2) 0)
      ∗ (reached ER (sendCell c 3) 0)
      ∗ (reached ER (sendCell c 4) 0)
      ∗ (reached ER (sendCell c 5) 0)
      ∗ (reached ER (sendCell c 6) 0)
      ∗ (reached ER (sendCell c 7) 0)
      ∗ (reached ER (sendCell c 8) 0)
      ∗ (reached ER (sendCell c 9) 0)
      ∗ (reached ER (sendCell c 10) 0)
      ∗ (reached ER (sendCell c 11) 0)
      ∗ (reached ER (sendCell c 12) 0)
      ∗ (reached ER (sendCell c 13) 0)
      ∗ (reached ER (sendCell c 14) 0)
      ∗ (reached ER (recvCell c (rev 14)) 0)
      ∗ (reached ER (recvCell c (rev 13)) 0)
      ∗ (reached ER (recvCell c (rev 12)) 0)
      ∗ (reached ER (recvCell c (rev 11)) 0)
      ∗ (reached ER (recvCell c (rev 10)) 0)
      ∗ (reached ER (recvCell c (rev 9)) 0)
      ∗ (reached ER (recvCell c (rev 8)) 0)
      ∗ (reached ER (recvCell c (rev 7)) 0)
      ∗ (reached ER (recvCell c (rev 6)) 0)
      ∗ (reached ER (recvCell c (rev 5)) 0)
      ∗ (reached ER (recvCell c (rev 4)) 0)
      ∗ (reached ER (recvCell c (rev 3)) 0)
      ∗ (reached ER (recvCell c (rev 2)) 0)
      ∗ (reached ER (recvCell c (rev 1)) 0)
      ∗ (reached ER (recvCell c (rev 0)) 0)
      ∗ (dutyTok ER (barCell (fwd c 1)) 0 (rev 0))
      ∗ (dutyTok ER (barCell (fwd c 2)) 0 (rev 1))
      ∗ (dutyTok ER (barCell (fwd c 3)) 0 (rev 2))
      ∗ (dutyTok ER (barCell (fwd c 4)) 0 (rev 3))
      ∗ (dutyTok ER (barCell (fwd c 5)) 0 (rev 4))
      ∗ (dutyTok ER (barCell (fwd c 6)) 0 (rev 5))
      ∗ (dutyTok ER (barCell (fwd c 7)) 0 (rev 6))
      ∗ (dutyTok ER (barCell (fwd c 8)) 0 (rev 7))
      ∗ (dutyTok ER (barCell (fwd c 9)) 0 (rev 8))
      ∗ (dutyTok ER (barCell (fwd c 10)) 0 (rev 9))
      ∗ (dutyTok ER (barCell (fwd c 11)) 0 (rev 10))
      ∗ (dutyTok ER (barCell (fwd c 12)) 0 (rev 11))
      ∗ (dutyTok ER (barCell (fwd c 13)) 0 (rev 12))
      ∗ (dutyTok ER (barCell (fwd c 14)) 0 (rev 13))
      ∗ (dutyTok ER (barCell (fwd c 15)) 0 (rev 14))
      ∗ (dutyTok ER (recvCell (fwd c 1) 0) 0 0)
      ∗ (dutyTok ER (recvCell (fwd c 2) 1) 0 0)
      ∗ (dutyTok ER (recvCell (fwd c 3) 2) 0 0)
      ∗ (dutyTok ER (recvCell (fwd c 4) 3) 0 0)
      ∗ (dutyTok ER (recvCell (fwd c 5) 4) 0 0)
      ∗ (dutyTok ER (recvCell (fwd c 6) 5) 0 0)
      ∗ (dutyTok ER (recvCell (fwd c 7) 6) 0 0)
      ∗ (dutyTok ER (recvCell (fwd c 8) 7) 0 0)
      ∗ (dutyTok ER (recvCell (fwd c 9) 8) 0 0)
      ∗ (dutyTok ER (recvCell (fwd c 10) 9) 0 0)
      ∗ (dutyTok ER (recvCell (fwd c 11) 10) 0 0)
      ∗ (dutyTok ER (recvCell (fwd c 12) 11) 0 0)
      ∗ (dutyTok ER (recvCell (fwd c 13) 12) 0 0)
      ∗ (dutyTok ER (recvCell (fwd c 14) 13) 0 0)
      ∗ (dutyTok ER (recvCell (fwd c 15) 14) 0 0)
      ∗ (dutyTok ER (sendCell c 0) 0 0)
      ∗ (dutyTok ER (sendCell c 1) 0 0)
      ∗ (dutyTok ER (sendCell c 2) 0 0)
      ∗ (dutyTok ER (sendCell c 3) 0 0)
      ∗ (dutyTok ER (sendCell c 4) 0 0)
      ∗ (dutyTok ER (sendCell c 5) 0 0)
      ∗ (dutyTok ER (sendCell c 6) 0 0)
      ∗ (dutyTok ER (sendCell c 7) 0 0)
      ∗ (dutyTok ER (sendCell c 8) 0 0)
      ∗ (dutyTok ER (sendCell c 9) 0 0)
      ∗ (dutyTok ER (sendCell c 10) 0 0)
      ∗ (dutyTok ER (sendCell c 11) 0 0)
      ∗ (dutyTok ER (sendCell c 12) 0 0)
      ∗ (dutyTok ER (sendCell c 13) 0 0)
      ∗ (dutyTok ER (sendCell c 14) 0 0)
      ∗ (cred (tallyAt (barCell c) () 15))
      ∗ (cred (tallyAt (recvCell c 0) () N))
      ∗ (cred (tallyAt (recvCell c 1) () N))
      ∗ (cred (tallyAt (recvCell c 2) () N))
      ∗ (cred (tallyAt (recvCell c 3) () N))
      ∗ (cred (tallyAt (recvCell c 4) () N))
      ∗ (cred (tallyAt (recvCell c 5) () N))
      ∗ (cred (tallyAt (recvCell c 6) () N))
      ∗ (cred (tallyAt (recvCell c 7) () N))
      ∗ (cred (tallyAt (recvCell c 8) () N))
      ∗ (cred (tallyAt (recvCell c 9) () N))
      ∗ (cred (tallyAt (recvCell c 10) () N))
      ∗ (cred (tallyAt (recvCell c 11) () N))
      ∗ (cred (tallyAt (recvCell c 12) () N))
      ∗ (cred (tallyAt (recvCell c 13) () N))
      ∗ (cred (tallyAt (recvCell c 14) () N))
      ∗ (levAts L lv)
      ∗ (owes (c : Thread nD τ) (tallyAt (recvCell (fwd c 15) 14) () N + tallyAt (recvCell (fwd c 14) 13) () N + tallyAt (recvCell (fwd c 13) 12) () N + tallyAt (recvCell (fwd c 12) 11) () N + tallyAt (recvCell (fwd c 11) 10) () N + tallyAt (recvCell (fwd c 10) 9) () N + tallyAt (recvCell (fwd c 9) 8) () N + tallyAt (recvCell (fwd c 8) 7) () N + tallyAt (recvCell (fwd c 7) 6) () N + tallyAt (recvCell (fwd c 6) 5) () N + tallyAt (recvCell (fwd c 5) 4) () N + tallyAt (recvCell (fwd c 4) 3) () N + tallyAt (recvCell (fwd c 3) 2) () N + tallyAt (recvCell (fwd c 2) 1) () N + tallyAt (recvCell (fwd c 1) 0) () N + tallyAt (barCell (fwd c 15)) () 1 + tallyAt (barCell (fwd c 14)) () 1 + tallyAt (barCell (fwd c 13)) () 1 + tallyAt (barCell (fwd c 12)) () 1 + tallyAt (barCell (fwd c 11)) () 1 + tallyAt (barCell (fwd c 10)) () 1 + tallyAt (barCell (fwd c 9)) () 1 + tallyAt (barCell (fwd c 8)) () 1 + tallyAt (barCell (fwd c 7)) () 1 + tallyAt (barCell (fwd c 6)) () 1 + tallyAt (barCell (fwd c 5)) () 1 + tallyAt (barCell (fwd c 4)) () 1 + tallyAt (barCell (fwd c 3)) () 1 + tallyAt (barCell (fwd c 2)) () 1 + tallyAt (barCell (fwd c 1)) () 1) W)
      ∗ (slot0Pts c f0)
      ∗ (semVal ((c : Thread nD τ), idleSem 0) 0)
      ∗ (semVal ((c : Thread nD τ), idleSem 1) 0))

/-- The spread-out form, family by family. -/
theorem bodyCtx_groups (c : Dev nD) (K : Dev nD × CK → ℕ) (W : Waits sig Unit) (g1 : Buf (Elt F) ((oM : Memref sig .tc .vmem S256x8192 .f32).view.loc (c : Thread nD τ))) (fw : Buf (Elt F) ((wbM : Memref sig .tc .vmem S3x256x8192 .f32).view.loc (c : Thread nD τ))) (fs0 : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ))) (fs1 : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ))) (fs2 : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ))) (fs3 : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ))) (fs4 : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ))) (fs5 : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ))) (fs6 : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ))) (fs7 : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ))) (fs8 : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ))) (fs9 : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ))) (fs10 : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ))) (fs11 : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ))) (fs12 : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ))) (fs13 : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ))) (fs14 : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ))) (f0 : Buf (Elt F) ((c : Thread nD τ).loc cc0_scratch0)) :
    bodyCtx m c K W g1 fw fs0 fs1 fs2 fs3 fs4 fs5 fs6 fs7 fs8 fs9 fs10 fs11 fs12 fs13 fs14 f0
      = chain [chain (gX m c),
          chain (gW m c),
          chain (gOut c g1),
          chain (gSl c fs0 fs1 fs2 fs3 fs4 fs5 fs6 fs7 fs8 fs9 fs10 fs11 fs12 fs13 fs14),
          chain (gWb c fw),
          chain (gS c),
          chain (gIbar m c K),
          chain (gIs m c K),
          chain (gIr m c K),
          chain (gIb m c K),
          chain (gIv m c K),
          chain (gAtB c),
          chain (gAtS c),
          chain (gAtV c),
          chain (gRB c),
          chain (gRV c),
          chain (gRS c),
          chain (gRO c),
          chain (gTB c),
          chain (gTV c),
          chain (gTS c),
          chain (gCB c),
          chain (gCV c),
          chain (gLev),
          chain (gO c W),
          chain (gS0 c f0),
          chain (gI c)] :=
  (show bodyCtx m c K W g1 fw fs0 fs1 fs2 fs3 fs4 fs5 fs6 fs7 fs8 fs9 fs10 fs11 fs12 fs13 fs14 f0 = chain (List.flatten [gX m c, gW m c, gOut c g1, gSl c fs0 fs1 fs2 fs3 fs4 fs5 fs6 fs7 fs8 fs9 fs10 fs11 fs12 fs13 fs14, gWb c fw, gS c, gIbar m c K, gIs m c K, gIr m c K, gIb m c K, gIv m c K, gAtB c, gAtS c, gAtV c, gRB c, gRV c, gRS c, gRO c, gTB c, gTV c, gTS c, gCB c, gCV c, gLev, gO c W, gS0 c f0, gI c]) from rfl).trans
    (chain_flatten [gX m c, gW m c, gOut c g1, gSl c fs0 fs1 fs2 fs3 fs4 fs5 fs6 fs7 fs8 fs9 fs10 fs11 fs12 fs13 fs14, gWb c fw, gS c, gIbar m c K, gIs m c K, gIr m c K, gIb m c K, gIv m c K, gAtB c, gAtS c, gAtV c, gRB c, gRV c, gRS c, gRO c, gTB c, gTV c, gTS c, gCB c, gCV c, gLev, gO c W, gS0 c f0, gI c]).symm

/-! ## Each family as it is handed over -/

theorem gX_eq (c : Dev nD) : chain (gX m c) = (((c : Thread nD τ).loc cc0_stg0_0) ↦{fullShare} xstg m c : sProp 𝕄) := by
  have hs : chain (gXs m c) = (bigSep Finset.univ (fun r : Fin 15 => slabPts m c r) : sProp 𝕄) :=
    (bigSep_chain ([0, 1, 2, 3, 4, 5, 6, 7, 8, 9, 10, 11, 12, 13, 14] : List (Fin 15)) (by decide) (by decide) (fun r : Fin 15 => slabPts m c r)).symm
  have hr : chain (gXr m c) = (bigSep Finset.univ (fun r : Fin 15 => xRest m c r) : sProp 𝕄) :=
    (bigSep_chain ([0, 1, 2, 3, 4, 5, 6, 7, 8, 9, 10, 11, 12, 13, 14] : List (Fin 15)) (by decide) (by decide) (fun r : Fin 15 => xRest m c r)).symm
  have ht : ∀ r : Fin 15, BI.sep (slabPts m c r) (xRest m c r)
      = ((xM : Memref sig .tc .vmem S4096x256 .f32).view.loc (c : Thread nD τ) ↦[(xM : Memref sig .tc .vmem S4096x256 .f32).view.set]{xShare r} xstg m c : sProp 𝕄) :=
    fun r => (BI.equiv_iff.mp ⟨(tok_carve m c r).1, (tok_carve m c r).2⟩).symm
  have hw : (((xM : Memref sig .tc .vmem S4096x256 .f32).view.loc (c : Thread nD τ) ↦[(xM : Memref sig .tc .vmem S4096x256 .f32).view.set]{fullShare} xstg m c) : sProp 𝕄)
      = BI.sep ((xM : Memref sig .tc .vmem S4096x256 .f32).view.loc (c : Thread nD τ) ↦[(xM : Memref sig .tc .vmem S4096x256 .f32).view.set]{Transfers.shareDrop fullShare 15} xstg m c)
        (bigSep Finset.univ fun r : Fin 15 => ((xM : Memref sig .tc .vmem S4096x256 .f32).view.loc (c : Thread nD τ) ↦[(xM : Memref sig .tc .vmem S4096x256 .f32).view.set]{xShare r} xstg m c)) :=
    BI.equiv_iff.mp ⟨(Transfers.pointsTo_toks fullShare 15).1, (Transfers.pointsTo_toks fullShare 15).2⟩
  unfold gX
  rw [chain_cons, chain_append, hs, hr, ← bigSep_sep, bigSep_congr (fun r _ => ht r), ← hw,
    show (xM : Memref sig .tc .vmem S4096x256 .f32).view.set = Finset.univ from View.set_whole _]

theorem gW_eq (c : Dev nD) : chain (gW m c) = wPts m c := by
  have h := toks_chain (F := F) (ℓ := (wM : Memref sig .tc .hbm S4096x8192 .f32).view.loc (c : Thread nD τ))
    (S := (wM : Memref sig .tc .hbm S4096x8192 .f32).view.set) (f := m ((c : Thread nD τ).loc main_arg1)) fullShare 3 ([0, 1, 2] : List (Fin 3)) (by decide) (by decide)
  exact h.symm.trans (by unfold wPts; rw [show (wM : Memref sig .tc .hbm S4096x8192 .f32).view.set = Finset.univ from View.set_whole _])

theorem gOut_eq (c : Dev nD) (g1 : Buf (Elt F) ((oM : Memref sig .tc .vmem S256x8192 .f32).view.loc (c : Thread nD τ))) :
    chain (gOut c g1) = (((c : Thread nD τ).loc cc0_stg1_0) ↦{fullShare} g1 : sProp 𝕄) := by
  show ((oM : Memref sig .tc .vmem S256x8192 .f32).view.loc (c : Thread nD τ) ↦[(oM : Memref sig .tc .vmem S256x8192 .f32).view.set]{fullShare} g1 : sProp 𝕄) = _
  rw [show (oM : Memref sig .tc .vmem S256x8192 .f32).view.set = Finset.univ from View.set_whole _]

theorem gSl_eq (c : Dev nD) (f : Buf (Elt F) ((c : Thread nD τ).loc cc0_scratch0)) :
    chain (gSl c f f f f f f f f f f f f f f f) = (bigSep Finset.univ fun r : Fin 15 => slotPts c r f : sProp 𝕄) :=
  (bigSep_chain ([14, 13, 12, 11, 10, 9, 8, 7, 6, 5, 4, 3, 2, 1, 0] : List (Fin 15)) (by decide) (by decide) (fun r : Fin 15 => (slotPts c r f : sProp 𝕄))).symm

theorem gWb_eq (c : Dev nD) (fw : Buf (Elt F) ((c : Thread nD τ).loc cc0_scratch1)) :
    chain (gWb c fw) = (((c : Thread nD τ).loc cc0_scratch1) ↦{fullShare} fw : sProp 𝕄) :=
  ((wslots_cut c fw).trans (bigSep_chain ([0, 1, 2] : List (Fin 3)) (by decide) (by decide) (fun i : Fin 3 => ((wslot i).view.loc (c : Thread nD τ) ↦[(wslot i).view.set]{fullShare} fw : sProp 𝕄)))).symm

theorem idle_eq (c : Dev nD) :
    (idleSems c : sProp 𝕄) = iprop(semVal ((c : Thread nD τ), idleSem 0) 0 ∗ semVal ((c : Thread nD τ), idleSem 1) 0 ∗ chain (gS c)) :=
  bigSep_chain ([0, 1, 2, 3, 4] : List (Fin 5)) (by decide) (by decide) (fun i : Fin 5 => (semVal ((c : Thread nD τ), idleSem i) 0 : sProp 𝕄))

theorem gIs_eq (c : Dev nD) (K : Dev nD × CK → ℕ) : chain (gIs m c K) = (bigSep Finset.univ (fun r : Fin 15 => cellInv ER (a2aRd m) (K (c, CK.send r)) (sendCell c r)) : sProp 𝕄) :=
  (bigSep_chain ([0, 1, 2, 3, 4, 5, 6, 7, 8, 9, 10, 11, 12, 13, 14] : List (Fin 15)) (by decide) (by decide) (fun r : Fin 15 => cellInv ER (a2aRd m) (K (c, CK.send r)) (sendCell c r))).symm

theorem gIr_eq (c : Dev nD) (K : Dev nD × CK → ℕ) : chain (gIr m c K) = (bigSep Finset.univ (fun r : Fin 15 => cellInv ER (a2aRd m) (K (c, CK.recv r)) (recvCell c r)) : sProp 𝕄) :=
  (bigSep_chain ([0, 1, 2, 3, 4, 5, 6, 7, 8, 9, 10, 11, 12, 13, 14] : List (Fin 15)) (by decide) (by decide) (fun r : Fin 15 => cellInv ER (a2aRd m) (K (c, CK.recv r)) (recvCell c r))).symm

theorem gIb_eq (c : Dev nD) (K : Dev nD × CK → ℕ) : chain (gIb m c K) = (bigSep Finset.univ (fun j : Fin 15 => cellInv ER (a2aRd m) (K (fwd c (off j), CK.bar)) (barCell (fwd c (off j)))) : sProp 𝕄) :=
  (bigSep_chain ([0, 1, 2, 3, 4, 5, 6, 7, 8, 9, 10, 11, 12, 13, 14] : List (Fin 15)) (by decide) (by decide) (fun j : Fin 15 => cellInv ER (a2aRd m) (K (fwd c (off j), CK.bar)) (barCell (fwd c (off j))))).symm

theorem gIv_eq (c : Dev nD) (K : Dev nD × CK → ℕ) : chain (gIv m c K) = (bigSep Finset.univ (fun r : Fin 15 => cellInv ER (a2aRd m) (K (fwd c (off r), CK.recv r)) (recvCell (fwd c (off r)) r)) : sProp 𝕄) :=
  (bigSep_chain ([0, 1, 2, 3, 4, 5, 6, 7, 8, 9, 10, 11, 12, 13, 14] : List (Fin 15)) (by decide) (by decide) (fun r : Fin 15 => cellInv ER (a2aRd m) (K (fwd c (off r), CK.recv r)) (recvCell (fwd c (off r)) r))).symm

theorem gAtS_eq (c : Dev nD) : chain (gAtS c) = (bigSep Finset.univ (fun r : Fin 15 => atPos ER (sendCell c r) 0 ∅ 0) : sProp 𝕄) :=
  (bigSep_chain ([0, 1, 2, 3, 4, 5, 6, 7, 8, 9, 10, 11, 12, 13, 14] : List (Fin 15)) (by decide) (by decide) (fun r : Fin 15 => atPos ER (sendCell c r) 0 ∅ 0)).symm

theorem gAtV_eq (c : Dev nD) : chain (gAtV c) = (bigSep Finset.univ (fun r : Fin 15 => atPos ER (recvCell c r) 0 ∅ 0) : sProp 𝕄) :=
  (bigSep_chain ([0, 1, 2, 3, 4, 5, 6, 7, 8, 9, 10, 11, 12, 13, 14] : List (Fin 15)) (by decide) (by decide) (fun r : Fin 15 => atPos ER (recvCell c r) 0 ∅ 0)).symm

theorem gRB_eq (c : Dev nD) : chain (gRB c) = (bigSep Finset.univ (fun j : Fin 15 => reached ER (barCell (fwd c (off j))) 0) : sProp 𝕄) :=
  (bigSep_chain ([0, 1, 2, 3, 4, 5, 6, 7, 8, 9, 10, 11, 12, 13, 14] : List (Fin 15)) (by decide) (by decide) (fun j : Fin 15 => reached ER (barCell (fwd c (off j))) 0)).symm

theorem gRV_eq (c : Dev nD) : chain (gRV c) = (bigSep Finset.univ (fun r : Fin 15 => reached ER (recvCell (fwd c (off r)) r) 0) : sProp 𝕄) :=
  (bigSep_chain ([0, 1, 2, 3, 4, 5, 6, 7, 8, 9, 10, 11, 12, 13, 14] : List (Fin 15)) (by decide) (by decide) (fun r : Fin 15 => reached ER (recvCell (fwd c (off r)) r) 0)).symm

theorem gRS_eq (c : Dev nD) : chain (gRS c) = (bigSep Finset.univ (fun r : Fin 15 => reached ER (sendCell c r) 0) : sProp 𝕄) :=
  (bigSep_chain ([0, 1, 2, 3, 4, 5, 6, 7, 8, 9, 10, 11, 12, 13, 14] : List (Fin 15)) (by decide) (by decide) (fun r : Fin 15 => reached ER (sendCell c r) 0)).symm

theorem gRO_eq (c : Dev nD) : chain (gRO c) = (bigSep Finset.univ (fun r : Fin 15 => reached ER (recvCell c r) 0) : sProp 𝕄) :=
  (bigSep_chain ([rev 14, rev 13, rev 12, rev 11, rev 10, rev 9, rev 8, rev 7, rev 6, rev 5, rev 4, rev 3, rev 2, rev 1, rev 0] : List (Fin 15)) (by decide) (by decide) (fun r : Fin 15 => reached ER (recvCell c r) 0)).symm

theorem gTB_eq (c : Dev nD) : chain (gTB c) = (bigSep Finset.univ (fun j : Fin 15 => dutyTok ER (barCell (fwd c (off j))) 0 (rev j)) : sProp 𝕄) :=
  (bigSep_chain ([0, 1, 2, 3, 4, 5, 6, 7, 8, 9, 10, 11, 12, 13, 14] : List (Fin 15)) (by decide) (by decide) (fun j : Fin 15 => dutyTok ER (barCell (fwd c (off j))) 0 (rev j))).symm

theorem gTV_eq (c : Dev nD) : chain (gTV c) = (bigSep Finset.univ (fun r : Fin 15 => dutyTok ER (recvCell (fwd c (off r)) r) 0 0) : sProp 𝕄) :=
  (bigSep_chain ([0, 1, 2, 3, 4, 5, 6, 7, 8, 9, 10, 11, 12, 13, 14] : List (Fin 15)) (by decide) (by decide) (fun r : Fin 15 => dutyTok ER (recvCell (fwd c (off r)) r) 0 0)).symm

theorem gTS_eq (c : Dev nD) : chain (gTS c) = (bigSep Finset.univ (fun r : Fin 15 => dutyTok ER (sendCell c r) 0 0) : sProp 𝕄) :=
  (bigSep_chain ([0, 1, 2, 3, 4, 5, 6, 7, 8, 9, 10, 11, 12, 13, 14] : List (Fin 15)) (by decide) (by decide) (fun r : Fin 15 => dutyTok ER (sendCell c r) 0 0)).symm

theorem gCV_eq (c : Dev nD) : chain (gCV c) = (bigSep Finset.univ (fun r : Fin 15 => cred (tallyAt (recvCell c r) () N)) : sProp 𝕄) :=
  (bigSep_chain ([0, 1, 2, 3, 4, 5, 6, 7, 8, 9, 10, 11, 12, 13, 14] : List (Fin 15)) (by decide) (by decide) (fun r : Fin 15 => cred (tallyAt (recvCell c r) () N))).symm

/-- The spread-out form with every slot at the scratch's own contents is the short conjunction of the pieces as handed over. -/
theorem bodyCtx_lib (c : Dev nD) (K : Dev nD × CK → ℕ) (W : Waits sig Unit) (g1 : Buf (Elt F) ((c : Thread nD τ).loc cc0_stg1_0))
    (fw : Buf (Elt F) ((c : Thread nD τ).loc cc0_scratch1)) (f : Buf (Elt F) ((c : Thread nD τ).loc cc0_scratch0)) :
    bodyCtx m c K W g1 fw f f f f f f f f f f f f f f f f
      = iprop((((c : Thread nD τ).loc cc0_stg0_0) ↦{fullShare} xstg m c)
      ∗ wPts m c
      ∗ (((c : Thread nD τ).loc cc0_stg1_0) ↦{fullShare} g1)
      ∗ (bigSep Finset.univ fun r : Fin 15 => slotPts c r f)
      ∗ (((c : Thread nD τ).loc cc0_scratch1) ↦{fullShare} fw)
      ∗ chain (gS c)
      ∗ cellInv ER (a2aRd m) (K (c, CK.bar)) (barCell c)
      ∗ (bigSep Finset.univ fun r : Fin 15 => cellInv ER (a2aRd m) (K (c, CK.send r)) (sendCell c r))
      ∗ (bigSep Finset.univ fun r : Fin 15 => cellInv ER (a2aRd m) (K (c, CK.recv r)) (recvCell c r))
      ∗ (bigSep Finset.univ fun j : Fin 15 => cellInv ER (a2aRd m) (K (fwd c (off j), CK.bar)) (barCell (fwd c (off j))))
      ∗ (bigSep Finset.univ fun r : Fin 15 => cellInv ER (a2aRd m) (K (fwd c (off r), CK.recv r)) (recvCell (fwd c (off r)) r))
      ∗ atPos ER (barCell c) 0 ∅ 0
      ∗ (bigSep Finset.univ fun r : Fin 15 => atPos ER (sendCell c r) 0 ∅ 0)
      ∗ (bigSep Finset.univ fun r : Fin 15 => atPos ER (recvCell c r) 0 ∅ 0)
      ∗ (bigSep Finset.univ fun j : Fin 15 => reached ER (barCell (fwd c (off j))) 0)
      ∗ (bigSep Finset.univ fun r : Fin 15 => reached ER (recvCell (fwd c (off r)) r) 0)
      ∗ (bigSep Finset.univ fun r : Fin 15 => reached ER (sendCell c r) 0)
      ∗ (bigSep Finset.univ fun r : Fin 15 => reached ER (recvCell c r) 0)
      ∗ (bigSep Finset.univ fun j : Fin 15 => dutyTok ER (barCell (fwd c (off j))) 0 (rev j))
      ∗ (bigSep Finset.univ fun r : Fin 15 => dutyTok ER (recvCell (fwd c (off r)) r) 0 0)
      ∗ (bigSep Finset.univ fun r : Fin 15 => dutyTok ER (sendCell c r) 0 0)
      ∗ cred (tallyAt (barCell c) () 15)
      ∗ (bigSep Finset.univ fun r : Fin 15 => cred (tallyAt (recvCell c r) () N))
      ∗ levAts L lv
      ∗ owes (c : Thread nD τ) (O₀ c) W
      ∗ slot0Pts c f
      ∗ semVal ((c : Thread nD τ), idleSem 0) 0
      ∗ semVal ((c : Thread nD τ), idleSem 1) 0) := by
  rw [bodyCtx_groups, gX_eq, gW_eq, gOut_eq, gSl_eq, gWb_eq, gIs_eq, gIr_eq, gIb_eq, gIv_eq, gAtS_eq, gAtV_eq, gRB_eq, gRV_eq,
    gRS_eq, gRO_eq, gTB_eq, gTV_eq, gTS_eq, gCV_eq]
  rfl

/-! ## The entry -/

/-- What the call hands the body at its one grid point. -/
def bodyPre' (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- From what the call hands over to the spread-out form: the names of the ghost state, what is waited on, the result
    buffer's contents and the two scratch buffers' contents are whatever they happen to be; every slot of the
    landing scratch, slot 0 included, is held at the scratch's own contents. -/
theorem body_entry (c : Dev nD) :
    bodyPre' m ρ c ⊢ iprop(∃ (K : Dev nD × CK → ℕ) (W : Waits sig Unit) (g1 : Buf (Elt F) ((c : Thread nD τ).loc cc0_stg1_0))
        (fw : Buf (Elt F) ((c : Thread nD τ).loc cc0_scratch1)) (f : Buf (Elt F) ((c : Thread nD τ).loc cc0_scratch0)),
      bodyCtx m c K W g1 fw f f f f f f f f f f f f f f f f) := by
  unfold bodyPre' stg Φ₀ start ghost invs positions marks payToks Dat.owesAt Pipeline.owesWithin
  rw [idle_eq]
  iintro ⟨⟨⟨⟨%K, ⟨HIbar, HIs, HIr, HIb, HIv⟩, ⟨HatB, HatS, HatV⟩, ⟨HrB, HrV, HrS, HrO⟩, ⟨HtB, HtV, HtS⟩⟩, HcB, HcV, Hlev, ⟨Hi0, Hi1, HS⟩⟩,
    Hw, ⟨%f, Hscr⟩, ⟨%fw, Hwb⟩⟩, ⟨%W, %hW, HO⟩, ⟨%d0, %g0, %hg0, Hx⟩, ⟨%d1, %g1, %hg1, Hout⟩⟩
  have hx : g0 = xstg m c := by rw [hg0]; unfold Dat.before; rw [if_pos (fetch0_0 t0_0)]; rfl
  subst hx
  ihave Hscr' := (Entails.of_eq (slots_cut c f)) $$ Hscr
  icases Hscr' with ⟨Hs0, Hsl⟩
  iexists K; iexists W; iexists g1; iexists fw; iexists f
  iapply (Entails.of_eq (bodyCtx_lib m c K W g1 fw f).symm)
  · isplitl [Hx]; · iexact Hx
    isplitl [Hw]; · iexact Hw
    isplitl [Hout]; · iexact Hout
    isplitl [Hsl]; · iexact Hsl
    isplitl [Hwb]; · iexact Hwb
    isplitl [HS]; · iexact HS
    isplitl [HIbar]; · iexact HIbar
    isplitl [HIs]; · iexact HIs
    isplitl [HIr]; · iexact HIr
    isplitl [HIb]; · iexact HIb
    isplitl [HIv]; · iexact HIv
    isplitl [HatB]; · iexact HatB
    isplitl [HatS]; · iexact HatS
    isplitl [HatV]; · iexact HatV
    isplitl [HrB]; · iexact HrB
    isplitl [HrV]; · iexact HrV
    isplitl [HrS]; · iexact HrS
    isplitl [HrO]; · iexact HrO
    isplitl [HtB]; · iexact HtB
    isplitl [HtV]; · iexact HtV
    isplitl [HtS]; · iexact HtS
    isplitl [HcB]; · iexact HcB
    isplitl [HcV]; · iexact HcV
    isplitl [Hlev]; · iexact Hlev
    isplitl [HO]; · iexact HO
    isplitl [Hs0]; · iexact Hs0
    isplitl [Hi0]; · iexact Hi0
    iexact Hi1

/-! ## The body obligation from the body's triple -/

/-- If the body, started from the spread-out context, runs to the call's exit assertion, then the device meets the
    pipeline's obligation at its one grid point. -/
theorem body_obligation_of
    (hs : ∀ (c : Dev nD) (K : Dev nD × CK → ℕ) (W : Waits sig Unit) (g1 : Buf (Elt F) ((oM : Memref sig .tc .vmem S256x8192 .f32).view.loc (c : Thread nD τ))) (fw : Buf (Elt F) ((wbM : Memref sig .tc .vmem S3x256x8192 .f32).view.loc (c : Thread nD τ))) (fs0 : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ))) (fs1 : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ))) (fs2 : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ))) (fs3 : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ))) (fs4 : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ))) (fs5 : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ))) (fs6 : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ))) (fs7 : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ))) (fs8 : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ))) (fs9 : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ))) (fs10 : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ))) (fs11 : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ))) (fs12 : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ))) (fs13 : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ))) (fs14 : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ))) (f0 : Buf (Elt F) ((c : Thread nD τ).loc cc0_scratch0)),
      bodyCtx m c K W g1 fw fs0 fs1 fs2 fs3 fs4 fs5 fs6 fs7 fs8 fs9 fs10 fs11 fs12 fs13 fs14 f0
        ⊢ wp frame (wpE (defs₀ (F := F)) Variants.none (c : Thread nD τ) none) Set.univ
            (cc0_body (xM : Memref sig .tc .vmem S4096x256 .f32) (Memref.isWhole_whole _) (wM : Memref sig .tc .hbm S4096x8192 .f32) (Memref.isWhole_whole _)
              (oM : Memref sig .tc .vmem S256x8192 .f32) (Memref.isWhole_whole _) (rM : Memref sig .tc .vmem S16x256x256 .f32) (Memref.isWhole_whole _)
              (wbM : Memref sig .tc .vmem S3x256x8192 .f32) (Memref.isWhole_whole _) cc0_scratch2 cc0_scratch3 cc0_scratch4)
            (fun _ => iprop(Φ₁ m c ∗ (dats m ρ 0 c).owesAt () t0_0.succ ∗ stg c cc0_stg0_0 (xstg m c) ∗ stg c cc0_stg1_0 (outAt m c)))) :
    ∀ c : Dev nD, BodyObligation (dats (F := F) m ρ 0 c) (defs₀ (F := F)) Variants.none () Set.univ := fun c t => by
  rw [fin_N0 t]
  rw [bigSep_W0, bigSep_W0]
  simp only [owns_whole_eq]
  show bodyPre' m ρ c ⊢ wp frame (wpE (defs₀ (F := F)) Variants.none (c : Thread nD τ) none) Set.univ
      (cc0_body (xM : Memref sig .tc .vmem S4096x256 .f32) (Memref.isWhole_whole _) (wM : Memref sig .tc .hbm S4096x8192 .f32) (Memref.isWhole_whole _)
        (oM : Memref sig .tc .vmem S256x8192 .f32) (Memref.isWhole_whole _) (rM : Memref sig .tc .vmem S16x256x256 .f32) (Memref.isWhole_whole _)
        (wbM : Memref sig .tc .vmem S3x256x8192 .f32) (Memref.isWhole_whole _) cc0_scratch2 cc0_scratch3 cc0_scratch4)
      (fun _ => iprop(Φ₁ m c ∗ (dats m ρ 0 c).owesAt () t0_0.succ ∗ stg c cc0_stg0_0 (xstg m c) ∗ stg c cc0_stg1_0 (outAt m c)))
  refine (body_entry m ρ c).trans ?_
  iintro ⟨%K, %W, %g1, %fw, %f, H⟩
  iapply (hs c K W g1 fw f f f f f f f f f f f f f f f f)
  iexact H

end Cert.KernelIdeal.A2A

end
-- ==== Proof.Bits.Mesh.lean ====
/-
  The mesh arithmetic of the sixteen-device all-to-all.

  Device `c` sends, for every offset `e = 1 … 15`, one 256-row slab of its column block to the device
  `e` places after it on the ring (`fwd c e`, the residue of `c + e` modulo 16), and receives into its
  slot `e` from the device `e` places before it (`bwd c e`, the residue of `c - e`).  The kernel
  computes these residues by a signed remainder followed by a sign correction; here each printed
  chain is evaluated once over the mesh and stated as the residue it is.
-/
import proofs.«900405_g7700000000000406_dist_a2a_gemm_m4096_k4096_n8192_f32_gelu_v7x_i16_1_alg».proof.Proof.Gen.Kernel

set_option Elab.async false

namespace Cert.Kernel.Mesh

open Cert.Kernel Cert.Kernel.Gen Idealize.ShloMosaic Idealize.SL.Sem

/-- The device `e` places after `c` on the ring of sixteen. -/
def fwd (c : Dev nD) (e : Fin 16) : Dev nD := ⟨(c.val + e.val) % 16, Nat.mod_lt _ (by decide)⟩
/-- The device `e` places before `c`. -/
def bwd (c : Dev nD) (e : Fin 16) : Dev nD := ⟨(c.val + 16 - e.val) % 16, Nat.mod_lt _ (by decide)⟩

theorem bwd_fwd (c : Dev nD) (e : Fin 16) : bwd (fwd c e) e = c := by revert c e; decide
theorem fwd_bwd (c : Dev nD) (e : Fin 16) : fwd (bwd c e) e = c := by revert c e; decide
theorem fwd_zero (c : Dev nD) : fwd c 0 = c := by revert c; decide
theorem bwd_zero (c : Dev nD) : bwd c 0 = c := by revert c; decide
/-- Going `e` forward is going `16 - e` back. -/
theorem fwd_eq_bwd_neg (c : Dev nD) (e : Fin 16) : fwd c e = bwd c (-e) := by revert c e; decide
theorem fwd_ne_self (c : Dev nD) (e : Fin 16) (he : e ≠ 0) : fwd c e ≠ c := by revert c e; decide
theorem fwd_inj_off (c : Dev nD) : Function.Injective (fwd c) := by revert c; decide

/-- Moving every device `e` places forward permutes the mesh. -/
def rot (e : Fin 16) : Dev nD ≃ Dev nD := ⟨fun c => fwd c e, fun c => bwd c e, fun c => bwd_fwd c e, fun c => fwd_bwd c e⟩

theorem k0_dev1_eq : ∀ d0 : Dev nD, k0_dev1 d0 = (d0.val + 1) % 16 := by decide +kernel
theorem k0_dev2_eq : ∀ d0 : Dev nD, k0_dev2 d0 = (d0.val + 2) % 16 := by decide +kernel
theorem k0_dev3_eq : ∀ d0 : Dev nD, k0_dev3 d0 = (d0.val + 3) % 16 := by decide +kernel
theorem k0_dev4_eq : ∀ d0 : Dev nD, k0_dev4 d0 = (d0.val + 4) % 16 := by decide +kernel
theorem k0_dev5_eq : ∀ d0 : Dev nD, k0_dev5 d0 = (d0.val + 5) % 16 := by decide +kernel
theorem k0_dev6_eq : ∀ d0 : Dev nD, k0_dev6 d0 = (d0.val + 6) % 16 := by decide +kernel
theorem k0_dev7_eq : ∀ d0 : Dev nD, k0_dev7 d0 = (d0.val + 7) % 16 := by decide +kernel
theorem k0_dev8_eq : ∀ d0 : Dev nD, k0_dev8 d0 = (d0.val + 8) % 16 := by decide +kernel
theorem k0_dev9_eq : ∀ d0 : Dev nD, k0_dev9 d0 = (d0.val + 9) % 16 := by decide +kernel
theorem k0_dev10_eq : ∀ d0 : Dev nD, k0_dev10 d0 = (d0.val + 10) % 16 := by decide +kernel
theorem k0_dev11_eq : ∀ d0 : Dev nD, k0_dev11 d0 = (d0.val + 11) % 16 := by decide +kernel
theorem k0_dev12_eq : ∀ d0 : Dev nD, k0_dev12 d0 = (d0.val + 12) % 16 := by decide +kernel
theorem k0_dev13_eq : ∀ d0 : Dev nD, k0_dev13 d0 = (d0.val + 13) % 16 := by decide +kernel
theorem k0_dev14_eq : ∀ d0 : Dev nD, k0_dev14 d0 = (d0.val + 14) % 16 := by decide +kernel
theorem k0_dev15_eq : ∀ d0 : Dev nD, k0_dev15 d0 = (d0.val + 15) % 16 := by decide +kernel
theorem k0_dev16_eq : ∀ d0 : Dev nD, k0_dev16 d0 = (d0.val + 1) % 16 := by decide +kernel
theorem k0_dev17_eq : ∀ d0 : Dev nD, k0_dev17 d0 = (d0.val + 2) % 16 := by decide +kernel
theorem k0_dev18_eq : ∀ d0 : Dev nD, k0_dev18 d0 = (d0.val + 3) % 16 := by decide +kernel
theorem k0_dev19_eq : ∀ d0 : Dev nD, k0_dev19 d0 = (d0.val + 4) % 16 := by decide +kernel
theorem k0_dev20_eq : ∀ d0 : Dev nD, k0_dev20 d0 = (d0.val + 5) % 16 := by decide +kernel
theorem k0_dev21_eq : ∀ d0 : Dev nD, k0_dev21 d0 = (d0.val + 6) % 16 := by decide +kernel
theorem k0_dev22_eq : ∀ d0 : Dev nD, k0_dev22 d0 = (d0.val + 7) % 16 := by decide +kernel
theorem k0_dev23_eq : ∀ d0 : Dev nD, k0_dev23 d0 = (d0.val + 8) % 16 := by decide +kernel
theorem k0_dev24_eq : ∀ d0 : Dev nD, k0_dev24 d0 = (d0.val + 9) % 16 := by decide +kernel
theorem k0_dev25_eq : ∀ d0 : Dev nD, k0_dev25 d0 = (d0.val + 10) % 16 := by decide +kernel
theorem k0_dev26_eq : ∀ d0 : Dev nD, k0_dev26 d0 = (d0.val + 11) % 16 := by decide +kernel
theorem k0_dev27_eq : ∀ d0 : Dev nD, k0_dev27 d0 = (d0.val + 12) % 16 := by decide +kernel
theorem k0_dev28_eq : ∀ d0 : Dev nD, k0_dev28 d0 = (d0.val + 13) % 16 := by decide +kernel
theorem k0_dev29_eq : ∀ d0 : Dev nD, k0_dev29 d0 = (d0.val + 14) % 16 := by decide +kernel
theorem k0_dev30_eq : ∀ d0 : Dev nD, k0_dev30 d0 = (d0.val + 15) % 16 := by decide +kernel

/-- The barrier signals address the devices 1 … 15 places forward, in that order; -/
theorem dev1_eq (c : Dev nD) : (⟨k0_dev1 c, k0_dev1_lt c⟩ : Dev nD) = fwd c 1 := Fin.ext (k0_dev1_eq c)
theorem dev2_eq (c : Dev nD) : (⟨k0_dev2 c, k0_dev2_lt c⟩ : Dev nD) = fwd c 2 := Fin.ext (k0_dev2_eq c)
theorem dev3_eq (c : Dev nD) : (⟨k0_dev3 c, k0_dev3_lt c⟩ : Dev nD) = fwd c 3 := Fin.ext (k0_dev3_eq c)
theorem dev4_eq (c : Dev nD) : (⟨k0_dev4 c, k0_dev4_lt c⟩ : Dev nD) = fwd c 4 := Fin.ext (k0_dev4_eq c)
theorem dev5_eq (c : Dev nD) : (⟨k0_dev5 c, k0_dev5_lt c⟩ : Dev nD) = fwd c 5 := Fin.ext (k0_dev5_eq c)
theorem dev6_eq (c : Dev nD) : (⟨k0_dev6 c, k0_dev6_lt c⟩ : Dev nD) = fwd c 6 := Fin.ext (k0_dev6_eq c)
theorem dev7_eq (c : Dev nD) : (⟨k0_dev7 c, k0_dev7_lt c⟩ : Dev nD) = fwd c 7 := Fin.ext (k0_dev7_eq c)
theorem dev8_eq (c : Dev nD) : (⟨k0_dev8 c, k0_dev8_lt c⟩ : Dev nD) = fwd c 8 := Fin.ext (k0_dev8_eq c)
theorem dev9_eq (c : Dev nD) : (⟨k0_dev9 c, k0_dev9_lt c⟩ : Dev nD) = fwd c 9 := Fin.ext (k0_dev9_eq c)
theorem dev10_eq (c : Dev nD) : (⟨k0_dev10 c, k0_dev10_lt c⟩ : Dev nD) = fwd c 10 := Fin.ext (k0_dev10_eq c)
theorem dev11_eq (c : Dev nD) : (⟨k0_dev11 c, k0_dev11_lt c⟩ : Dev nD) = fwd c 11 := Fin.ext (k0_dev11_eq c)
theorem dev12_eq (c : Dev nD) : (⟨k0_dev12 c, k0_dev12_lt c⟩ : Dev nD) = fwd c 12 := Fin.ext (k0_dev12_eq c)
theorem dev13_eq (c : Dev nD) : (⟨k0_dev13 c, k0_dev13_lt c⟩ : Dev nD) = fwd c 13 := Fin.ext (k0_dev13_eq c)
theorem dev14_eq (c : Dev nD) : (⟨k0_dev14 c, k0_dev14_lt c⟩ : Dev nD) = fwd c 14 := Fin.ext (k0_dev14_eq c)
theorem dev15_eq (c : Dev nD) : (⟨k0_dev15 c, k0_dev15_lt c⟩ : Dev nD) = fwd c 15 := Fin.ext (k0_dev15_eq c)
/-- and so do the fifteen slab transfers. -/
theorem dev16_eq (c : Dev nD) : (⟨k0_dev16 c, k0_dev16_lt c⟩ : Dev nD) = fwd c 1 := Fin.ext (k0_dev16_eq c)
theorem dev17_eq (c : Dev nD) : (⟨k0_dev17 c, k0_dev17_lt c⟩ : Dev nD) = fwd c 2 := Fin.ext (k0_dev17_eq c)
theorem dev18_eq (c : Dev nD) : (⟨k0_dev18 c, k0_dev18_lt c⟩ : Dev nD) = fwd c 3 := Fin.ext (k0_dev18_eq c)
theorem dev19_eq (c : Dev nD) : (⟨k0_dev19 c, k0_dev19_lt c⟩ : Dev nD) = fwd c 4 := Fin.ext (k0_dev19_eq c)
theorem dev20_eq (c : Dev nD) : (⟨k0_dev20 c, k0_dev20_lt c⟩ : Dev nD) = fwd c 5 := Fin.ext (k0_dev20_eq c)
theorem dev21_eq (c : Dev nD) : (⟨k0_dev21 c, k0_dev21_lt c⟩ : Dev nD) = fwd c 6 := Fin.ext (k0_dev21_eq c)
theorem dev22_eq (c : Dev nD) : (⟨k0_dev22 c, k0_dev22_lt c⟩ : Dev nD) = fwd c 7 := Fin.ext (k0_dev22_eq c)
theorem dev23_eq (c : Dev nD) : (⟨k0_dev23 c, k0_dev23_lt c⟩ : Dev nD) = fwd c 8 := Fin.ext (k0_dev23_eq c)
theorem dev24_eq (c : Dev nD) : (⟨k0_dev24 c, k0_dev24_lt c⟩ : Dev nD) = fwd c 9 := Fin.ext (k0_dev24_eq c)
theorem dev25_eq (c : Dev nD) : (⟨k0_dev25 c, k0_dev25_lt c⟩ : Dev nD) = fwd c 10 := Fin.ext (k0_dev25_eq c)
theorem dev26_eq (c : Dev nD) : (⟨k0_dev26 c, k0_dev26_lt c⟩ : Dev nD) = fwd c 11 := Fin.ext (k0_dev26_eq c)
theorem dev27_eq (c : Dev nD) : (⟨k0_dev27 c, k0_dev27_lt c⟩ : Dev nD) = fwd c 12 := Fin.ext (k0_dev27_eq c)
theorem dev28_eq (c : Dev nD) : (⟨k0_dev28 c, k0_dev28_lt c⟩ : Dev nD) = fwd c 13 := Fin.ext (k0_dev28_eq c)
theorem dev29_eq (c : Dev nD) : (⟨k0_dev29 c, k0_dev29_lt c⟩ : Dev nD) = fwd c 14 := Fin.ext (k0_dev29_eq c)
theorem dev30_eq (c : Dev nD) : (⟨k0_dev30 c, k0_dev30_lt c⟩ : Dev nD) = fwd c 15 := Fin.ext (k0_dev30_eq c)

/-- Step `k` of the accumulation reads the 256 rows of the weight matrix that belong to the device `k` places back. -/
theorem k0_off1_eq : ∀ d0 : Dev nD, ∀ r : Fin 16, k0_off1 d0 (BitVec.ofNat 32 r.val) = ![256 * ((d0.val + 16 - r.val) % 16), 0] := by decide +kernel
/-- The slab sent `e` places forward is the 256 rows the receiver will multiply: rows `256 · (c + e mod 16)`. -/
theorem k0_off2_eq : ∀ d0 : Dev nD, ∀ r : Fin 15, k0_off2 d0 (BitVec.ofNat 32 (1 + r.val)) = ![256 * ((d0.val + (1 + r.val)) % 16), 0] := by decide +kernel

end Cert.Kernel.Mesh
-- ==== Proof.Bits.Schedule.lean ====
/-
  The protocol of the sixteen-device all-to-all, as one round per semaphore cell.

  Every device `c` owns, besides the barrier cell, a send cell and a receive cell for each offset
  `e = 1 … 15`.  Transfer `e` of device `c` carries the 256 rows of `c`'s column block that belong to
  the device `e` places forward (`fwd c e`) into slot `e` of that device's landing scratch; it credits
  `c`'s send cell `e` once its rows are read and the receiver's receive cell `e` once they are written.
  So slot `e` of device `c` ends holding rows `256·c … 256·c + 255` of the column block of the device
  `e` places back (`bwd c e`).

  Before any transfer each device tells every other device, on the barrier cell, that its landing
  scratch exists.  Duty `e` of `c`'s barrier cell is the unit signalled by `fwd c e`; it hands `c`
  that device's slot `e` — the slot transfer `e` of `c` writes — and the fact that the device has
  opened its receive cell `e`.

  A cell's only round is round 0.  The barrier cell has fifteen duties of one unit; a send or a receive
  cell one duty of the block's credit.
-/
import proofs.«900405_g7700000000000406_dist_a2a_gemm_m4096_k4096_n8192_f32_gelu_v7x_i16_1_alg».proof.Proof.Bits.Mesh
import proofs.«900405_g7700000000000406_dist_a2a_gemm_m4096_k4096_n8192_f32_gelu_v7x_i16_1_alg».proof.Proof.Gen.Kernel.Skeleton
import proofs.«900405_g7700000000000406_dist_a2a_gemm_m4096_k4096_n8192_f32_gelu_v7x_i16_1_alg».proof.Proof.Gen.Kernel.Launch
import Idealize.ShloMosaic.Lib.Pipeline.Launch
import Idealize.ShloMosaic.Lib.Pipeline.Kit
import Idealize.ShloMosaic.Lib.Pipeline.Value
import Idealize.ShloMosaic.Lib.Transfers
import Idealize.ShloMosaic.Lib.Tactic

noncomputable section

namespace Cert.Kernel.A2A

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy, the rounds of this protocol (duties named by an offset), and the
    counters of the local weight copies -/

abbrev UB : Type := URounds (GSem nD τ sig) (Fin 15)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER (F := F)).LandsIn (upEmb : UEmb _ (MT nD τ sig Unit (Elt F) ℕ UU ℕ)) := by unfold ER; infer_instance

variable (m : (ℓ : Loc nD τ sig) → Buf (Elt F) ℓ) (ρ : Dev nD → PrngReg)

/-! ## Memrefs and cells -/

/-- The column block as staged for the body, the result's staging buffer, the landing scratch, the weight slots. -/
abbrev xM : Memref sig .tc .vmem S4096x256 .f32 := Memref.whole cc0_stg0_0
abbrev oM : Memref sig .tc .vmem S256x8192 .f32 := Memref.whole cc0_stg1_0
abbrev rM : Memref sig .tc .vmem S16x256x256 .f32 := Memref.whole cc0_scratch0
abbrev wbM : Memref sig .tc .vmem S3x256x8192 .f32 := Memref.whole cc0_scratch1

abbrev barS : Sem sig := (SemArray.scalar (sig.barrier 0 rfl) : Sems sig S_).sem

/-- Transfer `r` (of fifteen) goes `1 + r` places forward. -/
def off (r : Fin 15) : Fin 16 := ⟨1 + r.val, by omega⟩

theorem sem_inb (r : Fin 15) : ∀ a, (![1 + r.val] : Fin 1 → Nat) a + S1.size a ≤ S16.size a := by
  revert r; decide
theorem slot_inb (r : Fin 15) : ∀ a, (![1 + r.val, 0, 0] : Fin 3 → Nat) a + S1x256x256.size a ≤ S16x256x256.size a := by
  revert r; decide

/-- The send semaphore of transfer `r`, -/
abbrev sendS (r : Fin 15) : DmaSems sig S_ := (cc0_scratch2.slice (Rect.unit (s := S16) ![1 + r.val] S1.size (sem_inb r))).squeeze S_ squeezes_S1_S_
/-- the receive semaphore of slot `1 + r`, -/
abbrev recvS (r : Fin 15) : DmaSems sig S_ := (cc0_scratch3.slice (Rect.unit (s := S16) ![1 + r.val] S1.size (sem_inb r))).squeeze S_ squeezes_S1_S_
/-- and slot `1 + r` of the landing scratch: a 256 × 256 block. -/
abbrev slot (r : Fin 15) : Memref sig .tc .vmem S256x256 .f32 :=
  ((Memref.whole cc0_scratch0 : Memref sig .tc .vmem S16x256x256 .f32).slice (Rect.unit (s := S16x256x256) ![1 + r.val, 0, 0] S1x256x256.size (slot_inb r)) (fun _ => rfl)).squeeze S256x256 squeezes_S1x256x256_S256x256
/-- The rows of `c`'s column block that transfer `r` carries: rows `256 · (c + 1 + r mod 16)` on. -/
abbrev slab (c : Dev nD) (r : Fin 15) : Memref sig .tc .vmem S256x256 .f32 :=
  xM.slice (Rect.unit (s := S4096x256) (k0_off2 c (BitVec.ofNat 32 (1 + r.val))) S256x256.size (k0_off2_inb c r)) (fun _ => rfl)
/-- The rows `c` multiplies itself: rows `256 · c` on. -/
abbrev slab0 (c : Dev nD) : Memref sig .tc .vmem S256x256 .f32 :=
  xM.slice (Rect.unit (s := S4096x256) (k0_off3 c) S256x256.size (k0_off3_inb c)) (fun _ => rfl)

abbrev barCell (c : Dev nD) : GSem nD τ sig := ((c : Thread nD τ), .reg barS)
abbrev sendCell (c : Dev nD) (r : Fin 15) : GSem nD τ sig := ((c : Thread nD τ), .dma (sendS r).sem)
abbrev recvCell (c : Dev nD) (r : Fin 15) : GSem nD τ sig := ((c : Thread nD τ), .dma (recvS r).sem)

/-- The credit of one 256 × 256 block. -/
abbrev N : ℕ := (slot 0).view.dmaCredit
theorem N_pos : 0 < N := View.dmaCredit_pos _ (by decide)

/-- Which transfer a semaphore of the send array, or of the receive array, serves. -/
def sendOf (q : DmaSem sig) : Option (Fin 15) := if h : 3 ≤ q.val ∧ q.val ≤ 17 then some ⟨q.val - 3, by omega⟩ else none
def recvOf (q : DmaSem sig) : Option (Fin 15) := if h : 19 ≤ q.val ∧ q.val ≤ 33 then some ⟨q.val - 19, by omega⟩ else none

theorem sendOf_sendS : ∀ r : Fin 15, sendOf (sendS r).sem = some r := by decide
theorem recvOf_recvS : ∀ r : Fin 15, recvOf (recvS r).sem = some r := by decide
theorem recvOf_sendS : ∀ r : Fin 15, recvOf (sendS r).sem = none := by decide
theorem sendOf_recvS : ∀ r : Fin 15, sendOf (recvS r).sem = none := by decide

/-! ## Contents -/

/-- Device `c`'s column block as the body finds it staged. -/
def xstg (c : Dev nD) : (cc0_stg0_0 : Ref sig .tc).ty.Contents (Elt F) :=
  (win0_0.blk t0_0).view.read (Elt F) (m ((c : Thread nD τ).loc main_arg0))

/-- The rows transfer `r` of device `s` carries, as a 256 × 256 block. -/
def sentBlock (s : Dev nD) (r : Fin 15) : S256x256.Idx → Elt F .f32 := (slab s r).view.read (Elt F) (xstg m s)

/-- What slot `1 + r` of device `c` holds once transfer `r` of the device `1 + r` places back has landed: that device's
    rows `256·c …` written over the slot (the scratch's other elements are not the slot's; `base` stands for them). -/
def landed (c : Dev nD) (r : Fin 15) (base : Buf (Elt F) ((slot r).view.loc (c : Thread nD τ))) : Buf (Elt F) ((slot r).view.loc (c : Thread nD τ)) :=
  (slot r).view.write (Elt F) base (sentBlock m (bwd c (off r)) r) Finset.univ

def slotPts (c : Dev nD) (r : Fin 15) (f : Buf (Elt F) ((slot r).view.loc (c : Thread nD τ))) : sProp 𝕄 :=
  (slot r).view.loc (c : Thread nD τ) ↦[(slot r).view.set]{fullShare} f
/-- The staged column block is only read: transfer `r` borrows its rows at a share of its own, the `r`-th of fifteen
    read tokens cut from the full share. -/
def xShare (r : Fin 15) : PosShare TreeShare := Transfers.shareTok fullShare 15 r
def slabPts (c : Dev nD) (r : Fin 15) : sProp 𝕄 :=
  (slab c r).view.loc (c : Thread nD τ) ↦[(slab c r).view.set]{xShare r} xstg m c

omit [FloatOps F] in
/-- Only a slot's own elements matter to its points-to: a landing written over any base contents is the same. -/
theorem slotPts_landed (c : Dev nD) (r : Fin 15) (b b' : Buf (Elt F) ((slot r).view.loc (c : Thread nD τ))) :
    slotPts c r (landed m c r b) = slotPts c r (landed m c r b') := by
  unfold slotPts landed
  refine pointsTo_congr fun i hi => ?_
  obtain ⟨y, rfl⟩ := View.exists_emb_of_mem_set _ hi
  rw [View.write_emb_of_mem _ _ (Finset.mem_univ y), View.write_emb_of_mem _ _ (Finset.mem_univ y)]

/-- Some contents of the slot's buffer, to state a landing over. -/
def base₀ (c : Dev nD) (r : Fin 15) : Buf (Elt F) ((slot r).view.loc (c : Thread nD τ)) := Classical.arbitrary _

/-! ## The schedule -/

/-- What duty `r` of `c`'s barrier cell hands `c`: slot `1 + r` of the device `1 + r` places forward, at some contents,
    and that that device has opened its receive cell `r` — what `c`'s transfer `r` needs. -/
def barPay (c : Dev nD) (r : Fin 15) : sProp 𝕄 :=
  iprop((∃ f, slotPts (fwd c (off r)) r f) ∗ reached ER (recvCell (fwd c (off r)) r) 0)
/-- What the landing of transfer `r` hands its receiver: the slot, holding the sender's rows. -/
def recvPay (c : Dev nD) (r : Fin 15) : sProp 𝕄 := iprop(∃ b, slotPts c r (landed m c r b))
/-- What the departure of transfer `r` hands its sender back: its rows. -/
def sendPay (c : Dev nD) (r : Fin 15) : sProp 𝕄 := slabPts m c r

omit [FloatOps F] in
instance slotPts_storable (c : Dev nD) (r : Fin 15) (f) : BI.Storable (upEmb : UEmb _ 𝕄) (slotPts (F := F) c r f) := by unfold slotPts; infer_instance
omit [FloatOps F] in
instance slabPts_storable (c : Dev nD) (r : Fin 15) : BI.Storable (upEmb : UEmb _ 𝕄) (slabPts (F := F) m c r) := by unfold slabPts; infer_instance

/-- One round, round 0.  A barrier cell's duties are the fifteen offsets, one unit each; a send or receive cell has the
    one duty `0` of the block's credit. -/
def a2aRd : Rounds.Schedule (GSem nD τ sig) (Fin 15) 𝕄 where
  duties g r := if r = 0 ∧ g.1.2 = .tc then
      (match g.2 with
        | .reg s => if s = barS then Finset.univ else ∅
        | .dma q => if (sendOf q).isSome ∨ (recvOf q).isSome then {0} else ∅)
    else ∅
  unitless _ := False
  amount g _ _ := match g.2 with
    | .reg _ => 1
    | .dma _ => N
  payload g _ d := match g.2 with
    | .reg _ => barPay g.1.1 d
    | .dma q => match sendOf q with
      | some r => sendPay m g.1.1 r
      | none => match recvOf q with
        | some r => recvPay m g.1.1 r
        | none => iprop(emp)
  amount_pos g _ _ _ := by
    cases g.2 with
    | reg _ => exact Nat.one_pos
    | dma _ => exact N_pos

instance a2aRd_payload_storable (g : GSem nD τ sig) (r : ℕ) (d : Fin 15) :
    BI.Storable (upEmb : UEmb _ 𝕄) ((a2aRd (F := F) m).payload g r d) := by
  obtain ⟨th, sm⟩ := g
  cases sm with
  | reg s => show BI.Storable upEmb (barPay th.1 d); unfold barPay; infer_instance
  | dma q =>
    show BI.Storable upEmb (match sendOf q with
      | some r => sendPay m th.1 r
      | none => match recvOf q with
        | some r => recvPay m th.1 r
        | none => iprop(emp))
    cases sendOf q with
    | some r => show BI.Storable upEmb (sendPay m th.1 r); unfold sendPay; infer_instance
    | none =>
      cases recvOf q with
      | some r => show BI.Storable upEmb (recvPay m th.1 r); unfold recvPay; infer_instance
      | none => show BI.Storable upEmb iprop(emp); infer_instance

section Tables
variable (c : Dev nD) (r : Fin 15)

theorem duties_bar : (a2aRd (F := F) m).duties (barCell c) 0 = Finset.univ := by
  dsimp only [a2aRd]
  rw [if_pos ⟨rfl, rfl⟩, if_pos rfl]
theorem duties_send : (a2aRd (F := F) m).duties (sendCell c r) 0 = {0} := by
  dsimp only [a2aRd]
  rw [if_pos ⟨rfl, rfl⟩, if_pos (Or.inl (by rw [sendOf_sendS]; rfl))]
theorem duties_recv : (a2aRd (F := F) m).duties (recvCell c r) 0 = {0} := by
  dsimp only [a2aRd]
  rw [if_pos ⟨rfl, rfl⟩, if_pos (Or.inr (by rw [recvOf_recvS]; rfl))]
theorem duties_later (g : GSem nD τ sig) : ∀ k, 1 ≤ k → (a2aRd (F := F) m).duties g k = ∅ :=
  fun k hk => by dsimp only [a2aRd]; rw [if_neg fun h => by omega]

theorem amount_bar (d : Fin 15) : (a2aRd (F := F) m).amount (barCell c) 0 d = 1 := rfl
theorem amount_send (d : Fin 15) : (a2aRd (F := F) m).amount (sendCell c r) 0 d = N := rfl
theorem amount_recv (d : Fin 15) : (a2aRd (F := F) m).amount (recvCell c r) 0 d = N := rfl

theorem expect_bar : (a2aRd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send : (a2aRd (F := F) m).expect (sendCell c r) 0 = N := by
  unfold Schedule.expect Schedule.amountOf; rw [duties_send, Finset.sum_singleton, amount_send]
theorem expect_recv : (a2aRd (F := F) m).expect (recvCell c r) 0 = N := by
  unfold Schedule.expect Schedule.amountOf; rw [duties_recv, Finset.sum_singleton, amount_recv]

theorem payload_bar (d : Fin 15) : (a2aRd (F := F) m).payload (barCell c) 0 d = barPay c d := rfl
theorem payload_send (d : Fin 15) : (a2aRd (F := F) m).payload (sendCell c r) 0 d = sendPay m c r := by
  show (match sendOf (sendS r).sem with
      | some r => sendPay m c r
      | none => match recvOf (sendS r).sem with
        | some r => recvPay m c r
        | none => iprop(emp)) = _
  rw [sendOf_sendS]
theorem payload_recv (d : Fin 15) : (a2aRd (F := F) m).payload (recvCell c r) 0 d = recvPay m c r := by
  show (match sendOf (recvS r).sem with
      | some r => sendPay m c r
      | none => match recvOf (recvS r).sem with
        | some r => recvPay m c r
        | none => iprop(emp)) = _
  rw [sendOf_recvS, recvOf_recvS]

end Tables

end Cert.Kernel.A2A

end
-- ==== Proof.Bits.Data.lean ====
/-
  What each device holds when its body starts, what it owes, and the pipeline's proof data.

  Device `c` pays, in this order: fifteen barrier units, signal `j` going to the device `1 + j` places forward, where
  it is duty `14 - j` (that device sees `c` at `15 - j` places forward); then fifteen transfers, transfer `r` crediting
  the receive cell `r` of the device `1 + r` places forward and `c`'s own send cell `r`.  It waits for fifteen units on its
  own barrier cell, and once on each of its receive and send cells.

  Levels: a barrier cell sits at 1, a receive cell at 2, every other cell at 0.  At its barrier wait a device owes only
  receive cells; at every later wait it owes nothing.
-/
import proofs.«900405_g7700000000000406_dist_a2a_gemm_m4096_k4096_n8192_f32_gelu_v7x_i16_1_alg».proof.Proof.Bits.Schedule

noncomputable section

namespace Cert.Kernel.A2A

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells of one device -/

abbrev CK : Type := Unit ⊕ (Fin 15 ⊕ Fin 15)
abbrev CK.bar : CK := .inl ()
abbrev CK.send (r : Fin 15) : CK := .inr (.inl r)
abbrev CK.recv (r : Fin 15) : CK := .inr (.inr r)

abbrev csem : CK → SemLoc sig
  | .inl _ => .reg barS
  | .inr (.inl r) => .dma (sendS r).sem
  | .inr (.inr r) => .dma (recvS r).sem
abbrev kcell (ck : Dev nD × CK) : GSem nD τ sig := ((ck.1 : Thread nD τ), csem ck.2)

theorem sendS_inj : ∀ r r' : Fin 15, (sendS r).sem = (sendS r').sem → r = r' := by decide
theorem recvS_inj : ∀ r r' : Fin 15, (recvS r).sem = (recvS r').sem → r = r' := by decide
theorem sendS_ne_recvS : ∀ r r' : Fin 15, (sendS r).sem ≠ (recvS r').sem := by decide
theorem csem_injective : Function.Injective csem := by
  rintro (⟨⟩ | r | r) (⟨⟩ | r' | r') h
  · rfl
  · exact absurd h (fun h' => by cases h')
  · exact absurd h (fun h' => by cases h')
  · exact absurd h (fun h' => by cases h')
  · rw [sendS_inj r r' (SemLoc.dma.inj h)]
  · exact absurd (SemLoc.dma.inj h) (sendS_ne_recvS r r')
  · exact absurd h (fun h' => by cases h')
  · exact absurd (SemLoc.dma.inj h).symm (sendS_ne_recvS r' r)
  · rw [recvS_inj r r' (SemLoc.dma.inj h)]

/-- Signal `j` is duty `14 - j` of the barrier cell it reaches. -/
def rev (j : Fin 15) : Fin 15 := ⟨14 - j.val, by omega⟩
theorem rev_rev (j : Fin 15) : rev (rev j) = j := by revert j; decide
theorem fwd_fwd_rev (c : Dev nD) (j : Fin 15) : fwd (fwd c (off j)) (off (rev j)) = c := by revert c j; decide
theorem off_ne_zero (r : Fin 15) : off r ≠ 0 := by revert r; decide

/-! ## What a device owes, and the levels -/

/-- Device `c` owes every other device's barrier cell a unit and the receive cell its transfer lands on the block's
    credit — written as the sum the body pays off from the right. -/
def O₀ (c : Dev nD) : CellTallies nD τ sig Unit :=
  tallyAt (recvCell (fwd c (off 14)) 14) () N
    + tallyAt (recvCell (fwd c (off 13)) 13) () N
    + tallyAt (recvCell (fwd c (off 12)) 12) () N
    + tallyAt (recvCell (fwd c (off 11)) 11) () N
    + tallyAt (recvCell (fwd c (off 10)) 10) () N
    + tallyAt (recvCell (fwd c (off 9)) 9) () N
    + tallyAt (recvCell (fwd c (off 8)) 8) () N
    + tallyAt (recvCell (fwd c (off 7)) 7) () N
    + tallyAt (recvCell (fwd c (off 6)) 6) () N
    + tallyAt (recvCell (fwd c (off 5)) 5) () N
    + tallyAt (recvCell (fwd c (off 4)) 4) () N
    + tallyAt (recvCell (fwd c (off 3)) 3) () N
    + tallyAt (recvCell (fwd c (off 2)) 2) () N
    + tallyAt (recvCell (fwd c (off 1)) 1) () N
    + tallyAt (recvCell (fwd c (off 0)) 0) () N
    + tallyAt (barCell (fwd c (off 14))) () 1
    + tallyAt (barCell (fwd c (off 13))) () 1
    + tallyAt (barCell (fwd c (off 12))) () 1
    + tallyAt (barCell (fwd c (off 11))) () 1
    + tallyAt (barCell (fwd c (off 10))) () 1
    + tallyAt (barCell (fwd c (off 9))) () 1
    + tallyAt (barCell (fwd c (off 8))) () 1
    + tallyAt (barCell (fwd c (off 7))) () 1
    + tallyAt (barCell (fwd c (off 6))) () 1
    + tallyAt (barCell (fwd c (off 5))) () 1
    + tallyAt (barCell (fwd c (off 4))) () 1
    + tallyAt (barCell (fwd c (off 3))) () 1
    + tallyAt (barCell (fwd c (off 2))) () 1
    + tallyAt (barCell (fwd c (off 1))) () 1
    + tallyAt (barCell (fwd c (off 0))) () 1

def L (g : GSem nD τ sig) : Finset Unit := if g.1.2 = .tc then {()} else ∅
/-- barrier cells at 1, receive cells at 2, everything else (staging, send, the weight copies' cells) at 0. -/
def lv (g : GSem nD τ sig) (_ : Unit) : ℕ := match g.2 with
  | .reg s => if s = barS then 1 else 0
  | .dma q => if (recvOf q).isSome then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device starts from -/

/-- The cells' invariants device `c`'s body opens, under the names `K` the launch allocated them at: its own thirty-one,
    the fifteen barrier cells it signals, the fifteen receive cells its transfers credit. -/
def invs (K : Dev nD × CK → ℕ) (c : Dev nD) : sProp 𝕄 :=
  iprop(cellInv ER (a2aRd m) (K (c, CK.bar)) (barCell c)
    ∗ (bigSep Finset.univ fun r : Fin 15 => cellInv ER (a2aRd m) (K (c, CK.send r)) (sendCell c r))
    ∗ (bigSep Finset.univ fun r : Fin 15 => cellInv ER (a2aRd m) (K (c, CK.recv r)) (recvCell c r))
    ∗ (bigSep Finset.univ fun j : Fin 15 => cellInv ER (a2aRd m) (K (fwd c (off j), CK.bar)) (barCell (fwd c (off j))))
    ∗ (bigSep Finset.univ fun r : Fin 15 => cellInv ER (a2aRd m) (K (fwd c (off r), CK.recv r)) (recvCell (fwd c (off r)) r)))

/-- Its positions at round 0 of its own cells. -/
def positions (c : Dev nD) : sProp 𝕄 :=
  iprop(atPos ER (barCell c) 0 ∅ 0
    ∗ (bigSep Finset.univ fun r : Fin 15 => atPos ER (sendCell c r) 0 ∅ 0)
    ∗ (bigSep Finset.univ fun r : Fin 15 => atPos ER (recvCell c r) 0 ∅ 0))

/-- Round 0 reached, of the cells it pays and of its own send and receive cells. -/
def marks (c : Dev nD) : sProp 𝕄 :=
  iprop((bigSep Finset.univ fun j : Fin 15 => reached ER (barCell (fwd c (off j))) 0)
    ∗ (bigSep Finset.univ fun r : Fin 15 => reached ER (recvCell (fwd c (off r)) r) 0)
    ∗ (bigSep Finset.univ fun r : Fin 15 => reached ER (sendCell c r) 0)
    ∗ (bigSep Finset.univ fun r : Fin 15 => reached ER (recvCell c r) 0))

/-- The tokens of the duties it pays. -/
def payToks (c : Dev nD) : sProp 𝕄 :=
  iprop((bigSep Finset.univ fun j : Fin 15 => dutyTok ER (barCell (fwd c (off j))) 0 (rev j))
    ∗ (bigSep Finset.univ fun r : Fin 15 => dutyTok ER (recvCell (fwd c (off r)) r) 0 0)
    ∗ (bigSep Finset.univ fun r : Fin 15 => dutyTok ER (sendCell c r) 0 0))

def ghost (K : Dev nD × CK → ℕ) (c : Dev nD) : sProp 𝕄 :=
  iprop(invs m K c ∗ positions c ∗ marks c ∗ payToks c)

/-- The semaphores of the kernel's scratch that no other device touches: the unused first cell of the send and of the
    receive array, and the three cells of the weight copies.  Their counters stay in the device's hand. -/
abbrev idleSem : Fin 5 → SemLoc sig
  | 0 => .dma (⟨2, by decide⟩ : DmaSem sig)
  | 1 => .dma (⟨18, by decide⟩ : DmaSem sig)
  | 2 => .dma (⟨34, by decide⟩ : DmaSem sig)
  | 3 => .dma (⟨35, by decide⟩ : DmaSem sig)
  | 4 => .dma (⟨36, by decide⟩ : DmaSem sig)
def idleSems (c : Dev nD) : sProp 𝕄 := bigSep Finset.univ fun i : Fin 5 => semVal ((c : Thread nD τ), idleSem i) 0

/-- What device `c`'s body starts from besides its buffers: the ghost state at some names, the credit dealt at launch for
    what the others owe its cells, the level facts, and the counters nobody else touches. -/
def start (c : Dev nD) : sProp 𝕄 :=
  iprop((∃ K, ghost m K c) ∗ cred (tallyAt (barCell c) () 15)
    ∗ (bigSep Finset.univ fun r : Fin 15 => cred (tallyAt (recvCell c r) () N))
    ∗ levAts L lv ∗ idleSems c)

/-- The weight matrix, which the body reads through copies of its own and the pipeline does not stage. -/
def wPts (c : Dev nD) : sProp 𝕄 := ((c : Thread nD τ).loc main_arg1) ↦{fullShare} m ((c : Thread nD τ).loc main_arg1)

def Φ₀ (c : Dev nD) : sProp 𝕄 :=
  iprop(start m c ∗ wPts m c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- After the point: the weight matrix as it was, the two scratch buffers at some contents, and every counter of the kernel's
    own thirty-five semaphores back at zero (the barrier cell is the runtime's: nothing to hand back). -/
def Φ₁ (c : Dev nD) : sProp 𝕄 :=
  iprop(wPts m c
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (bigSep Finset.univ fun r : Fin 15 => semVal (sendCell c r) 0)
    ∗ (bigSep Finset.univ fun r : Fin 15 => semVal (recvCell c r) 0)
    ∗ idleSems c)

/-! ## The result, and the pipeline's proof data -/

/-- The weight matrix as the body's copies read it. -/
abbrev wM : Memref sig .tc .hbm S4096x8192 .f32 := Memref.whole main_arg1

theorem wslot_inb (i : Fin 3) : ∀ a, (![i.val, 0, 0] : Fin 3 → Nat) a + S1x256x8192.size a ≤ S3x256x8192.size a := by
  revert i; decide

/-- Slot `i` of the three weight slots; -/
abbrev wslot (i : Fin 3) : Memref sig .tc .vmem S256x8192 .f32 :=
  (wbM.slice (Rect.unit (s := S3x256x8192) ![i.val, 0, 0] S1x256x8192.size (wslot_inb i)) (fun _ => rfl)).squeeze S256x8192 squeezes_S1x256x8192_S256x8192
/-- the 256 rows of the weight matrix that step `k` multiplies: those of the device `k` places back. -/
abbrev wsrc (c : Dev nD) (k : Fin 16) : Memref sig .tc .hbm S256x8192 .f32 :=
  wM.slice (Rect.unit (s := S4096x8192) (k0_off1 c (BitVec.ofNat 32 k.val)) S256x8192.size (k0_off1_inb c k)) (fun _ => rfl)

/-- Step `k` uses weight slot `k mod 3`. -/
def wslotOf (k : Fin 16) : Fin 3 := ⟨k.val % 3, Nat.mod_lt _ (by decide)⟩

/-- What weight slot `k mod 3` holds when step `k` reads it: the rows of step `k`, written over the slot. -/
def wlanded (c : Dev nD) (k : Fin 16) (base : Buf (Elt F) ((wslot (wslotOf k)).view.loc (c : Thread nD τ))) : Buf (Elt F) ((wslot (wslotOf k)).view.loc (c : Thread nD τ)) :=
  (wslot (wslotOf k)).view.write (Elt F) base ((wsrc c k).view.read (Elt F) (m ((c : Thread nD τ).loc main_arg1))) Finset.univ

/-- The body's arithmetic composed: sixteen products accumulated in order, then the activation. -/
def outTerm (a0 : Vec F S256x256 .f32) (a : Fin 15 → Vec F S1x256x256 .f32) (w : Fin 16 → Vec F S1x256x8192 .f32) : FVec F S256x8192 .f32 :=
  k0_pay21 (k0_pay20 (a 14) (w 15) (k0_pay19 (a 13) (w 14) (k0_pay18 (a 12) (w 13) (k0_pay17 (a 11) (w 12)
    (k0_pay16 (k0_pay14 (a 10)) (k0_pay15 (w 11)) (constant S256x8192 .f32 0x00000000#32)
    (k0_pay13 (a 9) (w 10) (k0_pay12 (a 8) (w 9) (k0_pay11 (k0_pay10 (a 7)) (w 8) (k0_pay9 (a 6) (w 7) (k0_pay8 (a 5) (w 6)
    (k0_pay7 (k0_pay6 (a 4)) (w 5) (k0_pay5 (a 3) (w 4) (k0_pay4 (a 2) (w 3) (k0_pay3 (a 1) (w 2) (k0_pay2 (a 0) (w 1) (k0_pay1 a0 (w 0)))))))))))))))))

/-- The device's own rows as step 0 loads them, -/
def a0At (c : Dev nD) : Vec F S256x256 .f32 :=
  xM.view.readAt (Elt F) (Rect.unit (s := S4096x256) (k0_off3 c) S256x256.size (k0_off3_inb c)).toLoadRect (xstg m c)
/-- slot `1 + i` as step `1 + i` loads it, -/
def aAt (c : Dev nD) (i : Fin 15) : Vec F S1x256x256 .f32 :=
  rM.view.readAt (Elt F) (Rect.unit (s := S16x256x256) ![1 + i.val, 0, 0] S1x256x256.size (slot_inb i)).toLoadRect (landed m c i (base₀ c i))
/-- and weight slot `k mod 3` as step `k` loads it. -/
def wAt (c : Dev nD) (k : Fin 16) : Vec F S1x256x8192 .f32 :=
  wbM.view.readAt (Elt F) (Rect.unit (s := S3x256x8192) ![(wslotOf k).val, 0, 0] S1x256x8192.size (wslot_inb (wslotOf k))).toLoadRect (wlanded m c k (Classical.arbitrary _))

/-- The kernel's result on device `c`. -/
def outAt (c : Dev nD) : (cc0_stg1_0 : Ref sig .tc).ty.Contents (Elt F) := outTerm (a0At m c) (aAt m c) (wAt m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.A2A

end
-- ==== Proof.Bits.Levels.lean ====
/-
  The levels of the sixteen-device all-to-all: a wait is allowed only on a cell that lies strictly below every cell
  the waiting device still owes.  Barrier cells sit at level 1, receive cells at level 2, every other cell at 0.
  What a device owes at launch is fifteen receive cells' credit and fifteen barrier cells' unit; so it may wait on any
  level-0 cell at any time, and on its barrier cell once the barrier units are paid.
-/
import proofs.«900405_g7700000000000406_dist_a2a_gemm_m4096_k4096_n8192_f32_gelu_v7x_i16_1_alg».proof.Proof.Bits.Data
import Mathlib.Data.Fin.Tuple.Reflection

noncomputable section

namespace Cert.Kernel.A2A

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device owes, as two sums over the offsets -/

/-- The receive credit device `c` owes: the block's credit on receive cell `r` of the device `1 + r` places forward. -/
def Orecv (c : Dev nD) : CellTallies nD τ sig Unit := ∑ r : Fin 15, tallyAt (recvCell (fwd c (off r)) r) () N
/-- The barrier units device `c` owes: one on the barrier cell of every other device. -/
def Obar (c : Dev nD) : CellTallies nD τ sig Unit := ∑ j : Fin 15, tallyAt (barCell (fwd c (off j))) () 1

theorem Orecv_eq (c : Dev nD) : Orecv c =
    tallyAt (recvCell (fwd c (off 14)) 14) () N
    + tallyAt (recvCell (fwd c (off 13)) 13) () N
    + tallyAt (recvCell (fwd c (off 12)) 12) () N
    + tallyAt (recvCell (fwd c (off 11)) 11) () N
    + tallyAt (recvCell (fwd c (off 10)) 10) () N
    + tallyAt (recvCell (fwd c (off 9)) 9) () N
    + tallyAt (recvCell (fwd c (off 8)) 8) () N
    + tallyAt (recvCell (fwd c (off 7)) 7) () N
    + tallyAt (recvCell (fwd c (off 6)) 6) () N
    + tallyAt (recvCell (fwd c (off 5)) 5) () N
    + tallyAt (recvCell (fwd c (off 4)) 4) () N
    + tallyAt (recvCell (fwd c (off 3)) 3) () N
    + tallyAt (recvCell (fwd c (off 2)) 2) () N
    + tallyAt (recvCell (fwd c (off 1)) 1) () N
    + tallyAt (recvCell (fwd c (off 0)) 0) () N := by
  unfold Orecv
  simp only [Fin.sum_univ_ofNat]
  ac_rfl

theorem O₀_eq (c : Dev nD) : O₀ c = Orecv c + Obar c := by
  rw [Orecv_eq]
  unfold O₀ Obar
  simp only [Fin.sum_univ_ofNat]
  ac_rfl

theorem Orecv_pos {c : Dev nD} {g : GSem nD τ sig} {u : Unit} (h : 0 < Orecv c g u) : ∃ r : Fin 15, g = recvCell (fwd c (off r)) r := by
  obtain ⟨r, -, hr⟩ := Pipeline.sum_pos_exists h
  exact ⟨r, (Pipeline.tallyAt_pos hr).1⟩
theorem Obar_pos {c : Dev nD} {g : GSem nD τ sig} {u : Unit} (h : 0 < Obar c g u) : ∃ j : Fin 15, g = barCell (fwd c (off j)) := by
  obtain ⟨j, -, hj⟩ := Pipeline.sum_pos_exists h
  exact ⟨j, (Pipeline.tallyAt_pos hj).1⟩

/-! ## The levels of the cells that are owed -/

theorem lv_recv (d : Dev nD) (r : Fin 15) (u : Unit) : lv (recvCell d r) u = 2 := by
  show (if (recvOf (recvS r).sem).isSome then 2 else 0) = 2
  rw [recvOf_recvS]; rfl
theorem lv_bar (d : Dev nD) (u : Unit) : lv (barCell d) u = 1 := by
  show (if barS = barS then 1 else 0) = 1
  rw [if_pos rfl]
theorem lv_dma (c : Dev nD) (q : DmaSem sig) (hq : recvOf q = none) (u : Unit) : lv ((c : Thread nD τ), .dma q) u = 0 := by
  show (if (recvOf q).isSome then 2 else 0) = 0
  rw [hq]; rfl

omit [FloatOps F] in
/-- A cell of the DMA pool that is no receive cell (a staging cell, a send cell, a cell of the weight copies) sits at
    level 0, below everything a device can owe: it may be waited on while the device owes all of `O₀`, or nothing. -/
theorem mayWait_stage (c : Dev nD) (q : DmaSem sig) (hq : recvOf q = none) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i hg => ?_
    rw [O₀_eq] at hg
    rcases Pipeline.add_pos_cases hg with h | h
    · obtain ⟨r, rfl⟩ := Orecv_pos h
      exact ⟨by rw [L_tc]; exact Finset.mem_singleton_self _, by rw [lv_dma c q hq, lv_recv]; decide⟩
    · obtain ⟨j, rfl⟩ := Obar_pos h
      exact ⟨by rw [L_tc]; exact Finset.mem_singleton_self _, by rw [lv_dma c q hq, lv_bar]; decide⟩
  · rw [MayWait_zero]; iintro -; iempintro

omit [FloatOps F] in
/-- At its barrier wait a device owes only receive cells, which lie above its barrier cell. -/
theorem mayWait_bar (c : Dev nD) :
    (levAts L lv : sProp 𝕄) ⊢ MayWait (c : Thread nD τ) (.reg barS) ()
      (tallyAt (recvCell (fwd c (off 14)) 14) () N
        + tallyAt (recvCell (fwd c (off 13)) 13) () N
        + tallyAt (recvCell (fwd c (off 12)) 12) () N
        + tallyAt (recvCell (fwd c (off 11)) 11) () N
        + tallyAt (recvCell (fwd c (off 10)) 10) () N
        + tallyAt (recvCell (fwd c (off 9)) 9) () N
        + tallyAt (recvCell (fwd c (off 8)) 8) () N
        + tallyAt (recvCell (fwd c (off 7)) 7) () N
        + tallyAt (recvCell (fwd c (off 6)) 6) () N
        + tallyAt (recvCell (fwd c (off 5)) 5) () N
        + tallyAt (recvCell (fwd c (off 4)) 4) () N
        + tallyAt (recvCell (fwd c (off 3)) 3) () N
        + tallyAt (recvCell (fwd c (off 2)) 2) () N
        + tallyAt (recvCell (fwd c (off 1)) 1) () N
        + tallyAt (recvCell (fwd c (off 0)) 0) () N) := by
  rw [← Orecv_eq]
  refine Pipeline.mayWait_of_levAts (by rw [L_tc]; exact Finset.mem_singleton_self _) fun g i hg => ?_
  obtain ⟨r, rfl⟩ := Orecv_pos hg
  exact ⟨by rw [L_tc]; exact Finset.mem_singleton_self _, by rw [lv_bar, lv_recv]; decide⟩

end Cert.Kernel.A2A

end
-- ==== Proof.Bits.Launch.lean ====
/-
  The launch of the sixteen-device all-to-all: from "each device's body is proved" to the run of the whole program.

  The launch element of the protocol's algebra opens, for every device, its thirty-one cells (the barrier cell, fifteen
  send cells, fifteen receive cells) at round 0 and mints the tokens of their duties.  One global step turns the
  semaphores' zero counters and the opened rounds into the cells' invariants, and deals every duty token to the device
  that PAYS the duty: duty `rev j` of the barrier cell of the device `1 + j` places forward and the duty of that
  device's receive cell `j` go to the device itself; the send tokens stay where they are minted.  The credit the launch
  deals a device is what the others owe its cells: fifteen units on its barrier cell, and the block's credit on each
  receive cell.
-/
import proofs.«900405_g7700000000000406_dist_a2a_gemm_m4096_k4096_n8192_f32_gelu_v7x_i16_1_alg».proof.Proof.Bits.Levels

noncomputable section

namespace Cert.Kernel.A2A

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The kernel's thirty-five scoped DMA semaphores: every semaphore of the pool after the pipeline's two staging ones. -/
abbrev osem : Fin 35 → SemLoc sig := fun i => .dma ⟨2 + i.val, by have := i.isLt; show 2 + i.val < 37; omega⟩

theorem ownSemFacts : Pipeline.OwnSemFacts cfg0.spec osem := by decide

/-- Which of the thirty-five a send cell, a receive cell, an untouched semaphore is. -/
def osIdx : Fin 15 ⊕ (Fin 15 ⊕ Fin 5) → Fin 35
  | .inl r => ⟨1 + r.val, by omega⟩
  | .inr (.inl r) => ⟨17 + r.val, by omega⟩
  | .inr (.inr i) => match i with
    | 0 => 0 | 1 => 16 | 2 => 32 | 3 => 33 | 4 => 34
theorem osIdx_bijective : Function.Bijective osIdx := by decide
def osEquiv : Fin 15 ⊕ (Fin 15 ⊕ Fin 5) ≃ Fin 35 := Equiv.ofBijective osIdx osIdx_bijective
theorem osem_send : ∀ r : Fin 15, osem (osIdx (.inl r)) = .dma (sendS r).sem := by decide
theorem osem_recv : ∀ r : Fin 15, osem (osIdx (.inr (.inl r))) = .dma (recvS r).sem := by decide
theorem osem_idle : ∀ i : Fin 5, osem (osIdx (.inr (.inr i))) = idleSem i := by decide

/-! ## The cells and the tokens of the launch element -/

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- A device's own cells' duty tokens as minted: the fifteen duties of its barrier cell, the one duty of each send cell
    and of each receive cell. -/
abbrev TK : Type := Fin 15 ⊕ (Fin 15 ⊕ Fin 15)
abbrev tkCell : TK → CK
  | .inl _ => CK.bar
  | .inr (.inl r) => CK.send r
  | .inr (.inr r) => CK.recv r
abbrev tkDuty : TK → Fin 15
  | .inl d => d
  | .inr _ => 0
theorem tk_inj : ∀ k k' : TK, tkCell k = tkCell k' → tkDuty k = tkDuty k' → k = k' := by decide
abbrev tokOf (cj : Dev nD × TK) : GSem nD τ sig × ℕ × Fin 15 := (kcell (cj.1, tkCell cj.2), 0, tkDuty cj.2)
theorem tokOf_injective : Function.Injective (tokOf : Dev nD × TK → GSem nD τ sig × ℕ × Fin 15) := by
  rintro ⟨c, j⟩ ⟨c', j'⟩ h
  have hk : ((c, tkCell j) : Dev nD × CK) = (c', tkCell j') := kcell_injective (congrArg (fun x : GSem nD τ sig × ℕ × Fin 15 => x.1) h)
  have hd : tkDuty j = tkDuty j' := congrArg (fun x : GSem nD τ sig × ℕ × Fin 15 => x.2.2) h
  obtain ⟨h1, h2⟩ := Prod.mk.inj hk
  subst h1
  rw [tk_inj j j' h2 hd]
def ringToks : Finset (GSem nD τ sig × ℕ × Fin 15) := Finset.univ.map ⟨tokOf, tokOf_injective⟩

def u₀ : UU :=
  (initOf (Pipeline.cells cfgs cellOf_inj) (Pipeline.launchToks cfgs cellOf_inj), (initOf ringCells ringToks, 1))

omit [FloatOps F] in
theorem bigSep_CK (Φ : CK → sProp 𝕄) : bigSep Finset.univ Φ
    = iprop(Φ CK.bar ∗ (bigSep Finset.univ fun r : Fin 15 => Φ (CK.send r)) ∗ (bigSep Finset.univ fun r : Fin 15 => Φ (CK.recv r))) := by
  rw [bigSep_univ_sum, bigSep_univ_sum, bigSep_univ_of_subsingleton ()]; rfl
omit [FloatOps F] in
theorem bigSep_TK (Φ : TK → sProp 𝕄) : bigSep Finset.univ Φ
    = iprop((bigSep Finset.univ fun d : Fin 15 => Φ (.inl d)) ∗ (bigSep Finset.univ fun r : Fin 15 => Φ (.inr (.inl r))) ∗ (bigSep Finset.univ fun r : Fin 15 => Φ (.inr (.inr r)))) := by
  rw [bigSep_univ_sum, bigSep_univ_sum]; rfl

/-- The duty tokens of device `c`'s own cells. -/
def toks (c : Dev nD) : sProp 𝕄 :=
  iprop((bigSep Finset.univ fun d : Fin 15 => dutyTok ER (barCell c) 0 d)
    ∗ (bigSep Finset.univ fun r : Fin 15 => dutyTok ER (sendCell c r) 0 0)
    ∗ (bigSep Finset.univ fun r : Fin 15 => dutyTok ER (recvCell c r) 0 0))

/-- What the launch element deals device `c`. -/
def G (c : Dev nD) : sProp 𝕄 :=
  iprop((bigSep Finset.univ fun k : CK => roundState ER (a2aRd m) (kcell (c, k)) 0)
    ∗ (bigSep Finset.univ fun k : CK => iprop(atPos ER (kcell (c, k)) 0 ∅ 0 ∗ reached ER (kcell (c, k)) 0)) ∗ toks c)

/-- What the global step makes of it: the ghost state the body starts from, and the counters no other device touches. -/
def G' (c : Dev nD) : sProp 𝕄 := iprop((∃ K, ghost m K c) ∗ idleSems c)

theorem fund_ring : BI.own (ER (F := F) (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_TK]; rfl
  iintro HX
  imod (Rounds.fund ER (a2aRd m) ringCells ringToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
/-- The kernel's own semaphores are the fifteen send cells', the fifteen receive cells', and five nobody else touches; -/
theorem ownSems0_eq (c : Dev nD) : (Pipeline.ownSems0 (Ix := Unit) (Name := ℕ) (U := UU) (Lvl := ℕ) (Val := Elt F) (τ := τ) osem c : sProp 𝕄)
    = iprop((bigSep Finset.univ fun r : Fin 15 => semVal (sendCell c r) 0) ∗ (bigSep Finset.univ fun r : Fin 15 => semVal (recvCell c r) 0) ∗ idleSems c) := by
  have e1 : (bigSep Finset.univ fun r : Fin 15 => (semVal ((c : Thread nD τ), osem (osEquiv (.inl r))) 0 : sProp 𝕄)) = bigSep Finset.univ fun r : Fin 15 => semVal (sendCell c r) 0 :=
    bigSep_congr fun r _ => by rw [show osEquiv (.inl r) = osIdx (.inl r) from rfl, osem_send]
  have e2 : (bigSep Finset.univ fun r : Fin 15 => (semVal ((c : Thread nD τ), osem (osEquiv (.inr (.inl r)))) 0 : sProp 𝕄)) = bigSep Finset.univ fun r : Fin 15 => semVal (recvCell c r) 0 :=
    bigSep_congr fun r _ => by rw [show osEquiv (.inr (.inl r)) = osIdx (.inr (.inl r)) from rfl, osem_recv]
  have e3 : (bigSep Finset.univ fun i : Fin 5 => (semVal ((c : Thread nD τ), osem (osEquiv (.inr (.inr i)))) 0 : sProp 𝕄)) = bigSep Finset.univ fun i : Fin 5 => semVal ((c : Thread nD τ), idleSem i) 0 :=
    bigSep_congr fun i _ => by rw [show osEquiv (.inr (.inr i)) = osIdx (.inr (.inr i)) from rfl, osem_idle]
  unfold Pipeline.ownSems0 idleSems
  rw [bigSep_univ_equiv osEquiv, bigSep_univ_sum, bigSep_univ_sum, e1, e2, e3]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ idleSems c) : sProp 𝕄) := by
  rw [ownSems0_eq, unscopedSems0_eq, bigSep_CK]
  iintro ⟨⟨HS, HV, HI⟩, HB⟩
  isplitr [HI]
  · isplitl [HB]; · iexact HB
    isplitl [HS] <;> iassumption
  · iexact HI

/-! ## The global step: the cells' invariants, and every token to the device that pays its duty -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (a2aRd m) κ (kcell (c, k))))
          ∗ (bigSep Finset.univ fun k : CK => iprop(atPos ER (kcell (c, k)) 0 ∅ 0 ∗ reached ER (kcell (c, k)) 0)) ∗ toks c ∗ idleSems c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun k : CK => semVal (kcell (c, k)) 0) ∗ bigSep Finset.univ fun k : CK => roundState ER (a2aRd m) (kcell (c, k)) 0)
      ⊢ (|={Set.univ}=> bigSep Finset.univ fun k : CK => iprop(∃ κ : ℕ, cellInv ER (a2aRd m) κ (kcell (c, k))) : sProp 𝕄) from by
        rw [← bigSep_sep']
        exact (bigSep_mono fun k _ => (Rounds.body_intro ER (a2aRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-- The persistent part of the ghost state: every cell's invariant at its name, and round 0 of every cell reached. -/
def records (K : Dev nD × CK → ℕ) : sProp 𝕄 :=
  iprop((bigSep Finset.univ fun ck : Dev nD × CK => cellInv ER (a2aRd m) (K ck) (kcell ck))
    ∗ bigSep Finset.univ fun ck : Dev nD × CK => reached ER (kcell ck) 0)

instance records_persistent (K : Dev nD × CK → ℕ) : BI.Persistent (records m K) := by unfold records; infer_instance

theorem inv_at (K : Dev nD × CK → ℕ) (ck : Dev nD × CK) :
    (bigSep Finset.univ fun ck : Dev nD × CK => (cellInv ER (a2aRd m) (K ck) (kcell ck) : sProp 𝕄)) ⊢ cellInv ER (a2aRd m) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)

/-- What stays with device `c`: its positions, the tokens of the duties IT pays, and its untouched counters. -/
def linear (c : Dev nD) : sProp 𝕄 := iprop(positions c ∗ payToks c ∗ idleSems c)

theorem ghost_intro (K : Dev nD × CK → ℕ) (c : Dev nD) : iprop(records m K ∗ linear c) ⊢ G' m c := by
  unfold records linear G' ghost invs marks
  iintro ⟨⟨#HI, #HR⟩, Hpos, Htok, Hidle⟩
  isplitr [Hidle]
  · iexists K
    isplitr
    · isplitr; · iapply (inv_at m K (c, CK.bar)); iexact HI
      isplitr; · iapply (bigSep_intro_persistent fun r _ => inv_at m K (c, CK.send r)); iexact HI
      isplitr; · iapply (bigSep_intro_persistent fun r _ => inv_at m K (c, CK.recv r)); iexact HI
      isplitr; · iapply (bigSep_intro_persistent fun j _ => inv_at m K (fwd c (off j), CK.bar)); iexact HI
      iapply (bigSep_intro_persistent fun r _ => inv_at m K (fwd c (off r), CK.recv r)); iexact HI
    isplitl [Hpos]; · iexact Hpos
    isplitr
    · isplitr; · iapply (bigSep_intro_persistent fun j _ => reached_at (F := F) (fwd c (off j), CK.bar)); iexact HR
      isplitr; · iapply (bigSep_intro_persistent fun r _ => reached_at (F := F) (fwd c (off r), CK.recv r)); iexact HR
      isplitr; · iapply (bigSep_intro_persistent fun r _ => reached_at (F := F) (c, CK.send r)); iexact HR
      iapply (bigSep_intro_persistent fun r _ => reached_at (F := F) (c, CK.recv r)); iexact HR
    iexact Htok
  · iexact Hidle

/-- Reversing the fifteen offsets. -/
def revEquiv : Fin 15 ≃ Fin 15 := ⟨rev, rev, rev_rev, rev_rev⟩

omit [FloatOps F] in
/-- Something indexed by (device, offset), collected device by device, is the same collected at the device the offset
    leads to: for each offset, moving every device that many places forward permutes the mesh. -/
theorem deal (Φ : Dev nD → Fin 15 → sProp 𝕄) :
    (bigSep Finset.univ fun c : Dev nD => bigSep Finset.univ fun r : Fin 15 => Φ c r)
      = bigSep Finset.univ fun c : Dev nD => bigSep Finset.univ fun r : Fin 15 => Φ (fwd c (off r)) r := by
  rw [bigSep_univ_comm (fun c r => Φ c r),
    bigSep_congr (s := Finset.univ) (fun (r : Fin 15) _ => bigSep_univ_equiv (rot (off r)) (fun c : Dev nD => Φ c r)),
    bigSep_univ_comm (fun (r : Fin 15) (c : Dev nD) => Φ (rot (off r) c) r)]
  rfl

omit [FloatOps F] in
/-- The tokens dealt to their payers: duty `rev j` of the barrier cell `1 + j` places forward and the duty of the receive
    cell `r` that lies `1 + r` places forward come to the device; its send tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_congr (s := Finset.univ) (fun (c : Dev nD) _ => bigSep_univ_equiv revEquiv (fun d : Fin 15 => (dutyTok ER (barCell c) 0 d : sProp 𝕄))),
    deal (fun c j => (dutyTok ER (barCell c) 0 (revEquiv j) : sProp 𝕄)),
    deal (fun c r => (dutyTok ER (recvCell c r) 0 0 : sProp 𝕄))]
  iintro ⟨H1, H2, H3⟩
  isplitl [H1]; · iexact H1
  isplitl [H3]; · iexact H3
  iexact H2

theorem regroup :
    (bigSep Finset.univ fun c : Dev nD => iprop((bigSep Finset.univ fun k : CK => iprop(∃ κ : ℕ, cellInv ER (a2aRd m) κ (kcell (c, k))))
          ∗ (bigSep Finset.univ fun k : CK => iprop(atPos ER (kcell (c, k)) 0 ∅ 0 ∗ reached ER (kcell (c, k)) 0)) ∗ toks c ∗ idleSems c) : sProp 𝕄)
      ⊢ bigSep Finset.univ (G' m) := by
  rw [bigSep_sep', bigSep_sep', bigSep_sep', ← bigSep_univ_prod (fun ck : Dev nD × CK => iprop(∃ κ : ℕ, cellInv ER (a2aRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok, Hidle⟩
  ihave HK := (BI.bigSep_exists_pi Finset.univ (fun (ck : Dev nD × CK) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq ((bigSep_sep' Finset.univ (fun c : Dev nD => bigSep Finset.univ fun k : CK => (atPos ER (kcell (c, k)) 0 ∅ 0 : sProp 𝕄)) (fun c => iprop(payToks c ∗ idleSems c))).symm)).trans
      (bigSep_mono fun c _ => show _ ⊢ linear c from Entails.of_eq (by unfold linear positions; rw [bigSep_CK])))
    isplitl [Hat]; · iexact Hat
    rw [bigSep_sep']
    isplitl [Htk]; · iexact Htk
    iexact Hidle

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

omit [FloatOps F] in
theorem nsmul_tallyAt (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

omit [FloatOps F] in
/-- Every other device owes `c`'s barrier cell one unit: the device `1 + j` places back, for each offset `j`. -/
theorem cred_bar (c : Dev nD) :
    (bigSep Finset.univ fun j : Fin 15 => Pipeline.launchCred (fun d : Dev nD => (tallyAt (barCell (fwd d (off j))) () 1 : CellTallies nD τ sig Unit)) c : sProp 𝕄)
      ⊢ cred (tallyAt (barCell c) () 15) := by
  refine (bigSep_mono fun j _ => Pipeline.launchCred_tallyAt (SemLoc.reg barS) (fun d => fwd d (off j)) (fun c => bwd c (off j))
    (fun c => fwd_bwd c (off j)) (fun d => bwd_fwd d (off j)) () 1 c).trans ?_
  rw [← Pipeline.cred_finsetSum Finset.univ (fun _ : Fin 15 => (tallyAt (barCell c) () 1 : CellTallies nD τ sig Unit)),
    Finset.sum_const, Finset.card_univ, Fintype.card_fin, nsmul_tallyAt]
  exact BI.Entails.refl _

omit [FloatOps F] in
/-- Only the device `1 + r` places back owes `c`'s receive cell `r`: the block's credit. -/
theorem cred_recv (c : Dev nD) :
    (bigSep Finset.univ fun r : Fin 15 => Pipeline.launchCred (fun d : Dev nD => (tallyAt (recvCell (fwd d (off r)) r) () N : CellTallies nD τ sig Unit)) c : sProp 𝕄)
      ⊢ bigSep Finset.univ fun r : Fin 15 => cred (tallyAt (recvCell c r) () N) :=
  bigSep_mono fun r _ => Pipeline.launchCred_tallyAt (SemLoc.dma (recvS r).sem) (fun d => fwd d (off r)) (fun c => bwd c (off r))
    (fun c => fwd_bwd c (off r)) (fun d => bwd_fwd d (off r)) () N c

omit [FloatOps F] in
theorem creds (c : Dev nD) :
    (Pipeline.launchCred O₀ c : sProp 𝕄) ⊢ iprop(cred (tallyAt (barCell c) () 15) ∗ bigSep Finset.univ fun r : Fin 15 => cred (tallyAt (recvCell c r) () N)) := by
  rw [show (O₀ : Dev nD → CellTallies nD τ sig Unit) = fun d => Orecv d + Obar d from funext O₀_eq, Pipeline.launchCred_add]
  unfold Orecv Obar
  rw [Pipeline.launchCred_sum Finset.univ (fun (r : Fin 15) (d : Dev nD) => (tallyAt (recvCell (fwd d (off r)) r) () N : CellTallies nD τ sig Unit)) c,
    Pipeline.launchCred_sum Finset.univ (fun (j : Fin 15) (d : Dev nD) => (tallyAt (barCell (fwd d (off j))) () 1 : CellTallies nD τ sig Unit)) c]
  iintro ⟨HR, HB⟩
  isplitl [HB]
  · iapply (cred_bar (F := F) c); iexact HB
  · iapply (cred_recv (F := F) c); iexact HR

/-! ## The theorem's side conditions -/

theorem share_eq (c : Dev nD) (w : Fin cfg0.W) : (dats m ρ 0 c).share w = fullShare := by unfold Dat.share; split <;> rfl

/-- What a device holds between the launch and its first point: what its body starts from, and the weight matrix. -/
def X (c : Dev nD) : sProp 𝕄 := iprop(start m c ∗ wPts m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨Hw, Hlev, Hcr, -, HG, Hidle⟩
  ihave Hc := (creds (F := F) c) $$ Hcr
  icases Hc with ⟨H1, HN⟩
  imodintro
  unfold X start wPts
  isplitl
  · isplitr [Hw]
    · isplitl [HG]; · iexact HG
      isplitl [H1]; · iexact H1
      isplitl [HN]; · iexact HN
      isplitl [Hlev]; · iexact Hlev
      iexact Hidle
    · iexact Hw
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ X
  iintro ⟨⟨Hs, Hw⟩, -, ⟨H0, H1⟩⟩
  isplitl [Hs]; · iexact Hs
  isplitl [Hw]; · iexact Hw
  isplitl [H0]; · iexact H0
  iexact H1

theorem phi1_exit (c : Dev nD) :
    (dats m ρ 0 c).Φ (Fin.last cfg0.N) ⊢ iprop(wPts m c ∗ Pipeline.ownSems0 osem c ∗ Pipeline.scopedRest cfg0.spec c) := by
  rw [show (dats m ρ 0 c).Φ (Fin.last cfg0.N) = Φ₁ m c from rfl, scopedRest0_eq, ownSems0_eq]
  unfold Φ₁
  iintro ⟨Hw, H0, H1, HS, HV, HI⟩
  isplitl [Hw]; · iexact Hw
  isplitl [HS HV HI]
  · isplitl [HS]; · iexact HS
    isplitl [HV]; · iexact HV
    iexact HI
  isplitl [H0]; · iexact H0
  iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

omit [FloatOps F] in
/-- The protocol's half of the launch element, out of the pair it forms with the counters' unit. -/
theorem own_ring (a : UB) (b : Counters) :
    (BI.own ((embR : Emb (UB × Counters) (MT nD τ sig Unit (Elt F) ℕ UU ℕ)) (a, b)) : sProp 𝕄) ⊢ BI.own (ER (F := F) a) := by
  unfold ER
  iintro H
  ihave H2 := (own_pair_emb (embR : Emb (UB × Counters) (MT nD τ sig Unit (Elt F) ℕ UU ℕ)) a b) $$ H
  icases H2 with ⟨HR, -⟩
  iexact HR

set_option maxRecDepth 8000 in
/-- At the compiled mesh of sixteen devices, for any float values, from any memory with zero counters: given each
    device's body, every weakly fair execution of @main — the sixteen kernels greeting one another on the runtime's
    barrier semaphore, then exchanging their slabs — terminates, and every final state has each device's windows' arrays
    at the computed contents and the weight matrix unchanged. -/
theorem run_main (m : (ℓ : Loc nD τ sig) → Buf (Elt F) ℓ) (ρ : Dev nD → PrngReg)
    (hbody : ∀ c, BodyObligation (dats (F := F) m ρ 0 c) (defs₀ (F := F)) Variants.none () Set.univ) :
    θ_run defs (onTc (τ := τ) (main (F := F))) (s₀ m ρ)
      (fun r => ∀ c : Dev nD, (∀ w : Fin cfg0.W, r.2.mem ((cfg0.win w).arr.view.loc (c : Thread nD τ)) = (dats m ρ 0 c).arrAt w cfg0.N)
        ∧ r.2.mem ((c : Thread nD τ).loc main_arg1) = m ((c : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HR := (own_ring (F := F) _ _) $$ HX
      imod (fund_ring m) $$ HR with HG
      imodintro
      isplitl [HP] <;> iassumption)
    (hglob := glob m)
    (hA := fun _ _ => rfl) (hpf := fun _ k => k.elim0)
    (X := X m) (Y := wPts m) (Z := fun _ => iprop(emp))
    (hX := start_intro m ρ) (hin := phi0_intro m ρ) (hout := phi1_exit m ρ)
    (QY := fun c s => s.mem ((c : Thread nD τ).loc main_arg1) = m ((c : Thread nD τ).loc main_arg1))
    (hY := fun c s' => by
      unfold wPts
      iintro ⟨Hw, -, HSI⟩
      icombine HSI Hw gives %hw
      imodintro
      isplitr; · ipureintro; exact Buf.eq_of_forall_mem_univ hw
      iexact HSI)
    (hQ := fun _ h c => ⟨(h c).1, (h c).2.2⟩)

/-- info: 'Cert.Kernel.A2A.run_main' depends on axioms: [propext, Classical.choice, Quot.sound] -/
#guard_msgs in #print axioms run_main

end Cert.Kernel.A2A

end
-- ==== Proof.Bits.AssembleFrame.lean ====
/-
  From a run of the whole mesh to its final arrays.

  A run of the program leaves, on every device, each array the kernel call stages at what the write-backs of the call's
  one grid point made of it, and the weight matrix untouched. The column block is an input: it is never written back,
  so it ends as it started. The result array is written back once, whole, with what the body left in its staging
  buffer; so it ends holding exactly that. The frame of the program (it terminates, faults nowhere, leaves both
  arguments unchanged) is read off such a run.
-/
import proofs.«900405_g7700000000000406_dist_a2a_gemm_m4096_k4096_n8192_f32_gelu_v7x_i16_1_alg».proof.Proof.Bits.Data
import proofs.«900405_g7700000000000406_dist_a2a_gemm_m4096_k4096_n8192_f32_gelu_v7x_i16_1_alg».proof.Proof.Gen.Kernel.Points
import Idealize.ShloMosaic.Lib.Pipeline.Value
import Idealize.ShloMosaic.Lib.Pipeline.Cells

noncomputable section

namespace Cert.Kernel.A2A

open Cert.Kernel Cert.Kernel.Gen Cert.Kernel.Mesh

open Idealize.ShloMosaic
open Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- What a run of the mesh ends with: on every device, each staged array at its final contents and the weight matrix
    as it was. -/
def RunPost : PUnit × MemSt nD τ sig (Elt F) → Prop := fun r => ∀ c : Dev nD,
  (∀ w : Fin cfg0.W, r.2.mem ((cfg0.win w).arr.view.loc (c : Thread nD τ)) = (dats m ρ 0 c).arrAt w cfg0.N)
  ∧ r.2.mem ((c : Thread nD τ).loc main_arg1) = m ((c : Thread nD τ).loc main_arg1)

/-- The column block is an input of the call: it ends as it started. -/
theorem finalA_x (c : Dev nD) : (dats m ρ 0 c).arrAt (0 : Fin 2) cfg0.N = m ((c : Thread nD τ).loc main_arg0) :=
  (dats (F := F) m ρ 0 c).arrAt_in (0 : Fin 2) rfl _

/-- The result array is written back once, whole: it ends holding what the body left for it. -/
theorem finalA_out (c : Dev nD) : (dats m ρ 0 c).arrAt (1 : Fin 2) cfg0.N = outAt m c := by
  refine (dats (F := F) m ρ 0 c).arrAt_eq_of_cover (1 : Fin 2) (outAt m c) (fun t _ => ?_) (fun i => ⟨t0_0, flush0_1 t0_0, ?_⟩)
  · exact (Memref.read_access_unit_zero (Elt F) main_v1 (funext fun a => Nat.zero_mul _) _ (outAt m c)).symm
  · show i ∈ ((View.whole main_v1).slice (win0_1.rect t0_0)).set
    rw [View.set_slice_whole, Rect.mem_set_unit]
    intro a
    refine ⟨?_, ?_⟩
    · show 0 * win0_1.size a ≤ (i a : ℕ)
      rw [Nat.zero_mul]; exact Nat.zero_le _
    · show (i a : ℕ) < 0 * win0_1.size a + win0_1.size a
      rw [Nat.zero_mul, Nat.zero_add]; exact (i a).isLt

/-- The frame, read off a run: every fair execution terminates without a fault, and both argument arrays end as they
    started. -/
theorem frame_of_run (hrun : θ_run (defs (F := F)) (onTc (τ := τ) (main (F := F))) (s₀ m ρ) (RunPost m ρ)) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (finalA_x m ρ c), (h c).2⟩) hrun

end Cert.Kernel.A2A

end
-- ==== Proof.Bits.Frame.lean ====
/-
  The frame of the word-level program, from its devices' bodies.

  The run of the whole mesh ends, on every device, with each staged array at its final contents and the weight matrix
  untouched; the column block is an input of the call and is never written back.  So, given each device's body, every
  fair execution of the program terminates without a fault and leaves both argument arrays as they were.
-/
import proofs.«900405_g7700000000000406_dist_a2a_gemm_m4096_k4096_n8192_f32_gelu_v7x_i16_1_alg».proof.Defs
import proofs.«900405_g7700000000000406_dist_a2a_gemm_m4096_k4096_n8192_f32_gelu_v7x_i16_1_alg».proof.Proof.Bits.Launch
import proofs.«900405_g7700000000000406_dist_a2a_gemm_m4096_k4096_n8192_f32_gelu_v7x_i16_1_alg».proof.Proof.Bits.AssembleFrame

noncomputable section

namespace Cert.Kernel.A2A

open Cert.Kernel Cert.Kernel.Gen Cert.Kernel.Mesh

open Idealize.ShloMosaic
open Idealize.ShloMosaic.TcCoe
open Idealize.SL Idealize.SL.Sem
open Idealize.ShloMosaic.Pipeline (Dat Cfg Window BodyObligation)

/-- Given each device's body at the word-level instance, the program runs and its two argument arrays end unchanged. -/
theorem frame_k_of_body (m : (ℓ : Loc nD τ sig) → Buf (Elt Bits) ℓ) (ρ : Dev nD → PrngReg)
    (hbody : ∀ c, BodyObligation (dats (F := Bits) m ρ 0 c) (defs₀ (F := Bits)) Variants.none () Set.univ) :
    θ_run (Cert.Kernel.defs (F := Bits)) (onTc (τ := Cert.Kernel.τ) (Cert.Kernel.main (F := Bits))) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)) :=
  frame_of_run m ρ (run_main m ρ hbody)

/-- The frame claim of the word-level program, whatever its precondition, from the bodies. -/
theorem frame_Kernel_of_body [hPre : Cert.Pre_finite_inputs_Kernel.Facts]
    (hbody : ∀ (m : (ℓ : Loc nD τ sig) → Buf (Elt Bits) ℓ) (ρ : Dev nD → PrngReg) (c : Dev nD),
      BodyObligation (dats (F := Bits) m ρ 0 c) (defs₀ (F := Bits)) Variants.none () Set.univ) :
    Cert.frame_Kernel :=
  fun m g _ => frame_k_of_body m g (hbody m g)

/-- info: 'Cert.Kernel.A2A.frame_Kernel_of_body' depends on axioms: [propext, Classical.choice, Quot.sound] -/
#guard_msgs in #print axioms frame_Kernel_of_body

end Cert.Kernel.A2A

end
-- ==== Proof.Bits.Cuts.lean ====
/-
  Two scratch buffers of a device, cut into their slots.

  The landing scratch has shape [16, 256, 256]: sixteen slots, slot `e` being the elements whose first coordinate
  is `e`. Slot 0 is never written by a transfer; slot `1 + r` is where transfer `r` lands. The slots are pairwise
  disjoint and together are the whole scratch, so the scratch held whole is slot 0 together with the fifteen others,
  and the sixteen slots, each held at some contents, join to the scratch held whole at some contents.

  The weight scratch has shape [3, 256, 8192]: three slots, slot `i` being the elements whose first coordinate is
  `i`; they are cut and joined the same way.
-/
import proofs.«900405_g7700000000000406_dist_a2a_gemm_m4096_k4096_n8192_f32_gelu_v7x_i16_1_alg».proof.Proof.Bits.Data
import Idealize.ShloMosaic.Lib.Ring
import Idealize.ShloMosaic.Rules.PointsTo

noncomputable section

namespace Cert.Kernel.A2A

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks pointsTo_blocks_join_exists lead_disjoint lead_cover)

variable {F : FTy → Type} [FloatOps F]

local notation "𝕄" => MT nD τ sig Unit (Elt F) ℕ UU ℕ

/-- A separating conjunction over `n + 1` indices is the first conjunct and the conjunction over the successors. -/
theorem bigSep_fin_succ {M : Type*} [URA M] {n : ℕ} (Φ : Fin (n + 1) → sProp M) :
    bigSep Finset.univ Φ = iprop(Φ 0 ∗ bigSep Finset.univ fun r : Fin n => Φ r.succ) := by
  rw [Fin.univ_succ]
  unfold bigSep
  rw [Finset.fold_cons, Finset.fold_map]
  rfl

/-! ## The landing scratch: sixteen slots -/

theorem row_inb (e : Fin 16) : ∀ a, (![e.val, 0, 0] : Fin 3 → Nat) a + S1x256x256.size a ≤ S16x256x256.size a := by
  revert e; decide

/-- The elements of slot `e`: first coordinate `e`, the other two free. -/
def rowSet (e : Fin 16) : Finset S16x256x256.Idx :=
  (Rect.unit (s := S16x256x256) ![e.val, 0, 0] S1x256x256.size (row_inb e)).set

theorem rowSet_disjoint (e e' : Fin 16) (h : e ≠ e') : Disjoint (rowSet e) (rowSet e') :=
  lead_disjoint (s := S16x256x256) (NB := 16) 0 1 (fun e : Fin 16 => ![e.val, 0, 0]) S1x256x256.size row_inb
    (fun e => (Nat.one_mul _).symm) rfl e e' h

theorem rowSet_cover : Finset.univ.biUnion rowSet = Finset.univ :=
  lead_cover (s := S16x256x256) (NB := 16) 0 1 (fun e : Fin 16 => ![e.val, 0, 0]) S1x256x256.size row_inb
    (fun e => (Nat.one_mul _).symm) (by decide) rfl (by decide) rfl

/-- Slot `1 + r`, as transfer `r` addresses it, is the elements with first coordinate `1 + r`. -/
theorem slot_set (r : Fin 15) : (slot r).view.set = rowSet r.succ := by
  show (((View.whole cc0_scratch0).slice _).reshape S256x256 _).set = _
  rw [View.set_reshape, View.set_slice_whole]
  exact congrArg (fun R : Rect S16x256x256 => R.set)
    (Rect.unit_congr (show (![1 + r.val, 0, 0] : Fin 3 → ℕ) = ![r.succ.val, 0, 0] by rw [Fin.val_succ, Nat.add_comm])
      (slot_inb r) (row_inb r.succ))

/-- Slot 0 of the landing scratch, held at the scratch's contents `f`. -/
def slot0Pts (c : Dev nD) (f : Buf (Elt F) ((c : Thread nD τ).loc cc0_scratch0)) : sProp 𝕄 :=
  ((c : Thread nD τ).loc cc0_scratch0) ↦[rowSet 0]{fullShare} f

omit [FloatOps F] in
theorem slotPts_eq (c : Dev nD) (r : Fin 15) (f : Buf (Elt F) ((c : Thread nD τ).loc cc0_scratch0)) :
    slotPts c r f = (((c : Thread nD τ).loc cc0_scratch0) ↦[rowSet r.succ]{fullShare} f : sProp 𝕄) := by
  unfold slotPts
  rw [slot_set]

omit [FloatOps F] in
/-- The scratch held whole is slot 0 and the fifteen landing slots. -/
theorem slots_cut (c : Dev nD) (f : Buf (Elt F) ((c : Thread nD τ).loc cc0_scratch0)) :
    (((c : Thread nD τ).loc cc0_scratch0) ↦{fullShare} f : sProp 𝕄)
      = iprop(slot0Pts c f ∗ bigSep Finset.univ fun r : Fin 15 => slotPts c r f) := by
  rw [pointsTo_blocks rowSet rowSet_disjoint rowSet_cover f, bigSep_fin_succ]
  unfold slot0Pts
  exact congrArg (fun X : sProp 𝕄 => iprop((((c : Thread nD τ).loc cc0_scratch0) ↦[rowSet 0]{fullShare} f) ∗ X))
    (bigSep_congr fun r _ => (slotPts_eq c r f).symm)

/-- The sixteen slots, each held at some contents, are the scratch held whole at some contents. -/
theorem slots_join (c : Dev nD) :
    iprop((∃ f, slot0Pts (F := F) c f) ∗ bigSep Finset.univ fun r : Fin 15 => iprop(∃ f, slotPts (F := F) c r f))
      ⊢ (iprop(∃ g, ((c : Thread nD τ).loc cc0_scratch0) ↦{fullShare} g) : sProp 𝕄) := by
  have h := pointsTo_blocks_join_exists (Ix := Unit) (Val := Elt F) (Name := ℕ) (U := UU) (Lvl := ℕ)
    (ℓ := (c : Thread nD τ).loc cc0_scratch0) rowSet rowSet_disjoint rowSet_cover (q := fullShare) (Classical.arbitrary _)
  rw [bigSep_fin_succ] at h
  refine (Entails.of_eq ?_).trans h
  unfold slot0Pts
  exact congrArg (fun X : sProp 𝕄 => iprop((∃ f, ((c : Thread nD τ).loc cc0_scratch0) ↦[rowSet 0]{fullShare} f) ∗ X))
    (bigSep_congr fun r _ => congrArg (fun Ψ : Buf (Elt F) ((c : Thread nD τ).loc cc0_scratch0) → sProp 𝕄 => iprop(∃ f, Ψ f))
      (funext fun f => slotPts_eq c r f))

/-! ## The weight scratch: three slots -/

/-- A separating conjunction over three indices, written out. -/
theorem bigSep_fin_three {M : Type*} [URA M] (Φ : Fin 3 → sProp M) :
    bigSep Finset.univ Φ = iprop(Φ 0 ∗ Φ 1 ∗ Φ 2) := by
  rw [show (Finset.univ : Finset (Fin 3)) = {0, 1, 2} by decide, bigSep_insert (by decide), bigSep_insert (by decide),
    bigSep_singleton]
  rfl

/-- The elements of weight slot `i`: first coordinate `i`, the other two free. -/
def wrowSet (i : Fin 3) : Finset S3x256x8192.Idx :=
  (Rect.unit (s := S3x256x8192) ![i.val, 0, 0] S1x256x8192.size (wslot_inb i)).set

theorem wrowSet_disjoint (i i' : Fin 3) (h : i ≠ i') : Disjoint (wrowSet i) (wrowSet i') :=
  lead_disjoint (s := S3x256x8192) (NB := 3) 0 1 (fun i : Fin 3 => ![i.val, 0, 0]) S1x256x8192.size wslot_inb
    (fun i => (Nat.one_mul _).symm) rfl i i' h

theorem wrowSet_cover : Finset.univ.biUnion wrowSet = Finset.univ :=
  lead_cover (s := S3x256x8192) (NB := 3) 0 1 (fun i : Fin 3 => ![i.val, 0, 0]) S1x256x8192.size wslot_inb
    (fun i => (Nat.one_mul _).symm) (by decide) rfl (by decide) rfl

/-- Weight slot `i`, as the copies and the loads address it, is the elements with first coordinate `i`. -/
theorem wslot_set (i : Fin 3) : (wslot i).view.set = wrowSet i := by
  show (((View.whole cc0_scratch1).slice _).reshape S256x8192 _).set = _
  rw [View.set_reshape, View.set_slice_whole]
  rfl

omit [FloatOps F] in
theorem wslotPts_eq (c : Dev nD) (i : Fin 3) (f : Buf (Elt F) ((c : Thread nD τ).loc cc0_scratch1)) :
    ((wslot i).view.loc (c : Thread nD τ) ↦[(wslot i).view.set]{fullShare} f : sProp 𝕄)
      = (((c : Thread nD τ).loc cc0_scratch1) ↦[wrowSet i]{fullShare} f : sProp 𝕄) := by
  rw [wslot_set]

omit [FloatOps F] in
/-- The weight scratch held whole is its three slots. -/
theorem wslots_cut (c : Dev nD) (f : Buf (Elt F) ((c : Thread nD τ).loc cc0_scratch1)) :
    (((c : Thread nD τ).loc cc0_scratch1) ↦{fullShare} f : sProp 𝕄)
      = iprop(bigSep Finset.univ fun i : Fin 3 => (wslot i).view.loc (c : Thread nD τ) ↦[(wslot i).view.set]{fullShare} f) := by
  rw [pointsTo_blocks wrowSet wrowSet_disjoint wrowSet_cover f]
  exact bigSep_congr fun i _ => (wslotPts_eq c i f).symm

omit [FloatOps F] in
/-- The same with the three slots written out. -/
theorem wslots_cut3 (c : Dev nD) (f : Buf (Elt F) ((c : Thread nD τ).loc cc0_scratch1)) :
    (((c : Thread nD τ).loc cc0_scratch1) ↦{fullShare} f : sProp 𝕄)
      = iprop(((wslot 0).view.loc (c : Thread nD τ) ↦[(wslot 0).view.set]{fullShare} f)
          ∗ ((wslot 1).view.loc (c : Thread nD τ) ↦[(wslot 1).view.set]{fullShare} f)
          ∗ ((wslot 2).view.loc (c : Thread nD τ) ↦[(wslot 2).view.set]{fullShare} f)) := by
  rw [wslots_cut, bigSep_fin_three]

/-- The three slots, each held at some contents, are the weight scratch held whole at some contents. -/
theorem wslots_join (c : Dev nD) :
    iprop(bigSep Finset.univ fun i : Fin 3 =>
        iprop(∃ f : Buf (Elt F) ((c : Thread nD τ).loc cc0_scratch1), (wslot i).view.loc (c : Thread nD τ) ↦[(wslot i).view.set]{fullShare} f))
      ⊢ (iprop(∃ g, ((c : Thread nD τ).loc cc0_scratch1) ↦{fullShare} g) : sProp 𝕄) := by
  have h := pointsTo_blocks_join_exists (Ix := Unit) (Val := Elt F) (Name := ℕ) (U := UU) (Lvl := ℕ)
    (ℓ := (c : Thread nD τ).loc cc0_scratch1) wrowSet wrowSet_disjoint wrowSet_cover (q := fullShare) (Classical.arbitrary _)
  refine (Entails.of_eq ?_).trans h
  exact bigSep_congr fun i _ => congrArg (fun Ψ : Buf (Elt F) ((c : Thread nD τ).loc cc0_scratch1) → sProp 𝕄 => iprop(∃ f, Ψ f))
    (funext fun f => wslotPts_eq c i f)

/-- The same with the three slots written out. -/
theorem wslots_join3 (c : Dev nD) :
    iprop((∃ f : Buf (Elt F) ((c : Thread nD τ).loc cc0_scratch1), (wslot 0).view.loc (c : Thread nD τ) ↦[(wslot 0).view.set]{fullShare} f)
        ∗ (∃ f : Buf (Elt F) ((c : Thread nD τ).loc cc0_scratch1), (wslot 1).view.loc (c : Thread nD τ) ↦[(wslot 1).view.set]{fullShare} f)
        ∗ (∃ f : Buf (Elt F) ((c : Thread nD τ).loc cc0_scratch1), (wslot 2).view.loc (c : Thread nD τ) ↦[(wslot 2).view.set]{fullShare} f))
      ⊢ (iprop(∃ g, ((c : Thread nD τ).loc cc0_scratch1) ↦{fullShare} g) : sProp 𝕄) := by
  refine (Entails.of_eq ?_).trans (wslots_join c)
  rw [bigSep_fin_three]

end Cert.Kernel.A2A

end
-- ==== Proof.Bits.Stg.lean ====
/-
  A staging buffer held whole: the form in which the pipeline hands a window's current buffer to the body and takes it back.
-/
import proofs.«900405_g7700000000000406_dist_a2a_gemm_m4096_k4096_n8192_f32_gelu_v7x_i16_1_alg».proof.Proof.Bits.Data

noncomputable section

namespace Cert.Kernel.A2A

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Staging buffer `b` of device `c`, held whole at contents equal to `X`. -/
def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- It is the memref's ownership at the full share, reading `X`. -/
theorem stg_eq_owns (c : Dev nD) (b : Ref sig .tc) (X : b.ty.Contents (Elt F)) :
    (stg c b X : sProp 𝕄) = owns (c : Thread nD τ) (Memref.whole b) fullShare X := by
  rw [owns_whole_eq]; rfl

end Cert.Kernel.A2A

end
-- ==== Proof.Bits.BodyExit.lean ====
/-
  The end of a device's body: its cells closed, its buffers rejoined.

  When the body returns, each of the device's send and receive cells has been waited on once, for the whole of its only
  round; no later round has a duty, so the owner closes the cell and takes its counter back at zero.  The landing
  scratch, cut into its sixteen slots for the transfers, is the sixteen slots joined again; the weight scratch its three
  slots; the column block and the weight matrix, lent out as read tokens, are whole again once every token is back.
-/
import proofs.«900405_g7700000000000406_dist_a2a_gemm_m4096_k4096_n8192_f32_gelu_v7x_i16_1_alg».proof.Proof.Bits.Cuts
import proofs.«900405_g7700000000000406_dist_a2a_gemm_m4096_k4096_n8192_f32_gelu_v7x_i16_1_alg».proof.Proof.Bits.Levels
import proofs.«900405_g7700000000000406_dist_a2a_gemm_m4096_k4096_n8192_f32_gelu_v7x_i16_1_alg».proof.Proof.Bits.Stg

noncomputable section

namespace Cert.Kernel.A2A

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Fifteen conjuncts, written out -/

/-- A separating conjunction over the fifteen offsets, written out. -/
theorem bigSep_fin15 {M : Type*} [URA M] (Φ : Fin 15 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-! ## Closing the cells -/

/-- A cell whose owner has consumed its only round closes: the counter, at zero, is the owner's again. -/
theorem cell_close1 (g : GSem nD τ sig) (κ : ℕ) :
    iprop(cellInv ER (a2aRd m) κ g ∗ atPos ER g 1 ∅ 0) ⊢ (|={Set.univ}=> semVal g 0 : sProp 𝕄) :=
  Rounds.cell_close ER (a2aRd m) (Set.mem_univ κ) (fun h => h) (R := 1) (duties_later m g)

/-- Fifteen cells at once. -/
theorem family_close (g : Fin 15 → GSem nD τ sig) (κ : Fin 15 → ℕ) :
    iprop((bigSep Finset.univ fun r : Fin 15 => cellInv ER (a2aRd m) (κ r) (g r)) ∗ (bigSep Finset.univ fun r : Fin 15 => atPos ER (g r) 1 ∅ 0))
      ⊢ (|={Set.univ}=> bigSep Finset.univ fun r : Fin 15 => semVal (g r) 0 : sProp 𝕄) := by
  rw [← bigSep_sep']
  exact (bigSep_mono fun r _ => cell_close1 m (g r) (κ r)).trans (bigSep_fupd _ _)

/-- The device's thirty send and receive cells close: their counters come back at zero. -/
theorem cells_close (K : Dev nD × CK → ℕ) (c : Dev nD) :
    iprop((bigSep Finset.univ fun r : Fin 15 => cellInv ER (a2aRd m) (K (c, CK.send r)) (sendCell c r))
        ∗ (bigSep Finset.univ fun r : Fin 15 => cellInv ER (a2aRd m) (K (c, CK.recv r)) (recvCell c r))
        ∗ (bigSep Finset.univ fun r : Fin 15 => atPos ER (sendCell c r) 1 ∅ 0)
        ∗ (bigSep Finset.univ fun r : Fin 15 => atPos ER (recvCell c r) 1 ∅ 0))
      ⊢ (|={Set.univ}=> iprop((bigSep Finset.univ fun r : Fin 15 => semVal (sendCell c r) 0)
          ∗ (bigSep Finset.univ fun r : Fin 15 => semVal (recvCell c r) 0)) : sProp 𝕄) := by
  iintro ⟨HIs, HIr, Has, Har⟩
  imod (family_close m (fun r => sendCell c r) (fun r => K (c, CK.send r))) $$ [HIs Has] with HS
  · isplitl [HIs] <;> iassumption
  imod (family_close m (fun r => recvCell c r) (fun r => K (c, CK.recv r))) $$ [HIr Har] with HV
  · isplitl [HIr] <;> iassumption
  imodintro
  isplitl [HS] <;> iassumption

/-- The same with the thirty invariants and the thirty positions written out. -/
theorem cells_close_chain (K : Dev nD × CK → ℕ) (c : Dev nD) :
    iprop((cellInv ER (a2aRd m) (K (c, CK.send 0)) (sendCell c 0)
      ∗ cellInv ER (a2aRd m) (K (c, CK.send 1)) (sendCell c 1)
      ∗ cellInv ER (a2aRd m) (K (c, CK.send 2)) (sendCell c 2)
      ∗ cellInv ER (a2aRd m) (K (c, CK.send 3)) (sendCell c 3)
      ∗ cellInv ER (a2aRd m) (K (c, CK.send 4)) (sendCell c 4)
      ∗ cellInv ER (a2aRd m) (K (c, CK.send 5)) (sendCell c 5)
      ∗ cellInv ER (a2aRd m) (K (c, CK.send 6)) (sendCell c 6)
      ∗ cellInv ER (a2aRd m) (K (c, CK.send 7)) (sendCell c 7)
      ∗ cellInv ER (a2aRd m) (K (c, CK.send 8)) (sendCell c 8)
      ∗ cellInv ER (a2aRd m) (K (c, CK.send 9)) (sendCell c 9)
      ∗ cellInv ER (a2aRd m) (K (c, CK.send 10)) (sendCell c 10)
      ∗ cellInv ER (a2aRd m) (K (c, CK.send 11)) (sendCell c 11)
      ∗ cellInv ER (a2aRd m) (K (c, CK.send 12)) (sendCell c 12)
      ∗ cellInv ER (a2aRd m) (K (c, CK.send 13)) (sendCell c 13)
      ∗ cellInv ER (a2aRd m) (K (c, CK.send 14)) (sendCell c 14))
        ∗ (cellInv ER (a2aRd m) (K (c, CK.recv 0)) (recvCell c 0)
      ∗ cellInv ER (a2aRd m) (K (c, CK.recv 1)) (recvCell c 1)
      ∗ cellInv ER (a2aRd m) (K (c, CK.recv 2)) (recvCell c 2)
      ∗ cellInv ER (a2aRd m) (K (c, CK.recv 3)) (recvCell c 3)
      ∗ cellInv ER (a2aRd m) (K (c, CK.recv 4)) (recvCell c 4)
      ∗ cellInv ER (a2aRd m) (K (c, CK.recv 5)) (recvCell c 5)
      ∗ cellInv ER (a2aRd m) (K (c, CK.recv 6)) (recvCell c 6)
      ∗ cellInv ER (a2aRd m) (K (c, CK.recv 7)) (recvCell c 7)
      ∗ cellInv ER (a2aRd m) (K (c, CK.recv 8)) (recvCell c 8)
      ∗ cellInv ER (a2aRd m) (K (c, CK.recv 9)) (recvCell c 9)
      ∗ cellInv ER (a2aRd m) (K (c, CK.recv 10)) (recvCell c 10)
      ∗ cellInv ER (a2aRd m) (K (c, CK.recv 11)) (recvCell c 11)
      ∗ cellInv ER (a2aRd m) (K (c, CK.recv 12)) (recvCell c 12)
      ∗ cellInv ER (a2aRd m) (K (c, CK.recv 13)) (recvCell c 13)
      ∗ cellInv ER (a2aRd m) (K (c, CK.recv 14)) (recvCell c 14))
        ∗ (atPos ER (sendCell c 0) 1 ∅ 0
      ∗ atPos ER (sendCell c 1) 1 ∅ 0
      ∗ atPos ER (sendCell c 2) 1 ∅ 0
      ∗ atPos ER (sendCell c 3) 1 ∅ 0
      ∗ atPos ER (sendCell c 4) 1 ∅ 0
      ∗ atPos ER (sendCell c 5) 1 ∅ 0
      ∗ atPos ER (sendCell c 6) 1 ∅ 0
      ∗ atPos ER (sendCell c 7) 1 ∅ 0
      ∗ atPos ER (sendCell c 8) 1 ∅ 0
      ∗ atPos ER (sendCell c 9) 1 ∅ 0
      ∗ atPos ER (sendCell c 10) 1 ∅ 0
      ∗ atPos ER (sendCell c 11) 1 ∅ 0
      ∗ atPos ER (sendCell c 12) 1 ∅ 0
      ∗ atPos ER (sendCell c 13) 1 ∅ 0
      ∗ atPos ER (sendCell c 14) 1 ∅ 0)
        ∗ (atPos ER (recvCell c 0) 1 ∅ 0
      ∗ atPos ER (recvCell c 1) 1 ∅ 0
      ∗ atPos ER (recvCell c 2) 1 ∅ 0
      ∗ atPos ER (recvCell c 3) 1 ∅ 0
      ∗ atPos ER (recvCell c 4) 1 ∅ 0
      ∗ atPos ER (recvCell c 5) 1 ∅ 0
      ∗ atPos ER (recvCell c 6) 1 ∅ 0
      ∗ atPos ER (recvCell c 7) 1 ∅ 0
      ∗ atPos ER (recvCell c 8) 1 ∅ 0
      ∗ atPos ER (recvCell c 9) 1 ∅ 0
      ∗ atPos ER (recvCell c 10) 1 ∅ 0
      ∗ atPos ER (recvCell c 11) 1 ∅ 0
      ∗ atPos ER (recvCell c 12) 1 ∅ 0
      ∗ atPos ER (recvCell c 13) 1 ∅ 0
      ∗ atPos ER (recvCell c 14) 1 ∅ 0))
      ⊢ (|={Set.univ}=> iprop((bigSep Finset.univ fun r : Fin 15 => semVal (sendCell c r) 0)
          ∗ (bigSep Finset.univ fun r : Fin 15 => semVal (recvCell c r) 0)) : sProp 𝕄) := by
  have h := cells_close m K c
  rw [bigSep_fin15 (fun r : Fin 15 => cellInv ER (a2aRd m) (K (c, CK.send r)) (sendCell c r)),
    bigSep_fin15 (fun r : Fin 15 => cellInv ER (a2aRd m) (K (c, CK.recv r)) (recvCell c r)),
    bigSep_fin15 (fun r : Fin 15 => (atPos ER (sendCell c r) 1 ∅ 0 : sProp 𝕄)),
    bigSep_fin15 (fun r : Fin 15 => (atPos ER (recvCell c r) 1 ∅ 0 : sProp 𝕄))] at h
  exact h

/-! ## The buffers rejoined -/

/-- The sixteen slots of the landing scratch, written out and each at some contents, are the scratch held whole. -/
theorem slots_join_chain (c : Dev nD) :
    iprop((∃ f, slot0Pts (F := F) c f)
      ∗ (∃ f, slotPts (F := F) c 0 f)
      ∗ (∃ f, slotPts (F := F) c 1 f)
      ∗ (∃ f, slotPts (F := F) c 2 f)
      ∗ (∃ f, slotPts (F := F) c 3 f)
      ∗ (∃ f, slotPts (F := F) c 4 f)
      ∗ (∃ f, slotPts (F := F) c 5 f)
      ∗ (∃ f, slotPts (F := F) c 6 f)
      ∗ (∃ f, slotPts (F := F) c 7 f)
      ∗ (∃ f, slotPts (F := F) c 8 f)
      ∗ (∃ f, slotPts (F := F) c 9 f)
      ∗ (∃ f, slotPts (F := F) c 10 f)
      ∗ (∃ f, slotPts (F := F) c 11 f)
      ∗ (∃ f, slotPts (F := F) c 12 f)
      ∗ (∃ f, slotPts (F := F) c 13 f)
      ∗ (∃ f, slotPts (F := F) c 14 f))
      ⊢ (iprop(∃ g, ((c : Thread nD τ).loc cc0_scratch0) ↦{fullShare} g) : sProp 𝕄) := by
  have h := slots_join (F := F) c
  rw [bigSep_fin15 (fun r : Fin 15 => iprop(∃ f, slotPts (F := F) c r f))] at h
  exact h

omit [FloatOps F] in
/-- A buffer held whole at a share, less fifteen read tokens, together with the fifteen tokens, is the buffer at the share. -/
theorem toks15_join (ℓ : Loc nD τ sig) (f : Buf (Elt F) ℓ) :
    iprop((ℓ ↦[Finset.univ]{Transfers.shareDrop fullShare 15} f) ∗ bigSep Finset.univ fun r : Fin 15 => (ℓ ↦[Finset.univ]{Transfers.shareTok fullShare 15 r} f))
      ⊢ (ℓ ↦{fullShare} f : sProp 𝕄) :=
  Transfers.pointsTo_toks_join fullShare 15

/-- The column block: what is left after fifteen read tokens, and the fifteen tokens, are the staged block whole. -/
theorem x_join (c : Dev nD) :
    iprop(((xM : Memref sig .tc .vmem S4096x256 .f32).view.loc (c : Thread nD τ) ↦[(xM : Memref sig .tc .vmem S4096x256 .f32).view.set]{Transfers.shareDrop fullShare 15} xstg m c)
        ∗ bigSep Finset.univ fun r : Fin 15 => ((xM : Memref sig .tc .vmem S4096x256 .f32).view.loc (c : Thread nD τ) ↦[(xM : Memref sig .tc .vmem S4096x256 .f32).view.set]{xShare r} xstg m c))
      ⊢ ((((c : Thread nD τ).loc cc0_stg0_0) ↦{fullShare} xstg m c) : sProp 𝕄) := by
  rw [show (xM : Memref sig .tc .vmem S4096x256 .f32).view.set = Finset.univ from View.set_whole _]
  exact toks15_join ((c : Thread nD τ).loc cc0_stg0_0) (xstg m c)

/-- The same with the fifteen tokens written out. -/
theorem x_join_chain (c : Dev nD) :
    iprop(((xM : Memref sig .tc .vmem S4096x256 .f32).view.loc (c : Thread nD τ) ↦[(xM : Memref sig .tc .vmem S4096x256 .f32).view.set]{Transfers.shareDrop fullShare 15} xstg m c)
      ∗ ((xM : Memref sig .tc .vmem S4096x256 .f32).view.loc (c : Thread nD τ) ↦[(xM : Memref sig .tc .vmem S4096x256 .f32).view.set]{xShare 0} xstg m c)
      ∗ ((xM : Memref sig .tc .vmem S4096x256 .f32).view.loc (c : Thread nD τ) ↦[(xM : Memref sig .tc .vmem S4096x256 .f32).view.set]{xShare 1} xstg m c)
      ∗ ((xM : Memref sig .tc .vmem S4096x256 .f32).view.loc (c : Thread nD τ) ↦[(xM : Memref sig .tc .vmem S4096x256 .f32).view.set]{xShare 2} xstg m c)
      ∗ ((xM : Memref sig .tc .vmem S4096x256 .f32).view.loc (c : Thread nD τ) ↦[(xM : Memref sig .tc .vmem S4096x256 .f32).view.set]{xShare 3} xstg m c)
      ∗ ((xM : Memref sig .tc .vmem S4096x256 .f32).view.loc (c : Thread nD τ) ↦[(xM : Memref sig .tc .vmem S4096x256 .f32).view.set]{xShare 4} xstg m c)
      ∗ ((xM : Memref sig .tc .vmem S4096x256 .f32).view.loc (c : Thread nD τ) ↦[(xM : Memref sig .tc .vmem S4096x256 .f32).view.set]{xShare 5} xstg m c)
      ∗ ((xM : Memref sig .tc .vmem S4096x256 .f32).view.loc (c : Thread nD τ) ↦[(xM : Memref sig .tc .vmem S4096x256 .f32).view.set]{xShare 6} xstg m c)
      ∗ ((xM : Memref sig .tc .vmem S4096x256 .f32).view.loc (c : Thread nD τ) ↦[(xM : Memref sig .tc .vmem S4096x256 .f32).view.set]{xShare 7} xstg m c)
      ∗ ((xM : Memref sig .tc .vmem S4096x256 .f32).view.loc (c : Thread nD τ) ↦[(xM : Memref sig .tc .vmem S4096x256 .f32).view.set]{xShare 8} xstg m c)
      ∗ ((xM : Memref sig .tc .vmem S4096x256 .f32).view.loc (c : Thread nD τ) ↦[(xM : Memref sig .tc .vmem S4096x256 .f32).view.set]{xShare 9} xstg m c)
      ∗ ((xM : Memref sig .tc .vmem S4096x256 .f32).view.loc (c : Thread nD τ) ↦[(xM : Memref sig .tc .vmem S4096x256 .f32).view.set]{xShare 10} xstg m c)
      ∗ ((xM : Memref sig .tc .vmem S4096x256 .f32).view.loc (c : Thread nD τ) ↦[(xM : Memref sig .tc .vmem S4096x256 .f32).view.set]{xShare 11} xstg m c)
      ∗ ((xM : Memref sig .tc .vmem S4096x256 .f32).view.loc (c : Thread nD τ) ↦[(xM : Memref sig .tc .vmem S4096x256 .f32).view.set]{xShare 12} xstg m c)
      ∗ ((xM : Memref sig .tc .vmem S4096x256 .f32).view.loc (c : Thread nD τ) ↦[(xM : Memref sig .tc .vmem S4096x256 .f32).view.set]{xShare 13} xstg m c)
      ∗ ((xM : Memref sig .tc .vmem S4096x256 .f32).view.loc (c : Thread nD τ) ↦[(xM : Memref sig .tc .vmem S4096x256 .f32).view.set]{xShare 14} xstg m c))
      ⊢ ((((c : Thread nD τ).loc cc0_stg0_0) ↦{fullShare} xstg m c) : sProp 𝕄) := by
  have h := x_join m c
  rw [bigSep_fin15 (fun r : Fin 15 => ((xM : Memref sig .tc .vmem S4096x256 .f32).view.loc (c : Thread nD τ) ↦[(xM : Memref sig .tc .vmem S4096x256 .f32).view.set]{xShare r} xstg m c : sProp 𝕄))] at h
  exact h

omit [FloatOps F] in
/-- The weight matrix: what is left after three read tokens, and the three tokens, are the matrix whole. -/
theorem w_join (c : Dev nD) :
    iprop(((wM : Memref sig .tc .hbm S4096x8192 .f32).view.loc (c : Thread nD τ) ↦[(wM : Memref sig .tc .hbm S4096x8192 .f32).view.set]{Transfers.shareDrop fullShare 3} m ((c : Thread nD τ).loc main_arg1))
        ∗ ((wM : Memref sig .tc .hbm S4096x8192 .f32).view.loc (c : Thread nD τ) ↦[(wM : Memref sig .tc .hbm S4096x8192 .f32).view.set]{Transfers.shareTok fullShare 3 0} m ((c : Thread nD τ).loc main_arg1))
        ∗ ((wM : Memref sig .tc .hbm S4096x8192 .f32).view.loc (c : Thread nD τ) ↦[(wM : Memref sig .tc .hbm S4096x8192 .f32).view.set]{Transfers.shareTok fullShare 3 1} m ((c : Thread nD τ).loc main_arg1))
        ∗ ((wM : Memref sig .tc .hbm S4096x8192 .f32).view.loc (c : Thread nD τ) ↦[(wM : Memref sig .tc .hbm S4096x8192 .f32).view.set]{Transfers.shareTok fullShare 3 2} m ((c : Thread nD τ).loc main_arg1)))
      ⊢ (wPts m c : sProp 𝕄) := by
  have h := Transfers.pointsTo_toks_join (Ix := Unit) (Val := Elt F) (Name := ℕ) (U := UU) (Lvl := ℕ) (ℓ := (c : Thread nD τ).loc main_arg1)
    (S := Finset.univ) (f := m ((c : Thread nD τ).loc main_arg1)) fullShare 3
  rw [bigSep_fin_three] at h
  rw [show (wM : Memref sig .tc .hbm S4096x8192 .f32).view.set = Finset.univ from View.set_whole _]
  exact h

/-! ## The column block's read tokens, carved -/

omit [FloatOps F] in
/-- The rows transfer `r` carries are among the staged block's elements. -/
theorem slab_subset (c : Dev nD) (r : Fin 15) : (slab c r).view.set ⊆ (xM : Memref sig .tc .vmem S4096x256 .f32).view.set := by
  show ((xM : Memref sig .tc .vmem S4096x256 .f32).view.slice _).set ⊆ _
  exact View.set_slice_subset _ _

/-- What is left of read token `r` of the column block once the rows of transfer `r` are carved out of it. -/
def xRest (c : Dev nD) (r : Fin 15) : sProp 𝕄 :=
  (xM : Memref sig .tc .vmem S4096x256 .f32).view.loc (c : Thread nD τ) ↦[(xM : Memref sig .tc .vmem S4096x256 .f32).view.set \ (slab c r).view.set]{xShare r} xstg m c

/-- Read token `r` of the column block is the rows transfer `r` carries, at the token's share, and the rest of the token. -/
theorem tok_carve (c : Dev nD) (r : Fin 15) :
    ((xM : Memref sig .tc .vmem S4096x256 .f32).view.loc (c : Thread nD τ) ↦[(xM : Memref sig .tc .vmem S4096x256 .f32).view.set]{xShare r} xstg m c : sProp 𝕄)
      ⊣⊢ iprop(slabPts m c r ∗ xRest m c r) := by
  unfold slabPts xRest
  exact pointsTo_split_subset (slab_subset c r)

/-- Carving: a token held whole gives the slab's rows and the rest; -/
theorem tok_split (c : Dev nD) (r : Fin 15) :
    ((xM : Memref sig .tc .vmem S4096x256 .f32).view.loc (c : Thread nD τ) ↦[(xM : Memref sig .tc .vmem S4096x256 .f32).view.set]{xShare r} xstg m c : sProp 𝕄) ⊢ iprop(slabPts m c r ∗ xRest m c r) :=
  (tok_carve m c r).1
/-- and putting them back. -/
theorem tok_join (c : Dev nD) (r : Fin 15) :
    iprop(slabPts m c r ∗ xRest m c r) ⊢ ((xM : Memref sig .tc .vmem S4096x256 .f32).view.loc (c : Thread nD τ) ↦[(xM : Memref sig .tc .vmem S4096x256 .f32).view.set]{xShare r} xstg m c : sProp 𝕄) :=
  (tok_carve m c r).2

/-- The column block whole again from what is left after fifteen tokens and the fifteen tokens, each held carved. -/
theorem x_join_carved (c : Dev nD) :
    iprop(((xM : Memref sig .tc .vmem S4096x256 .f32).view.loc (c : Thread nD τ) ↦[(xM : Memref sig .tc .vmem S4096x256 .f32).view.set]{Transfers.shareDrop fullShare 15} xstg m c)
        ∗ bigSep Finset.univ fun r : Fin 15 => iprop(slabPts m c r ∗ xRest m c r))
      ⊢ ((((c : Thread nD τ).loc cc0_stg0_0) ↦{fullShare} xstg m c) : sProp 𝕄) :=
  (BI.sep_mono (BI.Entails.refl _) (bigSep_mono fun r _ => tok_join m c r)).trans (x_join m c)

/-- The same with the fifteen carved tokens written out. -/
theorem x_join_carved_chain (c : Dev nD) :
    iprop(((xM : Memref sig .tc .vmem S4096x256 .f32).view.loc (c : Thread nD τ) ↦[(xM : Memref sig .tc .vmem S4096x256 .f32).view.set]{Transfers.shareDrop fullShare 15} xstg m c)
      ∗ (slabPts m c 0 ∗ xRest m c 0)
      ∗ (slabPts m c 1 ∗ xRest m c 1)
      ∗ (slabPts m c 2 ∗ xRest m c 2)
      ∗ (slabPts m c 3 ∗ xRest m c 3)
      ∗ (slabPts m c 4 ∗ xRest m c 4)
      ∗ (slabPts m c 5 ∗ xRest m c 5)
      ∗ (slabPts m c 6 ∗ xRest m c 6)
      ∗ (slabPts m c 7 ∗ xRest m c 7)
      ∗ (slabPts m c 8 ∗ xRest m c 8)
      ∗ (slabPts m c 9 ∗ xRest m c 9)
      ∗ (slabPts m c 10 ∗ xRest m c 10)
      ∗ (slabPts m c 11 ∗ xRest m c 11)
      ∗ (slabPts m c 12 ∗ xRest m c 12)
      ∗ (slabPts m c 13 ∗ xRest m c 13)
      ∗ (slabPts m c 14 ∗ xRest m c 14))
      ⊢ ((((c : Thread nD τ).loc cc0_stg0_0) ↦{fullShare} xstg m c) : sProp 𝕄) := by
  have h := x_join_carved m c
  rw [bigSep_fin15 (fun r : Fin 15 => (iprop(slabPts m c r ∗ xRest m c r) : sProp 𝕄))] at h
  exact h

/-- Cutting at entry: the staged block whole is what is left after fifteen tokens and the fifteen tokens, each carved. -/
theorem x_split_carved (c : Dev nD) :
    ((((c : Thread nD τ).loc cc0_stg0_0) ↦{fullShare} xstg m c) : sProp 𝕄)
      ⊢ iprop(((xM : Memref sig .tc .vmem S4096x256 .f32).view.loc (c : Thread nD τ) ↦[(xM : Memref sig .tc .vmem S4096x256 .f32).view.set]{Transfers.shareDrop fullShare 15} xstg m c)
        ∗ bigSep Finset.univ fun r : Fin 15 => iprop(slabPts m c r ∗ xRest m c r)) := by
  refine (show ((((c : Thread nD τ).loc cc0_stg0_0) ↦{fullShare} xstg m c) : sProp 𝕄)
      ⊢ iprop(((xM : Memref sig .tc .vmem S4096x256 .f32).view.loc (c : Thread nD τ) ↦[(xM : Memref sig .tc .vmem S4096x256 .f32).view.set]{Transfers.shareDrop fullShare 15} xstg m c)
        ∗ bigSep Finset.univ fun r : Fin 15 => ((xM : Memref sig .tc .vmem S4096x256 .f32).view.loc (c : Thread nD τ) ↦[(xM : Memref sig .tc .vmem S4096x256 .f32).view.set]{xShare r} xstg m c)) from ?_).trans
    (BI.sep_mono (BI.Entails.refl _) (bigSep_mono fun r _ => tok_split m c r))
  rw [show (xM : Memref sig .tc .vmem S4096x256 .f32).view.set = Finset.univ from View.set_whole _]
  exact Transfers.pointsTo_toks_split fullShare 15

/-! ## The exit -/

/-- A separating conjunction over five indices, written out. -/
theorem bigSep_fin5 {M : Type*} [URA M] (Φ : Fin 5 → sProp M) :
    bigSep Finset.univ Φ = iprop(Φ 0 ∗ Φ 1 ∗ Φ 2 ∗ Φ 3 ∗ Φ 4) :=
  bigSep_univ_eq_bigSepL [0, 1, 2, 3, 4] (by decide) (by decide) Φ

/-- What a device holds when its body returns gives back what the point after the body asks: the weight matrix whole, the
    two scratch buffers whole at some contents, every counter of the kernel's own semaphores at zero, nothing owed, and
    the two staging buffers — the column block as it was staged, the result at the computed contents.  Here the column
    block is already whole again. -/
theorem exit_core (K : Dev nD × CK → ℕ) (c : Dev nD) (t : Fin cfg0.N) (W' : Finset (SemLoc sig × Unit)) :
    iprop(((cellInv ER (a2aRd m) (K (c, CK.send 0)) (sendCell c 0)
      ∗ cellInv ER (a2aRd m) (K (c, CK.send 1)) (sendCell c 1)
      ∗ cellInv ER (a2aRd m) (K (c, CK.send 2)) (sendCell c 2)
      ∗ cellInv ER (a2aRd m) (K (c, CK.send 3)) (sendCell c 3)
      ∗ cellInv ER (a2aRd m) (K (c, CK.send 4)) (sendCell c 4)
      ∗ cellInv ER (a2aRd m) (K (c, CK.send 5)) (sendCell c 5)
      ∗ cellInv ER (a2aRd m) (K (c, CK.send 6)) (sendCell c 6)
      ∗ cellInv ER (a2aRd m) (K (c, CK.send 7)) (sendCell c 7)
      ∗ cellInv ER (a2aRd m) (K (c, CK.send 8)) (sendCell c 8)
      ∗ cellInv ER (a2aRd m) (K (c, CK.send 9)) (sendCell c 9)
      ∗ cellInv ER (a2aRd m) (K (c, CK.send 10)) (sendCell c 10)
      ∗ cellInv ER (a2aRd m) (K (c, CK.send 11)) (sendCell c 11)
      ∗ cellInv ER (a2aRd m) (K (c, CK.send 12)) (sendCell c 12)
      ∗ cellInv ER (a2aRd m) (K (c, CK.send 13)) (sendCell c 13)
      ∗ cellInv ER (a2aRd m) (K (c, CK.send 14)) (sendCell c 14))
        ∗ (cellInv ER (a2aRd m) (K (c, CK.recv 0)) (recvCell c 0)
      ∗ cellInv ER (a2aRd m) (K (c, CK.recv 1)) (recvCell c 1)
      ∗ cellInv ER (a2aRd m) (K (c, CK.recv 2)) (recvCell c 2)
      ∗ cellInv ER (a2aRd m) (K (c, CK.recv 3)) (recvCell c 3)
      ∗ cellInv ER (a2aRd m) (K (c, CK.recv 4)) (recvCell c 4)
      ∗ cellInv ER (a2aRd m) (K (c, CK.recv 5)) (recvCell c 5)
      ∗ cellInv ER (a2aRd m) (K (c, CK.recv 6)) (recvCell c 6)
      ∗ cellInv ER (a2aRd m) (K (c, CK.recv 7)) (recvCell c 7)
      ∗ cellInv ER (a2aRd m) (K (c, CK.recv 8)) (recvCell c 8)
      ∗ cellInv ER (a2aRd m) (K (c, CK.recv 9)) (recvCell c 9)
      ∗ cellInv ER (a2aRd m) (K (c, CK.recv 10)) (recvCell c 10)
      ∗ cellInv ER (a2aRd m) (K (c, CK.recv 11)) (recvCell c 11)
      ∗ cellInv ER (a2aRd m) (K (c, CK.recv 12)) (recvCell c 12)
      ∗ cellInv ER (a2aRd m) (K (c, CK.recv 13)) (recvCell c 13)
      ∗ cellInv ER (a2aRd m) (K (c, CK.recv 14)) (recvCell c 14))
        ∗ (atPos ER (sendCell c 0) 1 ∅ 0
      ∗ atPos ER (sendCell c 1) 1 ∅ 0
      ∗ atPos ER (sendCell c 2) 1 ∅ 0
      ∗ atPos ER (sendCell c 3) 1 ∅ 0
      ∗ atPos ER (sendCell c 4) 1 ∅ 0
      ∗ atPos ER (sendCell c 5) 1 ∅ 0
      ∗ atPos ER (sendCell c 6) 1 ∅ 0
      ∗ atPos ER (sendCell c 7) 1 ∅ 0
      ∗ atPos ER (sendCell c 8) 1 ∅ 0
      ∗ atPos ER (sendCell c 9) 1 ∅ 0
      ∗ atPos ER (sendCell c 10) 1 ∅ 0
      ∗ atPos ER (sendCell c 11) 1 ∅ 0
      ∗ atPos ER (sendCell c 12) 1 ∅ 0
      ∗ atPos ER (sendCell c 13) 1 ∅ 0
      ∗ atPos ER (sendCell c 14) 1 ∅ 0)
        ∗ (atPos ER (recvCell c 0) 1 ∅ 0
      ∗ atPos ER (recvCell c 1) 1 ∅ 0
      ∗ atPos ER (recvCell c 2) 1 ∅ 0
      ∗ atPos ER (recvCell c 3) 1 ∅ 0
      ∗ atPos ER (recvCell c 4) 1 ∅ 0
      ∗ atPos ER (recvCell c 5) 1 ∅ 0
      ∗ atPos ER (recvCell c 6) 1 ∅ 0
      ∗ atPos ER (recvCell c 7) 1 ∅ 0
      ∗ atPos ER (recvCell c 8) 1 ∅ 0
      ∗ atPos ER (recvCell c 9) 1 ∅ 0
      ∗ atPos ER (recvCell c 10) 1 ∅ 0
      ∗ atPos ER (recvCell c 11) 1 ∅ 0
      ∗ atPos ER (recvCell c 12) 1 ∅ 0
      ∗ atPos ER (recvCell c 13) 1 ∅ 0
      ∗ atPos ER (recvCell c 14) 1 ∅ 0))
      ∗ ((∃ f, slot0Pts (F := F) c f)
      ∗ (∃ f, slotPts (F := F) c 0 f)
      ∗ (∃ f, slotPts (F := F) c 1 f)
      ∗ (∃ f, slotPts (F := F) c 2 f)
      ∗ (∃ f, slotPts (F := F) c 3 f)
      ∗ (∃ f, slotPts (F := F) c 4 f)
      ∗ (∃ f, slotPts (F := F) c 5 f)
      ∗ (∃ f, slotPts (F := F) c 6 f)
      ∗ (∃ f, slotPts (F := F) c 7 f)
      ∗ (∃ f, slotPts (F := F) c 8 f)
      ∗ (∃ f, slotPts (F := F) c 9 f)
      ∗ (∃ f, slotPts (F := F) c 10 f)
      ∗ (∃ f, slotPts (F := F) c 11 f)
      ∗ (∃ f, slotPts (F := F) c 12 f)
      ∗ (∃ f, slotPts (F := F) c 13 f)
      ∗ (∃ f, slotPts (F := F) c 14 f))
      ∗ ((∃ f : Buf (Elt F) ((c : Thread nD τ).loc cc0_scratch1), (wslot 0).view.loc (c : Thread nD τ) ↦[(wslot 0).view.set]{fullShare} f)
        ∗ (∃ f : Buf (Elt F) ((c : Thread nD τ).loc cc0_scratch1), (wslot 1).view.loc (c : Thread nD τ) ↦[(wslot 1).view.set]{fullShare} f)
        ∗ (∃ f : Buf (Elt F) ((c : Thread nD τ).loc cc0_scratch1), (wslot 2).view.loc (c : Thread nD τ) ↦[(wslot 2).view.set]{fullShare} f))
      ∗ (((c : Thread nD τ).loc cc0_stg0_0) ↦{fullShare} xstg m c)
      ∗ (((wM : Memref sig .tc .hbm S4096x8192 .f32).view.loc (c : Thread nD τ) ↦[(wM : Memref sig .tc .hbm S4096x8192 .f32).view.set]{Transfers.shareDrop fullShare 3} m ((c : Thread nD τ).loc main_arg1))
        ∗ ((wM : Memref sig .tc .hbm S4096x8192 .f32).view.loc (c : Thread nD τ) ↦[(wM : Memref sig .tc .hbm S4096x8192 .f32).view.set]{Transfers.shareTok fullShare 3 0} m ((c : Thread nD τ).loc main_arg1))
        ∗ ((wM : Memref sig .tc .hbm S4096x8192 .f32).view.loc (c : Thread nD τ) ↦[(wM : Memref sig .tc .hbm S4096x8192 .f32).view.set]{Transfers.shareTok fullShare 3 1} m ((c : Thread nD τ).loc main_arg1))
        ∗ ((wM : Memref sig .tc .hbm S4096x8192 .f32).view.loc (c : Thread nD τ) ↦[(wM : Memref sig .tc .hbm S4096x8192 .f32).view.set]{Transfers.shareTok fullShare 3 2} m ((c : Thread nD τ).loc main_arg1)))
      ∗ (semVal ((c : Thread nD τ), idleSem 0) 0 ∗ semVal ((c : Thread nD τ), idleSem 1) 0 ∗ semVal ((c : Thread nD τ), idleSem 2) 0
        ∗ semVal ((c : Thread nD τ), idleSem 3) 0 ∗ semVal ((c : Thread nD τ), idleSem 4) 0)
      ∗ ((oM : Memref sig .tc .vmem S256x8192 .f32).view.loc (c : Thread nD τ) ↦[(oM : Memref sig .tc .vmem S256x8192 .f32).view.set]{fullShare} outAt m c)
      ∗ owes (c : Thread nD τ) (0 : CellTallies nD τ sig Unit) W')
      ⊢ (|={Set.univ}=> iprop(Φ₁ m c ∗ (dats m ρ 0 c).owesAt () t.succ ∗ stg c cc0_stg0_0 (xstg m c) ∗ stg c cc0_stg1_0 (outAt m c)) : sProp 𝕄) := by
  iintro ⟨Hcells, Hslots, Hws, Hxw, Hw, Hidle, Hout, HO⟩
  imod (cells_close_chain m K c) $$ Hcells with ⟨HS, HV⟩
  ihave Hscr := (slots_join_chain (F := F) c) $$ Hslots
  ihave Hwscr := (wslots_join3 (F := F) c) $$ Hws
  ihave Hww := (w_join m c) $$ Hw
  imodintro
  unfold Φ₁ stg
  isplitl [Hww Hscr Hwscr HS HV Hidle]
  · isplitl [Hww]; · iexact Hww
    isplitl [Hscr]; · iexact Hscr
    isplitl [Hwscr]; · iexact Hwscr
    isplitl [HS]; · iexact HS
    isplitl [HV]; · iexact HV
    unfold idleSems; rw [bigSep_fin5]; iexact Hidle
  isplitl [HO]
  · iexists W'
    isplitr; · ipureintro; exact fun _ _ => Or.inl (Set.mem_univ _)
    iexact HO
  isplitl [Hxw]
  · iexists (xstg m c); isplitr; · ipureintro; rfl
    iexact Hxw
  · iexists (outAt m c); isplitr; · ipureintro; rfl
    rw [show (oM : Memref sig .tc .vmem S256x8192 .f32).view.set = Finset.univ from View.set_whole _]
    iexact Hout

/-- The exit with the column block's fifteen read tokens held whole. -/
theorem exit (K : Dev nD × CK → ℕ) (c : Dev nD) (t : Fin cfg0.N) (W' : Finset (SemLoc sig × Unit)) :
    iprop(((cellInv ER (a2aRd m) (K (c, CK.send 0)) (sendCell c 0)
      ∗ cellInv ER (a2aRd m) (K (c, CK.send 1)) (sendCell c 1)
      ∗ cellInv ER (a2aRd m) (K (c, CK.send 2)) (sendCell c 2)
      ∗ cellInv ER (a2aRd m) (K (c, CK.send 3)) (sendCell c 3)
      ∗ cellInv ER (a2aRd m) (K (c, CK.send 4)) (sendCell c 4)
      ∗ cellInv ER (a2aRd m) (K (c, CK.send 5)) (sendCell c 5)
      ∗ cellInv ER (a2aRd m) (K (c, CK.send 6)) (sendCell c 6)
      ∗ cellInv ER (a2aRd m) (K (c, CK.send 7)) (sendCell c 7)
      ∗ cellInv ER (a2aRd m) (K (c, CK.send 8)) (sendCell c 8)
      ∗ cellInv ER (a2aRd m) (K (c, CK.send 9)) (sendCell c 9)
      ∗ cellInv ER (a2aRd m) (K (c, CK.send 10)) (sendCell c 10)
      ∗ cellInv ER (a2aRd m) (K (c, CK.send 11)) (sendCell c 11)
      ∗ cellInv ER (a2aRd m) (K (c, CK.send 12)) (sendCell c 12)
      ∗ cellInv ER (a2aRd m) (K (c, CK.send 13)) (sendCell c 13)
      ∗ cellInv ER (a2aRd m) (K (c, CK.send 14)) (sendCell c 14))
        ∗ (cellInv ER (a2aRd m) (K (c, CK.recv 0)) (recvCell c 0)
      ∗ cellInv ER (a2aRd m) (K (c, CK.recv 1)) (recvCell c 1)
      ∗ cellInv ER (a2aRd m) (K (c, CK.recv 2)) (recvCell c 2)
      ∗ cellInv ER (a2aRd m) (K (c, CK.recv 3)) (recvCell c 3)
      ∗ cellInv ER (a2aRd m) (K (c, CK.recv 4)) (recvCell c 4)
      ∗ cellInv ER (a2aRd m) (K (c, CK.recv 5)) (recvCell c 5)
      ∗ cellInv ER (a2aRd m) (K (c, CK.recv 6)) (recvCell c 6)
      ∗ cellInv ER (a2aRd m) (K (c, CK.recv 7)) (recvCell c 7)
      ∗ cellInv ER (a2aRd m) (K (c, CK.recv 8)) (recvCell c 8)
      ∗ cellInv ER (a2aRd m) (K (c, CK.recv 9)) (recvCell c 9)
      ∗ cellInv ER (a2aRd m) (K (c, CK.recv 10)) (recvCell c 10)
      ∗ cellInv ER (a2aRd m) (K (c, CK.recv 11)) (recvCell c 11)
      ∗ cellInv ER (a2aRd m) (K (c, CK.recv 12)) (recvCell c 12)
      ∗ cellInv ER (a2aRd m) (K (c, CK.recv 13)) (recvCell c 13)
      ∗ cellInv ER (a2aRd m) (K (c, CK.recv 14)) (recvCell c 14))
        ∗ (atPos ER (sendCell c 0) 1 ∅ 0
      ∗ atPos ER (sendCell c 1) 1 ∅ 0
      ∗ atPos ER (sendCell c 2) 1 ∅ 0
      ∗ atPos ER (sendCell c 3) 1 ∅ 0
      ∗ atPos ER (sendCell c 4) 1 ∅ 0
      ∗ atPos ER (sendCell c 5) 1 ∅ 0
      ∗ atPos ER (sendCell c 6) 1 ∅ 0
      ∗ atPos ER (sendCell c 7) 1 ∅ 0
      ∗ atPos ER (sendCell c 8) 1 ∅ 0
      ∗ atPos ER (sendCell c 9) 1 ∅ 0
      ∗ atPos ER (sendCell c 10) 1 ∅ 0
      ∗ atPos ER (sendCell c 11) 1 ∅ 0
      ∗ atPos ER (sendCell c 12) 1 ∅ 0
      ∗ atPos ER (sendCell c 13) 1 ∅ 0
      ∗ atPos ER (sendCell c 14) 1 ∅ 0)
        ∗ (atPos ER (recvCell c 0) 1 ∅ 0
      ∗ atPos ER (recvCell c 1) 1 ∅ 0
      ∗ atPos ER (recvCell c 2) 1 ∅ 0
      ∗ atPos ER (recvCell c 3) 1 ∅ 0
      ∗ atPos ER (recvCell c 4) 1 ∅ 0
      ∗ atPos ER (recvCell c 5) 1 ∅ 0
      ∗ atPos ER (recvCell c 6) 1 ∅ 0
      ∗ atPos ER (recvCell c 7) 1 ∅ 0
      ∗ atPos ER (recvCell c 8) 1 ∅ 0
      ∗ atPos ER (recvCell c 9) 1 ∅ 0
      ∗ atPos ER (recvCell c 10) 1 ∅ 0
      ∗ atPos ER (recvCell c 11) 1 ∅ 0
      ∗ atPos ER (recvCell c 12) 1 ∅ 0
      ∗ atPos ER (recvCell c 13) 1 ∅ 0
      ∗ atPos ER (recvCell c 14) 1 ∅ 0))
      ∗ ((∃ f, slot0Pts (F := F) c f)
      ∗ (∃ f, slotPts (F := F) c 0 f)
      ∗ (∃ f, slotPts (F := F) c 1 f)
      ∗ (∃ f, slotPts (F := F) c 2 f)
      ∗ (∃ f, slotPts (F := F) c 3 f)
      ∗ (∃ f, slotPts (F := F) c 4 f)
      ∗ (∃ f, slotPts (F := F) c 5 f)
      ∗ (∃ f, slotPts (F := F) c 6 f)
      ∗ (∃ f, slotPts (F := F) c 7 f)
      ∗ (∃ f, slotPts (F := F) c 8 f)
      ∗ (∃ f, slotPts (F := F) c 9 f)
      ∗ (∃ f, slotPts (F := F) c 10 f)
      ∗ (∃ f, slotPts (F := F) c 11 f)
      ∗ (∃ f, slotPts (F := F) c 12 f)
      ∗ (∃ f, slotPts (F := F) c 13 f)
      ∗ (∃ f, slotPts (F := F) c 14 f))
      ∗ ((∃ f : Buf (Elt F) ((c : Thread nD τ).loc cc0_scratch1), (wslot 0).view.loc (c : Thread nD τ) ↦[(wslot 0).view.set]{fullShare} f)
        ∗ (∃ f : Buf (Elt F) ((c : Thread nD τ).loc cc0_scratch1), (wslot 1).view.loc (c : Thread nD τ) ↦[(wslot 1).view.set]{fullShare} f)
        ∗ (∃ f : Buf (Elt F) ((c : Thread nD τ).loc cc0_scratch1), (wslot 2).view.loc (c : Thread nD τ) ↦[(wslot 2).view.set]{fullShare} f))
      ∗ (((xM : Memref sig .tc .vmem S4096x256 .f32).view.loc (c : Thread nD τ) ↦[(xM : Memref sig .tc .vmem S4096x256 .f32).view.set]{Transfers.shareDrop fullShare 15} xstg m c)
      ∗ ((xM : Memref sig .tc .vmem S4096x256 .f32).view.loc (c : Thread nD τ) ↦[(xM : Memref sig .tc .vmem S4096x256 .f32).view.set]{xShare 0} xstg m c)
      ∗ ((xM : Memref sig .tc .vmem S4096x256 .f32).view.loc (c : Thread nD τ) ↦[(xM : Memref sig .tc .vmem S4096x256 .f32).view.set]{xShare 1} xstg m c)
      ∗ ((xM : Memref sig .tc .vmem S4096x256 .f32).view.loc (c : Thread nD τ) ↦[(xM : Memref sig .tc .vmem S4096x256 .f32).view.set]{xShare 2} xstg m c)
      ∗ ((xM : Memref sig .tc .vmem S4096x256 .f32).view.loc (c : Thread nD τ) ↦[(xM : Memref sig .tc .vmem S4096x256 .f32).view.set]{xShare 3} xstg m c)
      ∗ ((xM : Memref sig .tc .vmem S4096x256 .f32).view.loc (c : Thread nD τ) ↦[(xM : Memref sig .tc .vmem S4096x256 .f32).view.set]{xShare 4} xstg m c)
      ∗ ((xM : Memref sig .tc .vmem S4096x256 .f32).view.loc (c : Thread nD τ) ↦[(xM : Memref sig .tc .vmem S4096x256 .f32).view.set]{xShare 5} xstg m c)
      ∗ ((xM : Memref sig .tc .vmem S4096x256 .f32).view.loc (c : Thread nD τ) ↦[(xM : Memref sig .tc .vmem S4096x256 .f32).view.set]{xShare 6} xstg m c)
      ∗ ((xM : Memref sig .tc .vmem S4096x256 .f32).view.loc (c : Thread nD τ) ↦[(xM : Memref sig .tc .vmem S4096x256 .f32).view.set]{xShare 7} xstg m c)
      ∗ ((xM : Memref sig .tc .vmem S4096x256 .f32).view.loc (c : Thread nD τ) ↦[(xM : Memref sig .tc .vmem S4096x256 .f32).view.set]{xShare 8} xstg m c)
      ∗ ((xM : Memref sig .tc .vmem S4096x256 .f32).view.loc (c : Thread nD τ) ↦[(xM : Memref sig .tc .vmem S4096x256 .f32).view.set]{xShare 9} xstg m c)
      ∗ ((xM : Memref sig .tc .vmem S4096x256 .f32).view.loc (c : Thread nD τ) ↦[(xM : Memref sig .tc .vmem S4096x256 .f32).view.set]{xShare 10} xstg m c)
      ∗ ((xM : Memref sig .tc .vmem S4096x256 .f32).view.loc (c : Thread nD τ) ↦[(xM : Memref sig .tc .vmem S4096x256 .f32).view.set]{xShare 11} xstg m c)
      ∗ ((xM : Memref sig .tc .vmem S4096x256 .f32).view.loc (c : Thread nD τ) ↦[(xM : Memref sig .tc .vmem S4096x256 .f32).view.set]{xShare 12} xstg m c)
      ∗ ((xM : Memref sig .tc .vmem S4096x256 .f32).view.loc (c : Thread nD τ) ↦[(xM : Memref sig .tc .vmem S4096x256 .f32).view.set]{xShare 13} xstg m c)
      ∗ ((xM : Memref sig .tc .vmem S4096x256 .f32).view.loc (c : Thread nD τ) ↦[(xM : Memref sig .tc .vmem S4096x256 .f32).view.set]{xShare 14} xstg m c))
      ∗ (((wM : Memref sig .tc .hbm S4096x8192 .f32).view.loc (c : Thread nD τ) ↦[(wM : Memref sig .tc .hbm S4096x8192 .f32).view.set]{Transfers.shareDrop fullShare 3} m ((c : Thread nD τ).loc main_arg1))
        ∗ ((wM : Memref sig .tc .hbm S4096x8192 .f32).view.loc (c : Thread nD τ) ↦[(wM : Memref sig .tc .hbm S4096x8192 .f32).view.set]{Transfers.shareTok fullShare 3 0} m ((c : Thread nD τ).loc main_arg1))
        ∗ ((wM : Memref sig .tc .hbm S4096x8192 .f32).view.loc (c : Thread nD τ) ↦[(wM : Memref sig .tc .hbm S4096x8192 .f32).view.set]{Transfers.shareTok fullShare 3 1} m ((c : Thread nD τ).loc main_arg1))
        ∗ ((wM : Memref sig .tc .hbm S4096x8192 .f32).view.loc (c : Thread nD τ) ↦[(wM : Memref sig .tc .hbm S4096x8192 .f32).view.set]{Transfers.shareTok fullShare 3 2} m ((c : Thread nD τ).loc main_arg1)))
      ∗ (semVal ((c : Thread nD τ), idleSem 0) 0 ∗ semVal ((c : Thread nD τ), idleSem 1) 0 ∗ semVal ((c : Thread nD τ), idleSem 2) 0
        ∗ semVal ((c : Thread nD τ), idleSem 3) 0 ∗ semVal ((c : Thread nD τ), idleSem 4) 0)
      ∗ ((oM : Memref sig .tc .vmem S256x8192 .f32).view.loc (c : Thread nD τ) ↦[(oM : Memref sig .tc .vmem S256x8192 .f32).view.set]{fullShare} outAt m c)
      ∗ owes (c : Thread nD τ) (0 : CellTallies nD τ sig Unit) W')
      ⊢ (|={Set.univ}=> iprop(Φ₁ m c ∗ (dats m ρ 0 c).owesAt () t.succ ∗ stg c cc0_stg0_0 (xstg m c) ∗ stg c cc0_stg1_0 (outAt m c)) : sProp 𝕄) := by
  iintro ⟨Hcells, Hslots, Hws, Hx, Hrest⟩
  ihave Hxw := (x_join_chain m c) $$ Hx
  iapply (exit_core m ρ K c t W')
  isplitl [Hcells]; · iexact Hcells
  isplitl [Hslots]; · iexact Hslots
  isplitl [Hws]; · iexact Hws
  isplitl [Hxw]; · iexact Hxw
  iexact Hrest

/-- The exit with each of the fifteen read tokens held carved: the rows its transfer carries, and the rest. -/
theorem exit_carved (K : Dev nD × CK → ℕ) (c : Dev nD) (t : Fin cfg0.N) (W' : Finset (SemLoc sig × Unit)) :
    iprop(((cellInv ER (a2aRd m) (K (c, CK.send 0)) (sendCell c 0)
      ∗ cellInv ER (a2aRd m) (K (c, CK.send 1)) (sendCell c 1)
      ∗ cellInv ER (a2aRd m) (K (c, CK.send 2)) (sendCell c 2)
      ∗ cellInv ER (a2aRd m) (K (c, CK.send 3)) (sendCell c 3)
      ∗ cellInv ER (a2aRd m) (K (c, CK.send 4)) (sendCell c 4)
      ∗ cellInv ER (a2aRd m) (K (c, CK.send 5)) (sendCell c 5)
      ∗ cellInv ER (a2aRd m) (K (c, CK.send 6)) (sendCell c 6)
      ∗ cellInv ER (a2aRd m) (K (c, CK.send 7)) (sendCell c 7)
      ∗ cellInv ER (a2aRd m) (K (c, CK.send 8)) (sendCell c 8)
      ∗ cellInv ER (a2aRd m) (K (c, CK.send 9)) (sendCell c 9)
      ∗ cellInv ER (a2aRd m) (K (c, CK.send 10)) (sendCell c 10)
      ∗ cellInv ER (a2aRd m) (K (c, CK.send 11)) (sendCell c 11)
      ∗ cellInv ER (a2aRd m) (K (c, CK.send 12)) (sendCell c 12)
      ∗ cellInv ER (a2aRd m) (K (c, CK.send 13)) (sendCell c 13)
      ∗ cellInv ER (a2aRd m) (K (c, CK.send 14)) (sendCell c 14))
        ∗ (cellInv ER (a2aRd m) (K (c, CK.recv 0)) (recvCell c 0)
      ∗ cellInv ER (a2aRd m) (K (c, CK.recv 1)) (recvCell c 1)
      ∗ cellInv ER (a2aRd m) (K (c, CK.recv 2)) (recvCell c 2)
      ∗ cellInv ER (a2aRd m) (K (c, CK.recv 3)) (recvCell c 3)
      ∗ cellInv ER (a2aRd m) (K (c, CK.recv 4)) (recvCell c 4)
      ∗ cellInv ER (a2aRd m) (K (c, CK.recv 5)) (recvCell c 5)
      ∗ cellInv ER (a2aRd m) (K (c, CK.recv 6)) (recvCell c 6)
      ∗ cellInv ER (a2aRd m) (K (c, CK.recv 7)) (recvCell c 7)
      ∗ cellInv ER (a2aRd m) (K (c, CK.recv 8)) (recvCell c 8)
      ∗ cellInv ER (a2aRd m) (K (c, CK.recv 9)) (recvCell c 9)
      ∗ cellInv ER (a2aRd m) (K (c, CK.recv 10)) (recvCell c 10)
      ∗ cellInv ER (a2aRd m) (K (c, CK.recv 11)) (recvCell c 11)
      ∗ cellInv ER (a2aRd m) (K (c, CK.recv 12)) (recvCell c 12)
      ∗ cellInv ER (a2aRd m) (K (c, CK.recv 13)) (recvCell c 13)
      ∗ cellInv ER (a2aRd m) (K (c, CK.recv 14)) (recvCell c 14))
        ∗ (atPos ER (sendCell c 0) 1 ∅ 0
      ∗ atPos ER (sendCell c 1) 1 ∅ 0
      ∗ atPos ER (sendCell c 2) 1 ∅ 0
      ∗ atPos ER (sendCell c 3) 1 ∅ 0
      ∗ atPos ER (sendCell c 4) 1 ∅ 0
      ∗ atPos ER (sendCell c 5) 1 ∅ 0
      ∗ atPos ER (sendCell c 6) 1 ∅ 0
      ∗ atPos ER (sendCell c 7) 1 ∅ 0
      ∗ atPos ER (sendCell c 8) 1 ∅ 0
      ∗ atPos ER (sendCell c 9) 1 ∅ 0
      ∗ atPos ER (sendCell c 10) 1 ∅ 0
      ∗ atPos ER (sendCell c 11) 1 ∅ 0
      ∗ atPos ER (sendCell c 12) 1 ∅ 0
      ∗ atPos ER (sendCell c 13) 1 ∅ 0
      ∗ atPos ER (sendCell c 14) 1 ∅ 0)
        ∗ (atPos ER (recvCell c 0) 1 ∅ 0
      ∗ atPos ER (recvCell c 1) 1 ∅ 0
      ∗ atPos ER (recvCell c 2) 1 ∅ 0
      ∗ atPos ER (recvCell c 3) 1 ∅ 0
      ∗ atPos ER (recvCell c 4) 1 ∅ 0
      ∗ atPos ER (recvCell c 5) 1 ∅ 0
      ∗ atPos ER (recvCell c 6) 1 ∅ 0
      ∗ atPos ER (recvCell c 7) 1 ∅ 0
      ∗ atPos ER (recvCell c 8) 1 ∅ 0
      ∗ atPos ER (recvCell c 9) 1 ∅ 0
      ∗ atPos ER (recvCell c 10) 1 ∅ 0
      ∗ atPos ER (recvCell c 11) 1 ∅ 0
      ∗ atPos ER (recvCell c 12) 1 ∅ 0
      ∗ atPos ER (recvCell c 13) 1 ∅ 0
      ∗ atPos ER (recvCell c 14) 1 ∅ 0))
      ∗ ((∃ f, slot0Pts (F := F) c f)
      ∗ (∃ f, slotPts (F := F) c 0 f)
      ∗ (∃ f, slotPts (F := F) c 1 f)
      ∗ (∃ f, slotPts (F := F) c 2 f)
      ∗ (∃ f, slotPts (F := F) c 3 f)
      ∗ (∃ f, slotPts (F := F) c 4 f)
      ∗ (∃ f, slotPts (F := F) c 5 f)
      ∗ (∃ f, slotPts (F := F) c 6 f)
      ∗ (∃ f, slotPts (F := F) c 7 f)
      ∗ (∃ f, slotPts (F := F) c 8 f)
      ∗ (∃ f, slotPts (F := F) c 9 f)
      ∗ (∃ f, slotPts (F := F) c 10 f)
      ∗ (∃ f, slotPts (F := F) c 11 f)
      ∗ (∃ f, slotPts (F := F) c 12 f)
      ∗ (∃ f, slotPts (F := F) c 13 f)
      ∗ (∃ f, slotPts (F := F) c 14 f))
      ∗ ((∃ f : Buf (Elt F) ((c : Thread nD τ).loc cc0_scratch1), (wslot 0).view.loc (c : Thread nD τ) ↦[(wslot 0).view.set]{fullShare} f)
        ∗ (∃ f : Buf (Elt F) ((c : Thread nD τ).loc cc0_scratch1), (wslot 1).view.loc (c : Thread nD τ) ↦[(wslot 1).view.set]{fullShare} f)
        ∗ (∃ f : Buf (Elt F) ((c : Thread nD τ).loc cc0_scratch1), (wslot 2).view.loc (c : Thread nD τ) ↦[(wslot 2).view.set]{fullShare} f))
      ∗ (((xM : Memref sig .tc .vmem S4096x256 .f32).view.loc (c : Thread nD τ) ↦[(xM : Memref sig .tc .vmem S4096x256 .f32).view.set]{Transfers.shareDrop fullShare 15} xstg m c)
      ∗ (slabPts m c 0 ∗ xRest m c 0)
      ∗ (slabPts m c 1 ∗ xRest m c 1)
      ∗ (slabPts m c 2 ∗ xRest m c 2)
      ∗ (slabPts m c 3 ∗ xRest m c 3)
      ∗ (slabPts m c 4 ∗ xRest m c 4)
      ∗ (slabPts m c 5 ∗ xRest m c 5)
      ∗ (slabPts m c 6 ∗ xRest m c 6)
      ∗ (slabPts m c 7 ∗ xRest m c 7)
      ∗ (slabPts m c 8 ∗ xRest m c 8)
      ∗ (slabPts m c 9 ∗ xRest m c 9)
      ∗ (slabPts m c 10 ∗ xRest m c 10)
      ∗ (slabPts m c 11 ∗ xRest m c 11)
      ∗ (slabPts m c 12 ∗ xRest m c 12)
      ∗ (slabPts m c 13 ∗ xRest m c 13)
      ∗ (slabPts m c 14 ∗ xRest m c 14))
      ∗ (((wM : Memref sig .tc .hbm S4096x8192 .f32).view.loc (c : Thread nD τ) ↦[(wM : Memref sig .tc .hbm S4096x8192 .f32).view.set]{Transfers.shareDrop fullShare 3} m ((c : Thread nD τ).loc main_arg1))
        ∗ ((wM : Memref sig .tc .hbm S4096x8192 .f32).view.loc (c : Thread nD τ) ↦[(wM : Memref sig .tc .hbm S4096x8192 .f32).view.set]{Transfers.shareTok fullShare 3 0} m ((c : Thread nD τ).loc main_arg1))
        ∗ ((wM : Memref sig .tc .hbm S4096x8192 .f32).view.loc (c : Thread nD τ) ↦[(wM : Memref sig .tc .hbm S4096x8192 .f32).view.set]{Transfers.shareTok fullShare 3 1} m ((c : Thread nD τ).loc main_arg1))
        ∗ ((wM : Memref sig .tc .hbm S4096x8192 .f32).view.loc (c : Thread nD τ) ↦[(wM : Memref sig .tc .hbm S4096x8192 .f32).view.set]{Transfers.shareTok fullShare 3 2} m ((c : Thread nD τ).loc main_arg1)))
      ∗ (semVal ((c : Thread nD τ), idleSem 0) 0 ∗ semVal ((c : Thread nD τ), idleSem 1) 0 ∗ semVal ((c : Thread nD τ), idleSem 2) 0
        ∗ semVal ((c : Thread nD τ), idleSem 3) 0 ∗ semVal ((c : Thread nD τ), idleSem 4) 0)
      ∗ ((oM : Memref sig .tc .vmem S256x8192 .f32).view.loc (c : Thread nD τ) ↦[(oM : Memref sig .tc .vmem S256x8192 .f32).view.set]{fullShare} outAt m c)
      ∗ owes (c : Thread nD τ) (0 : CellTallies nD τ sig Unit) W')
      ⊢ (|={Set.univ}=> iprop(Φ₁ m c ∗ (dats m ρ 0 c).owesAt () t.succ ∗ stg c cc0_stg0_0 (xstg m c) ∗ stg c cc0_stg1_0 (outAt m c)) : sProp 𝕄) := by
  iintro ⟨Hcells, Hslots, Hws, Hx, Hrest⟩
  ihave Hxw := (x_join_carved_chain m c) $$ Hx
  iapply (exit_core m ρ K c t W')
  isplitl [Hcells]; · iexact Hcells
  isplitl [Hslots]; · iexact Hslots
  isplitl [Hws]; · iexact Hws
  isplitl [Hxw]; · iexact Hxw
  iexact Hrest

/-- info: 'Cert.Kernel.A2A.exit' depends on axioms: [propext, Classical.choice, Quot.sound] -/
#guard_msgs in #print axioms exit
/-- info: 'Cert.Kernel.A2A.exit_carved' depends on axioms: [propext, Classical.choice, Quot.sound] -/
#guard_msgs in #print axioms exit_carved

end Cert.Kernel.A2A

end
-- ==== Proof.Bits.BodyCtx.lean ====
/-
  What a device's body starts from, one conjunct per line.

  At its one grid point a device is handed: its staged column block and the weight matrix, each whole; the staging
  buffer of its result; the two scratch buffers at some contents; the ghost state of the protocol (the invariants of
  the cells it touches, its positions, the rounds it has reached, the tokens of the duties it pays); the credit for
  what the others owe its cells; the level facts; and what it owes. The body wants these spread out: the column block
  and the weight matrix as read tokens (fifteen and three, one per transfer that reads them, plus a remainder), each
  scratch buffer slot by slot, every family over the fifteen offsets written out term by term. `chain l` is the
  separating conjunction of a list, `bodyCtx` the 257 conjuncts in the order the body takes them; cutting a family
  into its members, or a buffer into its slots or tokens, is an equation between assertions, so the spread-out form
  equals a short conjunction of the pieces as handed over, and the entry lemma only has to put those in order.
-/
import proofs.«900405_g7700000000000406_dist_a2a_gemm_m4096_k4096_n8192_f32_gelu_v7x_i16_1_alg».proof.Proof.Bits.Cuts
import proofs.«900405_g7700000000000406_dist_a2a_gemm_m4096_k4096_n8192_f32_gelu_v7x_i16_1_alg».proof.Proof.Bits.Levels
import proofs.«900405_g7700000000000406_dist_a2a_gemm_m4096_k4096_n8192_f32_gelu_v7x_i16_1_alg».proof.Proof.Bits.Stg
import proofs.«900405_g7700000000000406_dist_a2a_gemm_m4096_k4096_n8192_f32_gelu_v7x_i16_1_alg».proof.Proof.Bits.BodyExit
import proofs.«900405_g7700000000000406_dist_a2a_gemm_m4096_k4096_n8192_f32_gelu_v7x_i16_1_alg».proof.Proof.Gen.Kernel.Points
import Idealize.ShloMosaic.Lib.Transfers
import Idealize.ShloMosaic.Lib.Pipeline.Kit

set_option maxRecDepth 16384

noncomputable section

namespace Cert.Kernel.A2A

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The separating conjunction of a list -/

section Chain
variable {M : Type _} [URA M] {I : Type _}

/-- `P₁ ∗ (P₂ ∗ (… ∗ Pₙ))`; `emp` for the empty list. -/
def chain : List (sProp M) → sProp M
  | [] => BI.emp
  | [P] => P
  | P :: Q :: l => BI.sep P (chain (Q :: l))

theorem chain_cons (P : sProp M) (l : List (sProp M)) : chain (P :: l) = BI.sep P (chain l) := by
  cases l with
  | nil => exact (equiv_iff.mp sep_emp).symm
  | cons Q l => rfl

theorem chain_append (l₁ l₂ : List (sProp M)) : chain (l₁ ++ l₂) = BI.sep (chain l₁) (chain l₂) := by
  induction l₁ with
  | nil => exact (equiv_iff.mp emp_sep).symm
  | cons P l ih =>
    rw [List.cons_append, chain_cons P (l ++ l₂), ih, chain_cons P l]
    exact (Std.Associative.assoc (op := (BI.sep : sProp M → _ → _)) _ _ _).symm

/-- A conjunction of conjunctions is the conjunction of all the members. -/
theorem chain_flatten (ls : List (List (sProp M))) : chain (ls.map chain) = chain ls.flatten := by
  induction ls with
  | nil => rfl
  | cons l ls ih => rw [List.map_cons, chain_cons, ih, List.flatten_cons, chain_append]

theorem bigSepL_eq_chain (l : List I) (Φ : I → sProp M) : bigSepL l Φ = chain (l.map Φ) := by
  induction l with
  | nil => rfl
  | cons i l ih =>
    cases l with
    | nil => rfl
    | cons j l =>
      show BI.sep (Φ i) (bigSepL (j :: l) Φ) = BI.sep (Φ i) (chain ((j :: l).map Φ))
      rw [ih]

/-- A family over a finite type, listed. -/
theorem bigSep_chain [Fintype I] [DecidableEq I] (l : List I) (h : Finset.univ = l.toFinset) (hl : l.Nodup) (Φ : I → sProp M) :
    bigSep Finset.univ Φ = chain (l.map Φ) :=
  (bigSep_univ_eq_bigSepL l h hl Φ).trans (bigSepL_eq_chain l Φ)

end Chain

variable {F : FTy → Type} [FloatOps F]

local notation "𝕄" => MT nD τ sig Unit (Elt F) ℕ UU ℕ

omit [FloatOps F] in
/-- A points-to cut into `n` read tokens and the remainder, listed. -/
theorem toks_chain {ℓ : Loc nD τ sig} {S : Finset (Idx ℓ)} {f : Buf (Elt F) ℓ} (q : PosShare TreeShare) (n : ℕ) (l : List (Fin n))
    (h : Finset.univ = l.toFinset) (hl : l.Nodup) :
    (ℓ ↦[S]{q} f : sProp 𝕄)
      = chain ((ℓ ↦[S]{Transfers.shareDrop q n} f : sProp 𝕄) :: l.map fun i => (ℓ ↦[S]{Transfers.shareTok q n i} f : sProp 𝕄)) := by
  rw [chain_cons, ← bigSep_chain l h hl]
  exact BI.equiv_iff.mp ⟨(Transfers.pointsTo_toks q n).1, (Transfers.pointsTo_toks q n).2⟩

variable (m : (ℓ : Loc nD τ sig) → Buf (Elt F) ℓ) (ρ : Dev nD → PrngReg)

/-! ## The conjuncts, family by family -/

def gXs (c : Dev nD) : List (sProp 𝕄) :=
  [ (xM.slice (Rect.unit (s := S4096x256) (k0_off2 c 1#32) S256x256.size (k0_off2_inb c 0)) (fun _ => rfl)).view.loc (c : Thread nD τ) ↦[(xM.slice (Rect.unit (s := S4096x256) (k0_off2 c 1#32) S256x256.size (k0_off2_inb c 0)) (fun _ => rfl)).view.set]{xShare 0} xstg m c,
    (xM.slice (Rect.unit (s := S4096x256) (k0_off2 c 2#32) S256x256.size (k0_off2_inb c 1)) (fun _ => rfl)).view.loc (c : Thread nD τ) ↦[(xM.slice (Rect.unit (s := S4096x256) (k0_off2 c 2#32) S256x256.size (k0_off2_inb c 1)) (fun _ => rfl)).view.set]{xShare 1} xstg m c,
    (xM.slice (Rect.unit (s := S4096x256) (k0_off2 c 3#32) S256x256.size (k0_off2_inb c 2)) (fun _ => rfl)).view.loc (c : Thread nD τ) ↦[(xM.slice (Rect.unit (s := S4096x256) (k0_off2 c 3#32) S256x256.size (k0_off2_inb c 2)) (fun _ => rfl)).view.set]{xShare 2} xstg m c,
    (xM.slice (Rect.unit (s := S4096x256) (k0_off2 c 4#32) S256x256.size (k0_off2_inb c 3)) (fun _ => rfl)).view.loc (c : Thread nD τ) ↦[(xM.slice (Rect.unit (s := S4096x256) (k0_off2 c 4#32) S256x256.size (k0_off2_inb c 3)) (fun _ => rfl)).view.set]{xShare 3} xstg m c,
    (xM.slice (Rect.unit (s := S4096x256) (k0_off2 c 5#32) S256x256.size (k0_off2_inb c 4)) (fun _ => rfl)).view.loc (c : Thread nD τ) ↦[(xM.slice (Rect.unit (s := S4096x256) (k0_off2 c 5#32) S256x256.size (k0_off2_inb c 4)) (fun _ => rfl)).view.set]{xShare 4} xstg m c,
    (xM.slice (Rect.unit (s := S4096x256) (k0_off2 c 6#32) S256x256.size (k0_off2_inb c 5)) (fun _ => rfl)).view.loc (c : Thread nD τ) ↦[(xM.slice (Rect.unit (s := S4096x256) (k0_off2 c 6#32) S256x256.size (k0_off2_inb c 5)) (fun _ => rfl)).view.set]{xShare 5} xstg m c,
    (xM.slice (Rect.unit (s := S4096x256) (k0_off2 c 7#32) S256x256.size (k0_off2_inb c 6)) (fun _ => rfl)).view.loc (c : Thread nD τ) ↦[(xM.slice (Rect.unit (s := S4096x256) (k0_off2 c 7#32) S256x256.size (k0_off2_inb c 6)) (fun _ => rfl)).view.set]{xShare 6} xstg m c,
    (xM.slice (Rect.unit (s := S4096x256) (k0_off2 c 8#32) S256x256.size (k0_off2_inb c 7)) (fun _ => rfl)).view.loc (c : Thread nD τ) ↦[(xM.slice (Rect.unit (s := S4096x256) (k0_off2 c 8#32) S256x256.size (k0_off2_inb c 7)) (fun _ => rfl)).view.set]{xShare 7} xstg m c,
    (xM.slice (Rect.unit (s := S4096x256) (k0_off2 c 9#32) S256x256.size (k0_off2_inb c 8)) (fun _ => rfl)).view.loc (c : Thread nD τ) ↦[(xM.slice (Rect.unit (s := S4096x256) (k0_off2 c 9#32) S256x256.size (k0_off2_inb c 8)) (fun _ => rfl)).view.set]{xShare 8} xstg m c,
    (xM.slice (Rect.unit (s := S4096x256) (k0_off2 c 10#32) S256x256.size (k0_off2_inb c 9)) (fun _ => rfl)).view.loc (c : Thread nD τ) ↦[(xM.slice (Rect.unit (s := S4096x256) (k0_off2 c 10#32) S256x256.size (k0_off2_inb c 9)) (fun _ => rfl)).view.set]{xShare 9} xstg m c,
    (xM.slice (Rect.unit (s := S4096x256) (k0_off2 c 11#32) S256x256.size (k0_off2_inb c 10)) (fun _ => rfl)).view.loc (c : Thread nD τ) ↦[(xM.slice (Rect.unit (s := S4096x256) (k0_off2 c 11#32) S256x256.size (k0_off2_inb c 10)) (fun _ => rfl)).view.set]{xShare 10} xstg m c,
    (xM.slice (Rect.unit (s := S4096x256) (k0_off2 c 12#32) S256x256.size (k0_off2_inb c 11)) (fun _ => rfl)).view.loc (c : Thread nD τ) ↦[(xM.slice (Rect.unit (s := S4096x256) (k0_off2 c 12#32) S256x256.size (k0_off2_inb c 11)) (fun _ => rfl)).view.set]{xShare 11} xstg m c,
    (xM.slice (Rect.unit (s := S4096x256) (k0_off2 c 13#32) S256x256.size (k0_off2_inb c 12)) (fun _ => rfl)).view.loc (c : Thread nD τ) ↦[(xM.slice (Rect.unit (s := S4096x256) (k0_off2 c 13#32) S256x256.size (k0_off2_inb c 12)) (fun _ => rfl)).view.set]{xShare 12} xstg m c,
    (xM.slice (Rect.unit (s := S4096x256) (k0_off2 c 14#32) S256x256.size (k0_off2_inb c 13)) (fun _ => rfl)).view.loc (c : Thread nD τ) ↦[(xM.slice (Rect.unit (s := S4096x256) (k0_off2 c 14#32) S256x256.size (k0_off2_inb c 13)) (fun _ => rfl)).view.set]{xShare 13} xstg m c,
    (xM.slice (Rect.unit (s := S4096x256) (k0_off2 c 15#32) S256x256.size (k0_off2_inb c 14)) (fun _ => rfl)).view.loc (c : Thread nD τ) ↦[(xM.slice (Rect.unit (s := S4096x256) (k0_off2 c 15#32) S256x256.size (k0_off2_inb c 14)) (fun _ => rfl)).view.set]{xShare 14} xstg m c ]

def gXr (c : Dev nD) : List (sProp 𝕄) :=
  [ (xM : Memref sig .tc .vmem S4096x256 .f32).view.loc (c : Thread nD τ) ↦[(xM : Memref sig .tc .vmem S4096x256 .f32).view.set \ (xM.slice (Rect.unit (s := S4096x256) (k0_off2 c 1#32) S256x256.size (k0_off2_inb c 0)) (fun _ => rfl)).view.set]{xShare 0} xstg m c,
    (xM : Memref sig .tc .vmem S4096x256 .f32).view.loc (c : Thread nD τ) ↦[(xM : Memref sig .tc .vmem S4096x256 .f32).view.set \ (xM.slice (Rect.unit (s := S4096x256) (k0_off2 c 2#32) S256x256.size (k0_off2_inb c 1)) (fun _ => rfl)).view.set]{xShare 1} xstg m c,
    (xM : Memref sig .tc .vmem S4096x256 .f32).view.loc (c : Thread nD τ) ↦[(xM : Memref sig .tc .vmem S4096x256 .f32).view.set \ (xM.slice (Rect.unit (s := S4096x256) (k0_off2 c 3#32) S256x256.size (k0_off2_inb c 2)) (fun _ => rfl)).view.set]{xShare 2} xstg m c,
    (xM : Memref sig .tc .vmem S4096x256 .f32).view.loc (c : Thread nD τ) ↦[(xM : Memref sig .tc .vmem S4096x256 .f32).view.set \ (xM.slice (Rect.unit (s := S4096x256) (k0_off2 c 4#32) S256x256.size (k0_off2_inb c 3)) (fun _ => rfl)).view.set]{xShare 3} xstg m c,
    (xM : Memref sig .tc .vmem S4096x256 .f32).view.loc (c : Thread nD τ) ↦[(xM : Memref sig .tc .vmem S4096x256 .f32).view.set \ (xM.slice (Rect.unit (s := S4096x256) (k0_off2 c 5#32) S256x256.size (k0_off2_inb c 4)) (fun _ => rfl)).view.set]{xShare 4} xstg m c,
    (xM : Memref sig .tc .vmem S4096x256 .f32).view.loc (c : Thread nD τ) ↦[(xM : Memref sig .tc .vmem S4096x256 .f32).view.set \ (xM.slice (Rect.unit (s := S4096x256) (k0_off2 c 6#32) S256x256.size (k0_off2_inb c 5)) (fun _ => rfl)).view.set]{xShare 5} xstg m c,
    (xM : Memref sig .tc .vmem S4096x256 .f32).view.loc (c : Thread nD τ) ↦[(xM : Memref sig .tc .vmem S4096x256 .f32).view.set \ (xM.slice (Rect.unit (s := S4096x256) (k0_off2 c 7#32) S256x256.size (k0_off2_inb c 6)) (fun _ => rfl)).view.set]{xShare 6} xstg m c,
    (xM : Memref sig .tc .vmem S4096x256 .f32).view.loc (c : Thread nD τ) ↦[(xM : Memref sig .tc .vmem S4096x256 .f32).view.set \ (xM.slice (Rect.unit (s := S4096x256) (k0_off2 c 8#32) S256x256.size (k0_off2_inb c 7)) (fun _ => rfl)).view.set]{xShare 7} xstg m c,
    (xM : Memref sig .tc .vmem S4096x256 .f32).view.loc (c : Thread nD τ) ↦[(xM : Memref sig .tc .vmem S4096x256 .f32).view.set \ (xM.slice (Rect.unit (s := S4096x256) (k0_off2 c 9#32) S256x256.size (k0_off2_inb c 8)) (fun _ => rfl)).view.set]{xShare 8} xstg m c,
    (xM : Memref sig .tc .vmem S4096x256 .f32).view.loc (c : Thread nD τ) ↦[(xM : Memref sig .tc .vmem S4096x256 .f32).view.set \ (xM.slice (Rect.unit (s := S4096x256) (k0_off2 c 10#32) S256x256.size (k0_off2_inb c 9)) (fun _ => rfl)).view.set]{xShare 9} xstg m c,
    (xM : Memref sig .tc .vmem S4096x256 .f32).view.loc (c : Thread nD τ) ↦[(xM : Memref sig .tc .vmem S4096x256 .f32).view.set \ (xM.slice (Rect.unit (s := S4096x256) (k0_off2 c 11#32) S256x256.size (k0_off2_inb c 10)) (fun _ => rfl)).view.set]{xShare 10} xstg m c,
    (xM : Memref sig .tc .vmem S4096x256 .f32).view.loc (c : Thread nD τ) ↦[(xM : Memref sig .tc .vmem S4096x256 .f32).view.set \ (xM.slice (Rect.unit (s := S4096x256) (k0_off2 c 12#32) S256x256.size (k0_off2_inb c 11)) (fun _ => rfl)).view.set]{xShare 11} xstg m c,
    (xM : Memref sig .tc .vmem S4096x256 .f32).view.loc (c : Thread nD τ) ↦[(xM : Memref sig .tc .vmem S4096x256 .f32).view.set \ (xM.slice (Rect.unit (s := S4096x256) (k0_off2 c 13#32) S256x256.size (k0_off2_inb c 12)) (fun _ => rfl)).view.set]{xShare 12} xstg m c,
    (xM : Memref sig .tc .vmem S4096x256 .f32).view.loc (c : Thread nD τ) ↦[(xM : Memref sig .tc .vmem S4096x256 .f32).view.set \ (xM.slice (Rect.unit (s := S4096x256) (k0_off2 c 14#32) S256x256.size (k0_off2_inb c 13)) (fun _ => rfl)).view.set]{xShare 13} xstg m c,
    (xM : Memref sig .tc .vmem S4096x256 .f32).view.loc (c : Thread nD τ) ↦[(xM : Memref sig .tc .vmem S4096x256 .f32).view.set \ (xM.slice (Rect.unit (s := S4096x256) (k0_off2 c 15#32) S256x256.size (k0_off2_inb c 14)) (fun _ => rfl)).view.set]{xShare 14} xstg m c ]

def gW (c : Dev nD) : List (sProp 𝕄) :=
  [ (wM : Memref sig .tc .hbm S4096x8192 .f32).view.loc (c : Thread nD τ) ↦[(wM : Memref sig .tc .hbm S4096x8192 .f32).view.set]{Transfers.shareDrop fullShare 3} m ((c : Thread nD τ).loc main_arg1),
    (wM : Memref sig .tc .hbm S4096x8192 .f32).view.loc (c : Thread nD τ) ↦[(wM : Memref sig .tc .hbm S4096x8192 .f32).view.set]{Transfers.shareTok fullShare 3 0} m ((c : Thread nD τ).loc main_arg1),
    (wM : Memref sig .tc .hbm S4096x8192 .f32).view.loc (c : Thread nD τ) ↦[(wM : Memref sig .tc .hbm S4096x8192 .f32).view.set]{Transfers.shareTok fullShare 3 1} m ((c : Thread nD τ).loc main_arg1),
    (wM : Memref sig .tc .hbm S4096x8192 .f32).view.loc (c : Thread nD τ) ↦[(wM : Memref sig .tc .hbm S4096x8192 .f32).view.set]{Transfers.shareTok fullShare 3 2} m ((c : Thread nD τ).loc main_arg1) ]

def gOut (c : Dev nD) (g1 : Buf (Elt F) ((oM : Memref sig .tc .vmem S256x8192 .f32).view.loc (c : Thread nD τ))) : List (sProp 𝕄) :=
  [ (oM : Memref sig .tc .vmem S256x8192 .f32).view.loc (c : Thread nD τ) ↦[(oM : Memref sig .tc .vmem S256x8192 .f32).view.set]{fullShare} g1 ]

def gSl (c : Dev nD) (fs0 : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ))) (fs1 : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ))) (fs2 : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ))) (fs3 : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ))) (fs4 : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ))) (fs5 : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ))) (fs6 : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ))) (fs7 : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ))) (fs8 : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ))) (fs9 : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ))) (fs10 : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ))) (fs11 : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ))) (fs12 : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ))) (fs13 : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ))) (fs14 : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ))) : List (sProp 𝕄) :=
  [ ((rM.slice (Rect.unit (s := S16x256x256) ![15, 0, 0] S1x256x256.size inb_S16x256x256_S1x256x256_15_0_0) (fun _ => rfl)).squeeze S256x256 squeezes_S1x256x256_S256x256).view.loc (c : Thread nD τ) ↦[((rM.slice (Rect.unit (s := S16x256x256) ![15, 0, 0] S1x256x256.size inb_S16x256x256_S1x256x256_15_0_0) (fun _ => rfl)).squeeze S256x256 squeezes_S1x256x256_S256x256).view.set]{fullShare} fs14,
    ((rM.slice (Rect.unit (s := S16x256x256) ![14, 0, 0] S1x256x256.size inb_S16x256x256_S1x256x256_14_0_0) (fun _ => rfl)).squeeze S256x256 squeezes_S1x256x256_S256x256).view.loc (c : Thread nD τ) ↦[((rM.slice (Rect.unit (s := S16x256x256) ![14, 0, 0] S1x256x256.size inb_S16x256x256_S1x256x256_14_0_0) (fun _ => rfl)).squeeze S256x256 squeezes_S1x256x256_S256x256).view.set]{fullShare} fs13,
    ((rM.slice (Rect.unit (s := S16x256x256) ![13, 0, 0] S1x256x256.size inb_S16x256x256_S1x256x256_13_0_0) (fun _ => rfl)).squeeze S256x256 squeezes_S1x256x256_S256x256).view.loc (c : Thread nD τ) ↦[((rM.slice (Rect.unit (s := S16x256x256) ![13, 0, 0] S1x256x256.size inb_S16x256x256_S1x256x256_13_0_0) (fun _ => rfl)).squeeze S256x256 squeezes_S1x256x256_S256x256).view.set]{fullShare} fs12,
    ((rM.slice (Rect.unit (s := S16x256x256) ![12, 0, 0] S1x256x256.size inb_S16x256x256_S1x256x256_12_0_0) (fun _ => rfl)).squeeze S256x256 squeezes_S1x256x256_S256x256).view.loc (c : Thread nD τ) ↦[((rM.slice (Rect.unit (s := S16x256x256) ![12, 0, 0] S1x256x256.size inb_S16x256x256_S1x256x256_12_0_0) (fun _ => rfl)).squeeze S256x256 squeezes_S1x256x256_S256x256).view.set]{fullShare} fs11,
    ((rM.slice (Rect.unit (s := S16x256x256) ![11, 0, 0] S1x256x256.size inb_S16x256x256_S1x256x256_11_0_0) (fun _ => rfl)).squeeze S256x256 squeezes_S1x256x256_S256x256).view.loc (c : Thread nD τ) ↦[((rM.slice (Rect.unit (s := S16x256x256) ![11, 0, 0] S1x256x256.size inb_S16x256x256_S1x256x256_11_0_0) (fun _ => rfl)).squeeze S256x256 squeezes_S1x256x256_S256x256).view.set]{fullShare} fs10,
    ((rM.slice (Rect.unit (s := S16x256x256) ![10, 0, 0] S1x256x256.size inb_S16x256x256_S1x256x256_10_0_0) (fun _ => rfl)).squeeze S256x256 squeezes_S1x256x256_S256x256).view.loc (c : Thread nD τ) ↦[((rM.slice (Rect.unit (s := S16x256x256) ![10, 0, 0] S1x256x256.size inb_S16x256x256_S1x256x256_10_0_0) (fun _ => rfl)).squeeze S256x256 squeezes_S1x256x256_S256x256).view.set]{fullShare} fs9,
    ((rM.slice (Rect.unit (s := S16x256x256) ![9, 0, 0] S1x256x256.size inb_S16x256x256_S1x256x256_9_0_0) (fun _ => rfl)).squeeze S256x256 squeezes_S1x256x256_S256x256).view.loc (c : Thread nD τ) ↦[((rM.slice (Rect.unit (s := S16x256x256) ![9, 0, 0] S1x256x256.size inb_S16x256x256_S1x256x256_9_0_0) (fun _ => rfl)).squeeze S256x256 squeezes_S1x256x256_S256x256).view.set]{fullShare} fs8,
    ((rM.slice (Rect.unit (s := S16x256x256) ![8, 0, 0] S1x256x256.size inb_S16x256x256_S1x256x256_8_0_0) (fun _ => rfl)).squeeze S256x256 squeezes_S1x256x256_S256x256).view.loc (c : Thread nD τ) ↦[((rM.slice (Rect.unit (s := S16x256x256) ![8, 0, 0] S1x256x256.size inb_S16x256x256_S1x256x256_8_0_0) (fun _ => rfl)).squeeze S256x256 squeezes_S1x256x256_S256x256).view.set]{fullShare} fs7,
    ((rM.slice (Rect.unit (s := S16x256x256) ![7, 0, 0] S1x256x256.size inb_S16x256x256_S1x256x256_7_0_0) (fun _ => rfl)).squeeze S256x256 squeezes_S1x256x256_S256x256).view.loc (c : Thread nD τ) ↦[((rM.slice (Rect.unit (s := S16x256x256) ![7, 0, 0] S1x256x256.size inb_S16x256x256_S1x256x256_7_0_0) (fun _ => rfl)).squeeze S256x256 squeezes_S1x256x256_S256x256).view.set]{fullShare} fs6,
    ((rM.slice (Rect.unit (s := S16x256x256) ![6, 0, 0] S1x256x256.size inb_S16x256x256_S1x256x256_6_0_0) (fun _ => rfl)).squeeze S256x256 squeezes_S1x256x256_S256x256).view.loc (c : Thread nD τ) ↦[((rM.slice (Rect.unit (s := S16x256x256) ![6, 0, 0] S1x256x256.size inb_S16x256x256_S1x256x256_6_0_0) (fun _ => rfl)).squeeze S256x256 squeezes_S1x256x256_S256x256).view.set]{fullShare} fs5,
    ((rM.slice (Rect.unit (s := S16x256x256) ![5, 0, 0] S1x256x256.size inb_S16x256x256_S1x256x256_5_0_0) (fun _ => rfl)).squeeze S256x256 squeezes_S1x256x256_S256x256).view.loc (c : Thread nD τ) ↦[((rM.slice (Rect.unit (s := S16x256x256) ![5, 0, 0] S1x256x256.size inb_S16x256x256_S1x256x256_5_0_0) (fun _ => rfl)).squeeze S256x256 squeezes_S1x256x256_S256x256).view.set]{fullShare} fs4,
    ((rM.slice (Rect.unit (s := S16x256x256) ![4, 0, 0] S1x256x256.size inb_S16x256x256_S1x256x256_4_0_0) (fun _ => rfl)).squeeze S256x256 squeezes_S1x256x256_S256x256).view.loc (c : Thread nD τ) ↦[((rM.slice (Rect.unit (s := S16x256x256) ![4, 0, 0] S1x256x256.size inb_S16x256x256_S1x256x256_4_0_0) (fun _ => rfl)).squeeze S256x256 squeezes_S1x256x256_S256x256).view.set]{fullShare} fs3,
    ((rM.slice (Rect.unit (s := S16x256x256) ![3, 0, 0] S1x256x256.size inb_S16x256x256_S1x256x256_3_0_0) (fun _ => rfl)).squeeze S256x256 squeezes_S1x256x256_S256x256).view.loc (c : Thread nD τ) ↦[((rM.slice (Rect.unit (s := S16x256x256) ![3, 0, 0] S1x256x256.size inb_S16x256x256_S1x256x256_3_0_0) (fun _ => rfl)).squeeze S256x256 squeezes_S1x256x256_S256x256).view.set]{fullShare} fs2,
    ((rM.slice (Rect.unit (s := S16x256x256) ![2, 0, 0] S1x256x256.size inb_S16x256x256_S1x256x256_2_0_0) (fun _ => rfl)).squeeze S256x256 squeezes_S1x256x256_S256x256).view.loc (c : Thread nD τ) ↦[((rM.slice (Rect.unit (s := S16x256x256) ![2, 0, 0] S1x256x256.size inb_S16x256x256_S1x256x256_2_0_0) (fun _ => rfl)).squeeze S256x256 squeezes_S1x256x256_S256x256).view.set]{fullShare} fs1,
    ((rM.slice (Rect.unit (s := S16x256x256) ![1, 0, 0] S1x256x256.size inb_S16x256x256_S1x256x256_1_0_0) (fun _ => rfl)).squeeze S256x256 squeezes_S1x256x256_S256x256).view.loc (c : Thread nD τ) ↦[((rM.slice (Rect.unit (s := S16x256x256) ![1, 0, 0] S1x256x256.size inb_S16x256x256_S1x256x256_1_0_0) (fun _ => rfl)).squeeze S256x256 squeezes_S1x256x256_S256x256).view.set]{fullShare} fs0 ]

def gWb (c : Dev nD) (fw : Buf (Elt F) ((wbM : Memref sig .tc .vmem S3x256x8192 .f32).view.loc (c : Thread nD τ))) : List (sProp 𝕄) :=
  [ ((wbM.slice (Rect.unit (s := S3x256x8192) ![0, 0, 0] S1x256x8192.size inb_S3x256x8192_S1x256x8192_0_0_0) (fun _ => rfl)).squeeze S256x8192 squeezes_S1x256x8192_S256x8192).view.loc (c : Thread nD τ) ↦[((wbM.slice (Rect.unit (s := S3x256x8192) ![0, 0, 0] S1x256x8192.size inb_S3x256x8192_S1x256x8192_0_0_0) (fun _ => rfl)).squeeze S256x8192 squeezes_S1x256x8192_S256x8192).view.set]{fullShare} fw,
    ((wbM.slice (Rect.unit (s := S3x256x8192) ![1, 0, 0] S1x256x8192.size inb_S3x256x8192_S1x256x8192_1_0_0) (fun _ => rfl)).squeeze S256x8192 squeezes_S1x256x8192_S256x8192).view.loc (c : Thread nD τ) ↦[((wbM.slice (Rect.unit (s := S3x256x8192) ![1, 0, 0] S1x256x8192.size inb_S3x256x8192_S1x256x8192_1_0_0) (fun _ => rfl)).squeeze S256x8192 squeezes_S1x256x8192_S256x8192).view.set]{fullShare} fw,
    ((wbM.slice (Rect.unit (s := S3x256x8192) ![2, 0, 0] S1x256x8192.size inb_S3x256x8192_S1x256x8192_2_0_0) (fun _ => rfl)).squeeze S256x8192 squeezes_S1x256x8192_S256x8192).view.loc (c : Thread nD τ) ↦[((wbM.slice (Rect.unit (s := S3x256x8192) ![2, 0, 0] S1x256x8192.size inb_S3x256x8192_S1x256x8192_2_0_0) (fun _ => rfl)).squeeze S256x8192 squeezes_S1x256x8192_S256x8192).view.set]{fullShare} fw ]

def gS (c : Dev nD) : List (sProp 𝕄) :=
  [ semVal ((c : Thread nD τ), idleSem 2) 0,
    semVal ((c : Thread nD τ), idleSem 3) 0,
    semVal ((c : Thread nD τ), idleSem 4) 0 ]

def gIbar (c : Dev nD) (K : Dev nD × CK → ℕ) : List (sProp 𝕄) :=
  [ cellInv ER (a2aRd m) (K (c, CK.bar)) (barCell c) ]

def gIs (c : Dev nD) (K : Dev nD × CK → ℕ) : List (sProp 𝕄) :=
  [ cellInv ER (a2aRd m) (K (c, CK.send 0)) (sendCell c 0),
    cellInv ER (a2aRd m) (K (c, CK.send 1)) (sendCell c 1),
    cellInv ER (a2aRd m) (K (c, CK.send 2)) (sendCell c 2),
    cellInv ER (a2aRd m) (K (c, CK.send 3)) (sendCell c 3),
    cellInv ER (a2aRd m) (K (c, CK.send 4)) (sendCell c 4),
    cellInv ER (a2aRd m) (K (c, CK.send 5)) (sendCell c 5),
    cellInv ER (a2aRd m) (K (c, CK.send 6)) (sendCell c 6),
    cellInv ER (a2aRd m) (K (c, CK.send 7)) (sendCell c 7),
    cellInv ER (a2aRd m) (K (c, CK.send 8)) (sendCell c 8),
    cellInv ER (a2aRd m) (K (c, CK.send 9)) (sendCell c 9),
    cellInv ER (a2aRd m) (K (c, CK.send 10)) (sendCell c 10),
    cellInv ER (a2aRd m) (K (c, CK.send 11)) (sendCell c 11),
    cellInv ER (a2aRd m) (K (c, CK.send 12)) (sendCell c 12),
    cellInv ER (a2aRd m) (K (c, CK.send 13)) (sendCell c 13),
    cellInv ER (a2aRd m) (K (c, CK.send 14)) (sendCell c 14) ]

def gIr (c : Dev nD) (K : Dev nD × CK → ℕ) : List (sProp 𝕄) :=
  [ cellInv ER (a2aRd m) (K (c, CK.recv 0)) (recvCell c 0),
    cellInv ER (a2aRd m) (K (c, CK.recv 1)) (recvCell c 1),
    cellInv ER (a2aRd m) (K (c, CK.recv 2)) (recvCell c 2),
    cellInv ER (a2aRd m) (K (c, CK.recv 3)) (recvCell c 3),
    cellInv ER (a2aRd m) (K (c, CK.recv 4)) (recvCell c 4),
    cellInv ER (a2aRd m) (K (c, CK.recv 5)) (recvCell c 5),
    cellInv ER (a2aRd m) (K (c, CK.recv 6)) (recvCell c 6),
    cellInv ER (a2aRd m) (K (c, CK.recv 7)) (recvCell c 7),
    cellInv ER (a2aRd m) (K (c, CK.recv 8)) (recvCell c 8),
    cellInv ER (a2aRd m) (K (c, CK.recv 9)) (recvCell c 9),
    cellInv ER (a2aRd m) (K (c, CK.recv 10)) (recvCell c 10),
    cellInv ER (a2aRd m) (K (c, CK.recv 11)) (recvCell c 11),
    cellInv ER (a2aRd m) (K (c, CK.recv 12)) (recvCell c 12),
    cellInv ER (a2aRd m) (K (c, CK.recv 13)) (recvCell c 13),
    cellInv ER (a2aRd m) (K (c, CK.recv 14)) (recvCell c 14) ]

def gIb (c : Dev nD) (K : Dev nD × CK → ℕ) : List (sProp 𝕄) :=
  [ cellInv ER (a2aRd m) (K (fwd c 1, CK.bar)) (barCell (fwd c 1)),
    cellInv ER (a2aRd m) (K (fwd c 2, CK.bar)) (barCell (fwd c 2)),
    cellInv ER (a2aRd m) (K (fwd c 3, CK.bar)) (barCell (fwd c 3)),
    cellInv ER (a2aRd m) (K (fwd c 4, CK.bar)) (barCell (fwd c 4)),
    cellInv ER (a2aRd m) (K (fwd c 5, CK.bar)) (barCell (fwd c 5)),
    cellInv ER (a2aRd m) (K (fwd c 6, CK.bar)) (barCell (fwd c 6)),
    cellInv ER (a2aRd m) (K (fwd c 7, CK.bar)) (barCell (fwd c 7)),
    cellInv ER (a2aRd m) (K (fwd c 8, CK.bar)) (barCell (fwd c 8)),
    cellInv ER (a2aRd m) (K (fwd c 9, CK.bar)) (barCell (fwd c 9)),
    cellInv ER (a2aRd m) (K (fwd c 10, CK.bar)) (barCell (fwd c 10)),
    cellInv ER (a2aRd m) (K (fwd c 11, CK.bar)) (barCell (fwd c 11)),
    cellInv ER (a2aRd m) (K (fwd c 12, CK.bar)) (barCell (fwd c 12)),
    cellInv ER (a2aRd m) (K (fwd c 13, CK.bar)) (barCell (fwd c 13)),
    cellInv ER (a2aRd m) (K (fwd c 14, CK.bar)) (barCell (fwd c 14)),
    cellInv ER (a2aRd m) (K (fwd c 15, CK.bar)) (barCell (fwd c 15)) ]

def gIv (c : Dev nD) (K : Dev nD × CK → ℕ) : List (sProp 𝕄) :=
  [ cellInv ER (a2aRd m) (K (fwd c 1, CK.recv 0)) (recvCell (fwd c 1) 0),
    cellInv ER (a2aRd m) (K (fwd c 2, CK.recv 1)) (recvCell (fwd c 2) 1),
    cellInv ER (a2aRd m) (K (fwd c 3, CK.recv 2)) (recvCell (fwd c 3) 2),
    cellInv ER (a2aRd m) (K (fwd c 4, CK.recv 3)) (recvCell (fwd c 4) 3),
    cellInv ER (a2aRd m) (K (fwd c 5, CK.recv 4)) (recvCell (fwd c 5) 4),
    cellInv ER (a2aRd m) (K (fwd c 6, CK.recv 5)) (recvCell (fwd c 6) 5),
    cellInv ER (a2aRd m) (K (fwd c 7, CK.recv 6)) (recvCell (fwd c 7) 6),
    cellInv ER (a2aRd m) (K (fwd c 8, CK.recv 7)) (recvCell (fwd c 8) 7),
    cellInv ER (a2aRd m) (K (fwd c 9, CK.recv 8)) (recvCell (fwd c 9) 8),
    cellInv ER (a2aRd m) (K (fwd c 10, CK.recv 9)) (recvCell (fwd c 10) 9),
    cellInv ER (a2aRd m) (K (fwd c 11, CK.recv 10)) (recvCell (fwd c 11) 10),
    cellInv ER (a2aRd m) (K (fwd c 12, CK.recv 11)) (recvCell (fwd c 12) 11),
    cellInv ER (a2aRd m) (K (fwd c 13, CK.recv 12)) (recvCell (fwd c 13) 12),
    cellInv ER (a2aRd m) (K (fwd c 14, CK.recv 13)) (recvCell (fwd c 14) 13),
    cellInv ER (a2aRd m) (K (fwd c 15, CK.recv 14)) (recvCell (fwd c 15) 14) ]

def gAtB (c : Dev nD) : List (sProp 𝕄) :=
  [ atPos ER (barCell c) 0 ∅ 0 ]

def gAtS (c : Dev nD) : List (sProp 𝕄) :=
  [ atPos ER (sendCell c 0) 0 ∅ 0,
    atPos ER (sendCell c 1) 0 ∅ 0,
    atPos ER (sendCell c 2) 0 ∅ 0,
    atPos ER (sendCell c 3) 0 ∅ 0,
    atPos ER (sendCell c 4) 0 ∅ 0,
    atPos ER (sendCell c 5) 0 ∅ 0,
    atPos ER (sendCell c 6) 0 ∅ 0,
    atPos ER (sendCell c 7) 0 ∅ 0,
    atPos ER (sendCell c 8) 0 ∅ 0,
    atPos ER (sendCell c 9) 0 ∅ 0,
    atPos ER (sendCell c 10) 0 ∅ 0,
    atPos ER (sendCell c 11) 0 ∅ 0,
    atPos ER (sendCell c 12) 0 ∅ 0,
    atPos ER (sendCell c 13) 0 ∅ 0,
    atPos ER (sendCell c 14) 0 ∅ 0 ]

def gAtV (c : Dev nD) : List (sProp 𝕄) :=
  [ atPos ER (recvCell c 0) 0 ∅ 0,
    atPos ER (recvCell c 1) 0 ∅ 0,
    atPos ER (recvCell c 2) 0 ∅ 0,
    atPos ER (recvCell c 3) 0 ∅ 0,
    atPos ER (recvCell c 4) 0 ∅ 0,
    atPos ER (recvCell c 5) 0 ∅ 0,
    atPos ER (recvCell c 6) 0 ∅ 0,
    atPos ER (recvCell c 7) 0 ∅ 0,
    atPos ER (recvCell c 8) 0 ∅ 0,
    atPos ER (recvCell c 9) 0 ∅ 0,
    atPos ER (recvCell c 10) 0 ∅ 0,
    atPos ER (recvCell c 11) 0 ∅ 0,
    atPos ER (recvCell c 12) 0 ∅ 0,
    atPos ER (recvCell c 13) 0 ∅ 0,
    atPos ER (recvCell c 14) 0 ∅ 0 ]

def gRB (c : Dev nD) : List (sProp 𝕄) :=
  [ reached ER (barCell (fwd c 1)) 0,
    reached ER (barCell (fwd c 2)) 0,
    reached ER (barCell (fwd c 3)) 0,
    reached ER (barCell (fwd c 4)) 0,
    reached ER (barCell (fwd c 5)) 0,
    reached ER (barCell (fwd c 6)) 0,
    reached ER (barCell (fwd c 7)) 0,
    reached ER (barCell (fwd c 8)) 0,
    reached ER (barCell (fwd c 9)) 0,
    reached ER (barCell (fwd c 10)) 0,
    reached ER (barCell (fwd c 11)) 0,
    reached ER (barCell (fwd c 12)) 0,
    reached ER (barCell (fwd c 13)) 0,
    reached ER (barCell (fwd c 14)) 0,
    reached ER (barCell (fwd c 15)) 0 ]

def gRV (c : Dev nD) : List (sProp 𝕄) :=
  [ reached ER (recvCell (fwd c 1) 0) 0,
    reached ER (recvCell (fwd c 2) 1) 0,
    reached ER (recvCell (fwd c 3) 2) 0,
    reached ER (recvCell (fwd c 4) 3) 0,
    reached ER (recvCell (fwd c 5) 4) 0,
    reached ER (recvCell (fwd c 6) 5) 0,
    reached ER (recvCell (fwd c 7) 6) 0,
    reached ER (recvCell (fwd c 8) 7) 0,
    reached ER (recvCell (fwd c 9) 8) 0,
    reached ER (recvCell (fwd c 10) 9) 0,
    reached ER (recvCell (fwd c 11) 10) 0,
    reached ER (recvCell (fwd c 12) 11) 0,
    reached ER (recvCell (fwd c 13) 12) 0,
    reached ER (recvCell (fwd c 14) 13) 0,
    reached ER (recvCell (fwd c 15) 14) 0 ]

def gRS (c : Dev nD) : List (sProp 𝕄) :=
  [ reached ER (sendCell c 0) 0,
    reached ER (sendCell c 1) 0,
    reached ER (sendCell c 2) 0,
    reached ER (sendCell c 3) 0,
    reached ER (sendCell c 4) 0,
    reached ER (sendCell c 5) 0,
    reached ER (sendCell c 6) 0,
    reached ER (sendCell c 7) 0,
    reached ER (sendCell c 8) 0,
    reached ER (sendCell c 9) 0,
    reached ER (sendCell c 10) 0,
    reached ER (sendCell c 11) 0,
    reached ER (sendCell c 12) 0,
    reached ER (sendCell c 13) 0,
    reached ER (sendCell c 14) 0 ]

def gRO (c : Dev nD) : List (sProp 𝕄) :=
  [ reached ER (recvCell c (rev 14)) 0,
    reached ER (recvCell c (rev 13)) 0,
    reached ER (recvCell c (rev 12)) 0,
    reached ER (recvCell c (rev 11)) 0,
    reached ER (recvCell c (rev 10)) 0,
    reached ER (recvCell c (rev 9)) 0,
    reached ER (recvCell c (rev 8)) 0,
    reached ER (recvCell c (rev 7)) 0,
    reached ER (recvCell c (rev 6)) 0,
    reached ER (recvCell c (rev 5)) 0,
    reached ER (recvCell c (rev 4)) 0,
    reached ER (recvCell c (rev 3)) 0,
    reached ER (recvCell c (rev 2)) 0,
    reached ER (recvCell c (rev 1)) 0,
    reached ER (recvCell c (rev 0)) 0 ]

def gTB (c : Dev nD) : List (sProp 𝕄) :=
  [ dutyTok ER (barCell (fwd c 1)) 0 (rev 0),
    dutyTok ER (barCell (fwd c 2)) 0 (rev 1),
    dutyTok ER (barCell (fwd c 3)) 0 (rev 2),
    dutyTok ER (barCell (fwd c 4)) 0 (rev 3),
    dutyTok ER (barCell (fwd c 5)) 0 (rev 4),
    dutyTok ER (barCell (fwd c 6)) 0 (rev 5),
    dutyTok ER (barCell (fwd c 7)) 0 (rev 6),
    dutyTok ER (barCell (fwd c 8)) 0 (rev 7),
    dutyTok ER (barCell (fwd c 9)) 0 (rev 8),
    dutyTok ER (barCell (fwd c 10)) 0 (rev 9),
    dutyTok ER (barCell (fwd c 11)) 0 (rev 10),
    dutyTok ER (barCell (fwd c 12)) 0 (rev 11),
    dutyTok ER (barCell (fwd c 13)) 0 (rev 12),
    dutyTok ER (barCell (fwd c 14)) 0 (rev 13),
    dutyTok ER (barCell (fwd c 15)) 0 (rev 14) ]

def gTV (c : Dev nD) : List (sProp 𝕄) :=
  [ dutyTok ER (recvCell (fwd c 1) 0) 0 0,
    dutyTok ER (recvCell (fwd c 2) 1) 0 0,
    dutyTok ER (recvCell (fwd c 3) 2) 0 0,
    dutyTok ER (recvCell (fwd c 4) 3) 0 0,
    dutyTok ER (recvCell (fwd c 5) 4) 0 0,
    dutyTok ER (recvCell (fwd c 6) 5) 0 0,
    dutyTok ER (recvCell (fwd c 7) 6) 0 0,
    dutyTok ER (recvCell (fwd c 8) 7) 0 0,
    dutyTok ER (recvCell (fwd c 9) 8) 0 0,
    dutyTok ER (recvCell (fwd c 10) 9) 0 0,
    dutyTok ER (recvCell (fwd c 11) 10) 0 0,
    dutyTok ER (recvCell (fwd c 12) 11) 0 0,
    dutyTok ER (recvCell (fwd c 13) 12) 0 0,
    dutyTok ER (recvCell (fwd c 14) 13) 0 0,
    dutyTok ER (recvCell (fwd c 15) 14) 0 0 ]

def gTS (c : Dev nD) : List (sProp 𝕄) :=
  [ dutyTok ER (sendCell c 0) 0 0,
    dutyTok ER (sendCell c 1) 0 0,
    dutyTok ER (sendCell c 2) 0 0,
    dutyTok ER (sendCell c 3) 0 0,
    dutyTok ER (sendCell c 4) 0 0,
    dutyTok ER (sendCell c 5) 0 0,
    dutyTok ER (sendCell c 6) 0 0,
    dutyTok ER (sendCell c 7) 0 0,
    dutyTok ER (sendCell c 8) 0 0,
    dutyTok ER (sendCell c 9) 0 0,
    dutyTok ER (sendCell c 10) 0 0,
    dutyTok ER (sendCell c 11) 0 0,
    dutyTok ER (sendCell c 12) 0 0,
    dutyTok ER (sendCell c 13) 0 0,
    dutyTok ER (sendCell c 14) 0 0 ]

def gCB (c : Dev nD) : List (sProp 𝕄) :=
  [ cred (tallyAt (barCell c) () 15) ]

def gCV (c : Dev nD) : List (sProp 𝕄) :=
  [ cred (tallyAt (recvCell c 0) () N),
    cred (tallyAt (recvCell c 1) () N),
    cred (tallyAt (recvCell c 2) () N),
    cred (tallyAt (recvCell c 3) () N),
    cred (tallyAt (recvCell c 4) () N),
    cred (tallyAt (recvCell c 5) () N),
    cred (tallyAt (recvCell c 6) () N),
    cred (tallyAt (recvCell c 7) () N),
    cred (tallyAt (recvCell c 8) () N),
    cred (tallyAt (recvCell c 9) () N),
    cred (tallyAt (recvCell c 10) () N),
    cred (tallyAt (recvCell c 11) () N),
    cred (tallyAt (recvCell c 12) () N),
    cred (tallyAt (recvCell c 13) () N),
    cred (tallyAt (recvCell c 14) () N) ]

def gLev  : List (sProp 𝕄) :=
  [ levAts L lv ]

def gO (c : Dev nD) (W : Waits sig Unit) : List (sProp 𝕄) :=
  [ owes (c : Thread nD τ) (tallyAt (recvCell (fwd c 15) 14) () N + tallyAt (recvCell (fwd c 14) 13) () N + tallyAt (recvCell (fwd c 13) 12) () N + tallyAt (recvCell (fwd c 12) 11) () N + tallyAt (recvCell (fwd c 11) 10) () N + tallyAt (recvCell (fwd c 10) 9) () N + tallyAt (recvCell (fwd c 9) 8) () N + tallyAt (recvCell (fwd c 8) 7) () N + tallyAt (recvCell (fwd c 7) 6) () N + tallyAt (recvCell (fwd c 6) 5) () N + tallyAt (recvCell (fwd c 5) 4) () N + tallyAt (recvCell (fwd c 4) 3) () N + tallyAt (recvCell (fwd c 3) 2) () N + tallyAt (recvCell (fwd c 2) 1) () N + tallyAt (recvCell (fwd c 1) 0) () N + tallyAt (barCell (fwd c 15)) () 1 + tallyAt (barCell (fwd c 14)) () 1 + tallyAt (barCell (fwd c 13)) () 1 + tallyAt (barCell (fwd c 12)) () 1 + tallyAt (barCell (fwd c 11)) () 1 + tallyAt (barCell (fwd c 10)) () 1 + tallyAt (barCell (fwd c 9)) () 1 + tallyAt (barCell (fwd c 8)) () 1 + tallyAt (barCell (fwd c 7)) () 1 + tallyAt (barCell (fwd c 6)) () 1 + tallyAt (barCell (fwd c 5)) () 1 + tallyAt (barCell (fwd c 4)) () 1 + tallyAt (barCell (fwd c 3)) () 1 + tallyAt (barCell (fwd c 2)) () 1 + tallyAt (barCell (fwd c 1)) () 1) W ]

def gS0 (c : Dev nD) (f0 : Buf (Elt F) ((c : Thread nD τ).loc cc0_scratch0)) : List (sProp 𝕄) :=
  [ slot0Pts c f0 ]

def gI (c : Dev nD) : List (sProp 𝕄) :=
  [ semVal ((c : Thread nD τ), idleSem 0) 0,
    semVal ((c : Thread nD τ), idleSem 1) 0 ]

/-- The column block's conjuncts: what is left after fifteen read tokens, then of each token the rows its transfer
    carries, then of each token the rest. -/
def gX (c : Dev nD) : List (sProp 𝕄) :=
  ((xM : Memref sig .tc .vmem S4096x256 .f32).view.loc (c : Thread nD τ) ↦[(xM : Memref sig .tc .vmem S4096x256 .f32).view.set]{Transfers.shareDrop fullShare 15} xstg m c) :: (gXs m c ++ gXr m c)

/-- Everything the body starts from, spread out. -/
def bodyCtx (c : Dev nD) (K : Dev nD × CK → ℕ) (W : Waits sig Unit) (g1 : Buf (Elt F) ((oM : Memref sig .tc .vmem S256x8192 .f32).view.loc (c : Thread nD τ))) (fw : Buf (Elt F) ((wbM : Memref sig .tc .vmem S3x256x8192 .f32).view.loc (c : Thread nD τ))) (fs0 : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ))) (fs1 : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ))) (fs2 : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ))) (fs3 : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ))) (fs4 : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ))) (fs5 : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ))) (fs6 : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ))) (fs7 : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ))) (fs8 : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ))) (fs9 : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ))) (fs10 : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ))) (fs11 : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ))) (fs12 : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ))) (fs13 : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ))) (fs14 : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ))) (f0 : Buf (Elt F) ((c : Thread nD τ).loc cc0_scratch0)) : sProp 𝕄 :=
  iprop(((xM : Memref sig .tc .vmem S4096x256 .f32).view.loc (c : Thread nD τ) ↦[(xM : Memref sig .tc .vmem S4096x256 .f32).view.set]{Transfers.shareDrop fullShare 15} xstg m c)
      ∗ ((xM.slice (Rect.unit (s := S4096x256) (k0_off2 c 1#32) S256x256.size (k0_off2_inb c 0)) (fun _ => rfl)).view.loc (c : Thread nD τ) ↦[(xM.slice (Rect.unit (s := S4096x256) (k0_off2 c 1#32) S256x256.size (k0_off2_inb c 0)) (fun _ => rfl)).view.set]{xShare 0} xstg m c)
      ∗ ((xM.slice (Rect.unit (s := S4096x256) (k0_off2 c 2#32) S256x256.size (k0_off2_inb c 1)) (fun _ => rfl)).view.loc (c : Thread nD τ) ↦[(xM.slice (Rect.unit (s := S4096x256) (k0_off2 c 2#32) S256x256.size (k0_off2_inb c 1)) (fun _ => rfl)).view.set]{xShare 1} xstg m c)
      ∗ ((xM.slice (Rect.unit (s := S4096x256) (k0_off2 c 3#32) S256x256.size (k0_off2_inb c 2)) (fun _ => rfl)).view.loc (c : Thread nD τ) ↦[(xM.slice (Rect.unit (s := S4096x256) (k0_off2 c 3#32) S256x256.size (k0_off2_inb c 2)) (fun _ => rfl)).view.set]{xShare 2} xstg m c)
      ∗ ((xM.slice (Rect.unit (s := S4096x256) (k0_off2 c 4#32) S256x256.size (k0_off2_inb c 3)) (fun _ => rfl)).view.loc (c : Thread nD τ) ↦[(xM.slice (Rect.unit (s := S4096x256) (k0_off2 c 4#32) S256x256.size (k0_off2_inb c 3)) (fun _ => rfl)).view.set]{xShare 3} xstg m c)
      ∗ ((xM.slice (Rect.unit (s := S4096x256) (k0_off2 c 5#32) S256x256.size (k0_off2_inb c 4)) (fun _ => rfl)).view.loc (c : Thread nD τ) ↦[(xM.slice (Rect.unit (s := S4096x256) (k0_off2 c 5#32) S256x256.size (k0_off2_inb c 4)) (fun _ => rfl)).view.set]{xShare 4} xstg m c)
      ∗ ((xM.slice (Rect.unit (s := S4096x256) (k0_off2 c 6#32) S256x256.size (k0_off2_inb c 5)) (fun _ => rfl)).view.loc (c : Thread nD τ) ↦[(xM.slice (Rect.unit (s := S4096x256) (k0_off2 c 6#32) S256x256.size (k0_off2_inb c 5)) (fun _ => rfl)).view.set]{xShare 5} xstg m c)
      ∗ ((xM.slice (Rect.unit (s := S4096x256) (k0_off2 c 7#32) S256x256.size (k0_off2_inb c 6)) (fun _ => rfl)).view.loc (c : Thread nD τ) ↦[(xM.slice (Rect.unit (s := S4096x256) (k0_off2 c 7#32) S256x256.size (k0_off2_inb c 6)) (fun _ => rfl)).view.set]{xShare 6} xstg m c)
      ∗ ((xM.slice (Rect.unit (s := S4096x256) (k0_off2 c 8#32) S256x256.size (k0_off2_inb c 7)) (fun _ => rfl)).view.loc (c : Thread nD τ) ↦[(xM.slice (Rect.unit (s := S4096x256) (k0_off2 c 8#32) S256x256.size (k0_off2_inb c 7)) (fun _ => rfl)).view.set]{xShare 7} xstg m c)
      ∗ ((xM.slice (Rect.unit (s := S4096x256) (k0_off2 c 9#32) S256x256.size (k0_off2_inb c 8)) (fun _ => rfl)).view.loc (c : Thread nD τ) ↦[(xM.slice (Rect.unit (s := S4096x256) (k0_off2 c 9#32) S256x256.size (k0_off2_inb c 8)) (fun _ => rfl)).view.set]{xShare 8} xstg m c)
      ∗ ((xM.slice (Rect.unit (s := S4096x256) (k0_off2 c 10#32) S256x256.size (k0_off2_inb c 9)) (fun _ => rfl)).view.loc (c : Thread nD τ) ↦[(xM.slice (Rect.unit (s := S4096x256) (k0_off2 c 10#32) S256x256.size (k0_off2_inb c 9)) (fun _ => rfl)).view.set]{xShare 9} xstg m c)
      ∗ ((xM.slice (Rect.unit (s := S4096x256) (k0_off2 c 11#32) S256x256.size (k0_off2_inb c 10)) (fun _ => rfl)).view.loc (c : Thread nD τ) ↦[(xM.slice (Rect.unit (s := S4096x256) (k0_off2 c 11#32) S256x256.size (k0_off2_inb c 10)) (fun _ => rfl)).view.set]{xShare 10} xstg m c)
      ∗ ((xM.slice (Rect.unit (s := S4096x256) (k0_off2 c 12#32) S256x256.size (k0_off2_inb c 11)) (fun _ => rfl)).view.loc (c : Thread nD τ) ↦[(xM.slice (Rect.unit (s := S4096x256) (k0_off2 c 12#32) S256x256.size (k0_off2_inb c 11)) (fun _ => rfl)).view.set]{xShare 11} xstg m c)
      ∗ ((xM.slice (Rect.unit (s := S4096x256) (k0_off2 c 13#32) S256x256.size (k0_off2_inb c 12)) (fun _ => rfl)).view.loc (c : Thread nD τ) ↦[(xM.slice (Rect.unit (s := S4096x256) (k0_off2 c 13#32) S256x256.size (k0_off2_inb c 12)) (fun _ => rfl)).view.set]{xShare 12} xstg m c)
      ∗ ((xM.slice (Rect.unit (s := S4096x256) (k0_off2 c 14#32) S256x256.size (k0_off2_inb c 13)) (fun _ => rfl)).view.loc (c : Thread nD τ) ↦[(xM.slice (Rect.unit (s := S4096x256) (k0_off2 c 14#32) S256x256.size (k0_off2_inb c 13)) (fun _ => rfl)).view.set]{xShare 13} xstg m c)
      ∗ ((xM.slice (Rect.unit (s := S4096x256) (k0_off2 c 15#32) S256x256.size (k0_off2_inb c 14)) (fun _ => rfl)).view.loc (c : Thread nD τ) ↦[(xM.slice (Rect.unit (s := S4096x256) (k0_off2 c 15#32) S256x256.size (k0_off2_inb c 14)) (fun _ => rfl)).view.set]{xShare 14} xstg m c)
      ∗ ((xM : Memref sig .tc .vmem S4096x256 .f32).view.loc (c : Thread nD τ) ↦[(xM : Memref sig .tc .vmem S4096x256 .f32).view.set \ (xM.slice (Rect.unit (s := S4096x256) (k0_off2 c 1#32) S256x256.size (k0_off2_inb c 0)) (fun _ => rfl)).view.set]{xShare 0} xstg m c)
      ∗ ((xM : Memref sig .tc .vmem S4096x256 .f32).view.loc (c : Thread nD τ) ↦[(xM : Memref sig .tc .vmem S4096x256 .f32).view.set \ (xM.slice (Rect.unit (s := S4096x256) (k0_off2 c 2#32) S256x256.size (k0_off2_inb c 1)) (fun _ => rfl)).view.set]{xShare 1} xstg m c)
      ∗ ((xM : Memref sig .tc .vmem S4096x256 .f32).view.loc (c : Thread nD τ) ↦[(xM : Memref sig .tc .vmem S4096x256 .f32).view.set \ (xM.slice (Rect.unit (s := S4096x256) (k0_off2 c 3#32) S256x256.size (k0_off2_inb c 2)) (fun _ => rfl)).view.set]{xShare 2} xstg m c)
      ∗ ((xM : Memref sig .tc .vmem S4096x256 .f32).view.loc (c : Thread nD τ) ↦[(xM : Memref sig .tc .vmem S4096x256 .f32).view.set \ (xM.slice (Rect.unit (s := S4096x256) (k0_off2 c 4#32) S256x256.size (k0_off2_inb c 3)) (fun _ => rfl)).view.set]{xShare 3} xstg m c)
      ∗ ((xM : Memref sig .tc .vmem S4096x256 .f32).view.loc (c : Thread nD τ) ↦[(xM : Memref sig .tc .vmem S4096x256 .f32).view.set \ (xM.slice (Rect.unit (s := S4096x256) (k0_off2 c 5#32) S256x256.size (k0_off2_inb c 4)) (fun _ => rfl)).view.set]{xShare 4} xstg m c)
      ∗ ((xM : Memref sig .tc .vmem S4096x256 .f32).view.loc (c : Thread nD τ) ↦[(xM : Memref sig .tc .vmem S4096x256 .f32).view.set \ (xM.slice (Rect.unit (s := S4096x256) (k0_off2 c 6#32) S256x256.size (k0_off2_inb c 5)) (fun _ => rfl)).view.set]{xShare 5} xstg m c)
      ∗ ((xM : Memref sig .tc .vmem S4096x256 .f32).view.loc (c : Thread nD τ) ↦[(xM : Memref sig .tc .vmem S4096x256 .f32).view.set \ (xM.slice (Rect.unit (s := S4096x256) (k0_off2 c 7#32) S256x256.size (k0_off2_inb c 6)) (fun _ => rfl)).view.set]{xShare 6} xstg m c)
      ∗ ((xM : Memref sig .tc .vmem S4096x256 .f32).view.loc (c : Thread nD τ) ↦[(xM : Memref sig .tc .vmem S4096x256 .f32).view.set \ (xM.slice (Rect.unit (s := S4096x256) (k0_off2 c 8#32) S256x256.size (k0_off2_inb c 7)) (fun _ => rfl)).view.set]{xShare 7} xstg m c)
      ∗ ((xM : Memref sig .tc .vmem S4096x256 .f32).view.loc (c : Thread nD τ) ↦[(xM : Memref sig .tc .vmem S4096x256 .f32).view.set \ (xM.slice (Rect.unit (s := S4096x256) (k0_off2 c 9#32) S256x256.size (k0_off2_inb c 8)) (fun _ => rfl)).view.set]{xShare 8} xstg m c)
      ∗ ((xM : Memref sig .tc .vmem S4096x256 .f32).view.loc (c : Thread nD τ) ↦[(xM : Memref sig .tc .vmem S4096x256 .f32).view.set \ (xM.slice (Rect.unit (s := S4096x256) (k0_off2 c 10#32) S256x256.size (k0_off2_inb c 9)) (fun _ => rfl)).view.set]{xShare 9} xstg m c)
      ∗ ((xM : Memref sig .tc .vmem S4096x256 .f32).view.loc (c : Thread nD τ) ↦[(xM : Memref sig .tc .vmem S4096x256 .f32).view.set \ (xM.slice (Rect.unit (s := S4096x256) (k0_off2 c 11#32) S256x256.size (k0_off2_inb c 10)) (fun _ => rfl)).view.set]{xShare 10} xstg m c)
      ∗ ((xM : Memref sig .tc .vmem S4096x256 .f32).view.loc (c : Thread nD τ) ↦[(xM : Memref sig .tc .vmem S4096x256 .f32).view.set \ (xM.slice (Rect.unit (s := S4096x256) (k0_off2 c 12#32) S256x256.size (k0_off2_inb c 11)) (fun _ => rfl)).view.set]{xShare 11} xstg m c)
      ∗ ((xM : Memref sig .tc .vmem S4096x256 .f32).view.loc (c : Thread nD τ) ↦[(xM : Memref sig .tc .vmem S4096x256 .f32).view.set \ (xM.slice (Rect.unit (s := S4096x256) (k0_off2 c 13#32) S256x256.size (k0_off2_inb c 12)) (fun _ => rfl)).view.set]{xShare 12} xstg m c)
      ∗ ((xM : Memref sig .tc .vmem S4096x256 .f32).view.loc (c : Thread nD τ) ↦[(xM : Memref sig .tc .vmem S4096x256 .f32).view.set \ (xM.slice (Rect.unit (s := S4096x256) (k0_off2 c 14#32) S256x256.size (k0_off2_inb c 13)) (fun _ => rfl)).view.set]{xShare 13} xstg m c)
      ∗ ((xM : Memref sig .tc .vmem S4096x256 .f32).view.loc (c : Thread nD τ) ↦[(xM : Memref sig .tc .vmem S4096x256 .f32).view.set \ (xM.slice (Rect.unit (s := S4096x256) (k0_off2 c 15#32) S256x256.size (k0_off2_inb c 14)) (fun _ => rfl)).view.set]{xShare 14} xstg m c)
      ∗ ((wM : Memref sig .tc .hbm S4096x8192 .f32).view.loc (c : Thread nD τ) ↦[(wM : Memref sig .tc .hbm S4096x8192 .f32).view.set]{Transfers.shareDrop fullShare 3} m ((c : Thread nD τ).loc main_arg1))
      ∗ ((wM : Memref sig .tc .hbm S4096x8192 .f32).view.loc (c : Thread nD τ) ↦[(wM : Memref sig .tc .hbm S4096x8192 .f32).view.set]{Transfers.shareTok fullShare 3 0} m ((c : Thread nD τ).loc main_arg1))
      ∗ ((wM : Memref sig .tc .hbm S4096x8192 .f32).view.loc (c : Thread nD τ) ↦[(wM : Memref sig .tc .hbm S4096x8192 .f32).view.set]{Transfers.shareTok fullShare 3 1} m ((c : Thread nD τ).loc main_arg1))
      ∗ ((wM : Memref sig .tc .hbm S4096x8192 .f32).view.loc (c : Thread nD τ) ↦[(wM : Memref sig .tc .hbm S4096x8192 .f32).view.set]{Transfers.shareTok fullShare 3 2} m ((c : Thread nD τ).loc main_arg1))
      ∗ ((oM : Memref sig .tc .vmem S256x8192 .f32).view.loc (c : Thread nD τ) ↦[(oM : Memref sig .tc .vmem S256x8192 .f32).view.set]{fullShare} g1)
      ∗ (((rM.slice (Rect.unit (s := S16x256x256) ![15, 0, 0] S1x256x256.size inb_S16x256x256_S1x256x256_15_0_0) (fun _ => rfl)).squeeze S256x256 squeezes_S1x256x256_S256x256).view.loc (c : Thread nD τ) ↦[((rM.slice (Rect.unit (s := S16x256x256) ![15, 0, 0] S1x256x256.size inb_S16x256x256_S1x256x256_15_0_0) (fun _ => rfl)).squeeze S256x256 squeezes_S1x256x256_S256x256).view.set]{fullShare} fs14)
      ∗ (((rM.slice (Rect.unit (s := S16x256x256) ![14, 0, 0] S1x256x256.size inb_S16x256x256_S1x256x256_14_0_0) (fun _ => rfl)).squeeze S256x256 squeezes_S1x256x256_S256x256).view.loc (c : Thread nD τ) ↦[((rM.slice (Rect.unit (s := S16x256x256) ![14, 0, 0] S1x256x256.size inb_S16x256x256_S1x256x256_14_0_0) (fun _ => rfl)).squeeze S256x256 squeezes_S1x256x256_S256x256).view.set]{fullShare} fs13)
      ∗ (((rM.slice (Rect.unit (s := S16x256x256) ![13, 0, 0] S1x256x256.size inb_S16x256x256_S1x256x256_13_0_0) (fun _ => rfl)).squeeze S256x256 squeezes_S1x256x256_S256x256).view.loc (c : Thread nD τ) ↦[((rM.slice (Rect.unit (s := S16x256x256) ![13, 0, 0] S1x256x256.size inb_S16x256x256_S1x256x256_13_0_0) (fun _ => rfl)).squeeze S256x256 squeezes_S1x256x256_S256x256).view.set]{fullShare} fs12)
      ∗ (((rM.slice (Rect.unit (s := S16x256x256) ![12, 0, 0] S1x256x256.size inb_S16x256x256_S1x256x256_12_0_0) (fun _ => rfl)).squeeze S256x256 squeezes_S1x256x256_S256x256).view.loc (c : Thread nD τ) ↦[((rM.slice (Rect.unit (s := S16x256x256) ![12, 0, 0] S1x256x256.size inb_S16x256x256_S1x256x256_12_0_0) (fun _ => rfl)).squeeze S256x256 squeezes_S1x256x256_S256x256).view.set]{fullShare} fs11)
      ∗ (((rM.slice (Rect.unit (s := S16x256x256) ![11, 0, 0] S1x256x256.size inb_S16x256x256_S1x256x256_11_0_0) (fun _ => rfl)).squeeze S256x256 squeezes_S1x256x256_S256x256).view.loc (c : Thread nD τ) ↦[((rM.slice (Rect.unit (s := S16x256x256) ![11, 0, 0] S1x256x256.size inb_S16x256x256_S1x256x256_11_0_0) (fun _ => rfl)).squeeze S256x256 squeezes_S1x256x256_S256x256).view.set]{fullShare} fs10)
      ∗ (((rM.slice (Rect.unit (s := S16x256x256) ![10, 0, 0] S1x256x256.size inb_S16x256x256_S1x256x256_10_0_0) (fun _ => rfl)).squeeze S256x256 squeezes_S1x256x256_S256x256).view.loc (c : Thread nD τ) ↦[((rM.slice (Rect.unit (s := S16x256x256) ![10, 0, 0] S1x256x256.size inb_S16x256x256_S1x256x256_10_0_0) (fun _ => rfl)).squeeze S256x256 squeezes_S1x256x256_S256x256).view.set]{fullShare} fs9)
      ∗ (((rM.slice (Rect.unit (s := S16x256x256) ![9, 0, 0] S1x256x256.size inb_S16x256x256_S1x256x256_9_0_0) (fun _ => rfl)).squeeze S256x256 squeezes_S1x256x256_S256x256).view.loc (c : Thread nD τ) ↦[((rM.slice (Rect.unit (s := S16x256x256) ![9, 0, 0] S1x256x256.size inb_S16x256x256_S1x256x256_9_0_0) (fun _ => rfl)).squeeze S256x256 squeezes_S1x256x256_S256x256).view.set]{fullShare} fs8)
      ∗ (((rM.slice (Rect.unit (s := S16x256x256) ![8, 0, 0] S1x256x256.size inb_S16x256x256_S1x256x256_8_0_0) (fun _ => rfl)).squeeze S256x256 squeezes_S1x256x256_S256x256).view.loc (c : Thread nD τ) ↦[((rM.slice (Rect.unit (s := S16x256x256) ![8, 0, 0] S1x256x256.size inb_S16x256x256_S1x256x256_8_0_0) (fun _ => rfl)).squeeze S256x256 squeezes_S1x256x256_S256x256).view.set]{fullShare} fs7)
      ∗ (((rM.slice (Rect.unit (s := S16x256x256) ![7, 0, 0] S1x256x256.size inb_S16x256x256_S1x256x256_7_0_0) (fun _ => rfl)).squeeze S256x256 squeezes_S1x256x256_S256x256).view.loc (c : Thread nD τ) ↦[((rM.slice (Rect.unit (s := S16x256x256) ![7, 0, 0] S1x256x256.size inb_S16x256x256_S1x256x256_7_0_0) (fun _ => rfl)).squeeze S256x256 squeezes_S1x256x256_S256x256).view.set]{fullShare} fs6)
      ∗ (((rM.slice (Rect.unit (s := S16x256x256) ![6, 0, 0] S1x256x256.size inb_S16x256x256_S1x256x256_6_0_0) (fun _ => rfl)).squeeze S256x256 squeezes_S1x256x256_S256x256).view.loc (c : Thread nD τ) ↦[((rM.slice (Rect.unit (s := S16x256x256) ![6, 0, 0] S1x256x256.size inb_S16x256x256_S1x256x256_6_0_0) (fun _ => rfl)).squeeze S256x256 squeezes_S1x256x256_S256x256).view.set]{fullShare} fs5)
      ∗ (((rM.slice (Rect.unit (s := S16x256x256) ![5, 0, 0] S1x256x256.size inb_S16x256x256_S1x256x256_5_0_0) (fun _ => rfl)).squeeze S256x256 squeezes_S1x256x256_S256x256).view.loc (c : Thread nD τ) ↦[((rM.slice (Rect.unit (s := S16x256x256) ![5, 0, 0] S1x256x256.size inb_S16x256x256_S1x256x256_5_0_0) (fun _ => rfl)).squeeze S256x256 squeezes_S1x256x256_S256x256).view.set]{fullShare} fs4)
      ∗ (((rM.slice (Rect.unit (s := S16x256x256) ![4, 0, 0] S1x256x256.size inb_S16x256x256_S1x256x256_4_0_0) (fun _ => rfl)).squeeze S256x256 squeezes_S1x256x256_S256x256).view.loc (c : Thread nD τ) ↦[((rM.slice (Rect.unit (s := S16x256x256) ![4, 0, 0] S1x256x256.size inb_S16x256x256_S1x256x256_4_0_0) (fun _ => rfl)).squeeze S256x256 squeezes_S1x256x256_S256x256).view.set]{fullShare} fs3)
      ∗ (((rM.slice (Rect.unit (s := S16x256x256) ![3, 0, 0] S1x256x256.size inb_S16x256x256_S1x256x256_3_0_0) (fun _ => rfl)).squeeze S256x256 squeezes_S1x256x256_S256x256).view.loc (c : Thread nD τ) ↦[((rM.slice (Rect.unit (s := S16x256x256) ![3, 0, 0] S1x256x256.size inb_S16x256x256_S1x256x256_3_0_0) (fun _ => rfl)).squeeze S256x256 squeezes_S1x256x256_S256x256).view.set]{fullShare} fs2)
      ∗ (((rM.slice (Rect.unit (s := S16x256x256) ![2, 0, 0] S1x256x256.size inb_S16x256x256_S1x256x256_2_0_0) (fun _ => rfl)).squeeze S256x256 squeezes_S1x256x256_S256x256).view.loc (c : Thread nD τ) ↦[((rM.slice (Rect.unit (s := S16x256x256) ![2, 0, 0] S1x256x256.size inb_S16x256x256_S1x256x256_2_0_0) (fun _ => rfl)).squeeze S256x256 squeezes_S1x256x256_S256x256).view.set]{fullShare} fs1)
      ∗ (((rM.slice (Rect.unit (s := S16x256x256) ![1, 0, 0] S1x256x256.size inb_S16x256x256_S1x256x256_1_0_0) (fun _ => rfl)).squeeze S256x256 squeezes_S1x256x256_S256x256).view.loc (c : Thread nD τ) ↦[((rM.slice (Rect.unit (s := S16x256x256) ![1, 0, 0] S1x256x256.size inb_S16x256x256_S1x256x256_1_0_0) (fun _ => rfl)).squeeze S256x256 squeezes_S1x256x256_S256x256).view.set]{fullShare} fs0)
      ∗ (((wbM.slice (Rect.unit (s := S3x256x8192) ![0, 0, 0] S1x256x8192.size inb_S3x256x8192_S1x256x8192_0_0_0) (fun _ => rfl)).squeeze S256x8192 squeezes_S1x256x8192_S256x8192).view.loc (c : Thread nD τ) ↦[((wbM.slice (Rect.unit (s := S3x256x8192) ![0, 0, 0] S1x256x8192.size inb_S3x256x8192_S1x256x8192_0_0_0) (fun _ => rfl)).squeeze S256x8192 squeezes_S1x256x8192_S256x8192).view.set]{fullShare} fw)
      ∗ (((wbM.slice (Rect.unit (s := S3x256x8192) ![1, 0, 0] S1x256x8192.size inb_S3x256x8192_S1x256x8192_1_0_0) (fun _ => rfl)).squeeze S256x8192 squeezes_S1x256x8192_S256x8192).view.loc (c : Thread nD τ) ↦[((wbM.slice (Rect.unit (s := S3x256x8192) ![1, 0, 0] S1x256x8192.size inb_S3x256x8192_S1x256x8192_1_0_0) (fun _ => rfl)).squeeze S256x8192 squeezes_S1x256x8192_S256x8192).view.set]{fullShare} fw)
      ∗ (((wbM.slice (Rect.unit (s := S3x256x8192) ![2, 0, 0] S1x256x8192.size inb_S3x256x8192_S1x256x8192_2_0_0) (fun _ => rfl)).squeeze S256x8192 squeezes_S1x256x8192_S256x8192).view.loc (c : Thread nD τ) ↦[((wbM.slice (Rect.unit (s := S3x256x8192) ![2, 0, 0] S1x256x8192.size inb_S3x256x8192_S1x256x8192_2_0_0) (fun _ => rfl)).squeeze S256x8192 squeezes_S1x256x8192_S256x8192).view.set]{fullShare} fw)
      ∗ (semVal ((c : Thread nD τ), idleSem 2) 0)
      ∗ (semVal ((c : Thread nD τ), idleSem 3) 0)
      ∗ (semVal ((c : Thread nD τ), idleSem 4) 0)
      ∗ (cellInv ER (a2aRd m) (K (c, CK.bar)) (barCell c))
      ∗ (cellInv ER (a2aRd m) (K (c, CK.send 0)) (sendCell c 0))
      ∗ (cellInv ER (a2aRd m) (K (c, CK.send 1)) (sendCell c 1))
      ∗ (cellInv ER (a2aRd m) (K (c, CK.send 2)) (sendCell c 2))
      ∗ (cellInv ER (a2aRd m) (K (c, CK.send 3)) (sendCell c 3))
      ∗ (cellInv ER (a2aRd m) (K (c, CK.send 4)) (sendCell c 4))
      ∗ (cellInv ER (a2aRd m) (K (c, CK.send 5)) (sendCell c 5))
      ∗ (cellInv ER (a2aRd m) (K (c, CK.send 6)) (sendCell c 6))
      ∗ (cellInv ER (a2aRd m) (K (c, CK.send 7)) (sendCell c 7))
      ∗ (cellInv ER (a2aRd m) (K (c, CK.send 8)) (sendCell c 8))
      ∗ (cellInv ER (a2aRd m) (K (c, CK.send 9)) (sendCell c 9))
      ∗ (cellInv ER (a2aRd m) (K (c, CK.send 10)) (sendCell c 10))
      ∗ (cellInv ER (a2aRd m) (K (c, CK.send 11)) (sendCell c 11))
      ∗ (cellInv ER (a2aRd m) (K (c, CK.send 12)) (sendCell c 12))
      ∗ (cellInv ER (a2aRd m) (K (c, CK.send 13)) (sendCell c 13))
      ∗ (cellInv ER (a2aRd m) (K (c, CK.send 14)) (sendCell c 14))
      ∗ (cellInv ER (a2aRd m) (K (c, CK.recv 0)) (recvCell c 0))
      ∗ (cellInv ER (a2aRd m) (K (c, CK.recv 1)) (recvCell c 1))
      ∗ (cellInv ER (a2aRd m) (K (c, CK.recv 2)) (recvCell c 2))
      ∗ (cellInv ER (a2aRd m) (K (c, CK.recv 3)) (recvCell c 3))
      ∗ (cellInv ER (a2aRd m) (K (c, CK.recv 4)) (recvCell c 4))
      ∗ (cellInv ER (a2aRd m) (K (c, CK.recv 5)) (recvCell c 5))
      ∗ (cellInv ER (a2aRd m) (K (c, CK.recv 6)) (recvCell c 6))
      ∗ (cellInv ER (a2aRd m) (K (c, CK.recv 7)) (recvCell c 7))
      ∗ (cellInv ER (a2aRd m) (K (c, CK.recv 8)) (recvCell c 8))
      ∗ (cellInv ER (a2aRd m) (K (c, CK.recv 9)) (recvCell c 9))
      ∗ (cellInv ER (a2aRd m) (K (c, CK.recv 10)) (recvCell c 10))
      ∗ (cellInv ER (a2aRd m) (K (c, CK.recv 11)) (recvCell c 11))
      ∗ (cellInv ER (a2aRd m) (K (c, CK.recv 12)) (recvCell c 12))
      ∗ (cellInv ER (a2aRd m) (K (c, CK.recv 13)) (recvCell c 13))
      ∗ (cellInv ER (a2aRd m) (K (c, CK.recv 14)) (recvCell c 14))
      ∗ (cellInv ER (a2aRd m) (K (fwd c 1, CK.bar)) (barCell (fwd c 1)))
      ∗ (cellInv ER (a2aRd m) (K (fwd c 2, CK.bar)) (barCell (fwd c 2)))
      ∗ (cellInv ER (a2aRd m) (K (fwd c 3, CK.bar)) (barCell (fwd c 3)))
      ∗ (cellInv ER (a2aRd m) (K (fwd c 4, CK.bar)) (barCell (fwd c 4)))
      ∗ (cellInv ER (a2aRd m) (K (fwd c 5, CK.bar)) (barCell (fwd c 5)))
      ∗ (cellInv ER (a2aRd m) (K (fwd c 6, CK.bar)) (barCell (fwd c 6)))
      ∗ (cellInv ER (a2aRd m) (K (fwd c 7, CK.bar)) (barCell (fwd c 7)))
      ∗ (cellInv ER (a2aRd m) (K (fwd c 8, CK.bar)) (barCell (fwd c 8)))
      ∗ (cellInv ER (a2aRd m) (K (fwd c 9, CK.bar)) (barCell (fwd c 9)))
      ∗ (cellInv ER (a2aRd m) (K (fwd c 10, CK.bar)) (barCell (fwd c 10)))
      ∗ (cellInv ER (a2aRd m) (K (fwd c 11, CK.bar)) (barCell (fwd c 11)))
      ∗ (cellInv ER (a2aRd m) (K (fwd c 12, CK.bar)) (barCell (fwd c 12)))
      ∗ (cellInv ER (a2aRd m) (K (fwd c 13, CK.bar)) (barCell (fwd c 13)))
      ∗ (cellInv ER (a2aRd m) (K (fwd c 14, CK.bar)) (barCell (fwd c 14)))
      ∗ (cellInv ER (a2aRd m) (K (fwd c 15, CK.bar)) (barCell (fwd c 15)))
      ∗ (cellInv ER (a2aRd m) (K (fwd c 1, CK.recv 0)) (recvCell (fwd c 1) 0))
      ∗ (cellInv ER (a2aRd m) (K (fwd c 2, CK.recv 1)) (recvCell (fwd c 2) 1))
      ∗ (cellInv ER (a2aRd m) (K (fwd c 3, CK.recv 2)) (recvCell (fwd c 3) 2))
      ∗ (cellInv ER (a2aRd m) (K (fwd c 4, CK.recv 3)) (recvCell (fwd c 4) 3))
      ∗ (cellInv ER (a2aRd m) (K (fwd c 5, CK.recv 4)) (recvCell (fwd c 5) 4))
      ∗ (cellInv ER (a2aRd m) (K (fwd c 6, CK.recv 5)) (recvCell (fwd c 6) 5))
      ∗ (cellInv ER (a2aRd m) (K (fwd c 7, CK.recv 6)) (recvCell (fwd c 7) 6))
      ∗ (cellInv ER (a2aRd m) (K (fwd c 8, CK.recv 7)) (recvCell (fwd c 8) 7))
      ∗ (cellInv ER (a2aRd m) (K (fwd c 9, CK.recv 8)) (recvCell (fwd c 9) 8))
      ∗ (cellInv ER (a2aRd m) (K (fwd c 10, CK.recv 9)) (recvCell (fwd c 10) 9))
      ∗ (cellInv ER (a2aRd m) (K (fwd c 11, CK.recv 10)) (recvCell (fwd c 11) 10))
      ∗ (cellInv ER (a2aRd m) (K (fwd c 12, CK.recv 11)) (recvCell (fwd c 12) 11))
      ∗ (cellInv ER (a2aRd m) (K (fwd c 13, CK.recv 12)) (recvCell (fwd c 13) 12))
      ∗ (cellInv ER (a2aRd m) (K (fwd c 14, CK.recv 13)) (recvCell (fwd c 14) 13))
      ∗ (cellInv ER (a2aRd m) (K (fwd c 15, CK.recv 14)) (recvCell (fwd c 15) 14))
      ∗ (atPos ER (barCell c) 0 ∅ 0)
      ∗ (atPos ER (sendCell c 0) 0 ∅ 0)
      ∗ (atPos ER (sendCell c 1) 0 ∅ 0)
      ∗ (atPos ER (sendCell c 2) 0 ∅ 0)
      ∗ (atPos ER (sendCell c 3) 0 ∅ 0)
      ∗ (atPos ER (sendCell c 4) 0 ∅ 0)
      ∗ (atPos ER (sendCell c 5) 0 ∅ 0)
      ∗ (atPos ER (sendCell c 6) 0 ∅ 0)
      ∗ (atPos ER (sendCell c 7) 0 ∅ 0)
      ∗ (atPos ER (sendCell c 8) 0 ∅ 0)
      ∗ (atPos ER (sendCell c 9) 0 ∅ 0)
      ∗ (atPos ER (sendCell c 10) 0 ∅ 0)
      ∗ (atPos ER (sendCell c 11) 0 ∅ 0)
      ∗ (atPos ER (sendCell c 12) 0 ∅ 0)
      ∗ (atPos ER (sendCell c 13) 0 ∅ 0)
      ∗ (atPos ER (sendCell c 14) 0 ∅ 0)
      ∗ (atPos ER (recvCell c 0) 0 ∅ 0)
      ∗ (atPos ER (recvCell c 1) 0 ∅ 0)
      ∗ (atPos ER (recvCell c 2) 0 ∅ 0)
      ∗ (atPos ER (recvCell c 3) 0 ∅ 0)
      ∗ (atPos ER (recvCell c 4) 0 ∅ 0)
      ∗ (atPos ER (recvCell c 5) 0 ∅ 0)
      ∗ (atPos ER (recvCell c 6) 0 ∅ 0)
      ∗ (atPos ER (recvCell c 7) 0 ∅ 0)
      ∗ (atPos ER (recvCell c 8) 0 ∅ 0)
      ∗ (atPos ER (recvCell c 9) 0 ∅ 0)
      ∗ (atPos ER (recvCell c 10) 0 ∅ 0)
      ∗ (atPos ER (recvCell c 11) 0 ∅ 0)
      ∗ (atPos ER (recvCell c 12) 0 ∅ 0)
      ∗ (atPos ER (recvCell c 13) 0 ∅ 0)
      ∗ (atPos ER (recvCell c 14) 0 ∅ 0)
      ∗ (reached ER (barCell (fwd c 1)) 0)
      ∗ (reached ER (barCell (fwd c 2)) 0)
      ∗ (reached ER (barCell (fwd c 3)) 0)
      ∗ (reached ER (barCell (fwd c 4)) 0)
      ∗ (reached ER (barCell (fwd c 5)) 0)
      ∗ (reached ER (barCell (fwd c 6)) 0)
      ∗ (reached ER (barCell (fwd c 7)) 0)
      ∗ (reached ER (barCell (fwd c 8)) 0)
      ∗ (reached ER (barCell (fwd c 9)) 0)
      ∗ (reached ER (barCell (fwd c 10)) 0)
      ∗ (reached ER (barCell (fwd c 11)) 0)
      ∗ (reached ER (barCell (fwd c 12)) 0)
      ∗ (reached ER (barCell (fwd c 13)) 0)
      ∗ (reached ER (barCell (fwd c 14)) 0)
      ∗ (reached ER (barCell (fwd c 15)) 0)
      ∗ (reached ER (recvCell (fwd c 1) 0) 0)
      ∗ (reached ER (recvCell (fwd c 2) 1) 0)
      ∗ (reached ER (recvCell (fwd c 3) 2) 0)
      ∗ (reached ER (recvCell (fwd c 4) 3) 0)
      ∗ (reached ER (recvCell (fwd c 5) 4) 0)
      ∗ (reached ER (recvCell (fwd c 6) 5) 0)
      ∗ (reached ER (recvCell (fwd c 7) 6) 0)
      ∗ (reached ER (recvCell (fwd c 8) 7) 0)
      ∗ (reached ER (recvCell (fwd c 9) 8) 0)
      ∗ (reached ER (recvCell (fwd c 10) 9) 0)
      ∗ (reached ER (recvCell (fwd c 11) 10) 0)
      ∗ (reached ER (recvCell (fwd c 12) 11) 0)
      ∗ (reached ER (recvCell (fwd c 13) 12) 0)
      ∗ (reached ER (recvCell (fwd c 14) 13) 0)
      ∗ (reached ER (recvCell (fwd c 15) 14) 0)
      ∗ (reached ER (sendCell c 0) 0)
      ∗ (reached ER (sendCell c 1) 0)
      ∗ (reached ER (sendCell c 2) 0)
      ∗ (reached ER (sendCell c 3) 0)
      ∗ (reached ER (sendCell c 4) 0)
      ∗ (reached ER (sendCell c 5) 0)
      ∗ (reached ER (sendCell c 6) 0)
      ∗ (reached ER (sendCell c 7) 0)
      ∗ (reached ER (sendCell c 8) 0)
      ∗ (reached ER (sendCell c 9) 0)
      ∗ (reached ER (sendCell c 10) 0)
      ∗ (reached ER (sendCell c 11) 0)
      ∗ (reached ER (sendCell c 12) 0)
      ∗ (reached ER (sendCell c 13) 0)
      ∗ (reached ER (sendCell c 14) 0)
      ∗ (reached ER (recvCell c (rev 14)) 0)
      ∗ (reached ER (recvCell c (rev 13)) 0)
      ∗ (reached ER (recvCell c (rev 12)) 0)
      ∗ (reached ER (recvCell c (rev 11)) 0)
      ∗ (reached ER (recvCell c (rev 10)) 0)
      ∗ (reached ER (recvCell c (rev 9)) 0)
      ∗ (reached ER (recvCell c (rev 8)) 0)
      ∗ (reached ER (recvCell c (rev 7)) 0)
      ∗ (reached ER (recvCell c (rev 6)) 0)
      ∗ (reached ER (recvCell c (rev 5)) 0)
      ∗ (reached ER (recvCell c (rev 4)) 0)
      ∗ (reached ER (recvCell c (rev 3)) 0)
      ∗ (reached ER (recvCell c (rev 2)) 0)
      ∗ (reached ER (recvCell c (rev 1)) 0)
      ∗ (reached ER (recvCell c (rev 0)) 0)
      ∗ (dutyTok ER (barCell (fwd c 1)) 0 (rev 0))
      ∗ (dutyTok ER (barCell (fwd c 2)) 0 (rev 1))
      ∗ (dutyTok ER (barCell (fwd c 3)) 0 (rev 2))
      ∗ (dutyTok ER (barCell (fwd c 4)) 0 (rev 3))
      ∗ (dutyTok ER (barCell (fwd c 5)) 0 (rev 4))
      ∗ (dutyTok ER (barCell (fwd c 6)) 0 (rev 5))
      ∗ (dutyTok ER (barCell (fwd c 7)) 0 (rev 6))
      ∗ (dutyTok ER (barCell (fwd c 8)) 0 (rev 7))
      ∗ (dutyTok ER (barCell (fwd c 9)) 0 (rev 8))
      ∗ (dutyTok ER (barCell (fwd c 10)) 0 (rev 9))
      ∗ (dutyTok ER (barCell (fwd c 11)) 0 (rev 10))
      ∗ (dutyTok ER (barCell (fwd c 12)) 0 (rev 11))
      ∗ (dutyTok ER (barCell (fwd c 13)) 0 (rev 12))
      ∗ (dutyTok ER (barCell (fwd c 14)) 0 (rev 13))
      ∗ (dutyTok ER (barCell (fwd c 15)) 0 (rev 14))
      ∗ (dutyTok ER (recvCell (fwd c 1) 0) 0 0)
      ∗ (dutyTok ER (recvCell (fwd c 2) 1) 0 0)
      ∗ (dutyTok ER (recvCell (fwd c 3) 2) 0 0)
      ∗ (dutyTok ER (recvCell (fwd c 4) 3) 0 0)
      ∗ (dutyTok ER (recvCell (fwd c 5) 4) 0 0)
      ∗ (dutyTok ER (recvCell (fwd c 6) 5) 0 0)
      ∗ (dutyTok ER (recvCell (fwd c 7) 6) 0 0)
      ∗ (dutyTok ER (recvCell (fwd c 8) 7) 0 0)
      ∗ (dutyTok ER (recvCell (fwd c 9) 8) 0 0)
      ∗ (dutyTok ER (recvCell (fwd c 10) 9) 0 0)
      ∗ (dutyTok ER (recvCell (fwd c 11) 10) 0 0)
      ∗ (dutyTok ER (recvCell (fwd c 12) 11) 0 0)
      ∗ (dutyTok ER (recvCell (fwd c 13) 12) 0 0)
      ∗ (dutyTok ER (recvCell (fwd c 14) 13) 0 0)
      ∗ (dutyTok ER (recvCell (fwd c 15) 14) 0 0)
      ∗ (dutyTok ER (sendCell c 0) 0 0)
      ∗ (dutyTok ER (sendCell c 1) 0 0)
      ∗ (dutyTok ER (sendCell c 2) 0 0)
      ∗ (dutyTok ER (sendCell c 3) 0 0)
      ∗ (dutyTok ER (sendCell c 4) 0 0)
      ∗ (dutyTok ER (sendCell c 5) 0 0)
      ∗ (dutyTok ER (sendCell c 6) 0 0)
      ∗ (dutyTok ER (sendCell c 7) 0 0)
      ∗ (dutyTok ER (sendCell c 8) 0 0)
      ∗ (dutyTok ER (sendCell c 9) 0 0)
      ∗ (dutyTok ER (sendCell c 10) 0 0)
      ∗ (dutyTok ER (sendCell c 11) 0 0)
      ∗ (dutyTok ER (sendCell c 12) 0 0)
      ∗ (dutyTok ER (sendCell c 13) 0 0)
      ∗ (dutyTok ER (sendCell c 14) 0 0)
      ∗ (cred (tallyAt (barCell c) () 15))
      ∗ (cred (tallyAt (recvCell c 0) () N))
      ∗ (cred (tallyAt (recvCell c 1) () N))
      ∗ (cred (tallyAt (recvCell c 2) () N))
      ∗ (cred (tallyAt (recvCell c 3) () N))
      ∗ (cred (tallyAt (recvCell c 4) () N))
      ∗ (cred (tallyAt (recvCell c 5) () N))
      ∗ (cred (tallyAt (recvCell c 6) () N))
      ∗ (cred (tallyAt (recvCell c 7) () N))
      ∗ (cred (tallyAt (recvCell c 8) () N))
      ∗ (cred (tallyAt (recvCell c 9) () N))
      ∗ (cred (tallyAt (recvCell c 10) () N))
      ∗ (cred (tallyAt (recvCell c 11) () N))
      ∗ (cred (tallyAt (recvCell c 12) () N))
      ∗ (cred (tallyAt (recvCell c 13) () N))
      ∗ (cred (tallyAt (recvCell c 14) () N))
      ∗ (levAts L lv)
      ∗ (owes (c : Thread nD τ) (tallyAt (recvCell (fwd c 15) 14) () N + tallyAt (recvCell (fwd c 14) 13) () N + tallyAt (recvCell (fwd c 13) 12) () N + tallyAt (recvCell (fwd c 12) 11) () N + tallyAt (recvCell (fwd c 11) 10) () N + tallyAt (recvCell (fwd c 10) 9) () N + tallyAt (recvCell (fwd c 9) 8) () N + tallyAt (recvCell (fwd c 8) 7) () N + tallyAt (recvCell (fwd c 7) 6) () N + tallyAt (recvCell (fwd c 6) 5) () N + tallyAt (recvCell (fwd c 5) 4) () N + tallyAt (recvCell (fwd c 4) 3) () N + tallyAt (recvCell (fwd c 3) 2) () N + tallyAt (recvCell (fwd c 2) 1) () N + tallyAt (recvCell (fwd c 1) 0) () N + tallyAt (barCell (fwd c 15)) () 1 + tallyAt (barCell (fwd c 14)) () 1 + tallyAt (barCell (fwd c 13)) () 1 + tallyAt (barCell (fwd c 12)) () 1 + tallyAt (barCell (fwd c 11)) () 1 + tallyAt (barCell (fwd c 10)) () 1 + tallyAt (barCell (fwd c 9)) () 1 + tallyAt (barCell (fwd c 8)) () 1 + tallyAt (barCell (fwd c 7)) () 1 + tallyAt (barCell (fwd c 6)) () 1 + tallyAt (barCell (fwd c 5)) () 1 + tallyAt (barCell (fwd c 4)) () 1 + tallyAt (barCell (fwd c 3)) () 1 + tallyAt (barCell (fwd c 2)) () 1 + tallyAt (barCell (fwd c 1)) () 1) W)
      ∗ (slot0Pts c f0)
      ∗ (semVal ((c : Thread nD τ), idleSem 0) 0)
      ∗ (semVal ((c : Thread nD τ), idleSem 1) 0))

/-- The spread-out form, family by family. -/
theorem bodyCtx_groups (c : Dev nD) (K : Dev nD × CK → ℕ) (W : Waits sig Unit) (g1 : Buf (Elt F) ((oM : Memref sig .tc .vmem S256x8192 .f32).view.loc (c : Thread nD τ))) (fw : Buf (Elt F) ((wbM : Memref sig .tc .vmem S3x256x8192 .f32).view.loc (c : Thread nD τ))) (fs0 : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ))) (fs1 : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ))) (fs2 : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ))) (fs3 : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ))) (fs4 : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ))) (fs5 : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ))) (fs6 : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ))) (fs7 : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ))) (fs8 : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ))) (fs9 : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ))) (fs10 : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ))) (fs11 : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ))) (fs12 : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ))) (fs13 : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ))) (fs14 : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ))) (f0 : Buf (Elt F) ((c : Thread nD τ).loc cc0_scratch0)) :
    bodyCtx m c K W g1 fw fs0 fs1 fs2 fs3 fs4 fs5 fs6 fs7 fs8 fs9 fs10 fs11 fs12 fs13 fs14 f0
      = chain [chain (gX m c),
          chain (gW m c),
          chain (gOut c g1),
          chain (gSl c fs0 fs1 fs2 fs3 fs4 fs5 fs6 fs7 fs8 fs9 fs10 fs11 fs12 fs13 fs14),
          chain (gWb c fw),
          chain (gS c),
          chain (gIbar m c K),
          chain (gIs m c K),
          chain (gIr m c K),
          chain (gIb m c K),
          chain (gIv m c K),
          chain (gAtB c),
          chain (gAtS c),
          chain (gAtV c),
          chain (gRB c),
          chain (gRV c),
          chain (gRS c),
          chain (gRO c),
          chain (gTB c),
          chain (gTV c),
          chain (gTS c),
          chain (gCB c),
          chain (gCV c),
          chain (gLev),
          chain (gO c W),
          chain (gS0 c f0),
          chain (gI c)] :=
  (show bodyCtx m c K W g1 fw fs0 fs1 fs2 fs3 fs4 fs5 fs6 fs7 fs8 fs9 fs10 fs11 fs12 fs13 fs14 f0 = chain (List.flatten [gX m c, gW m c, gOut c g1, gSl c fs0 fs1 fs2 fs3 fs4 fs5 fs6 fs7 fs8 fs9 fs10 fs11 fs12 fs13 fs14, gWb c fw, gS c, gIbar m c K, gIs m c K, gIr m c K, gIb m c K, gIv m c K, gAtB c, gAtS c, gAtV c, gRB c, gRV c, gRS c, gRO c, gTB c, gTV c, gTS c, gCB c, gCV c, gLev, gO c W, gS0 c f0, gI c]) from rfl).trans
    (chain_flatten [gX m c, gW m c, gOut c g1, gSl c fs0 fs1 fs2 fs3 fs4 fs5 fs6 fs7 fs8 fs9 fs10 fs11 fs12 fs13 fs14, gWb c fw, gS c, gIbar m c K, gIs m c K, gIr m c K, gIb m c K, gIv m c K, gAtB c, gAtS c, gAtV c, gRB c, gRV c, gRS c, gRO c, gTB c, gTV c, gTS c, gCB c, gCV c, gLev, gO c W, gS0 c f0, gI c]).symm

/-! ## Each family as it is handed over -/

theorem gX_eq (c : Dev nD) : chain (gX m c) = (((c : Thread nD τ).loc cc0_stg0_0) ↦{fullShare} xstg m c : sProp 𝕄) := by
  have hs : chain (gXs m c) = (bigSep Finset.univ (fun r : Fin 15 => slabPts m c r) : sProp 𝕄) :=
    (bigSep_chain ([0, 1, 2, 3, 4, 5, 6, 7, 8, 9, 10, 11, 12, 13, 14] : List (Fin 15)) (by decide) (by decide) (fun r : Fin 15 => slabPts m c r)).symm
  have hr : chain (gXr m c) = (bigSep Finset.univ (fun r : Fin 15 => xRest m c r) : sProp 𝕄) :=
    (bigSep_chain ([0, 1, 2, 3, 4, 5, 6, 7, 8, 9, 10, 11, 12, 13, 14] : List (Fin 15)) (by decide) (by decide) (fun r : Fin 15 => xRest m c r)).symm
  have ht : ∀ r : Fin 15, BI.sep (slabPts m c r) (xRest m c r)
      = ((xM : Memref sig .tc .vmem S4096x256 .f32).view.loc (c : Thread nD τ) ↦[(xM : Memref sig .tc .vmem S4096x256 .f32).view.set]{xShare r} xstg m c : sProp 𝕄) :=
    fun r => (BI.equiv_iff.mp ⟨(tok_carve m c r).1, (tok_carve m c r).2⟩).symm
  have hw : (((xM : Memref sig .tc .vmem S4096x256 .f32).view.loc (c : Thread nD τ) ↦[(xM : Memref sig .tc .vmem S4096x256 .f32).view.set]{fullShare} xstg m c) : sProp 𝕄)
      = BI.sep ((xM : Memref sig .tc .vmem S4096x256 .f32).view.loc (c : Thread nD τ) ↦[(xM : Memref sig .tc .vmem S4096x256 .f32).view.set]{Transfers.shareDrop fullShare 15} xstg m c)
        (bigSep Finset.univ fun r : Fin 15 => ((xM : Memref sig .tc .vmem S4096x256 .f32).view.loc (c : Thread nD τ) ↦[(xM : Memref sig .tc .vmem S4096x256 .f32).view.set]{xShare r} xstg m c)) :=
    BI.equiv_iff.mp ⟨(Transfers.pointsTo_toks fullShare 15).1, (Transfers.pointsTo_toks fullShare 15).2⟩
  unfold gX
  rw [chain_cons, chain_append, hs, hr, ← bigSep_sep, bigSep_congr (fun r _ => ht r), ← hw,
    show (xM : Memref sig .tc .vmem S4096x256 .f32).view.set = Finset.univ from View.set_whole _]

theorem gW_eq (c : Dev nD) : chain (gW m c) = wPts m c := by
  have h := toks_chain (F := F) (ℓ := (wM : Memref sig .tc .hbm S4096x8192 .f32).view.loc (c : Thread nD τ))
    (S := (wM : Memref sig .tc .hbm S4096x8192 .f32).view.set) (f := m ((c : Thread nD τ).loc main_arg1)) fullShare 3 ([0, 1, 2] : List (Fin 3)) (by decide) (by decide)
  exact h.symm.trans (by unfold wPts; rw [show (wM : Memref sig .tc .hbm S4096x8192 .f32).view.set = Finset.univ from View.set_whole _])

theorem gOut_eq (c : Dev nD) (g1 : Buf (Elt F) ((oM : Memref sig .tc .vmem S256x8192 .f32).view.loc (c : Thread nD τ))) :
    chain (gOut c g1) = (((c : Thread nD τ).loc cc0_stg1_0) ↦{fullShare} g1 : sProp 𝕄) := by
  show ((oM : Memref sig .tc .vmem S256x8192 .f32).view.loc (c : Thread nD τ) ↦[(oM : Memref sig .tc .vmem S256x8192 .f32).view.set]{fullShare} g1 : sProp 𝕄) = _
  rw [show (oM : Memref sig .tc .vmem S256x8192 .f32).view.set = Finset.univ from View.set_whole _]

theorem gSl_eq (c : Dev nD) (f : Buf (Elt F) ((c : Thread nD τ).loc cc0_scratch0)) :
    chain (gSl c f f f f f f f f f f f f f f f) = (bigSep Finset.univ fun r : Fin 15 => slotPts c r f : sProp 𝕄) :=
  (bigSep_chain ([14, 13, 12, 11, 10, 9, 8, 7, 6, 5, 4, 3, 2, 1, 0] : List (Fin 15)) (by decide) (by decide) (fun r : Fin 15 => (slotPts c r f : sProp 𝕄))).symm

theorem gWb_eq (c : Dev nD) (fw : Buf (Elt F) ((c : Thread nD τ).loc cc0_scratch1)) :
    chain (gWb c fw) = (((c : Thread nD τ).loc cc0_scratch1) ↦{fullShare} fw : sProp 𝕄) :=
  ((wslots_cut c fw).trans (bigSep_chain ([0, 1, 2] : List (Fin 3)) (by decide) (by decide) (fun i : Fin 3 => ((wslot i).view.loc (c : Thread nD τ) ↦[(wslot i).view.set]{fullShare} fw : sProp 𝕄)))).symm

theorem idle_eq (c : Dev nD) :
    (idleSems c : sProp 𝕄) = iprop(semVal ((c : Thread nD τ), idleSem 0) 0 ∗ semVal ((c : Thread nD τ), idleSem 1) 0 ∗ chain (gS c)) :=
  bigSep_chain ([0, 1, 2, 3, 4] : List (Fin 5)) (by decide) (by decide) (fun i : Fin 5 => (semVal ((c : Thread nD τ), idleSem i) 0 : sProp 𝕄))

theorem gIs_eq (c : Dev nD) (K : Dev nD × CK → ℕ) : chain (gIs m c K) = (bigSep Finset.univ (fun r : Fin 15 => cellInv ER (a2aRd m) (K (c, CK.send r)) (sendCell c r)) : sProp 𝕄) :=
  (bigSep_chain ([0, 1, 2, 3, 4, 5, 6, 7, 8, 9, 10, 11, 12, 13, 14] : List (Fin 15)) (by decide) (by decide) (fun r : Fin 15 => cellInv ER (a2aRd m) (K (c, CK.send r)) (sendCell c r))).symm

theorem gIr_eq (c : Dev nD) (K : Dev nD × CK → ℕ) : chain (gIr m c K) = (bigSep Finset.univ (fun r : Fin 15 => cellInv ER (a2aRd m) (K (c, CK.recv r)) (recvCell c r)) : sProp 𝕄) :=
  (bigSep_chain ([0, 1, 2, 3, 4, 5, 6, 7, 8, 9, 10, 11, 12, 13, 14] : List (Fin 15)) (by decide) (by decide) (fun r : Fin 15 => cellInv ER (a2aRd m) (K (c, CK.recv r)) (recvCell c r))).symm

theorem gIb_eq (c : Dev nD) (K : Dev nD × CK → ℕ) : chain (gIb m c K) = (bigSep Finset.univ (fun j : Fin 15 => cellInv ER (a2aRd m) (K (fwd c (off j), CK.bar)) (barCell (fwd c (off j)))) : sProp 𝕄) :=
  (bigSep_chain ([0, 1, 2, 3, 4, 5, 6, 7, 8, 9, 10, 11, 12, 13, 14] : List (Fin 15)) (by decide) (by decide) (fun j : Fin 15 => cellInv ER (a2aRd m) (K (fwd c (off j), CK.bar)) (barCell (fwd c (off j))))).symm

theorem gIv_eq (c : Dev nD) (K : Dev nD × CK → ℕ) : chain (gIv m c K) = (bigSep Finset.univ (fun r : Fin 15 => cellInv ER (a2aRd m) (K (fwd c (off r), CK.recv r)) (recvCell (fwd c (off r)) r)) : sProp 𝕄) :=
  (bigSep_chain ([0, 1, 2, 3, 4, 5, 6, 7, 8, 9, 10, 11, 12, 13, 14] : List (Fin 15)) (by decide) (by decide) (fun r : Fin 15 => cellInv ER (a2aRd m) (K (fwd c (off r), CK.recv r)) (recvCell (fwd c (off r)) r))).symm

theorem gAtS_eq (c : Dev nD) : chain (gAtS c) = (bigSep Finset.univ (fun r : Fin 15 => atPos ER (sendCell c r) 0 ∅ 0) : sProp 𝕄) :=
  (bigSep_chain ([0, 1, 2, 3, 4, 5, 6, 7, 8, 9, 10, 11, 12, 13, 14] : List (Fin 15)) (by decide) (by decide) (fun r : Fin 15 => atPos ER (sendCell c r) 0 ∅ 0)).symm

theorem gAtV_eq (c : Dev nD) : chain (gAtV c) = (bigSep Finset.univ (fun r : Fin 15 => atPos ER (recvCell c r) 0 ∅ 0) : sProp 𝕄) :=
  (bigSep_chain ([0, 1, 2, 3, 4, 5, 6, 7, 8, 9, 10, 11, 12, 13, 14] : List (Fin 15)) (by decide) (by decide) (fun r : Fin 15 => atPos ER (recvCell c r) 0 ∅ 0)).symm

theorem gRB_eq (c : Dev nD) : chain (gRB c) = (bigSep Finset.univ (fun j : Fin 15 => reached ER (barCell (fwd c (off j))) 0) : sProp 𝕄) :=
  (bigSep_chain ([0, 1, 2, 3, 4, 5, 6, 7, 8, 9, 10, 11, 12, 13, 14] : List (Fin 15)) (by decide) (by decide) (fun j : Fin 15 => reached ER (barCell (fwd c (off j))) 0)).symm

theorem gRV_eq (c : Dev nD) : chain (gRV c) = (bigSep Finset.univ (fun r : Fin 15 => reached ER (recvCell (fwd c (off r)) r) 0) : sProp 𝕄) :=
  (bigSep_chain ([0, 1, 2, 3, 4, 5, 6, 7, 8, 9, 10, 11, 12, 13, 14] : List (Fin 15)) (by decide) (by decide) (fun r : Fin 15 => reached ER (recvCell (fwd c (off r)) r) 0)).symm

theorem gRS_eq (c : Dev nD) : chain (gRS c) = (bigSep Finset.univ (fun r : Fin 15 => reached ER (sendCell c r) 0) : sProp 𝕄) :=
  (bigSep_chain ([0, 1, 2, 3, 4, 5, 6, 7, 8, 9, 10, 11, 12, 13, 14] : List (Fin 15)) (by decide) (by decide) (fun r : Fin 15 => reached ER (sendCell c r) 0)).symm

theorem gRO_eq (c : Dev nD) : chain (gRO c) = (bigSep Finset.univ (fun r : Fin 15 => reached ER (recvCell c r) 0) : sProp 𝕄) :=
  (bigSep_chain ([rev 14, rev 13, rev 12, rev 11, rev 10, rev 9, rev 8, rev 7, rev 6, rev 5, rev 4, rev 3, rev 2, rev 1, rev 0] : List (Fin 15)) (by decide) (by decide) (fun r : Fin 15 => reached ER (recvCell c r) 0)).symm

theorem gTB_eq (c : Dev nD) : chain (gTB c) = (bigSep Finset.univ (fun j : Fin 15 => dutyTok ER (barCell (fwd c (off j))) 0 (rev j)) : sProp 𝕄) :=
  (bigSep_chain ([0, 1, 2, 3, 4, 5, 6, 7, 8, 9, 10, 11, 12, 13, 14] : List (Fin 15)) (by decide) (by decide) (fun j : Fin 15 => dutyTok ER (barCell (fwd c (off j))) 0 (rev j))).symm

theorem gTV_eq (c : Dev nD) : chain (gTV c) = (bigSep Finset.univ (fun r : Fin 15 => dutyTok ER (recvCell (fwd c (off r)) r) 0 0) : sProp 𝕄) :=
  (bigSep_chain ([0, 1, 2, 3, 4, 5, 6, 7, 8, 9, 10, 11, 12, 13, 14] : List (Fin 15)) (by decide) (by decide) (fun r : Fin 15 => dutyTok ER (recvCell (fwd c (off r)) r) 0 0)).symm

theorem gTS_eq (c : Dev nD) : chain (gTS c) = (bigSep Finset.univ (fun r : Fin 15 => dutyTok ER (sendCell c r) 0 0) : sProp 𝕄) :=
  (bigSep_chain ([0, 1, 2, 3, 4, 5, 6, 7, 8, 9, 10, 11, 12, 13, 14] : List (Fin 15)) (by decide) (by decide) (fun r : Fin 15 => dutyTok ER (sendCell c r) 0 0)).symm

theorem gCV_eq (c : Dev nD) : chain (gCV c) = (bigSep Finset.univ (fun r : Fin 15 => cred (tallyAt (recvCell c r) () N)) : sProp 𝕄) :=
  (bigSep_chain ([0, 1, 2, 3, 4, 5, 6, 7, 8, 9, 10, 11, 12, 13, 14] : List (Fin 15)) (by decide) (by decide) (fun r : Fin 15 => cred (tallyAt (recvCell c r) () N))).symm

/-- The spread-out form with every slot at the scratch's own contents is the short conjunction of the pieces as handed over. -/
theorem bodyCtx_lib (c : Dev nD) (K : Dev nD × CK → ℕ) (W : Waits sig Unit) (g1 : Buf (Elt F) ((c : Thread nD τ).loc cc0_stg1_0))
    (fw : Buf (Elt F) ((c : Thread nD τ).loc cc0_scratch1)) (f : Buf (Elt F) ((c : Thread nD τ).loc cc0_scratch0)) :
    bodyCtx m c K W g1 fw f f f f f f f f f f f f f f f f
      = iprop((((c : Thread nD τ).loc cc0_stg0_0) ↦{fullShare} xstg m c)
      ∗ wPts m c
      ∗ (((c : Thread nD τ).loc cc0_stg1_0) ↦{fullShare} g1)
      ∗ (bigSep Finset.univ fun r : Fin 15 => slotPts c r f)
      ∗ (((c : Thread nD τ).loc cc0_scratch1) ↦{fullShare} fw)
      ∗ chain (gS c)
      ∗ cellInv ER (a2aRd m) (K (c, CK.bar)) (barCell c)
      ∗ (bigSep Finset.univ fun r : Fin 15 => cellInv ER (a2aRd m) (K (c, CK.send r)) (sendCell c r))
      ∗ (bigSep Finset.univ fun r : Fin 15 => cellInv ER (a2aRd m) (K (c, CK.recv r)) (recvCell c r))
      ∗ (bigSep Finset.univ fun j : Fin 15 => cellInv ER (a2aRd m) (K (fwd c (off j), CK.bar)) (barCell (fwd c (off j))))
      ∗ (bigSep Finset.univ fun r : Fin 15 => cellInv ER (a2aRd m) (K (fwd c (off r), CK.recv r)) (recvCell (fwd c (off r)) r))
      ∗ atPos ER (barCell c) 0 ∅ 0
      ∗ (bigSep Finset.univ fun r : Fin 15 => atPos ER (sendCell c r) 0 ∅ 0)
      ∗ (bigSep Finset.univ fun r : Fin 15 => atPos ER (recvCell c r) 0 ∅ 0)
      ∗ (bigSep Finset.univ fun j : Fin 15 => reached ER (barCell (fwd c (off j))) 0)
      ∗ (bigSep Finset.univ fun r : Fin 15 => reached ER (recvCell (fwd c (off r)) r) 0)
      ∗ (bigSep Finset.univ fun r : Fin 15 => reached ER (sendCell c r) 0)
      ∗ (bigSep Finset.univ fun r : Fin 15 => reached ER (recvCell c r) 0)
      ∗ (bigSep Finset.univ fun j : Fin 15 => dutyTok ER (barCell (fwd c (off j))) 0 (rev j))
      ∗ (bigSep Finset.univ fun r : Fin 15 => dutyTok ER (recvCell (fwd c (off r)) r) 0 0)
      ∗ (bigSep Finset.univ fun r : Fin 15 => dutyTok ER (sendCell c r) 0 0)
      ∗ cred (tallyAt (barCell c) () 15)
      ∗ (bigSep Finset.univ fun r : Fin 15 => cred (tallyAt (recvCell c r) () N))
      ∗ levAts L lv
      ∗ owes (c : Thread nD τ) (O₀ c) W
      ∗ slot0Pts c f
      ∗ semVal ((c : Thread nD τ), idleSem 0) 0
      ∗ semVal ((c : Thread nD τ), idleSem 1) 0) := by
  rw [bodyCtx_groups, gX_eq, gW_eq, gOut_eq, gSl_eq, gWb_eq, gIs_eq, gIr_eq, gIb_eq, gIv_eq, gAtS_eq, gAtV_eq, gRB_eq, gRV_eq,
    gRS_eq, gRO_eq, gTB_eq, gTV_eq, gTS_eq, gCV_eq]
  rfl

/-! ## The entry -/

/-- What the call hands the body at its one grid point. -/
def bodyPre' (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- From what the call hands over to the spread-out form: the names of the ghost state, what is waited on, the result
    buffer's contents and the two scratch buffers' contents are whatever they happen to be; every slot of the
    landing scratch, slot 0 included, is held at the scratch's own contents. -/
theorem body_entry (c : Dev nD) :
    bodyPre' m ρ c ⊢ iprop(∃ (K : Dev nD × CK → ℕ) (W : Waits sig Unit) (g1 : Buf (Elt F) ((c : Thread nD τ).loc cc0_stg1_0))
        (fw : Buf (Elt F) ((c : Thread nD τ).loc cc0_scratch1)) (f : Buf (Elt F) ((c : Thread nD τ).loc cc0_scratch0)),
      bodyCtx m c K W g1 fw f f f f f f f f f f f f f f f f) := by
  unfold bodyPre' stg Φ₀ start ghost invs positions marks payToks Dat.owesAt Pipeline.owesWithin
  rw [idle_eq]
  iintro ⟨⟨⟨⟨%K, ⟨HIbar, HIs, HIr, HIb, HIv⟩, ⟨HatB, HatS, HatV⟩, ⟨HrB, HrV, HrS, HrO⟩, ⟨HtB, HtV, HtS⟩⟩, HcB, HcV, Hlev, ⟨Hi0, Hi1, HS⟩⟩,
    Hw, ⟨%f, Hscr⟩, ⟨%fw, Hwb⟩⟩, ⟨%W, %hW, HO⟩, ⟨%d0, %g0, %hg0, Hx⟩, ⟨%d1, %g1, %hg1, Hout⟩⟩
  have hx : g0 = xstg m c := by rw [hg0]; unfold Dat.before; rw [if_pos (fetch0_0 t0_0)]; rfl
  subst hx
  ihave Hscr' := (Entails.of_eq (slots_cut c f)) $$ Hscr
  icases Hscr' with ⟨Hs0, Hsl⟩
  iexists K; iexists W; iexists g1; iexists fw; iexists f
  iapply (Entails.of_eq (bodyCtx_lib m c K W g1 fw f).symm)
  · isplitl [Hx]; · iexact Hx
    isplitl [Hw]; · iexact Hw
    isplitl [Hout]; · iexact Hout
    isplitl [Hsl]; · iexact Hsl
    isplitl [Hwb]; · iexact Hwb
    isplitl [HS]; · iexact HS
    isplitl [HIbar]; · iexact HIbar
    isplitl [HIs]; · iexact HIs
    isplitl [HIr]; · iexact HIr
    isplitl [HIb]; · iexact HIb
    isplitl [HIv]; · iexact HIv
    isplitl [HatB]; · iexact HatB
    isplitl [HatS]; · iexact HatS
    isplitl [HatV]; · iexact HatV
    isplitl [HrB]; · iexact HrB
    isplitl [HrV]; · iexact HrV
    isplitl [HrS]; · iexact HrS
    isplitl [HrO]; · iexact HrO
    isplitl [HtB]; · iexact HtB
    isplitl [HtV]; · iexact HtV
    isplitl [HtS]; · iexact HtS
    isplitl [HcB]; · iexact HcB
    isplitl [HcV]; · iexact HcV
    isplitl [Hlev]; · iexact Hlev
    isplitl [HO]; · iexact HO
    isplitl [Hs0]; · iexact Hs0
    isplitl [Hi0]; · iexact Hi0
    iexact Hi1

/-! ## The body obligation from the body's triple -/

/-- If the body, started from the spread-out context, runs to the call's exit assertion, then the device meets the
    pipeline's obligation at its one grid point. -/
theorem body_obligation_of
    (hs : ∀ (c : Dev nD) (K : Dev nD × CK → ℕ) (W : Waits sig Unit) (g1 : Buf (Elt F) ((oM : Memref sig .tc .vmem S256x8192 .f32).view.loc (c : Thread nD τ))) (fw : Buf (Elt F) ((wbM : Memref sig .tc .vmem S3x256x8192 .f32).view.loc (c : Thread nD τ))) (fs0 : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ))) (fs1 : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ))) (fs2 : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ))) (fs3 : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ))) (fs4 : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ))) (fs5 : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ))) (fs6 : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ))) (fs7 : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ))) (fs8 : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ))) (fs9 : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ))) (fs10 : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ))) (fs11 : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ))) (fs12 : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ))) (fs13 : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ))) (fs14 : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ))) (f0 : Buf (Elt F) ((c : Thread nD τ).loc cc0_scratch0)),
      bodyCtx m c K W g1 fw fs0 fs1 fs2 fs3 fs4 fs5 fs6 fs7 fs8 fs9 fs10 fs11 fs12 fs13 fs14 f0
        ⊢ wp frame (wpE (defs₀ (F := F)) Variants.none (c : Thread nD τ) none) Set.univ
            (cc0_body (xM : Memref sig .tc .vmem S4096x256 .f32) (Memref.isWhole_whole _) (wM : Memref sig .tc .hbm S4096x8192 .f32) (Memref.isWhole_whole _)
              (oM : Memref sig .tc .vmem S256x8192 .f32) (Memref.isWhole_whole _) (rM : Memref sig .tc .vmem S16x256x256 .f32) (Memref.isWhole_whole _)
              (wbM : Memref sig .tc .vmem S3x256x8192 .f32) (Memref.isWhole_whole _) cc0_scratch2 cc0_scratch3 cc0_scratch4)
            (fun _ => iprop(Φ₁ m c ∗ (dats m ρ 0 c).owesAt () t0_0.succ ∗ stg c cc0_stg0_0 (xstg m c) ∗ stg c cc0_stg1_0 (outAt m c)))) :
    ∀ c : Dev nD, BodyObligation (dats (F := F) m ρ 0 c) (defs₀ (F := F)) Variants.none () Set.univ := fun c t => by
  rw [fin_N0 t]
  rw [bigSep_W0, bigSep_W0]
  simp only [owns_whole_eq]
  show bodyPre' m ρ c ⊢ wp frame (wpE (defs₀ (F := F)) Variants.none (c : Thread nD τ) none) Set.univ
      (cc0_body (xM : Memref sig .tc .vmem S4096x256 .f32) (Memref.isWhole_whole _) (wM : Memref sig .tc .hbm S4096x8192 .f32) (Memref.isWhole_whole _)
        (oM : Memref sig .tc .vmem S256x8192 .f32) (Memref.isWhole_whole _) (rM : Memref sig .tc .vmem S16x256x256 .f32) (Memref.isWhole_whole _)
        (wbM : Memref sig .tc .vmem S3x256x8192 .f32) (Memref.isWhole_whole _) cc0_scratch2 cc0_scratch3 cc0_scratch4)
      (fun _ => iprop(Φ₁ m c ∗ (dats m ρ 0 c).owesAt () t0_0.succ ∗ stg c cc0_stg0_0 (xstg m c) ∗ stg c cc0_stg1_0 (outAt m c)))
  refine (body_entry m ρ c).trans ?_
  iintro ⟨%K, %W, %g1, %fw, %f, H⟩
  iapply (hs c K W g1 fw f f f f f f f f f f f f f f f f)
  iexact H

end Cert.Kernel.A2A

end
-- ==== Proof.Tables.lean ====
/-
  The schedule's tables at numeral offsets, in the spelling the kernel's text uses.

  Every slot of the landing scratch, every slab of the staged column block and every peer is written here at its numeral:
  slot `e` is the block at offset `[e, 0, 0]` of the scratch, the slab of transfer `r` the rows at the printed offset of
  word `1 + r`, the peer `e` places forward `fwd c e`.  Seen from the device that PAYS a duty the payloads are resolved:
  the barrier unit signal `j` pays hands over the payer's own slot `15 - j`; the landing of transfer `r` on the device
  `1 + r` places forward writes the payer's own rows.
-/
import proofs.«900405_g7700000000000406_dist_a2a_gemm_m4096_k4096_n8192_f32_gelu_v7x_i16_1_alg».proof.Proof.Levels

noncomputable section

namespace Cert.KernelIdeal.A2A

open Cert.KernelIdeal Cert.KernelIdeal.Gen Cert.KernelIdeal.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's device words are the peers -/

@[sl_canon] theorem dev1_c (c : Dev nD) : (⟨k0_dev1 c, k0_dev1_lt c⟩ : Dev nD) = fwd c 1 := dev1_eq c
@[sl_canon] theorem dev2_c (c : Dev nD) : (⟨k0_dev2 c, k0_dev2_lt c⟩ : Dev nD) = fwd c 2 := dev2_eq c
@[sl_canon] theorem dev3_c (c : Dev nD) : (⟨k0_dev3 c, k0_dev3_lt c⟩ : Dev nD) = fwd c 3 := dev3_eq c
@[sl_canon] theorem dev4_c (c : Dev nD) : (⟨k0_dev4 c, k0_dev4_lt c⟩ : Dev nD) = fwd c 4 := dev4_eq c
@[sl_canon] theorem dev5_c (c : Dev nD) : (⟨k0_dev5 c, k0_dev5_lt c⟩ : Dev nD) = fwd c 5 := dev5_eq c
@[sl_canon] theorem dev6_c (c : Dev nD) : (⟨k0_dev6 c, k0_dev6_lt c⟩ : Dev nD) = fwd c 6 := dev6_eq c
@[sl_canon] theorem dev7_c (c : Dev nD) : (⟨k0_dev7 c, k0_dev7_lt c⟩ : Dev nD) = fwd c 7 := dev7_eq c
@[sl_canon] theorem dev8_c (c : Dev nD) : (⟨k0_dev8 c, k0_dev8_lt c⟩ : Dev nD) = fwd c 8 := dev8_eq c
@[sl_canon] theorem dev9_c (c : Dev nD) : (⟨k0_dev9 c, k0_dev9_lt c⟩ : Dev nD) = fwd c 9 := dev9_eq c
@[sl_canon] theorem dev10_c (c : Dev nD) : (⟨k0_dev10 c, k0_dev10_lt c⟩ : Dev nD) = fwd c 10 := dev10_eq c
@[sl_canon] theorem dev11_c (c : Dev nD) : (⟨k0_dev11 c, k0_dev11_lt c⟩ : Dev nD) = fwd c 11 := dev11_eq c
@[sl_canon] theorem dev12_c (c : Dev nD) : (⟨k0_dev12 c, k0_dev12_lt c⟩ : Dev nD) = fwd c 12 := dev12_eq c
@[sl_canon] theorem dev13_c (c : Dev nD) : (⟨k0_dev13 c, k0_dev13_lt c⟩ : Dev nD) = fwd c 13 := dev13_eq c
@[sl_canon] theorem dev14_c (c : Dev nD) : (⟨k0_dev14 c, k0_dev14_lt c⟩ : Dev nD) = fwd c 14 := dev14_eq c
@[sl_canon] theorem dev15_c (c : Dev nD) : (⟨k0_dev15 c, k0_dev15_lt c⟩ : Dev nD) = fwd c 15 := dev15_eq c
@[sl_canon] theorem dev16_c (c : Dev nD) : (⟨k0_dev16 c, k0_dev16_lt c⟩ : Dev nD) = fwd c 1 := dev16_eq c
@[sl_canon] theorem dev17_c (c : Dev nD) : (⟨k0_dev17 c, k0_dev17_lt c⟩ : Dev nD) = fwd c 2 := dev17_eq c
@[sl_canon] theorem dev18_c (c : Dev nD) : (⟨k0_dev18 c, k0_dev18_lt c⟩ : Dev nD) = fwd c 3 := dev18_eq c
@[sl_canon] theorem dev19_c (c : Dev nD) : (⟨k0_dev19 c, k0_dev19_lt c⟩ : Dev nD) = fwd c 4 := dev19_eq c
@[sl_canon] theorem dev20_c (c : Dev nD) : (⟨k0_dev20 c, k0_dev20_lt c⟩ : Dev nD) = fwd c 5 := dev20_eq c
@[sl_canon] theorem dev21_c (c : Dev nD) : (⟨k0_dev21 c, k0_dev21_lt c⟩ : Dev nD) = fwd c 6 := dev21_eq c
@[sl_canon] theorem dev22_c (c : Dev nD) : (⟨k0_dev22 c, k0_dev22_lt c⟩ : Dev nD) = fwd c 7 := dev22_eq c
@[sl_canon] theorem dev23_c (c : Dev nD) : (⟨k0_dev23 c, k0_dev23_lt c⟩ : Dev nD) = fwd c 8 := dev23_eq c
@[sl_canon] theorem dev24_c (c : Dev nD) : (⟨k0_dev24 c, k0_dev24_lt c⟩ : Dev nD) = fwd c 9 := dev24_eq c
@[sl_canon] theorem dev25_c (c : Dev nD) : (⟨k0_dev25 c, k0_dev25_lt c⟩ : Dev nD) = fwd c 10 := dev25_eq c
@[sl_canon] theorem dev26_c (c : Dev nD) : (⟨k0_dev26 c, k0_dev26_lt c⟩ : Dev nD) = fwd c 11 := dev26_eq c
@[sl_canon] theorem dev27_c (c : Dev nD) : (⟨k0_dev27 c, k0_dev27_lt c⟩ : Dev nD) = fwd c 12 := dev27_eq c
@[sl_canon] theorem dev28_c (c : Dev nD) : (⟨k0_dev28 c, k0_dev28_lt c⟩ : Dev nD) = fwd c 13 := dev28_eq c
@[sl_canon] theorem dev29_c (c : Dev nD) : (⟨k0_dev29 c, k0_dev29_lt c⟩ : Dev nD) = fwd c 14 := dev29_eq c
@[sl_canon] theorem dev30_c (c : Dev nD) : (⟨k0_dev30 c, k0_dev30_lt c⟩ : Dev nD) = fwd c 15 := dev30_eq c

/-! ## Barrier duties -/
@[sl_rounds high] theorem payload_sig_0 (c : Dev nD) :
    (a2aRd (F := F) m).payload (barCell (fwd c 1)) 0 (rev 0)
      = iprop((∃ f, (((rM.slice (Rect.unit (s := S16x256x256) ![15, 0, 0] S1x256x256.size inb_S16x256x256_S1x256x256_15_0_0) (fun _ => rfl)).squeeze S256x256 squeezes_S1x256x256_S256x256).view.loc (c : Thread nD τ) ↦[((rM.slice (Rect.unit (s := S16x256x256) ![15, 0, 0] S1x256x256.size inb_S16x256x256_S1x256x256_15_0_0) (fun _ => rfl)).squeeze S256x256 squeezes_S1x256x256_S256x256).view.set]{fullShare} f)) ∗ reached ER (recvCell c (rev 0)) 0) := by
  rw [payload_bar]; unfold barPay slotPts; rw [show fwd (fwd c 1) (off (rev 0)) = c from fwd_fwd_rev c 0]; rfl
@[sl_rounds high] theorem payload_sig_1 (c : Dev nD) :
    (a2aRd (F := F) m).payload (barCell (fwd c 2)) 0 (rev 1)
      = iprop((∃ f, (((rM.slice (Rect.unit (s := S16x256x256) ![14, 0, 0] S1x256x256.size inb_S16x256x256_S1x256x256_14_0_0) (fun _ => rfl)).squeeze S256x256 squeezes_S1x256x256_S256x256).view.loc (c : Thread nD τ) ↦[((rM.slice (Rect.unit (s := S16x256x256) ![14, 0, 0] S1x256x256.size inb_S16x256x256_S1x256x256_14_0_0) (fun _ => rfl)).squeeze S256x256 squeezes_S1x256x256_S256x256).view.set]{fullShare} f)) ∗ reached ER (recvCell c (rev 1)) 0) := by
  rw [payload_bar]; unfold barPay slotPts; rw [show fwd (fwd c 2) (off (rev 1)) = c from fwd_fwd_rev c 1]; rfl
@[sl_rounds high] theorem payload_sig_2 (c : Dev nD) :
    (a2aRd (F := F) m).payload (barCell (fwd c 3)) 0 (rev 2)
      = iprop((∃ f, (((rM.slice (Rect.unit (s := S16x256x256) ![13, 0, 0] S1x256x256.size inb_S16x256x256_S1x256x256_13_0_0) (fun _ => rfl)).squeeze S256x256 squeezes_S1x256x256_S256x256).view.loc (c : Thread nD τ) ↦[((rM.slice (Rect.unit (s := S16x256x256) ![13, 0, 0] S1x256x256.size inb_S16x256x256_S1x256x256_13_0_0) (fun _ => rfl)).squeeze S256x256 squeezes_S1x256x256_S256x256).view.set]{fullShare} f)) ∗ reached ER (recvCell c (rev 2)) 0) := by
  rw [payload_bar]; unfold barPay slotPts; rw [show fwd (fwd c 3) (off (rev 2)) = c from fwd_fwd_rev c 2]; rfl
@[sl_rounds high] theorem payload_sig_3 (c : Dev nD) :
    (a2aRd (F := F) m).payload (barCell (fwd c 4)) 0 (rev 3)
      = iprop((∃ f, (((rM.slice (Rect.unit (s := S16x256x256) ![12, 0, 0] S1x256x256.size inb_S16x256x256_S1x256x256_12_0_0) (fun _ => rfl)).squeeze S256x256 squeezes_S1x256x256_S256x256).view.loc (c : Thread nD τ) ↦[((rM.slice (Rect.unit (s := S16x256x256) ![12, 0, 0] S1x256x256.size inb_S16x256x256_S1x256x256_12_0_0) (fun _ => rfl)).squeeze S256x256 squeezes_S1x256x256_S256x256).view.set]{fullShare} f)) ∗ reached ER (recvCell c (rev 3)) 0) := by
  rw [payload_bar]; unfold barPay slotPts; rw [show fwd (fwd c 4) (off (rev 3)) = c from fwd_fwd_rev c 3]; rfl
@[sl_rounds high] theorem payload_sig_4 (c : Dev nD) :
    (a2aRd (F := F) m).payload (barCell (fwd c 5)) 0 (rev 4)
      = iprop((∃ f, (((rM.slice (Rect.unit (s := S16x256x256) ![11, 0, 0] S1x256x256.size inb_S16x256x256_S1x256x256_11_0_0) (fun _ => rfl)).squeeze S256x256 squeezes_S1x256x256_S256x256).view.loc (c : Thread nD τ) ↦[((rM.slice (Rect.unit (s := S16x256x256) ![11, 0, 0] S1x256x256.size inb_S16x256x256_S1x256x256_11_0_0) (fun _ => rfl)).squeeze S256x256 squeezes_S1x256x256_S256x256).view.set]{fullShare} f)) ∗ reached ER (recvCell c (rev 4)) 0) := by
  rw [payload_bar]; unfold barPay slotPts; rw [show fwd (fwd c 5) (off (rev 4)) = c from fwd_fwd_rev c 4]; rfl
@[sl_rounds high] theorem payload_sig_5 (c : Dev nD) :
    (a2aRd (F := F) m).payload (barCell (fwd c 6)) 0 (rev 5)
      = iprop((∃ f, (((rM.slice (Rect.unit (s := S16x256x256) ![10, 0, 0] S1x256x256.size inb_S16x256x256_S1x256x256_10_0_0) (fun _ => rfl)).squeeze S256x256 squeezes_S1x256x256_S256x256).view.loc (c : Thread nD τ) ↦[((rM.slice (Rect.unit (s := S16x256x256) ![10, 0, 0] S1x256x256.size inb_S16x256x256_S1x256x256_10_0_0) (fun _ => rfl)).squeeze S256x256 squeezes_S1x256x256_S256x256).view.set]{fullShare} f)) ∗ reached ER (recvCell c (rev 5)) 0) := by
  rw [payload_bar]; unfold barPay slotPts; rw [show fwd (fwd c 6) (off (rev 5)) = c from fwd_fwd_rev c 5]; rfl
@[sl_rounds high] theorem payload_sig_6 (c : Dev nD) :
    (a2aRd (F := F) m).payload (barCell (fwd c 7)) 0 (rev 6)
      = iprop((∃ f, (((rM.slice (Rect.unit (s := S16x256x256) ![9, 0, 0] S1x256x256.size inb_S16x256x256_S1x256x256_9_0_0) (fun _ => rfl)).squeeze S256x256 squeezes_S1x256x256_S256x256).view.loc (c : Thread nD τ) ↦[((rM.slice (Rect.unit (s := S16x256x256) ![9, 0, 0] S1x256x256.size inb_S16x256x256_S1x256x256_9_0_0) (fun _ => rfl)).squeeze S256x256 squeezes_S1x256x256_S256x256).view.set]{fullShare} f)) ∗ reached ER (recvCell c (rev 6)) 0) := by
  rw [payload_bar]; unfold barPay slotPts; rw [show fwd (fwd c 7) (off (rev 6)) = c from fwd_fwd_rev c 6]; rfl
@[sl_rounds high] theorem payload_sig_7 (c : Dev nD) :
    (a2aRd (F := F) m).payload (barCell (fwd c 8)) 0 (rev 7)
      = iprop((∃ f, (((rM.slice (Rect.unit (s := S16x256x256) ![8, 0, 0] S1x256x256.size inb_S16x256x256_S1x256x256_8_0_0) (fun _ => rfl)).squeeze S256x256 squeezes_S1x256x256_S256x256).view.loc (c : Thread nD τ) ↦[((rM.slice (Rect.unit (s := S16x256x256) ![8, 0, 0] S1x256x256.size inb_S16x256x256_S1x256x256_8_0_0) (fun _ => rfl)).squeeze S256x256 squeezes_S1x256x256_S256x256).view.set]{fullShare} f)) ∗ reached ER (recvCell c (rev 7)) 0) := by
  rw [payload_bar]; unfold barPay slotPts; rw [show fwd (fwd c 8) (off (rev 7)) = c from fwd_fwd_rev c 7]; rfl
@[sl_rounds high] theorem payload_sig_8 (c : Dev nD) :
    (a2aRd (F := F) m).payload (barCell (fwd c 9)) 0 (rev 8)
      = iprop((∃ f, (((rM.slice (Rect.unit (s := S16x256x256) ![7, 0, 0] S1x256x256.size inb_S16x256x256_S1x256x256_7_0_0) (fun _ => rfl)).squeeze S256x256 squeezes_S1x256x256_S256x256).view.loc (c : Thread nD τ) ↦[((rM.slice (Rect.unit (s := S16x256x256) ![7, 0, 0] S1x256x256.size inb_S16x256x256_S1x256x256_7_0_0) (fun _ => rfl)).squeeze S256x256 squeezes_S1x256x256_S256x256).view.set]{fullShare} f)) ∗ reached ER (recvCell c (rev 8)) 0) := by
  rw [payload_bar]; unfold barPay slotPts; rw [show fwd (fwd c 9) (off (rev 8)) = c from fwd_fwd_rev c 8]; rfl
@[sl_rounds high] theorem payload_sig_9 (c : Dev nD) :
    (a2aRd (F := F) m).payload (barCell (fwd c 10)) 0 (rev 9)
      = iprop((∃ f, (((rM.slice (Rect.unit (s := S16x256x256) ![6, 0, 0] S1x256x256.size inb_S16x256x256_S1x256x256_6_0_0) (fun _ => rfl)).squeeze S256x256 squeezes_S1x256x256_S256x256).view.loc (c : Thread nD τ) ↦[((rM.slice (Rect.unit (s := S16x256x256) ![6, 0, 0] S1x256x256.size inb_S16x256x256_S1x256x256_6_0_0) (fun _ => rfl)).squeeze S256x256 squeezes_S1x256x256_S256x256).view.set]{fullShare} f)) ∗ reached ER (recvCell c (rev 9)) 0) := by
  rw [payload_bar]; unfold barPay slotPts; rw [show fwd (fwd c 10) (off (rev 9)) = c from fwd_fwd_rev c 9]; rfl
@[sl_rounds high] theorem payload_sig_10 (c : Dev nD) :
    (a2aRd (F := F) m).payload (barCell (fwd c 11)) 0 (rev 10)
      = iprop((∃ f, (((rM.slice (Rect.unit (s := S16x256x256) ![5, 0, 0] S1x256x256.size inb_S16x256x256_S1x256x256_5_0_0) (fun _ => rfl)).squeeze S256x256 squeezes_S1x256x256_S256x256).view.loc (c : Thread nD τ) ↦[((rM.slice (Rect.unit (s := S16x256x256) ![5, 0, 0] S1x256x256.size inb_S16x256x256_S1x256x256_5_0_0) (fun _ => rfl)).squeeze S256x256 squeezes_S1x256x256_S256x256).view.set]{fullShare} f)) ∗ reached ER (recvCell c (rev 10)) 0) := by
  rw [payload_bar]; unfold barPay slotPts; rw [show fwd (fwd c 11) (off (rev 10)) = c from fwd_fwd_rev c 10]; rfl
@[sl_rounds high] theorem payload_sig_11 (c : Dev nD) :
    (a2aRd (F := F) m).payload (barCell (fwd c 12)) 0 (rev 11)
      = iprop((∃ f, (((rM.slice (Rect.unit (s := S16x256x256) ![4, 0, 0] S1x256x256.size inb_S16x256x256_S1x256x256_4_0_0) (fun _ => rfl)).squeeze S256x256 squeezes_S1x256x256_S256x256).view.loc (c : Thread nD τ) ↦[((rM.slice (Rect.unit (s := S16x256x256) ![4, 0, 0] S1x256x256.size inb_S16x256x256_S1x256x256_4_0_0) (fun _ => rfl)).squeeze S256x256 squeezes_S1x256x256_S256x256).view.set]{fullShare} f)) ∗ reached ER (recvCell c (rev 11)) 0) := by
  rw [payload_bar]; unfold barPay slotPts; rw [show fwd (fwd c 12) (off (rev 11)) = c from fwd_fwd_rev c 11]; rfl
@[sl_rounds high] theorem payload_sig_12 (c : Dev nD) :
    (a2aRd (F := F) m).payload (barCell (fwd c 13)) 0 (rev 12)
      = iprop((∃ f, (((rM.slice (Rect.unit (s := S16x256x256) ![3, 0, 0] S1x256x256.size inb_S16x256x256_S1x256x256_3_0_0) (fun _ => rfl)).squeeze S256x256 squeezes_S1x256x256_S256x256).view.loc (c : Thread nD τ) ↦[((rM.slice (Rect.unit (s := S16x256x256) ![3, 0, 0] S1x256x256.size inb_S16x256x256_S1x256x256_3_0_0) (fun _ => rfl)).squeeze S256x256 squeezes_S1x256x256_S256x256).view.set]{fullShare} f)) ∗ reached ER (recvCell c (rev 12)) 0) := by
  rw [payload_bar]; unfold barPay slotPts; rw [show fwd (fwd c 13) (off (rev 12)) = c from fwd_fwd_rev c 12]; rfl
@[sl_rounds high] theorem payload_sig_13 (c : Dev nD) :
    (a2aRd (F := F) m).payload (barCell (fwd c 14)) 0 (rev 13)
      = iprop((∃ f, (((rM.slice (Rect.unit (s := S16x256x256) ![2, 0, 0] S1x256x256.size inb_S16x256x256_S1x256x256_2_0_0) (fun _ => rfl)).squeeze S256x256 squeezes_S1x256x256_S256x256).view.loc (c : Thread nD τ) ↦[((rM.slice (Rect.unit (s := S16x256x256) ![2, 0, 0] S1x256x256.size inb_S16x256x256_S1x256x256_2_0_0) (fun _ => rfl)).squeeze S256x256 squeezes_S1x256x256_S256x256).view.set]{fullShare} f)) ∗ reached ER (recvCell c (rev 13)) 0) := by
  rw [payload_bar]; unfold barPay slotPts; rw [show fwd (fwd c 14) (off (rev 13)) = c from fwd_fwd_rev c 13]; rfl
@[sl_rounds high] theorem payload_sig_14 (c : Dev nD) :
    (a2aRd (F := F) m).payload (barCell (fwd c 15)) 0 (rev 14)
      = iprop((∃ f, (((rM.slice (Rect.unit (s := S16x256x256) ![1, 0, 0] S1x256x256.size inb_S16x256x256_S1x256x256_1_0_0) (fun _ => rfl)).squeeze S256x256 squeezes_S1x256x256_S256x256).view.loc (c : Thread nD τ) ↦[((rM.slice (Rect.unit (s := S16x256x256) ![1, 0, 0] S1x256x256.size inb_S16x256x256_S1x256x256_1_0_0) (fun _ => rfl)).squeeze S256x256 squeezes_S1x256x256_S256x256).view.set]{fullShare} f)) ∗ reached ER (recvCell c (rev 14)) 0) := by
  rw [payload_bar]; unfold barPay slotPts; rw [show fwd (fwd c 15) (off (rev 14)) = c from fwd_fwd_rev c 14]; rfl
@[sl_rounds] theorem payload_own_0 (c : Dev nD) :
    (a2aRd (F := F) m).payload (barCell c) 0 0
      = iprop((∃ f, (((rM.slice (Rect.unit (s := S16x256x256) ![1, 0, 0] S1x256x256.size inb_S16x256x256_S1x256x256_1_0_0) (fun _ => rfl)).squeeze S256x256 squeezes_S1x256x256_S256x256).view.loc (fwd c 1 : Thread nD τ) ↦[((rM.slice (Rect.unit (s := S16x256x256) ![1, 0, 0] S1x256x256.size inb_S16x256x256_S1x256x256_1_0_0) (fun _ => rfl)).squeeze S256x256 squeezes_S1x256x256_S256x256).view.set]{fullShare} f)) ∗ reached ER (recvCell (fwd c 1) 0) 0) := by
  rw [payload_bar]; unfold barPay slotPts; rfl
@[sl_rounds] theorem payload_own_1 (c : Dev nD) :
    (a2aRd (F := F) m).payload (barCell c) 0 1
      = iprop((∃ f, (((rM.slice (Rect.unit (s := S16x256x256) ![2, 0, 0] S1x256x256.size inb_S16x256x256_S1x256x256_2_0_0) (fun _ => rfl)).squeeze S256x256 squeezes_S1x256x256_S256x256).view.loc (fwd c 2 : Thread nD τ) ↦[((rM.slice (Rect.unit (s := S16x256x256) ![2, 0, 0] S1x256x256.size inb_S16x256x256_S1x256x256_2_0_0) (fun _ => rfl)).squeeze S256x256 squeezes_S1x256x256_S256x256).view.set]{fullShare} f)) ∗ reached ER (recvCell (fwd c 2) 1) 0) := by
  rw [payload_bar]; unfold barPay slotPts; rfl
@[sl_rounds] theorem payload_own_2 (c : Dev nD) :
    (a2aRd (F := F) m).payload (barCell c) 0 2
      = iprop((∃ f, (((rM.slice (Rect.unit (s := S16x256x256) ![3, 0, 0] S1x256x256.size inb_S16x256x256_S1x256x256_3_0_0) (fun _ => rfl)).squeeze S256x256 squeezes_S1x256x256_S256x256).view.loc (fwd c 3 : Thread nD τ) ↦[((rM.slice (Rect.unit (s := S16x256x256) ![3, 0, 0] S1x256x256.size inb_S16x256x256_S1x256x256_3_0_0) (fun _ => rfl)).squeeze S256x256 squeezes_S1x256x256_S256x256).view.set]{fullShare} f)) ∗ reached ER (recvCell (fwd c 3) 2) 0) := by
  rw [payload_bar]; unfold barPay slotPts; rfl
@[sl_rounds] theorem payload_own_3 (c : Dev nD) :
    (a2aRd (F := F) m).payload (barCell c) 0 3
      = iprop((∃ f, (((rM.slice (Rect.unit (s := S16x256x256) ![4, 0, 0] S1x256x256.size inb_S16x256x256_S1x256x256_4_0_0) (fun _ => rfl)).squeeze S256x256 squeezes_S1x256x256_S256x256).view.loc (fwd c 4 : Thread nD τ) ↦[((rM.slice (Rect.unit (s := S16x256x256) ![4, 0, 0] S1x256x256.size inb_S16x256x256_S1x256x256_4_0_0) (fun _ => rfl)).squeeze S256x256 squeezes_S1x256x256_S256x256).view.set]{fullShare} f)) ∗ reached ER (recvCell (fwd c 4) 3) 0) := by
  rw [payload_bar]; unfold barPay slotPts; rfl
@[sl_rounds] theorem payload_own_4 (c : Dev nD) :
    (a2aRd (F := F) m).payload (barCell c) 0 4
      = iprop((∃ f, (((rM.slice (Rect.unit (s := S16x256x256) ![5, 0, 0] S1x256x256.size inb_S16x256x256_S1x256x256_5_0_0) (fun _ => rfl)).squeeze S256x256 squeezes_S1x256x256_S256x256).view.loc (fwd c 5 : Thread nD τ) ↦[((rM.slice (Rect.unit (s := S16x256x256) ![5, 0, 0] S1x256x256.size inb_S16x256x256_S1x256x256_5_0_0) (fun _ => rfl)).squeeze S256x256 squeezes_S1x256x256_S256x256).view.set]{fullShare} f)) ∗ reached ER (recvCell (fwd c 5) 4) 0) := by
  rw [payload_bar]; unfold barPay slotPts; rfl
@[sl_rounds] theorem payload_own_5 (c : Dev nD) :
    (a2aRd (F := F) m).payload (barCell c) 0 5
      = iprop((∃ f, (((rM.slice (Rect.unit (s := S16x256x256) ![6, 0, 0] S1x256x256.size inb_S16x256x256_S1x256x256_6_0_0) (fun _ => rfl)).squeeze S256x256 squeezes_S1x256x256_S256x256).view.loc (fwd c 6 : Thread nD τ) ↦[((rM.slice (Rect.unit (s := S16x256x256) ![6, 0, 0] S1x256x256.size inb_S16x256x256_S1x256x256_6_0_0) (fun _ => rfl)).squeeze S256x256 squeezes_S1x256x256_S256x256).view.set]{fullShare} f)) ∗ reached ER (recvCell (fwd c 6) 5) 0) := by
  rw [payload_bar]; unfold barPay slotPts; rfl
@[sl_rounds] theorem payload_own_6 (c : Dev nD) :
    (a2aRd (F := F) m).payload (barCell c) 0 6
      = iprop((∃ f, (((rM.slice (Rect.unit (s := S16x256x256) ![7, 0, 0] S1x256x256.size inb_S16x256x256_S1x256x256_7_0_0) (fun _ => rfl)).squeeze S256x256 squeezes_S1x256x256_S256x256).view.loc (fwd c 7 : Thread nD τ) ↦[((rM.slice (Rect.unit (s := S16x256x256) ![7, 0, 0] S1x256x256.size inb_S16x256x256_S1x256x256_7_0_0) (fun _ => rfl)).squeeze S256x256 squeezes_S1x256x256_S256x256).view.set]{fullShare} f)) ∗ reached ER (recvCell (fwd c 7) 6) 0) := by
  rw [payload_bar]; unfold barPay slotPts; rfl
@[sl_rounds] theorem payload_own_7 (c : Dev nD) :
    (a2aRd (F := F) m).payload (barCell c) 0 7
      = iprop((∃ f, (((rM.slice (Rect.unit (s := S16x256x256) ![8, 0, 0] S1x256x256.size inb_S16x256x256_S1x256x256_8_0_0) (fun _ => rfl)).squeeze S256x256 squeezes_S1x256x256_S256x256).view.loc (fwd c 8 : Thread nD τ) ↦[((rM.slice (Rect.unit (s := S16x256x256) ![8, 0, 0] S1x256x256.size inb_S16x256x256_S1x256x256_8_0_0) (fun _ => rfl)).squeeze S256x256 squeezes_S1x256x256_S256x256).view.set]{fullShare} f)) ∗ reached ER (recvCell (fwd c 8) 7) 0) := by
  rw [payload_bar]; unfold barPay slotPts; rfl
@[sl_rounds] theorem payload_own_8 (c : Dev nD) :
    (a2aRd (F := F) m).payload (barCell c) 0 8
      = iprop((∃ f, (((rM.slice (Rect.unit (s := S16x256x256) ![9, 0, 0] S1x256x256.size inb_S16x256x256_S1x256x256_9_0_0) (fun _ => rfl)).squeeze S256x256 squeezes_S1x256x256_S256x256).view.loc (fwd c 9 : Thread nD τ) ↦[((rM.slice (Rect.unit (s := S16x256x256) ![9, 0, 0] S1x256x256.size inb_S16x256x256_S1x256x256_9_0_0) (fun _ => rfl)).squeeze S256x256 squeezes_S1x256x256_S256x256).view.set]{fullShare} f)) ∗ reached ER (recvCell (fwd c 9) 8) 0) := by
  rw [payload_bar]; unfold barPay slotPts; rfl
@[sl_rounds] theorem payload_own_9 (c : Dev nD) :
    (a2aRd (F := F) m).payload (barCell c) 0 9
      = iprop((∃ f, (((rM.slice (Rect.unit (s := S16x256x256) ![10, 0, 0] S1x256x256.size inb_S16x256x256_S1x256x256_10_0_0) (fun _ => rfl)).squeeze S256x256 squeezes_S1x256x256_S256x256).view.loc (fwd c 10 : Thread nD τ) ↦[((rM.slice (Rect.unit (s := S16x256x256) ![10, 0, 0] S1x256x256.size inb_S16x256x256_S1x256x256_10_0_0) (fun _ => rfl)).squeeze S256x256 squeezes_S1x256x256_S256x256).view.set]{fullShare} f)) ∗ reached ER (recvCell (fwd c 10) 9) 0) := by
  rw [payload_bar]; unfold barPay slotPts; rfl
@[sl_rounds] theorem payload_own_10 (c : Dev nD) :
    (a2aRd (F := F) m).payload (barCell c) 0 10
      = iprop((∃ f, (((rM.slice (Rect.unit (s := S16x256x256) ![11, 0, 0] S1x256x256.size inb_S16x256x256_S1x256x256_11_0_0) (fun _ => rfl)).squeeze S256x256 squeezes_S1x256x256_S256x256).view.loc (fwd c 11 : Thread nD τ) ↦[((rM.slice (Rect.unit (s := S16x256x256) ![11, 0, 0] S1x256x256.size inb_S16x256x256_S1x256x256_11_0_0) (fun _ => rfl)).squeeze S256x256 squeezes_S1x256x256_S256x256).view.set]{fullShare} f)) ∗ reached ER (recvCell (fwd c 11) 10) 0) := by
  rw [payload_bar]; unfold barPay slotPts; rfl
@[sl_rounds] theorem payload_own_11 (c : Dev nD) :
    (a2aRd (F := F) m).payload (barCell c) 0 11
      = iprop((∃ f, (((rM.slice (Rect.unit (s := S16x256x256) ![12, 0, 0] S1x256x256.size inb_S16x256x256_S1x256x256_12_0_0) (fun _ => rfl)).squeeze S256x256 squeezes_S1x256x256_S256x256).view.loc (fwd c 12 : Thread nD τ) ↦[((rM.slice (Rect.unit (s := S16x256x256) ![12, 0, 0] S1x256x256.size inb_S16x256x256_S1x256x256_12_0_0) (fun _ => rfl)).squeeze S256x256 squeezes_S1x256x256_S256x256).view.set]{fullShare} f)) ∗ reached ER (recvCell (fwd c 12) 11) 0) := by
  rw [payload_bar]; unfold barPay slotPts; rfl
@[sl_rounds] theorem payload_own_12 (c : Dev nD) :
    (a2aRd (F := F) m).payload (barCell c) 0 12
      = iprop((∃ f, (((rM.slice (Rect.unit (s := S16x256x256) ![13, 0, 0] S1x256x256.size inb_S16x256x256_S1x256x256_13_0_0) (fun _ => rfl)).squeeze S256x256 squeezes_S1x256x256_S256x256).view.loc (fwd c 13 : Thread nD τ) ↦[((rM.slice (Rect.unit (s := S16x256x256) ![13, 0, 0] S1x256x256.size inb_S16x256x256_S1x256x256_13_0_0) (fun _ => rfl)).squeeze S256x256 squeezes_S1x256x256_S256x256).view.set]{fullShare} f)) ∗ reached ER (recvCell (fwd c 13) 12) 0) := by
  rw [payload_bar]; unfold barPay slotPts; rfl
@[sl_rounds] theorem payload_own_13 (c : Dev nD) :
    (a2aRd (F := F) m).payload (barCell c) 0 13
      = iprop((∃ f, (((rM.slice (Rect.unit (s := S16x256x256) ![14, 0, 0] S1x256x256.size inb_S16x256x256_S1x256x256_14_0_0) (fun _ => rfl)).squeeze S256x256 squeezes_S1x256x256_S256x256).view.loc (fwd c 14 : Thread nD τ) ↦[((rM.slice (Rect.unit (s := S16x256x256) ![14, 0, 0] S1x256x256.size inb_S16x256x256_S1x256x256_14_0_0) (fun _ => rfl)).squeeze S256x256 squeezes_S1x256x256_S256x256).view.set]{fullShare} f)) ∗ reached ER (recvCell (fwd c 14) 13) 0) := by
  rw [payload_bar]; unfold barPay slotPts; rfl
@[sl_rounds] theorem payload_own_14 (c : Dev nD) :
    (a2aRd (F := F) m).payload (barCell c) 0 14
      = iprop((∃ f, (((rM.slice (Rect.unit (s := S16x256x256) ![15, 0, 0] S1x256x256.size inb_S16x256x256_S1x256x256_15_0_0) (fun _ => rfl)).squeeze S256x256 squeezes_S1x256x256_S256x256).view.loc (fwd c 15 : Thread nD τ) ↦[((rM.slice (Rect.unit (s := S16x256x256) ![15, 0, 0] S1x256x256.size inb_S16x256x256_S1x256x256_15_0_0) (fun _ => rfl)).squeeze S256x256 squeezes_S1x256x256_S256x256).view.set]{fullShare} f)) ∗ reached ER (recvCell (fwd c 15) 14) 0) := by
  rw [payload_bar]; unfold barPay slotPts; rfl

/-! ## Transfers: the departure hands the rows back, the landing hands the receiver its slot written with them -/
@[sl_rounds] theorem payload_send_0 (c : Dev nD) (x : Fin 15) :
    (a2aRd (F := F) m).payload (sendCell c 0) 0 x = ((xM.slice (Rect.unit (s := S4096x256) (k0_off2 c 1#32) S256x256.size (k0_off2_inb c 0)) (fun _ => rfl)).view.loc (c : Thread nD τ) ↦[(xM.slice (Rect.unit (s := S4096x256) (k0_off2 c 1#32) S256x256.size (k0_off2_inb c 0)) (fun _ => rfl)).view.set]{xShare 0} xstg m c) := by
  rw [payload_send]; rfl
@[sl_rounds high] theorem payload_arrive_0 (c : Dev nD) (x : Fin 15) :
    (a2aRd (F := F) m).payload (recvCell (fwd c 1) 0) 0 x
      = iprop(∃ b, (((rM.slice (Rect.unit (s := S16x256x256) ![1, 0, 0] S1x256x256.size inb_S16x256x256_S1x256x256_1_0_0) (fun _ => rfl)).squeeze S256x256 squeezes_S1x256x256_S256x256).view.loc (fwd c 1 : Thread nD τ) ↦[((rM.slice (Rect.unit (s := S16x256x256) ![1, 0, 0] S1x256x256.size inb_S16x256x256_S1x256x256_1_0_0) (fun _ => rfl)).squeeze S256x256 squeezes_S1x256x256_S256x256).view.set]{fullShare}
          ((rM.slice (Rect.unit (s := S16x256x256) ![1, 0, 0] S1x256x256.size inb_S16x256x256_S1x256x256_1_0_0) (fun _ => rfl)).squeeze S256x256 squeezes_S1x256x256_S256x256).view.write (Elt F) b ((xM.slice (Rect.unit (s := S4096x256) (k0_off2 c 1#32) S256x256.size (k0_off2_inb c 0)) (fun _ => rfl)).view.read (Elt F) (xstg m c)) Finset.univ)) := by
  rw [payload_recv]; unfold recvPay slotPts landed sentBlock; rw [show bwd (fwd c 1) (off 0) = c from bwd_fwd c (off 0)]; rfl
@[sl_rounds] theorem payload_landed_0 (c : Dev nD) (x : Fin 15) :
    (a2aRd (F := F) m).payload (recvCell c 0) 0 x
      = iprop(∃ b, (((rM.slice (Rect.unit (s := S16x256x256) ![1, 0, 0] S1x256x256.size inb_S16x256x256_S1x256x256_1_0_0) (fun _ => rfl)).squeeze S256x256 squeezes_S1x256x256_S256x256).view.loc (c : Thread nD τ) ↦[((rM.slice (Rect.unit (s := S16x256x256) ![1, 0, 0] S1x256x256.size inb_S16x256x256_S1x256x256_1_0_0) (fun _ => rfl)).squeeze S256x256 squeezes_S1x256x256_S256x256).view.set]{fullShare}
          ((rM.slice (Rect.unit (s := S16x256x256) ![1, 0, 0] S1x256x256.size inb_S16x256x256_S1x256x256_1_0_0) (fun _ => rfl)).squeeze S256x256 squeezes_S1x256x256_S256x256).view.write (Elt F) b (sentBlock m (bwd c (off 0)) 0) Finset.univ)) := by
  rw [payload_recv]; unfold recvPay slotPts landed; rfl
@[sl_rounds] theorem payload_send_1 (c : Dev nD) (x : Fin 15) :
    (a2aRd (F := F) m).payload (sendCell c 1) 0 x = ((xM.slice (Rect.unit (s := S4096x256) (k0_off2 c 2#32) S256x256.size (k0_off2_inb c 1)) (fun _ => rfl)).view.loc (c : Thread nD τ) ↦[(xM.slice (Rect.unit (s := S4096x256) (k0_off2 c 2#32) S256x256.size (k0_off2_inb c 1)) (fun _ => rfl)).view.set]{xShare 1} xstg m c) := by
  rw [payload_send]; rfl
@[sl_rounds high] theorem payload_arrive_1 (c : Dev nD) (x : Fin 15) :
    (a2aRd (F := F) m).payload (recvCell (fwd c 2) 1) 0 x
      = iprop(∃ b, (((rM.slice (Rect.unit (s := S16x256x256) ![2, 0, 0] S1x256x256.size inb_S16x256x256_S1x256x256_2_0_0) (fun _ => rfl)).squeeze S256x256 squeezes_S1x256x256_S256x256).view.loc (fwd c 2 : Thread nD τ) ↦[((rM.slice (Rect.unit (s := S16x256x256) ![2, 0, 0] S1x256x256.size inb_S16x256x256_S1x256x256_2_0_0) (fun _ => rfl)).squeeze S256x256 squeezes_S1x256x256_S256x256).view.set]{fullShare}
          ((rM.slice (Rect.unit (s := S16x256x256) ![2, 0, 0] S1x256x256.size inb_S16x256x256_S1x256x256_2_0_0) (fun _ => rfl)).squeeze S256x256 squeezes_S1x256x256_S256x256).view.write (Elt F) b ((xM.slice (Rect.unit (s := S4096x256) (k0_off2 c 2#32) S256x256.size (k0_off2_inb c 1)) (fun _ => rfl)).view.read (Elt F) (xstg m c)) Finset.univ)) := by
  rw [payload_recv]; unfold recvPay slotPts landed sentBlock; rw [show bwd (fwd c 2) (off 1) = c from bwd_fwd c (off 1)]; rfl
@[sl_rounds] theorem payload_landed_1 (c : Dev nD) (x : Fin 15) :
    (a2aRd (F := F) m).payload (recvCell c 1) 0 x
      = iprop(∃ b, (((rM.slice (Rect.unit (s := S16x256x256) ![2, 0, 0] S1x256x256.size inb_S16x256x256_S1x256x256_2_0_0) (fun _ => rfl)).squeeze S256x256 squeezes_S1x256x256_S256x256).view.loc (c : Thread nD τ) ↦[((rM.slice (Rect.unit (s := S16x256x256) ![2, 0, 0] S1x256x256.size inb_S16x256x256_S1x256x256_2_0_0) (fun _ => rfl)).squeeze S256x256 squeezes_S1x256x256_S256x256).view.set]{fullShare}
          ((rM.slice (Rect.unit (s := S16x256x256) ![2, 0, 0] S1x256x256.size inb_S16x256x256_S1x256x256_2_0_0) (fun _ => rfl)).squeeze S256x256 squeezes_S1x256x256_S256x256).view.write (Elt F) b (sentBlock m (bwd c (off 1)) 1) Finset.univ)) := by
  rw [payload_recv]; unfold recvPay slotPts landed; rfl
@[sl_rounds] theorem payload_send_2 (c : Dev nD) (x : Fin 15) :
    (a2aRd (F := F) m).payload (sendCell c 2) 0 x = ((xM.slice (Rect.unit (s := S4096x256) (k0_off2 c 3#32) S256x256.size (k0_off2_inb c 2)) (fun _ => rfl)).view.loc (c : Thread nD τ) ↦[(xM.slice (Rect.unit (s := S4096x256) (k0_off2 c 3#32) S256x256.size (k0_off2_inb c 2)) (fun _ => rfl)).view.set]{xShare 2} xstg m c) := by
  rw [payload_send]; rfl
@[sl_rounds high] theorem payload_arrive_2 (c : Dev nD) (x : Fin 15) :
    (a2aRd (F := F) m).payload (recvCell (fwd c 3) 2) 0 x
      = iprop(∃ b, (((rM.slice (Rect.unit (s := S16x256x256) ![3, 0, 0] S1x256x256.size inb_S16x256x256_S1x256x256_3_0_0) (fun _ => rfl)).squeeze S256x256 squeezes_S1x256x256_S256x256).view.loc (fwd c 3 : Thread nD τ) ↦[((rM.slice (Rect.unit (s := S16x256x256) ![3, 0, 0] S1x256x256.size inb_S16x256x256_S1x256x256_3_0_0) (fun _ => rfl)).squeeze S256x256 squeezes_S1x256x256_S256x256).view.set]{fullShare}
          ((rM.slice (Rect.unit (s := S16x256x256) ![3, 0, 0] S1x256x256.size inb_S16x256x256_S1x256x256_3_0_0) (fun _ => rfl)).squeeze S256x256 squeezes_S1x256x256_S256x256).view.write (Elt F) b ((xM.slice (Rect.unit (s := S4096x256) (k0_off2 c 3#32) S256x256.size (k0_off2_inb c 2)) (fun _ => rfl)).view.read (Elt F) (xstg m c)) Finset.univ)) := by
  rw [payload_recv]; unfold recvPay slotPts landed sentBlock; rw [show bwd (fwd c 3) (off 2) = c from bwd_fwd c (off 2)]; rfl
@[sl_rounds] theorem payload_landed_2 (c : Dev nD) (x : Fin 15) :
    (a2aRd (F := F) m).payload (recvCell c 2) 0 x
      = iprop(∃ b, (((rM.slice (Rect.unit (s := S16x256x256) ![3, 0, 0] S1x256x256.size inb_S16x256x256_S1x256x256_3_0_0) (fun _ => rfl)).squeeze S256x256 squeezes_S1x256x256_S256x256).view.loc (c : Thread nD τ) ↦[((rM.slice (Rect.unit (s := S16x256x256) ![3, 0, 0] S1x256x256.size inb_S16x256x256_S1x256x256_3_0_0) (fun _ => rfl)).squeeze S256x256 squeezes_S1x256x256_S256x256).view.set]{fullShare}
          ((rM.slice (Rect.unit (s := S16x256x256) ![3, 0, 0] S1x256x256.size inb_S16x256x256_S1x256x256_3_0_0) (fun _ => rfl)).squeeze S256x256 squeezes_S1x256x256_S256x256).view.write (Elt F) b (sentBlock m (bwd c (off 2)) 2) Finset.univ)) := by
  rw [payload_recv]; unfold recvPay slotPts landed; rfl
@[sl_rounds] theorem payload_send_3 (c : Dev nD) (x : Fin 15) :
    (a2aRd (F := F) m).payload (sendCell c 3) 0 x = ((xM.slice (Rect.unit (s := S4096x256) (k0_off2 c 4#32) S256x256.size (k0_off2_inb c 3)) (fun _ => rfl)).view.loc (c : Thread nD τ) ↦[(xM.slice (Rect.unit (s := S4096x256) (k0_off2 c 4#32) S256x256.size (k0_off2_inb c 3)) (fun _ => rfl)).view.set]{xShare 3} xstg m c) := by
  rw [payload_send]; rfl
@[sl_rounds high] theorem payload_arrive_3 (c : Dev nD) (x : Fin 15) :
    (a2aRd (F := F) m).payload (recvCell (fwd c 4) 3) 0 x
      = iprop(∃ b, (((rM.slice (Rect.unit (s := S16x256x256) ![4, 0, 0] S1x256x256.size inb_S16x256x256_S1x256x256_4_0_0) (fun _ => rfl)).squeeze S256x256 squeezes_S1x256x256_S256x256).view.loc (fwd c 4 : Thread nD τ) ↦[((rM.slice (Rect.unit (s := S16x256x256) ![4, 0, 0] S1x256x256.size inb_S16x256x256_S1x256x256_4_0_0) (fun _ => rfl)).squeeze S256x256 squeezes_S1x256x256_S256x256).view.set]{fullShare}
          ((rM.slice (Rect.unit (s := S16x256x256) ![4, 0, 0] S1x256x256.size inb_S16x256x256_S1x256x256_4_0_0) (fun _ => rfl)).squeeze S256x256 squeezes_S1x256x256_S256x256).view.write (Elt F) b ((xM.slice (Rect.unit (s := S4096x256) (k0_off2 c 4#32) S256x256.size (k0_off2_inb c 3)) (fun _ => rfl)).view.read (Elt F) (xstg m c)) Finset.univ)) := by
  rw [payload_recv]; unfold recvPay slotPts landed sentBlock; rw [show bwd (fwd c 4) (off 3) = c from bwd_fwd c (off 3)]; rfl
@[sl_rounds] theorem payload_landed_3 (c : Dev nD) (x : Fin 15) :
    (a2aRd (F := F) m).payload (recvCell c 3) 0 x
      = iprop(∃ b, (((rM.slice (Rect.unit (s := S16x256x256) ![4, 0, 0] S1x256x256.size inb_S16x256x256_S1x256x256_4_0_0) (fun _ => rfl)).squeeze S256x256 squeezes_S1x256x256_S256x256).view.loc (c : Thread nD τ) ↦[((rM.slice (Rect.unit (s := S16x256x256) ![4, 0, 0] S1x256x256.size inb_S16x256x256_S1x256x256_4_0_0) (fun _ => rfl)).squeeze S256x256 squeezes_S1x256x256_S256x256).view.set]{fullShare}
          ((rM.slice (Rect.unit (s := S16x256x256) ![4, 0, 0] S1x256x256.size inb_S16x256x256_S1x256x256_4_0_0) (fun _ => rfl)).squeeze S256x256 squeezes_S1x256x256_S256x256).view.write (Elt F) b (sentBlock m (bwd c (off 3)) 3) Finset.univ)) := by
  rw [payload_recv]; unfold recvPay slotPts landed; rfl
@[sl_rounds] theorem payload_send_4 (c : Dev nD) (x : Fin 15) :
    (a2aRd (F := F) m).payload (sendCell c 4) 0 x = ((xM.slice (Rect.unit (s := S4096x256) (k0_off2 c 5#32) S256x256.size (k0_off2_inb c 4)) (fun _ => rfl)).view.loc (c : Thread nD τ) ↦[(xM.slice (Rect.unit (s := S4096x256) (k0_off2 c 5#32) S256x256.size (k0_off2_inb c 4)) (fun _ => rfl)).view.set]{xShare 4} xstg m c) := by
  rw [payload_send]; rfl
@[sl_rounds high] theorem payload_arrive_4 (c : Dev nD) (x : Fin 15) :
    (a2aRd (F := F) m).payload (recvCell (fwd c 5) 4) 0 x
      = iprop(∃ b, (((rM.slice (Rect.unit (s := S16x256x256) ![5, 0, 0] S1x256x256.size inb_S16x256x256_S1x256x256_5_0_0) (fun _ => rfl)).squeeze S256x256 squeezes_S1x256x256_S256x256).view.loc (fwd c 5 : Thread nD τ) ↦[((rM.slice (Rect.unit (s := S16x256x256) ![5, 0, 0] S1x256x256.size inb_S16x256x256_S1x256x256_5_0_0) (fun _ => rfl)).squeeze S256x256 squeezes_S1x256x256_S256x256).view.set]{fullShare}
          ((rM.slice (Rect.unit (s := S16x256x256) ![5, 0, 0] S1x256x256.size inb_S16x256x256_S1x256x256_5_0_0) (fun _ => rfl)).squeeze S256x256 squeezes_S1x256x256_S256x256).view.write (Elt F) b ((xM.slice (Rect.unit (s := S4096x256) (k0_off2 c 5#32) S256x256.size (k0_off2_inb c 4)) (fun _ => rfl)).view.read (Elt F) (xstg m c)) Finset.univ)) := by
  rw [payload_recv]; unfold recvPay slotPts landed sentBlock; rw [show bwd (fwd c 5) (off 4) = c from bwd_fwd c (off 4)]; rfl
@[sl_rounds] theorem payload_landed_4 (c : Dev nD) (x : Fin 15) :
    (a2aRd (F := F) m).payload (recvCell c 4) 0 x
      = iprop(∃ b, (((rM.slice (Rect.unit (s := S16x256x256) ![5, 0, 0] S1x256x256.size inb_S16x256x256_S1x256x256_5_0_0) (fun _ => rfl)).squeeze S256x256 squeezes_S1x256x256_S256x256).view.loc (c : Thread nD τ) ↦[((rM.slice (Rect.unit (s := S16x256x256) ![5, 0, 0] S1x256x256.size inb_S16x256x256_S1x256x256_5_0_0) (fun _ => rfl)).squeeze S256x256 squeezes_S1x256x256_S256x256).view.set]{fullShare}
          ((rM.slice (Rect.unit (s := S16x256x256) ![5, 0, 0] S1x256x256.size inb_S16x256x256_S1x256x256_5_0_0) (fun _ => rfl)).squeeze S256x256 squeezes_S1x256x256_S256x256).view.write (Elt F) b (sentBlock m (bwd c (off 4)) 4) Finset.univ)) := by
  rw [payload_recv]; unfold recvPay slotPts landed; rfl
@[sl_rounds] theorem payload_send_5 (c : Dev nD) (x : Fin 15) :
    (a2aRd (F := F) m).payload (sendCell c 5) 0 x = ((xM.slice (Rect.unit (s := S4096x256) (k0_off2 c 6#32) S256x256.size (k0_off2_inb c 5)) (fun _ => rfl)).view.loc (c : Thread nD τ) ↦[(xM.slice (Rect.unit (s := S4096x256) (k0_off2 c 6#32) S256x256.size (k0_off2_inb c 5)) (fun _ => rfl)).view.set]{xShare 5} xstg m c) := by
  rw [payload_send]; rfl
@[sl_rounds high] theorem payload_arrive_5 (c : Dev nD) (x : Fin 15) :
    (a2aRd (F := F) m).payload (recvCell (fwd c 6) 5) 0 x
      = iprop(∃ b, (((rM.slice (Rect.unit (s := S16x256x256) ![6, 0, 0] S1x256x256.size inb_S16x256x256_S1x256x256_6_0_0) (fun _ => rfl)).squeeze S256x256 squeezes_S1x256x256_S256x256).view.loc (fwd c 6 : Thread nD τ) ↦[((rM.slice (Rect.unit (s := S16x256x256) ![6, 0, 0] S1x256x256.size inb_S16x256x256_S1x256x256_6_0_0) (fun _ => rfl)).squeeze S256x256 squeezes_S1x256x256_S256x256).view.set]{fullShare}
          ((rM.slice (Rect.unit (s := S16x256x256) ![6, 0, 0] S1x256x256.size inb_S16x256x256_S1x256x256_6_0_0) (fun _ => rfl)).squeeze S256x256 squeezes_S1x256x256_S256x256).view.write (Elt F) b ((xM.slice (Rect.unit (s := S4096x256) (k0_off2 c 6#32) S256x256.size (k0_off2_inb c 5)) (fun _ => rfl)).view.read (Elt F) (xstg m c)) Finset.univ)) := by
  rw [payload_recv]; unfold recvPay slotPts landed sentBlock; rw [show bwd (fwd c 6) (off 5) = c from bwd_fwd c (off 5)]; rfl
@[sl_rounds] theorem payload_landed_5 (c : Dev nD) (x : Fin 15) :
    (a2aRd (F := F) m).payload (recvCell c 5) 0 x
      = iprop(∃ b, (((rM.slice (Rect.unit (s := S16x256x256) ![6, 0, 0] S1x256x256.size inb_S16x256x256_S1x256x256_6_0_0) (fun _ => rfl)).squeeze S256x256 squeezes_S1x256x256_S256x256).view.loc (c : Thread nD τ) ↦[((rM.slice (Rect.unit (s := S16x256x256) ![6, 0, 0] S1x256x256.size inb_S16x256x256_S1x256x256_6_0_0) (fun _ => rfl)).squeeze S256x256 squeezes_S1x256x256_S256x256).view.set]{fullShare}
          ((rM.slice (Rect.unit (s := S16x256x256) ![6, 0, 0] S1x256x256.size inb_S16x256x256_S1x256x256_6_0_0) (fun _ => rfl)).squeeze S256x256 squeezes_S1x256x256_S256x256).view.write (Elt F) b (sentBlock m (bwd c (off 5)) 5) Finset.univ)) := by
  rw [payload_recv]; unfold recvPay slotPts landed; rfl
@[sl_rounds] theorem payload_send_6 (c : Dev nD) (x : Fin 15) :
    (a2aRd (F := F) m).payload (sendCell c 6) 0 x = ((xM.slice (Rect.unit (s := S4096x256) (k0_off2 c 7#32) S256x256.size (k0_off2_inb c 6)) (fun _ => rfl)).view.loc (c : Thread nD τ) ↦[(xM.slice (Rect.unit (s := S4096x256) (k0_off2 c 7#32) S256x256.size (k0_off2_inb c 6)) (fun _ => rfl)).view.set]{xShare 6} xstg m c) := by
  rw [payload_send]; rfl
@[sl_rounds high] theorem payload_arrive_6 (c : Dev nD) (x : Fin 15) :
    (a2aRd (F := F) m).payload (recvCell (fwd c 7) 6) 0 x
      = iprop(∃ b, (((rM.slice (Rect.unit (s := S16x256x256) ![7, 0, 0] S1x256x256.size inb_S16x256x256_S1x256x256_7_0_0) (fun _ => rfl)).squeeze S256x256 squeezes_S1x256x256_S256x256).view.loc (fwd c 7 : Thread nD τ) ↦[((rM.slice (Rect.unit (s := S16x256x256) ![7, 0, 0] S1x256x256.size inb_S16x256x256_S1x256x256_7_0_0) (fun _ => rfl)).squeeze S256x256 squeezes_S1x256x256_S256x256).view.set]{fullShare}
          ((rM.slice (Rect.unit (s := S16x256x256) ![7, 0, 0] S1x256x256.size inb_S16x256x256_S1x256x256_7_0_0) (fun _ => rfl)).squeeze S256x256 squeezes_S1x256x256_S256x256).view.write (Elt F) b ((xM.slice (Rect.unit (s := S4096x256) (k0_off2 c 7#32) S256x256.size (k0_off2_inb c 6)) (fun _ => rfl)).view.read (Elt F) (xstg m c)) Finset.univ)) := by
  rw [payload_recv]; unfold recvPay slotPts landed sentBlock; rw [show bwd (fwd c 7) (off 6) = c from bwd_fwd c (off 6)]; rfl
@[sl_rounds] theorem payload_landed_6 (c : Dev nD) (x : Fin 15) :
    (a2aRd (F := F) m).payload (recvCell c 6) 0 x
      = iprop(∃ b, (((rM.slice (Rect.unit (s := S16x256x256) ![7, 0, 0] S1x256x256.size inb_S16x256x256_S1x256x256_7_0_0) (fun _ => rfl)).squeeze S256x256 squeezes_S1x256x256_S256x256).view.loc (c : Thread nD τ) ↦[((rM.slice (Rect.unit (s := S16x256x256) ![7, 0, 0] S1x256x256.size inb_S16x256x256_S1x256x256_7_0_0) (fun _ => rfl)).squeeze S256x256 squeezes_S1x256x256_S256x256).view.set]{fullShare}
          ((rM.slice (Rect.unit (s := S16x256x256) ![7, 0, 0] S1x256x256.size inb_S16x256x256_S1x256x256_7_0_0) (fun _ => rfl)).squeeze S256x256 squeezes_S1x256x256_S256x256).view.write (Elt F) b (sentBlock m (bwd c (off 6)) 6) Finset.univ)) := by
  rw [payload_recv]; unfold recvPay slotPts landed; rfl
@[sl_rounds] theorem payload_send_7 (c : Dev nD) (x : Fin 15) :
    (a2aRd (F := F) m).payload (sendCell c 7) 0 x = ((xM.slice (Rect.unit (s := S4096x256) (k0_off2 c 8#32) S256x256.size (k0_off2_inb c 7)) (fun _ => rfl)).view.loc (c : Thread nD τ) ↦[(xM.slice (Rect.unit (s := S4096x256) (k0_off2 c 8#32) S256x256.size (k0_off2_inb c 7)) (fun _ => rfl)).view.set]{xShare 7} xstg m c) := by
  rw [payload_send]; rfl
@[sl_rounds high] theorem payload_arrive_7 (c : Dev nD) (x : Fin 15) :
    (a2aRd (F := F) m).payload (recvCell (fwd c 8) 7) 0 x
      = iprop(∃ b, (((rM.slice (Rect.unit (s := S16x256x256) ![8, 0, 0] S1x256x256.size inb_S16x256x256_S1x256x256_8_0_0) (fun _ => rfl)).squeeze S256x256 squeezes_S1x256x256_S256x256).view.loc (fwd c 8 : Thread nD τ) ↦[((rM.slice (Rect.unit (s := S16x256x256) ![8, 0, 0] S1x256x256.size inb_S16x256x256_S1x256x256_8_0_0) (fun _ => rfl)).squeeze S256x256 squeezes_S1x256x256_S256x256).view.set]{fullShare}
          ((rM.slice (Rect.unit (s := S16x256x256) ![8, 0, 0] S1x256x256.size inb_S16x256x256_S1x256x256_8_0_0) (fun _ => rfl)).squeeze S256x256 squeezes_S1x256x256_S256x256).view.write (Elt F) b ((xM.slice (Rect.unit (s := S4096x256) (k0_off2 c 8#32) S256x256.size (k0_off2_inb c 7)) (fun _ => rfl)).view.read (Elt F) (xstg m c)) Finset.univ)) := by
  rw [payload_recv]; unfold recvPay slotPts landed sentBlock; rw [show bwd (fwd c 8) (off 7) = c from bwd_fwd c (off 7)]; rfl
@[sl_rounds] theorem payload_landed_7 (c : Dev nD) (x : Fin 15) :
    (a2aRd (F := F) m).payload (recvCell c 7) 0 x
      = iprop(∃ b, (((rM.slice (Rect.unit (s := S16x256x256) ![8, 0, 0] S1x256x256.size inb_S16x256x256_S1x256x256_8_0_0) (fun _ => rfl)).squeeze S256x256 squeezes_S1x256x256_S256x256).view.loc (c : Thread nD τ) ↦[((rM.slice (Rect.unit (s := S16x256x256) ![8, 0, 0] S1x256x256.size inb_S16x256x256_S1x256x256_8_0_0) (fun _ => rfl)).squeeze S256x256 squeezes_S1x256x256_S256x256).view.set]{fullShare}
          ((rM.slice (Rect.unit (s := S16x256x256) ![8, 0, 0] S1x256x256.size inb_S16x256x256_S1x256x256_8_0_0) (fun _ => rfl)).squeeze S256x256 squeezes_S1x256x256_S256x256).view.write (Elt F) b (sentBlock m (bwd c (off 7)) 7) Finset.univ)) := by
  rw [payload_recv]; unfold recvPay slotPts landed; rfl
@[sl_rounds] theorem payload_send_8 (c : Dev nD) (x : Fin 15) :
    (a2aRd (F := F) m).payload (sendCell c 8) 0 x = ((xM.slice (Rect.unit (s := S4096x256) (k0_off2 c 9#32) S256x256.size (k0_off2_inb c 8)) (fun _ => rfl)).view.loc (c : Thread nD τ) ↦[(xM.slice (Rect.unit (s := S4096x256) (k0_off2 c 9#32) S256x256.size (k0_off2_inb c 8)) (fun _ => rfl)).view.set]{xShare 8} xstg m c) := by
  rw [payload_send]; rfl
@[sl_rounds high] theorem payload_arrive_8 (c : Dev nD) (x : Fin 15) :
    (a2aRd (F := F) m).payload (recvCell (fwd c 9) 8) 0 x
      = iprop(∃ b, (((rM.slice (Rect.unit (s := S16x256x256) ![9, 0, 0] S1x256x256.size inb_S16x256x256_S1x256x256_9_0_0) (fun _ => rfl)).squeeze S256x256 squeezes_S1x256x256_S256x256).view.loc (fwd c 9 : Thread nD τ) ↦[((rM.slice (Rect.unit (s := S16x256x256) ![9, 0, 0] S1x256x256.size inb_S16x256x256_S1x256x256_9_0_0) (fun _ => rfl)).squeeze S256x256 squeezes_S1x256x256_S256x256).view.set]{fullShare}
          ((rM.slice (Rect.unit (s := S16x256x256) ![9, 0, 0] S1x256x256.size inb_S16x256x256_S1x256x256_9_0_0) (fun _ => rfl)).squeeze S256x256 squeezes_S1x256x256_S256x256).view.write (Elt F) b ((xM.slice (Rect.unit (s := S4096x256) (k0_off2 c 9#32) S256x256.size (k0_off2_inb c 8)) (fun _ => rfl)).view.read (Elt F) (xstg m c)) Finset.univ)) := by
  rw [payload_recv]; unfold recvPay slotPts landed sentBlock; rw [show bwd (fwd c 9) (off 8) = c from bwd_fwd c (off 8)]; rfl
@[sl_rounds] theorem payload_landed_8 (c : Dev nD) (x : Fin 15) :
    (a2aRd (F := F) m).payload (recvCell c 8) 0 x
      = iprop(∃ b, (((rM.slice (Rect.unit (s := S16x256x256) ![9, 0, 0] S1x256x256.size inb_S16x256x256_S1x256x256_9_0_0) (fun _ => rfl)).squeeze S256x256 squeezes_S1x256x256_S256x256).view.loc (c : Thread nD τ) ↦[((rM.slice (Rect.unit (s := S16x256x256) ![9, 0, 0] S1x256x256.size inb_S16x256x256_S1x256x256_9_0_0) (fun _ => rfl)).squeeze S256x256 squeezes_S1x256x256_S256x256).view.set]{fullShare}
          ((rM.slice (Rect.unit (s := S16x256x256) ![9, 0, 0] S1x256x256.size inb_S16x256x256_S1x256x256_9_0_0) (fun _ => rfl)).squeeze S256x256 squeezes_S1x256x256_S256x256).view.write (Elt F) b (sentBlock m (bwd c (off 8)) 8) Finset.univ)) := by
  rw [payload_recv]; unfold recvPay slotPts landed; rfl
@[sl_rounds] theorem payload_send_9 (c : Dev nD) (x : Fin 15) :
    (a2aRd (F := F) m).payload (sendCell c 9) 0 x = ((xM.slice (Rect.unit (s := S4096x256) (k0_off2 c 10#32) S256x256.size (k0_off2_inb c 9)) (fun _ => rfl)).view.loc (c : Thread nD τ) ↦[(xM.slice (Rect.unit (s := S4096x256) (k0_off2 c 10#32) S256x256.size (k0_off2_inb c 9)) (fun _ => rfl)).view.set]{xShare 9} xstg m c) := by
  rw [payload_send]; rfl
@[sl_rounds high] theorem payload_arrive_9 (c : Dev nD) (x : Fin 15) :
    (a2aRd (F := F) m).payload (recvCell (fwd c 10) 9) 0 x
      = iprop(∃ b, (((rM.slice (Rect.unit (s := S16x256x256) ![10, 0, 0] S1x256x256.size inb_S16x256x256_S1x256x256_10_0_0) (fun _ => rfl)).squeeze S256x256 squeezes_S1x256x256_S256x256).view.loc (fwd c 10 : Thread nD τ) ↦[((rM.slice (Rect.unit (s := S16x256x256) ![10, 0, 0] S1x256x256.size inb_S16x256x256_S1x256x256_10_0_0) (fun _ => rfl)).squeeze S256x256 squeezes_S1x256x256_S256x256).view.set]{fullShare}
          ((rM.slice (Rect.unit (s := S16x256x256) ![10, 0, 0] S1x256x256.size inb_S16x256x256_S1x256x256_10_0_0) (fun _ => rfl)).squeeze S256x256 squeezes_S1x256x256_S256x256).view.write (Elt F) b ((xM.slice (Rect.unit (s := S4096x256) (k0_off2 c 10#32) S256x256.size (k0_off2_inb c 9)) (fun _ => rfl)).view.read (Elt F) (xstg m c)) Finset.univ)) := by
  rw [payload_recv]; unfold recvPay slotPts landed sentBlock; rw [show bwd (fwd c 10) (off 9) = c from bwd_fwd c (off 9)]; rfl
@[sl_rounds] theorem payload_landed_9 (c : Dev nD) (x : Fin 15) :
    (a2aRd (F := F) m).payload (recvCell c 9) 0 x
      = iprop(∃ b, (((rM.slice (Rect.unit (s := S16x256x256) ![10, 0, 0] S1x256x256.size inb_S16x256x256_S1x256x256_10_0_0) (fun _ => rfl)).squeeze S256x256 squeezes_S1x256x256_S256x256).view.loc (c : Thread nD τ) ↦[((rM.slice (Rect.unit (s := S16x256x256) ![10, 0, 0] S1x256x256.size inb_S16x256x256_S1x256x256_10_0_0) (fun _ => rfl)).squeeze S256x256 squeezes_S1x256x256_S256x256).view.set]{fullShare}
          ((rM.slice (Rect.unit (s := S16x256x256) ![10, 0, 0] S1x256x256.size inb_S16x256x256_S1x256x256_10_0_0) (fun _ => rfl)).squeeze S256x256 squeezes_S1x256x256_S256x256).view.write (Elt F) b (sentBlock m (bwd c (off 9)) 9) Finset.univ)) := by
  rw [payload_recv]; unfold recvPay slotPts landed; rfl
@[sl_rounds] theorem payload_send_10 (c : Dev nD) (x : Fin 15) :
    (a2aRd (F := F) m).payload (sendCell c 10) 0 x = ((xM.slice (Rect.unit (s := S4096x256) (k0_off2 c 11#32) S256x256.size (k0_off2_inb c 10)) (fun _ => rfl)).view.loc (c : Thread nD τ) ↦[(xM.slice (Rect.unit (s := S4096x256) (k0_off2 c 11#32) S256x256.size (k0_off2_inb c 10)) (fun _ => rfl)).view.set]{xShare 10} xstg m c) := by
  rw [payload_send]; rfl
@[sl_rounds high] theorem payload_arrive_10 (c : Dev nD) (x : Fin 15) :
    (a2aRd (F := F) m).payload (recvCell (fwd c 11) 10) 0 x
      = iprop(∃ b, (((rM.slice (Rect.unit (s := S16x256x256) ![11, 0, 0] S1x256x256.size inb_S16x256x256_S1x256x256_11_0_0) (fun _ => rfl)).squeeze S256x256 squeezes_S1x256x256_S256x256).view.loc (fwd c 11 : Thread nD τ) ↦[((rM.slice (Rect.unit (s := S16x256x256) ![11, 0, 0] S1x256x256.size inb_S16x256x256_S1x256x256_11_0_0) (fun _ => rfl)).squeeze S256x256 squeezes_S1x256x256_S256x256).view.set]{fullShare}
          ((rM.slice (Rect.unit (s := S16x256x256) ![11, 0, 0] S1x256x256.size inb_S16x256x256_S1x256x256_11_0_0) (fun _ => rfl)).squeeze S256x256 squeezes_S1x256x256_S256x256).view.write (Elt F) b ((xM.slice (Rect.unit (s := S4096x256) (k0_off2 c 11#32) S256x256.size (k0_off2_inb c 10)) (fun _ => rfl)).view.read (Elt F) (xstg m c)) Finset.univ)) := by
  rw [payload_recv]; unfold recvPay slotPts landed sentBlock; rw [show bwd (fwd c 11) (off 10) = c from bwd_fwd c (off 10)]; rfl
@[sl_rounds] theorem payload_landed_10 (c : Dev nD) (x : Fin 15) :
    (a2aRd (F := F) m).payload (recvCell c 10) 0 x
      = iprop(∃ b, (((rM.slice (Rect.unit (s := S16x256x256) ![11, 0, 0] S1x256x256.size inb_S16x256x256_S1x256x256_11_0_0) (fun _ => rfl)).squeeze S256x256 squeezes_S1x256x256_S256x256).view.loc (c : Thread nD τ) ↦[((rM.slice (Rect.unit (s := S16x256x256) ![11, 0, 0] S1x256x256.size inb_S16x256x256_S1x256x256_11_0_0) (fun _ => rfl)).squeeze S256x256 squeezes_S1x256x256_S256x256).view.set]{fullShare}
          ((rM.slice (Rect.unit (s := S16x256x256) ![11, 0, 0] S1x256x256.size inb_S16x256x256_S1x256x256_11_0_0) (fun _ => rfl)).squeeze S256x256 squeezes_S1x256x256_S256x256).view.write (Elt F) b (sentBlock m (bwd c (off 10)) 10) Finset.univ)) := by
  rw [payload_recv]; unfold recvPay slotPts landed; rfl
@[sl_rounds] theorem payload_send_11 (c : Dev nD) (x : Fin 15) :
    (a2aRd (F := F) m).payload (sendCell c 11) 0 x = ((xM.slice (Rect.unit (s := S4096x256) (k0_off2 c 12#32) S256x256.size (k0_off2_inb c 11)) (fun _ => rfl)).view.loc (c : Thread nD τ) ↦[(xM.slice (Rect.unit (s := S4096x256) (k0_off2 c 12#32) S256x256.size (k0_off2_inb c 11)) (fun _ => rfl)).view.set]{xShare 11} xstg m c) := by
  rw [payload_send]; rfl
@[sl_rounds high] theorem payload_arrive_11 (c : Dev nD) (x : Fin 15) :
    (a2aRd (F := F) m).payload (recvCell (fwd c 12) 11) 0 x
      = iprop(∃ b, (((rM.slice (Rect.unit (s := S16x256x256) ![12, 0, 0] S1x256x256.size inb_S16x256x256_S1x256x256_12_0_0) (fun _ => rfl)).squeeze S256x256 squeezes_S1x256x256_S256x256).view.loc (fwd c 12 : Thread nD τ) ↦[((rM.slice (Rect.unit (s := S16x256x256) ![12, 0, 0] S1x256x256.size inb_S16x256x256_S1x256x256_12_0_0) (fun _ => rfl)).squeeze S256x256 squeezes_S1x256x256_S256x256).view.set]{fullShare}
          ((rM.slice (Rect.unit (s := S16x256x256) ![12, 0, 0] S1x256x256.size inb_S16x256x256_S1x256x256_12_0_0) (fun _ => rfl)).squeeze S256x256 squeezes_S1x256x256_S256x256).view.write (Elt F) b ((xM.slice (Rect.unit (s := S4096x256) (k0_off2 c 12#32) S256x256.size (k0_off2_inb c 11)) (fun _ => rfl)).view.read (Elt F) (xstg m c)) Finset.univ)) := by
  rw [payload_recv]; unfold recvPay slotPts landed sentBlock; rw [show bwd (fwd c 12) (off 11) = c from bwd_fwd c (off 11)]; rfl
@[sl_rounds] theorem payload_landed_11 (c : Dev nD) (x : Fin 15) :
    (a2aRd (F := F) m).payload (recvCell c 11) 0 x
      = iprop(∃ b, (((rM.slice (Rect.unit (s := S16x256x256) ![12, 0, 0] S1x256x256.size inb_S16x256x256_S1x256x256_12_0_0) (fun _ => rfl)).squeeze S256x256 squeezes_S1x256x256_S256x256).view.loc (c : Thread nD τ) ↦[((rM.slice (Rect.unit (s := S16x256x256) ![12, 0, 0] S1x256x256.size inb_S16x256x256_S1x256x256_12_0_0) (fun _ => rfl)).squeeze S256x256 squeezes_S1x256x256_S256x256).view.set]{fullShare}
          ((rM.slice (Rect.unit (s := S16x256x256) ![12, 0, 0] S1x256x256.size inb_S16x256x256_S1x256x256_12_0_0) (fun _ => rfl)).squeeze S256x256 squeezes_S1x256x256_S256x256).view.write (Elt F) b (sentBlock m (bwd c (off 11)) 11) Finset.univ)) := by
  rw [payload_recv]; unfold recvPay slotPts landed; rfl
@[sl_rounds] theorem payload_send_12 (c : Dev nD) (x : Fin 15) :
    (a2aRd (F := F) m).payload (sendCell c 12) 0 x = ((xM.slice (Rect.unit (s := S4096x256) (k0_off2 c 13#32) S256x256.size (k0_off2_inb c 12)) (fun _ => rfl)).view.loc (c : Thread nD τ) ↦[(xM.slice (Rect.unit (s := S4096x256) (k0_off2 c 13#32) S256x256.size (k0_off2_inb c 12)) (fun _ => rfl)).view.set]{xShare 12} xstg m c) := by
  rw [payload_send]; rfl
@[sl_rounds high] theorem payload_arrive_12 (c : Dev nD) (x : Fin 15) :
    (a2aRd (F := F) m).payload (recvCell (fwd c 13) 12) 0 x
      = iprop(∃ b, (((rM.slice (Rect.unit (s := S16x256x256) ![13, 0, 0] S1x256x256.size inb_S16x256x256_S1x256x256_13_0_0) (fun _ => rfl)).squeeze S256x256 squeezes_S1x256x256_S256x256).view.loc (fwd c 13 : Thread nD τ) ↦[((rM.slice (Rect.unit (s := S16x256x256) ![13, 0, 0] S1x256x256.size inb_S16x256x256_S1x256x256_13_0_0) (fun _ => rfl)).squeeze S256x256 squeezes_S1x256x256_S256x256).view.set]{fullShare}
          ((rM.slice (Rect.unit (s := S16x256x256) ![13, 0, 0] S1x256x256.size inb_S16x256x256_S1x256x256_13_0_0) (fun _ => rfl)).squeeze S256x256 squeezes_S1x256x256_S256x256).view.write (Elt F) b ((xM.slice (Rect.unit (s := S4096x256) (k0_off2 c 13#32) S256x256.size (k0_off2_inb c 12)) (fun _ => rfl)).view.read (Elt F) (xstg m c)) Finset.univ)) := by
  rw [payload_recv]; unfold recvPay slotPts landed sentBlock; rw [show bwd (fwd c 13) (off 12) = c from bwd_fwd c (off 12)]; rfl
@[sl_rounds] theorem payload_landed_12 (c : Dev nD) (x : Fin 15) :
    (a2aRd (F := F) m).payload (recvCell c 12) 0 x
      = iprop(∃ b, (((rM.slice (Rect.unit (s := S16x256x256) ![13, 0, 0] S1x256x256.size inb_S16x256x256_S1x256x256_13_0_0) (fun _ => rfl)).squeeze S256x256 squeezes_S1x256x256_S256x256).view.loc (c : Thread nD τ) ↦[((rM.slice (Rect.unit (s := S16x256x256) ![13, 0, 0] S1x256x256.size inb_S16x256x256_S1x256x256_13_0_0) (fun _ => rfl)).squeeze S256x256 squeezes_S1x256x256_S256x256).view.set]{fullShare}
          ((rM.slice (Rect.unit (s := S16x256x256) ![13, 0, 0] S1x256x256.size inb_S16x256x256_S1x256x256_13_0_0) (fun _ => rfl)).squeeze S256x256 squeezes_S1x256x256_S256x256).view.write (Elt F) b (sentBlock m (bwd c (off 12)) 12) Finset.univ)) := by
  rw [payload_recv]; unfold recvPay slotPts landed; rfl
@[sl_rounds] theorem payload_send_13 (c : Dev nD) (x : Fin 15) :
    (a2aRd (F := F) m).payload (sendCell c 13) 0 x = ((xM.slice (Rect.unit (s := S4096x256) (k0_off2 c 14#32) S256x256.size (k0_off2_inb c 13)) (fun _ => rfl)).view.loc (c : Thread nD τ) ↦[(xM.slice (Rect.unit (s := S4096x256) (k0_off2 c 14#32) S256x256.size (k0_off2_inb c 13)) (fun _ => rfl)).view.set]{xShare 13} xstg m c) := by
  rw [payload_send]; rfl
@[sl_rounds high] theorem payload_arrive_13 (c : Dev nD) (x : Fin 15) :
    (a2aRd (F := F) m).payload (recvCell (fwd c 14) 13) 0 x
      = iprop(∃ b, (((rM.slice (Rect.unit (s := S16x256x256) ![14, 0, 0] S1x256x256.size inb_S16x256x256_S1x256x256_14_0_0) (fun _ => rfl)).squeeze S256x256 squeezes_S1x256x256_S256x256).view.loc (fwd c 14 : Thread nD τ) ↦[((rM.slice (Rect.unit (s := S16x256x256) ![14, 0, 0] S1x256x256.size inb_S16x256x256_S1x256x256_14_0_0) (fun _ => rfl)).squeeze S256x256 squeezes_S1x256x256_S256x256).view.set]{fullShare}
          ((rM.slice (Rect.unit (s := S16x256x256) ![14, 0, 0] S1x256x256.size inb_S16x256x256_S1x256x256_14_0_0) (fun _ => rfl)).squeeze S256x256 squeezes_S1x256x256_S256x256).view.write (Elt F) b ((xM.slice (Rect.unit (s := S4096x256) (k0_off2 c 14#32) S256x256.size (k0_off2_inb c 13)) (fun _ => rfl)).view.read (Elt F) (xstg m c)) Finset.univ)) := by
  rw [payload_recv]; unfold recvPay slotPts landed sentBlock; rw [show bwd (fwd c 14) (off 13) = c from bwd_fwd c (off 13)]; rfl
@[sl_rounds] theorem payload_landed_13 (c : Dev nD) (x : Fin 15) :
    (a2aRd (F := F) m).payload (recvCell c 13) 0 x
      = iprop(∃ b, (((rM.slice (Rect.unit (s := S16x256x256) ![14, 0, 0] S1x256x256.size inb_S16x256x256_S1x256x256_14_0_0) (fun _ => rfl)).squeeze S256x256 squeezes_S1x256x256_S256x256).view.loc (c : Thread nD τ) ↦[((rM.slice (Rect.unit (s := S16x256x256) ![14, 0, 0] S1x256x256.size inb_S16x256x256_S1x256x256_14_0_0) (fun _ => rfl)).squeeze S256x256 squeezes_S1x256x256_S256x256).view.set]{fullShare}
          ((rM.slice (Rect.unit (s := S16x256x256) ![14, 0, 0] S1x256x256.size inb_S16x256x256_S1x256x256_14_0_0) (fun _ => rfl)).squeeze S256x256 squeezes_S1x256x256_S256x256).view.write (Elt F) b (sentBlock m (bwd c (off 13)) 13) Finset.univ)) := by
  rw [payload_recv]; unfold recvPay slotPts landed; rfl
@[sl_rounds] theorem payload_send_14 (c : Dev nD) (x : Fin 15) :
    (a2aRd (F := F) m).payload (sendCell c 14) 0 x = ((xM.slice (Rect.unit (s := S4096x256) (k0_off2 c 15#32) S256x256.size (k0_off2_inb c 14)) (fun _ => rfl)).view.loc (c : Thread nD τ) ↦[(xM.slice (Rect.unit (s := S4096x256) (k0_off2 c 15#32) S256x256.size (k0_off2_inb c 14)) (fun _ => rfl)).view.set]{xShare 14} xstg m c) := by
  rw [payload_send]; rfl
@[sl_rounds high] theorem payload_arrive_14 (c : Dev nD) (x : Fin 15) :
    (a2aRd (F := F) m).payload (recvCell (fwd c 15) 14) 0 x
      = iprop(∃ b, (((rM.slice (Rect.unit (s := S16x256x256) ![15, 0, 0] S1x256x256.size inb_S16x256x256_S1x256x256_15_0_0) (fun _ => rfl)).squeeze S256x256 squeezes_S1x256x256_S256x256).view.loc (fwd c 15 : Thread nD τ) ↦[((rM.slice (Rect.unit (s := S16x256x256) ![15, 0, 0] S1x256x256.size inb_S16x256x256_S1x256x256_15_0_0) (fun _ => rfl)).squeeze S256x256 squeezes_S1x256x256_S256x256).view.set]{fullShare}
          ((rM.slice (Rect.unit (s := S16x256x256) ![15, 0, 0] S1x256x256.size inb_S16x256x256_S1x256x256_15_0_0) (fun _ => rfl)).squeeze S256x256 squeezes_S1x256x256_S256x256).view.write (Elt F) b ((xM.slice (Rect.unit (s := S4096x256) (k0_off2 c 15#32) S256x256.size (k0_off2_inb c 14)) (fun _ => rfl)).view.read (Elt F) (xstg m c)) Finset.univ)) := by
  rw [payload_recv]; unfold recvPay slotPts landed sentBlock; rw [show bwd (fwd c 15) (off 14) = c from bwd_fwd c (off 14)]; rfl
@[sl_rounds] theorem payload_landed_14 (c : Dev nD) (x : Fin 15) :
    (a2aRd (F := F) m).payload (recvCell c 14) 0 x
      = iprop(∃ b, (((rM.slice (Rect.unit (s := S16x256x256) ![15, 0, 0] S1x256x256.size inb_S16x256x256_S1x256x256_15_0_0) (fun _ => rfl)).squeeze S256x256 squeezes_S1x256x256_S256x256).view.loc (c : Thread nD τ) ↦[((rM.slice (Rect.unit (s := S16x256x256) ![15, 0, 0] S1x256x256.size inb_S16x256x256_S1x256x256_15_0_0) (fun _ => rfl)).squeeze S256x256 squeezes_S1x256x256_S256x256).view.set]{fullShare}
          ((rM.slice (Rect.unit (s := S16x256x256) ![15, 0, 0] S1x256x256.size inb_S16x256x256_S1x256x256_15_0_0) (fun _ => rfl)).squeeze S256x256 squeezes_S1x256x256_S256x256).view.write (Elt F) b (sentBlock m (bwd c (off 14)) 14) Finset.univ)) := by
  rw [payload_recv]; unfold recvPay slotPts landed; rfl

@[sl_rounds] theorem duties_bar_list (c : Dev nD) : (a2aRd (F := F) m).duties (barCell c) 0 = {0, 1, 2, 3, 4, 5, 6, 7, 8, 9, 10, 11, 12, 13, 14} := by
  rw [duties_bar]; decide

attribute [sl_rounds] duties_send duties_recv amount_bar amount_send amount_recv expect_bar expect_send expect_recv

omit [FloatOps F] in
/-- Any assertion that is, by definition, a fifteen-fold separating conjunction, restated as one. -/
theorem as_sep15 {X P0 P1 P2 P3 P4 P5 P6 P7 P8 P9 P10 P11 P12 P13 P14 : sProp 𝕄} (h : X = iprop(P0 ∗ P1 ∗ P2 ∗ P3 ∗ P4 ∗ P5 ∗ P6 ∗ P7 ∗ P8 ∗ P9 ∗ P10 ∗ P11 ∗ P12 ∗ P13 ∗ P14)) : X ⊢ iprop(P0 ∗ P1 ∗ P2 ∗ P3 ∗ P4 ∗ P5 ∗ P6 ∗ P7 ∗ P8 ∗ P9 ∗ P10 ∗ P11 ∗ P12 ∗ P13 ∗ P14) := Entails.of_eq h

/-- A block's credit is 8192 units. -/
theorem N_val : N = 8192 := rfl
omit [FloatOps F] in
/-- The credit a transfer leaves its sender, restated in the block's credit. -/
theorem cred_N (g : GSem nD τ sig) : (cred (tallyAt g default 8192) : sProp 𝕄) = cred (tallyAt g () N) := rfl

end Cert.KernelIdeal.A2A

end
-- ==== Proof.BodyFinish.lean ====
/-
  From the state a device's body ends in to the exit.

  The program names each slot, slab and weight slot by the numeral offsets it prints; these are the slots, slabs and
  weight slots of the protocol, by evaluating the offsets.  With that, the end state is the premise of the exit.
-/
import proofs.«900405_g7700000000000406_dist_a2a_gemm_m4096_k4096_n8192_f32_gelu_v7x_i16_1_alg».proof.Proof.BodyExit

noncomputable section

namespace Cert.KernelIdeal.A2A

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots, the slabs and the weight slots with their numbers written out -/

omit [FloatOps F] in
theorem slot_long_0 (c : Dev nD) (X : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ))) :
    (((rM.slice (Rect.unit (s := S16x256x256) ![1, 0, 0] S1x256x256.size inb_S16x256x256_S1x256x256_1_0_0) (fun _ => rfl)).squeeze S256x256 squeezes_S1x256x256_S256x256).view.loc (c : Thread nD τ) ↦[((rM.slice (Rect.unit (s := S16x256x256) ![1, 0, 0] S1x256x256.size inb_S16x256x256_S1x256x256_1_0_0) (fun _ => rfl)).squeeze S256x256 squeezes_S1x256x256_S256x256).view.set]{fullShare} X : sProp 𝕄) = slotPts c 0 X := rfl
omit [FloatOps F] in
theorem slot_long_1 (c : Dev nD) (X : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ))) :
    (((rM.slice (Rect.unit (s := S16x256x256) ![2, 0, 0] S1x256x256.size inb_S16x256x256_S1x256x256_2_0_0) (fun _ => rfl)).squeeze S256x256 squeezes_S1x256x256_S256x256).view.loc (c : Thread nD τ) ↦[((rM.slice (Rect.unit (s := S16x256x256) ![2, 0, 0] S1x256x256.size inb_S16x256x256_S1x256x256_2_0_0) (fun _ => rfl)).squeeze S256x256 squeezes_S1x256x256_S256x256).view.set]{fullShare} X : sProp 𝕄) = slotPts c 1 X := rfl
omit [FloatOps F] in
theorem slot_long_2 (c : Dev nD) (X : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ))) :
    (((rM.slice (Rect.unit (s := S16x256x256) ![3, 0, 0] S1x256x256.size inb_S16x256x256_S1x256x256_3_0_0) (fun _ => rfl)).squeeze S256x256 squeezes_S1x256x256_S256x256).view.loc (c : Thread nD τ) ↦[((rM.slice (Rect.unit (s := S16x256x256) ![3, 0, 0] S1x256x256.size inb_S16x256x256_S1x256x256_3_0_0) (fun _ => rfl)).squeeze S256x256 squeezes_S1x256x256_S256x256).view.set]{fullShare} X : sProp 𝕄) = slotPts c 2 X := rfl
omit [FloatOps F] in
theorem slot_long_3 (c : Dev nD) (X : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ))) :
    (((rM.slice (Rect.unit (s := S16x256x256) ![4, 0, 0] S1x256x256.size inb_S16x256x256_S1x256x256_4_0_0) (fun _ => rfl)).squeeze S256x256 squeezes_S1x256x256_S256x256).view.loc (c : Thread nD τ) ↦[((rM.slice (Rect.unit (s := S16x256x256) ![4, 0, 0] S1x256x256.size inb_S16x256x256_S1x256x256_4_0_0) (fun _ => rfl)).squeeze S256x256 squeezes_S1x256x256_S256x256).view.set]{fullShare} X : sProp 𝕄) = slotPts c 3 X := rfl
omit [FloatOps F] in
theorem slot_long_4 (c : Dev nD) (X : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ))) :
    (((rM.slice (Rect.unit (s := S16x256x256) ![5, 0, 0] S1x256x256.size inb_S16x256x256_S1x256x256_5_0_0) (fun _ => rfl)).squeeze S256x256 squeezes_S1x256x256_S256x256).view.loc (c : Thread nD τ) ↦[((rM.slice (Rect.unit (s := S16x256x256) ![5, 0, 0] S1x256x256.size inb_S16x256x256_S1x256x256_5_0_0) (fun _ => rfl)).squeeze S256x256 squeezes_S1x256x256_S256x256).view.set]{fullShare} X : sProp 𝕄) = slotPts c 4 X := rfl
omit [FloatOps F] in
theorem slot_long_5 (c : Dev nD) (X : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ))) :
    (((rM.slice (Rect.unit (s := S16x256x256) ![6, 0, 0] S1x256x256.size inb_S16x256x256_S1x256x256_6_0_0) (fun _ => rfl)).squeeze S256x256 squeezes_S1x256x256_S256x256).view.loc (c : Thread nD τ) ↦[((rM.slice (Rect.unit (s := S16x256x256) ![6, 0, 0] S1x256x256.size inb_S16x256x256_S1x256x256_6_0_0) (fun _ => rfl)).squeeze S256x256 squeezes_S1x256x256_S256x256).view.set]{fullShare} X : sProp 𝕄) = slotPts c 5 X := rfl
omit [FloatOps F] in
theorem slot_long_6 (c : Dev nD) (X : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ))) :
    (((rM.slice (Rect.unit (s := S16x256x256) ![7, 0, 0] S1x256x256.size inb_S16x256x256_S1x256x256_7_0_0) (fun _ => rfl)).squeeze S256x256 squeezes_S1x256x256_S256x256).view.loc (c : Thread nD τ) ↦[((rM.slice (Rect.unit (s := S16x256x256) ![7, 0, 0] S1x256x256.size inb_S16x256x256_S1x256x256_7_0_0) (fun _ => rfl)).squeeze S256x256 squeezes_S1x256x256_S256x256).view.set]{fullShare} X : sProp 𝕄) = slotPts c 6 X := rfl
omit [FloatOps F] in
theorem slot_long_7 (c : Dev nD) (X : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ))) :
    (((rM.slice (Rect.unit (s := S16x256x256) ![8, 0, 0] S1x256x256.size inb_S16x256x256_S1x256x256_8_0_0) (fun _ => rfl)).squeeze S256x256 squeezes_S1x256x256_S256x256).view.loc (c : Thread nD τ) ↦[((rM.slice (Rect.unit (s := S16x256x256) ![8, 0, 0] S1x256x256.size inb_S16x256x256_S1x256x256_8_0_0) (fun _ => rfl)).squeeze S256x256 squeezes_S1x256x256_S256x256).view.set]{fullShare} X : sProp 𝕄) = slotPts c 7 X := rfl
omit [FloatOps F] in
theorem slot_long_8 (c : Dev nD) (X : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ))) :
    (((rM.slice (Rect.unit (s := S16x256x256) ![9, 0, 0] S1x256x256.size inb_S16x256x256_S1x256x256_9_0_0) (fun _ => rfl)).squeeze S256x256 squeezes_S1x256x256_S256x256).view.loc (c : Thread nD τ) ↦[((rM.slice (Rect.unit (s := S16x256x256) ![9, 0, 0] S1x256x256.size inb_S16x256x256_S1x256x256_9_0_0) (fun _ => rfl)).squeeze S256x256 squeezes_S1x256x256_S256x256).view.set]{fullShare} X : sProp 𝕄) = slotPts c 8 X := rfl
omit [FloatOps F] in
theorem slot_long_9 (c : Dev nD) (X : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ))) :
    (((rM.slice (Rect.unit (s := S16x256x256) ![10, 0, 0] S1x256x256.size inb_S16x256x256_S1x256x256_10_0_0) (fun _ => rfl)).squeeze S256x256 squeezes_S1x256x256_S256x256).view.loc (c : Thread nD τ) ↦[((rM.slice (Rect.unit (s := S16x256x256) ![10, 0, 0] S1x256x256.size inb_S16x256x256_S1x256x256_10_0_0) (fun _ => rfl)).squeeze S256x256 squeezes_S1x256x256_S256x256).view.set]{fullShare} X : sProp 𝕄) = slotPts c 9 X := rfl
omit [FloatOps F] in
theorem slot_long_10 (c : Dev nD) (X : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ))) :
    (((rM.slice (Rect.unit (s := S16x256x256) ![11, 0, 0] S1x256x256.size inb_S16x256x256_S1x256x256_11_0_0) (fun _ => rfl)).squeeze S256x256 squeezes_S1x256x256_S256x256).view.loc (c : Thread nD τ) ↦[((rM.slice (Rect.unit (s := S16x256x256) ![11, 0, 0] S1x256x256.size inb_S16x256x256_S1x256x256_11_0_0) (fun _ => rfl)).squeeze S256x256 squeezes_S1x256x256_S256x256).view.set]{fullShare} X : sProp 𝕄) = slotPts c 10 X := rfl
omit [FloatOps F] in
theorem slot_long_11 (c : Dev nD) (X : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ))) :
    (((rM.slice (Rect.unit (s := S16x256x256) ![12, 0, 0] S1x256x256.size inb_S16x256x256_S1x256x256_12_0_0) (fun _ => rfl)).squeeze S256x256 squeezes_S1x256x256_S256x256).view.loc (c : Thread nD τ) ↦[((rM.slice (Rect.unit (s := S16x256x256) ![12, 0, 0] S1x256x256.size inb_S16x256x256_S1x256x256_12_0_0) (fun _ => rfl)).squeeze S256x256 squeezes_S1x256x256_S256x256).view.set]{fullShare} X : sProp 𝕄) = slotPts c 11 X := rfl
omit [FloatOps F] in
theorem slot_long_12 (c : Dev nD) (X : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ))) :
    (((rM.slice (Rect.unit (s := S16x256x256) ![13, 0, 0] S1x256x256.size inb_S16x256x256_S1x256x256_13_0_0) (fun _ => rfl)).squeeze S256x256 squeezes_S1x256x256_S256x256).view.loc (c : Thread nD τ) ↦[((rM.slice (Rect.unit (s := S16x256x256) ![13, 0, 0] S1x256x256.size inb_S16x256x256_S1x256x256_13_0_0) (fun _ => rfl)).squeeze S256x256 squeezes_S1x256x256_S256x256).view.set]{fullShare} X : sProp 𝕄) = slotPts c 12 X := rfl
omit [FloatOps F] in
theorem slot_long_13 (c : Dev nD) (X : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ))) :
    (((rM.slice (Rect.unit (s := S16x256x256) ![14, 0, 0] S1x256x256.size inb_S16x256x256_S1x256x256_14_0_0) (fun _ => rfl)).squeeze S256x256 squeezes_S1x256x256_S256x256).view.loc (c : Thread nD τ) ↦[((rM.slice (Rect.unit (s := S16x256x256) ![14, 0, 0] S1x256x256.size inb_S16x256x256_S1x256x256_14_0_0) (fun _ => rfl)).squeeze S256x256 squeezes_S1x256x256_S256x256).view.set]{fullShare} X : sProp 𝕄) = slotPts c 13 X := rfl
omit [FloatOps F] in
theorem slot_long_14 (c : Dev nD) (X : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ))) :
    (((rM.slice (Rect.unit (s := S16x256x256) ![15, 0, 0] S1x256x256.size inb_S16x256x256_S1x256x256_15_0_0) (fun _ => rfl)).squeeze S256x256 squeezes_S1x256x256_S256x256).view.loc (c : Thread nD τ) ↦[((rM.slice (Rect.unit (s := S16x256x256) ![15, 0, 0] S1x256x256.size inb_S16x256x256_S1x256x256_15_0_0) (fun _ => rfl)).squeeze S256x256 squeezes_S1x256x256_S256x256).view.set]{fullShare} X : sProp 𝕄) = slotPts c 14 X := rfl
theorem slab_long_0 (c : Dev nD) :
    ((xM.slice (Rect.unit (s := S4096x256) (k0_off2 c 1#32) S256x256.size (k0_off2_inb c 0)) (fun _ => rfl)).view.loc (c : Thread nD τ) ↦[(xM.slice (Rect.unit (s := S4096x256) (k0_off2 c 1#32) S256x256.size (k0_off2_inb c 0)) (fun _ => rfl)).view.set]{xShare 0} xstg m c : sProp 𝕄) = slabPts m c 0 := rfl
theorem rest_long_0 (c : Dev nD) :
    ((xM : Memref sig .tc .vmem S4096x256 .f32).view.loc (c : Thread nD τ) ↦[(xM : Memref sig .tc .vmem S4096x256 .f32).view.set \ (xM.slice (Rect.unit (s := S4096x256) (k0_off2 c 1#32) S256x256.size (k0_off2_inb c 0)) (fun _ => rfl)).view.set]{xShare 0} xstg m c : sProp 𝕄) = xRest m c 0 := rfl
theorem slab_long_1 (c : Dev nD) :
    ((xM.slice (Rect.unit (s := S4096x256) (k0_off2 c 2#32) S256x256.size (k0_off2_inb c 1)) (fun _ => rfl)).view.loc (c : Thread nD τ) ↦[(xM.slice (Rect.unit (s := S4096x256) (k0_off2 c 2#32) S256x256.size (k0_off2_inb c 1)) (fun _ => rfl)).view.set]{xShare 1} xstg m c : sProp 𝕄) = slabPts m c 1 := rfl
theorem rest_long_1 (c : Dev nD) :
    ((xM : Memref sig .tc .vmem S4096x256 .f32).view.loc (c : Thread nD τ) ↦[(xM : Memref sig .tc .vmem S4096x256 .f32).view.set \ (xM.slice (Rect.unit (s := S4096x256) (k0_off2 c 2#32) S256x256.size (k0_off2_inb c 1)) (fun _ => rfl)).view.set]{xShare 1} xstg m c : sProp 𝕄) = xRest m c 1 := rfl
theorem slab_long_2 (c : Dev nD) :
    ((xM.slice (Rect.unit (s := S4096x256) (k0_off2 c 3#32) S256x256.size (k0_off2_inb c 2)) (fun _ => rfl)).view.loc (c : Thread nD τ) ↦[(xM.slice (Rect.unit (s := S4096x256) (k0_off2 c 3#32) S256x256.size (k0_off2_inb c 2)) (fun _ => rfl)).view.set]{xShare 2} xstg m c : sProp 𝕄) = slabPts m c 2 := rfl
theorem rest_long_2 (c : Dev nD) :
    ((xM : Memref sig .tc .vmem S4096x256 .f32).view.loc (c : Thread nD τ) ↦[(xM : Memref sig .tc .vmem S4096x256 .f32).view.set \ (xM.slice (Rect.unit (s := S4096x256) (k0_off2 c 3#32) S256x256.size (k0_off2_inb c 2)) (fun _ => rfl)).view.set]{xShare 2} xstg m c : sProp 𝕄) = xRest m c 2 := rfl
theorem slab_long_3 (c : Dev nD) :
    ((xM.slice (Rect.unit (s := S4096x256) (k0_off2 c 4#32) S256x256.size (k0_off2_inb c 3)) (fun _ => rfl)).view.loc (c : Thread nD τ) ↦[(xM.slice (Rect.unit (s := S4096x256) (k0_off2 c 4#32) S256x256.size (k0_off2_inb c 3)) (fun _ => rfl)).view.set]{xShare 3} xstg m c : sProp 𝕄) = slabPts m c 3 := rfl
theorem rest_long_3 (c : Dev nD) :
    ((xM : Memref sig .tc .vmem S4096x256 .f32).view.loc (c : Thread nD τ) ↦[(xM : Memref sig .tc .vmem S4096x256 .f32).view.set \ (xM.slice (Rect.unit (s := S4096x256) (k0_off2 c 4#32) S256x256.size (k0_off2_inb c 3)) (fun _ => rfl)).view.set]{xShare 3} xstg m c : sProp 𝕄) = xRest m c 3 := rfl
theorem slab_long_4 (c : Dev nD) :
    ((xM.slice (Rect.unit (s := S4096x256) (k0_off2 c 5#32) S256x256.size (k0_off2_inb c 4)) (fun _ => rfl)).view.loc (c : Thread nD τ) ↦[(xM.slice (Rect.unit (s := S4096x256) (k0_off2 c 5#32) S256x256.size (k0_off2_inb c 4)) (fun _ => rfl)).view.set]{xShare 4} xstg m c : sProp 𝕄) = slabPts m c 4 := rfl
theorem rest_long_4 (c : Dev nD) :
    ((xM : Memref sig .tc .vmem S4096x256 .f32).view.loc (c : Thread nD τ) ↦[(xM : Memref sig .tc .vmem S4096x256 .f32).view.set \ (xM.slice (Rect.unit (s := S4096x256) (k0_off2 c 5#32) S256x256.size (k0_off2_inb c 4)) (fun _ => rfl)).view.set]{xShare 4} xstg m c : sProp 𝕄) = xRest m c 4 := rfl
theorem slab_long_5 (c : Dev nD) :
    ((xM.slice (Rect.unit (s := S4096x256) (k0_off2 c 6#32) S256x256.size (k0_off2_inb c 5)) (fun _ => rfl)).view.loc (c : Thread nD τ) ↦[(xM.slice (Rect.unit (s := S4096x256) (k0_off2 c 6#32) S256x256.size (k0_off2_inb c 5)) (fun _ => rfl)).view.set]{xShare 5} xstg m c : sProp 𝕄) = slabPts m c 5 := rfl
theorem rest_long_5 (c : Dev nD) :
    ((xM : Memref sig .tc .vmem S4096x256 .f32).view.loc (c : Thread nD τ) ↦[(xM : Memref sig .tc .vmem S4096x256 .f32).view.set \ (xM.slice (Rect.unit (s := S4096x256) (k0_off2 c 6#32) S256x256.size (k0_off2_inb c 5)) (fun _ => rfl)).view.set]{xShare 5} xstg m c : sProp 𝕄) = xRest m c 5 := rfl
theorem slab_long_6 (c : Dev nD) :
    ((xM.slice (Rect.unit (s := S4096x256) (k0_off2 c 7#32) S256x256.size (k0_off2_inb c 6)) (fun _ => rfl)).view.loc (c : Thread nD τ) ↦[(xM.slice (Rect.unit (s := S4096x256) (k0_off2 c 7#32) S256x256.size (k0_off2_inb c 6)) (fun _ => rfl)).view.set]{xShare 6} xstg m c : sProp 𝕄) = slabPts m c 6 := rfl
theorem rest_long_6 (c : Dev nD) :
    ((xM : Memref sig .tc .vmem S4096x256 .f32).view.loc (c : Thread nD τ) ↦[(xM : Memref sig .tc .vmem S4096x256 .f32).view.set \ (xM.slice (Rect.unit (s := S4096x256) (k0_off2 c 7#32) S256x256.size (k0_off2_inb c 6)) (fun _ => rfl)).view.set]{xShare 6} xstg m c : sProp 𝕄) = xRest m c 6 := rfl
theorem slab_long_7 (c : Dev nD) :
    ((xM.slice (Rect.unit (s := S4096x256) (k0_off2 c 8#32) S256x256.size (k0_off2_inb c 7)) (fun _ => rfl)).view.loc (c : Thread nD τ) ↦[(xM.slice (Rect.unit (s := S4096x256) (k0_off2 c 8#32) S256x256.size (k0_off2_inb c 7)) (fun _ => rfl)).view.set]{xShare 7} xstg m c : sProp 𝕄) = slabPts m c 7 := rfl
theorem rest_long_7 (c : Dev nD) :
    ((xM : Memref sig .tc .vmem S4096x256 .f32).view.loc (c : Thread nD τ) ↦[(xM : Memref sig .tc .vmem S4096x256 .f32).view.set \ (xM.slice (Rect.unit (s := S4096x256) (k0_off2 c 8#32) S256x256.size (k0_off2_inb c 7)) (fun _ => rfl)).view.set]{xShare 7} xstg m c : sProp 𝕄) = xRest m c 7 := rfl
theorem slab_long_8 (c : Dev nD) :
    ((xM.slice (Rect.unit (s := S4096x256) (k0_off2 c 9#32) S256x256.size (k0_off2_inb c 8)) (fun _ => rfl)).view.loc (c : Thread nD τ) ↦[(xM.slice (Rect.unit (s := S4096x256) (k0_off2 c 9#32) S256x256.size (k0_off2_inb c 8)) (fun _ => rfl)).view.set]{xShare 8} xstg m c : sProp 𝕄) = slabPts m c 8 := rfl
theorem rest_long_8 (c : Dev nD) :
    ((xM : Memref sig .tc .vmem S4096x256 .f32).view.loc (c : Thread nD τ) ↦[(xM : Memref sig .tc .vmem S4096x256 .f32).view.set \ (xM.slice (Rect.unit (s := S4096x256) (k0_off2 c 9#32) S256x256.size (k0_off2_inb c 8)) (fun _ => rfl)).view.set]{xShare 8} xstg m c : sProp 𝕄) = xRest m c 8 := rfl
theorem slab_long_9 (c : Dev nD) :
    ((xM.slice (Rect.unit (s := S4096x256) (k0_off2 c 10#32) S256x256.size (k0_off2_inb c 9)) (fun _ => rfl)).view.loc (c : Thread nD τ) ↦[(xM.slice (Rect.unit (s := S4096x256) (k0_off2 c 10#32) S256x256.size (k0_off2_inb c 9)) (fun _ => rfl)).view.set]{xShare 9} xstg m c : sProp 𝕄) = slabPts m c 9 := rfl
theorem rest_long_9 (c : Dev nD) :
    ((xM : Memref sig .tc .vmem S4096x256 .f32).view.loc (c : Thread nD τ) ↦[(xM : Memref sig .tc .vmem S4096x256 .f32).view.set \ (xM.slice (Rect.unit (s := S4096x256) (k0_off2 c 10#32) S256x256.size (k0_off2_inb c 9)) (fun _ => rfl)).view.set]{xShare 9} xstg m c : sProp 𝕄) = xRest m c 9 := rfl
theorem slab_long_10 (c : Dev nD) :
    ((xM.slice (Rect.unit (s := S4096x256) (k0_off2 c 11#32) S256x256.size (k0_off2_inb c 10)) (fun _ => rfl)).view.loc (c : Thread nD τ) ↦[(xM.slice (Rect.unit (s := S4096x256) (k0_off2 c 11#32) S256x256.size (k0_off2_inb c 10)) (fun _ => rfl)).view.set]{xShare 10} xstg m c : sProp 𝕄) = slabPts m c 10 := rfl
theorem rest_long_10 (c : Dev nD) :
    ((xM : Memref sig .tc .vmem S4096x256 .f32).view.loc (c : Thread nD τ) ↦[(xM : Memref sig .tc .vmem S4096x256 .f32).view.set \ (xM.slice (Rect.unit (s := S4096x256) (k0_off2 c 11#32) S256x256.size (k0_off2_inb c 10)) (fun _ => rfl)).view.set]{xShare 10} xstg m c : sProp 𝕄) = xRest m c 10 := rfl
theorem slab_long_11 (c : Dev nD) :
    ((xM.slice (Rect.unit (s := S4096x256) (k0_off2 c 12#32) S256x256.size (k0_off2_inb c 11)) (fun _ => rfl)).view.loc (c : Thread nD τ) ↦[(xM.slice (Rect.unit (s := S4096x256) (k0_off2 c 12#32) S256x256.size (k0_off2_inb c 11)) (fun _ => rfl)).view.set]{xShare 11} xstg m c : sProp 𝕄) = slabPts m c 11 := rfl
theorem rest_long_11 (c : Dev nD) :
    ((xM : Memref sig .tc .vmem S4096x256 .f32).view.loc (c : Thread nD τ) ↦[(xM : Memref sig .tc .vmem S4096x256 .f32).view.set \ (xM.slice (Rect.unit (s := S4096x256) (k0_off2 c 12#32) S256x256.size (k0_off2_inb c 11)) (fun _ => rfl)).view.set]{xShare 11} xstg m c : sProp 𝕄) = xRest m c 11 := rfl
theorem slab_long_12 (c : Dev nD) :
    ((xM.slice (Rect.unit (s := S4096x256) (k0_off2 c 13#32) S256x256.size (k0_off2_inb c 12)) (fun _ => rfl)).view.loc (c : Thread nD τ) ↦[(xM.slice (Rect.unit (s := S4096x256) (k0_off2 c 13#32) S256x256.size (k0_off2_inb c 12)) (fun _ => rfl)).view.set]{xShare 12} xstg m c : sProp 𝕄) = slabPts m c 12 := rfl
theorem rest_long_12 (c : Dev nD) :
    ((xM : Memref sig .tc .vmem S4096x256 .f32).view.loc (c : Thread nD τ) ↦[(xM : Memref sig .tc .vmem S4096x256 .f32).view.set \ (xM.slice (Rect.unit (s := S4096x256) (k0_off2 c 13#32) S256x256.size (k0_off2_inb c 12)) (fun _ => rfl)).view.set]{xShare 12} xstg m c : sProp 𝕄) = xRest m c 12 := rfl
theorem slab_long_13 (c : Dev nD) :
    ((xM.slice (Rect.unit (s := S4096x256) (k0_off2 c 14#32) S256x256.size (k0_off2_inb c 13)) (fun _ => rfl)).view.loc (c : Thread nD τ) ↦[(xM.slice (Rect.unit (s := S4096x256) (k0_off2 c 14#32) S256x256.size (k0_off2_inb c 13)) (fun _ => rfl)).view.set]{xShare 13} xstg m c : sProp 𝕄) = slabPts m c 13 := rfl
theorem rest_long_13 (c : Dev nD) :
    ((xM : Memref sig .tc .vmem S4096x256 .f32).view.loc (c : Thread nD τ) ↦[(xM : Memref sig .tc .vmem S4096x256 .f32).view.set \ (xM.slice (Rect.unit (s := S4096x256) (k0_off2 c 14#32) S256x256.size (k0_off2_inb c 13)) (fun _ => rfl)).view.set]{xShare 13} xstg m c : sProp 𝕄) = xRest m c 13 := rfl
theorem slab_long_14 (c : Dev nD) :
    ((xM.slice (Rect.unit (s := S4096x256) (k0_off2 c 15#32) S256x256.size (k0_off2_inb c 14)) (fun _ => rfl)).view.loc (c : Thread nD τ) ↦[(xM.slice (Rect.unit (s := S4096x256) (k0_off2 c 15#32) S256x256.size (k0_off2_inb c 14)) (fun _ => rfl)).view.set]{xShare 14} xstg m c : sProp 𝕄) = slabPts m c 14 := rfl
theorem rest_long_14 (c : Dev nD) :
    ((xM : Memref sig .tc .vmem S4096x256 .f32).view.loc (c : Thread nD τ) ↦[(xM : Memref sig .tc .vmem S4096x256 .f32).view.set \ (xM.slice (Rect.unit (s := S4096x256) (k0_off2 c 15#32) S256x256.size (k0_off2_inb c 14)) (fun _ => rfl)).view.set]{xShare 14} xstg m c : sProp 𝕄) = xRest m c 14 := rfl
omit [FloatOps F] in
theorem wslot_long_0 (c : Dev nD) (X : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ))) :
    (((wbM.slice (Rect.unit (s := S3x256x8192) ![0, 0, 0] S1x256x8192.size inb_S3x256x8192_S1x256x8192_0_0_0) (fun _ => rfl)).squeeze S256x8192 squeezes_S1x256x8192_S256x8192).view.loc (c : Thread nD τ) ↦[((wbM.slice (Rect.unit (s := S3x256x8192) ![0, 0, 0] S1x256x8192.size inb_S3x256x8192_S1x256x8192_0_0_0) (fun _ => rfl)).squeeze S256x8192 squeezes_S1x256x8192_S256x8192).view.set]{fullShare} X : sProp 𝕄)
      = ((wslot 0).view.loc (c : Thread nD τ) ↦[(wslot 0).view.set]{fullShare} X : sProp 𝕄) := rfl
omit [FloatOps F] in
theorem wslot_long_1 (c : Dev nD) (X : Buf (Elt F) (((wbM.slice (Rect.unit (s := S3x256x8192) ![1, 0, 0] S1x256x8192.size inb_S3x256x8192_S1x256x8192_1_0_0) (fun _ => rfl)).squeeze S256x8192 squeezes_S1x256x8192_S256x8192).view.loc (c : Thread nD τ))) :
    (((wbM.slice (Rect.unit (s := S3x256x8192) ![1, 0, 0] S1x256x8192.size inb_S3x256x8192_S1x256x8192_1_0_0) (fun _ => rfl)).squeeze S256x8192 squeezes_S1x256x8192_S256x8192).view.loc (c : Thread nD τ) ↦[((wbM.slice (Rect.unit (s := S3x256x8192) ![1, 0, 0] S1x256x8192.size inb_S3x256x8192_S1x256x8192_1_0_0) (fun _ => rfl)).squeeze S256x8192 squeezes_S1x256x8192_S256x8192).view.set]{fullShare} X : sProp 𝕄)
      = ((wslot 1).view.loc (c : Thread nD τ) ↦[(wslot 1).view.set]{fullShare} X : sProp 𝕄) := rfl
omit [FloatOps F] in
theorem wslot_long_2 (c : Dev nD) (X : Buf (Elt F) (((wbM.slice (Rect.unit (s := S3x256x8192) ![2, 0, 0] S1x256x8192.size inb_S3x256x8192_S1x256x8192_2_0_0) (fun _ => rfl)).squeeze S256x8192 squeezes_S1x256x8192_S256x8192).view.loc (c : Thread nD τ))) :
    (((wbM.slice (Rect.unit (s := S3x256x8192) ![2, 0, 0] S1x256x8192.size inb_S3x256x8192_S1x256x8192_2_0_0) (fun _ => rfl)).squeeze S256x8192 squeezes_S1x256x8192_S256x8192).view.loc (c : Thread nD τ) ↦[((wbM.slice (Rect.unit (s := S3x256x8192) ![2, 0, 0] S1x256x8192.size inb_S3x256x8192_S1x256x8192_2_0_0) (fun _ => rfl)).squeeze S256x8192 squeezes_S1x256x8192_S256x8192).view.set]{fullShare} X : sProp 𝕄)
      = ((wslot 2).view.loc (c : Thread nD τ) ↦[(wslot 2).view.set]{fullShare} X : sProp 𝕄) := rfl

/-! ## From the body's end state to the exit -/

set_option maxHeartbeats 4000000 in
set_option maxRecDepth 65536 in
/-- The state a device's body ends in — every cell waited on once, the slots holding what landed, the weight slots what
    the last copies brought, every read token back and carved as it was lent — gives what the point after the body asks. -/
theorem finish (K : Dev nD × CK → ℕ) (c : Dev nD) (W' : Finset (SemLoc sig × Unit))
    (f0 : Buf (Elt F) ((c : Thread nD τ).loc cc0_scratch0))
    (v0 : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ)))
    (v1 : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ)))
    (v2 : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ)))
    (v3 : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ)))
    (v4 : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ)))
    (v5 : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ)))
    (v6 : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ)))
    (v7 : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ)))
    (v8 : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ)))
    (v9 : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ)))
    (v10 : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ)))
    (v11 : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ)))
    (v12 : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ)))
    (v13 : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ)))
    (v14 : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ)))
    (gw0 : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ)))
    (gw1 : Buf (Elt F) (((wbM.slice (Rect.unit (s := S3x256x8192) ![1, 0, 0] S1x256x8192.size inb_S3x256x8192_S1x256x8192_1_0_0) (fun _ => rfl)).squeeze S256x8192 squeezes_S1x256x8192_S256x8192).view.loc (c : Thread nD τ)))
    (gw2 : Buf (Elt F) (((wbM.slice (Rect.unit (s := S3x256x8192) ![2, 0, 0] S1x256x8192.size inb_S3x256x8192_S1x256x8192_2_0_0) (fun _ => rfl)).squeeze S256x8192 squeezes_S1x256x8192_S256x8192).view.loc (c : Thread nD τ)))
    (G : Buf (Elt F) ((oM : Memref sig .tc .vmem S256x8192 .f32).view.loc (c : Thread nD τ))) (hG : G = outAt m c) :
    iprop((cellInv ER (a2aRd m) (K (c, CK.send 0)) (sendCell c 0))
      ∗ (cellInv ER (a2aRd m) (K (c, CK.send 1)) (sendCell c 1))
      ∗ (cellInv ER (a2aRd m) (K (c, CK.send 2)) (sendCell c 2))
      ∗ (cellInv ER (a2aRd m) (K (c, CK.send 3)) (sendCell c 3))
      ∗ (cellInv ER (a2aRd m) (K (c, CK.send 4)) (sendCell c 4))
      ∗ (cellInv ER (a2aRd m) (K (c, CK.send 5)) (sendCell c 5))
      ∗ (cellInv ER (a2aRd m) (K (c, CK.send 6)) (sendCell c 6))
      ∗ (cellInv ER (a2aRd m) (K (c, CK.send 7)) (sendCell c 7))
      ∗ (cellInv ER (a2aRd m) (K (c, CK.send 8)) (sendCell c 8))
      ∗ (cellInv ER (a2aRd m) (K (c, CK.send 9)) (sendCell c 9))
      ∗ (cellInv ER (a2aRd m) (K (c, CK.send 10)) (sendCell c 10))
      ∗ (cellInv ER (a2aRd m) (K (c, CK.send 11)) (sendCell c 11))
      ∗ (cellInv ER (a2aRd m) (K (c, CK.send 12)) (sendCell c 12))
      ∗ (cellInv ER (a2aRd m) (K (c, CK.send 13)) (sendCell c 13))
      ∗ (cellInv ER (a2aRd m) (K (c, CK.send 14)) (sendCell c 14))
      ∗ (cellInv ER (a2aRd m) (K (c, CK.recv 0)) (recvCell c 0))
      ∗ (cellInv ER (a2aRd m) (K (c, CK.recv 1)) (recvCell c 1))
      ∗ (cellInv ER (a2aRd m) (K (c, CK.recv 2)) (recvCell c 2))
      ∗ (cellInv ER (a2aRd m) (K (c, CK.recv 3)) (recvCell c 3))
      ∗ (cellInv ER (a2aRd m) (K (c, CK.recv 4)) (recvCell c 4))
      ∗ (cellInv ER (a2aRd m) (K (c, CK.recv 5)) (recvCell c 5))
      ∗ (cellInv ER (a2aRd m) (K (c, CK.recv 6)) (recvCell c 6))
      ∗ (cellInv ER (a2aRd m) (K (c, CK.recv 7)) (recvCell c 7))
      ∗ (cellInv ER (a2aRd m) (K (c, CK.recv 8)) (recvCell c 8))
      ∗ (cellInv ER (a2aRd m) (K (c, CK.recv 9)) (recvCell c 9))
      ∗ (cellInv ER (a2aRd m) (K (c, CK.recv 10)) (recvCell c 10))
      ∗ (cellInv ER (a2aRd m) (K (c, CK.recv 11)) (recvCell c 11))
      ∗ (cellInv ER (a2aRd m) (K (c, CK.recv 12)) (recvCell c 12))
      ∗ (cellInv ER (a2aRd m) (K (c, CK.recv 13)) (recvCell c 13))
      ∗ (cellInv ER (a2aRd m) (K (c, CK.recv 14)) (recvCell c 14))
      ∗ (atPos ER (sendCell c 0) 1 ∅ 0)
      ∗ (atPos ER (sendCell c 1) 1 ∅ 0)
      ∗ (atPos ER (sendCell c 2) 1 ∅ 0)
      ∗ (atPos ER (sendCell c 3) 1 ∅ 0)
      ∗ (atPos ER (sendCell c 4) 1 ∅ 0)
      ∗ (atPos ER (sendCell c 5) 1 ∅ 0)
      ∗ (atPos ER (sendCell c 6) 1 ∅ 0)
      ∗ (atPos ER (sendCell c 7) 1 ∅ 0)
      ∗ (atPos ER (sendCell c 8) 1 ∅ 0)
      ∗ (atPos ER (sendCell c 9) 1 ∅ 0)
      ∗ (atPos ER (sendCell c 10) 1 ∅ 0)
      ∗ (atPos ER (sendCell c 11) 1 ∅ 0)
      ∗ (atPos ER (sendCell c 12) 1 ∅ 0)
      ∗ (atPos ER (sendCell c 13) 1 ∅ 0)
      ∗ (atPos ER (sendCell c 14) 1 ∅ 0)
      ∗ (atPos ER (recvCell c 0) 1 ∅ 0)
      ∗ (atPos ER (recvCell c 1) 1 ∅ 0)
      ∗ (atPos ER (recvCell c 2) 1 ∅ 0)
      ∗ (atPos ER (recvCell c 3) 1 ∅ 0)
      ∗ (atPos ER (recvCell c 4) 1 ∅ 0)
      ∗ (atPos ER (recvCell c 5) 1 ∅ 0)
      ∗ (atPos ER (recvCell c 6) 1 ∅ 0)
      ∗ (atPos ER (recvCell c 7) 1 ∅ 0)
      ∗ (atPos ER (recvCell c 8) 1 ∅ 0)
      ∗ (atPos ER (recvCell c 9) 1 ∅ 0)
      ∗ (atPos ER (recvCell c 10) 1 ∅ 0)
      ∗ (atPos ER (recvCell c 11) 1 ∅ 0)
      ∗ (atPos ER (recvCell c 12) 1 ∅ 0)
      ∗ (atPos ER (recvCell c 13) 1 ∅ 0)
      ∗ (atPos ER (recvCell c 14) 1 ∅ 0)
      ∗ (slot0Pts (F := F) c f0)
      ∗ (((rM.slice (Rect.unit (s := S16x256x256) ![1, 0, 0] S1x256x256.size inb_S16x256x256_S1x256x256_1_0_0) (fun _ => rfl)).squeeze S256x256 squeezes_S1x256x256_S256x256).view.loc (c : Thread nD τ) ↦[((rM.slice (Rect.unit (s := S16x256x256) ![1, 0, 0] S1x256x256.size inb_S16x256x256_S1x256x256_1_0_0) (fun _ => rfl)).squeeze S256x256 squeezes_S1x256x256_S256x256).view.set]{fullShare} View.write (Elt F) ((rM.slice (Rect.unit (s := S16x256x256) ![1, 0, 0] S1x256x256.size inb_S16x256x256_S1x256x256_1_0_0) (fun _ => rfl)).squeeze S256x256 squeezes_S1x256x256_S256x256).view v0 (sentBlock m (bwd c (off 0)) 0) Finset.univ)
      ∗ (((rM.slice (Rect.unit (s := S16x256x256) ![2, 0, 0] S1x256x256.size inb_S16x256x256_S1x256x256_2_0_0) (fun _ => rfl)).squeeze S256x256 squeezes_S1x256x256_S256x256).view.loc (c : Thread nD τ) ↦[((rM.slice (Rect.unit (s := S16x256x256) ![2, 0, 0] S1x256x256.size inb_S16x256x256_S1x256x256_2_0_0) (fun _ => rfl)).squeeze S256x256 squeezes_S1x256x256_S256x256).view.set]{fullShare} View.write (Elt F) ((rM.slice (Rect.unit (s := S16x256x256) ![2, 0, 0] S1x256x256.size inb_S16x256x256_S1x256x256_2_0_0) (fun _ => rfl)).squeeze S256x256 squeezes_S1x256x256_S256x256).view v1 (sentBlock m (bwd c (off 1)) 1) Finset.univ)
      ∗ (((rM.slice (Rect.unit (s := S16x256x256) ![3, 0, 0] S1x256x256.size inb_S16x256x256_S1x256x256_3_0_0) (fun _ => rfl)).squeeze S256x256 squeezes_S1x256x256_S256x256).view.loc (c : Thread nD τ) ↦[((rM.slice (Rect.unit (s := S16x256x256) ![3, 0, 0] S1x256x256.size inb_S16x256x256_S1x256x256_3_0_0) (fun _ => rfl)).squeeze S256x256 squeezes_S1x256x256_S256x256).view.set]{fullShare} View.write (Elt F) ((rM.slice (Rect.unit (s := S16x256x256) ![3, 0, 0] S1x256x256.size inb_S16x256x256_S1x256x256_3_0_0) (fun _ => rfl)).squeeze S256x256 squeezes_S1x256x256_S256x256).view v2 (sentBlock m (bwd c (off 2)) 2) Finset.univ)
      ∗ (((rM.slice (Rect.unit (s := S16x256x256) ![4, 0, 0] S1x256x256.size inb_S16x256x256_S1x256x256_4_0_0) (fun _ => rfl)).squeeze S256x256 squeezes_S1x256x256_S256x256).view.loc (c : Thread nD τ) ↦[((rM.slice (Rect.unit (s := S16x256x256) ![4, 0, 0] S1x256x256.size inb_S16x256x256_S1x256x256_4_0_0) (fun _ => rfl)).squeeze S256x256 squeezes_S1x256x256_S256x256).view.set]{fullShare} View.write (Elt F) ((rM.slice (Rect.unit (s := S16x256x256) ![4, 0, 0] S1x256x256.size inb_S16x256x256_S1x256x256_4_0_0) (fun _ => rfl)).squeeze S256x256 squeezes_S1x256x256_S256x256).view v3 (sentBlock m (bwd c (off 3)) 3) Finset.univ)
      ∗ (((rM.slice (Rect.unit (s := S16x256x256) ![5, 0, 0] S1x256x256.size inb_S16x256x256_S1x256x256_5_0_0) (fun _ => rfl)).squeeze S256x256 squeezes_S1x256x256_S256x256).view.loc (c : Thread nD τ) ↦[((rM.slice (Rect.unit (s := S16x256x256) ![5, 0, 0] S1x256x256.size inb_S16x256x256_S1x256x256_5_0_0) (fun _ => rfl)).squeeze S256x256 squeezes_S1x256x256_S256x256).view.set]{fullShare} View.write (Elt F) ((rM.slice (Rect.unit (s := S16x256x256) ![5, 0, 0] S1x256x256.size inb_S16x256x256_S1x256x256_5_0_0) (fun _ => rfl)).squeeze S256x256 squeezes_S1x256x256_S256x256).view v4 (sentBlock m (bwd c (off 4)) 4) Finset.univ)
      ∗ (((rM.slice (Rect.unit (s := S16x256x256) ![6, 0, 0] S1x256x256.size inb_S16x256x256_S1x256x256_6_0_0) (fun _ => rfl)).squeeze S256x256 squeezes_S1x256x256_S256x256).view.loc (c : Thread nD τ) ↦[((rM.slice (Rect.unit (s := S16x256x256) ![6, 0, 0] S1x256x256.size inb_S16x256x256_S1x256x256_6_0_0) (fun _ => rfl)).squeeze S256x256 squeezes_S1x256x256_S256x256).view.set]{fullShare} View.write (Elt F) ((rM.slice (Rect.unit (s := S16x256x256) ![6, 0, 0] S1x256x256.size inb_S16x256x256_S1x256x256_6_0_0) (fun _ => rfl)).squeeze S256x256 squeezes_S1x256x256_S256x256).view v5 (sentBlock m (bwd c (off 5)) 5) Finset.univ)
      ∗ (((rM.slice (Rect.unit (s := S16x256x256) ![7, 0, 0] S1x256x256.size inb_S16x256x256_S1x256x256_7_0_0) (fun _ => rfl)).squeeze S256x256 squeezes_S1x256x256_S256x256).view.loc (c : Thread nD τ) ↦[((rM.slice (Rect.unit (s := S16x256x256) ![7, 0, 0] S1x256x256.size inb_S16x256x256_S1x256x256_7_0_0) (fun _ => rfl)).squeeze S256x256 squeezes_S1x256x256_S256x256).view.set]{fullShare} View.write (Elt F) ((rM.slice (Rect.unit (s := S16x256x256) ![7, 0, 0] S1x256x256.size inb_S16x256x256_S1x256x256_7_0_0) (fun _ => rfl)).squeeze S256x256 squeezes_S1x256x256_S256x256).view v6 (sentBlock m (bwd c (off 6)) 6) Finset.univ)
      ∗ (((rM.slice (Rect.unit (s := S16x256x256) ![8, 0, 0] S1x256x256.size inb_S16x256x256_S1x256x256_8_0_0) (fun _ => rfl)).squeeze S256x256 squeezes_S1x256x256_S256x256).view.loc (c : Thread nD τ) ↦[((rM.slice (Rect.unit (s := S16x256x256) ![8, 0, 0] S1x256x256.size inb_S16x256x256_S1x256x256_8_0_0) (fun _ => rfl)).squeeze S256x256 squeezes_S1x256x256_S256x256).view.set]{fullShare} View.write (Elt F) ((rM.slice (Rect.unit (s := S16x256x256) ![8, 0, 0] S1x256x256.size inb_S16x256x256_S1x256x256_8_0_0) (fun _ => rfl)).squeeze S256x256 squeezes_S1x256x256_S256x256).view v7 (sentBlock m (bwd c (off 7)) 7) Finset.univ)
      ∗ (((rM.slice (Rect.unit (s := S16x256x256) ![9, 0, 0] S1x256x256.size inb_S16x256x256_S1x256x256_9_0_0) (fun _ => rfl)).squeeze S256x256 squeezes_S1x256x256_S256x256).view.loc (c : Thread nD τ) ↦[((rM.slice (Rect.unit (s := S16x256x256) ![9, 0, 0] S1x256x256.size inb_S16x256x256_S1x256x256_9_0_0) (fun _ => rfl)).squeeze S256x256 squeezes_S1x256x256_S256x256).view.set]{fullShare} View.write (Elt F) ((rM.slice (Rect.unit (s := S16x256x256) ![9, 0, 0] S1x256x256.size inb_S16x256x256_S1x256x256_9_0_0) (fun _ => rfl)).squeeze S256x256 squeezes_S1x256x256_S256x256).view v8 (sentBlock m (bwd c (off 8)) 8) Finset.univ)
      ∗ (((rM.slice (Rect.unit (s := S16x256x256) ![10, 0, 0] S1x256x256.size inb_S16x256x256_S1x256x256_10_0_0) (fun _ => rfl)).squeeze S256x256 squeezes_S1x256x256_S256x256).view.loc (c : Thread nD τ) ↦[((rM.slice (Rect.unit (s := S16x256x256) ![10, 0, 0] S1x256x256.size inb_S16x256x256_S1x256x256_10_0_0) (fun _ => rfl)).squeeze S256x256 squeezes_S1x256x256_S256x256).view.set]{fullShare} View.write (Elt F) ((rM.slice (Rect.unit (s := S16x256x256) ![10, 0, 0] S1x256x256.size inb_S16x256x256_S1x256x256_10_0_0) (fun _ => rfl)).squeeze S256x256 squeezes_S1x256x256_S256x256).view v9 (sentBlock m (bwd c (off 9)) 9) Finset.univ)
      ∗ (((rM.slice (Rect.unit (s := S16x256x256) ![11, 0, 0] S1x256x256.size inb_S16x256x256_S1x256x256_11_0_0) (fun _ => rfl)).squeeze S256x256 squeezes_S1x256x256_S256x256).view.loc (c : Thread nD τ) ↦[((rM.slice (Rect.unit (s := S16x256x256) ![11, 0, 0] S1x256x256.size inb_S16x256x256_S1x256x256_11_0_0) (fun _ => rfl)).squeeze S256x256 squeezes_S1x256x256_S256x256).view.set]{fullShare} View.write (Elt F) ((rM.slice (Rect.unit (s := S16x256x256) ![11, 0, 0] S1x256x256.size inb_S16x256x256_S1x256x256_11_0_0) (fun _ => rfl)).squeeze S256x256 squeezes_S1x256x256_S256x256).view v10 (sentBlock m (bwd c (off 10)) 10) Finset.univ)
      ∗ (((rM.slice (Rect.unit (s := S16x256x256) ![12, 0, 0] S1x256x256.size inb_S16x256x256_S1x256x256_12_0_0) (fun _ => rfl)).squeeze S256x256 squeezes_S1x256x256_S256x256).view.loc (c : Thread nD τ) ↦[((rM.slice (Rect.unit (s := S16x256x256) ![12, 0, 0] S1x256x256.size inb_S16x256x256_S1x256x256_12_0_0) (fun _ => rfl)).squeeze S256x256 squeezes_S1x256x256_S256x256).view.set]{fullShare} View.write (Elt F) ((rM.slice (Rect.unit (s := S16x256x256) ![12, 0, 0] S1x256x256.size inb_S16x256x256_S1x256x256_12_0_0) (fun _ => rfl)).squeeze S256x256 squeezes_S1x256x256_S256x256).view v11 (sentBlock m (bwd c (off 11)) 11) Finset.univ)
      ∗ (((rM.slice (Rect.unit (s := S16x256x256) ![13, 0, 0] S1x256x256.size inb_S16x256x256_S1x256x256_13_0_0) (fun _ => rfl)).squeeze S256x256 squeezes_S1x256x256_S256x256).view.loc (c : Thread nD τ) ↦[((rM.slice (Rect.unit (s := S16x256x256) ![13, 0, 0] S1x256x256.size inb_S16x256x256_S1x256x256_13_0_0) (fun _ => rfl)).squeeze S256x256 squeezes_S1x256x256_S256x256).view.set]{fullShare} View.write (Elt F) ((rM.slice (Rect.unit (s := S16x256x256) ![13, 0, 0] S1x256x256.size inb_S16x256x256_S1x256x256_13_0_0) (fun _ => rfl)).squeeze S256x256 squeezes_S1x256x256_S256x256).view v12 (sentBlock m (bwd c (off 12)) 12) Finset.univ)
      ∗ (((rM.slice (Rect.unit (s := S16x256x256) ![14, 0, 0] S1x256x256.size inb_S16x256x256_S1x256x256_14_0_0) (fun _ => rfl)).squeeze S256x256 squeezes_S1x256x256_S256x256).view.loc (c : Thread nD τ) ↦[((rM.slice (Rect.unit (s := S16x256x256) ![14, 0, 0] S1x256x256.size inb_S16x256x256_S1x256x256_14_0_0) (fun _ => rfl)).squeeze S256x256 squeezes_S1x256x256_S256x256).view.set]{fullShare} View.write (Elt F) ((rM.slice (Rect.unit (s := S16x256x256) ![14, 0, 0] S1x256x256.size inb_S16x256x256_S1x256x256_14_0_0) (fun _ => rfl)).squeeze S256x256 squeezes_S1x256x256_S256x256).view v13 (sentBlock m (bwd c (off 13)) 13) Finset.univ)
      ∗ (((rM.slice (Rect.unit (s := S16x256x256) ![15, 0, 0] S1x256x256.size inb_S16x256x256_S1x256x256_15_0_0) (fun _ => rfl)).squeeze S256x256 squeezes_S1x256x256_S256x256).view.loc (c : Thread nD τ) ↦[((rM.slice (Rect.unit (s := S16x256x256) ![15, 0, 0] S1x256x256.size inb_S16x256x256_S1x256x256_15_0_0) (fun _ => rfl)).squeeze S256x256 squeezes_S1x256x256_S256x256).view.set]{fullShare} View.write (Elt F) ((rM.slice (Rect.unit (s := S16x256x256) ![15, 0, 0] S1x256x256.size inb_S16x256x256_S1x256x256_15_0_0) (fun _ => rfl)).squeeze S256x256 squeezes_S1x256x256_S256x256).view v14 (sentBlock m (bwd c (off 14)) 14) Finset.univ)
      ∗ (((wbM.slice (Rect.unit (s := S3x256x8192) ![0, 0, 0] S1x256x8192.size inb_S3x256x8192_S1x256x8192_0_0_0) (fun _ => rfl)).squeeze S256x8192 squeezes_S1x256x8192_S256x8192).view.loc (c : Thread nD τ) ↦[((wbM.slice (Rect.unit (s := S3x256x8192) ![0, 0, 0] S1x256x8192.size inb_S3x256x8192_S1x256x8192_0_0_0) (fun _ => rfl)).squeeze S256x8192 squeezes_S1x256x8192_S256x8192).view.set]{fullShare} gw0)
      ∗ (((wbM.slice (Rect.unit (s := S3x256x8192) ![1, 0, 0] S1x256x8192.size inb_S3x256x8192_S1x256x8192_1_0_0) (fun _ => rfl)).squeeze S256x8192 squeezes_S1x256x8192_S256x8192).view.loc (c : Thread nD τ) ↦[((wbM.slice (Rect.unit (s := S3x256x8192) ![1, 0, 0] S1x256x8192.size inb_S3x256x8192_S1x256x8192_1_0_0) (fun _ => rfl)).squeeze S256x8192 squeezes_S1x256x8192_S256x8192).view.set]{fullShare} gw1)
      ∗ (((wbM.slice (Rect.unit (s := S3x256x8192) ![2, 0, 0] S1x256x8192.size inb_S3x256x8192_S1x256x8192_2_0_0) (fun _ => rfl)).squeeze S256x8192 squeezes_S1x256x8192_S256x8192).view.loc (c : Thread nD τ) ↦[((wbM.slice (Rect.unit (s := S3x256x8192) ![2, 0, 0] S1x256x8192.size inb_S3x256x8192_S1x256x8192_2_0_0) (fun _ => rfl)).squeeze S256x8192 squeezes_S1x256x8192_S256x8192).view.set]{fullShare} gw2)
      ∗ ((xM : Memref sig .tc .vmem S4096x256 .f32).view.loc (c : Thread nD τ) ↦[(xM : Memref sig .tc .vmem S4096x256 .f32).view.set]{Transfers.shareDrop fullShare 15} xstg m c)
      ∗ ((xM.slice (Rect.unit (s := S4096x256) (k0_off2 c 1#32) S256x256.size (k0_off2_inb c 0)) (fun _ => rfl)).view.loc (c : Thread nD τ) ↦[(xM.slice (Rect.unit (s := S4096x256) (k0_off2 c 1#32) S256x256.size (k0_off2_inb c 0)) (fun _ => rfl)).view.set]{xShare 0} xstg m c)
      ∗ ((xM : Memref sig .tc .vmem S4096x256 .f32).view.loc (c : Thread nD τ) ↦[(xM : Memref sig .tc .vmem S4096x256 .f32).view.set \ (xM.slice (Rect.unit (s := S4096x256) (k0_off2 c 1#32) S256x256.size (k0_off2_inb c 0)) (fun _ => rfl)).view.set]{xShare 0} xstg m c)
      ∗ ((xM.slice (Rect.unit (s := S4096x256) (k0_off2 c 2#32) S256x256.size (k0_off2_inb c 1)) (fun _ => rfl)).view.loc (c : Thread nD τ) ↦[(xM.slice (Rect.unit (s := S4096x256) (k0_off2 c 2#32) S256x256.size (k0_off2_inb c 1)) (fun _ => rfl)).view.set]{xShare 1} xstg m c)
      ∗ ((xM : Memref sig .tc .vmem S4096x256 .f32).view.loc (c : Thread nD τ) ↦[(xM : Memref sig .tc .vmem S4096x256 .f32).view.set \ (xM.slice (Rect.unit (s := S4096x256) (k0_off2 c 2#32) S256x256.size (k0_off2_inb c 1)) (fun _ => rfl)).view.set]{xShare 1} xstg m c)
      ∗ ((xM.slice (Rect.unit (s := S4096x256) (k0_off2 c 3#32) S256x256.size (k0_off2_inb c 2)) (fun _ => rfl)).view.loc (c : Thread nD τ) ↦[(xM.slice (Rect.unit (s := S4096x256) (k0_off2 c 3#32) S256x256.size (k0_off2_inb c 2)) (fun _ => rfl)).view.set]{xShare 2} xstg m c)
      ∗ ((xM : Memref sig .tc .vmem S4096x256 .f32).view.loc (c : Thread nD τ) ↦[(xM : Memref sig .tc .vmem S4096x256 .f32).view.set \ (xM.slice (Rect.unit (s := S4096x256) (k0_off2 c 3#32) S256x256.size (k0_off2_inb c 2)) (fun _ => rfl)).view.set]{xShare 2} xstg m c)
      ∗ ((xM.slice (Rect.unit (s := S4096x256) (k0_off2 c 4#32) S256x256.size (k0_off2_inb c 3)) (fun _ => rfl)).view.loc (c : Thread nD τ) ↦[(xM.slice (Rect.unit (s := S4096x256) (k0_off2 c 4#32) S256x256.size (k0_off2_inb c 3)) (fun _ => rfl)).view.set]{xShare 3} xstg m c)
      ∗ ((xM : Memref sig .tc .vmem S4096x256 .f32).view.loc (c : Thread nD τ) ↦[(xM : Memref sig .tc .vmem S4096x256 .f32).view.set \ (xM.slice (Rect.unit (s := S4096x256) (k0_off2 c 4#32) S256x256.size (k0_off2_inb c 3)) (fun _ => rfl)).view.set]{xShare 3} xstg m c)
      ∗ ((xM.slice (Rect.unit (s := S4096x256) (k0_off2 c 5#32) S256x256.size (k0_off2_inb c 4)) (fun _ => rfl)).view.loc (c : Thread nD τ) ↦[(xM.slice (Rect.unit (s := S4096x256) (k0_off2 c 5#32) S256x256.size (k0_off2_inb c 4)) (fun _ => rfl)).view.set]{xShare 4} xstg m c)
      ∗ ((xM : Memref sig .tc .vmem S4096x256 .f32).view.loc (c : Thread nD τ) ↦[(xM : Memref sig .tc .vmem S4096x256 .f32).view.set \ (xM.slice (Rect.unit (s := S4096x256) (k0_off2 c 5#32) S256x256.size (k0_off2_inb c 4)) (fun _ => rfl)).view.set]{xShare 4} xstg m c)
      ∗ ((xM.slice (Rect.unit (s := S4096x256) (k0_off2 c 6#32) S256x256.size (k0_off2_inb c 5)) (fun _ => rfl)).view.loc (c : Thread nD τ) ↦[(xM.slice (Rect.unit (s := S4096x256) (k0_off2 c 6#32) S256x256.size (k0_off2_inb c 5)) (fun _ => rfl)).view.set]{xShare 5} xstg m c)
      ∗ ((xM : Memref sig .tc .vmem S4096x256 .f32).view.loc (c : Thread nD τ) ↦[(xM : Memref sig .tc .vmem S4096x256 .f32).view.set \ (xM.slice (Rect.unit (s := S4096x256) (k0_off2 c 6#32) S256x256.size (k0_off2_inb c 5)) (fun _ => rfl)).view.set]{xShare 5} xstg m c)
      ∗ ((xM.slice (Rect.unit (s := S4096x256) (k0_off2 c 7#32) S256x256.size (k0_off2_inb c 6)) (fun _ => rfl)).view.loc (c : Thread nD τ) ↦[(xM.slice (Rect.unit (s := S4096x256) (k0_off2 c 7#32) S256x256.size (k0_off2_inb c 6)) (fun _ => rfl)).view.set]{xShare 6} xstg m c)
      ∗ ((xM : Memref sig .tc .vmem S4096x256 .f32).view.loc (c : Thread nD τ) ↦[(xM : Memref sig .tc .vmem S4096x256 .f32).view.set \ (xM.slice (Rect.unit (s := S4096x256) (k0_off2 c 7#32) S256x256.size (k0_off2_inb c 6)) (fun _ => rfl)).view.set]{xShare 6} xstg m c)
      ∗ ((xM.slice (Rect.unit (s := S4096x256) (k0_off2 c 8#32) S256x256.size (k0_off2_inb c 7)) (fun _ => rfl)).view.loc (c : Thread nD τ) ↦[(xM.slice (Rect.unit (s := S4096x256) (k0_off2 c 8#32) S256x256.size (k0_off2_inb c 7)) (fun _ => rfl)).view.set]{xShare 7} xstg m c)
      ∗ ((xM : Memref sig .tc .vmem S4096x256 .f32).view.loc (c : Thread nD τ) ↦[(xM : Memref sig .tc .vmem S4096x256 .f32).view.set \ (xM.slice (Rect.unit (s := S4096x256) (k0_off2 c 8#32) S256x256.size (k0_off2_inb c 7)) (fun _ => rfl)).view.set]{xShare 7} xstg m c)
      ∗ ((xM.slice (Rect.unit (s := S4096x256) (k0_off2 c 9#32) S256x256.size (k0_off2_inb c 8)) (fun _ => rfl)).view.loc (c : Thread nD τ) ↦[(xM.slice (Rect.unit (s := S4096x256) (k0_off2 c 9#32) S256x256.size (k0_off2_inb c 8)) (fun _ => rfl)).view.set]{xShare 8} xstg m c)
      ∗ ((xM : Memref sig .tc .vmem S4096x256 .f32).view.loc (c : Thread nD τ) ↦[(xM : Memref sig .tc .vmem S4096x256 .f32).view.set \ (xM.slice (Rect.unit (s := S4096x256) (k0_off2 c 9#32) S256x256.size (k0_off2_inb c 8)) (fun _ => rfl)).view.set]{xShare 8} xstg m c)
      ∗ ((xM.slice (Rect.unit (s := S4096x256) (k0_off2 c 10#32) S256x256.size (k0_off2_inb c 9)) (fun _ => rfl)).view.loc (c : Thread nD τ) ↦[(xM.slice (Rect.unit (s := S4096x256) (k0_off2 c 10#32) S256x256.size (k0_off2_inb c 9)) (fun _ => rfl)).view.set]{xShare 9} xstg m c)
      ∗ ((xM : Memref sig .tc .vmem S4096x256 .f32).view.loc (c : Thread nD τ) ↦[(xM : Memref sig .tc .vmem S4096x256 .f32).view.set \ (xM.slice (Rect.unit (s := S4096x256) (k0_off2 c 10#32) S256x256.size (k0_off2_inb c 9)) (fun _ => rfl)).view.set]{xShare 9} xstg m c)
      ∗ ((xM.slice (Rect.unit (s := S4096x256) (k0_off2 c 11#32) S256x256.size (k0_off2_inb c 10)) (fun _ => rfl)).view.loc (c : Thread nD τ) ↦[(xM.slice (Rect.unit (s := S4096x256) (k0_off2 c 11#32) S256x256.size (k0_off2_inb c 10)) (fun _ => rfl)).view.set]{xShare 10} xstg m c)
      ∗ ((xM : Memref sig .tc .vmem S4096x256 .f32).view.loc (c : Thread nD τ) ↦[(xM : Memref sig .tc .vmem S4096x256 .f32).view.set \ (xM.slice (Rect.unit (s := S4096x256) (k0_off2 c 11#32) S256x256.size (k0_off2_inb c 10)) (fun _ => rfl)).view.set]{xShare 10} xstg m c)
      ∗ ((xM.slice (Rect.unit (s := S4096x256) (k0_off2 c 12#32) S256x256.size (k0_off2_inb c 11)) (fun _ => rfl)).view.loc (c : Thread nD τ) ↦[(xM.slice (Rect.unit (s := S4096x256) (k0_off2 c 12#32) S256x256.size (k0_off2_inb c 11)) (fun _ => rfl)).view.set]{xShare 11} xstg m c)
      ∗ ((xM : Memref sig .tc .vmem S4096x256 .f32).view.loc (c : Thread nD τ) ↦[(xM : Memref sig .tc .vmem S4096x256 .f32).view.set \ (xM.slice (Rect.unit (s := S4096x256) (k0_off2 c 12#32) S256x256.size (k0_off2_inb c 11)) (fun _ => rfl)).view.set]{xShare 11} xstg m c)
      ∗ ((xM.slice (Rect.unit (s := S4096x256) (k0_off2 c 13#32) S256x256.size (k0_off2_inb c 12)) (fun _ => rfl)).view.loc (c : Thread nD τ) ↦[(xM.slice (Rect.unit (s := S4096x256) (k0_off2 c 13#32) S256x256.size (k0_off2_inb c 12)) (fun _ => rfl)).view.set]{xShare 12} xstg m c)
      ∗ ((xM : Memref sig .tc .vmem S4096x256 .f32).view.loc (c : Thread nD τ) ↦[(xM : Memref sig .tc .vmem S4096x256 .f32).view.set \ (xM.slice (Rect.unit (s := S4096x256) (k0_off2 c 13#32) S256x256.size (k0_off2_inb c 12)) (fun _ => rfl)).view.set]{xShare 12} xstg m c)
      ∗ ((xM.slice (Rect.unit (s := S4096x256) (k0_off2 c 14#32) S256x256.size (k0_off2_inb c 13)) (fun _ => rfl)).view.loc (c : Thread nD τ) ↦[(xM.slice (Rect.unit (s := S4096x256) (k0_off2 c 14#32) S256x256.size (k0_off2_inb c 13)) (fun _ => rfl)).view.set]{xShare 13} xstg m c)
      ∗ ((xM : Memref sig .tc .vmem S4096x256 .f32).view.loc (c : Thread nD τ) ↦[(xM : Memref sig .tc .vmem S4096x256 .f32).view.set \ (xM.slice (Rect.unit (s := S4096x256) (k0_off2 c 14#32) S256x256.size (k0_off2_inb c 13)) (fun _ => rfl)).view.set]{xShare 13} xstg m c)
      ∗ ((xM.slice (Rect.unit (s := S4096x256) (k0_off2 c 15#32) S256x256.size (k0_off2_inb c 14)) (fun _ => rfl)).view.loc (c : Thread nD τ) ↦[(xM.slice (Rect.unit (s := S4096x256) (k0_off2 c 15#32) S256x256.size (k0_off2_inb c 14)) (fun _ => rfl)).view.set]{xShare 14} xstg m c)
      ∗ ((xM : Memref sig .tc .vmem S4096x256 .f32).view.loc (c : Thread nD τ) ↦[(xM : Memref sig .tc .vmem S4096x256 .f32).view.set \ (xM.slice (Rect.unit (s := S4096x256) (k0_off2 c 15#32) S256x256.size (k0_off2_inb c 14)) (fun _ => rfl)).view.set]{xShare 14} xstg m c)
      ∗ ((wM : Memref sig .tc .hbm S4096x8192 .f32).view.loc (c : Thread nD τ) ↦[(wM : Memref sig .tc .hbm S4096x8192 .f32).view.set]{Transfers.shareDrop fullShare 3} m ((c : Thread nD τ).loc main_arg1))
      ∗ ((wM : Memref sig .tc .hbm S4096x8192 .f32).view.loc (c : Thread nD τ) ↦[(wM : Memref sig .tc .hbm S4096x8192 .f32).view.set]{Transfers.shareTok fullShare 3 0} m ((c : Thread nD τ).loc main_arg1))
      ∗ ((wM : Memref sig .tc .hbm S4096x8192 .f32).view.loc (c : Thread nD τ) ↦[(wM : Memref sig .tc .hbm S4096x8192 .f32).view.set]{Transfers.shareTok fullShare 3 1} m ((c : Thread nD τ).loc main_arg1))
      ∗ ((wM : Memref sig .tc .hbm S4096x8192 .f32).view.loc (c : Thread nD τ) ↦[(wM : Memref sig .tc .hbm S4096x8192 .f32).view.set]{Transfers.shareTok fullShare 3 2} m ((c : Thread nD τ).loc main_arg1))
      ∗ (semVal ((c : Thread nD τ), idleSem 0) 0)
      ∗ (semVal ((c : Thread nD τ), idleSem 1) 0)
      ∗ (semVal ((c : Thread nD τ), idleSem 2) 0)
      ∗ (semVal ((c : Thread nD τ), idleSem 3) 0)
      ∗ (semVal ((c : Thread nD τ), idleSem 4) 0)
      ∗ ((oM : Memref sig .tc .vmem S256x8192 .f32).view.loc (c : Thread nD τ) ↦[(oM : Memref sig .tc .vmem S256x8192 .f32).view.set]{fullShare} G)
      ∗ (owes (c : Thread nD τ) (0 : CellTallies nD τ sig Unit) W'))
      ⊢ (|={Set.univ}=> iprop(Φ₁ m c ∗ (dats m ρ 0 c).owesAt () (t0_0 : Fin cfg0.N).succ ∗ stg c cc0_stg0_0 (xstg m c) ∗ stg c cc0_stg1_0 (outAt m c)) : sProp 𝕄) := by
  subst hG
  rw [slot_long_0 c, slot_long_1 c, slot_long_2 c, slot_long_3 c, slot_long_4 c, slot_long_5 c, slot_long_6 c, slot_long_7 c, slot_long_8 c, slot_long_9 c, slot_long_10 c, slot_long_11 c, slot_long_12 c, slot_long_13 c, slot_long_14 c,
    slab_long_0 m c, rest_long_0 m c, slab_long_1 m c, rest_long_1 m c, slab_long_2 m c, rest_long_2 m c, slab_long_3 m c, rest_long_3 m c, slab_long_4 m c, rest_long_4 m c, slab_long_5 m c, rest_long_5 m c, slab_long_6 m c, rest_long_6 m c, slab_long_7 m c, rest_long_7 m c, slab_long_8 m c, rest_long_8 m c, slab_long_9 m c, rest_long_9 m c, slab_long_10 m c, rest_long_10 m c, slab_long_11 m c, rest_long_11 m c, slab_long_12 m c, rest_long_12 m c, slab_long_13 m c, rest_long_13 m c, slab_long_14 m c, rest_long_14 m c,
    wslot_long_0 c, wslot_long_1 c, wslot_long_2 c]
  iintro ⟨HIs0, HIs1, HIs2, HIs3, HIs4, HIs5, HIs6, HIs7, HIs8, HIs9, HIs10, HIs11, HIs12, HIs13, HIs14, HIr0, HIr1, HIr2, HIr3, HIr4, HIr5, HIr6, HIr7, HIr8, HIr9, HIr10, HIr11, HIr12, HIr13, HIr14, HatS0, HatS1, HatS2, HatS3, HatS4, HatS5, HatS6, HatS7, HatS8, HatS9, HatS10, HatS11, HatS12, HatS13, HatS14, HatV0, HatV1, HatV2, HatV3, HatV4, HatV5, HatV6, HatV7, HatV8, HatV9, HatV10, HatV11, HatV12, HatV13, HatV14, HS0, HP0, HP1, HP2, HP3, HP4, HP5, HP6, HP7, HP8, HP9, HP10, HP11, HP12, HP13, HP14, Hwb0, Hwb1, Hwb2, HxR, HSp0, Hxr0, HSp1, Hxr1, HSp2, Hxr2, HSp3, Hxr3, HSp4, Hxr4, HSp5, Hxr5, HSp6, Hxr6, HSp7, Hxr7, HSp8, Hxr8, HSp9, Hxr9, HSp10, Hxr10, HSp11, Hxr11, HSp12, Hxr12, HSp13, Hxr13, HSp14, Hxr14, HwR, Hw0, Hw1, Hw2, Hi0, Hi1, Hs2, Hs3, Hs4, Hout, HO⟩
  iapply (exit_carved m ρ K c (t0_0 : Fin cfg0.N) W')
  isplitl [HIs0 HIs1 HIs2 HIs3 HIs4 HIs5 HIs6 HIs7 HIs8 HIs9 HIs10 HIs11 HIs12 HIs13 HIs14 HIr0 HIr1 HIr2 HIr3 HIr4 HIr5 HIr6 HIr7 HIr8 HIr9 HIr10 HIr11 HIr12 HIr13 HIr14 HatS0 HatS1 HatS2 HatS3 HatS4 HatS5 HatS6 HatS7 HatS8 HatS9 HatS10 HatS11 HatS12 HatS13 HatS14 HatV0 HatV1 HatV2 HatV3 HatV4 HatV5 HatV6 HatV7 HatV8 HatV9 HatV10 HatV11 HatV12 HatV13 HatV14]
  · isplitl [HIs0 HIs1 HIs2 HIs3 HIs4 HIs5 HIs6 HIs7 HIs8 HIs9 HIs10 HIs11 HIs12 HIs13 HIs14]
    ·
      isplitl [HIs0]; · iexact HIs0
      isplitl [HIs1]; · iexact HIs1
      isplitl [HIs2]; · iexact HIs2
      isplitl [HIs3]; · iexact HIs3
      isplitl [HIs4]; · iexact HIs4
      isplitl [HIs5]; · iexact HIs5
      isplitl [HIs6]; · iexact HIs6
      isplitl [HIs7]; · iexact HIs7
      isplitl [HIs8]; · iexact HIs8
      isplitl [HIs9]; · iexact HIs9
      isplitl [HIs10]; · iexact HIs10
      isplitl [HIs11]; · iexact HIs11
      isplitl [HIs12]; · iexact HIs12
      isplitl [HIs13]; · iexact HIs13
      iexact HIs14
    isplitl [HIr0 HIr1 HIr2 HIr3 HIr4 HIr5 HIr6 HIr7 HIr8 HIr9 HIr10 HIr11 HIr12 HIr13 HIr14]
    ·
      isplitl [HIr0]; · iexact HIr0
      isplitl [HIr1]; · iexact HIr1
      isplitl [HIr2]; · iexact HIr2
      isplitl [HIr3]; · iexact HIr3
      isplitl [HIr4]; · iexact HIr4
      isplitl [HIr5]; · iexact HIr5
      isplitl [HIr6]; · iexact HIr6
      isplitl [HIr7]; · iexact HIr7
      isplitl [HIr8]; · iexact HIr8
      isplitl [HIr9]; · iexact HIr9
      isplitl [HIr10]; · iexact HIr10
      isplitl [HIr11]; · iexact HIr11
      isplitl [HIr12]; · iexact HIr12
      isplitl [HIr13]; · iexact HIr13
      iexact HIr14
    isplitl [HatS0 HatS1 HatS2 HatS3 HatS4 HatS5 HatS6 HatS7 HatS8 HatS9 HatS10 HatS11 HatS12 HatS13 HatS14]
    ·
      isplitl [HatS0]; · iexact HatS0
      isplitl [HatS1]; · iexact HatS1
      isplitl [HatS2]; · iexact HatS2
      isplitl [HatS3]; · iexact HatS3
      isplitl [HatS4]; · iexact HatS4
      isplitl [HatS5]; · iexact HatS5
      isplitl [HatS6]; · iexact HatS6
      isplitl [HatS7]; · iexact HatS7
      isplitl [HatS8]; · iexact HatS8
      isplitl [HatS9]; · iexact HatS9
      isplitl [HatS10]; · iexact HatS10
      isplitl [HatS11]; · iexact HatS11
      isplitl [HatS12]; · iexact HatS12
      isplitl [HatS13]; · iexact HatS13
      iexact HatS14
    isplitl [HatV0]; · iexact HatV0
    isplitl [HatV1]; · iexact HatV1
    isplitl [HatV2]; · iexact HatV2
    isplitl [HatV3]; · iexact HatV3
    isplitl [HatV4]; · iexact HatV4
    isplitl [HatV5]; · iexact HatV5
    isplitl [HatV6]; · iexact HatV6
    isplitl [HatV7]; · iexact HatV7
    isplitl [HatV8]; · iexact HatV8
    isplitl [HatV9]; · iexact HatV9
    isplitl [HatV10]; · iexact HatV10
    isplitl [HatV11]; · iexact HatV11
    isplitl [HatV12]; · iexact HatV12
    isplitl [HatV13]; · iexact HatV13
    iexact HatV14
  isplitl [HS0 HP0 HP1 HP2 HP3 HP4 HP5 HP6 HP7 HP8 HP9 HP10 HP11 HP12 HP13 HP14]
  · isplitl [HS0]; · iexists f0; iexact HS0
    isplitl [HP0]; · (iexists _; iexact HP0)
    isplitl [HP1]; · (iexists _; iexact HP1)
    isplitl [HP2]; · (iexists _; iexact HP2)
    isplitl [HP3]; · (iexists _; iexact HP3)
    isplitl [HP4]; · (iexists _; iexact HP4)
    isplitl [HP5]; · (iexists _; iexact HP5)
    isplitl [HP6]; · (iexists _; iexact HP6)
    isplitl [HP7]; · (iexists _; iexact HP7)
    isplitl [HP8]; · (iexists _; iexact HP8)
    isplitl [HP9]; · (iexists _; iexact HP9)
    isplitl [HP10]; · (iexists _; iexact HP10)
    isplitl [HP11]; · (iexists _; iexact HP11)
    isplitl [HP12]; · (iexists _; iexact HP12)
    isplitl [HP13]; · (iexists _; iexact HP13)
    (iexists _; iexact HP14)
  isplitl [Hwb0 Hwb1 Hwb2]
  · isplitl [Hwb0]; · iexists gw0; iexact Hwb0
    isplitl [Hwb1]; · iexists gw1; iexact Hwb1
    iexists gw2; iexact Hwb2
  isplitl [HxR HSp0 Hxr0 HSp1 Hxr1 HSp2 Hxr2 HSp3 Hxr3 HSp4 Hxr4 HSp5 Hxr5 HSp6 Hxr6 HSp7 Hxr7 HSp8 Hxr8 HSp9 Hxr9 HSp10 Hxr10 HSp11 Hxr11 HSp12 Hxr12 HSp13 Hxr13 HSp14 Hxr14]
  · isplitl [HxR]; · iexact HxR
    isplitl [HSp0 Hxr0]
    · isplitl [HSp0] <;> iassumption
    isplitl [HSp1 Hxr1]
    · isplitl [HSp1] <;> iassumption
    isplitl [HSp2 Hxr2]
    · isplitl [HSp2] <;> iassumption
    isplitl [HSp3 Hxr3]
    · isplitl [HSp3] <;> iassumption
    isplitl [HSp4 Hxr4]
    · isplitl [HSp4] <;> iassumption
    isplitl [HSp5 Hxr5]
    · isplitl [HSp5] <;> iassumption
    isplitl [HSp6 Hxr6]
    · isplitl [HSp6] <;> iassumption
    isplitl [HSp7 Hxr7]
    · isplitl [HSp7] <;> iassumption
    isplitl [HSp8 Hxr8]
    · isplitl [HSp8] <;> iassumption
    isplitl [HSp9 Hxr9]
    · isplitl [HSp9] <;> iassumption
    isplitl [HSp10 Hxr10]
    · isplitl [HSp10] <;> iassumption
    isplitl [HSp11 Hxr11]
    · isplitl [HSp11] <;> iassumption
    isplitl [HSp12 Hxr12]
    · isplitl [HSp12] <;> iassumption
    isplitl [HSp13 Hxr13]
    · isplitl [HSp13] <;> iassumption
    isplitl [HSp14] <;> iassumption
  isplitl [HwR Hw0 Hw1 Hw2]
  · isplitl [HwR]; · iexact HwR
    isplitl [Hw0]; · iexact Hw0
    isplitl [Hw1]; · iexact Hw1
    iexact Hw2
  isplitl [Hi0 Hi1 Hs2 Hs3 Hs4]
  · isplitl [Hi0]; · iexact Hi0
    isplitl [Hi1]; · iexact Hi1
    isplitl [Hs2]; · iexact Hs2
    isplitl [Hs3]; · iexact Hs3
    iexact Hs4
  isplitl [Hout]; · iexact Hout
  iexact HO

/-- info: 'Cert.KernelIdeal.A2A.finish' depends on axioms: [propext, Classical.choice, Quot.sound] -/
#guard_msgs in #print axioms finish

end Cert.KernelIdeal.A2A

end
-- ==== Proof.OutEq.lean ====
/-
  What the body's loads and stores amount to, whatever lay in the buffers before.

  A slot of the landing scratch that a transfer has filled, loaded at the slot's rectangle, gives the sent block
  whatever the slot held before; so the load is the one the device's result is stated over. The same for a weight slot
  that a copy has filled. The result buffer, stored whole, holds what was stored, and a load right after a store reads
  it back. So the term the run leaves in the result buffer is the device's result.
-/
import proofs.«900405_g7700000000000406_dist_a2a_gemm_m4096_k4096_n8192_f32_gelu_v7x_i16_1_alg».proof.Proof.Data
import proofs.«900405_g7700000000000406_dist_a2a_gemm_m4096_k4096_n8192_f32_gelu_v7x_i16_1_alg».proof.Proof.LibViews
import Idealize.ShloMosaic.Lib.Pipeline.FrameBody

noncomputable section

namespace Cert.KernelIdeal.A2A

open Cert.KernelIdeal Cert.KernelIdeal.Gen Cert.KernelIdeal.Mesh Cert.Views

open Idealize.ShloMosaic
open Idealize.ShloMosaic.TcCoe
open Idealize.SL Idealize.SL.Sem

variable {F : FTy → Type} [FloatOps F]
variable (m : (ℓ : Loc nD τ sig) → Buf (Elt F) ℓ)

/-- (L1) Slot `1 + i`, filled with the block sent by the device `1 + i` places back over ANY earlier contents `v`
    and loaded at the slot's rectangle, is the load the result is stated over. -/
theorem aAt_of_landed (c : Dev nD) (i : Fin 15) (v : Buf (Elt F) ((slot i).view.loc (c : Thread nD τ))) :
    (rM : Memref sig .tc .vmem S16x256x256 .f32).view.readAt (Elt F)
        (Rect.unit (s := S16x256x256) ![1 + i.val, 0, 0] S1x256x256.size (slot_inb i)).toLoadRect
        ((slot i).view.write (Elt F) v (sentBlock m (bwd c (off i)) i) Finset.univ)
      = aAt m c i :=
  (readAt_write_squeeze_slice (Val := Elt F) (rM : Memref sig .tc .vmem S16x256x256 .f32)
      (Rect.unit (s := S16x256x256) ![1 + i.val, 0, 0] S1x256x256.size (slot_inb i)) (fun _ => rfl)
      squeezes_S1x256x256_S256x256 v (sentBlock m (bwd c (off i)) i)).trans
    (readAt_write_squeeze_slice (Val := Elt F) (rM : Memref sig .tc .vmem S16x256x256 .f32)
      (Rect.unit (s := S16x256x256) ![1 + i.val, 0, 0] S1x256x256.size (slot_inb i)) (fun _ => rfl)
      squeezes_S1x256x256_S256x256 (base₀ c i) (sentBlock m (bwd c (off i)) i)).symm

/-- (L2) Weight slot `k mod 3`, filled whole with the rows of step `k` over ANY earlier contents and earlier
    writes, and loaded at the slot's rectangle, is the load the result is stated over. -/
theorem wAt_of_written (c : Dev nD) (k : Fin 16) (base : Buf (Elt F) ((wslot (wslotOf k)).view.loc (c : Thread nD τ)))
    (L : List (View.Piece (Elt F) S256x8192 .f32)) :
    (wbM : Memref sig .tc .vmem S3x256x8192 .f32).view.readAt (Elt F)
        (Rect.unit (s := S3x256x8192) ![(wslotOf k).val, 0, 0] S1x256x8192.size (wslot_inb (wslotOf k))).toLoadRect
        ((wslot (wslotOf k)).view.writes (Elt F) base
          (⟨Rect.whole S256x8192, ReadAs.same.apply ((wsrc c k).view.read (Elt F) (m ((c : Thread nD τ).loc main_arg1)))⟩ :: L))
      = wAt m c k :=
  readAt_writes_whole_eq_write (Val := Elt F) (wbM : Memref sig .tc .vmem S3x256x8192 .f32)
    (Rect.unit (s := S3x256x8192) ![(wslotOf k).val, 0, 0] S1x256x8192.size (wslot_inb (wslotOf k))) (fun _ => rfl)
    squeezes_S1x256x8192_S256x8192 base (Classical.arbitrary _) L
    ((wsrc c k).view.read (Elt F) (m ((c : Thread nD τ).loc main_arg1)))

omit [FloatOps F] in
/-- (L3) The result buffer after a list of stores whose last one stores the whole buffer holds what that store stored. -/
theorem out_writes_eq (c : Dev nD) (g1 : (cc0_stg1_0 : Ref sig .tc).ty.Contents (Elt F)) (V : S256x8192.Idx → Elt F .f32)
    (L : List (View.Piece (Elt F) S256x8192 .f32)) :
    (oM : Memref sig .tc .vmem S256x8192 .f32).view.writes (Elt F) g1
        (⟨Rect.unit (s := S256x8192) ![0, 0] S256x8192.size inb_S256x8192_S256x8192_0_0, V⟩ :: L) = V :=
  writes_unit_zero_cons (Val := Elt F) cc0_stg1_0 (funext fun a => by fin_cases a <;> rfl) inb_S256x8192_S256x8192_0_0 g1 V L

/-- A load of the result buffer at the rectangle just stored reads the stored value back. -/
theorem out_readCov (r : Rect S256x8192) (w : r.shape.Idx → Elt F .f32) (L : List (View.Piece (Elt F) S256x8192 .f32)) :
    (oM : Memref sig .tc .vmem S256x8192 .f32).view.readCov (⟨r, w⟩ :: L) r.toLoadRect = w :=
  View.readCov_cons_toLoadRect _ r w L

/-- (L4) The body's arithmetic over the loads as the run makes them — the device's own rows, each filled slot over
    whatever it held, each filled weight slot over whatever it held — is the device's result. -/
theorem out_eq (c : Dev nD) (v : (i : Fin 15) → Buf (Elt F) ((slot i).view.loc (c : Thread nD τ)))
    (b : (k : Fin 16) → Buf (Elt F) ((wslot (wslotOf k)).view.loc (c : Thread nD τ)))
    (Ls : Fin 16 → List (View.Piece (Elt F) S256x8192 .f32)) :
    outTerm
        ((xM : Memref sig .tc .vmem S4096x256 .f32).view.readAt (Elt F)
          (Rect.unit (s := S4096x256) (k0_off3 c) S256x256.size (k0_off3_inb c)).toLoadRect (xstg m c))
        (fun i => (rM : Memref sig .tc .vmem S16x256x256 .f32).view.readAt (Elt F)
          (Rect.unit (s := S16x256x256) ![1 + i.val, 0, 0] S1x256x256.size (slot_inb i)).toLoadRect
          ((slot i).view.write (Elt F) (v i) (sentBlock m (bwd c (off i)) i) Finset.univ))
        (fun k => (wbM : Memref sig .tc .vmem S3x256x8192 .f32).view.readAt (Elt F)
          (Rect.unit (s := S3x256x8192) ![(wslotOf k).val, 0, 0] S1x256x8192.size (wslot_inb (wslotOf k))).toLoadRect
          ((wslot (wslotOf k)).view.writes (Elt F) (b k)
            (⟨Rect.whole S256x8192, ReadAs.same.apply ((wsrc c k).view.read (Elt F) (m ((c : Thread nD τ).loc main_arg1)))⟩ :: Ls k)))
      = outAt m c := by
  unfold outAt
  rw [funext fun i => aAt_of_landed m c i (v i), funext fun k => wAt_of_written m c k (b k) (Ls k)]
  rfl

end Cert.KernelIdeal.A2A

end
-- ==== Proof.LibSlDelta.lean ====
/-
  A small tactic: unfold, one layer at a time, every constant whose name lies under a given prefix.

  A long symbolic computation may name its intermediate values by auxiliary definitions. To state what such a value IS,
  the names have to be replaced by their definitions; doing it one layer at a time keeps the term small, because a
  simplification between two layers can drop the parts of the term that are never read.
-/
import Lean

open Lean Elab Tactic Meta

namespace Cert.SlDelta

/-- Replace every application of a constant satisfying `p` by its definition's body applied to the same arguments,
    WITHOUT looking inside the result (one layer). -/
def deltaOnce (e : Expr) (p : Name → Bool) : MetaM Expr := do
  let env ← getEnv
  Core.transform e (pre := fun e => do
    match e.getAppFn with
    | .const n ls =>
      if p n then
        match env.find? n with
        | some info =>
          match info.value? with
          | some v => return .done ((v.instantiateLevelParams info.levelParams ls).beta e.getAppArgs)
          | none => return .continue
        | none => return .continue
      else return .continue
    | _ => return .continue)

/-- `delta_sl T.sl`: unfold one layer of every constant whose name is `….T.sl.<something>` in the goal; fails when
    the goal mentions none. -/
elab "delta_sl " pre:ident : tactic => do
  let pfx := pre.getId
  let p : Name → Bool := fun n => !n.isAtomic && pfx.isSuffixOf n.getPrefix
  let g ← getMainGoal
  let t ← instantiateMVars (← g.getType)
  let t' ← deltaOnce t p
  if t' == t then throwError "delta_sl: the goal mentions no constant under {pfx}"
  replaceMainGoal [← g.replaceTargetDefEq t']

end Cert.SlDelta
-- ==== Proof.OutLit.lean ====
/-
  The leaf facts of `OutEq` at each of the fifteen slots and sixteen steps, with every index written as a numeral.

  Nothing new is proved: each statement is the general one at a numeral, its left side written with the slot's number,
  the weight slot's number (the step modulo three) and the step's number in place of the general expressions, so that
  it can be used as a rewrite rule on terms in which those numbers are already written out.
-/
import proofs.«900405_g7700000000000406_dist_a2a_gemm_m4096_k4096_n8192_f32_gelu_v7x_i16_1_alg».proof.Proof.OutEq
import proofs.«900405_g7700000000000406_dist_a2a_gemm_m4096_k4096_n8192_f32_gelu_v7x_i16_1_alg».proof.Proof.LibSlDelta

noncomputable section

namespace Cert.KernelIdeal.A2A

open Cert.KernelIdeal Cert.KernelIdeal.Gen Cert.KernelIdeal.Mesh Cert.Views

open Idealize.ShloMosaic
open Idealize.ShloMosaic.TcCoe
open Idealize.SL Idealize.SL.Sem

variable {F : FTy → Type} [FloatOps F]
variable (m : (ℓ : Loc nD τ sig) → Buf (Elt F) ℓ)

theorem aAt_lit_0 (c : Dev nD) (v : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ))) :
    View.readAt (Elt F) (rM : Memref sig .tc .vmem S16x256x256 .f32).view
        (Rect.unit (s := S16x256x256) ![1, 0, 0] S1x256x256.size inb_S16x256x256_S1x256x256_1_0_0).toLoadRect
        (View.write (Elt F) ((rM.slice (Rect.unit (s := S16x256x256) ![1, 0, 0] S1x256x256.size inb_S16x256x256_S1x256x256_1_0_0) (fun _ => rfl)).squeeze S256x256 squeezes_S1x256x256_S256x256).view v (sentBlock m (bwd c (off 0)) 0) Finset.univ)
      = aAt m c 0 :=
  aAt_of_landed m c 0 v

theorem aAt_lit_1 (c : Dev nD) (v : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ))) :
    View.readAt (Elt F) (rM : Memref sig .tc .vmem S16x256x256 .f32).view
        (Rect.unit (s := S16x256x256) ![2, 0, 0] S1x256x256.size inb_S16x256x256_S1x256x256_2_0_0).toLoadRect
        (View.write (Elt F) ((rM.slice (Rect.unit (s := S16x256x256) ![2, 0, 0] S1x256x256.size inb_S16x256x256_S1x256x256_2_0_0) (fun _ => rfl)).squeeze S256x256 squeezes_S1x256x256_S256x256).view v (sentBlock m (bwd c (off 1)) 1) Finset.univ)
      = aAt m c 1 :=
  aAt_of_landed m c 1 v

theorem aAt_lit_2 (c : Dev nD) (v : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ))) :
    View.readAt (Elt F) (rM : Memref sig .tc .vmem S16x256x256 .f32).view
        (Rect.unit (s := S16x256x256) ![3, 0, 0] S1x256x256.size inb_S16x256x256_S1x256x256_3_0_0).toLoadRect
        (View.write (Elt F) ((rM.slice (Rect.unit (s := S16x256x256) ![3, 0, 0] S1x256x256.size inb_S16x256x256_S1x256x256_3_0_0) (fun _ => rfl)).squeeze S256x256 squeezes_S1x256x256_S256x256).view v (sentBlock m (bwd c (off 2)) 2) Finset.univ)
      = aAt m c 2 :=
  aAt_of_landed m c 2 v

theorem aAt_lit_3 (c : Dev nD) (v : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ))) :
    View.readAt (Elt F) (rM : Memref sig .tc .vmem S16x256x256 .f32).view
        (Rect.unit (s := S16x256x256) ![4, 0, 0] S1x256x256.size inb_S16x256x256_S1x256x256_4_0_0).toLoadRect
        (View.write (Elt F) ((rM.slice (Rect.unit (s := S16x256x256) ![4, 0, 0] S1x256x256.size inb_S16x256x256_S1x256x256_4_0_0) (fun _ => rfl)).squeeze S256x256 squeezes_S1x256x256_S256x256).view v (sentBlock m (bwd c (off 3)) 3) Finset.univ)
      = aAt m c 3 :=
  aAt_of_landed m c 3 v

theorem aAt_lit_4 (c : Dev nD) (v : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ))) :
    View.readAt (Elt F) (rM : Memref sig .tc .vmem S16x256x256 .f32).view
        (Rect.unit (s := S16x256x256) ![5, 0, 0] S1x256x256.size inb_S16x256x256_S1x256x256_5_0_0).toLoadRect
        (View.write (Elt F) ((rM.slice (Rect.unit (s := S16x256x256) ![5, 0, 0] S1x256x256.size inb_S16x256x256_S1x256x256_5_0_0) (fun _ => rfl)).squeeze S256x256 squeezes_S1x256x256_S256x256).view v (sentBlock m (bwd c (off 4)) 4) Finset.univ)
      = aAt m c 4 :=
  aAt_of_landed m c 4 v

theorem aAt_lit_5 (c : Dev nD) (v : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ))) :
    View.readAt (Elt F) (rM : Memref sig .tc .vmem S16x256x256 .f32).view
        (Rect.unit (s := S16x256x256) ![6, 0, 0] S1x256x256.size inb_S16x256x256_S1x256x256_6_0_0).toLoadRect
        (View.write (Elt F) ((rM.slice (Rect.unit (s := S16x256x256) ![6, 0, 0] S1x256x256.size inb_S16x256x256_S1x256x256_6_0_0) (fun _ => rfl)).squeeze S256x256 squeezes_S1x256x256_S256x256).view v (sentBlock m (bwd c (off 5)) 5) Finset.univ)
      = aAt m c 5 :=
  aAt_of_landed m c 5 v

theorem aAt_lit_6 (c : Dev nD) (v : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ))) :
    View.readAt (Elt F) (rM : Memref sig .tc .vmem S16x256x256 .f32).view
        (Rect.unit (s := S16x256x256) ![7, 0, 0] S1x256x256.size inb_S16x256x256_S1x256x256_7_0_0).toLoadRect
        (View.write (Elt F) ((rM.slice (Rect.unit (s := S16x256x256) ![7, 0, 0] S1x256x256.size inb_S16x256x256_S1x256x256_7_0_0) (fun _ => rfl)).squeeze S256x256 squeezes_S1x256x256_S256x256).view v (sentBlock m (bwd c (off 6)) 6) Finset.univ)
      = aAt m c 6 :=
  aAt_of_landed m c 6 v

theorem aAt_lit_7 (c : Dev nD) (v : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ))) :
    View.readAt (Elt F) (rM : Memref sig .tc .vmem S16x256x256 .f32).view
        (Rect.unit (s := S16x256x256) ![8, 0, 0] S1x256x256.size inb_S16x256x256_S1x256x256_8_0_0).toLoadRect
        (View.write (Elt F) ((rM.slice (Rect.unit (s := S16x256x256) ![8, 0, 0] S1x256x256.size inb_S16x256x256_S1x256x256_8_0_0) (fun _ => rfl)).squeeze S256x256 squeezes_S1x256x256_S256x256).view v (sentBlock m (bwd c (off 7)) 7) Finset.univ)
      = aAt m c 7 :=
  aAt_of_landed m c 7 v

theorem aAt_lit_8 (c : Dev nD) (v : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ))) :
    View.readAt (Elt F) (rM : Memref sig .tc .vmem S16x256x256 .f32).view
        (Rect.unit (s := S16x256x256) ![9, 0, 0] S1x256x256.size inb_S16x256x256_S1x256x256_9_0_0).toLoadRect
        (View.write (Elt F) ((rM.slice (Rect.unit (s := S16x256x256) ![9, 0, 0] S1x256x256.size inb_S16x256x256_S1x256x256_9_0_0) (fun _ => rfl)).squeeze S256x256 squeezes_S1x256x256_S256x256).view v (sentBlock m (bwd c (off 8)) 8) Finset.univ)
      = aAt m c 8 :=
  aAt_of_landed m c 8 v

theorem aAt_lit_9 (c : Dev nD) (v : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ))) :
    View.readAt (Elt F) (rM : Memref sig .tc .vmem S16x256x256 .f32).view
        (Rect.unit (s := S16x256x256) ![10, 0, 0] S1x256x256.size inb_S16x256x256_S1x256x256_10_0_0).toLoadRect
        (View.write (Elt F) ((rM.slice (Rect.unit (s := S16x256x256) ![10, 0, 0] S1x256x256.size inb_S16x256x256_S1x256x256_10_0_0) (fun _ => rfl)).squeeze S256x256 squeezes_S1x256x256_S256x256).view v (sentBlock m (bwd c (off 9)) 9) Finset.univ)
      = aAt m c 9 :=
  aAt_of_landed m c 9 v

theorem aAt_lit_10 (c : Dev nD) (v : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ))) :
    View.readAt (Elt F) (rM : Memref sig .tc .vmem S16x256x256 .f32).view
        (Rect.unit (s := S16x256x256) ![11, 0, 0] S1x256x256.size inb_S16x256x256_S1x256x256_11_0_0).toLoadRect
        (View.write (Elt F) ((rM.slice (Rect.unit (s := S16x256x256) ![11, 0, 0] S1x256x256.size inb_S16x256x256_S1x256x256_11_0_0) (fun _ => rfl)).squeeze S256x256 squeezes_S1x256x256_S256x256).view v (sentBlock m (bwd c (off 10)) 10) Finset.univ)
      = aAt m c 10 :=
  aAt_of_landed m c 10 v

theorem aAt_lit_11 (c : Dev nD) (v : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ))) :
    View.readAt (Elt F) (rM : Memref sig .tc .vmem S16x256x256 .f32).view
        (Rect.unit (s := S16x256x256) ![12, 0, 0] S1x256x256.size inb_S16x256x256_S1x256x256_12_0_0).toLoadRect
        (View.write (Elt F) ((rM.slice (Rect.unit (s := S16x256x256) ![12, 0, 0] S1x256x256.size inb_S16x256x256_S1x256x256_12_0_0) (fun _ => rfl)).squeeze S256x256 squeezes_S1x256x256_S256x256).view v (sentBlock m (bwd c (off 11)) 11) Finset.univ)
      = aAt m c 11 :=
  aAt_of_landed m c 11 v

theorem aAt_lit_12 (c : Dev nD) (v : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ))) :
    View.readAt (Elt F) (rM : Memref sig .tc .vmem S16x256x256 .f32).view
        (Rect.unit (s := S16x256x256) ![13, 0, 0] S1x256x256.size inb_S16x256x256_S1x256x256_13_0_0).toLoadRect
        (View.write (Elt F) ((rM.slice (Rect.unit (s := S16x256x256) ![13, 0, 0] S1x256x256.size inb_S16x256x256_S1x256x256_13_0_0) (fun _ => rfl)).squeeze S256x256 squeezes_S1x256x256_S256x256).view v (sentBlock m (bwd c (off 12)) 12) Finset.univ)
      = aAt m c 12 :=
  aAt_of_landed m c 12 v

theorem aAt_lit_13 (c : Dev nD) (v : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ))) :
    View.readAt (Elt F) (rM : Memref sig .tc .vmem S16x256x256 .f32).view
        (Rect.unit (s := S16x256x256) ![14, 0, 0] S1x256x256.size inb_S16x256x256_S1x256x256_14_0_0).toLoadRect
        (View.write (Elt F) ((rM.slice (Rect.unit (s := S16x256x256) ![14, 0, 0] S1x256x256.size inb_S16x256x256_S1x256x256_14_0_0) (fun _ => rfl)).squeeze S256x256 squeezes_S1x256x256_S256x256).view v (sentBlock m (bwd c (off 13)) 13) Finset.univ)
      = aAt m c 13 :=
  aAt_of_landed m c 13 v

theorem aAt_lit_14 (c : Dev nD) (v : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ))) :
    View.readAt (Elt F) (rM : Memref sig .tc .vmem S16x256x256 .f32).view
        (Rect.unit (s := S16x256x256) ![15, 0, 0] S1x256x256.size inb_S16x256x256_S1x256x256_15_0_0).toLoadRect
        (View.write (Elt F) ((rM.slice (Rect.unit (s := S16x256x256) ![15, 0, 0] S1x256x256.size inb_S16x256x256_S1x256x256_15_0_0) (fun _ => rfl)).squeeze S256x256 squeezes_S1x256x256_S256x256).view v (sentBlock m (bwd c (off 14)) 14) Finset.univ)
      = aAt m c 14 :=
  aAt_of_landed m c 14 v

theorem wAt_lit_0 (c : Dev nD) (base : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![0, 0, 0] S1x256x8192.size inb_S3x256x8192_S1x256x8192_0_0_0).toLoadRect
        (((wbM.slice (Rect.unit (s := S3x256x8192) ![0, 0, 0] S1x256x8192.size inb_S3x256x8192_S1x256x8192_0_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 0#32) S256x8192.size (k0_off1_inb c 0)) (fun _ => rfl)).view
              (m ((c : Thread nD τ).loc main_arg1)))⟩ :: L))
      = wAt m c 0 :=
  wAt_of_written m c 0 base L

theorem wAt_lit_1 (c : Dev nD) (base : Buf (Elt F) (((wbM.slice (Rect.unit (s := S3x256x8192) ![1, 0, 0] S1x256x8192.size inb_S3x256x8192_S1x256x8192_1_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![1, 0, 0] S1x256x8192.size inb_S3x256x8192_S1x256x8192_1_0_0).toLoadRect
        (((wbM.slice (Rect.unit (s := S3x256x8192) ![1, 0, 0] S1x256x8192.size inb_S3x256x8192_S1x256x8192_1_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 1#32) S256x8192.size (k0_off1_inb c 1)) (fun _ => rfl)).view
              (m ((c : Thread nD τ).loc main_arg1)))⟩ :: L))
      = wAt m c 1 :=
  wAt_of_written m c 1 base L

theorem wAt_lit_2 (c : Dev nD) (base : Buf (Elt F) (((wbM.slice (Rect.unit (s := S3x256x8192) ![2, 0, 0] S1x256x8192.size inb_S3x256x8192_S1x256x8192_2_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![2, 0, 0] S1x256x8192.size inb_S3x256x8192_S1x256x8192_2_0_0).toLoadRect
        (((wbM.slice (Rect.unit (s := S3x256x8192) ![2, 0, 0] S1x256x8192.size inb_S3x256x8192_S1x256x8192_2_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 2#32) S256x8192.size (k0_off1_inb c 2)) (fun _ => rfl)).view
              (m ((c : Thread nD τ).loc main_arg1)))⟩ :: L))
      = wAt m c 2 :=
  wAt_of_written m c 2 base L

theorem wAt_lit_3 (c : Dev nD) (base : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![0, 0, 0] S1x256x8192.size inb_S3x256x8192_S1x256x8192_0_0_0).toLoadRect
        (((wbM.slice (Rect.unit (s := S3x256x8192) ![0, 0, 0] S1x256x8192.size inb_S3x256x8192_S1x256x8192_0_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 3#32) S256x8192.size (k0_off1_inb c 3)) (fun _ => rfl)).view
              (m ((c : Thread nD τ).loc main_arg1)))⟩ :: L))
      = wAt m c 3 :=
  wAt_of_written m c 3 base L

theorem wAt_lit_4 (c : Dev nD) (base : Buf (Elt F) (((wbM.slice (Rect.unit (s := S3x256x8192) ![1, 0, 0] S1x256x8192.size inb_S3x256x8192_S1x256x8192_1_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![1, 0, 0] S1x256x8192.size inb_S3x256x8192_S1x256x8192_1_0_0).toLoadRect
        (((wbM.slice (Rect.unit (s := S3x256x8192) ![1, 0, 0] S1x256x8192.size inb_S3x256x8192_S1x256x8192_1_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 4#32) S256x8192.size (k0_off1_inb c 4)) (fun _ => rfl)).view
              (m ((c : Thread nD τ).loc main_arg1)))⟩ :: L))
      = wAt m c 4 :=
  wAt_of_written m c 4 base L

theorem wAt_lit_5 (c : Dev nD) (base : Buf (Elt F) (((wbM.slice (Rect.unit (s := S3x256x8192) ![2, 0, 0] S1x256x8192.size inb_S3x256x8192_S1x256x8192_2_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![2, 0, 0] S1x256x8192.size inb_S3x256x8192_S1x256x8192_2_0_0).toLoadRect
        (((wbM.slice (Rect.unit (s := S3x256x8192) ![2, 0, 0] S1x256x8192.size inb_S3x256x8192_S1x256x8192_2_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 5#32) S256x8192.size (k0_off1_inb c 5)) (fun _ => rfl)).view
              (m ((c : Thread nD τ).loc main_arg1)))⟩ :: L))
      = wAt m c 5 :=
  wAt_of_written m c 5 base L

theorem wAt_lit_6 (c : Dev nD) (base : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![0, 0, 0] S1x256x8192.size inb_S3x256x8192_S1x256x8192_0_0_0).toLoadRect
        (((wbM.slice (Rect.unit (s := S3x256x8192) ![0, 0, 0] S1x256x8192.size inb_S3x256x8192_S1x256x8192_0_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 6#32) S256x8192.size (k0_off1_inb c 6)) (fun _ => rfl)).view
              (m ((c : Thread nD τ).loc main_arg1)))⟩ :: L))
      = wAt m c 6 :=
  wAt_of_written m c 6 base L

theorem wAt_lit_7 (c : Dev nD) (base : Buf (Elt F) (((wbM.slice (Rect.unit (s := S3x256x8192) ![1, 0, 0] S1x256x8192.size inb_S3x256x8192_S1x256x8192_1_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![1, 0, 0] S1x256x8192.size inb_S3x256x8192_S1x256x8192_1_0_0).toLoadRect
        (((wbM.slice (Rect.unit (s := S3x256x8192) ![1, 0, 0] S1x256x8192.size inb_S3x256x8192_S1x256x8192_1_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 7#32) S256x8192.size (k0_off1_inb c 7)) (fun _ => rfl)).view
              (m ((c : Thread nD τ).loc main_arg1)))⟩ :: L))
      = wAt m c 7 :=
  wAt_of_written m c 7 base L

theorem wAt_lit_8 (c : Dev nD) (base : Buf (Elt F) (((wbM.slice (Rect.unit (s := S3x256x8192) ![2, 0, 0] S1x256x8192.size inb_S3x256x8192_S1x256x8192_2_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![2, 0, 0] S1x256x8192.size inb_S3x256x8192_S1x256x8192_2_0_0).toLoadRect
        (((wbM.slice (Rect.unit (s := S3x256x8192) ![2, 0, 0] S1x256x8192.size inb_S3x256x8192_S1x256x8192_2_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 8#32) S256x8192.size (k0_off1_inb c 8)) (fun _ => rfl)).view
              (m ((c : Thread nD τ).loc main_arg1)))⟩ :: L))
      = wAt m c 8 :=
  wAt_of_written m c 8 base L

theorem wAt_lit_9 (c : Dev nD) (base : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![0, 0, 0] S1x256x8192.size inb_S3x256x8192_S1x256x8192_0_0_0).toLoadRect
        (((wbM.slice (Rect.unit (s := S3x256x8192) ![0, 0, 0] S1x256x8192.size inb_S3x256x8192_S1x256x8192_0_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 9#32) S256x8192.size (k0_off1_inb c 9)) (fun _ => rfl)).view
              (m ((c : Thread nD τ).loc main_arg1)))⟩ :: L))
      = wAt m c 9 :=
  wAt_of_written m c 9 base L

theorem wAt_lit_10 (c : Dev nD) (base : Buf (Elt F) (((wbM.slice (Rect.unit (s := S3x256x8192) ![1, 0, 0] S1x256x8192.size inb_S3x256x8192_S1x256x8192_1_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![1, 0, 0] S1x256x8192.size inb_S3x256x8192_S1x256x8192_1_0_0).toLoadRect
        (((wbM.slice (Rect.unit (s := S3x256x8192) ![1, 0, 0] S1x256x8192.size inb_S3x256x8192_S1x256x8192_1_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 10#32) S256x8192.size (k0_off1_inb c 10)) (fun _ => rfl)).view
              (m ((c : Thread nD τ).loc main_arg1)))⟩ :: L))
      = wAt m c 10 :=
  wAt_of_written m c 10 base L

theorem wAt_lit_11 (c : Dev nD) (base : Buf (Elt F) (((wbM.slice (Rect.unit (s := S3x256x8192) ![2, 0, 0] S1x256x8192.size inb_S3x256x8192_S1x256x8192_2_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![2, 0, 0] S1x256x8192.size inb_S3x256x8192_S1x256x8192_2_0_0).toLoadRect
        (((wbM.slice (Rect.unit (s := S3x256x8192) ![2, 0, 0] S1x256x8192.size inb_S3x256x8192_S1x256x8192_2_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 11#32) S256x8192.size (k0_off1_inb c 11)) (fun _ => rfl)).view
              (m ((c : Thread nD τ).loc main_arg1)))⟩ :: L))
      = wAt m c 11 :=
  wAt_of_written m c 11 base L

theorem wAt_lit_12 (c : Dev nD) (base : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![0, 0, 0] S1x256x8192.size inb_S3x256x8192_S1x256x8192_0_0_0).toLoadRect
        (((wbM.slice (Rect.unit (s := S3x256x8192) ![0, 0, 0] S1x256x8192.size inb_S3x256x8192_S1x256x8192_0_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 12#32) S256x8192.size (k0_off1_inb c 12)) (fun _ => rfl)).view
              (m ((c : Thread nD τ).loc main_arg1)))⟩ :: L))
      = wAt m c 12 :=
  wAt_of_written m c 12 base L

theorem wAt_lit_13 (c : Dev nD) (base : Buf (Elt F) (((wbM.slice (Rect.unit (s := S3x256x8192) ![1, 0, 0] S1x256x8192.size inb_S3x256x8192_S1x256x8192_1_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![1, 0, 0] S1x256x8192.size inb_S3x256x8192_S1x256x8192_1_0_0).toLoadRect
        (((wbM.slice (Rect.unit (s := S3x256x8192) ![1, 0, 0] S1x256x8192.size inb_S3x256x8192_S1x256x8192_1_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 13#32) S256x8192.size (k0_off1_inb c 13)) (fun _ => rfl)).view
              (m ((c : Thread nD τ).loc main_arg1)))⟩ :: L))
      = wAt m c 13 :=
  wAt_of_written m c 13 base L

theorem wAt_lit_14 (c : Dev nD) (base : Buf (Elt F) (((wbM.slice (Rect.unit (s := S3x256x8192) ![2, 0, 0] S1x256x8192.size inb_S3x256x8192_S1x256x8192_2_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![2, 0, 0] S1x256x8192.size inb_S3x256x8192_S1x256x8192_2_0_0).toLoadRect
        (((wbM.slice (Rect.unit (s := S3x256x8192) ![2, 0, 0] S1x256x8192.size inb_S3x256x8192_S1x256x8192_2_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 14#32) S256x8192.size (k0_off1_inb c 14)) (fun _ => rfl)).view
              (m ((c : Thread nD τ).loc main_arg1)))⟩ :: L))
      = wAt m c 14 :=
  wAt_of_written m c 14 base L

theorem wAt_lit_15 (c : Dev nD) (base : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![0, 0, 0] S1x256x8192.size inb_S3x256x8192_S1x256x8192_0_0_0).toLoadRect
        (((wbM.slice (Rect.unit (s := S3x256x8192) ![0, 0, 0] S1x256x8192.size inb_S3x256x8192_S1x256x8192_0_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 15#32) S256x8192.size (k0_off1_inb c 15)) (fun _ => rfl)).view
              (m ((c : Thread nD τ).loc main_arg1)))⟩ :: L))
      = wAt m c 15 :=
  wAt_of_written m c 15 base L

end Cert.KernelIdeal.A2A

end
-- ==== Proof.Body.lean ====
/-
  One device's body of the sixteen-device all-to-all product.

  Device `c` starts three copies of weight rows into its three weight slots; tells each of the other fifteen devices,
  on their barrier cells, that its landing slots exist, and waits for the fifteen units that say the same of them; sends,
  for every offset `e = 1 … 15`, the 256 rows of its column block that the device `e` places forward multiplies into that
  device's slot `e`; then, for `k = 0 … 15`, waits for the weight rows of step `k` and (for `k ≥ 1`) for the landing of
  slot `k`, multiplies the 256 × 256 block by the 256 × 8192 weight rows, adds the product to the result, and starts the
  copy of the weight rows of step `k + 3` into the slot just read; applies the activation to the accumulated result; and
  waits until the fifteen slabs it sent have been read.

  The statement: from what the device holds at entry (its buffers cut into the pieces the steps use, its cells' ghost
  state, what it owes) the body runs to its end, leaving the result's staging buffer at the composed arithmetic of the
  sixteen steps applied to the blocks as they were sent and the weight rows as they were copied, every own cell consumed
  once, every buffer whole again and nothing owed.
-/
import proofs.«900405_g7700000000000406_dist_a2a_gemm_m4096_k4096_n8192_f32_gelu_v7x_i16_1_alg».proof.Proof.Tables
import proofs.«900405_g7700000000000406_dist_a2a_gemm_m4096_k4096_n8192_f32_gelu_v7x_i16_1_alg».proof.Proof.BodyCtx
import proofs.«900405_g7700000000000406_dist_a2a_gemm_m4096_k4096_n8192_f32_gelu_v7x_i16_1_alg».proof.Proof.BodyFinish
import proofs.«900405_g7700000000000406_dist_a2a_gemm_m4096_k4096_n8192_f32_gelu_v7x_i16_1_alg».proof.Proof.OutLit

noncomputable section

namespace Cert.KernelIdeal.A2A

open Cert.KernelIdeal Cert.KernelIdeal.Gen Cert.KernelIdeal.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SlDelta Cert.Views

variable {F : FTy → Type} [FloatOps F]

local notation "𝕄" => MT nD τ sig Unit (Elt F) ℕ UU ℕ

variable (m : (ℓ : Loc nD τ sig) → Buf (Elt F) ℓ) (ρ : Dev nD → PrngReg)

attribute [local irreducible] fwd k0_off1 k0_off2 k0_off3 xShare

set_option sl_exec.stepHeartbeats 400000 in
set_option maxHeartbeats 8000000 in
set_option maxRecDepth 65536 in
theorem sound_body (c : Dev nD) (K : Dev nD × CK → ℕ) (W : Waits sig Unit)
    (g1 : Buf (Elt F) ((oM : Memref sig .tc .vmem S256x8192 .f32).view.loc (c : Thread nD τ)))
    (fw : Buf (Elt F) ((wbM : Memref sig .tc .vmem S3x256x8192 .f32).view.loc (c : Thread nD τ)))
    (fs0 : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ))) (fs1 : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ))) (fs2 : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ))) (fs3 : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ))) (fs4 : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ))) (fs5 : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ))) (fs6 : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ))) (fs7 : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ))) (fs8 : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ))) (fs9 : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ))) (fs10 : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ))) (fs11 : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ))) (fs12 : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ))) (fs13 : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ))) (fs14 : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ))) (f0 : Buf (Elt F) ((c : Thread nD τ).loc cc0_scratch0)) :
    bodyCtx m c K W g1 fw fs0 fs1 fs2 fs3 fs4 fs5 fs6 fs7 fs8 fs9 fs10 fs11 fs12 fs13 fs14 f0
      ⊢ wp frame (wpE (defs₀ (F := F)) Variants.none (c : Thread nD τ) none) Set.univ
          (cc0_body xM (Memref.isWhole_whole _) wM (Memref.isWhole_whole _) oM (Memref.isWhole_whole _)
            rM (Memref.isWhole_whole _) wbM (Memref.isWhole_whole _) cc0_scratch2 cc0_scratch3 cc0_scratch4)
          (fun _ => iprop(Φ₁ m c ∗ (dats m ρ 0 c).owesAt () t0_0.succ ∗ stg c cc0_stg0_0 (xstg m c) ∗ stg c cc0_stg1_0 (outAt m c))) := by
  unfold bodyCtx
  iintro ⟨HxR, Hx0, Hx1, Hx2, Hx3, Hx4, Hx5, Hx6, Hx7, Hx8, Hx9, Hx10, Hx11, Hx12, Hx13, Hx14, Hxr0, Hxr1, Hxr2, Hxr3, Hxr4, Hxr5, Hxr6, Hxr7, Hxr8, Hxr9, Hxr10, Hxr11, Hxr12, Hxr13, Hxr14, HwR, Hw0, Hw1, Hw2, Hout, Hsl14, Hsl13, Hsl12, Hsl11, Hsl10, Hsl9, Hsl8, Hsl7, Hsl6, Hsl5, Hsl4, Hsl3, Hsl2, Hsl1, Hsl0, Hwb0, Hwb1, Hwb2, Hs2, Hs3, Hs4, #HIbar, #HIs0, #HIs1, #HIs2, #HIs3, #HIs4, #HIs5, #HIs6, #HIs7, #HIs8, #HIs9, #HIs10, #HIs11, #HIs12, #HIs13, #HIs14, #HIr0, #HIr1, #HIr2, #HIr3, #HIr4, #HIr5, #HIr6, #HIr7, #HIr8, #HIr9, #HIr10, #HIr11, #HIr12, #HIr13, #HIr14, #HIb0, #HIb1, #HIb2, #HIb3, #HIb4, #HIb5, #HIb6, #HIb7, #HIb8, #HIb9, #HIb10, #HIb11, #HIb12, #HIb13, #HIb14, #HIv0, #HIv1, #HIv2, #HIv3, #HIv4, #HIv5, #HIv6, #HIv7, #HIv8, #HIv9, #HIv10, #HIv11, #HIv12, #HIv13, #HIv14, HatB, HatS0, HatS1, HatS2, HatS3, HatS4, HatS5, HatS6, HatS7, HatS8, HatS9, HatS10, HatS11, HatS12, HatS13, HatS14, HatV0, HatV1, HatV2, HatV3, HatV4, HatV5, HatV6, HatV7, HatV8, HatV9, HatV10, HatV11, HatV12, HatV13, HatV14, #HrB0, #HrB1, #HrB2, #HrB3, #HrB4, #HrB5, #HrB6, #HrB7, #HrB8, #HrB9, #HrB10, #HrB11, #HrB12, #HrB13, #HrB14, #HrV0, #HrV1, #HrV2, #HrV3, #HrV4, #HrV5, #HrV6, #HrV7, #HrV8, #HrV9, #HrV10, #HrV11, #HrV12, #HrV13, #HrV14, #HrS0, #HrS1, #HrS2, #HrS3, #HrS4, #HrS5, #HrS6, #HrS7, #HrS8, #HrS9, #HrS10, #HrS11, #HrS12, #HrS13, #HrS14, #HrO0, #HrO1, #HrO2, #HrO3, #HrO4, #HrO5, #HrO6, #HrO7, #HrO8, #HrO9, #HrO10, #HrO11, #HrO12, #HrO13, #HrO14, HtB0, HtB1, HtB2, HtB3, HtB4, HtB5, HtB6, HtB7, HtB8, HtB9, HtB10, HtB11, HtB12, HtB13, HtB14, HtV0, HtV1, HtV2, HtV3, HtV4, HtV5, HtV6, HtV7, HtV8, HtV9, HtV10, HtV11, HtV12, HtV13, HtV14, HtS0, HtS1, HtS2, HtS3, HtS4, HtS5, HtS6, HtS7, HtS8, HtS9, HtS10, HtS11, HtS12, HtS13, HtS14, HcB, HcV0, HcV1, HcV2, HcV3, HcV4, HcV5, HcV6, HcV7, HcV8, HcV9, HcV10, HcV11, HcV12, HcV13, HcV14, #Hlev, HO, HS0, Hi0, Hi1⟩
  have hmw : (levAts L lv : sProp 𝕄) ⊢ MayWait (c : Thread nD τ) (.reg barS) () (tallyAt (recvCell (fwd c 15) 14) () N + tallyAt (recvCell (fwd c 14) 13) () N + tallyAt (recvCell (fwd c 13) 12) () N + tallyAt (recvCell (fwd c 12) 11) () N + tallyAt (recvCell (fwd c 11) 10) () N + tallyAt (recvCell (fwd c 10) 9) () N + tallyAt (recvCell (fwd c 9) 8) () N + tallyAt (recvCell (fwd c 8) 7) () N + tallyAt (recvCell (fwd c 7) 6) () N + tallyAt (recvCell (fwd c 6) 5) () N + tallyAt (recvCell (fwd c 5) 4) () N + tallyAt (recvCell (fwd c 4) 3) () N + tallyAt (recvCell (fwd c 3) 2) () N + tallyAt (recvCell (fwd c 2) 1) () N + tallyAt (recvCell (fwd c 1) 0) () N) := mayWait_bar (F := F) c
  sl_unfold [cc0_body]
  sl_exec_parts
  ihave Hpay := (as_sep15 rfl) $$ HatB_pay1
  icases Hpay with ⟨⟨⟨%fp0, Hp0⟩, -⟩, ⟨⟨%fp1, Hp1⟩, -⟩, ⟨⟨%fp2, Hp2⟩, -⟩, ⟨⟨%fp3, Hp3⟩, -⟩, ⟨⟨%fp4, Hp4⟩, -⟩, ⟨⟨%fp5, Hp5⟩, -⟩, ⟨⟨%fp6, Hp6⟩, -⟩, ⟨⟨%fp7, Hp7⟩, -⟩, ⟨⟨%fp8, Hp8⟩, -⟩, ⟨⟨%fp9, Hp9⟩, -⟩, ⟨⟨%fp10, Hp10⟩, -⟩, ⟨⟨%fp11, Hp11⟩, -⟩, ⟨⟨%fp12, Hp12⟩, -⟩, ⟨⟨%fp13, Hp13⟩, -⟩, ⟨⟨%fp14, Hp14⟩, -⟩⟩
  sl_exec_parts (disch := simp only [dev16_c, dev17_c, dev18_c, dev19_c, dev20_c, dev21_c, dev22_c, dev23_c, dev24_c, dev25_c, dev26_c, dev27_c, dev28_c, dev29_c, dev30_c])
  first | (icases HatV0_pay1 with ⟨%HatV0_pay1_v, HatV0_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV1_pay1 with ⟨%HatV1_pay1_v, HatV1_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV2_pay1 with ⟨%HatV2_pay1_v, HatV2_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV3_pay1 with ⟨%HatV3_pay1_v, HatV3_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV4_pay1 with ⟨%HatV4_pay1_v, HatV4_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV5_pay1 with ⟨%HatV5_pay1_v, HatV5_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV6_pay1 with ⟨%HatV6_pay1_v, HatV6_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV7_pay1 with ⟨%HatV7_pay1_v, HatV7_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV8_pay1 with ⟨%HatV8_pay1_v, HatV8_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV9_pay1 with ⟨%HatV9_pay1_v, HatV9_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV10_pay1 with ⟨%HatV10_pay1_v, HatV10_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV11_pay1 with ⟨%HatV11_pay1_v, HatV11_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV12_pay1 with ⟨%HatV12_pay1_v, HatV12_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV13_pay1 with ⟨%HatV13_pay1_v, HatV13_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV14_pay1 with ⟨%HatV14_pay1_v, HatV14_pay1⟩; sl_exec (disch := simp only [dev16_c, dev17_c, dev18_c, dev19_c, dev20_c, dev21_c, dev22_c, dev23_c, dev24_c, dev25_c, dev26_c, dev27_c, dev28_c, dev29_c, dev30_c])) | skip
  ihave Hx0_cred := (Entails.of_eq (cred_N (sendCell c 0))) $$ Hx0_cred
  ihave Hx1_cred := (Entails.of_eq (cred_N (sendCell c 1))) $$ Hx1_cred
  ihave Hx2_cred := (Entails.of_eq (cred_N (sendCell c 2))) $$ Hx2_cred
  ihave Hx3_cred := (Entails.of_eq (cred_N (sendCell c 3))) $$ Hx3_cred
  ihave Hx4_cred := (Entails.of_eq (cred_N (sendCell c 4))) $$ Hx4_cred
  ihave Hx5_cred := (Entails.of_eq (cred_N (sendCell c 5))) $$ Hx5_cred
  ihave Hx6_cred := (Entails.of_eq (cred_N (sendCell c 6))) $$ Hx6_cred
  ihave Hx7_cred := (Entails.of_eq (cred_N (sendCell c 7))) $$ Hx7_cred
  ihave Hx8_cred := (Entails.of_eq (cred_N (sendCell c 8))) $$ Hx8_cred
  ihave Hx9_cred := (Entails.of_eq (cred_N (sendCell c 9))) $$ Hx9_cred
  ihave Hx10_cred := (Entails.of_eq (cred_N (sendCell c 10))) $$ Hx10_cred
  ihave Hx11_cred := (Entails.of_eq (cred_N (sendCell c 11))) $$ Hx11_cred
  ihave Hx12_cred := (Entails.of_eq (cred_N (sendCell c 12))) $$ Hx12_cred
  ihave Hx13_cred := (Entails.of_eq (cred_N (sendCell c 13))) $$ Hx13_cred
  ihave Hx14_cred := (Entails.of_eq (cred_N (sendCell c 14))) $$ Hx14_cred
  sl_exec (disch := simp only [dev16_c, dev17_c, dev18_c, dev19_c, dev20_c, dev21_c, dev22_c, dev23_c, dev24_c, dev25_c, dev26_c, dev27_c, dev28_c, dev29_c, dev30_c])

  -- the result's buffer holds the composed arithmetic of the sixteen steps and the activation
  have hG : (oM : Memref sig .tc .vmem S256x8192 .f32).view.writes (Elt F) g1
      (⟨Rect.unit (s := S256x8192) ![0, 0] S256x8192.size inb_S256x8192_S256x8192_0_0,
          k0_pay21 (sound_body.sl.v1114 m c HatV0_pay1_v HatV1_pay1_v HatV2_pay1_v HatV3_pay1_v HatV4_pay1_v HatV5_pay1_v HatV6_pay1_v HatV7_pay1_v HatV8_pay1_v HatV9_pay1_v HatV10_pay1_v HatV11_pay1_v HatV12_pay1_v HatV13_pay1_v HatV14_pay1_v)⟩ ::
        sound_body.sl.Hout_16 m c HatV0_pay1_v HatV1_pay1_v HatV2_pay1_v HatV3_pay1_v HatV4_pay1_v HatV5_pay1_v HatV6_pay1_v HatV7_pay1_v HatV8_pay1_v HatV9_pay1_v HatV10_pay1_v HatV11_pay1_v HatV12_pay1_v HatV13_pay1_v HatV14_pay1_v) = outAt m c := by
    refine (out_writes_eq c g1 _ _).trans ?_
    repeat (first | rw [out_readCov] | rw [aAt_lit_0 m c] | rw [aAt_lit_1 m c] | rw [aAt_lit_2 m c] | rw [aAt_lit_3 m c] | rw [aAt_lit_4 m c] | rw [aAt_lit_5 m c] | rw [aAt_lit_6 m c] | rw [aAt_lit_7 m c] | rw [aAt_lit_8 m c] | rw [aAt_lit_9 m c] | rw [aAt_lit_10 m c] | rw [aAt_lit_11 m c] | rw [aAt_lit_12 m c] | rw [aAt_lit_13 m c] | rw [aAt_lit_14 m c] | rw [wAt_lit_0 m c] | rw [wAt_lit_1 m c] | rw [wAt_lit_2 m c] | rw [wAt_lit_3 m c] | rw [wAt_lit_4 m c] | rw [wAt_lit_5 m c] | rw [wAt_lit_6 m c] | rw [wAt_lit_7 m c] | rw [wAt_lit_8 m c] | rw [wAt_lit_9 m c] | rw [wAt_lit_10 m c] | rw [wAt_lit_11 m c] | rw [wAt_lit_12 m c] | rw [wAt_lit_13 m c] | rw [wAt_lit_14 m c] | rw [wAt_lit_15 m c] | delta_sl sound_body.sl)
    rfl
  rw [wp_ret]
  iapply (finish m ρ K c _ f0 HatV0_pay1_v HatV1_pay1_v HatV2_pay1_v HatV3_pay1_v HatV4_pay1_v HatV5_pay1_v HatV6_pay1_v HatV7_pay1_v HatV8_pay1_v HatV9_pay1_v HatV10_pay1_v HatV11_pay1_v HatV12_pay1_v HatV13_pay1_v HatV14_pay1_v _ _ _ _ hG) $$ [HatS0 HatS1 HatS2 HatS3 HatS4 HatS5 HatS6 HatS7 HatS8 HatS9 HatS10 HatS11 HatS12 HatS13 HatS14 HatV0 HatV1 HatV2 HatV3 HatV4 HatV5 HatV6 HatV7 HatV8 HatV9 HatV10 HatV11 HatV12 HatV13 HatV14 HS0 HatV0_pay1 HatV1_pay1 HatV2_pay1 HatV3_pay1 HatV4_pay1 HatV5_pay1 HatV6_pay1 HatV7_pay1 HatV8_pay1 HatV9_pay1 HatV10_pay1 HatV11_pay1 HatV12_pay1 HatV13_pay1 HatV14_pay1 Hwb0 Hwb1 Hwb2 HxR HatS0_pay1 Hxr0 HatS1_pay1 Hxr1 HatS2_pay1 Hxr2 HatS3_pay1 Hxr3 HatS4_pay1 Hxr4 HatS5_pay1 Hxr5 HatS6_pay1 Hxr6 HatS7_pay1 Hxr7 HatS8_pay1 Hxr8 HatS9_pay1 Hxr9 HatS10_pay1 Hxr10 HatS11_pay1 Hxr11 HatS12_pay1 Hxr12 HatS13_pay1 Hxr13 HatS14_pay1 Hxr14 HwR Hw0 Hw1 Hw2 Hi0 Hi1 Hs2 Hs3 Hs4 Hout HO]
  isplitr; · iexact HIs0
  isplitr; · iexact HIs1
  isplitr; · iexact HIs2
  isplitr; · iexact HIs3
  isplitr; · iexact HIs4
  isplitr; · iexact HIs5
  isplitr; · iexact HIs6
  isplitr; · iexact HIs7
  isplitr; · iexact HIs8
  isplitr; · iexact HIs9
  isplitr; · iexact HIs10
  isplitr; · iexact HIs11
  isplitr; · iexact HIs12
  isplitr; · iexact HIs13
  isplitr; · iexact HIs14
  isplitr; · iexact HIr0
  isplitr; · iexact HIr1
  isplitr; · iexact HIr2
  isplitr; · iexact HIr3
  isplitr; · iexact HIr4
  isplitr; · iexact HIr5
  isplitr; · iexact HIr6
  isplitr; · iexact HIr7
  isplitr; · iexact HIr8
  isplitr; · iexact HIr9
  isplitr; · iexact HIr10
  isplitr; · iexact HIr11
  isplitr; · iexact HIr12
  isplitr; · iexact HIr13
  isplitr; · iexact HIr14
  isplitl [HatS0]; · iexact HatS0
  isplitl [HatS1]; · iexact HatS1
  isplitl [HatS2]; · iexact HatS2
  isplitl [HatS3]; · iexact HatS3
  isplitl [HatS4]; · iexact HatS4
  isplitl [HatS5]; · iexact HatS5
  isplitl [HatS6]; · iexact HatS6
  isplitl [HatS7]; · iexact HatS7
  isplitl [HatS8]; · iexact HatS8
  isplitl [HatS9]; · iexact HatS9
  isplitl [HatS10]; · iexact HatS10
  isplitl [HatS11]; · iexact HatS11
  isplitl [HatS12]; · iexact HatS12
  isplitl [HatS13]; · iexact HatS13
  isplitl [HatS14]; · iexact HatS14
  isplitl [HatV0]; · iexact HatV0
  isplitl [HatV1]; · iexact HatV1
  isplitl [HatV2]; · iexact HatV2
  isplitl [HatV3]; · iexact HatV3
  isplitl [HatV4]; · iexact HatV4
  isplitl [HatV5]; · iexact HatV5
  isplitl [HatV6]; · iexact HatV6
  isplitl [HatV7]; · iexact HatV7
  isplitl [HatV8]; · iexact HatV8
  isplitl [HatV9]; · iexact HatV9
  isplitl [HatV10]; · iexact HatV10
  isplitl [HatV11]; · iexact HatV11
  isplitl [HatV12]; · iexact HatV12
  isplitl [HatV13]; · iexact HatV13
  isplitl [HatV14]; · iexact HatV14
  isplitl [HS0]; · iexact HS0
  isplitl [HatV0_pay1]; · iexact HatV0_pay1
  isplitl [HatV1_pay1]; · iexact HatV1_pay1
  isplitl [HatV2_pay1]; · iexact HatV2_pay1
  isplitl [HatV3_pay1]; · iexact HatV3_pay1
  isplitl [HatV4_pay1]; · iexact HatV4_pay1
  isplitl [HatV5_pay1]; · iexact HatV5_pay1
  isplitl [HatV6_pay1]; · iexact HatV6_pay1
  isplitl [HatV7_pay1]; · iexact HatV7_pay1
  isplitl [HatV8_pay1]; · iexact HatV8_pay1
  isplitl [HatV9_pay1]; · iexact HatV9_pay1
  isplitl [HatV10_pay1]; · iexact HatV10_pay1
  isplitl [HatV11_pay1]; · iexact HatV11_pay1
  isplitl [HatV12_pay1]; · iexact HatV12_pay1
  isplitl [HatV13_pay1]; · iexact HatV13_pay1
  isplitl [HatV14_pay1]; · iexact HatV14_pay1
  isplitl [Hwb0]; · iexact Hwb0
  isplitl [Hwb1]; · iexact Hwb1
  isplitl [Hwb2]; · iexact Hwb2
  isplitl [HxR]; · iexact HxR
  isplitl [HatS0_pay1]; · iexact HatS0_pay1
  isplitl [Hxr0]; · iexact Hxr0
  isplitl [HatS1_pay1]; · iexact HatS1_pay1
  isplitl [Hxr1]; · iexact Hxr1
  isplitl [HatS2_pay1]; · iexact HatS2_pay1
  isplitl [Hxr2]; · iexact Hxr2
  isplitl [HatS3_pay1]; · iexact HatS3_pay1
  isplitl [Hxr3]; · iexact Hxr3
  isplitl [HatS4_pay1]; · iexact HatS4_pay1
  isplitl [Hxr4]; · iexact Hxr4
  isplitl [HatS5_pay1]; · iexact HatS5_pay1
  isplitl [Hxr5]; · iexact Hxr5
  isplitl [HatS6_pay1]; · iexact HatS6_pay1
  isplitl [Hxr6]; · iexact Hxr6
  isplitl [HatS7_pay1]; · iexact HatS7_pay1
  isplitl [Hxr7]; · iexact Hxr7
  isplitl [HatS8_pay1]; · iexact HatS8_pay1
  isplitl [Hxr8]; · iexact Hxr8
  isplitl [HatS9_pay1]; · iexact HatS9_pay1
  isplitl [Hxr9]; · iexact Hxr9
  isplitl [HatS10_pay1]; · iexact HatS10_pay1
  isplitl [Hxr10]; · iexact Hxr10
  isplitl [HatS11_pay1]; · iexact HatS11_pay1
  isplitl [Hxr11]; · iexact Hxr11
  isplitl [HatS12_pay1]; · iexact HatS12_pay1
  isplitl [Hxr12]; · iexact Hxr12
  isplitl [HatS13_pay1]; · iexact HatS13_pay1
  isplitl [Hxr13]; · iexact Hxr13
  isplitl [HatS14_pay1]; · iexact HatS14_pay1
  isplitl [Hxr14]; · iexact Hxr14
  isplitl [HwR]; · iexact HwR
  isplitl [Hw0]; · iexact Hw0
  isplitl [Hw1]; · iexact Hw1
  isplitl [Hw2]; · iexact Hw2
  isplitl [Hi0]; · iexact Hi0
  isplitl [Hi1]; · iexact Hi1
  isplitl [Hs2]; · iexact Hs2
  isplitl [Hs3]; · iexact Hs3
  isplitl [Hs4]; · iexact Hs4
  isplitl [Hout]; · iexact Hout
  iexact HO

end Cert.KernelIdeal.A2A

end
-- ==== Proof.Bits.Tables.lean ====
/-
  The schedule's tables at numeral offsets, in the spelling the kernel's text uses.

  Every slot of the landing scratch, every slab of the staged column block and every peer is written here at its numeral:
  slot `e` is the block at offset `[e, 0, 0]` of the scratch, the slab of transfer `r` the rows at the printed offset of
  word `1 + r`, the peer `e` places forward `fwd c e`.  Seen from the device that PAYS a duty the payloads are resolved:
  the barrier unit signal `j` pays hands over the payer's own slot `15 - j`; the landing of transfer `r` on the device
  `1 + r` places forward writes the payer's own rows.
-/
import proofs.«900405_g7700000000000406_dist_a2a_gemm_m4096_k4096_n8192_f32_gelu_v7x_i16_1_alg».proof.Proof.Bits.Levels

noncomputable section

namespace Cert.Kernel.A2A

open Cert.Kernel Cert.Kernel.Gen Cert.Kernel.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's device words are the peers -/

@[sl_canon] theorem dev1_c (c : Dev nD) : (⟨k0_dev1 c, k0_dev1_lt c⟩ : Dev nD) = fwd c 1 := dev1_eq c
@[sl_canon] theorem dev2_c (c : Dev nD) : (⟨k0_dev2 c, k0_dev2_lt c⟩ : Dev nD) = fwd c 2 := dev2_eq c
@[sl_canon] theorem dev3_c (c : Dev nD) : (⟨k0_dev3 c, k0_dev3_lt c⟩ : Dev nD) = fwd c 3 := dev3_eq c
@[sl_canon] theorem dev4_c (c : Dev nD) : (⟨k0_dev4 c, k0_dev4_lt c⟩ : Dev nD) = fwd c 4 := dev4_eq c
@[sl_canon] theorem dev5_c (c : Dev nD) : (⟨k0_dev5 c, k0_dev5_lt c⟩ : Dev nD) = fwd c 5 := dev5_eq c
@[sl_canon] theorem dev6_c (c : Dev nD) : (⟨k0_dev6 c, k0_dev6_lt c⟩ : Dev nD) = fwd c 6 := dev6_eq c
@[sl_canon] theorem dev7_c (c : Dev nD) : (⟨k0_dev7 c, k0_dev7_lt c⟩ : Dev nD) = fwd c 7 := dev7_eq c
@[sl_canon] theorem dev8_c (c : Dev nD) : (⟨k0_dev8 c, k0_dev8_lt c⟩ : Dev nD) = fwd c 8 := dev8_eq c
@[sl_canon] theorem dev9_c (c : Dev nD) : (⟨k0_dev9 c, k0_dev9_lt c⟩ : Dev nD) = fwd c 9 := dev9_eq c
@[sl_canon] theorem dev10_c (c : Dev nD) : (⟨k0_dev10 c, k0_dev10_lt c⟩ : Dev nD) = fwd c 10 := dev10_eq c
@[sl_canon] theorem dev11_c (c : Dev nD) : (⟨k0_dev11 c, k0_dev11_lt c⟩ : Dev nD) = fwd c 11 := dev11_eq c
@[sl_canon] theorem dev12_c (c : Dev nD) : (⟨k0_dev12 c, k0_dev12_lt c⟩ : Dev nD) = fwd c 12 := dev12_eq c
@[sl_canon] theorem dev13_c (c : Dev nD) : (⟨k0_dev13 c, k0_dev13_lt c⟩ : Dev nD) = fwd c 13 := dev13_eq c
@[sl_canon] theorem dev14_c (c : Dev nD) : (⟨k0_dev14 c, k0_dev14_lt c⟩ : Dev nD) = fwd c 14 := dev14_eq c
@[sl_canon] theorem dev15_c (c : Dev nD) : (⟨k0_dev15 c, k0_dev15_lt c⟩ : Dev nD) = fwd c 15 := dev15_eq c
@[sl_canon] theorem dev16_c (c : Dev nD) : (⟨k0_dev16 c, k0_dev16_lt c⟩ : Dev nD) = fwd c 1 := dev16_eq c
@[sl_canon] theorem dev17_c (c : Dev nD) : (⟨k0_dev17 c, k0_dev17_lt c⟩ : Dev nD) = fwd c 2 := dev17_eq c
@[sl_canon] theorem dev18_c (c : Dev nD) : (⟨k0_dev18 c, k0_dev18_lt c⟩ : Dev nD) = fwd c 3 := dev18_eq c
@[sl_canon] theorem dev19_c (c : Dev nD) : (⟨k0_dev19 c, k0_dev19_lt c⟩ : Dev nD) = fwd c 4 := dev19_eq c
@[sl_canon] theorem dev20_c (c : Dev nD) : (⟨k0_dev20 c, k0_dev20_lt c⟩ : Dev nD) = fwd c 5 := dev20_eq c
@[sl_canon] theorem dev21_c (c : Dev nD) : (⟨k0_dev21 c, k0_dev21_lt c⟩ : Dev nD) = fwd c 6 := dev21_eq c
@[sl_canon] theorem dev22_c (c : Dev nD) : (⟨k0_dev22 c, k0_dev22_lt c⟩ : Dev nD) = fwd c 7 := dev22_eq c
@[sl_canon] theorem dev23_c (c : Dev nD) : (⟨k0_dev23 c, k0_dev23_lt c⟩ : Dev nD) = fwd c 8 := dev23_eq c
@[sl_canon] theorem dev24_c (c : Dev nD) : (⟨k0_dev24 c, k0_dev24_lt c⟩ : Dev nD) = fwd c 9 := dev24_eq c
@[sl_canon] theorem dev25_c (c : Dev nD) : (⟨k0_dev25 c, k0_dev25_lt c⟩ : Dev nD) = fwd c 10 := dev25_eq c
@[sl_canon] theorem dev26_c (c : Dev nD) : (⟨k0_dev26 c, k0_dev26_lt c⟩ : Dev nD) = fwd c 11 := dev26_eq c
@[sl_canon] theorem dev27_c (c : Dev nD) : (⟨k0_dev27 c, k0_dev27_lt c⟩ : Dev nD) = fwd c 12 := dev27_eq c
@[sl_canon] theorem dev28_c (c : Dev nD) : (⟨k0_dev28 c, k0_dev28_lt c⟩ : Dev nD) = fwd c 13 := dev28_eq c
@[sl_canon] theorem dev29_c (c : Dev nD) : (⟨k0_dev29 c, k0_dev29_lt c⟩ : Dev nD) = fwd c 14 := dev29_eq c
@[sl_canon] theorem dev30_c (c : Dev nD) : (⟨k0_dev30 c, k0_dev30_lt c⟩ : Dev nD) = fwd c 15 := dev30_eq c

/-! ## Barrier duties -/
@[sl_rounds high] theorem payload_sig_0 (c : Dev nD) :
    (a2aRd (F := F) m).payload (barCell (fwd c 1)) 0 (rev 0)
      = iprop((∃ f, (((rM.slice (Rect.unit (s := S16x256x256) ![15, 0, 0] S1x256x256.size inb_S16x256x256_S1x256x256_15_0_0) (fun _ => rfl)).squeeze S256x256 squeezes_S1x256x256_S256x256).view.loc (c : Thread nD τ) ↦[((rM.slice (Rect.unit (s := S16x256x256) ![15, 0, 0] S1x256x256.size inb_S16x256x256_S1x256x256_15_0_0) (fun _ => rfl)).squeeze S256x256 squeezes_S1x256x256_S256x256).view.set]{fullShare} f)) ∗ reached ER (recvCell c (rev 0)) 0) := by
  rw [payload_bar]; unfold barPay slotPts; rw [show fwd (fwd c 1) (off (rev 0)) = c from fwd_fwd_rev c 0]; rfl
@[sl_rounds high] theorem payload_sig_1 (c : Dev nD) :
    (a2aRd (F := F) m).payload (barCell (fwd c 2)) 0 (rev 1)
      = iprop((∃ f, (((rM.slice (Rect.unit (s := S16x256x256) ![14, 0, 0] S1x256x256.size inb_S16x256x256_S1x256x256_14_0_0) (fun _ => rfl)).squeeze S256x256 squeezes_S1x256x256_S256x256).view.loc (c : Thread nD τ) ↦[((rM.slice (Rect.unit (s := S16x256x256) ![14, 0, 0] S1x256x256.size inb_S16x256x256_S1x256x256_14_0_0) (fun _ => rfl)).squeeze S256x256 squeezes_S1x256x256_S256x256).view.set]{fullShare} f)) ∗ reached ER (recvCell c (rev 1)) 0) := by
  rw [payload_bar]; unfold barPay slotPts; rw [show fwd (fwd c 2) (off (rev 1)) = c from fwd_fwd_rev c 1]; rfl
@[sl_rounds high] theorem payload_sig_2 (c : Dev nD) :
    (a2aRd (F := F) m).payload (barCell (fwd c 3)) 0 (rev 2)
      = iprop((∃ f, (((rM.slice (Rect.unit (s := S16x256x256) ![13, 0, 0] S1x256x256.size inb_S16x256x256_S1x256x256_13_0_0) (fun _ => rfl)).squeeze S256x256 squeezes_S1x256x256_S256x256).view.loc (c : Thread nD τ) ↦[((rM.slice (Rect.unit (s := S16x256x256) ![13, 0, 0] S1x256x256.size inb_S16x256x256_S1x256x256_13_0_0) (fun _ => rfl)).squeeze S256x256 squeezes_S1x256x256_S256x256).view.set]{fullShare} f)) ∗ reached ER (recvCell c (rev 2)) 0) := by
  rw [payload_bar]; unfold barPay slotPts; rw [show fwd (fwd c 3) (off (rev 2)) = c from fwd_fwd_rev c 2]; rfl
@[sl_rounds high] theorem payload_sig_3 (c : Dev nD) :
    (a2aRd (F := F) m).payload (barCell (fwd c 4)) 0 (rev 3)
      = iprop((∃ f, (((rM.slice (Rect.unit (s := S16x256x256) ![12, 0, 0] S1x256x256.size inb_S16x256x256_S1x256x256_12_0_0) (fun _ => rfl)).squeeze S256x256 squeezes_S1x256x256_S256x256).view.loc (c : Thread nD τ) ↦[((rM.slice (Rect.unit (s := S16x256x256) ![12, 0, 0] S1x256x256.size inb_S16x256x256_S1x256x256_12_0_0) (fun _ => rfl)).squeeze S256x256 squeezes_S1x256x256_S256x256).view.set]{fullShare} f)) ∗ reached ER (recvCell c (rev 3)) 0) := by
  rw [payload_bar]; unfold barPay slotPts; rw [show fwd (fwd c 4) (off (rev 3)) = c from fwd_fwd_rev c 3]; rfl
@[sl_rounds high] theorem payload_sig_4 (c : Dev nD) :
    (a2aRd (F := F) m).payload (barCell (fwd c 5)) 0 (rev 4)
      = iprop((∃ f, (((rM.slice (Rect.unit (s := S16x256x256) ![11, 0, 0] S1x256x256.size inb_S16x256x256_S1x256x256_11_0_0) (fun _ => rfl)).squeeze S256x256 squeezes_S1x256x256_S256x256).view.loc (c : Thread nD τ) ↦[((rM.slice (Rect.unit (s := S16x256x256) ![11, 0, 0] S1x256x256.size inb_S16x256x256_S1x256x256_11_0_0) (fun _ => rfl)).squeeze S256x256 squeezes_S1x256x256_S256x256).view.set]{fullShare} f)) ∗ reached ER (recvCell c (rev 4)) 0) := by
  rw [payload_bar]; unfold barPay slotPts; rw [show fwd (fwd c 5) (off (rev 4)) = c from fwd_fwd_rev c 4]; rfl
@[sl_rounds high] theorem payload_sig_5 (c : Dev nD) :
    (a2aRd (F := F) m).payload (barCell (fwd c 6)) 0 (rev 5)
      = iprop((∃ f, (((rM.slice (Rect.unit (s := S16x256x256) ![10, 0, 0] S1x256x256.size inb_S16x256x256_S1x256x256_10_0_0) (fun _ => rfl)).squeeze S256x256 squeezes_S1x256x256_S256x256).view.loc (c : Thread nD τ) ↦[((rM.slice (Rect.unit (s := S16x256x256) ![10, 0, 0] S1x256x256.size inb_S16x256x256_S1x256x256_10_0_0) (fun _ => rfl)).squeeze S256x256 squeezes_S1x256x256_S256x256).view.set]{fullShare} f)) ∗ reached ER (recvCell c (rev 5)) 0) := by
  rw [payload_bar]; unfold barPay slotPts; rw [show fwd (fwd c 6) (off (rev 5)) = c from fwd_fwd_rev c 5]; rfl
@[sl_rounds high] theorem payload_sig_6 (c : Dev nD) :
    (a2aRd (F := F) m).payload (barCell (fwd c 7)) 0 (rev 6)
      = iprop((∃ f, (((rM.slice (Rect.unit (s := S16x256x256) ![9, 0, 0] S1x256x256.size inb_S16x256x256_S1x256x256_9_0_0) (fun _ => rfl)).squeeze S256x256 squeezes_S1x256x256_S256x256).view.loc (c : Thread nD τ) ↦[((rM.slice (Rect.unit (s := S16x256x256) ![9, 0, 0] S1x256x256.size inb_S16x256x256_S1x256x256_9_0_0) (fun _ => rfl)).squeeze S256x256 squeezes_S1x256x256_S256x256).view.set]{fullShare} f)) ∗ reached ER (recvCell c (rev 6)) 0) := by
  rw [payload_bar]; unfold barPay slotPts; rw [show fwd (fwd c 7) (off (rev 6)) = c from fwd_fwd_rev c 6]; rfl
@[sl_rounds high] theorem payload_sig_7 (c : Dev nD) :
    (a2aRd (F := F) m).payload (barCell (fwd c 8)) 0 (rev 7)
      = iprop((∃ f, (((rM.slice (Rect.unit (s := S16x256x256) ![8, 0, 0] S1x256x256.size inb_S16x256x256_S1x256x256_8_0_0) (fun _ => rfl)).squeeze S256x256 squeezes_S1x256x256_S256x256).view.loc (c : Thread nD τ) ↦[((rM.slice (Rect.unit (s := S16x256x256) ![8, 0, 0] S1x256x256.size inb_S16x256x256_S1x256x256_8_0_0) (fun _ => rfl)).squeeze S256x256 squeezes_S1x256x256_S256x256).view.set]{fullShare} f)) ∗ reached ER (recvCell c (rev 7)) 0) := by
  rw [payload_bar]; unfold barPay slotPts; rw [show fwd (fwd c 8) (off (rev 7)) = c from fwd_fwd_rev c 7]; rfl
@[sl_rounds high] theorem payload_sig_8 (c : Dev nD) :
    (a2aRd (F := F) m).payload (barCell (fwd c 9)) 0 (rev 8)
      = iprop((∃ f, (((rM.slice (Rect.unit (s := S16x256x256) ![7, 0, 0] S1x256x256.size inb_S16x256x256_S1x256x256_7_0_0) (fun _ => rfl)).squeeze S256x256 squeezes_S1x256x256_S256x256).view.loc (c : Thread nD τ) ↦[((rM.slice (Rect.unit (s := S16x256x256) ![7, 0, 0] S1x256x256.size inb_S16x256x256_S1x256x256_7_0_0) (fun _ => rfl)).squeeze S256x256 squeezes_S1x256x256_S256x256).view.set]{fullShare} f)) ∗ reached ER (recvCell c (rev 8)) 0) := by
  rw [payload_bar]; unfold barPay slotPts; rw [show fwd (fwd c 9) (off (rev 8)) = c from fwd_fwd_rev c 8]; rfl
@[sl_rounds high] theorem payload_sig_9 (c : Dev nD) :
    (a2aRd (F := F) m).payload (barCell (fwd c 10)) 0 (rev 9)
      = iprop((∃ f, (((rM.slice (Rect.unit (s := S16x256x256) ![6, 0, 0] S1x256x256.size inb_S16x256x256_S1x256x256_6_0_0) (fun _ => rfl)).squeeze S256x256 squeezes_S1x256x256_S256x256).view.loc (c : Thread nD τ) ↦[((rM.slice (Rect.unit (s := S16x256x256) ![6, 0, 0] S1x256x256.size inb_S16x256x256_S1x256x256_6_0_0) (fun _ => rfl)).squeeze S256x256 squeezes_S1x256x256_S256x256).view.set]{fullShare} f)) ∗ reached ER (recvCell c (rev 9)) 0) := by
  rw [payload_bar]; unfold barPay slotPts; rw [show fwd (fwd c 10) (off (rev 9)) = c from fwd_fwd_rev c 9]; rfl
@[sl_rounds high] theorem payload_sig_10 (c : Dev nD) :
    (a2aRd (F := F) m).payload (barCell (fwd c 11)) 0 (rev 10)
      = iprop((∃ f, (((rM.slice (Rect.unit (s := S16x256x256) ![5, 0, 0] S1x256x256.size inb_S16x256x256_S1x256x256_5_0_0) (fun _ => rfl)).squeeze S256x256 squeezes_S1x256x256_S256x256).view.loc (c : Thread nD τ) ↦[((rM.slice (Rect.unit (s := S16x256x256) ![5, 0, 0] S1x256x256.size inb_S16x256x256_S1x256x256_5_0_0) (fun _ => rfl)).squeeze S256x256 squeezes_S1x256x256_S256x256).view.set]{fullShare} f)) ∗ reached ER (recvCell c (rev 10)) 0) := by
  rw [payload_bar]; unfold barPay slotPts; rw [show fwd (fwd c 11) (off (rev 10)) = c from fwd_fwd_rev c 10]; rfl
@[sl_rounds high] theorem payload_sig_11 (c : Dev nD) :
    (a2aRd (F := F) m).payload (barCell (fwd c 12)) 0 (rev 11)
      = iprop((∃ f, (((rM.slice (Rect.unit (s := S16x256x256) ![4, 0, 0] S1x256x256.size inb_S16x256x256_S1x256x256_4_0_0) (fun _ => rfl)).squeeze S256x256 squeezes_S1x256x256_S256x256).view.loc (c : Thread nD τ) ↦[((rM.slice (Rect.unit (s := S16x256x256) ![4, 0, 0] S1x256x256.size inb_S16x256x256_S1x256x256_4_0_0) (fun _ => rfl)).squeeze S256x256 squeezes_S1x256x256_S256x256).view.set]{fullShare} f)) ∗ reached ER (recvCell c (rev 11)) 0) := by
  rw [payload_bar]; unfold barPay slotPts; rw [show fwd (fwd c 12) (off (rev 11)) = c from fwd_fwd_rev c 11]; rfl
@[sl_rounds high] theorem payload_sig_12 (c : Dev nD) :
    (a2aRd (F := F) m).payload (barCell (fwd c 13)) 0 (rev 12)
      = iprop((∃ f, (((rM.slice (Rect.unit (s := S16x256x256) ![3, 0, 0] S1x256x256.size inb_S16x256x256_S1x256x256_3_0_0) (fun _ => rfl)).squeeze S256x256 squeezes_S1x256x256_S256x256).view.loc (c : Thread nD τ) ↦[((rM.slice (Rect.unit (s := S16x256x256) ![3, 0, 0] S1x256x256.size inb_S16x256x256_S1x256x256_3_0_0) (fun _ => rfl)).squeeze S256x256 squeezes_S1x256x256_S256x256).view.set]{fullShare} f)) ∗ reached ER (recvCell c (rev 12)) 0) := by
  rw [payload_bar]; unfold barPay slotPts; rw [show fwd (fwd c 13) (off (rev 12)) = c from fwd_fwd_rev c 12]; rfl
@[sl_rounds high] theorem payload_sig_13 (c : Dev nD) :
    (a2aRd (F := F) m).payload (barCell (fwd c 14)) 0 (rev 13)
      = iprop((∃ f, (((rM.slice (Rect.unit (s := S16x256x256) ![2, 0, 0] S1x256x256.size inb_S16x256x256_S1x256x256_2_0_0) (fun _ => rfl)).squeeze S256x256 squeezes_S1x256x256_S256x256).view.loc (c : Thread nD τ) ↦[((rM.slice (Rect.unit (s := S16x256x256) ![2, 0, 0] S1x256x256.size inb_S16x256x256_S1x256x256_2_0_0) (fun _ => rfl)).squeeze S256x256 squeezes_S1x256x256_S256x256).view.set]{fullShare} f)) ∗ reached ER (recvCell c (rev 13)) 0) := by
  rw [payload_bar]; unfold barPay slotPts; rw [show fwd (fwd c 14) (off (rev 13)) = c from fwd_fwd_rev c 13]; rfl
@[sl_rounds high] theorem payload_sig_14 (c : Dev nD) :
    (a2aRd (F := F) m).payload (barCell (fwd c 15)) 0 (rev 14)
      = iprop((∃ f, (((rM.slice (Rect.unit (s := S16x256x256) ![1, 0, 0] S1x256x256.size inb_S16x256x256_S1x256x256_1_0_0) (fun _ => rfl)).squeeze S256x256 squeezes_S1x256x256_S256x256).view.loc (c : Thread nD τ) ↦[((rM.slice (Rect.unit (s := S16x256x256) ![1, 0, 0] S1x256x256.size inb_S16x256x256_S1x256x256_1_0_0) (fun _ => rfl)).squeeze S256x256 squeezes_S1x256x256_S256x256).view.set]{fullShare} f)) ∗ reached ER (recvCell c (rev 14)) 0) := by
  rw [payload_bar]; unfold barPay slotPts; rw [show fwd (fwd c 15) (off (rev 14)) = c from fwd_fwd_rev c 14]; rfl
@[sl_rounds] theorem payload_own_0 (c : Dev nD) :
    (a2aRd (F := F) m).payload (barCell c) 0 0
      = iprop((∃ f, (((rM.slice (Rect.unit (s := S16x256x256) ![1, 0, 0] S1x256x256.size inb_S16x256x256_S1x256x256_1_0_0) (fun _ => rfl)).squeeze S256x256 squeezes_S1x256x256_S256x256).view.loc (fwd c 1 : Thread nD τ) ↦[((rM.slice (Rect.unit (s := S16x256x256) ![1, 0, 0] S1x256x256.size inb_S16x256x256_S1x256x256_1_0_0) (fun _ => rfl)).squeeze S256x256 squeezes_S1x256x256_S256x256).view.set]{fullShare} f)) ∗ reached ER (recvCell (fwd c 1) 0) 0) := by
  rw [payload_bar]; unfold barPay slotPts; rfl
@[sl_rounds] theorem payload_own_1 (c : Dev nD) :
    (a2aRd (F := F) m).payload (barCell c) 0 1
      = iprop((∃ f, (((rM.slice (Rect.unit (s := S16x256x256) ![2, 0, 0] S1x256x256.size inb_S16x256x256_S1x256x256_2_0_0) (fun _ => rfl)).squeeze S256x256 squeezes_S1x256x256_S256x256).view.loc (fwd c 2 : Thread nD τ) ↦[((rM.slice (Rect.unit (s := S16x256x256) ![2, 0, 0] S1x256x256.size inb_S16x256x256_S1x256x256_2_0_0) (fun _ => rfl)).squeeze S256x256 squeezes_S1x256x256_S256x256).view.set]{fullShare} f)) ∗ reached ER (recvCell (fwd c 2) 1) 0) := by
  rw [payload_bar]; unfold barPay slotPts; rfl
@[sl_rounds] theorem payload_own_2 (c : Dev nD) :
    (a2aRd (F := F) m).payload (barCell c) 0 2
      = iprop((∃ f, (((rM.slice (Rect.unit (s := S16x256x256) ![3, 0, 0] S1x256x256.size inb_S16x256x256_S1x256x256_3_0_0) (fun _ => rfl)).squeeze S256x256 squeezes_S1x256x256_S256x256).view.loc (fwd c 3 : Thread nD τ) ↦[((rM.slice (Rect.unit (s := S16x256x256) ![3, 0, 0] S1x256x256.size inb_S16x256x256_S1x256x256_3_0_0) (fun _ => rfl)).squeeze S256x256 squeezes_S1x256x256_S256x256).view.set]{fullShare} f)) ∗ reached ER (recvCell (fwd c 3) 2) 0) := by
  rw [payload_bar]; unfold barPay slotPts; rfl
@[sl_rounds] theorem payload_own_3 (c : Dev nD) :
    (a2aRd (F := F) m).payload (barCell c) 0 3
      = iprop((∃ f, (((rM.slice (Rect.unit (s := S16x256x256) ![4, 0, 0] S1x256x256.size inb_S16x256x256_S1x256x256_4_0_0) (fun _ => rfl)).squeeze S256x256 squeezes_S1x256x256_S256x256).view.loc (fwd c 4 : Thread nD τ) ↦[((rM.slice (Rect.unit (s := S16x256x256) ![4, 0, 0] S1x256x256.size inb_S16x256x256_S1x256x256_4_0_0) (fun _ => rfl)).squeeze S256x256 squeezes_S1x256x256_S256x256).view.set]{fullShare} f)) ∗ reached ER (recvCell (fwd c 4) 3) 0) := by
  rw [payload_bar]; unfold barPay slotPts; rfl
@[sl_rounds] theorem payload_own_4 (c : Dev nD) :
    (a2aRd (F := F) m).payload (barCell c) 0 4
      = iprop((∃ f, (((rM.slice (Rect.unit (s := S16x256x256) ![5, 0, 0] S1x256x256.size inb_S16x256x256_S1x256x256_5_0_0) (fun _ => rfl)).squeeze S256x256 squeezes_S1x256x256_S256x256).view.loc (fwd c 5 : Thread nD τ) ↦[((rM.slice (Rect.unit (s := S16x256x256) ![5, 0, 0] S1x256x256.size inb_S16x256x256_S1x256x256_5_0_0) (fun _ => rfl)).squeeze S256x256 squeezes_S1x256x256_S256x256).view.set]{fullShare} f)) ∗ reached ER (recvCell (fwd c 5) 4) 0) := by
  rw [payload_bar]; unfold barPay slotPts; rfl
@[sl_rounds] theorem payload_own_5 (c : Dev nD) :
    (a2aRd (F := F) m).payload (barCell c) 0 5
      = iprop((∃ f, (((rM.slice (Rect.unit (s := S16x256x256) ![6, 0, 0] S1x256x256.size inb_S16x256x256_S1x256x256_6_0_0) (fun _ => rfl)).squeeze S256x256 squeezes_S1x256x256_S256x256).view.loc (fwd c 6 : Thread nD τ) ↦[((rM.slice (Rect.unit (s := S16x256x256) ![6, 0, 0] S1x256x256.size inb_S16x256x256_S1x256x256_6_0_0) (fun _ => rfl)).squeeze S256x256 squeezes_S1x256x256_S256x256).view.set]{fullShare} f)) ∗ reached ER (recvCell (fwd c 6) 5) 0) := by
  rw [payload_bar]; unfold barPay slotPts; rfl
@[sl_rounds] theorem payload_own_6 (c : Dev nD) :
    (a2aRd (F := F) m).payload (barCell c) 0 6
      = iprop((∃ f, (((rM.slice (Rect.unit (s := S16x256x256) ![7, 0, 0] S1x256x256.size inb_S16x256x256_S1x256x256_7_0_0) (fun _ => rfl)).squeeze S256x256 squeezes_S1x256x256_S256x256).view.loc (fwd c 7 : Thread nD τ) ↦[((rM.slice (Rect.unit (s := S16x256x256) ![7, 0, 0] S1x256x256.size inb_S16x256x256_S1x256x256_7_0_0) (fun _ => rfl)).squeeze S256x256 squeezes_S1x256x256_S256x256).view.set]{fullShare} f)) ∗ reached ER (recvCell (fwd c 7) 6) 0) := by
  rw [payload_bar]; unfold barPay slotPts; rfl
@[sl_rounds] theorem payload_own_7 (c : Dev nD) :
    (a2aRd (F := F) m).payload (barCell c) 0 7
      = iprop((∃ f, (((rM.slice (Rect.unit (s := S16x256x256) ![8, 0, 0] S1x256x256.size inb_S16x256x256_S1x256x256_8_0_0) (fun _ => rfl)).squeeze S256x256 squeezes_S1x256x256_S256x256).view.loc (fwd c 8 : Thread nD τ) ↦[((rM.slice (Rect.unit (s := S16x256x256) ![8, 0, 0] S1x256x256.size inb_S16x256x256_S1x256x256_8_0_0) (fun _ => rfl)).squeeze S256x256 squeezes_S1x256x256_S256x256).view.set]{fullShare} f)) ∗ reached ER (recvCell (fwd c 8) 7) 0) := by
  rw [payload_bar]; unfold barPay slotPts; rfl
@[sl_rounds] theorem payload_own_8 (c : Dev nD) :
    (a2aRd (F := F) m).payload (barCell c) 0 8
      = iprop((∃ f, (((rM.slice (Rect.unit (s := S16x256x256) ![9, 0, 0] S1x256x256.size inb_S16x256x256_S1x256x256_9_0_0) (fun _ => rfl)).squeeze S256x256 squeezes_S1x256x256_S256x256).view.loc (fwd c 9 : Thread nD τ) ↦[((rM.slice (Rect.unit (s := S16x256x256) ![9, 0, 0] S1x256x256.size inb_S16x256x256_S1x256x256_9_0_0) (fun _ => rfl)).squeeze S256x256 squeezes_S1x256x256_S256x256).view.set]{fullShare} f)) ∗ reached ER (recvCell (fwd c 9) 8) 0) := by
  rw [payload_bar]; unfold barPay slotPts; rfl
@[sl_rounds] theorem payload_own_9 (c : Dev nD) :
    (a2aRd (F := F) m).payload (barCell c) 0 9
      = iprop((∃ f, (((rM.slice (Rect.unit (s := S16x256x256) ![10, 0, 0] S1x256x256.size inb_S16x256x256_S1x256x256_10_0_0) (fun _ => rfl)).squeeze S256x256 squeezes_S1x256x256_S256x256).view.loc (fwd c 10 : Thread nD τ) ↦[((rM.slice (Rect.unit (s := S16x256x256) ![10, 0, 0] S1x256x256.size inb_S16x256x256_S1x256x256_10_0_0) (fun _ => rfl)).squeeze S256x256 squeezes_S1x256x256_S256x256).view.set]{fullShare} f)) ∗ reached ER (recvCell (fwd c 10) 9) 0) := by
  rw [payload_bar]; unfold barPay slotPts; rfl
@[sl_rounds] theorem payload_own_10 (c : Dev nD) :
    (a2aRd (F := F) m).payload (barCell c) 0 10
      = iprop((∃ f, (((rM.slice (Rect.unit (s := S16x256x256) ![11, 0, 0] S1x256x256.size inb_S16x256x256_S1x256x256_11_0_0) (fun _ => rfl)).squeeze S256x256 squeezes_S1x256x256_S256x256).view.loc (fwd c 11 : Thread nD τ) ↦[((rM.slice (Rect.unit (s := S16x256x256) ![11, 0, 0] S1x256x256.size inb_S16x256x256_S1x256x256_11_0_0) (fun _ => rfl)).squeeze S256x256 squeezes_S1x256x256_S256x256).view.set]{fullShare} f)) ∗ reached ER (recvCell (fwd c 11) 10) 0) := by
  rw [payload_bar]; unfold barPay slotPts; rfl
@[sl_rounds] theorem payload_own_11 (c : Dev nD) :
    (a2aRd (F := F) m).payload (barCell c) 0 11
      = iprop((∃ f, (((rM.slice (Rect.unit (s := S16x256x256) ![12, 0, 0] S1x256x256.size inb_S16x256x256_S1x256x256_12_0_0) (fun _ => rfl)).squeeze S256x256 squeezes_S1x256x256_S256x256).view.loc (fwd c 12 : Thread nD τ) ↦[((rM.slice (Rect.unit (s := S16x256x256) ![12, 0, 0] S1x256x256.size inb_S16x256x256_S1x256x256_12_0_0) (fun _ => rfl)).squeeze S256x256 squeezes_S1x256x256_S256x256).view.set]{fullShare} f)) ∗ reached ER (recvCell (fwd c 12) 11) 0) := by
  rw [payload_bar]; unfold barPay slotPts; rfl
@[sl_rounds] theorem payload_own_12 (c : Dev nD) :
    (a2aRd (F := F) m).payload (barCell c) 0 12
      = iprop((∃ f, (((rM.slice (Rect.unit (s := S16x256x256) ![13, 0, 0] S1x256x256.size inb_S16x256x256_S1x256x256_13_0_0) (fun _ => rfl)).squeeze S256x256 squeezes_S1x256x256_S256x256).view.loc (fwd c 13 : Thread nD τ) ↦[((rM.slice (Rect.unit (s := S16x256x256) ![13, 0, 0] S1x256x256.size inb_S16x256x256_S1x256x256_13_0_0) (fun _ => rfl)).squeeze S256x256 squeezes_S1x256x256_S256x256).view.set]{fullShare} f)) ∗ reached ER (recvCell (fwd c 13) 12) 0) := by
  rw [payload_bar]; unfold barPay slotPts; rfl
@[sl_rounds] theorem payload_own_13 (c : Dev nD) :
    (a2aRd (F := F) m).payload (barCell c) 0 13
      = iprop((∃ f, (((rM.slice (Rect.unit (s := S16x256x256) ![14, 0, 0] S1x256x256.size inb_S16x256x256_S1x256x256_14_0_0) (fun _ => rfl)).squeeze S256x256 squeezes_S1x256x256_S256x256).view.loc (fwd c 14 : Thread nD τ) ↦[((rM.slice (Rect.unit (s := S16x256x256) ![14, 0, 0] S1x256x256.size inb_S16x256x256_S1x256x256_14_0_0) (fun _ => rfl)).squeeze S256x256 squeezes_S1x256x256_S256x256).view.set]{fullShare} f)) ∗ reached ER (recvCell (fwd c 14) 13) 0) := by
  rw [payload_bar]; unfold barPay slotPts; rfl
@[sl_rounds] theorem payload_own_14 (c : Dev nD) :
    (a2aRd (F := F) m).payload (barCell c) 0 14
      = iprop((∃ f, (((rM.slice (Rect.unit (s := S16x256x256) ![15, 0, 0] S1x256x256.size inb_S16x256x256_S1x256x256_15_0_0) (fun _ => rfl)).squeeze S256x256 squeezes_S1x256x256_S256x256).view.loc (fwd c 15 : Thread nD τ) ↦[((rM.slice (Rect.unit (s := S16x256x256) ![15, 0, 0] S1x256x256.size inb_S16x256x256_S1x256x256_15_0_0) (fun _ => rfl)).squeeze S256x256 squeezes_S1x256x256_S256x256).view.set]{fullShare} f)) ∗ reached ER (recvCell (fwd c 15) 14) 0) := by
  rw [payload_bar]; unfold barPay slotPts; rfl

/-! ## Transfers: the departure hands the rows back, the landing hands the receiver its slot written with them -/
@[sl_rounds] theorem payload_send_0 (c : Dev nD) (x : Fin 15) :
    (a2aRd (F := F) m).payload (sendCell c 0) 0 x = ((xM.slice (Rect.unit (s := S4096x256) (k0_off2 c 1#32) S256x256.size (k0_off2_inb c 0)) (fun _ => rfl)).view.loc (c : Thread nD τ) ↦[(xM.slice (Rect.unit (s := S4096x256) (k0_off2 c 1#32) S256x256.size (k0_off2_inb c 0)) (fun _ => rfl)).view.set]{xShare 0} xstg m c) := by
  rw [payload_send]; rfl
@[sl_rounds high] theorem payload_arrive_0 (c : Dev nD) (x : Fin 15) :
    (a2aRd (F := F) m).payload (recvCell (fwd c 1) 0) 0 x
      = iprop(∃ b, (((rM.slice (Rect.unit (s := S16x256x256) ![1, 0, 0] S1x256x256.size inb_S16x256x256_S1x256x256_1_0_0) (fun _ => rfl)).squeeze S256x256 squeezes_S1x256x256_S256x256).view.loc (fwd c 1 : Thread nD τ) ↦[((rM.slice (Rect.unit (s := S16x256x256) ![1, 0, 0] S1x256x256.size inb_S16x256x256_S1x256x256_1_0_0) (fun _ => rfl)).squeeze S256x256 squeezes_S1x256x256_S256x256).view.set]{fullShare}
          ((rM.slice (Rect.unit (s := S16x256x256) ![1, 0, 0] S1x256x256.size inb_S16x256x256_S1x256x256_1_0_0) (fun _ => rfl)).squeeze S256x256 squeezes_S1x256x256_S256x256).view.write (Elt F) b ((xM.slice (Rect.unit (s := S4096x256) (k0_off2 c 1#32) S256x256.size (k0_off2_inb c 0)) (fun _ => rfl)).view.read (Elt F) (xstg m c)) Finset.univ)) := by
  rw [payload_recv]; unfold recvPay slotPts landed sentBlock; rw [show bwd (fwd c 1) (off 0) = c from bwd_fwd c (off 0)]; rfl
@[sl_rounds] theorem payload_landed_0 (c : Dev nD) (x : Fin 15) :
    (a2aRd (F := F) m).payload (recvCell c 0) 0 x
      = iprop(∃ b, (((rM.slice (Rect.unit (s := S16x256x256) ![1, 0, 0] S1x256x256.size inb_S16x256x256_S1x256x256_1_0_0) (fun _ => rfl)).squeeze S256x256 squeezes_S1x256x256_S256x256).view.loc (c : Thread nD τ) ↦[((rM.slice (Rect.unit (s := S16x256x256) ![1, 0, 0] S1x256x256.size inb_S16x256x256_S1x256x256_1_0_0) (fun _ => rfl)).squeeze S256x256 squeezes_S1x256x256_S256x256).view.set]{fullShare}
          ((rM.slice (Rect.unit (s := S16x256x256) ![1, 0, 0] S1x256x256.size inb_S16x256x256_S1x256x256_1_0_0) (fun _ => rfl)).squeeze S256x256 squeezes_S1x256x256_S256x256).view.write (Elt F) b (sentBlock m (bwd c (off 0)) 0) Finset.univ)) := by
  rw [payload_recv]; unfold recvPay slotPts landed; rfl
@[sl_rounds] theorem payload_send_1 (c : Dev nD) (x : Fin 15) :
    (a2aRd (F := F) m).payload (sendCell c 1) 0 x = ((xM.slice (Rect.unit (s := S4096x256) (k0_off2 c 2#32) S256x256.size (k0_off2_inb c 1)) (fun _ => rfl)).view.loc (c : Thread nD τ) ↦[(xM.slice (Rect.unit (s := S4096x256) (k0_off2 c 2#32) S256x256.size (k0_off2_inb c 1)) (fun _ => rfl)).view.set]{xShare 1} xstg m c) := by
  rw [payload_send]; rfl
@[sl_rounds high] theorem payload_arrive_1 (c : Dev nD) (x : Fin 15) :
    (a2aRd (F := F) m).payload (recvCell (fwd c 2) 1) 0 x
      = iprop(∃ b, (((rM.slice (Rect.unit (s := S16x256x256) ![2, 0, 0] S1x256x256.size inb_S16x256x256_S1x256x256_2_0_0) (fun _ => rfl)).squeeze S256x256 squeezes_S1x256x256_S256x256).view.loc (fwd c 2 : Thread nD τ) ↦[((rM.slice (Rect.unit (s := S16x256x256) ![2, 0, 0] S1x256x256.size inb_S16x256x256_S1x256x256_2_0_0) (fun _ => rfl)).squeeze S256x256 squeezes_S1x256x256_S256x256).view.set]{fullShare}
          ((rM.slice (Rect.unit (s := S16x256x256) ![2, 0, 0] S1x256x256.size inb_S16x256x256_S1x256x256_2_0_0) (fun _ => rfl)).squeeze S256x256 squeezes_S1x256x256_S256x256).view.write (Elt F) b ((xM.slice (Rect.unit (s := S4096x256) (k0_off2 c 2#32) S256x256.size (k0_off2_inb c 1)) (fun _ => rfl)).view.read (Elt F) (xstg m c)) Finset.univ)) := by
  rw [payload_recv]; unfold recvPay slotPts landed sentBlock; rw [show bwd (fwd c 2) (off 1) = c from bwd_fwd c (off 1)]; rfl
@[sl_rounds] theorem payload_landed_1 (c : Dev nD) (x : Fin 15) :
    (a2aRd (F := F) m).payload (recvCell c 1) 0 x
      = iprop(∃ b, (((rM.slice (Rect.unit (s := S16x256x256) ![2, 0, 0] S1x256x256.size inb_S16x256x256_S1x256x256_2_0_0) (fun _ => rfl)).squeeze S256x256 squeezes_S1x256x256_S256x256).view.loc (c : Thread nD τ) ↦[((rM.slice (Rect.unit (s := S16x256x256) ![2, 0, 0] S1x256x256.size inb_S16x256x256_S1x256x256_2_0_0) (fun _ => rfl)).squeeze S256x256 squeezes_S1x256x256_S256x256).view.set]{fullShare}
          ((rM.slice (Rect.unit (s := S16x256x256) ![2, 0, 0] S1x256x256.size inb_S16x256x256_S1x256x256_2_0_0) (fun _ => rfl)).squeeze S256x256 squeezes_S1x256x256_S256x256).view.write (Elt F) b (sentBlock m (bwd c (off 1)) 1) Finset.univ)) := by
  rw [payload_recv]; unfold recvPay slotPts landed; rfl
@[sl_rounds] theorem payload_send_2 (c : Dev nD) (x : Fin 15) :
    (a2aRd (F := F) m).payload (sendCell c 2) 0 x = ((xM.slice (Rect.unit (s := S4096x256) (k0_off2 c 3#32) S256x256.size (k0_off2_inb c 2)) (fun _ => rfl)).view.loc (c : Thread nD τ) ↦[(xM.slice (Rect.unit (s := S4096x256) (k0_off2 c 3#32) S256x256.size (k0_off2_inb c 2)) (fun _ => rfl)).view.set]{xShare 2} xstg m c) := by
  rw [payload_send]; rfl
@[sl_rounds high] theorem payload_arrive_2 (c : Dev nD) (x : Fin 15) :
    (a2aRd (F := F) m).payload (recvCell (fwd c 3) 2) 0 x
      = iprop(∃ b, (((rM.slice (Rect.unit (s := S16x256x256) ![3, 0, 0] S1x256x256.size inb_S16x256x256_S1x256x256_3_0_0) (fun _ => rfl)).squeeze S256x256 squeezes_S1x256x256_S256x256).view.loc (fwd c 3 : Thread nD τ) ↦[((rM.slice (Rect.unit (s := S16x256x256) ![3, 0, 0] S1x256x256.size inb_S16x256x256_S1x256x256_3_0_0) (fun _ => rfl)).squeeze S256x256 squeezes_S1x256x256_S256x256).view.set]{fullShare}
          ((rM.slice (Rect.unit (s := S16x256x256) ![3, 0, 0] S1x256x256.size inb_S16x256x256_S1x256x256_3_0_0) (fun _ => rfl)).squeeze S256x256 squeezes_S1x256x256_S256x256).view.write (Elt F) b ((xM.slice (Rect.unit (s := S4096x256) (k0_off2 c 3#32) S256x256.size (k0_off2_inb c 2)) (fun _ => rfl)).view.read (Elt F) (xstg m c)) Finset.univ)) := by
  rw [payload_recv]; unfold recvPay slotPts landed sentBlock; rw [show bwd (fwd c 3) (off 2) = c from bwd_fwd c (off 2)]; rfl
@[sl_rounds] theorem payload_landed_2 (c : Dev nD) (x : Fin 15) :
    (a2aRd (F := F) m).payload (recvCell c 2) 0 x
      = iprop(∃ b, (((rM.slice (Rect.unit (s := S16x256x256) ![3, 0, 0] S1x256x256.size inb_S16x256x256_S1x256x256_3_0_0) (fun _ => rfl)).squeeze S256x256 squeezes_S1x256x256_S256x256).view.loc (c : Thread nD τ) ↦[((rM.slice (Rect.unit (s := S16x256x256) ![3, 0, 0] S1x256x256.size inb_S16x256x256_S1x256x256_3_0_0) (fun _ => rfl)).squeeze S256x256 squeezes_S1x256x256_S256x256).view.set]{fullShare}
          ((rM.slice (Rect.unit (s := S16x256x256) ![3, 0, 0] S1x256x256.size inb_S16x256x256_S1x256x256_3_0_0) (fun _ => rfl)).squeeze S256x256 squeezes_S1x256x256_S256x256).view.write (Elt F) b (sentBlock m (bwd c (off 2)) 2) Finset.univ)) := by
  rw [payload_recv]; unfold recvPay slotPts landed; rfl
@[sl_rounds] theorem payload_send_3 (c : Dev nD) (x : Fin 15) :
    (a2aRd (F := F) m).payload (sendCell c 3) 0 x = ((xM.slice (Rect.unit (s := S4096x256) (k0_off2 c 4#32) S256x256.size (k0_off2_inb c 3)) (fun _ => rfl)).view.loc (c : Thread nD τ) ↦[(xM.slice (Rect.unit (s := S4096x256) (k0_off2 c 4#32) S256x256.size (k0_off2_inb c 3)) (fun _ => rfl)).view.set]{xShare 3} xstg m c) := by
  rw [payload_send]; rfl
@[sl_rounds high] theorem payload_arrive_3 (c : Dev nD) (x : Fin 15) :
    (a2aRd (F := F) m).payload (recvCell (fwd c 4) 3) 0 x
      = iprop(∃ b, (((rM.slice (Rect.unit (s := S16x256x256) ![4, 0, 0] S1x256x256.size inb_S16x256x256_S1x256x256_4_0_0) (fun _ => rfl)).squeeze S256x256 squeezes_S1x256x256_S256x256).view.loc (fwd c 4 : Thread nD τ) ↦[((rM.slice (Rect.unit (s := S16x256x256) ![4, 0, 0] S1x256x256.size inb_S16x256x256_S1x256x256_4_0_0) (fun _ => rfl)).squeeze S256x256 squeezes_S1x256x256_S256x256).view.set]{fullShare}
          ((rM.slice (Rect.unit (s := S16x256x256) ![4, 0, 0] S1x256x256.size inb_S16x256x256_S1x256x256_4_0_0) (fun _ => rfl)).squeeze S256x256 squeezes_S1x256x256_S256x256).view.write (Elt F) b ((xM.slice (Rect.unit (s := S4096x256) (k0_off2 c 4#32) S256x256.size (k0_off2_inb c 3)) (fun _ => rfl)).view.read (Elt F) (xstg m c)) Finset.univ)) := by
  rw [payload_recv]; unfold recvPay slotPts landed sentBlock; rw [show bwd (fwd c 4) (off 3) = c from bwd_fwd c (off 3)]; rfl
@[sl_rounds] theorem payload_landed_3 (c : Dev nD) (x : Fin 15) :
    (a2aRd (F := F) m).payload (recvCell c 3) 0 x
      = iprop(∃ b, (((rM.slice (Rect.unit (s := S16x256x256) ![4, 0, 0] S1x256x256.size inb_S16x256x256_S1x256x256_4_0_0) (fun _ => rfl)).squeeze S256x256 squeezes_S1x256x256_S256x256).view.loc (c : Thread nD τ) ↦[((rM.slice (Rect.unit (s := S16x256x256) ![4, 0, 0] S1x256x256.size inb_S16x256x256_S1x256x256_4_0_0) (fun _ => rfl)).squeeze S256x256 squeezes_S1x256x256_S256x256).view.set]{fullShare}
          ((rM.slice (Rect.unit (s := S16x256x256) ![4, 0, 0] S1x256x256.size inb_S16x256x256_S1x256x256_4_0_0) (fun _ => rfl)).squeeze S256x256 squeezes_S1x256x256_S256x256).view.write (Elt F) b (sentBlock m (bwd c (off 3)) 3) Finset.univ)) := by
  rw [payload_recv]; unfold recvPay slotPts landed; rfl
@[sl_rounds] theorem payload_send_4 (c : Dev nD) (x : Fin 15) :
    (a2aRd (F := F) m).payload (sendCell c 4) 0 x = ((xM.slice (Rect.unit (s := S4096x256) (k0_off2 c 5#32) S256x256.size (k0_off2_inb c 4)) (fun _ => rfl)).view.loc (c : Thread nD τ) ↦[(xM.slice (Rect.unit (s := S4096x256) (k0_off2 c 5#32) S256x256.size (k0_off2_inb c 4)) (fun _ => rfl)).view.set]{xShare 4} xstg m c) := by
  rw [payload_send]; rfl
@[sl_rounds high] theorem payload_arrive_4 (c : Dev nD) (x : Fin 15) :
    (a2aRd (F := F) m).payload (recvCell (fwd c 5) 4) 0 x
      = iprop(∃ b, (((rM.slice (Rect.unit (s := S16x256x256) ![5, 0, 0] S1x256x256.size inb_S16x256x256_S1x256x256_5_0_0) (fun _ => rfl)).squeeze S256x256 squeezes_S1x256x256_S256x256).view.loc (fwd c 5 : Thread nD τ) ↦[((rM.slice (Rect.unit (s := S16x256x256) ![5, 0, 0] S1x256x256.size inb_S16x256x256_S1x256x256_5_0_0) (fun _ => rfl)).squeeze S256x256 squeezes_S1x256x256_S256x256).view.set]{fullShare}
          ((rM.slice (Rect.unit (s := S16x256x256) ![5, 0, 0] S1x256x256.size inb_S16x256x256_S1x256x256_5_0_0) (fun _ => rfl)).squeeze S256x256 squeezes_S1x256x256_S256x256).view.write (Elt F) b ((xM.slice (Rect.unit (s := S4096x256) (k0_off2 c 5#32) S256x256.size (k0_off2_inb c 4)) (fun _ => rfl)).view.read (Elt F) (xstg m c)) Finset.univ)) := by
  rw [payload_recv]; unfold recvPay slotPts landed sentBlock; rw [show bwd (fwd c 5) (off 4) = c from bwd_fwd c (off 4)]; rfl
@[sl_rounds] theorem payload_landed_4 (c : Dev nD) (x : Fin 15) :
    (a2aRd (F := F) m).payload (recvCell c 4) 0 x
      = iprop(∃ b, (((rM.slice (Rect.unit (s := S16x256x256) ![5, 0, 0] S1x256x256.size inb_S16x256x256_S1x256x256_5_0_0) (fun _ => rfl)).squeeze S256x256 squeezes_S1x256x256_S256x256).view.loc (c : Thread nD τ) ↦[((rM.slice (Rect.unit (s := S16x256x256) ![5, 0, 0] S1x256x256.size inb_S16x256x256_S1x256x256_5_0_0) (fun _ => rfl)).squeeze S256x256 squeezes_S1x256x256_S256x256).view.set]{fullShare}
          ((rM.slice (Rect.unit (s := S16x256x256) ![5, 0, 0] S1x256x256.size inb_S16x256x256_S1x256x256_5_0_0) (fun _ => rfl)).squeeze S256x256 squeezes_S1x256x256_S256x256).view.write (Elt F) b (sentBlock m (bwd c (off 4)) 4) Finset.univ)) := by
  rw [payload_recv]; unfold recvPay slotPts landed; rfl
@[sl_rounds] theorem payload_send_5 (c : Dev nD) (x : Fin 15) :
    (a2aRd (F := F) m).payload (sendCell c 5) 0 x = ((xM.slice (Rect.unit (s := S4096x256) (k0_off2 c 6#32) S256x256.size (k0_off2_inb c 5)) (fun _ => rfl)).view.loc (c : Thread nD τ) ↦[(xM.slice (Rect.unit (s := S4096x256) (k0_off2 c 6#32) S256x256.size (k0_off2_inb c 5)) (fun _ => rfl)).view.set]{xShare 5} xstg m c) := by
  rw [payload_send]; rfl
@[sl_rounds high] theorem payload_arrive_5 (c : Dev nD) (x : Fin 15) :
    (a2aRd (F := F) m).payload (recvCell (fwd c 6) 5) 0 x
      = iprop(∃ b, (((rM.slice (Rect.unit (s := S16x256x256) ![6, 0, 0] S1x256x256.size inb_S16x256x256_S1x256x256_6_0_0) (fun _ => rfl)).squeeze S256x256 squeezes_S1x256x256_S256x256).view.loc (fwd c 6 : Thread nD τ) ↦[((rM.slice (Rect.unit (s := S16x256x256) ![6, 0, 0] S1x256x256.size inb_S16x256x256_S1x256x256_6_0_0) (fun _ => rfl)).squeeze S256x256 squeezes_S1x256x256_S256x256).view.set]{fullShare}
          ((rM.slice (Rect.unit (s := S16x256x256) ![6, 0, 0] S1x256x256.size inb_S16x256x256_S1x256x256_6_0_0) (fun _ => rfl)).squeeze S256x256 squeezes_S1x256x256_S256x256).view.write (Elt F) b ((xM.slice (Rect.unit (s := S4096x256) (k0_off2 c 6#32) S256x256.size (k0_off2_inb c 5)) (fun _ => rfl)).view.read (Elt F) (xstg m c)) Finset.univ)) := by
  rw [payload_recv]; unfold recvPay slotPts landed sentBlock; rw [show bwd (fwd c 6) (off 5) = c from bwd_fwd c (off 5)]; rfl
@[sl_rounds] theorem payload_landed_5 (c : Dev nD) (x : Fin 15) :
    (a2aRd (F := F) m).payload (recvCell c 5) 0 x
      = iprop(∃ b, (((rM.slice (Rect.unit (s := S16x256x256) ![6, 0, 0] S1x256x256.size inb_S16x256x256_S1x256x256_6_0_0) (fun _ => rfl)).squeeze S256x256 squeezes_S1x256x256_S256x256).view.loc (c : Thread nD τ) ↦[((rM.slice (Rect.unit (s := S16x256x256) ![6, 0, 0] S1x256x256.size inb_S16x256x256_S1x256x256_6_0_0) (fun _ => rfl)).squeeze S256x256 squeezes_S1x256x256_S256x256).view.set]{fullShare}
          ((rM.slice (Rect.unit (s := S16x256x256) ![6, 0, 0] S1x256x256.size inb_S16x256x256_S1x256x256_6_0_0) (fun _ => rfl)).squeeze S256x256 squeezes_S1x256x256_S256x256).view.write (Elt F) b (sentBlock m (bwd c (off 5)) 5) Finset.univ)) := by
  rw [payload_recv]; unfold recvPay slotPts landed; rfl
@[sl_rounds] theorem payload_send_6 (c : Dev nD) (x : Fin 15) :
    (a2aRd (F := F) m).payload (sendCell c 6) 0 x = ((xM.slice (Rect.unit (s := S4096x256) (k0_off2 c 7#32) S256x256.size (k0_off2_inb c 6)) (fun _ => rfl)).view.loc (c : Thread nD τ) ↦[(xM.slice (Rect.unit (s := S4096x256) (k0_off2 c 7#32) S256x256.size (k0_off2_inb c 6)) (fun _ => rfl)).view.set]{xShare 6} xstg m c) := by
  rw [payload_send]; rfl
@[sl_rounds high] theorem payload_arrive_6 (c : Dev nD) (x : Fin 15) :
    (a2aRd (F := F) m).payload (recvCell (fwd c 7) 6) 0 x
      = iprop(∃ b, (((rM.slice (Rect.unit (s := S16x256x256) ![7, 0, 0] S1x256x256.size inb_S16x256x256_S1x256x256_7_0_0) (fun _ => rfl)).squeeze S256x256 squeezes_S1x256x256_S256x256).view.loc (fwd c 7 : Thread nD τ) ↦[((rM.slice (Rect.unit (s := S16x256x256) ![7, 0, 0] S1x256x256.size inb_S16x256x256_S1x256x256_7_0_0) (fun _ => rfl)).squeeze S256x256 squeezes_S1x256x256_S256x256).view.set]{fullShare}
          ((rM.slice (Rect.unit (s := S16x256x256) ![7, 0, 0] S1x256x256.size inb_S16x256x256_S1x256x256_7_0_0) (fun _ => rfl)).squeeze S256x256 squeezes_S1x256x256_S256x256).view.write (Elt F) b ((xM.slice (Rect.unit (s := S4096x256) (k0_off2 c 7#32) S256x256.size (k0_off2_inb c 6)) (fun _ => rfl)).view.read (Elt F) (xstg m c)) Finset.univ)) := by
  rw [payload_recv]; unfold recvPay slotPts landed sentBlock; rw [show bwd (fwd c 7) (off 6) = c from bwd_fwd c (off 6)]; rfl
@[sl_rounds] theorem payload_landed_6 (c : Dev nD) (x : Fin 15) :
    (a2aRd (F := F) m).payload (recvCell c 6) 0 x
      = iprop(∃ b, (((rM.slice (Rect.unit (s := S16x256x256) ![7, 0, 0] S1x256x256.size inb_S16x256x256_S1x256x256_7_0_0) (fun _ => rfl)).squeeze S256x256 squeezes_S1x256x256_S256x256).view.loc (c : Thread nD τ) ↦[((rM.slice (Rect.unit (s := S16x256x256) ![7, 0, 0] S1x256x256.size inb_S16x256x256_S1x256x256_7_0_0) (fun _ => rfl)).squeeze S256x256 squeezes_S1x256x256_S256x256).view.set]{fullShare}
          ((rM.slice (Rect.unit (s := S16x256x256) ![7, 0, 0] S1x256x256.size inb_S16x256x256_S1x256x256_7_0_0) (fun _ => rfl)).squeeze S256x256 squeezes_S1x256x256_S256x256).view.write (Elt F) b (sentBlock m (bwd c (off 6)) 6) Finset.univ)) := by
  rw [payload_recv]; unfold recvPay slotPts landed; rfl
@[sl_rounds] theorem payload_send_7 (c : Dev nD) (x : Fin 15) :
    (a2aRd (F := F) m).payload (sendCell c 7) 0 x = ((xM.slice (Rect.unit (s := S4096x256) (k0_off2 c 8#32) S256x256.size (k0_off2_inb c 7)) (fun _ => rfl)).view.loc (c : Thread nD τ) ↦[(xM.slice (Rect.unit (s := S4096x256) (k0_off2 c 8#32) S256x256.size (k0_off2_inb c 7)) (fun _ => rfl)).view.set]{xShare 7} xstg m c) := by
  rw [payload_send]; rfl
@[sl_rounds high] theorem payload_arrive_7 (c : Dev nD) (x : Fin 15) :
    (a2aRd (F := F) m).payload (recvCell (fwd c 8) 7) 0 x
      = iprop(∃ b, (((rM.slice (Rect.unit (s := S16x256x256) ![8, 0, 0] S1x256x256.size inb_S16x256x256_S1x256x256_8_0_0) (fun _ => rfl)).squeeze S256x256 squeezes_S1x256x256_S256x256).view.loc (fwd c 8 : Thread nD τ) ↦[((rM.slice (Rect.unit (s := S16x256x256) ![8, 0, 0] S1x256x256.size inb_S16x256x256_S1x256x256_8_0_0) (fun _ => rfl)).squeeze S256x256 squeezes_S1x256x256_S256x256).view.set]{fullShare}
          ((rM.slice (Rect.unit (s := S16x256x256) ![8, 0, 0] S1x256x256.size inb_S16x256x256_S1x256x256_8_0_0) (fun _ => rfl)).squeeze S256x256 squeezes_S1x256x256_S256x256).view.write (Elt F) b ((xM.slice (Rect.unit (s := S4096x256) (k0_off2 c 8#32) S256x256.size (k0_off2_inb c 7)) (fun _ => rfl)).view.read (Elt F) (xstg m c)) Finset.univ)) := by
  rw [payload_recv]; unfold recvPay slotPts landed sentBlock; rw [show bwd (fwd c 8) (off 7) = c from bwd_fwd c (off 7)]; rfl
@[sl_rounds] theorem payload_landed_7 (c : Dev nD) (x : Fin 15) :
    (a2aRd (F := F) m).payload (recvCell c 7) 0 x
      = iprop(∃ b, (((rM.slice (Rect.unit (s := S16x256x256) ![8, 0, 0] S1x256x256.size inb_S16x256x256_S1x256x256_8_0_0) (fun _ => rfl)).squeeze S256x256 squeezes_S1x256x256_S256x256).view.loc (c : Thread nD τ) ↦[((rM.slice (Rect.unit (s := S16x256x256) ![8, 0, 0] S1x256x256.size inb_S16x256x256_S1x256x256_8_0_0) (fun _ => rfl)).squeeze S256x256 squeezes_S1x256x256_S256x256).view.set]{fullShare}
          ((rM.slice (Rect.unit (s := S16x256x256) ![8, 0, 0] S1x256x256.size inb_S16x256x256_S1x256x256_8_0_0) (fun _ => rfl)).squeeze S256x256 squeezes_S1x256x256_S256x256).view.write (Elt F) b (sentBlock m (bwd c (off 7)) 7) Finset.univ)) := by
  rw [payload_recv]; unfold recvPay slotPts landed; rfl
@[sl_rounds] theorem payload_send_8 (c : Dev nD) (x : Fin 15) :
    (a2aRd (F := F) m).payload (sendCell c 8) 0 x = ((xM.slice (Rect.unit (s := S4096x256) (k0_off2 c 9#32) S256x256.size (k0_off2_inb c 8)) (fun _ => rfl)).view.loc (c : Thread nD τ) ↦[(xM.slice (Rect.unit (s := S4096x256) (k0_off2 c 9#32) S256x256.size (k0_off2_inb c 8)) (fun _ => rfl)).view.set]{xShare 8} xstg m c) := by
  rw [payload_send]; rfl
@[sl_rounds high] theorem payload_arrive_8 (c : Dev nD) (x : Fin 15) :
    (a2aRd (F := F) m).payload (recvCell (fwd c 9) 8) 0 x
      = iprop(∃ b, (((rM.slice (Rect.unit (s := S16x256x256) ![9, 0, 0] S1x256x256.size inb_S16x256x256_S1x256x256_9_0_0) (fun _ => rfl)).squeeze S256x256 squeezes_S1x256x256_S256x256).view.loc (fwd c 9 : Thread nD τ) ↦[((rM.slice (Rect.unit (s := S16x256x256) ![9, 0, 0] S1x256x256.size inb_S16x256x256_S1x256x256_9_0_0) (fun _ => rfl)).squeeze S256x256 squeezes_S1x256x256_S256x256).view.set]{fullShare}
          ((rM.slice (Rect.unit (s := S16x256x256) ![9, 0, 0] S1x256x256.size inb_S16x256x256_S1x256x256_9_0_0) (fun _ => rfl)).squeeze S256x256 squeezes_S1x256x256_S256x256).view.write (Elt F) b ((xM.slice (Rect.unit (s := S4096x256) (k0_off2 c 9#32) S256x256.size (k0_off2_inb c 8)) (fun _ => rfl)).view.read (Elt F) (xstg m c)) Finset.univ)) := by
  rw [payload_recv]; unfold recvPay slotPts landed sentBlock; rw [show bwd (fwd c 9) (off 8) = c from bwd_fwd c (off 8)]; rfl
@[sl_rounds] theorem payload_landed_8 (c : Dev nD) (x : Fin 15) :
    (a2aRd (F := F) m).payload (recvCell c 8) 0 x
      = iprop(∃ b, (((rM.slice (Rect.unit (s := S16x256x256) ![9, 0, 0] S1x256x256.size inb_S16x256x256_S1x256x256_9_0_0) (fun _ => rfl)).squeeze S256x256 squeezes_S1x256x256_S256x256).view.loc (c : Thread nD τ) ↦[((rM.slice (Rect.unit (s := S16x256x256) ![9, 0, 0] S1x256x256.size inb_S16x256x256_S1x256x256_9_0_0) (fun _ => rfl)).squeeze S256x256 squeezes_S1x256x256_S256x256).view.set]{fullShare}
          ((rM.slice (Rect.unit (s := S16x256x256) ![9, 0, 0] S1x256x256.size inb_S16x256x256_S1x256x256_9_0_0) (fun _ => rfl)).squeeze S256x256 squeezes_S1x256x256_S256x256).view.write (Elt F) b (sentBlock m (bwd c (off 8)) 8) Finset.univ)) := by
  rw [payload_recv]; unfold recvPay slotPts landed; rfl
@[sl_rounds] theorem payload_send_9 (c : Dev nD) (x : Fin 15) :
    (a2aRd (F := F) m).payload (sendCell c 9) 0 x = ((xM.slice (Rect.unit (s := S4096x256) (k0_off2 c 10#32) S256x256.size (k0_off2_inb c 9)) (fun _ => rfl)).view.loc (c : Thread nD τ) ↦[(xM.slice (Rect.unit (s := S4096x256) (k0_off2 c 10#32) S256x256.size (k0_off2_inb c 9)) (fun _ => rfl)).view.set]{xShare 9} xstg m c) := by
  rw [payload_send]; rfl
@[sl_rounds high] theorem payload_arrive_9 (c : Dev nD) (x : Fin 15) :
    (a2aRd (F := F) m).payload (recvCell (fwd c 10) 9) 0 x
      = iprop(∃ b, (((rM.slice (Rect.unit (s := S16x256x256) ![10, 0, 0] S1x256x256.size inb_S16x256x256_S1x256x256_10_0_0) (fun _ => rfl)).squeeze S256x256 squeezes_S1x256x256_S256x256).view.loc (fwd c 10 : Thread nD τ) ↦[((rM.slice (Rect.unit (s := S16x256x256) ![10, 0, 0] S1x256x256.size inb_S16x256x256_S1x256x256_10_0_0) (fun _ => rfl)).squeeze S256x256 squeezes_S1x256x256_S256x256).view.set]{fullShare}
          ((rM.slice (Rect.unit (s := S16x256x256) ![10, 0, 0] S1x256x256.size inb_S16x256x256_S1x256x256_10_0_0) (fun _ => rfl)).squeeze S256x256 squeezes_S1x256x256_S256x256).view.write (Elt F) b ((xM.slice (Rect.unit (s := S4096x256) (k0_off2 c 10#32) S256x256.size (k0_off2_inb c 9)) (fun _ => rfl)).view.read (Elt F) (xstg m c)) Finset.univ)) := by
  rw [payload_recv]; unfold recvPay slotPts landed sentBlock; rw [show bwd (fwd c 10) (off 9) = c from bwd_fwd c (off 9)]; rfl
@[sl_rounds] theorem payload_landed_9 (c : Dev nD) (x : Fin 15) :
    (a2aRd (F := F) m).payload (recvCell c 9) 0 x
      = iprop(∃ b, (((rM.slice (Rect.unit (s := S16x256x256) ![10, 0, 0] S1x256x256.size inb_S16x256x256_S1x256x256_10_0_0) (fun _ => rfl)).squeeze S256x256 squeezes_S1x256x256_S256x256).view.loc (c : Thread nD τ) ↦[((rM.slice (Rect.unit (s := S16x256x256) ![10, 0, 0] S1x256x256.size inb_S16x256x256_S1x256x256_10_0_0) (fun _ => rfl)).squeeze S256x256 squeezes_S1x256x256_S256x256).view.set]{fullShare}
          ((rM.slice (Rect.unit (s := S16x256x256) ![10, 0, 0] S1x256x256.size inb_S16x256x256_S1x256x256_10_0_0) (fun _ => rfl)).squeeze S256x256 squeezes_S1x256x256_S256x256).view.write (Elt F) b (sentBlock m (bwd c (off 9)) 9) Finset.univ)) := by
  rw [payload_recv]; unfold recvPay slotPts landed; rfl
@[sl_rounds] theorem payload_send_10 (c : Dev nD) (x : Fin 15) :
    (a2aRd (F := F) m).payload (sendCell c 10) 0 x = ((xM.slice (Rect.unit (s := S4096x256) (k0_off2 c 11#32) S256x256.size (k0_off2_inb c 10)) (fun _ => rfl)).view.loc (c : Thread nD τ) ↦[(xM.slice (Rect.unit (s := S4096x256) (k0_off2 c 11#32) S256x256.size (k0_off2_inb c 10)) (fun _ => rfl)).view.set]{xShare 10} xstg m c) := by
  rw [payload_send]; rfl
@[sl_rounds high] theorem payload_arrive_10 (c : Dev nD) (x : Fin 15) :
    (a2aRd (F := F) m).payload (recvCell (fwd c 11) 10) 0 x
      = iprop(∃ b, (((rM.slice (Rect.unit (s := S16x256x256) ![11, 0, 0] S1x256x256.size inb_S16x256x256_S1x256x256_11_0_0) (fun _ => rfl)).squeeze S256x256 squeezes_S1x256x256_S256x256).view.loc (fwd c 11 : Thread nD τ) ↦[((rM.slice (Rect.unit (s := S16x256x256) ![11, 0, 0] S1x256x256.size inb_S16x256x256_S1x256x256_11_0_0) (fun _ => rfl)).squeeze S256x256 squeezes_S1x256x256_S256x256).view.set]{fullShare}
          ((rM.slice (Rect.unit (s := S16x256x256) ![11, 0, 0] S1x256x256.size inb_S16x256x256_S1x256x256_11_0_0) (fun _ => rfl)).squeeze S256x256 squeezes_S1x256x256_S256x256).view.write (Elt F) b ((xM.slice (Rect.unit (s := S4096x256) (k0_off2 c 11#32) S256x256.size (k0_off2_inb c 10)) (fun _ => rfl)).view.read (Elt F) (xstg m c)) Finset.univ)) := by
  rw [payload_recv]; unfold recvPay slotPts landed sentBlock; rw [show bwd (fwd c 11) (off 10) = c from bwd_fwd c (off 10)]; rfl
@[sl_rounds] theorem payload_landed_10 (c : Dev nD) (x : Fin 15) :
    (a2aRd (F := F) m).payload (recvCell c 10) 0 x
      = iprop(∃ b, (((rM.slice (Rect.unit (s := S16x256x256) ![11, 0, 0] S1x256x256.size inb_S16x256x256_S1x256x256_11_0_0) (fun _ => rfl)).squeeze S256x256 squeezes_S1x256x256_S256x256).view.loc (c : Thread nD τ) ↦[((rM.slice (Rect.unit (s := S16x256x256) ![11, 0, 0] S1x256x256.size inb_S16x256x256_S1x256x256_11_0_0) (fun _ => rfl)).squeeze S256x256 squeezes_S1x256x256_S256x256).view.set]{fullShare}
          ((rM.slice (Rect.unit (s := S16x256x256) ![11, 0, 0] S1x256x256.size inb_S16x256x256_S1x256x256_11_0_0) (fun _ => rfl)).squeeze S256x256 squeezes_S1x256x256_S256x256).view.write (Elt F) b (sentBlock m (bwd c (off 10)) 10) Finset.univ)) := by
  rw [payload_recv]; unfold recvPay slotPts landed; rfl
@[sl_rounds] theorem payload_send_11 (c : Dev nD) (x : Fin 15) :
    (a2aRd (F := F) m).payload (sendCell c 11) 0 x = ((xM.slice (Rect.unit (s := S4096x256) (k0_off2 c 12#32) S256x256.size (k0_off2_inb c 11)) (fun _ => rfl)).view.loc (c : Thread nD τ) ↦[(xM.slice (Rect.unit (s := S4096x256) (k0_off2 c 12#32) S256x256.size (k0_off2_inb c 11)) (fun _ => rfl)).view.set]{xShare 11} xstg m c) := by
  rw [payload_send]; rfl
@[sl_rounds high] theorem payload_arrive_11 (c : Dev nD) (x : Fin 15) :
    (a2aRd (F := F) m).payload (recvCell (fwd c 12) 11) 0 x
      = iprop(∃ b, (((rM.slice (Rect.unit (s := S16x256x256) ![12, 0, 0] S1x256x256.size inb_S16x256x256_S1x256x256_12_0_0) (fun _ => rfl)).squeeze S256x256 squeezes_S1x256x256_S256x256).view.loc (fwd c 12 : Thread nD τ) ↦[((rM.slice (Rect.unit (s := S16x256x256) ![12, 0, 0] S1x256x256.size inb_S16x256x256_S1x256x256_12_0_0) (fun _ => rfl)).squeeze S256x256 squeezes_S1x256x256_S256x256).view.set]{fullShare}
          ((rM.slice (Rect.unit (s := S16x256x256) ![12, 0, 0] S1x256x256.size inb_S16x256x256_S1x256x256_12_0_0) (fun _ => rfl)).squeeze S256x256 squeezes_S1x256x256_S256x256).view.write (Elt F) b ((xM.slice (Rect.unit (s := S4096x256) (k0_off2 c 12#32) S256x256.size (k0_off2_inb c 11)) (fun _ => rfl)).view.read (Elt F) (xstg m c)) Finset.univ)) := by
  rw [payload_recv]; unfold recvPay slotPts landed sentBlock; rw [show bwd (fwd c 12) (off 11) = c from bwd_fwd c (off 11)]; rfl
@[sl_rounds] theorem payload_landed_11 (c : Dev nD) (x : Fin 15) :
    (a2aRd (F := F) m).payload (recvCell c 11) 0 x
      = iprop(∃ b, (((rM.slice (Rect.unit (s := S16x256x256) ![12, 0, 0] S1x256x256.size inb_S16x256x256_S1x256x256_12_0_0) (fun _ => rfl)).squeeze S256x256 squeezes_S1x256x256_S256x256).view.loc (c : Thread nD τ) ↦[((rM.slice (Rect.unit (s := S16x256x256) ![12, 0, 0] S1x256x256.size inb_S16x256x256_S1x256x256_12_0_0) (fun _ => rfl)).squeeze S256x256 squeezes_S1x256x256_S256x256).view.set]{fullShare}
          ((rM.slice (Rect.unit (s := S16x256x256) ![12, 0, 0] S1x256x256.size inb_S16x256x256_S1x256x256_12_0_0) (fun _ => rfl)).squeeze S256x256 squeezes_S1x256x256_S256x256).view.write (Elt F) b (sentBlock m (bwd c (off 11)) 11) Finset.univ)) := by
  rw [payload_recv]; unfold recvPay slotPts landed; rfl
@[sl_rounds] theorem payload_send_12 (c : Dev nD) (x : Fin 15) :
    (a2aRd (F := F) m).payload (sendCell c 12) 0 x = ((xM.slice (Rect.unit (s := S4096x256) (k0_off2 c 13#32) S256x256.size (k0_off2_inb c 12)) (fun _ => rfl)).view.loc (c : Thread nD τ) ↦[(xM.slice (Rect.unit (s := S4096x256) (k0_off2 c 13#32) S256x256.size (k0_off2_inb c 12)) (fun _ => rfl)).view.set]{xShare 12} xstg m c) := by
  rw [payload_send]; rfl
@[sl_rounds high] theorem payload_arrive_12 (c : Dev nD) (x : Fin 15) :
    (a2aRd (F := F) m).payload (recvCell (fwd c 13) 12) 0 x
      = iprop(∃ b, (((rM.slice (Rect.unit (s := S16x256x256) ![13, 0, 0] S1x256x256.size inb_S16x256x256_S1x256x256_13_0_0) (fun _ => rfl)).squeeze S256x256 squeezes_S1x256x256_S256x256).view.loc (fwd c 13 : Thread nD τ) ↦[((rM.slice (Rect.unit (s := S16x256x256) ![13, 0, 0] S1x256x256.size inb_S16x256x256_S1x256x256_13_0_0) (fun _ => rfl)).squeeze S256x256 squeezes_S1x256x256_S256x256).view.set]{fullShare}
          ((rM.slice (Rect.unit (s := S16x256x256) ![13, 0, 0] S1x256x256.size inb_S16x256x256_S1x256x256_13_0_0) (fun _ => rfl)).squeeze S256x256 squeezes_S1x256x256_S256x256).view.write (Elt F) b ((xM.slice (Rect.unit (s := S4096x256) (k0_off2 c 13#32) S256x256.size (k0_off2_inb c 12)) (fun _ => rfl)).view.read (Elt F) (xstg m c)) Finset.univ)) := by
  rw [payload_recv]; unfold recvPay slotPts landed sentBlock; rw [show bwd (fwd c 13) (off 12) = c from bwd_fwd c (off 12)]; rfl
@[sl_rounds] theorem payload_landed_12 (c : Dev nD) (x : Fin 15) :
    (a2aRd (F := F) m).payload (recvCell c 12) 0 x
      = iprop(∃ b, (((rM.slice (Rect.unit (s := S16x256x256) ![13, 0, 0] S1x256x256.size inb_S16x256x256_S1x256x256_13_0_0) (fun _ => rfl)).squeeze S256x256 squeezes_S1x256x256_S256x256).view.loc (c : Thread nD τ) ↦[((rM.slice (Rect.unit (s := S16x256x256) ![13, 0, 0] S1x256x256.size inb_S16x256x256_S1x256x256_13_0_0) (fun _ => rfl)).squeeze S256x256 squeezes_S1x256x256_S256x256).view.set]{fullShare}
          ((rM.slice (Rect.unit (s := S16x256x256) ![13, 0, 0] S1x256x256.size inb_S16x256x256_S1x256x256_13_0_0) (fun _ => rfl)).squeeze S256x256 squeezes_S1x256x256_S256x256).view.write (Elt F) b (sentBlock m (bwd c (off 12)) 12) Finset.univ)) := by
  rw [payload_recv]; unfold recvPay slotPts landed; rfl
@[sl_rounds] theorem payload_send_13 (c : Dev nD) (x : Fin 15) :
    (a2aRd (F := F) m).payload (sendCell c 13) 0 x = ((xM.slice (Rect.unit (s := S4096x256) (k0_off2 c 14#32) S256x256.size (k0_off2_inb c 13)) (fun _ => rfl)).view.loc (c : Thread nD τ) ↦[(xM.slice (Rect.unit (s := S4096x256) (k0_off2 c 14#32) S256x256.size (k0_off2_inb c 13)) (fun _ => rfl)).view.set]{xShare 13} xstg m c) := by
  rw [payload_send]; rfl
@[sl_rounds high] theorem payload_arrive_13 (c : Dev nD) (x : Fin 15) :
    (a2aRd (F := F) m).payload (recvCell (fwd c 14) 13) 0 x
      = iprop(∃ b, (((rM.slice (Rect.unit (s := S16x256x256) ![14, 0, 0] S1x256x256.size inb_S16x256x256_S1x256x256_14_0_0) (fun _ => rfl)).squeeze S256x256 squeezes_S1x256x256_S256x256).view.loc (fwd c 14 : Thread nD τ) ↦[((rM.slice (Rect.unit (s := S16x256x256) ![14, 0, 0] S1x256x256.size inb_S16x256x256_S1x256x256_14_0_0) (fun _ => rfl)).squeeze S256x256 squeezes_S1x256x256_S256x256).view.set]{fullShare}
          ((rM.slice (Rect.unit (s := S16x256x256) ![14, 0, 0] S1x256x256.size inb_S16x256x256_S1x256x256_14_0_0) (fun _ => rfl)).squeeze S256x256 squeezes_S1x256x256_S256x256).view.write (Elt F) b ((xM.slice (Rect.unit (s := S4096x256) (k0_off2 c 14#32) S256x256.size (k0_off2_inb c 13)) (fun _ => rfl)).view.read (Elt F) (xstg m c)) Finset.univ)) := by
  rw [payload_recv]; unfold recvPay slotPts landed sentBlock; rw [show bwd (fwd c 14) (off 13) = c from bwd_fwd c (off 13)]; rfl
@[sl_rounds] theorem payload_landed_13 (c : Dev nD) (x : Fin 15) :
    (a2aRd (F := F) m).payload (recvCell c 13) 0 x
      = iprop(∃ b, (((rM.slice (Rect.unit (s := S16x256x256) ![14, 0, 0] S1x256x256.size inb_S16x256x256_S1x256x256_14_0_0) (fun _ => rfl)).squeeze S256x256 squeezes_S1x256x256_S256x256).view.loc (c : Thread nD τ) ↦[((rM.slice (Rect.unit (s := S16x256x256) ![14, 0, 0] S1x256x256.size inb_S16x256x256_S1x256x256_14_0_0) (fun _ => rfl)).squeeze S256x256 squeezes_S1x256x256_S256x256).view.set]{fullShare}
          ((rM.slice (Rect.unit (s := S16x256x256) ![14, 0, 0] S1x256x256.size inb_S16x256x256_S1x256x256_14_0_0) (fun _ => rfl)).squeeze S256x256 squeezes_S1x256x256_S256x256).view.write (Elt F) b (sentBlock m (bwd c (off 13)) 13) Finset.univ)) := by
  rw [payload_recv]; unfold recvPay slotPts landed; rfl
@[sl_rounds] theorem payload_send_14 (c : Dev nD) (x : Fin 15) :
    (a2aRd (F := F) m).payload (sendCell c 14) 0 x = ((xM.slice (Rect.unit (s := S4096x256) (k0_off2 c 15#32) S256x256.size (k0_off2_inb c 14)) (fun _ => rfl)).view.loc (c : Thread nD τ) ↦[(xM.slice (Rect.unit (s := S4096x256) (k0_off2 c 15#32) S256x256.size (k0_off2_inb c 14)) (fun _ => rfl)).view.set]{xShare 14} xstg m c) := by
  rw [payload_send]; rfl
@[sl_rounds high] theorem payload_arrive_14 (c : Dev nD) (x : Fin 15) :
    (a2aRd (F := F) m).payload (recvCell (fwd c 15) 14) 0 x
      = iprop(∃ b, (((rM.slice (Rect.unit (s := S16x256x256) ![15, 0, 0] S1x256x256.size inb_S16x256x256_S1x256x256_15_0_0) (fun _ => rfl)).squeeze S256x256 squeezes_S1x256x256_S256x256).view.loc (fwd c 15 : Thread nD τ) ↦[((rM.slice (Rect.unit (s := S16x256x256) ![15, 0, 0] S1x256x256.size inb_S16x256x256_S1x256x256_15_0_0) (fun _ => rfl)).squeeze S256x256 squeezes_S1x256x256_S256x256).view.set]{fullShare}
          ((rM.slice (Rect.unit (s := S16x256x256) ![15, 0, 0] S1x256x256.size inb_S16x256x256_S1x256x256_15_0_0) (fun _ => rfl)).squeeze S256x256 squeezes_S1x256x256_S256x256).view.write (Elt F) b ((xM.slice (Rect.unit (s := S4096x256) (k0_off2 c 15#32) S256x256.size (k0_off2_inb c 14)) (fun _ => rfl)).view.read (Elt F) (xstg m c)) Finset.univ)) := by
  rw [payload_recv]; unfold recvPay slotPts landed sentBlock; rw [show bwd (fwd c 15) (off 14) = c from bwd_fwd c (off 14)]; rfl
@[sl_rounds] theorem payload_landed_14 (c : Dev nD) (x : Fin 15) :
    (a2aRd (F := F) m).payload (recvCell c 14) 0 x
      = iprop(∃ b, (((rM.slice (Rect.unit (s := S16x256x256) ![15, 0, 0] S1x256x256.size inb_S16x256x256_S1x256x256_15_0_0) (fun _ => rfl)).squeeze S256x256 squeezes_S1x256x256_S256x256).view.loc (c : Thread nD τ) ↦[((rM.slice (Rect.unit (s := S16x256x256) ![15, 0, 0] S1x256x256.size inb_S16x256x256_S1x256x256_15_0_0) (fun _ => rfl)).squeeze S256x256 squeezes_S1x256x256_S256x256).view.set]{fullShare}
          ((rM.slice (Rect.unit (s := S16x256x256) ![15, 0, 0] S1x256x256.size inb_S16x256x256_S1x256x256_15_0_0) (fun _ => rfl)).squeeze S256x256 squeezes_S1x256x256_S256x256).view.write (Elt F) b (sentBlock m (bwd c (off 14)) 14) Finset.univ)) := by
  rw [payload_recv]; unfold recvPay slotPts landed; rfl

@[sl_rounds] theorem duties_bar_list (c : Dev nD) : (a2aRd (F := F) m).duties (barCell c) 0 = {0, 1, 2, 3, 4, 5, 6, 7, 8, 9, 10, 11, 12, 13, 14} := by
  rw [duties_bar]; decide

attribute [sl_rounds] duties_send duties_recv amount_bar amount_send amount_recv expect_bar expect_send expect_recv

omit [FloatOps F] in
/-- Any assertion that is, by definition, a fifteen-fold separating conjunction, restated as one. -/
theorem as_sep15 {X P0 P1 P2 P3 P4 P5 P6 P7 P8 P9 P10 P11 P12 P13 P14 : sProp 𝕄} (h : X = iprop(P0 ∗ P1 ∗ P2 ∗ P3 ∗ P4 ∗ P5 ∗ P6 ∗ P7 ∗ P8 ∗ P9 ∗ P10 ∗ P11 ∗ P12 ∗ P13 ∗ P14)) : X ⊢ iprop(P0 ∗ P1 ∗ P2 ∗ P3 ∗ P4 ∗ P5 ∗ P6 ∗ P7 ∗ P8 ∗ P9 ∗ P10 ∗ P11 ∗ P12 ∗ P13 ∗ P14) := Entails.of_eq h

/-- A block's credit is 8192 units. -/
theorem N_val : N = 8192 := rfl
omit [FloatOps F] in
/-- The credit a transfer leaves its sender, restated in the block's credit. -/
theorem cred_N (g : GSem nD τ sig) : (cred (tallyAt g default 8192) : sProp 𝕄) = cred (tallyAt g () N) := rfl

end Cert.Kernel.A2A

end
-- ==== Proof.Bits.BodyFinish.lean ====
/-
  From the state a device's body ends in to the exit.

  The program names each slot, slab and weight slot by the numeral offsets it prints; these are the slots, slabs and
  weight slots of the protocol, by evaluating the offsets.  With that, the end state is the premise of the exit.
-/
import proofs.«900405_g7700000000000406_dist_a2a_gemm_m4096_k4096_n8192_f32_gelu_v7x_i16_1_alg».proof.Proof.Bits.BodyExit

noncomputable section

namespace Cert.Kernel.A2A

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots, the slabs and the weight slots with their numbers written out -/

omit [FloatOps F] in
theorem slot_long_0 (c : Dev nD) (X : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ))) :
    (((rM.slice (Rect.unit (s := S16x256x256) ![1, 0, 0] S1x256x256.size inb_S16x256x256_S1x256x256_1_0_0) (fun _ => rfl)).squeeze S256x256 squeezes_S1x256x256_S256x256).view.loc (c : Thread nD τ) ↦[((rM.slice (Rect.unit (s := S16x256x256) ![1, 0, 0] S1x256x256.size inb_S16x256x256_S1x256x256_1_0_0) (fun _ => rfl)).squeeze S256x256 squeezes_S1x256x256_S256x256).view.set]{fullShare} X : sProp 𝕄) = slotPts c 0 X := rfl
omit [FloatOps F] in
theorem slot_long_1 (c : Dev nD) (X : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ))) :
    (((rM.slice (Rect.unit (s := S16x256x256) ![2, 0, 0] S1x256x256.size inb_S16x256x256_S1x256x256_2_0_0) (fun _ => rfl)).squeeze S256x256 squeezes_S1x256x256_S256x256).view.loc (c : Thread nD τ) ↦[((rM.slice (Rect.unit (s := S16x256x256) ![2, 0, 0] S1x256x256.size inb_S16x256x256_S1x256x256_2_0_0) (fun _ => rfl)).squeeze S256x256 squeezes_S1x256x256_S256x256).view.set]{fullShare} X : sProp 𝕄) = slotPts c 1 X := rfl
omit [FloatOps F] in
theorem slot_long_2 (c : Dev nD) (X : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ))) :
    (((rM.slice (Rect.unit (s := S16x256x256) ![3, 0, 0] S1x256x256.size inb_S16x256x256_S1x256x256_3_0_0) (fun _ => rfl)).squeeze S256x256 squeezes_S1x256x256_S256x256).view.loc (c : Thread nD τ) ↦[((rM.slice (Rect.unit (s := S16x256x256) ![3, 0, 0] S1x256x256.size inb_S16x256x256_S1x256x256_3_0_0) (fun _ => rfl)).squeeze S256x256 squeezes_S1x256x256_S256x256).view.set]{fullShare} X : sProp 𝕄) = slotPts c 2 X := rfl
omit [FloatOps F] in
theorem slot_long_3 (c : Dev nD) (X : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ))) :
    (((rM.slice (Rect.unit (s := S16x256x256) ![4, 0, 0] S1x256x256.size inb_S16x256x256_S1x256x256_4_0_0) (fun _ => rfl)).squeeze S256x256 squeezes_S1x256x256_S256x256).view.loc (c : Thread nD τ) ↦[((rM.slice (Rect.unit (s := S16x256x256) ![4, 0, 0] S1x256x256.size inb_S16x256x256_S1x256x256_4_0_0) (fun _ => rfl)).squeeze S256x256 squeezes_S1x256x256_S256x256).view.set]{fullShare} X : sProp 𝕄) = slotPts c 3 X := rfl
omit [FloatOps F] in
theorem slot_long_4 (c : Dev nD) (X : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ))) :
    (((rM.slice (Rect.unit (s := S16x256x256) ![5, 0, 0] S1x256x256.size inb_S16x256x256_S1x256x256_5_0_0) (fun _ => rfl)).squeeze S256x256 squeezes_S1x256x256_S256x256).view.loc (c : Thread nD τ) ↦[((rM.slice (Rect.unit (s := S16x256x256) ![5, 0, 0] S1x256x256.size inb_S16x256x256_S1x256x256_5_0_0) (fun _ => rfl)).squeeze S256x256 squeezes_S1x256x256_S256x256).view.set]{fullShare} X : sProp 𝕄) = slotPts c 4 X := rfl
omit [FloatOps F] in
theorem slot_long_5 (c : Dev nD) (X : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ))) :
    (((rM.slice (Rect.unit (s := S16x256x256) ![6, 0, 0] S1x256x256.size inb_S16x256x256_S1x256x256_6_0_0) (fun _ => rfl)).squeeze S256x256 squeezes_S1x256x256_S256x256).view.loc (c : Thread nD τ) ↦[((rM.slice (Rect.unit (s := S16x256x256) ![6, 0, 0] S1x256x256.size inb_S16x256x256_S1x256x256_6_0_0) (fun _ => rfl)).squeeze S256x256 squeezes_S1x256x256_S256x256).view.set]{fullShare} X : sProp 𝕄) = slotPts c 5 X := rfl
omit [FloatOps F] in
theorem slot_long_6 (c : Dev nD) (X : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ))) :
    (((rM.slice (Rect.unit (s := S16x256x256) ![7, 0, 0] S1x256x256.size inb_S16x256x256_S1x256x256_7_0_0) (fun _ => rfl)).squeeze S256x256 squeezes_S1x256x256_S256x256).view.loc (c : Thread nD τ) ↦[((rM.slice (Rect.unit (s := S16x256x256) ![7, 0, 0] S1x256x256.size inb_S16x256x256_S1x256x256_7_0_0) (fun _ => rfl)).squeeze S256x256 squeezes_S1x256x256_S256x256).view.set]{fullShare} X : sProp 𝕄) = slotPts c 6 X := rfl
omit [FloatOps F] in
theorem slot_long_7 (c : Dev nD) (X : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ))) :
    (((rM.slice (Rect.unit (s := S16x256x256) ![8, 0, 0] S1x256x256.size inb_S16x256x256_S1x256x256_8_0_0) (fun _ => rfl)).squeeze S256x256 squeezes_S1x256x256_S256x256).view.loc (c : Thread nD τ) ↦[((rM.slice (Rect.unit (s := S16x256x256) ![8, 0, 0] S1x256x256.size inb_S16x256x256_S1x256x256_8_0_0) (fun _ => rfl)).squeeze S256x256 squeezes_S1x256x256_S256x256).view.set]{fullShare} X : sProp 𝕄) = slotPts c 7 X := rfl
omit [FloatOps F] in
theorem slot_long_8 (c : Dev nD) (X : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ))) :
    (((rM.slice (Rect.unit (s := S16x256x256) ![9, 0, 0] S1x256x256.size inb_S16x256x256_S1x256x256_9_0_0) (fun _ => rfl)).squeeze S256x256 squeezes_S1x256x256_S256x256).view.loc (c : Thread nD τ) ↦[((rM.slice (Rect.unit (s := S16x256x256) ![9, 0, 0] S1x256x256.size inb_S16x256x256_S1x256x256_9_0_0) (fun _ => rfl)).squeeze S256x256 squeezes_S1x256x256_S256x256).view.set]{fullShare} X : sProp 𝕄) = slotPts c 8 X := rfl
omit [FloatOps F] in
theorem slot_long_9 (c : Dev nD) (X : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ))) :
    (((rM.slice (Rect.unit (s := S16x256x256) ![10, 0, 0] S1x256x256.size inb_S16x256x256_S1x256x256_10_0_0) (fun _ => rfl)).squeeze S256x256 squeezes_S1x256x256_S256x256).view.loc (c : Thread nD τ) ↦[((rM.slice (Rect.unit (s := S16x256x256) ![10, 0, 0] S1x256x256.size inb_S16x256x256_S1x256x256_10_0_0) (fun _ => rfl)).squeeze S256x256 squeezes_S1x256x256_S256x256).view.set]{fullShare} X : sProp 𝕄) = slotPts c 9 X := rfl
omit [FloatOps F] in
theorem slot_long_10 (c : Dev nD) (X : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ))) :
    (((rM.slice (Rect.unit (s := S16x256x256) ![11, 0, 0] S1x256x256.size inb_S16x256x256_S1x256x256_11_0_0) (fun _ => rfl)).squeeze S256x256 squeezes_S1x256x256_S256x256).view.loc (c : Thread nD τ) ↦[((rM.slice (Rect.unit (s := S16x256x256) ![11, 0, 0] S1x256x256.size inb_S16x256x256_S1x256x256_11_0_0) (fun _ => rfl)).squeeze S256x256 squeezes_S1x256x256_S256x256).view.set]{fullShare} X : sProp 𝕄) = slotPts c 10 X := rfl
omit [FloatOps F] in
theorem slot_long_11 (c : Dev nD) (X : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ))) :
    (((rM.slice (Rect.unit (s := S16x256x256) ![12, 0, 0] S1x256x256.size inb_S16x256x256_S1x256x256_12_0_0) (fun _ => rfl)).squeeze S256x256 squeezes_S1x256x256_S256x256).view.loc (c : Thread nD τ) ↦[((rM.slice (Rect.unit (s := S16x256x256) ![12, 0, 0] S1x256x256.size inb_S16x256x256_S1x256x256_12_0_0) (fun _ => rfl)).squeeze S256x256 squeezes_S1x256x256_S256x256).view.set]{fullShare} X : sProp 𝕄) = slotPts c 11 X := rfl
omit [FloatOps F] in
theorem slot_long_12 (c : Dev nD) (X : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ))) :
    (((rM.slice (Rect.unit (s := S16x256x256) ![13, 0, 0] S1x256x256.size inb_S16x256x256_S1x256x256_13_0_0) (fun _ => rfl)).squeeze S256x256 squeezes_S1x256x256_S256x256).view.loc (c : Thread nD τ) ↦[((rM.slice (Rect.unit (s := S16x256x256) ![13, 0, 0] S1x256x256.size inb_S16x256x256_S1x256x256_13_0_0) (fun _ => rfl)).squeeze S256x256 squeezes_S1x256x256_S256x256).view.set]{fullShare} X : sProp 𝕄) = slotPts c 12 X := rfl
omit [FloatOps F] in
theorem slot_long_13 (c : Dev nD) (X : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ))) :
    (((rM.slice (Rect.unit (s := S16x256x256) ![14, 0, 0] S1x256x256.size inb_S16x256x256_S1x256x256_14_0_0) (fun _ => rfl)).squeeze S256x256 squeezes_S1x256x256_S256x256).view.loc (c : Thread nD τ) ↦[((rM.slice (Rect.unit (s := S16x256x256) ![14, 0, 0] S1x256x256.size inb_S16x256x256_S1x256x256_14_0_0) (fun _ => rfl)).squeeze S256x256 squeezes_S1x256x256_S256x256).view.set]{fullShare} X : sProp 𝕄) = slotPts c 13 X := rfl
omit [FloatOps F] in
theorem slot_long_14 (c : Dev nD) (X : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ))) :
    (((rM.slice (Rect.unit (s := S16x256x256) ![15, 0, 0] S1x256x256.size inb_S16x256x256_S1x256x256_15_0_0) (fun _ => rfl)).squeeze S256x256 squeezes_S1x256x256_S256x256).view.loc (c : Thread nD τ) ↦[((rM.slice (Rect.unit (s := S16x256x256) ![15, 0, 0] S1x256x256.size inb_S16x256x256_S1x256x256_15_0_0) (fun _ => rfl)).squeeze S256x256 squeezes_S1x256x256_S256x256).view.set]{fullShare} X : sProp 𝕄) = slotPts c 14 X := rfl
theorem slab_long_0 (c : Dev nD) :
    ((xM.slice (Rect.unit (s := S4096x256) (k0_off2 c 1#32) S256x256.size (k0_off2_inb c 0)) (fun _ => rfl)).view.loc (c : Thread nD τ) ↦[(xM.slice (Rect.unit (s := S4096x256) (k0_off2 c 1#32) S256x256.size (k0_off2_inb c 0)) (fun _ => rfl)).view.set]{xShare 0} xstg m c : sProp 𝕄) = slabPts m c 0 := rfl
theorem rest_long_0 (c : Dev nD) :
    ((xM : Memref sig .tc .vmem S4096x256 .f32).view.loc (c : Thread nD τ) ↦[(xM : Memref sig .tc .vmem S4096x256 .f32).view.set \ (xM.slice (Rect.unit (s := S4096x256) (k0_off2 c 1#32) S256x256.size (k0_off2_inb c 0)) (fun _ => rfl)).view.set]{xShare 0} xstg m c : sProp 𝕄) = xRest m c 0 := rfl
theorem slab_long_1 (c : Dev nD) :
    ((xM.slice (Rect.unit (s := S4096x256) (k0_off2 c 2#32) S256x256.size (k0_off2_inb c 1)) (fun _ => rfl)).view.loc (c : Thread nD τ) ↦[(xM.slice (Rect.unit (s := S4096x256) (k0_off2 c 2#32) S256x256.size (k0_off2_inb c 1)) (fun _ => rfl)).view.set]{xShare 1} xstg m c : sProp 𝕄) = slabPts m c 1 := rfl
theorem rest_long_1 (c : Dev nD) :
    ((xM : Memref sig .tc .vmem S4096x256 .f32).view.loc (c : Thread nD τ) ↦[(xM : Memref sig .tc .vmem S4096x256 .f32).view.set \ (xM.slice (Rect.unit (s := S4096x256) (k0_off2 c 2#32) S256x256.size (k0_off2_inb c 1)) (fun _ => rfl)).view.set]{xShare 1} xstg m c : sProp 𝕄) = xRest m c 1 := rfl
theorem slab_long_2 (c : Dev nD) :
    ((xM.slice (Rect.unit (s := S4096x256) (k0_off2 c 3#32) S256x256.size (k0_off2_inb c 2)) (fun _ => rfl)).view.loc (c : Thread nD τ) ↦[(xM.slice (Rect.unit (s := S4096x256) (k0_off2 c 3#32) S256x256.size (k0_off2_inb c 2)) (fun _ => rfl)).view.set]{xShare 2} xstg m c : sProp 𝕄) = slabPts m c 2 := rfl
theorem rest_long_2 (c : Dev nD) :
    ((xM : Memref sig .tc .vmem S4096x256 .f32).view.loc (c : Thread nD τ) ↦[(xM : Memref sig .tc .vmem S4096x256 .f32).view.set \ (xM.slice (Rect.unit (s := S4096x256) (k0_off2 c 3#32) S256x256.size (k0_off2_inb c 2)) (fun _ => rfl)).view.set]{xShare 2} xstg m c : sProp 𝕄) = xRest m c 2 := rfl
theorem slab_long_3 (c : Dev nD) :
    ((xM.slice (Rect.unit (s := S4096x256) (k0_off2 c 4#32) S256x256.size (k0_off2_inb c 3)) (fun _ => rfl)).view.loc (c : Thread nD τ) ↦[(xM.slice (Rect.unit (s := S4096x256) (k0_off2 c 4#32) S256x256.size (k0_off2_inb c 3)) (fun _ => rfl)).view.set]{xShare 3} xstg m c : sProp 𝕄) = slabPts m c 3 := rfl
theorem rest_long_3 (c : Dev nD) :
    ((xM : Memref sig .tc .vmem S4096x256 .f32).view.loc (c : Thread nD τ) ↦[(xM : Memref sig .tc .vmem S4096x256 .f32).view.set \ (xM.slice (Rect.unit (s := S4096x256) (k0_off2 c 4#32) S256x256.size (k0_off2_inb c 3)) (fun _ => rfl)).view.set]{xShare 3} xstg m c : sProp 𝕄) = xRest m c 3 := rfl
theorem slab_long_4 (c : Dev nD) :
    ((xM.slice (Rect.unit (s := S4096x256) (k0_off2 c 5#32) S256x256.size (k0_off2_inb c 4)) (fun _ => rfl)).view.loc (c : Thread nD τ) ↦[(xM.slice (Rect.unit (s := S4096x256) (k0_off2 c 5#32) S256x256.size (k0_off2_inb c 4)) (fun _ => rfl)).view.set]{xShare 4} xstg m c : sProp 𝕄) = slabPts m c 4 := rfl
theorem rest_long_4 (c : Dev nD) :
    ((xM : Memref sig .tc .vmem S4096x256 .f32).view.loc (c : Thread nD τ) ↦[(xM : Memref sig .tc .vmem S4096x256 .f32).view.set \ (xM.slice (Rect.unit (s := S4096x256) (k0_off2 c 5#32) S256x256.size (k0_off2_inb c 4)) (fun _ => rfl)).view.set]{xShare 4} xstg m c : sProp 𝕄) = xRest m c 4 := rfl
theorem slab_long_5 (c : Dev nD) :
    ((xM.slice (Rect.unit (s := S4096x256) (k0_off2 c 6#32) S256x256.size (k0_off2_inb c 5)) (fun _ => rfl)).view.loc (c : Thread nD τ) ↦[(xM.slice (Rect.unit (s := S4096x256) (k0_off2 c 6#32) S256x256.size (k0_off2_inb c 5)) (fun _ => rfl)).view.set]{xShare 5} xstg m c : sProp 𝕄) = slabPts m c 5 := rfl
theorem rest_long_5 (c : Dev nD) :
    ((xM : Memref sig .tc .vmem S4096x256 .f32).view.loc (c : Thread nD τ) ↦[(xM : Memref sig .tc .vmem S4096x256 .f32).view.set \ (xM.slice (Rect.unit (s := S4096x256) (k0_off2 c 6#32) S256x256.size (k0_off2_inb c 5)) (fun _ => rfl)).view.set]{xShare 5} xstg m c : sProp 𝕄) = xRest m c 5 := rfl
theorem slab_long_6 (c : Dev nD) :
    ((xM.slice (Rect.unit (s := S4096x256) (k0_off2 c 7#32) S256x256.size (k0_off2_inb c 6)) (fun _ => rfl)).view.loc (c : Thread nD τ) ↦[(xM.slice (Rect.unit (s := S4096x256) (k0_off2 c 7#32) S256x256.size (k0_off2_inb c 6)) (fun _ => rfl)).view.set]{xShare 6} xstg m c : sProp 𝕄) = slabPts m c 6 := rfl
theorem rest_long_6 (c : Dev nD) :
    ((xM : Memref sig .tc .vmem S4096x256 .f32).view.loc (c : Thread nD τ) ↦[(xM : Memref sig .tc .vmem S4096x256 .f32).view.set \ (xM.slice (Rect.unit (s := S4096x256) (k0_off2 c 7#32) S256x256.size (k0_off2_inb c 6)) (fun _ => rfl)).view.set]{xShare 6} xstg m c : sProp 𝕄) = xRest m c 6 := rfl
theorem slab_long_7 (c : Dev nD) :
    ((xM.slice (Rect.unit (s := S4096x256) (k0_off2 c 8#32) S256x256.size (k0_off2_inb c 7)) (fun _ => rfl)).view.loc (c : Thread nD τ) ↦[(xM.slice (Rect.unit (s := S4096x256) (k0_off2 c 8#32) S256x256.size (k0_off2_inb c 7)) (fun _ => rfl)).view.set]{xShare 7} xstg m c : sProp 𝕄) = slabPts m c 7 := rfl
theorem rest_long_7 (c : Dev nD) :
    ((xM : Memref sig .tc .vmem S4096x256 .f32).view.loc (c : Thread nD τ) ↦[(xM : Memref sig .tc .vmem S4096x256 .f32).view.set \ (xM.slice (Rect.unit (s := S4096x256) (k0_off2 c 8#32) S256x256.size (k0_off2_inb c 7)) (fun _ => rfl)).view.set]{xShare 7} xstg m c : sProp 𝕄) = xRest m c 7 := rfl
theorem slab_long_8 (c : Dev nD) :
    ((xM.slice (Rect.unit (s := S4096x256) (k0_off2 c 9#32) S256x256.size (k0_off2_inb c 8)) (fun _ => rfl)).view.loc (c : Thread nD τ) ↦[(xM.slice (Rect.unit (s := S4096x256) (k0_off2 c 9#32) S256x256.size (k0_off2_inb c 8)) (fun _ => rfl)).view.set]{xShare 8} xstg m c : sProp 𝕄) = slabPts m c 8 := rfl
theorem rest_long_8 (c : Dev nD) :
    ((xM : Memref sig .tc .vmem S4096x256 .f32).view.loc (c : Thread nD τ) ↦[(xM : Memref sig .tc .vmem S4096x256 .f32).view.set \ (xM.slice (Rect.unit (s := S4096x256) (k0_off2 c 9#32) S256x256.size (k0_off2_inb c 8)) (fun _ => rfl)).view.set]{xShare 8} xstg m c : sProp 𝕄) = xRest m c 8 := rfl
theorem slab_long_9 (c : Dev nD) :
    ((xM.slice (Rect.unit (s := S4096x256) (k0_off2 c 10#32) S256x256.size (k0_off2_inb c 9)) (fun _ => rfl)).view.loc (c : Thread nD τ) ↦[(xM.slice (Rect.unit (s := S4096x256) (k0_off2 c 10#32) S256x256.size (k0_off2_inb c 9)) (fun _ => rfl)).view.set]{xShare 9} xstg m c : sProp 𝕄) = slabPts m c 9 := rfl
theorem rest_long_9 (c : Dev nD) :
    ((xM : Memref sig .tc .vmem S4096x256 .f32).view.loc (c : Thread nD τ) ↦[(xM : Memref sig .tc .vmem S4096x256 .f32).view.set \ (xM.slice (Rect.unit (s := S4096x256) (k0_off2 c 10#32) S256x256.size (k0_off2_inb c 9)) (fun _ => rfl)).view.set]{xShare 9} xstg m c : sProp 𝕄) = xRest m c 9 := rfl
theorem slab_long_10 (c : Dev nD) :
    ((xM.slice (Rect.unit (s := S4096x256) (k0_off2 c 11#32) S256x256.size (k0_off2_inb c 10)) (fun _ => rfl)).view.loc (c : Thread nD τ) ↦[(xM.slice (Rect.unit (s := S4096x256) (k0_off2 c 11#32) S256x256.size (k0_off2_inb c 10)) (fun _ => rfl)).view.set]{xShare 10} xstg m c : sProp 𝕄) = slabPts m c 10 := rfl
theorem rest_long_10 (c : Dev nD) :
    ((xM : Memref sig .tc .vmem S4096x256 .f32).view.loc (c : Thread nD τ) ↦[(xM : Memref sig .tc .vmem S4096x256 .f32).view.set \ (xM.slice (Rect.unit (s := S4096x256) (k0_off2 c 11#32) S256x256.size (k0_off2_inb c 10)) (fun _ => rfl)).view.set]{xShare 10} xstg m c : sProp 𝕄) = xRest m c 10 := rfl
theorem slab_long_11 (c : Dev nD) :
    ((xM.slice (Rect.unit (s := S4096x256) (k0_off2 c 12#32) S256x256.size (k0_off2_inb c 11)) (fun _ => rfl)).view.loc (c : Thread nD τ) ↦[(xM.slice (Rect.unit (s := S4096x256) (k0_off2 c 12#32) S256x256.size (k0_off2_inb c 11)) (fun _ => rfl)).view.set]{xShare 11} xstg m c : sProp 𝕄) = slabPts m c 11 := rfl
theorem rest_long_11 (c : Dev nD) :
    ((xM : Memref sig .tc .vmem S4096x256 .f32).view.loc (c : Thread nD τ) ↦[(xM : Memref sig .tc .vmem S4096x256 .f32).view.set \ (xM.slice (Rect.unit (s := S4096x256) (k0_off2 c 12#32) S256x256.size (k0_off2_inb c 11)) (fun _ => rfl)).view.set]{xShare 11} xstg m c : sProp 𝕄) = xRest m c 11 := rfl
theorem slab_long_12 (c : Dev nD) :
    ((xM.slice (Rect.unit (s := S4096x256) (k0_off2 c 13#32) S256x256.size (k0_off2_inb c 12)) (fun _ => rfl)).view.loc (c : Thread nD τ) ↦[(xM.slice (Rect.unit (s := S4096x256) (k0_off2 c 13#32) S256x256.size (k0_off2_inb c 12)) (fun _ => rfl)).view.set]{xShare 12} xstg m c : sProp 𝕄) = slabPts m c 12 := rfl
theorem rest_long_12 (c : Dev nD) :
    ((xM : Memref sig .tc .vmem S4096x256 .f32).view.loc (c : Thread nD τ) ↦[(xM : Memref sig .tc .vmem S4096x256 .f32).view.set \ (xM.slice (Rect.unit (s := S4096x256) (k0_off2 c 13#32) S256x256.size (k0_off2_inb c 12)) (fun _ => rfl)).view.set]{xShare 12} xstg m c : sProp 𝕄) = xRest m c 12 := rfl
theorem slab_long_13 (c : Dev nD) :
    ((xM.slice (Rect.unit (s := S4096x256) (k0_off2 c 14#32) S256x256.size (k0_off2_inb c 13)) (fun _ => rfl)).view.loc (c : Thread nD τ) ↦[(xM.slice (Rect.unit (s := S4096x256) (k0_off2 c 14#32) S256x256.size (k0_off2_inb c 13)) (fun _ => rfl)).view.set]{xShare 13} xstg m c : sProp 𝕄) = slabPts m c 13 := rfl
theorem rest_long_13 (c : Dev nD) :
    ((xM : Memref sig .tc .vmem S4096x256 .f32).view.loc (c : Thread nD τ) ↦[(xM : Memref sig .tc .vmem S4096x256 .f32).view.set \ (xM.slice (Rect.unit (s := S4096x256) (k0_off2 c 14#32) S256x256.size (k0_off2_inb c 13)) (fun _ => rfl)).view.set]{xShare 13} xstg m c : sProp 𝕄) = xRest m c 13 := rfl
theorem slab_long_14 (c : Dev nD) :
    ((xM.slice (Rect.unit (s := S4096x256) (k0_off2 c 15#32) S256x256.size (k0_off2_inb c 14)) (fun _ => rfl)).view.loc (c : Thread nD τ) ↦[(xM.slice (Rect.unit (s := S4096x256) (k0_off2 c 15#32) S256x256.size (k0_off2_inb c 14)) (fun _ => rfl)).view.set]{xShare 14} xstg m c : sProp 𝕄) = slabPts m c 14 := rfl
theorem rest_long_14 (c : Dev nD) :
    ((xM : Memref sig .tc .vmem S4096x256 .f32).view.loc (c : Thread nD τ) ↦[(xM : Memref sig .tc .vmem S4096x256 .f32).view.set \ (xM.slice (Rect.unit (s := S4096x256) (k0_off2 c 15#32) S256x256.size (k0_off2_inb c 14)) (fun _ => rfl)).view.set]{xShare 14} xstg m c : sProp 𝕄) = xRest m c 14 := rfl
omit [FloatOps F] in
theorem wslot_long_0 (c : Dev nD) (X : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ))) :
    (((wbM.slice (Rect.unit (s := S3x256x8192) ![0, 0, 0] S1x256x8192.size inb_S3x256x8192_S1x256x8192_0_0_0) (fun _ => rfl)).squeeze S256x8192 squeezes_S1x256x8192_S256x8192).view.loc (c : Thread nD τ) ↦[((wbM.slice (Rect.unit (s := S3x256x8192) ![0, 0, 0] S1x256x8192.size inb_S3x256x8192_S1x256x8192_0_0_0) (fun _ => rfl)).squeeze S256x8192 squeezes_S1x256x8192_S256x8192).view.set]{fullShare} X : sProp 𝕄)
      = ((wslot 0).view.loc (c : Thread nD τ) ↦[(wslot 0).view.set]{fullShare} X : sProp 𝕄) := rfl
omit [FloatOps F] in
theorem wslot_long_1 (c : Dev nD) (X : Buf (Elt F) (((wbM.slice (Rect.unit (s := S3x256x8192) ![1, 0, 0] S1x256x8192.size inb_S3x256x8192_S1x256x8192_1_0_0) (fun _ => rfl)).squeeze S256x8192 squeezes_S1x256x8192_S256x8192).view.loc (c : Thread nD τ))) :
    (((wbM.slice (Rect.unit (s := S3x256x8192) ![1, 0, 0] S1x256x8192.size inb_S3x256x8192_S1x256x8192_1_0_0) (fun _ => rfl)).squeeze S256x8192 squeezes_S1x256x8192_S256x8192).view.loc (c : Thread nD τ) ↦[((wbM.slice (Rect.unit (s := S3x256x8192) ![1, 0, 0] S1x256x8192.size inb_S3x256x8192_S1x256x8192_1_0_0) (fun _ => rfl)).squeeze S256x8192 squeezes_S1x256x8192_S256x8192).view.set]{fullShare} X : sProp 𝕄)
      = ((wslot 1).view.loc (c : Thread nD τ) ↦[(wslot 1).view.set]{fullShare} X : sProp 𝕄) := rfl
omit [FloatOps F] in
theorem wslot_long_2 (c : Dev nD) (X : Buf (Elt F) (((wbM.slice (Rect.unit (s := S3x256x8192) ![2, 0, 0] S1x256x8192.size inb_S3x256x8192_S1x256x8192_2_0_0) (fun _ => rfl)).squeeze S256x8192 squeezes_S1x256x8192_S256x8192).view.loc (c : Thread nD τ))) :
    (((wbM.slice (Rect.unit (s := S3x256x8192) ![2, 0, 0] S1x256x8192.size inb_S3x256x8192_S1x256x8192_2_0_0) (fun _ => rfl)).squeeze S256x8192 squeezes_S1x256x8192_S256x8192).view.loc (c : Thread nD τ) ↦[((wbM.slice (Rect.unit (s := S3x256x8192) ![2, 0, 0] S1x256x8192.size inb_S3x256x8192_S1x256x8192_2_0_0) (fun _ => rfl)).squeeze S256x8192 squeezes_S1x256x8192_S256x8192).view.set]{fullShare} X : sProp 𝕄)
      = ((wslot 2).view.loc (c : Thread nD τ) ↦[(wslot 2).view.set]{fullShare} X : sProp 𝕄) := rfl

/-! ## From the body's end state to the exit -/

set_option maxHeartbeats 4000000 in
set_option maxRecDepth 65536 in
/-- The state a device's body ends in — every cell waited on once, the slots holding what landed, the weight slots what
    the last copies brought, every read token back and carved as it was lent — gives what the point after the body asks. -/
theorem finish (K : Dev nD × CK → ℕ) (c : Dev nD) (W' : Finset (SemLoc sig × Unit))
    (f0 : Buf (Elt F) ((c : Thread nD τ).loc cc0_scratch0))
    (v0 : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ)))
    (v1 : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ)))
    (v2 : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ)))
    (v3 : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ)))
    (v4 : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ)))
    (v5 : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ)))
    (v6 : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ)))
    (v7 : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ)))
    (v8 : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ)))
    (v9 : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ)))
    (v10 : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ)))
    (v11 : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ)))
    (v12 : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ)))
    (v13 : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ)))
    (v14 : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ)))
    (gw0 : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ)))
    (gw1 : Buf (Elt F) (((wbM.slice (Rect.unit (s := S3x256x8192) ![1, 0, 0] S1x256x8192.size inb_S3x256x8192_S1x256x8192_1_0_0) (fun _ => rfl)).squeeze S256x8192 squeezes_S1x256x8192_S256x8192).view.loc (c : Thread nD τ)))
    (gw2 : Buf (Elt F) (((wbM.slice (Rect.unit (s := S3x256x8192) ![2, 0, 0] S1x256x8192.size inb_S3x256x8192_S1x256x8192_2_0_0) (fun _ => rfl)).squeeze S256x8192 squeezes_S1x256x8192_S256x8192).view.loc (c : Thread nD τ)))
    (G : Buf (Elt F) ((oM : Memref sig .tc .vmem S256x8192 .f32).view.loc (c : Thread nD τ))) (hG : G = outAt m c) :
    iprop((cellInv ER (a2aRd m) (K (c, CK.send 0)) (sendCell c 0))
      ∗ (cellInv ER (a2aRd m) (K (c, CK.send 1)) (sendCell c 1))
      ∗ (cellInv ER (a2aRd m) (K (c, CK.send 2)) (sendCell c 2))
      ∗ (cellInv ER (a2aRd m) (K (c, CK.send 3)) (sendCell c 3))
      ∗ (cellInv ER (a2aRd m) (K (c, CK.send 4)) (sendCell c 4))
      ∗ (cellInv ER (a2aRd m) (K (c, CK.send 5)) (sendCell c 5))
      ∗ (cellInv ER (a2aRd m) (K (c, CK.send 6)) (sendCell c 6))
      ∗ (cellInv ER (a2aRd m) (K (c, CK.send 7)) (sendCell c 7))
      ∗ (cellInv ER (a2aRd m) (K (c, CK.send 8)) (sendCell c 8))
      ∗ (cellInv ER (a2aRd m) (K (c, CK.send 9)) (sendCell c 9))
      ∗ (cellInv ER (a2aRd m) (K (c, CK.send 10)) (sendCell c 10))
      ∗ (cellInv ER (a2aRd m) (K (c, CK.send 11)) (sendCell c 11))
      ∗ (cellInv ER (a2aRd m) (K (c, CK.send 12)) (sendCell c 12))
      ∗ (cellInv ER (a2aRd m) (K (c, CK.send 13)) (sendCell c 13))
      ∗ (cellInv ER (a2aRd m) (K (c, CK.send 14)) (sendCell c 14))
      ∗ (cellInv ER (a2aRd m) (K (c, CK.recv 0)) (recvCell c 0))
      ∗ (cellInv ER (a2aRd m) (K (c, CK.recv 1)) (recvCell c 1))
      ∗ (cellInv ER (a2aRd m) (K (c, CK.recv 2)) (recvCell c 2))
      ∗ (cellInv ER (a2aRd m) (K (c, CK.recv 3)) (recvCell c 3))
      ∗ (cellInv ER (a2aRd m) (K (c, CK.recv 4)) (recvCell c 4))
      ∗ (cellInv ER (a2aRd m) (K (c, CK.recv 5)) (recvCell c 5))
      ∗ (cellInv ER (a2aRd m) (K (c, CK.recv 6)) (recvCell c 6))
      ∗ (cellInv ER (a2aRd m) (K (c, CK.recv 7)) (recvCell c 7))
      ∗ (cellInv ER (a2aRd m) (K (c, CK.recv 8)) (recvCell c 8))
      ∗ (cellInv ER (a2aRd m) (K (c, CK.recv 9)) (recvCell c 9))
      ∗ (cellInv ER (a2aRd m) (K (c, CK.recv 10)) (recvCell c 10))
      ∗ (cellInv ER (a2aRd m) (K (c, CK.recv 11)) (recvCell c 11))
      ∗ (cellInv ER (a2aRd m) (K (c, CK.recv 12)) (recvCell c 12))
      ∗ (cellInv ER (a2aRd m) (K (c, CK.recv 13)) (recvCell c 13))
      ∗ (cellInv ER (a2aRd m) (K (c, CK.recv 14)) (recvCell c 14))
      ∗ (atPos ER (sendCell c 0) 1 ∅ 0)
      ∗ (atPos ER (sendCell c 1) 1 ∅ 0)
      ∗ (atPos ER (sendCell c 2) 1 ∅ 0)
      ∗ (atPos ER (sendCell c 3) 1 ∅ 0)
      ∗ (atPos ER (sendCell c 4) 1 ∅ 0)
      ∗ (atPos ER (sendCell c 5) 1 ∅ 0)
      ∗ (atPos ER (sendCell c 6) 1 ∅ 0)
      ∗ (atPos ER (sendCell c 7) 1 ∅ 0)
      ∗ (atPos ER (sendCell c 8) 1 ∅ 0)
      ∗ (atPos ER (sendCell c 9) 1 ∅ 0)
      ∗ (atPos ER (sendCell c 10) 1 ∅ 0)
      ∗ (atPos ER (sendCell c 11) 1 ∅ 0)
      ∗ (atPos ER (sendCell c 12) 1 ∅ 0)
      ∗ (atPos ER (sendCell c 13) 1 ∅ 0)
      ∗ (atPos ER (sendCell c 14) 1 ∅ 0)
      ∗ (atPos ER (recvCell c 0) 1 ∅ 0)
      ∗ (atPos ER (recvCell c 1) 1 ∅ 0)
      ∗ (atPos ER (recvCell c 2) 1 ∅ 0)
      ∗ (atPos ER (recvCell c 3) 1 ∅ 0)
      ∗ (atPos ER (recvCell c 4) 1 ∅ 0)
      ∗ (atPos ER (recvCell c 5) 1 ∅ 0)
      ∗ (atPos ER (recvCell c 6) 1 ∅ 0)
      ∗ (atPos ER (recvCell c 7) 1 ∅ 0)
      ∗ (atPos ER (recvCell c 8) 1 ∅ 0)
      ∗ (atPos ER (recvCell c 9) 1 ∅ 0)
      ∗ (atPos ER (recvCell c 10) 1 ∅ 0)
      ∗ (atPos ER (recvCell c 11) 1 ∅ 0)
      ∗ (atPos ER (recvCell c 12) 1 ∅ 0)
      ∗ (atPos ER (recvCell c 13) 1 ∅ 0)
      ∗ (atPos ER (recvCell c 14) 1 ∅ 0)
      ∗ (slot0Pts (F := F) c f0)
      ∗ (((rM.slice (Rect.unit (s := S16x256x256) ![1, 0, 0] S1x256x256.size inb_S16x256x256_S1x256x256_1_0_0) (fun _ => rfl)).squeeze S256x256 squeezes_S1x256x256_S256x256).view.loc (c : Thread nD τ) ↦[((rM.slice (Rect.unit (s := S16x256x256) ![1, 0, 0] S1x256x256.size inb_S16x256x256_S1x256x256_1_0_0) (fun _ => rfl)).squeeze S256x256 squeezes_S1x256x256_S256x256).view.set]{fullShare} View.write (Elt F) ((rM.slice (Rect.unit (s := S16x256x256) ![1, 0, 0] S1x256x256.size inb_S16x256x256_S1x256x256_1_0_0) (fun _ => rfl)).squeeze S256x256 squeezes_S1x256x256_S256x256).view v0 (sentBlock m (bwd c (off 0)) 0) Finset.univ)
      ∗ (((rM.slice (Rect.unit (s := S16x256x256) ![2, 0, 0] S1x256x256.size inb_S16x256x256_S1x256x256_2_0_0) (fun _ => rfl)).squeeze S256x256 squeezes_S1x256x256_S256x256).view.loc (c : Thread nD τ) ↦[((rM.slice (Rect.unit (s := S16x256x256) ![2, 0, 0] S1x256x256.size inb_S16x256x256_S1x256x256_2_0_0) (fun _ => rfl)).squeeze S256x256 squeezes_S1x256x256_S256x256).view.set]{fullShare} View.write (Elt F) ((rM.slice (Rect.unit (s := S16x256x256) ![2, 0, 0] S1x256x256.size inb_S16x256x256_S1x256x256_2_0_0) (fun _ => rfl)).squeeze S256x256 squeezes_S1x256x256_S256x256).view v1 (sentBlock m (bwd c (off 1)) 1) Finset.univ)
      ∗ (((rM.slice (Rect.unit (s := S16x256x256) ![3, 0, 0] S1x256x256.size inb_S16x256x256_S1x256x256_3_0_0) (fun _ => rfl)).squeeze S256x256 squeezes_S1x256x256_S256x256).view.loc (c : Thread nD τ) ↦[((rM.slice (Rect.unit (s := S16x256x256) ![3, 0, 0] S1x256x256.size inb_S16x256x256_S1x256x256_3_0_0) (fun _ => rfl)).squeeze S256x256 squeezes_S1x256x256_S256x256).view.set]{fullShare} View.write (Elt F) ((rM.slice (Rect.unit (s := S16x256x256) ![3, 0, 0] S1x256x256.size inb_S16x256x256_S1x256x256_3_0_0) (fun _ => rfl)).squeeze S256x256 squeezes_S1x256x256_S256x256).view v2 (sentBlock m (bwd c (off 2)) 2) Finset.univ)
      ∗ (((rM.slice (Rect.unit (s := S16x256x256) ![4, 0, 0] S1x256x256.size inb_S16x256x256_S1x256x256_4_0_0) (fun _ => rfl)).squeeze S256x256 squeezes_S1x256x256_S256x256).view.loc (c : Thread nD τ) ↦[((rM.slice (Rect.unit (s := S16x256x256) ![4, 0, 0] S1x256x256.size inb_S16x256x256_S1x256x256_4_0_0) (fun _ => rfl)).squeeze S256x256 squeezes_S1x256x256_S256x256).view.set]{fullShare} View.write (Elt F) ((rM.slice (Rect.unit (s := S16x256x256) ![4, 0, 0] S1x256x256.size inb_S16x256x256_S1x256x256_4_0_0) (fun _ => rfl)).squeeze S256x256 squeezes_S1x256x256_S256x256).view v3 (sentBlock m (bwd c (off 3)) 3) Finset.univ)
      ∗ (((rM.slice (Rect.unit (s := S16x256x256) ![5, 0, 0] S1x256x256.size inb_S16x256x256_S1x256x256_5_0_0) (fun _ => rfl)).squeeze S256x256 squeezes_S1x256x256_S256x256).view.loc (c : Thread nD τ) ↦[((rM.slice (Rect.unit (s := S16x256x256) ![5, 0, 0] S1x256x256.size inb_S16x256x256_S1x256x256_5_0_0) (fun _ => rfl)).squeeze S256x256 squeezes_S1x256x256_S256x256).view.set]{fullShare} View.write (Elt F) ((rM.slice (Rect.unit (s := S16x256x256) ![5, 0, 0] S1x256x256.size inb_S16x256x256_S1x256x256_5_0_0) (fun _ => rfl)).squeeze S256x256 squeezes_S1x256x256_S256x256).view v4 (sentBlock m (bwd c (off 4)) 4) Finset.univ)
      ∗ (((rM.slice (Rect.unit (s := S16x256x256) ![6, 0, 0] S1x256x256.size inb_S16x256x256_S1x256x256_6_0_0) (fun _ => rfl)).squeeze S256x256 squeezes_S1x256x256_S256x256).view.loc (c : Thread nD τ) ↦[((rM.slice (Rect.unit (s := S16x256x256) ![6, 0, 0] S1x256x256.size inb_S16x256x256_S1x256x256_6_0_0) (fun _ => rfl)).squeeze S256x256 squeezes_S1x256x256_S256x256).view.set]{fullShare} View.write (Elt F) ((rM.slice (Rect.unit (s := S16x256x256) ![6, 0, 0] S1x256x256.size inb_S16x256x256_S1x256x256_6_0_0) (fun _ => rfl)).squeeze S256x256 squeezes_S1x256x256_S256x256).view v5 (sentBlock m (bwd c (off 5)) 5) Finset.univ)
      ∗ (((rM.slice (Rect.unit (s := S16x256x256) ![7, 0, 0] S1x256x256.size inb_S16x256x256_S1x256x256_7_0_0) (fun _ => rfl)).squeeze S256x256 squeezes_S1x256x256_S256x256).view.loc (c : Thread nD τ) ↦[((rM.slice (Rect.unit (s := S16x256x256) ![7, 0, 0] S1x256x256.size inb_S16x256x256_S1x256x256_7_0_0) (fun _ => rfl)).squeeze S256x256 squeezes_S1x256x256_S256x256).view.set]{fullShare} View.write (Elt F) ((rM.slice (Rect.unit (s := S16x256x256) ![7, 0, 0] S1x256x256.size inb_S16x256x256_S1x256x256_7_0_0) (fun _ => rfl)).squeeze S256x256 squeezes_S1x256x256_S256x256).view v6 (sentBlock m (bwd c (off 6)) 6) Finset.univ)
      ∗ (((rM.slice (Rect.unit (s := S16x256x256) ![8, 0, 0] S1x256x256.size inb_S16x256x256_S1x256x256_8_0_0) (fun _ => rfl)).squeeze S256x256 squeezes_S1x256x256_S256x256).view.loc (c : Thread nD τ) ↦[((rM.slice (Rect.unit (s := S16x256x256) ![8, 0, 0] S1x256x256.size inb_S16x256x256_S1x256x256_8_0_0) (fun _ => rfl)).squeeze S256x256 squeezes_S1x256x256_S256x256).view.set]{fullShare} View.write (Elt F) ((rM.slice (Rect.unit (s := S16x256x256) ![8, 0, 0] S1x256x256.size inb_S16x256x256_S1x256x256_8_0_0) (fun _ => rfl)).squeeze S256x256 squeezes_S1x256x256_S256x256).view v7 (sentBlock m (bwd c (off 7)) 7) Finset.univ)
      ∗ (((rM.slice (Rect.unit (s := S16x256x256) ![9, 0, 0] S1x256x256.size inb_S16x256x256_S1x256x256_9_0_0) (fun _ => rfl)).squeeze S256x256 squeezes_S1x256x256_S256x256).view.loc (c : Thread nD τ) ↦[((rM.slice (Rect.unit (s := S16x256x256) ![9, 0, 0] S1x256x256.size inb_S16x256x256_S1x256x256_9_0_0) (fun _ => rfl)).squeeze S256x256 squeezes_S1x256x256_S256x256).view.set]{fullShare} View.write (Elt F) ((rM.slice (Rect.unit (s := S16x256x256) ![9, 0, 0] S1x256x256.size inb_S16x256x256_S1x256x256_9_0_0) (fun _ => rfl)).squeeze S256x256 squeezes_S1x256x256_S256x256).view v8 (sentBlock m (bwd c (off 8)) 8) Finset.univ)
      ∗ (((rM.slice (Rect.unit (s := S16x256x256) ![10, 0, 0] S1x256x256.size inb_S16x256x256_S1x256x256_10_0_0) (fun _ => rfl)).squeeze S256x256 squeezes_S1x256x256_S256x256).view.loc (c : Thread nD τ) ↦[((rM.slice (Rect.unit (s := S16x256x256) ![10, 0, 0] S1x256x256.size inb_S16x256x256_S1x256x256_10_0_0) (fun _ => rfl)).squeeze S256x256 squeezes_S1x256x256_S256x256).view.set]{fullShare} View.write (Elt F) ((rM.slice (Rect.unit (s := S16x256x256) ![10, 0, 0] S1x256x256.size inb_S16x256x256_S1x256x256_10_0_0) (fun _ => rfl)).squeeze S256x256 squeezes_S1x256x256_S256x256).view v9 (sentBlock m (bwd c (off 9)) 9) Finset.univ)
      ∗ (((rM.slice (Rect.unit (s := S16x256x256) ![11, 0, 0] S1x256x256.size inb_S16x256x256_S1x256x256_11_0_0) (fun _ => rfl)).squeeze S256x256 squeezes_S1x256x256_S256x256).view.loc (c : Thread nD τ) ↦[((rM.slice (Rect.unit (s := S16x256x256) ![11, 0, 0] S1x256x256.size inb_S16x256x256_S1x256x256_11_0_0) (fun _ => rfl)).squeeze S256x256 squeezes_S1x256x256_S256x256).view.set]{fullShare} View.write (Elt F) ((rM.slice (Rect.unit (s := S16x256x256) ![11, 0, 0] S1x256x256.size inb_S16x256x256_S1x256x256_11_0_0) (fun _ => rfl)).squeeze S256x256 squeezes_S1x256x256_S256x256).view v10 (sentBlock m (bwd c (off 10)) 10) Finset.univ)
      ∗ (((rM.slice (Rect.unit (s := S16x256x256) ![12, 0, 0] S1x256x256.size inb_S16x256x256_S1x256x256_12_0_0) (fun _ => rfl)).squeeze S256x256 squeezes_S1x256x256_S256x256).view.loc (c : Thread nD τ) ↦[((rM.slice (Rect.unit (s := S16x256x256) ![12, 0, 0] S1x256x256.size inb_S16x256x256_S1x256x256_12_0_0) (fun _ => rfl)).squeeze S256x256 squeezes_S1x256x256_S256x256).view.set]{fullShare} View.write (Elt F) ((rM.slice (Rect.unit (s := S16x256x256) ![12, 0, 0] S1x256x256.size inb_S16x256x256_S1x256x256_12_0_0) (fun _ => rfl)).squeeze S256x256 squeezes_S1x256x256_S256x256).view v11 (sentBlock m (bwd c (off 11)) 11) Finset.univ)
      ∗ (((rM.slice (Rect.unit (s := S16x256x256) ![13, 0, 0] S1x256x256.size inb_S16x256x256_S1x256x256_13_0_0) (fun _ => rfl)).squeeze S256x256 squeezes_S1x256x256_S256x256).view.loc (c : Thread nD τ) ↦[((rM.slice (Rect.unit (s := S16x256x256) ![13, 0, 0] S1x256x256.size inb_S16x256x256_S1x256x256_13_0_0) (fun _ => rfl)).squeeze S256x256 squeezes_S1x256x256_S256x256).view.set]{fullShare} View.write (Elt F) ((rM.slice (Rect.unit (s := S16x256x256) ![13, 0, 0] S1x256x256.size inb_S16x256x256_S1x256x256_13_0_0) (fun _ => rfl)).squeeze S256x256 squeezes_S1x256x256_S256x256).view v12 (sentBlock m (bwd c (off 12)) 12) Finset.univ)
      ∗ (((rM.slice (Rect.unit (s := S16x256x256) ![14, 0, 0] S1x256x256.size inb_S16x256x256_S1x256x256_14_0_0) (fun _ => rfl)).squeeze S256x256 squeezes_S1x256x256_S256x256).view.loc (c : Thread nD τ) ↦[((rM.slice (Rect.unit (s := S16x256x256) ![14, 0, 0] S1x256x256.size inb_S16x256x256_S1x256x256_14_0_0) (fun _ => rfl)).squeeze S256x256 squeezes_S1x256x256_S256x256).view.set]{fullShare} View.write (Elt F) ((rM.slice (Rect.unit (s := S16x256x256) ![14, 0, 0] S1x256x256.size inb_S16x256x256_S1x256x256_14_0_0) (fun _ => rfl)).squeeze S256x256 squeezes_S1x256x256_S256x256).view v13 (sentBlock m (bwd c (off 13)) 13) Finset.univ)
      ∗ (((rM.slice (Rect.unit (s := S16x256x256) ![15, 0, 0] S1x256x256.size inb_S16x256x256_S1x256x256_15_0_0) (fun _ => rfl)).squeeze S256x256 squeezes_S1x256x256_S256x256).view.loc (c : Thread nD τ) ↦[((rM.slice (Rect.unit (s := S16x256x256) ![15, 0, 0] S1x256x256.size inb_S16x256x256_S1x256x256_15_0_0) (fun _ => rfl)).squeeze S256x256 squeezes_S1x256x256_S256x256).view.set]{fullShare} View.write (Elt F) ((rM.slice (Rect.unit (s := S16x256x256) ![15, 0, 0] S1x256x256.size inb_S16x256x256_S1x256x256_15_0_0) (fun _ => rfl)).squeeze S256x256 squeezes_S1x256x256_S256x256).view v14 (sentBlock m (bwd c (off 14)) 14) Finset.univ)
      ∗ (((wbM.slice (Rect.unit (s := S3x256x8192) ![0, 0, 0] S1x256x8192.size inb_S3x256x8192_S1x256x8192_0_0_0) (fun _ => rfl)).squeeze S256x8192 squeezes_S1x256x8192_S256x8192).view.loc (c : Thread nD τ) ↦[((wbM.slice (Rect.unit (s := S3x256x8192) ![0, 0, 0] S1x256x8192.size inb_S3x256x8192_S1x256x8192_0_0_0) (fun _ => rfl)).squeeze S256x8192 squeezes_S1x256x8192_S256x8192).view.set]{fullShare} gw0)
      ∗ (((wbM.slice (Rect.unit (s := S3x256x8192) ![1, 0, 0] S1x256x8192.size inb_S3x256x8192_S1x256x8192_1_0_0) (fun _ => rfl)).squeeze S256x8192 squeezes_S1x256x8192_S256x8192).view.loc (c : Thread nD τ) ↦[((wbM.slice (Rect.unit (s := S3x256x8192) ![1, 0, 0] S1x256x8192.size inb_S3x256x8192_S1x256x8192_1_0_0) (fun _ => rfl)).squeeze S256x8192 squeezes_S1x256x8192_S256x8192).view.set]{fullShare} gw1)
      ∗ (((wbM.slice (Rect.unit (s := S3x256x8192) ![2, 0, 0] S1x256x8192.size inb_S3x256x8192_S1x256x8192_2_0_0) (fun _ => rfl)).squeeze S256x8192 squeezes_S1x256x8192_S256x8192).view.loc (c : Thread nD τ) ↦[((wbM.slice (Rect.unit (s := S3x256x8192) ![2, 0, 0] S1x256x8192.size inb_S3x256x8192_S1x256x8192_2_0_0) (fun _ => rfl)).squeeze S256x8192 squeezes_S1x256x8192_S256x8192).view.set]{fullShare} gw2)
      ∗ ((xM : Memref sig .tc .vmem S4096x256 .f32).view.loc (c : Thread nD τ) ↦[(xM : Memref sig .tc .vmem S4096x256 .f32).view.set]{Transfers.shareDrop fullShare 15} xstg m c)
      ∗ ((xM.slice (Rect.unit (s := S4096x256) (k0_off2 c 1#32) S256x256.size (k0_off2_inb c 0)) (fun _ => rfl)).view.loc (c : Thread nD τ) ↦[(xM.slice (Rect.unit (s := S4096x256) (k0_off2 c 1#32) S256x256.size (k0_off2_inb c 0)) (fun _ => rfl)).view.set]{xShare 0} xstg m c)
      ∗ ((xM : Memref sig .tc .vmem S4096x256 .f32).view.loc (c : Thread nD τ) ↦[(xM : Memref sig .tc .vmem S4096x256 .f32).view.set \ (xM.slice (Rect.unit (s := S4096x256) (k0_off2 c 1#32) S256x256.size (k0_off2_inb c 0)) (fun _ => rfl)).view.set]{xShare 0} xstg m c)
      ∗ ((xM.slice (Rect.unit (s := S4096x256) (k0_off2 c 2#32) S256x256.size (k0_off2_inb c 1)) (fun _ => rfl)).view.loc (c : Thread nD τ) ↦[(xM.slice (Rect.unit (s := S4096x256) (k0_off2 c 2#32) S256x256.size (k0_off2_inb c 1)) (fun _ => rfl)).view.set]{xShare 1} xstg m c)
      ∗ ((xM : Memref sig .tc .vmem S4096x256 .f32).view.loc (c : Thread nD τ) ↦[(xM : Memref sig .tc .vmem S4096x256 .f32).view.set \ (xM.slice (Rect.unit (s := S4096x256) (k0_off2 c 2#32) S256x256.size (k0_off2_inb c 1)) (fun _ => rfl)).view.set]{xShare 1} xstg m c)
      ∗ ((xM.slice (Rect.unit (s := S4096x256) (k0_off2 c 3#32) S256x256.size (k0_off2_inb c 2)) (fun _ => rfl)).view.loc (c : Thread nD τ) ↦[(xM.slice (Rect.unit (s := S4096x256) (k0_off2 c 3#32) S256x256.size (k0_off2_inb c 2)) (fun _ => rfl)).view.set]{xShare 2} xstg m c)
      ∗ ((xM : Memref sig .tc .vmem S4096x256 .f32).view.loc (c : Thread nD τ) ↦[(xM : Memref sig .tc .vmem S4096x256 .f32).view.set \ (xM.slice (Rect.unit (s := S4096x256) (k0_off2 c 3#32) S256x256.size (k0_off2_inb c 2)) (fun _ => rfl)).view.set]{xShare 2} xstg m c)
      ∗ ((xM.slice (Rect.unit (s := S4096x256) (k0_off2 c 4#32) S256x256.size (k0_off2_inb c 3)) (fun _ => rfl)).view.loc (c : Thread nD τ) ↦[(xM.slice (Rect.unit (s := S4096x256) (k0_off2 c 4#32) S256x256.size (k0_off2_inb c 3)) (fun _ => rfl)).view.set]{xShare 3} xstg m c)
      ∗ ((xM : Memref sig .tc .vmem S4096x256 .f32).view.loc (c : Thread nD τ) ↦[(xM : Memref sig .tc .vmem S4096x256 .f32).view.set \ (xM.slice (Rect.unit (s := S4096x256) (k0_off2 c 4#32) S256x256.size (k0_off2_inb c 3)) (fun _ => rfl)).view.set]{xShare 3} xstg m c)
      ∗ ((xM.slice (Rect.unit (s := S4096x256) (k0_off2 c 5#32) S256x256.size (k0_off2_inb c 4)) (fun _ => rfl)).view.loc (c : Thread nD τ) ↦[(xM.slice (Rect.unit (s := S4096x256) (k0_off2 c 5#32) S256x256.size (k0_off2_inb c 4)) (fun _ => rfl)).view.set]{xShare 4} xstg m c)
      ∗ ((xM : Memref sig .tc .vmem S4096x256 .f32).view.loc (c : Thread nD τ) ↦[(xM : Memref sig .tc .vmem S4096x256 .f32).view.set \ (xM.slice (Rect.unit (s := S4096x256) (k0_off2 c 5#32) S256x256.size (k0_off2_inb c 4)) (fun _ => rfl)).view.set]{xShare 4} xstg m c)
      ∗ ((xM.slice (Rect.unit (s := S4096x256) (k0_off2 c 6#32) S256x256.size (k0_off2_inb c 5)) (fun _ => rfl)).view.loc (c : Thread nD τ) ↦[(xM.slice (Rect.unit (s := S4096x256) (k0_off2 c 6#32) S256x256.size (k0_off2_inb c 5)) (fun _ => rfl)).view.set]{xShare 5} xstg m c)
      ∗ ((xM : Memref sig .tc .vmem S4096x256 .f32).view.loc (c : Thread nD τ) ↦[(xM : Memref sig .tc .vmem S4096x256 .f32).view.set \ (xM.slice (Rect.unit (s := S4096x256) (k0_off2 c 6#32) S256x256.size (k0_off2_inb c 5)) (fun _ => rfl)).view.set]{xShare 5} xstg m c)
      ∗ ((xM.slice (Rect.unit (s := S4096x256) (k0_off2 c 7#32) S256x256.size (k0_off2_inb c 6)) (fun _ => rfl)).view.loc (c : Thread nD τ) ↦[(xM.slice (Rect.unit (s := S4096x256) (k0_off2 c 7#32) S256x256.size (k0_off2_inb c 6)) (fun _ => rfl)).view.set]{xShare 6} xstg m c)
      ∗ ((xM : Memref sig .tc .vmem S4096x256 .f32).view.loc (c : Thread nD τ) ↦[(xM : Memref sig .tc .vmem S4096x256 .f32).view.set \ (xM.slice (Rect.unit (s := S4096x256) (k0_off2 c 7#32) S256x256.size (k0_off2_inb c 6)) (fun _ => rfl)).view.set]{xShare 6} xstg m c)
      ∗ ((xM.slice (Rect.unit (s := S4096x256) (k0_off2 c 8#32) S256x256.size (k0_off2_inb c 7)) (fun _ => rfl)).view.loc (c : Thread nD τ) ↦[(xM.slice (Rect.unit (s := S4096x256) (k0_off2 c 8#32) S256x256.size (k0_off2_inb c 7)) (fun _ => rfl)).view.set]{xShare 7} xstg m c)
      ∗ ((xM : Memref sig .tc .vmem S4096x256 .f32).view.loc (c : Thread nD τ) ↦[(xM : Memref sig .tc .vmem S4096x256 .f32).view.set \ (xM.slice (Rect.unit (s := S4096x256) (k0_off2 c 8#32) S256x256.size (k0_off2_inb c 7)) (fun _ => rfl)).view.set]{xShare 7} xstg m c)
      ∗ ((xM.slice (Rect.unit (s := S4096x256) (k0_off2 c 9#32) S256x256.size (k0_off2_inb c 8)) (fun _ => rfl)).view.loc (c : Thread nD τ) ↦[(xM.slice (Rect.unit (s := S4096x256) (k0_off2 c 9#32) S256x256.size (k0_off2_inb c 8)) (fun _ => rfl)).view.set]{xShare 8} xstg m c)
      ∗ ((xM : Memref sig .tc .vmem S4096x256 .f32).view.loc (c : Thread nD τ) ↦[(xM : Memref sig .tc .vmem S4096x256 .f32).view.set \ (xM.slice (Rect.unit (s := S4096x256) (k0_off2 c 9#32) S256x256.size (k0_off2_inb c 8)) (fun _ => rfl)).view.set]{xShare 8} xstg m c)
      ∗ ((xM.slice (Rect.unit (s := S4096x256) (k0_off2 c 10#32) S256x256.size (k0_off2_inb c 9)) (fun _ => rfl)).view.loc (c : Thread nD τ) ↦[(xM.slice (Rect.unit (s := S4096x256) (k0_off2 c 10#32) S256x256.size (k0_off2_inb c 9)) (fun _ => rfl)).view.set]{xShare 9} xstg m c)
      ∗ ((xM : Memref sig .tc .vmem S4096x256 .f32).view.loc (c : Thread nD τ) ↦[(xM : Memref sig .tc .vmem S4096x256 .f32).view.set \ (xM.slice (Rect.unit (s := S4096x256) (k0_off2 c 10#32) S256x256.size (k0_off2_inb c 9)) (fun _ => rfl)).view.set]{xShare 9} xstg m c)
      ∗ ((xM.slice (Rect.unit (s := S4096x256) (k0_off2 c 11#32) S256x256.size (k0_off2_inb c 10)) (fun _ => rfl)).view.loc (c : Thread nD τ) ↦[(xM.slice (Rect.unit (s := S4096x256) (k0_off2 c 11#32) S256x256.size (k0_off2_inb c 10)) (fun _ => rfl)).view.set]{xShare 10} xstg m c)
      ∗ ((xM : Memref sig .tc .vmem S4096x256 .f32).view.loc (c : Thread nD τ) ↦[(xM : Memref sig .tc .vmem S4096x256 .f32).view.set \ (xM.slice (Rect.unit (s := S4096x256) (k0_off2 c 11#32) S256x256.size (k0_off2_inb c 10)) (fun _ => rfl)).view.set]{xShare 10} xstg m c)
      ∗ ((xM.slice (Rect.unit (s := S4096x256) (k0_off2 c 12#32) S256x256.size (k0_off2_inb c 11)) (fun _ => rfl)).view.loc (c : Thread nD τ) ↦[(xM.slice (Rect.unit (s := S4096x256) (k0_off2 c 12#32) S256x256.size (k0_off2_inb c 11)) (fun _ => rfl)).view.set]{xShare 11} xstg m c)
      ∗ ((xM : Memref sig .tc .vmem S4096x256 .f32).view.loc (c : Thread nD τ) ↦[(xM : Memref sig .tc .vmem S4096x256 .f32).view.set \ (xM.slice (Rect.unit (s := S4096x256) (k0_off2 c 12#32) S256x256.size (k0_off2_inb c 11)) (fun _ => rfl)).view.set]{xShare 11} xstg m c)
      ∗ ((xM.slice (Rect.unit (s := S4096x256) (k0_off2 c 13#32) S256x256.size (k0_off2_inb c 12)) (fun _ => rfl)).view.loc (c : Thread nD τ) ↦[(xM.slice (Rect.unit (s := S4096x256) (k0_off2 c 13#32) S256x256.size (k0_off2_inb c 12)) (fun _ => rfl)).view.set]{xShare 12} xstg m c)
      ∗ ((xM : Memref sig .tc .vmem S4096x256 .f32).view.loc (c : Thread nD τ) ↦[(xM : Memref sig .tc .vmem S4096x256 .f32).view.set \ (xM.slice (Rect.unit (s := S4096x256) (k0_off2 c 13#32) S256x256.size (k0_off2_inb c 12)) (fun _ => rfl)).view.set]{xShare 12} xstg m c)
      ∗ ((xM.slice (Rect.unit (s := S4096x256) (k0_off2 c 14#32) S256x256.size (k0_off2_inb c 13)) (fun _ => rfl)).view.loc (c : Thread nD τ) ↦[(xM.slice (Rect.unit (s := S4096x256) (k0_off2 c 14#32) S256x256.size (k0_off2_inb c 13)) (fun _ => rfl)).view.set]{xShare 13} xstg m c)
      ∗ ((xM : Memref sig .tc .vmem S4096x256 .f32).view.loc (c : Thread nD τ) ↦[(xM : Memref sig .tc .vmem S4096x256 .f32).view.set \ (xM.slice (Rect.unit (s := S4096x256) (k0_off2 c 14#32) S256x256.size (k0_off2_inb c 13)) (fun _ => rfl)).view.set]{xShare 13} xstg m c)
      ∗ ((xM.slice (Rect.unit (s := S4096x256) (k0_off2 c 15#32) S256x256.size (k0_off2_inb c 14)) (fun _ => rfl)).view.loc (c : Thread nD τ) ↦[(xM.slice (Rect.unit (s := S4096x256) (k0_off2 c 15#32) S256x256.size (k0_off2_inb c 14)) (fun _ => rfl)).view.set]{xShare 14} xstg m c)
      ∗ ((xM : Memref sig .tc .vmem S4096x256 .f32).view.loc (c : Thread nD τ) ↦[(xM : Memref sig .tc .vmem S4096x256 .f32).view.set \ (xM.slice (Rect.unit (s := S4096x256) (k0_off2 c 15#32) S256x256.size (k0_off2_inb c 14)) (fun _ => rfl)).view.set]{xShare 14} xstg m c)
      ∗ ((wM : Memref sig .tc .hbm S4096x8192 .f32).view.loc (c : Thread nD τ) ↦[(wM : Memref sig .tc .hbm S4096x8192 .f32).view.set]{Transfers.shareDrop fullShare 3} m ((c : Thread nD τ).loc main_arg1))
      ∗ ((wM : Memref sig .tc .hbm S4096x8192 .f32).view.loc (c : Thread nD τ) ↦[(wM : Memref sig .tc .hbm S4096x8192 .f32).view.set]{Transfers.shareTok fullShare 3 0} m ((c : Thread nD τ).loc main_arg1))
      ∗ ((wM : Memref sig .tc .hbm S4096x8192 .f32).view.loc (c : Thread nD τ) ↦[(wM : Memref sig .tc .hbm S4096x8192 .f32).view.set]{Transfers.shareTok fullShare 3 1} m ((c : Thread nD τ).loc main_arg1))
      ∗ ((wM : Memref sig .tc .hbm S4096x8192 .f32).view.loc (c : Thread nD τ) ↦[(wM : Memref sig .tc .hbm S4096x8192 .f32).view.set]{Transfers.shareTok fullShare 3 2} m ((c : Thread nD τ).loc main_arg1))
      ∗ (semVal ((c : Thread nD τ), idleSem 0) 0)
      ∗ (semVal ((c : Thread nD τ), idleSem 1) 0)
      ∗ (semVal ((c : Thread nD τ), idleSem 2) 0)
      ∗ (semVal ((c : Thread nD τ), idleSem 3) 0)
      ∗ (semVal ((c : Thread nD τ), idleSem 4) 0)
      ∗ ((oM : Memref sig .tc .vmem S256x8192 .f32).view.loc (c : Thread nD τ) ↦[(oM : Memref sig .tc .vmem S256x8192 .f32).view.set]{fullShare} G)
      ∗ (owes (c : Thread nD τ) (0 : CellTallies nD τ sig Unit) W'))
      ⊢ (|={Set.univ}=> iprop(Φ₁ m c ∗ (dats m ρ 0 c).owesAt () (t0_0 : Fin cfg0.N).succ ∗ stg c cc0_stg0_0 (xstg m c) ∗ stg c cc0_stg1_0 (outAt m c)) : sProp 𝕄) := by
  subst hG
  rw [slot_long_0 c, slot_long_1 c, slot_long_2 c, slot_long_3 c, slot_long_4 c, slot_long_5 c, slot_long_6 c, slot_long_7 c, slot_long_8 c, slot_long_9 c, slot_long_10 c, slot_long_11 c, slot_long_12 c, slot_long_13 c, slot_long_14 c,
    slab_long_0 m c, rest_long_0 m c, slab_long_1 m c, rest_long_1 m c, slab_long_2 m c, rest_long_2 m c, slab_long_3 m c, rest_long_3 m c, slab_long_4 m c, rest_long_4 m c, slab_long_5 m c, rest_long_5 m c, slab_long_6 m c, rest_long_6 m c, slab_long_7 m c, rest_long_7 m c, slab_long_8 m c, rest_long_8 m c, slab_long_9 m c, rest_long_9 m c, slab_long_10 m c, rest_long_10 m c, slab_long_11 m c, rest_long_11 m c, slab_long_12 m c, rest_long_12 m c, slab_long_13 m c, rest_long_13 m c, slab_long_14 m c, rest_long_14 m c,
    wslot_long_0 c, wslot_long_1 c, wslot_long_2 c]
  iintro ⟨HIs0, HIs1, HIs2, HIs3, HIs4, HIs5, HIs6, HIs7, HIs8, HIs9, HIs10, HIs11, HIs12, HIs13, HIs14, HIr0, HIr1, HIr2, HIr3, HIr4, HIr5, HIr6, HIr7, HIr8, HIr9, HIr10, HIr11, HIr12, HIr13, HIr14, HatS0, HatS1, HatS2, HatS3, HatS4, HatS5, HatS6, HatS7, HatS8, HatS9, HatS10, HatS11, HatS12, HatS13, HatS14, HatV0, HatV1, HatV2, HatV3, HatV4, HatV5, HatV6, HatV7, HatV8, HatV9, HatV10, HatV11, HatV12, HatV13, HatV14, HS0, HP0, HP1, HP2, HP3, HP4, HP5, HP6, HP7, HP8, HP9, HP10, HP11, HP12, HP13, HP14, Hwb0, Hwb1, Hwb2, HxR, HSp0, Hxr0, HSp1, Hxr1, HSp2, Hxr2, HSp3, Hxr3, HSp4, Hxr4, HSp5, Hxr5, HSp6, Hxr6, HSp7, Hxr7, HSp8, Hxr8, HSp9, Hxr9, HSp10, Hxr10, HSp11, Hxr11, HSp12, Hxr12, HSp13, Hxr13, HSp14, Hxr14, HwR, Hw0, Hw1, Hw2, Hi0, Hi1, Hs2, Hs3, Hs4, Hout, HO⟩
  iapply (exit_carved m ρ K c (t0_0 : Fin cfg0.N) W')
  isplitl [HIs0 HIs1 HIs2 HIs3 HIs4 HIs5 HIs6 HIs7 HIs8 HIs9 HIs10 HIs11 HIs12 HIs13 HIs14 HIr0 HIr1 HIr2 HIr3 HIr4 HIr5 HIr6 HIr7 HIr8 HIr9 HIr10 HIr11 HIr12 HIr13 HIr14 HatS0 HatS1 HatS2 HatS3 HatS4 HatS5 HatS6 HatS7 HatS8 HatS9 HatS10 HatS11 HatS12 HatS13 HatS14 HatV0 HatV1 HatV2 HatV3 HatV4 HatV5 HatV6 HatV7 HatV8 HatV9 HatV10 HatV11 HatV12 HatV13 HatV14]
  · isplitl [HIs0 HIs1 HIs2 HIs3 HIs4 HIs5 HIs6 HIs7 HIs8 HIs9 HIs10 HIs11 HIs12 HIs13 HIs14]
    ·
      isplitl [HIs0]; · iexact HIs0
      isplitl [HIs1]; · iexact HIs1
      isplitl [HIs2]; · iexact HIs2
      isplitl [HIs3]; · iexact HIs3
      isplitl [HIs4]; · iexact HIs4
      isplitl [HIs5]; · iexact HIs5
      isplitl [HIs6]; · iexact HIs6
      isplitl [HIs7]; · iexact HIs7
      isplitl [HIs8]; · iexact HIs8
      isplitl [HIs9]; · iexact HIs9
      isplitl [HIs10]; · iexact HIs10
      isplitl [HIs11]; · iexact HIs11
      isplitl [HIs12]; · iexact HIs12
      isplitl [HIs13]; · iexact HIs13
      iexact HIs14
    isplitl [HIr0 HIr1 HIr2 HIr3 HIr4 HIr5 HIr6 HIr7 HIr8 HIr9 HIr10 HIr11 HIr12 HIr13 HIr14]
    ·
      isplitl [HIr0]; · iexact HIr0
      isplitl [HIr1]; · iexact HIr1
      isplitl [HIr2]; · iexact HIr2
      isplitl [HIr3]; · iexact HIr3
      isplitl [HIr4]; · iexact HIr4
      isplitl [HIr5]; · iexact HIr5
      isplitl [HIr6]; · iexact HIr6
      isplitl [HIr7]; · iexact HIr7
      isplitl [HIr8]; · iexact HIr8
      isplitl [HIr9]; · iexact HIr9
      isplitl [HIr10]; · iexact HIr10
      isplitl [HIr11]; · iexact HIr11
      isplitl [HIr12]; · iexact HIr12
      isplitl [HIr13]; · iexact HIr13
      iexact HIr14
    isplitl [HatS0 HatS1 HatS2 HatS3 HatS4 HatS5 HatS6 HatS7 HatS8 HatS9 HatS10 HatS11 HatS12 HatS13 HatS14]
    ·
      isplitl [HatS0]; · iexact HatS0
      isplitl [HatS1]; · iexact HatS1
      isplitl [HatS2]; · iexact HatS2
      isplitl [HatS3]; · iexact HatS3
      isplitl [HatS4]; · iexact HatS4
      isplitl [HatS5]; · iexact HatS5
      isplitl [HatS6]; · iexact HatS6
      isplitl [HatS7]; · iexact HatS7
      isplitl [HatS8]; · iexact HatS8
      isplitl [HatS9]; · iexact HatS9
      isplitl [HatS10]; · iexact HatS10
      isplitl [HatS11]; · iexact HatS11
      isplitl [HatS12]; · iexact HatS12
      isplitl [HatS13]; · iexact HatS13
      iexact HatS14
    isplitl [HatV0]; · iexact HatV0
    isplitl [HatV1]; · iexact HatV1
    isplitl [HatV2]; · iexact HatV2
    isplitl [HatV3]; · iexact HatV3
    isplitl [HatV4]; · iexact HatV4
    isplitl [HatV5]; · iexact HatV5
    isplitl [HatV6]; · iexact HatV6
    isplitl [HatV7]; · iexact HatV7
    isplitl [HatV8]; · iexact HatV8
    isplitl [HatV9]; · iexact HatV9
    isplitl [HatV10]; · iexact HatV10
    isplitl [HatV11]; · iexact HatV11
    isplitl [HatV12]; · iexact HatV12
    isplitl [HatV13]; · iexact HatV13
    iexact HatV14
  isplitl [HS0 HP0 HP1 HP2 HP3 HP4 HP5 HP6 HP7 HP8 HP9 HP10 HP11 HP12 HP13 HP14]
  · isplitl [HS0]; · iexists f0; iexact HS0
    isplitl [HP0]; · (iexists _; iexact HP0)
    isplitl [HP1]; · (iexists _; iexact HP1)
    isplitl [HP2]; · (iexists _; iexact HP2)
    isplitl [HP3]; · (iexists _; iexact HP3)
    isplitl [HP4]; · (iexists _; iexact HP4)
    isplitl [HP5]; · (iexists _; iexact HP5)
    isplitl [HP6]; · (iexists _; iexact HP6)
    isplitl [HP7]; · (iexists _; iexact HP7)
    isplitl [HP8]; · (iexists _; iexact HP8)
    isplitl [HP9]; · (iexists _; iexact HP9)
    isplitl [HP10]; · (iexists _; iexact HP10)
    isplitl [HP11]; · (iexists _; iexact HP11)
    isplitl [HP12]; · (iexists _; iexact HP12)
    isplitl [HP13]; · (iexists _; iexact HP13)
    (iexists _; iexact HP14)
  isplitl [Hwb0 Hwb1 Hwb2]
  · isplitl [Hwb0]; · iexists gw0; iexact Hwb0
    isplitl [Hwb1]; · iexists gw1; iexact Hwb1
    iexists gw2; iexact Hwb2
  isplitl [HxR HSp0 Hxr0 HSp1 Hxr1 HSp2 Hxr2 HSp3 Hxr3 HSp4 Hxr4 HSp5 Hxr5 HSp6 Hxr6 HSp7 Hxr7 HSp8 Hxr8 HSp9 Hxr9 HSp10 Hxr10 HSp11 Hxr11 HSp12 Hxr12 HSp13 Hxr13 HSp14 Hxr14]
  · isplitl [HxR]; · iexact HxR
    isplitl [HSp0 Hxr0]
    · isplitl [HSp0] <;> iassumption
    isplitl [HSp1 Hxr1]
    · isplitl [HSp1] <;> iassumption
    isplitl [HSp2 Hxr2]
    · isplitl [HSp2] <;> iassumption
    isplitl [HSp3 Hxr3]
    · isplitl [HSp3] <;> iassumption
    isplitl [HSp4 Hxr4]
    · isplitl [HSp4] <;> iassumption
    isplitl [HSp5 Hxr5]
    · isplitl [HSp5] <;> iassumption
    isplitl [HSp6 Hxr6]
    · isplitl [HSp6] <;> iassumption
    isplitl [HSp7 Hxr7]
    · isplitl [HSp7] <;> iassumption
    isplitl [HSp8 Hxr8]
    · isplitl [HSp8] <;> iassumption
    isplitl [HSp9 Hxr9]
    · isplitl [HSp9] <;> iassumption
    isplitl [HSp10 Hxr10]
    · isplitl [HSp10] <;> iassumption
    isplitl [HSp11 Hxr11]
    · isplitl [HSp11] <;> iassumption
    isplitl [HSp12 Hxr12]
    · isplitl [HSp12] <;> iassumption
    isplitl [HSp13 Hxr13]
    · isplitl [HSp13] <;> iassumption
    isplitl [HSp14] <;> iassumption
  isplitl [HwR Hw0 Hw1 Hw2]
  · isplitl [HwR]; · iexact HwR
    isplitl [Hw0]; · iexact Hw0
    isplitl [Hw1]; · iexact Hw1
    iexact Hw2
  isplitl [Hi0 Hi1 Hs2 Hs3 Hs4]
  · isplitl [Hi0]; · iexact Hi0
    isplitl [Hi1]; · iexact Hi1
    isplitl [Hs2]; · iexact Hs2
    isplitl [Hs3]; · iexact Hs3
    iexact Hs4
  isplitl [Hout]; · iexact Hout
  iexact HO

/-- info: 'Cert.Kernel.A2A.finish' depends on axioms: [propext, Classical.choice, Quot.sound] -/
#guard_msgs in #print axioms finish

end Cert.Kernel.A2A

end
-- ==== Proof.Bits.OutEq.lean ====
/-
  What the body's loads and stores amount to, whatever lay in the buffers before.

  A slot of the landing scratch that a transfer has filled, loaded at the slot's rectangle, gives the sent block
  whatever the slot held before; so the load is the one the device's result is stated over. The same for a weight slot
  that a copy has filled. The result buffer, stored whole, holds what was stored, and a load right after a store reads
  it back. So the term the run leaves in the result buffer is the device's result.
-/
import proofs.«900405_g7700000000000406_dist_a2a_gemm_m4096_k4096_n8192_f32_gelu_v7x_i16_1_alg».proof.Proof.Bits.Data
import proofs.«900405_g7700000000000406_dist_a2a_gemm_m4096_k4096_n8192_f32_gelu_v7x_i16_1_alg».proof.Proof.LibViews
import Idealize.ShloMosaic.Lib.Pipeline.FrameBody

noncomputable section

namespace Cert.Kernel.A2A

open Cert.Kernel Cert.Kernel.Gen Cert.Kernel.Mesh Cert.Views

open Idealize.ShloMosaic
open Idealize.ShloMosaic.TcCoe
open Idealize.SL Idealize.SL.Sem

variable {F : FTy → Type} [FloatOps F]
variable (m : (ℓ : Loc nD τ sig) → Buf (Elt F) ℓ)

/-- (L1) Slot `1 + i`, filled with the block sent by the device `1 + i` places back over ANY earlier contents `v`
    and loaded at the slot's rectangle, is the load the result is stated over. -/
theorem aAt_of_landed (c : Dev nD) (i : Fin 15) (v : Buf (Elt F) ((slot i).view.loc (c : Thread nD τ))) :
    (rM : Memref sig .tc .vmem S16x256x256 .f32).view.readAt (Elt F)
        (Rect.unit (s := S16x256x256) ![1 + i.val, 0, 0] S1x256x256.size (slot_inb i)).toLoadRect
        ((slot i).view.write (Elt F) v (sentBlock m (bwd c (off i)) i) Finset.univ)
      = aAt m c i :=
  (readAt_write_squeeze_slice (Val := Elt F) (rM : Memref sig .tc .vmem S16x256x256 .f32)
      (Rect.unit (s := S16x256x256) ![1 + i.val, 0, 0] S1x256x256.size (slot_inb i)) (fun _ => rfl)
      squeezes_S1x256x256_S256x256 v (sentBlock m (bwd c (off i)) i)).trans
    (readAt_write_squeeze_slice (Val := Elt F) (rM : Memref sig .tc .vmem S16x256x256 .f32)
      (Rect.unit (s := S16x256x256) ![1 + i.val, 0, 0] S1x256x256.size (slot_inb i)) (fun _ => rfl)
      squeezes_S1x256x256_S256x256 (base₀ c i) (sentBlock m (bwd c (off i)) i)).symm

/-- (L2) Weight slot `k mod 3`, filled whole with the rows of step `k` over ANY earlier contents and earlier
    writes, and loaded at the slot's rectangle, is the load the result is stated over. -/
theorem wAt_of_written (c : Dev nD) (k : Fin 16) (base : Buf (Elt F) ((wslot (wslotOf k)).view.loc (c : Thread nD τ)))
    (L : List (View.Piece (Elt F) S256x8192 .f32)) :
    (wbM : Memref sig .tc .vmem S3x256x8192 .f32).view.readAt (Elt F)
        (Rect.unit (s := S3x256x8192) ![(wslotOf k).val, 0, 0] S1x256x8192.size (wslot_inb (wslotOf k))).toLoadRect
        ((wslot (wslotOf k)).view.writes (Elt F) base
          (⟨Rect.whole S256x8192, ReadAs.same.apply ((wsrc c k).view.read (Elt F) (m ((c : Thread nD τ).loc main_arg1)))⟩ :: L))
      = wAt m c k :=
  readAt_writes_whole_eq_write (Val := Elt F) (wbM : Memref sig .tc .vmem S3x256x8192 .f32)
    (Rect.unit (s := S3x256x8192) ![(wslotOf k).val, 0, 0] S1x256x8192.size (wslot_inb (wslotOf k))) (fun _ => rfl)
    squeezes_S1x256x8192_S256x8192 base (Classical.arbitrary _) L
    ((wsrc c k).view.read (Elt F) (m ((c : Thread nD τ).loc main_arg1)))

omit [FloatOps F] in
/-- (L3) The result buffer after a list of stores whose last one stores the whole buffer holds what that store stored. -/
theorem out_writes_eq (c : Dev nD) (g1 : (cc0_stg1_0 : Ref sig .tc).ty.Contents (Elt F)) (V : S256x8192.Idx → Elt F .f32)
    (L : List (View.Piece (Elt F) S256x8192 .f32)) :
    (oM : Memref sig .tc .vmem S256x8192 .f32).view.writes (Elt F) g1
        (⟨Rect.unit (s := S256x8192) ![0, 0] S256x8192.size inb_S256x8192_S256x8192_0_0, V⟩ :: L) = V :=
  writes_unit_zero_cons (Val := Elt F) cc0_stg1_0 (funext fun a => by fin_cases a <;> rfl) inb_S256x8192_S256x8192_0_0 g1 V L

/-- A load of the result buffer at the rectangle just stored reads the stored value back. -/
theorem out_readCov (r : Rect S256x8192) (w : r.shape.Idx → Elt F .f32) (L : List (View.Piece (Elt F) S256x8192 .f32)) :
    (oM : Memref sig .tc .vmem S256x8192 .f32).view.readCov (⟨r, w⟩ :: L) r.toLoadRect = w :=
  View.readCov_cons_toLoadRect _ r w L

/-- (L4) The body's arithmetic over the loads as the run makes them — the device's own rows, each filled slot over
    whatever it held, each filled weight slot over whatever it held — is the device's result. -/
theorem out_eq (c : Dev nD) (v : (i : Fin 15) → Buf (Elt F) ((slot i).view.loc (c : Thread nD τ)))
    (b : (k : Fin 16) → Buf (Elt F) ((wslot (wslotOf k)).view.loc (c : Thread nD τ)))
    (Ls : Fin 16 → List (View.Piece (Elt F) S256x8192 .f32)) :
    outTerm
        ((xM : Memref sig .tc .vmem S4096x256 .f32).view.readAt (Elt F)
          (Rect.unit (s := S4096x256) (k0_off3 c) S256x256.size (k0_off3_inb c)).toLoadRect (xstg m c))
        (fun i => (rM : Memref sig .tc .vmem S16x256x256 .f32).view.readAt (Elt F)
          (Rect.unit (s := S16x256x256) ![1 + i.val, 0, 0] S1x256x256.size (slot_inb i)).toLoadRect
          ((slot i).view.write (Elt F) (v i) (sentBlock m (bwd c (off i)) i) Finset.univ))
        (fun k => (wbM : Memref sig .tc .vmem S3x256x8192 .f32).view.readAt (Elt F)
          (Rect.unit (s := S3x256x8192) ![(wslotOf k).val, 0, 0] S1x256x8192.size (wslot_inb (wslotOf k))).toLoadRect
          ((wslot (wslotOf k)).view.writes (Elt F) (b k)
            (⟨Rect.whole S256x8192, ReadAs.same.apply ((wsrc c k).view.read (Elt F) (m ((c : Thread nD τ).loc main_arg1)))⟩ :: Ls k)))
      = outAt m c := by
  unfold outAt
  rw [funext fun i => aAt_of_landed m c i (v i), funext fun k => wAt_of_written m c k (b k) (Ls k)]
  rfl

end Cert.Kernel.A2A

end
-- ==== Proof.Bits.OutLit.lean ====
/-
  The leaf facts of `OutEq` at each of the fifteen slots and sixteen steps, with every index written as a numeral.

  Nothing new is proved: each statement is the general one at a numeral, its left side written with the slot's number,
  the weight slot's number (the step modulo three) and the step's number in place of the general expressions, so that
  it can be used as a rewrite rule on terms in which those numbers are already written out.
-/
import proofs.«900405_g7700000000000406_dist_a2a_gemm_m4096_k4096_n8192_f32_gelu_v7x_i16_1_alg».proof.Proof.Bits.OutEq
import proofs.«900405_g7700000000000406_dist_a2a_gemm_m4096_k4096_n8192_f32_gelu_v7x_i16_1_alg».proof.Proof.LibSlDelta

noncomputable section

namespace Cert.Kernel.A2A

open Cert.Kernel Cert.Kernel.Gen Cert.Kernel.Mesh Cert.Views

open Idealize.ShloMosaic
open Idealize.ShloMosaic.TcCoe
open Idealize.SL Idealize.SL.Sem

variable {F : FTy → Type} [FloatOps F]
variable (m : (ℓ : Loc nD τ sig) → Buf (Elt F) ℓ)

theorem aAt_lit_0 (c : Dev nD) (v : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ))) :
    View.readAt (Elt F) (rM : Memref sig .tc .vmem S16x256x256 .f32).view
        (Rect.unit (s := S16x256x256) ![1, 0, 0] S1x256x256.size inb_S16x256x256_S1x256x256_1_0_0).toLoadRect
        (View.write (Elt F) ((rM.slice (Rect.unit (s := S16x256x256) ![1, 0, 0] S1x256x256.size inb_S16x256x256_S1x256x256_1_0_0) (fun _ => rfl)).squeeze S256x256 squeezes_S1x256x256_S256x256).view v (sentBlock m (bwd c (off 0)) 0) Finset.univ)
      = aAt m c 0 :=
  aAt_of_landed m c 0 v

theorem aAt_lit_1 (c : Dev nD) (v : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ))) :
    View.readAt (Elt F) (rM : Memref sig .tc .vmem S16x256x256 .f32).view
        (Rect.unit (s := S16x256x256) ![2, 0, 0] S1x256x256.size inb_S16x256x256_S1x256x256_2_0_0).toLoadRect
        (View.write (Elt F) ((rM.slice (Rect.unit (s := S16x256x256) ![2, 0, 0] S1x256x256.size inb_S16x256x256_S1x256x256_2_0_0) (fun _ => rfl)).squeeze S256x256 squeezes_S1x256x256_S256x256).view v (sentBlock m (bwd c (off 1)) 1) Finset.univ)
      = aAt m c 1 :=
  aAt_of_landed m c 1 v

theorem aAt_lit_2 (c : Dev nD) (v : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ))) :
    View.readAt (Elt F) (rM : Memref sig .tc .vmem S16x256x256 .f32).view
        (Rect.unit (s := S16x256x256) ![3, 0, 0] S1x256x256.size inb_S16x256x256_S1x256x256_3_0_0).toLoadRect
        (View.write (Elt F) ((rM.slice (Rect.unit (s := S16x256x256) ![3, 0, 0] S1x256x256.size inb_S16x256x256_S1x256x256_3_0_0) (fun _ => rfl)).squeeze S256x256 squeezes_S1x256x256_S256x256).view v (sentBlock m (bwd c (off 2)) 2) Finset.univ)
      = aAt m c 2 :=
  aAt_of_landed m c 2 v

theorem aAt_lit_3 (c : Dev nD) (v : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ))) :
    View.readAt (Elt F) (rM : Memref sig .tc .vmem S16x256x256 .f32).view
        (Rect.unit (s := S16x256x256) ![4, 0, 0] S1x256x256.size inb_S16x256x256_S1x256x256_4_0_0).toLoadRect
        (View.write (Elt F) ((rM.slice (Rect.unit (s := S16x256x256) ![4, 0, 0] S1x256x256.size inb_S16x256x256_S1x256x256_4_0_0) (fun _ => rfl)).squeeze S256x256 squeezes_S1x256x256_S256x256).view v (sentBlock m (bwd c (off 3)) 3) Finset.univ)
      = aAt m c 3 :=
  aAt_of_landed m c 3 v

theorem aAt_lit_4 (c : Dev nD) (v : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ))) :
    View.readAt (Elt F) (rM : Memref sig .tc .vmem S16x256x256 .f32).view
        (Rect.unit (s := S16x256x256) ![5, 0, 0] S1x256x256.size inb_S16x256x256_S1x256x256_5_0_0).toLoadRect
        (View.write (Elt F) ((rM.slice (Rect.unit (s := S16x256x256) ![5, 0, 0] S1x256x256.size inb_S16x256x256_S1x256x256_5_0_0) (fun _ => rfl)).squeeze S256x256 squeezes_S1x256x256_S256x256).view v (sentBlock m (bwd c (off 4)) 4) Finset.univ)
      = aAt m c 4 :=
  aAt_of_landed m c 4 v

theorem aAt_lit_5 (c : Dev nD) (v : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ))) :
    View.readAt (Elt F) (rM : Memref sig .tc .vmem S16x256x256 .f32).view
        (Rect.unit (s := S16x256x256) ![6, 0, 0] S1x256x256.size inb_S16x256x256_S1x256x256_6_0_0).toLoadRect
        (View.write (Elt F) ((rM.slice (Rect.unit (s := S16x256x256) ![6, 0, 0] S1x256x256.size inb_S16x256x256_S1x256x256_6_0_0) (fun _ => rfl)).squeeze S256x256 squeezes_S1x256x256_S256x256).view v (sentBlock m (bwd c (off 5)) 5) Finset.univ)
      = aAt m c 5 :=
  aAt_of_landed m c 5 v

theorem aAt_lit_6 (c : Dev nD) (v : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ))) :
    View.readAt (Elt F) (rM : Memref sig .tc .vmem S16x256x256 .f32).view
        (Rect.unit (s := S16x256x256) ![7, 0, 0] S1x256x256.size inb_S16x256x256_S1x256x256_7_0_0).toLoadRect
        (View.write (Elt F) ((rM.slice (Rect.unit (s := S16x256x256) ![7, 0, 0] S1x256x256.size inb_S16x256x256_S1x256x256_7_0_0) (fun _ => rfl)).squeeze S256x256 squeezes_S1x256x256_S256x256).view v (sentBlock m (bwd c (off 6)) 6) Finset.univ)
      = aAt m c 6 :=
  aAt_of_landed m c 6 v

theorem aAt_lit_7 (c : Dev nD) (v : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ))) :
    View.readAt (Elt F) (rM : Memref sig .tc .vmem S16x256x256 .f32).view
        (Rect.unit (s := S16x256x256) ![8, 0, 0] S1x256x256.size inb_S16x256x256_S1x256x256_8_0_0).toLoadRect
        (View.write (Elt F) ((rM.slice (Rect.unit (s := S16x256x256) ![8, 0, 0] S1x256x256.size inb_S16x256x256_S1x256x256_8_0_0) (fun _ => rfl)).squeeze S256x256 squeezes_S1x256x256_S256x256).view v (sentBlock m (bwd c (off 7)) 7) Finset.univ)
      = aAt m c 7 :=
  aAt_of_landed m c 7 v

theorem aAt_lit_8 (c : Dev nD) (v : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ))) :
    View.readAt (Elt F) (rM : Memref sig .tc .vmem S16x256x256 .f32).view
        (Rect.unit (s := S16x256x256) ![9, 0, 0] S1x256x256.size inb_S16x256x256_S1x256x256_9_0_0).toLoadRect
        (View.write (Elt F) ((rM.slice (Rect.unit (s := S16x256x256) ![9, 0, 0] S1x256x256.size inb_S16x256x256_S1x256x256_9_0_0) (fun _ => rfl)).squeeze S256x256 squeezes_S1x256x256_S256x256).view v (sentBlock m (bwd c (off 8)) 8) Finset.univ)
      = aAt m c 8 :=
  aAt_of_landed m c 8 v

theorem aAt_lit_9 (c : Dev nD) (v : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ))) :
    View.readAt (Elt F) (rM : Memref sig .tc .vmem S16x256x256 .f32).view
        (Rect.unit (s := S16x256x256) ![10, 0, 0] S1x256x256.size inb_S16x256x256_S1x256x256_10_0_0).toLoadRect
        (View.write (Elt F) ((rM.slice (Rect.unit (s := S16x256x256) ![10, 0, 0] S1x256x256.size inb_S16x256x256_S1x256x256_10_0_0) (fun _ => rfl)).squeeze S256x256 squeezes_S1x256x256_S256x256).view v (sentBlock m (bwd c (off 9)) 9) Finset.univ)
      = aAt m c 9 :=
  aAt_of_landed m c 9 v

theorem aAt_lit_10 (c : Dev nD) (v : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ))) :
    View.readAt (Elt F) (rM : Memref sig .tc .vmem S16x256x256 .f32).view
        (Rect.unit (s := S16x256x256) ![11, 0, 0] S1x256x256.size inb_S16x256x256_S1x256x256_11_0_0).toLoadRect
        (View.write (Elt F) ((rM.slice (Rect.unit (s := S16x256x256) ![11, 0, 0] S1x256x256.size inb_S16x256x256_S1x256x256_11_0_0) (fun _ => rfl)).squeeze S256x256 squeezes_S1x256x256_S256x256).view v (sentBlock m (bwd c (off 10)) 10) Finset.univ)
      = aAt m c 10 :=
  aAt_of_landed m c 10 v

theorem aAt_lit_11 (c : Dev nD) (v : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ))) :
    View.readAt (Elt F) (rM : Memref sig .tc .vmem S16x256x256 .f32).view
        (Rect.unit (s := S16x256x256) ![12, 0, 0] S1x256x256.size inb_S16x256x256_S1x256x256_12_0_0).toLoadRect
        (View.write (Elt F) ((rM.slice (Rect.unit (s := S16x256x256) ![12, 0, 0] S1x256x256.size inb_S16x256x256_S1x256x256_12_0_0) (fun _ => rfl)).squeeze S256x256 squeezes_S1x256x256_S256x256).view v (sentBlock m (bwd c (off 11)) 11) Finset.univ)
      = aAt m c 11 :=
  aAt_of_landed m c 11 v

theorem aAt_lit_12 (c : Dev nD) (v : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ))) :
    View.readAt (Elt F) (rM : Memref sig .tc .vmem S16x256x256 .f32).view
        (Rect.unit (s := S16x256x256) ![13, 0, 0] S1x256x256.size inb_S16x256x256_S1x256x256_13_0_0).toLoadRect
        (View.write (Elt F) ((rM.slice (Rect.unit (s := S16x256x256) ![13, 0, 0] S1x256x256.size inb_S16x256x256_S1x256x256_13_0_0) (fun _ => rfl)).squeeze S256x256 squeezes_S1x256x256_S256x256).view v (sentBlock m (bwd c (off 12)) 12) Finset.univ)
      = aAt m c 12 :=
  aAt_of_landed m c 12 v

theorem aAt_lit_13 (c : Dev nD) (v : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ))) :
    View.readAt (Elt F) (rM : Memref sig .tc .vmem S16x256x256 .f32).view
        (Rect.unit (s := S16x256x256) ![14, 0, 0] S1x256x256.size inb_S16x256x256_S1x256x256_14_0_0).toLoadRect
        (View.write (Elt F) ((rM.slice (Rect.unit (s := S16x256x256) ![14, 0, 0] S1x256x256.size inb_S16x256x256_S1x256x256_14_0_0) (fun _ => rfl)).squeeze S256x256 squeezes_S1x256x256_S256x256).view v (sentBlock m (bwd c (off 13)) 13) Finset.univ)
      = aAt m c 13 :=
  aAt_of_landed m c 13 v

theorem aAt_lit_14 (c : Dev nD) (v : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ))) :
    View.readAt (Elt F) (rM : Memref sig .tc .vmem S16x256x256 .f32).view
        (Rect.unit (s := S16x256x256) ![15, 0, 0] S1x256x256.size inb_S16x256x256_S1x256x256_15_0_0).toLoadRect
        (View.write (Elt F) ((rM.slice (Rect.unit (s := S16x256x256) ![15, 0, 0] S1x256x256.size inb_S16x256x256_S1x256x256_15_0_0) (fun _ => rfl)).squeeze S256x256 squeezes_S1x256x256_S256x256).view v (sentBlock m (bwd c (off 14)) 14) Finset.univ)
      = aAt m c 14 :=
  aAt_of_landed m c 14 v

theorem wAt_lit_0 (c : Dev nD) (base : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![0, 0, 0] S1x256x8192.size inb_S3x256x8192_S1x256x8192_0_0_0).toLoadRect
        (((wbM.slice (Rect.unit (s := S3x256x8192) ![0, 0, 0] S1x256x8192.size inb_S3x256x8192_S1x256x8192_0_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 0#32) S256x8192.size (k0_off1_inb c 0)) (fun _ => rfl)).view
              (m ((c : Thread nD τ).loc main_arg1)))⟩ :: L))
      = wAt m c 0 :=
  wAt_of_written m c 0 base L

theorem wAt_lit_1 (c : Dev nD) (base : Buf (Elt F) (((wbM.slice (Rect.unit (s := S3x256x8192) ![1, 0, 0] S1x256x8192.size inb_S3x256x8192_S1x256x8192_1_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![1, 0, 0] S1x256x8192.size inb_S3x256x8192_S1x256x8192_1_0_0).toLoadRect
        (((wbM.slice (Rect.unit (s := S3x256x8192) ![1, 0, 0] S1x256x8192.size inb_S3x256x8192_S1x256x8192_1_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 1#32) S256x8192.size (k0_off1_inb c 1)) (fun _ => rfl)).view
              (m ((c : Thread nD τ).loc main_arg1)))⟩ :: L))
      = wAt m c 1 :=
  wAt_of_written m c 1 base L

theorem wAt_lit_2 (c : Dev nD) (base : Buf (Elt F) (((wbM.slice (Rect.unit (s := S3x256x8192) ![2, 0, 0] S1x256x8192.size inb_S3x256x8192_S1x256x8192_2_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![2, 0, 0] S1x256x8192.size inb_S3x256x8192_S1x256x8192_2_0_0).toLoadRect
        (((wbM.slice (Rect.unit (s := S3x256x8192) ![2, 0, 0] S1x256x8192.size inb_S3x256x8192_S1x256x8192_2_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 2#32) S256x8192.size (k0_off1_inb c 2)) (fun _ => rfl)).view
              (m ((c : Thread nD τ).loc main_arg1)))⟩ :: L))
      = wAt m c 2 :=
  wAt_of_written m c 2 base L

theorem wAt_lit_3 (c : Dev nD) (base : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![0, 0, 0] S1x256x8192.size inb_S3x256x8192_S1x256x8192_0_0_0).toLoadRect
        (((wbM.slice (Rect.unit (s := S3x256x8192) ![0, 0, 0] S1x256x8192.size inb_S3x256x8192_S1x256x8192_0_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 3#32) S256x8192.size (k0_off1_inb c 3)) (fun _ => rfl)).view
              (m ((c : Thread nD τ).loc main_arg1)))⟩ :: L))
      = wAt m c 3 :=
  wAt_of_written m c 3 base L

theorem wAt_lit_4 (c : Dev nD) (base : Buf (Elt F) (((wbM.slice (Rect.unit (s := S3x256x8192) ![1, 0, 0] S1x256x8192.size inb_S3x256x8192_S1x256x8192_1_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![1, 0, 0] S1x256x8192.size inb_S3x256x8192_S1x256x8192_1_0_0).toLoadRect
        (((wbM.slice (Rect.unit (s := S3x256x8192) ![1, 0, 0] S1x256x8192.size inb_S3x256x8192_S1x256x8192_1_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 4#32) S256x8192.size (k0_off1_inb c 4)) (fun _ => rfl)).view
              (m ((c : Thread nD τ).loc main_arg1)))⟩ :: L))
      = wAt m c 4 :=
  wAt_of_written m c 4 base L

theorem wAt_lit_5 (c : Dev nD) (base : Buf (Elt F) (((wbM.slice (Rect.unit (s := S3x256x8192) ![2, 0, 0] S1x256x8192.size inb_S3x256x8192_S1x256x8192_2_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![2, 0, 0] S1x256x8192.size inb_S3x256x8192_S1x256x8192_2_0_0).toLoadRect
        (((wbM.slice (Rect.unit (s := S3x256x8192) ![2, 0, 0] S1x256x8192.size inb_S3x256x8192_S1x256x8192_2_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 5#32) S256x8192.size (k0_off1_inb c 5)) (fun _ => rfl)).view
              (m ((c : Thread nD τ).loc main_arg1)))⟩ :: L))
      = wAt m c 5 :=
  wAt_of_written m c 5 base L

theorem wAt_lit_6 (c : Dev nD) (base : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![0, 0, 0] S1x256x8192.size inb_S3x256x8192_S1x256x8192_0_0_0).toLoadRect
        (((wbM.slice (Rect.unit (s := S3x256x8192) ![0, 0, 0] S1x256x8192.size inb_S3x256x8192_S1x256x8192_0_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 6#32) S256x8192.size (k0_off1_inb c 6)) (fun _ => rfl)).view
              (m ((c : Thread nD τ).loc main_arg1)))⟩ :: L))
      = wAt m c 6 :=
  wAt_of_written m c 6 base L

theorem wAt_lit_7 (c : Dev nD) (base : Buf (Elt F) (((wbM.slice (Rect.unit (s := S3x256x8192) ![1, 0, 0] S1x256x8192.size inb_S3x256x8192_S1x256x8192_1_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![1, 0, 0] S1x256x8192.size inb_S3x256x8192_S1x256x8192_1_0_0).toLoadRect
        (((wbM.slice (Rect.unit (s := S3x256x8192) ![1, 0, 0] S1x256x8192.size inb_S3x256x8192_S1x256x8192_1_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 7#32) S256x8192.size (k0_off1_inb c 7)) (fun _ => rfl)).view
              (m ((c : Thread nD τ).loc main_arg1)))⟩ :: L))
      = wAt m c 7 :=
  wAt_of_written m c 7 base L

theorem wAt_lit_8 (c : Dev nD) (base : Buf (Elt F) (((wbM.slice (Rect.unit (s := S3x256x8192) ![2, 0, 0] S1x256x8192.size inb_S3x256x8192_S1x256x8192_2_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![2, 0, 0] S1x256x8192.size inb_S3x256x8192_S1x256x8192_2_0_0).toLoadRect
        (((wbM.slice (Rect.unit (s := S3x256x8192) ![2, 0, 0] S1x256x8192.size inb_S3x256x8192_S1x256x8192_2_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 8#32) S256x8192.size (k0_off1_inb c 8)) (fun _ => rfl)).view
              (m ((c : Thread nD τ).loc main_arg1)))⟩ :: L))
      = wAt m c 8 :=
  wAt_of_written m c 8 base L

theorem wAt_lit_9 (c : Dev nD) (base : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![0, 0, 0] S1x256x8192.size inb_S3x256x8192_S1x256x8192_0_0_0).toLoadRect
        (((wbM.slice (Rect.unit (s := S3x256x8192) ![0, 0, 0] S1x256x8192.size inb_S3x256x8192_S1x256x8192_0_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 9#32) S256x8192.size (k0_off1_inb c 9)) (fun _ => rfl)).view
              (m ((c : Thread nD τ).loc main_arg1)))⟩ :: L))
      = wAt m c 9 :=
  wAt_of_written m c 9 base L

theorem wAt_lit_10 (c : Dev nD) (base : Buf (Elt F) (((wbM.slice (Rect.unit (s := S3x256x8192) ![1, 0, 0] S1x256x8192.size inb_S3x256x8192_S1x256x8192_1_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![1, 0, 0] S1x256x8192.size inb_S3x256x8192_S1x256x8192_1_0_0).toLoadRect
        (((wbM.slice (Rect.unit (s := S3x256x8192) ![1, 0, 0] S1x256x8192.size inb_S3x256x8192_S1x256x8192_1_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 10#32) S256x8192.size (k0_off1_inb c 10)) (fun _ => rfl)).view
              (m ((c : Thread nD τ).loc main_arg1)))⟩ :: L))
      = wAt m c 10 :=
  wAt_of_written m c 10 base L

theorem wAt_lit_11 (c : Dev nD) (base : Buf (Elt F) (((wbM.slice (Rect.unit (s := S3x256x8192) ![2, 0, 0] S1x256x8192.size inb_S3x256x8192_S1x256x8192_2_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![2, 0, 0] S1x256x8192.size inb_S3x256x8192_S1x256x8192_2_0_0).toLoadRect
        (((wbM.slice (Rect.unit (s := S3x256x8192) ![2, 0, 0] S1x256x8192.size inb_S3x256x8192_S1x256x8192_2_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 11#32) S256x8192.size (k0_off1_inb c 11)) (fun _ => rfl)).view
              (m ((c : Thread nD τ).loc main_arg1)))⟩ :: L))
      = wAt m c 11 :=
  wAt_of_written m c 11 base L

theorem wAt_lit_12 (c : Dev nD) (base : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![0, 0, 0] S1x256x8192.size inb_S3x256x8192_S1x256x8192_0_0_0).toLoadRect
        (((wbM.slice (Rect.unit (s := S3x256x8192) ![0, 0, 0] S1x256x8192.size inb_S3x256x8192_S1x256x8192_0_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 12#32) S256x8192.size (k0_off1_inb c 12)) (fun _ => rfl)).view
              (m ((c : Thread nD τ).loc main_arg1)))⟩ :: L))
      = wAt m c 12 :=
  wAt_of_written m c 12 base L

theorem wAt_lit_13 (c : Dev nD) (base : Buf (Elt F) (((wbM.slice (Rect.unit (s := S3x256x8192) ![1, 0, 0] S1x256x8192.size inb_S3x256x8192_S1x256x8192_1_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![1, 0, 0] S1x256x8192.size inb_S3x256x8192_S1x256x8192_1_0_0).toLoadRect
        (((wbM.slice (Rect.unit (s := S3x256x8192) ![1, 0, 0] S1x256x8192.size inb_S3x256x8192_S1x256x8192_1_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 13#32) S256x8192.size (k0_off1_inb c 13)) (fun _ => rfl)).view
              (m ((c : Thread nD τ).loc main_arg1)))⟩ :: L))
      = wAt m c 13 :=
  wAt_of_written m c 13 base L

theorem wAt_lit_14 (c : Dev nD) (base : Buf (Elt F) (((wbM.slice (Rect.unit (s := S3x256x8192) ![2, 0, 0] S1x256x8192.size inb_S3x256x8192_S1x256x8192_2_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![2, 0, 0] S1x256x8192.size inb_S3x256x8192_S1x256x8192_2_0_0).toLoadRect
        (((wbM.slice (Rect.unit (s := S3x256x8192) ![2, 0, 0] S1x256x8192.size inb_S3x256x8192_S1x256x8192_2_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 14#32) S256x8192.size (k0_off1_inb c 14)) (fun _ => rfl)).view
              (m ((c : Thread nD τ).loc main_arg1)))⟩ :: L))
      = wAt m c 14 :=
  wAt_of_written m c 14 base L

theorem wAt_lit_15 (c : Dev nD) (base : Buf (Elt F) (((wbM.slice (Rect.unit (s := S3x256x8192) ![0, 0, 0] S1x256x8192.size inb_S3x256x8192_S1x256x8192_0_0_0) (fun _ => rfl)).squeeze S256x8192 squeezes_S1x256x8192_S256x8192).view.loc (c : Thread nD τ))) (L : List (View.Piece (Elt F) S256x8192 .f32)) :
    View.readAt (Elt F) (wbM : Memref sig .tc .vmem S3x256x8192 .f32).view
        (Rect.unit (s := S3x256x8192) ![0, 0, 0] S1x256x8192.size inb_S3x256x8192_S1x256x8192_0_0_0).toLoadRect
        (((wbM.slice (Rect.unit (s := S3x256x8192) ![0, 0, 0] S1x256x8192.size inb_S3x256x8192_S1x256x8192_0_0_0) (fun _ => rfl)).squeeze S256x8192 squeezes_S1x256x8192_S256x8192).view.writes (Elt F) base
          (⟨Rect.whole S256x8192, ReadAs.same.apply (View.read (Elt F)
              (wM.slice (Rect.unit (s := S4096x8192) (k0_off1 c 15#32) S256x8192.size (k0_off1_inb c 15)) (fun _ => rfl)).view
              (m ((c : Thread nD τ).loc main_arg1)))⟩ :: L))
      = wAt m c 15 :=
  wAt_of_written m c 15 base L

end Cert.Kernel.A2A

end
-- ==== Proof.Bits.Body.lean ====
/-
  One device's body of the sixteen-device all-to-all product.

  Device `c` starts three copies of weight rows into its three weight slots; tells each of the other fifteen devices,
  on their barrier cells, that its landing slots exist, and waits for the fifteen units that say the same of them; sends,
  for every offset `e = 1 … 15`, the 256 rows of its column block that the device `e` places forward multiplies into that
  device's slot `e`; then, for `k = 0 … 15`, waits for the weight rows of step `k` and (for `k ≥ 1`) for the landing of
  slot `k`, multiplies the 256 × 256 block by the 256 × 8192 weight rows, adds the product to the result, and starts the
  copy of the weight rows of step `k + 3` into the slot just read; applies the activation to the accumulated result; and
  waits until the fifteen slabs it sent have been read.

  The statement: from what the device holds at entry (its buffers cut into the pieces the steps use, its cells' ghost
  state, what it owes) the body runs to its end, leaving the result's staging buffer at the composed arithmetic of the
  sixteen steps applied to the blocks as they were sent and the weight rows as they were copied, every own cell consumed
  once, every buffer whole again and nothing owed.
-/
import proofs.«900405_g7700000000000406_dist_a2a_gemm_m4096_k4096_n8192_f32_gelu_v7x_i16_1_alg».proof.Proof.Bits.Tables
import proofs.«900405_g7700000000000406_dist_a2a_gemm_m4096_k4096_n8192_f32_gelu_v7x_i16_1_alg».proof.Proof.Bits.BodyCtx
import proofs.«900405_g7700000000000406_dist_a2a_gemm_m4096_k4096_n8192_f32_gelu_v7x_i16_1_alg».proof.Proof.Bits.BodyFinish
import proofs.«900405_g7700000000000406_dist_a2a_gemm_m4096_k4096_n8192_f32_gelu_v7x_i16_1_alg».proof.Proof.Bits.OutLit

noncomputable section

namespace Cert.Kernel.A2A

open Cert.Kernel Cert.Kernel.Gen Cert.Kernel.Mesh

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SlDelta Cert.Views

variable {F : FTy → Type} [FloatOps F]

local notation "𝕄" => MT nD τ sig Unit (Elt F) ℕ UU ℕ

variable (m : (ℓ : Loc nD τ sig) → Buf (Elt F) ℓ) (ρ : Dev nD → PrngReg)

attribute [local irreducible] fwd k0_off1 k0_off2 k0_off3 xShare

set_option sl_exec.stepHeartbeats 400000 in
set_option maxHeartbeats 8000000 in
set_option maxRecDepth 65536 in
theorem sound_body (c : Dev nD) (K : Dev nD × CK → ℕ) (W : Waits sig Unit)
    (g1 : Buf (Elt F) ((oM : Memref sig .tc .vmem S256x8192 .f32).view.loc (c : Thread nD τ)))
    (fw : Buf (Elt F) ((wbM : Memref sig .tc .vmem S3x256x8192 .f32).view.loc (c : Thread nD τ)))
    (fs0 : Buf (Elt F) (((rM.slice (Rect.unit (s := S16x256x256) ![1, 0, 0] S1x256x256.size inb_S16x256x256_S1x256x256_1_0_0) (fun _ => rfl)).squeeze S256x256 squeezes_S1x256x256_S256x256).view.loc (c : Thread nD τ))) (fs1 : Buf (Elt F) (((rM.slice (Rect.unit (s := S16x256x256) ![2, 0, 0] S1x256x256.size inb_S16x256x256_S1x256x256_2_0_0) (fun _ => rfl)).squeeze S256x256 squeezes_S1x256x256_S256x256).view.loc (c : Thread nD τ))) (fs2 : Buf (Elt F) (((rM.slice (Rect.unit (s := S16x256x256) ![3, 0, 0] S1x256x256.size inb_S16x256x256_S1x256x256_3_0_0) (fun _ => rfl)).squeeze S256x256 squeezes_S1x256x256_S256x256).view.loc (c : Thread nD τ))) (fs3 : Buf (Elt F) (((rM.slice (Rect.unit (s := S16x256x256) ![4, 0, 0] S1x256x256.size inb_S16x256x256_S1x256x256_4_0_0) (fun _ => rfl)).squeeze S256x256 squeezes_S1x256x256_S256x256).view.loc (c : Thread nD τ))) (fs4 : Buf (Elt F) (((rM.slice (Rect.unit (s := S16x256x256) ![5, 0, 0] S1x256x256.size inb_S16x256x256_S1x256x256_5_0_0) (fun _ => rfl)).squeeze S256x256 squeezes_S1x256x256_S256x256).view.loc (c : Thread nD τ))) (fs5 : Buf (Elt F) (((rM.slice (Rect.unit (s := S16x256x256) ![6, 0, 0] S1x256x256.size inb_S16x256x256_S1x256x256_6_0_0) (fun _ => rfl)).squeeze S256x256 squeezes_S1x256x256_S256x256).view.loc (c : Thread nD τ))) (fs6 : Buf (Elt F) (((rM.slice (Rect.unit (s := S16x256x256) ![7, 0, 0] S1x256x256.size inb_S16x256x256_S1x256x256_7_0_0) (fun _ => rfl)).squeeze S256x256 squeezes_S1x256x256_S256x256).view.loc (c : Thread nD τ))) (fs7 : Buf (Elt F) (((rM.slice (Rect.unit (s := S16x256x256) ![8, 0, 0] S1x256x256.size inb_S16x256x256_S1x256x256_8_0_0) (fun _ => rfl)).squeeze S256x256 squeezes_S1x256x256_S256x256).view.loc (c : Thread nD τ))) (fs8 : Buf (Elt F) (((rM.slice (Rect.unit (s := S16x256x256) ![9, 0, 0] S1x256x256.size inb_S16x256x256_S1x256x256_9_0_0) (fun _ => rfl)).squeeze S256x256 squeezes_S1x256x256_S256x256).view.loc (c : Thread nD τ))) (fs9 : Buf (Elt F) (((rM.slice (Rect.unit (s := S16x256x256) ![10, 0, 0] S1x256x256.size inb_S16x256x256_S1x256x256_10_0_0) (fun _ => rfl)).squeeze S256x256 squeezes_S1x256x256_S256x256).view.loc (c : Thread nD τ))) (fs10 : Buf (Elt F) (((rM.slice (Rect.unit (s := S16x256x256) ![11, 0, 0] S1x256x256.size inb_S16x256x256_S1x256x256_11_0_0) (fun _ => rfl)).squeeze S256x256 squeezes_S1x256x256_S256x256).view.loc (c : Thread nD τ))) (fs11 : Buf (Elt F) (((rM.slice (Rect.unit (s := S16x256x256) ![12, 0, 0] S1x256x256.size inb_S16x256x256_S1x256x256_12_0_0) (fun _ => rfl)).squeeze S256x256 squeezes_S1x256x256_S256x256).view.loc (c : Thread nD τ))) (fs12 : Buf (Elt F) (((rM.slice (Rect.unit (s := S16x256x256) ![13, 0, 0] S1x256x256.size inb_S16x256x256_S1x256x256_13_0_0) (fun _ => rfl)).squeeze S256x256 squeezes_S1x256x256_S256x256).view.loc (c : Thread nD τ))) (fs13 : Buf (Elt F) (((rM.slice (Rect.unit (s := S16x256x256) ![14, 0, 0] S1x256x256.size inb_S16x256x256_S1x256x256_14_0_0) (fun _ => rfl)).squeeze S256x256 squeezes_S1x256x256_S256x256).view.loc (c : Thread nD τ))) (fs14 : Buf (Elt F) (((rM.slice (Rect.unit (s := S16x256x256) ![15, 0, 0] S1x256x256.size inb_S16x256x256_S1x256x256_15_0_0) (fun _ => rfl)).squeeze S256x256 squeezes_S1x256x256_S256x256).view.loc (c : Thread nD τ))) (f0 : Buf (Elt F) ((c : Thread nD τ).loc cc0_scratch0)) :
    bodyCtx m c K W g1 fw fs0 fs1 fs2 fs3 fs4 fs5 fs6 fs7 fs8 fs9 fs10 fs11 fs12 fs13 fs14 f0
      ⊢ wp frame (wpE (defs₀ (F := F)) Variants.none (c : Thread nD τ) none) Set.univ
          (cc0_body xM (Memref.isWhole_whole _) wM (Memref.isWhole_whole _) oM (Memref.isWhole_whole _)
            rM (Memref.isWhole_whole _) wbM (Memref.isWhole_whole _) cc0_scratch2 cc0_scratch3 cc0_scratch4)
          (fun _ => iprop(Φ₁ m c ∗ (dats m ρ 0 c).owesAt () t0_0.succ ∗ stg c cc0_stg0_0 (xstg m c) ∗ stg c cc0_stg1_0 (outAt m c))) := by
  unfold bodyCtx
  iintro ⟨HxR, Hx0, Hx1, Hx2, Hx3, Hx4, Hx5, Hx6, Hx7, Hx8, Hx9, Hx10, Hx11, Hx12, Hx13, Hx14, Hxr0, Hxr1, Hxr2, Hxr3, Hxr4, Hxr5, Hxr6, Hxr7, Hxr8, Hxr9, Hxr10, Hxr11, Hxr12, Hxr13, Hxr14, HwR, Hw0, Hw1, Hw2, Hout, Hsl14, Hsl13, Hsl12, Hsl11, Hsl10, Hsl9, Hsl8, Hsl7, Hsl6, Hsl5, Hsl4, Hsl3, Hsl2, Hsl1, Hsl0, Hwb0, Hwb1, Hwb2, Hs2, Hs3, Hs4, #HIbar, #HIs0, #HIs1, #HIs2, #HIs3, #HIs4, #HIs5, #HIs6, #HIs7, #HIs8, #HIs9, #HIs10, #HIs11, #HIs12, #HIs13, #HIs14, #HIr0, #HIr1, #HIr2, #HIr3, #HIr4, #HIr5, #HIr6, #HIr7, #HIr8, #HIr9, #HIr10, #HIr11, #HIr12, #HIr13, #HIr14, #HIb0, #HIb1, #HIb2, #HIb3, #HIb4, #HIb5, #HIb6, #HIb7, #HIb8, #HIb9, #HIb10, #HIb11, #HIb12, #HIb13, #HIb14, #HIv0, #HIv1, #HIv2, #HIv3, #HIv4, #HIv5, #HIv6, #HIv7, #HIv8, #HIv9, #HIv10, #HIv11, #HIv12, #HIv13, #HIv14, HatB, HatS0, HatS1, HatS2, HatS3, HatS4, HatS5, HatS6, HatS7, HatS8, HatS9, HatS10, HatS11, HatS12, HatS13, HatS14, HatV0, HatV1, HatV2, HatV3, HatV4, HatV5, HatV6, HatV7, HatV8, HatV9, HatV10, HatV11, HatV12, HatV13, HatV14, #HrB0, #HrB1, #HrB2, #HrB3, #HrB4, #HrB5, #HrB6, #HrB7, #HrB8, #HrB9, #HrB10, #HrB11, #HrB12, #HrB13, #HrB14, #HrV0, #HrV1, #HrV2, #HrV3, #HrV4, #HrV5, #HrV6, #HrV7, #HrV8, #HrV9, #HrV10, #HrV11, #HrV12, #HrV13, #HrV14, #HrS0, #HrS1, #HrS2, #HrS3, #HrS4, #HrS5, #HrS6, #HrS7, #HrS8, #HrS9, #HrS10, #HrS11, #HrS12, #HrS13, #HrS14, #HrO0, #HrO1, #HrO2, #HrO3, #HrO4, #HrO5, #HrO6, #HrO7, #HrO8, #HrO9, #HrO10, #HrO11, #HrO12, #HrO13, #HrO14, HtB0, HtB1, HtB2, HtB3, HtB4, HtB5, HtB6, HtB7, HtB8, HtB9, HtB10, HtB11, HtB12, HtB13, HtB14, HtV0, HtV1, HtV2, HtV3, HtV4, HtV5, HtV6, HtV7, HtV8, HtV9, HtV10, HtV11, HtV12, HtV13, HtV14, HtS0, HtS1, HtS2, HtS3, HtS4, HtS5, HtS6, HtS7, HtS8, HtS9, HtS10, HtS11, HtS12, HtS13, HtS14, HcB, HcV0, HcV1, HcV2, HcV3, HcV4, HcV5, HcV6, HcV7, HcV8, HcV9, HcV10, HcV11, HcV12, HcV13, HcV14, #Hlev, HO, HS0, Hi0, Hi1⟩
  have hmw : (levAts L lv : sProp 𝕄) ⊢ MayWait (c : Thread nD τ) (.reg barS) () (tallyAt (recvCell (fwd c 15) 14) () N + tallyAt (recvCell (fwd c 14) 13) () N + tallyAt (recvCell (fwd c 13) 12) () N + tallyAt (recvCell (fwd c 12) 11) () N + tallyAt (recvCell (fwd c 11) 10) () N + tallyAt (recvCell (fwd c 10) 9) () N + tallyAt (recvCell (fwd c 9) 8) () N + tallyAt (recvCell (fwd c 8) 7) () N + tallyAt (recvCell (fwd c 7) 6) () N + tallyAt (recvCell (fwd c 6) 5) () N + tallyAt (recvCell (fwd c 5) 4) () N + tallyAt (recvCell (fwd c 4) 3) () N + tallyAt (recvCell (fwd c 3) 2) () N + tallyAt (recvCell (fwd c 2) 1) () N + tallyAt (recvCell (fwd c 1) 0) () N) := mayWait_bar (F := F) c
  sl_unfold [cc0_body]
  sl_exec_parts
  ihave Hpay := (as_sep15 rfl) $$ HatB_pay1
  icases Hpay with ⟨⟨⟨%fp0, Hp0⟩, -⟩, ⟨⟨%fp1, Hp1⟩, -⟩, ⟨⟨%fp2, Hp2⟩, -⟩, ⟨⟨%fp3, Hp3⟩, -⟩, ⟨⟨%fp4, Hp4⟩, -⟩, ⟨⟨%fp5, Hp5⟩, -⟩, ⟨⟨%fp6, Hp6⟩, -⟩, ⟨⟨%fp7, Hp7⟩, -⟩, ⟨⟨%fp8, Hp8⟩, -⟩, ⟨⟨%fp9, Hp9⟩, -⟩, ⟨⟨%fp10, Hp10⟩, -⟩, ⟨⟨%fp11, Hp11⟩, -⟩, ⟨⟨%fp12, Hp12⟩, -⟩, ⟨⟨%fp13, Hp13⟩, -⟩, ⟨⟨%fp14, Hp14⟩, -⟩⟩
  sl_exec_parts (disch := simp only [dev16_c, dev17_c, dev18_c, dev19_c, dev20_c, dev21_c, dev22_c, dev23_c, dev24_c, dev25_c, dev26_c, dev27_c, dev28_c, dev29_c, dev30_c])
  first | (icases HatV0_pay1 with ⟨%HatV0_pay1_v, HatV0_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV1_pay1 with ⟨%HatV1_pay1_v, HatV1_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV2_pay1 with ⟨%HatV2_pay1_v, HatV2_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV3_pay1 with ⟨%HatV3_pay1_v, HatV3_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV4_pay1 with ⟨%HatV4_pay1_v, HatV4_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV5_pay1 with ⟨%HatV5_pay1_v, HatV5_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV6_pay1 with ⟨%HatV6_pay1_v, HatV6_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV7_pay1 with ⟨%HatV7_pay1_v, HatV7_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV8_pay1 with ⟨%HatV8_pay1_v, HatV8_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV9_pay1 with ⟨%HatV9_pay1_v, HatV9_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV10_pay1 with ⟨%HatV10_pay1_v, HatV10_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV11_pay1 with ⟨%HatV11_pay1_v, HatV11_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV12_pay1 with ⟨%HatV12_pay1_v, HatV12_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV13_pay1 with ⟨%HatV13_pay1_v, HatV13_pay1⟩; sl_exec (disch := simp only [dev16_c, dev17_c, dev18_c, dev19_c, dev20_c, dev21_c, dev22_c, dev23_c, dev24_c, dev25_c, dev26_c, dev27_c, dev28_c, dev29_c, dev30_c])) | skip
  first | (icases HatV14_pay1 with ⟨%HatV14_pay1_v, HatV14_pay1⟩; sl_exec (disch := simp only [dev16_c, dev17_c, dev18_c, dev19_c, dev20_c, dev21_c, dev22_c, dev23_c, dev24_c, dev25_c, dev26_c, dev27_c, dev28_c, dev29_c, dev30_c])) | skip
  ihave Hx0_cred := (Entails.of_eq (cred_N (sendCell c 0))) $$ Hx0_cred
  ihave Hx1_cred := (Entails.of_eq (cred_N (sendCell c 1))) $$ Hx1_cred
  ihave Hx2_cred := (Entails.of_eq (cred_N (sendCell c 2))) $$ Hx2_cred
  ihave Hx3_cred := (Entails.of_eq (cred_N (sendCell c 3))) $$ Hx3_cred
  ihave Hx4_cred := (Entails.of_eq (cred_N (sendCell c 4))) $$ Hx4_cred
  ihave Hx5_cred := (Entails.of_eq (cred_N (sendCell c 5))) $$ Hx5_cred
  ihave Hx6_cred := (Entails.of_eq (cred_N (sendCell c 6))) $$ Hx6_cred
  ihave Hx7_cred := (Entails.of_eq (cred_N (sendCell c 7))) $$ Hx7_cred
  ihave Hx8_cred := (Entails.of_eq (cred_N (sendCell c 8))) $$ Hx8_cred
  ihave Hx9_cred := (Entails.of_eq (cred_N (sendCell c 9))) $$ Hx9_cred
  ihave Hx10_cred := (Entails.of_eq (cred_N (sendCell c 10))) $$ Hx10_cred
  ihave Hx11_cred := (Entails.of_eq (cred_N (sendCell c 11))) $$ Hx11_cred
  ihave Hx12_cred := (Entails.of_eq (cred_N (sendCell c 12))) $$ Hx12_cred
  ihave Hx13_cred := (Entails.of_eq (cred_N (sendCell c 13))) $$ Hx13_cred
  ihave Hx14_cred := (Entails.of_eq (cred_N (sendCell c 14))) $$ Hx14_cred
  sl_exec (disch := simp only [dev16_c, dev17_c, dev18_c, dev19_c, dev20_c, dev21_c, dev22_c, dev23_c, dev24_c, dev25_c, dev26_c, dev27_c, dev28_c, dev29_c, dev30_c])

  -- the result's buffer holds the composed arithmetic of the sixteen steps and the activation
  have hG : (oM : Memref sig .tc .vmem S256x8192 .f32).view.writes (Elt F) g1
      (⟨Rect.unit (s := S256x8192) ![0, 0] S256x8192.size inb_S256x8192_S256x8192_0_0,
          k0_pay21 (sound_body.sl.v1114 m c HatV0_pay1_v HatV1_pay1_v HatV2_pay1_v HatV3_pay1_v HatV4_pay1_v HatV5_pay1_v HatV6_pay1_v HatV7_pay1_v HatV8_pay1_v HatV9_pay1_v HatV10_pay1_v HatV11_pay1_v HatV12_pay1_v HatV13_pay1_v HatV14_pay1_v)⟩ ::
        sound_body.sl.Hout_16 m c HatV0_pay1_v HatV1_pay1_v HatV2_pay1_v HatV3_pay1_v HatV4_pay1_v HatV5_pay1_v HatV6_pay1_v HatV7_pay1_v HatV8_pay1_v HatV9_pay1_v HatV10_pay1_v HatV11_pay1_v HatV12_pay1_v HatV13_pay1_v HatV14_pay1_v) = outAt m c := by
    refine (out_writes_eq c g1 _ _).trans ?_
    repeat (first | rw [out_readCov] | rw [aAt_lit_0 m c] | rw [aAt_lit_1 m c] | rw [aAt_lit_2 m c] | rw [aAt_lit_3 m c] | rw [aAt_lit_4 m c] | rw [aAt_lit_5 m c] | rw [aAt_lit_6 m c] | rw [aAt_lit_7 m c] | rw [aAt_lit_8 m c] | rw [aAt_lit_9 m c] | rw [aAt_lit_10 m c] | rw [aAt_lit_11 m c] | rw [aAt_lit_12 m c] | rw [aAt_lit_13 m c] | rw [aAt_lit_14 m c] | rw [wAt_lit_0 m c] | rw [wAt_lit_1 m c] | rw [wAt_lit_2 m c] | rw [wAt_lit_3 m c] | rw [wAt_lit_4 m c] | rw [wAt_lit_5 m c] | rw [wAt_lit_6 m c] | rw [wAt_lit_7 m c] | rw [wAt_lit_8 m c] | rw [wAt_lit_9 m c] | rw [wAt_lit_10 m c] | rw [wAt_lit_11 m c] | rw [wAt_lit_12 m c] | rw [wAt_lit_13 m c] | rw [wAt_lit_14 m c] | rw [wAt_lit_15 m c] | delta_sl sound_body.sl)
    rfl
  rw [wp_ret]
  iapply (finish m ρ K c _ f0 HatV0_pay1_v HatV1_pay1_v HatV2_pay1_v HatV3_pay1_v HatV4_pay1_v HatV5_pay1_v HatV6_pay1_v HatV7_pay1_v HatV8_pay1_v HatV9_pay1_v HatV10_pay1_v HatV11_pay1_v HatV12_pay1_v HatV13_pay1_v HatV14_pay1_v _ _ _ _ hG) $$ [HatS0 HatS1 HatS2 HatS3 HatS4 HatS5 HatS6 HatS7 HatS8 HatS9 HatS10 HatS11 HatS12 HatS13 HatS14 HatV0 HatV1 HatV2 HatV3 HatV4 HatV5 HatV6 HatV7 HatV8 HatV9 HatV10 HatV11 HatV12 HatV13 HatV14 HS0 HatV0_pay1 HatV1_pay1 HatV2_pay1 HatV3_pay1 HatV4_pay1 HatV5_pay1 HatV6_pay1 HatV7_pay1 HatV8_pay1 HatV9_pay1 HatV10_pay1 HatV11_pay1 HatV12_pay1 HatV13_pay1 HatV14_pay1 Hwb0 Hwb1 Hwb2 HxR HatS0_pay1 Hxr0 HatS1_pay1 Hxr1 HatS2_pay1 Hxr2 HatS3_pay1 Hxr3 HatS4_pay1 Hxr4 HatS5_pay1 Hxr5 HatS6_pay1 Hxr6 HatS7_pay1 Hxr7 HatS8_pay1 Hxr8 HatS9_pay1 Hxr9 HatS10_pay1 Hxr10 HatS11_pay1 Hxr11 HatS12_pay1 Hxr12 HatS13_pay1 Hxr13 HatS14_pay1 Hxr14 HwR Hw0 Hw1 Hw2 Hi0 Hi1 Hs2 Hs3 Hs4 Hout HO]
  isplitr; · iexact HIs0
  isplitr; · iexact HIs1
  isplitr; · iexact HIs2
  isplitr; · iexact HIs3
  isplitr; · iexact HIs4
  isplitr; · iexact HIs5
  isplitr; · iexact HIs6
  isplitr; · iexact HIs7
  isplitr; · iexact HIs8
  isplitr; · iexact HIs9
  isplitr; · iexact HIs10
  isplitr; · iexact HIs11
  isplitr; · iexact HIs12
  isplitr; · iexact HIs13
  isplitr; · iexact HIs14
  isplitr; · iexact HIr0
  isplitr; · iexact HIr1
  isplitr; · iexact HIr2
  isplitr; · iexact HIr3
  isplitr; · iexact HIr4
  isplitr; · iexact HIr5
  isplitr; · iexact HIr6
  isplitr; · iexact HIr7
  isplitr; · iexact HIr8
  isplitr; · iexact HIr9
  isplitr; · iexact HIr10
  isplitr; · iexact HIr11
  isplitr; · iexact HIr12
  isplitr; · iexact HIr13
  isplitr; · iexact HIr14
  isplitl [HatS0]; · iexact HatS0
  isplitl [HatS1]; · iexact HatS1
  isplitl [HatS2]; · iexact HatS2
  isplitl [HatS3]; · iexact HatS3
  isplitl [HatS4]; · iexact HatS4
  isplitl [HatS5]; · iexact HatS5
  isplitl [HatS6]; · iexact HatS6
  isplitl [HatS7]; · iexact HatS7
  isplitl [HatS8]; · iexact HatS8
  isplitl [HatS9]; · iexact HatS9
  isplitl [HatS10]; · iexact HatS10
  isplitl [HatS11]; · iexact HatS11
  isplitl [HatS12]; · iexact HatS12
  isplitl [HatS13]; · iexact HatS13
  isplitl [HatS14]; · iexact HatS14
  isplitl [HatV0]; · iexact HatV0
  isplitl [HatV1]; · iexact HatV1
  isplitl [HatV2]; · iexact HatV2
  isplitl [HatV3]; · iexact HatV3
  isplitl [HatV4]; · iexact HatV4
  isplitl [HatV5]; · iexact HatV5
  isplitl [HatV6]; · iexact HatV6
  isplitl [HatV7]; · iexact HatV7
  isplitl [HatV8]; · iexact HatV8
  isplitl [HatV9]; · iexact HatV9
  isplitl [HatV10]; · iexact HatV10
  isplitl [HatV11]; · iexact HatV11
  isplitl [HatV12]; · iexact HatV12
  isplitl [HatV13]; · iexact HatV13
  isplitl [HatV14]; · iexact HatV14
  isplitl [HS0]; · iexact HS0
  isplitl [HatV0_pay1]; · iexact HatV0_pay1
  isplitl [HatV1_pay1]; · iexact HatV1_pay1
  isplitl [HatV2_pay1]; · iexact HatV2_pay1
  isplitl [HatV3_pay1]; · iexact HatV3_pay1
  isplitl [HatV4_pay1]; · iexact HatV4_pay1
  isplitl [HatV5_pay1]; · iexact HatV5_pay1
  isplitl [HatV6_pay1]; · iexact HatV6_pay1
  isplitl [HatV7_pay1]; · iexact HatV7_pay1
  isplitl [HatV8_pay1]; · iexact HatV8_pay1
  isplitl [HatV9_pay1]; · iexact HatV9_pay1
  isplitl [HatV10_pay1]; · iexact HatV10_pay1
  isplitl [HatV11_pay1]; · iexact HatV11_pay1
  isplitl [HatV12_pay1]; · iexact HatV12_pay1
  isplitl [HatV13_pay1]; · iexact HatV13_pay1
  isplitl [HatV14_pay1]; · iexact HatV14_pay1
  isplitl [Hwb0]; · iexact Hwb0
  isplitl [Hwb1]; · iexact Hwb1
  isplitl [Hwb2]; · iexact Hwb2
  isplitl [HxR]; · iexact HxR
  isplitl [HatS0_pay1]; · iexact HatS0_pay1
  isplitl [Hxr0]; · iexact Hxr0
  isplitl [HatS1_pay1]; · iexact HatS1_pay1
  isplitl [Hxr1]; · iexact Hxr1
  isplitl [HatS2_pay1]; · iexact HatS2_pay1
  isplitl [Hxr2]; · iexact Hxr2
  isplitl [HatS3_pay1]; · iexact HatS3_pay1
  isplitl [Hxr3]; · iexact Hxr3
  isplitl [HatS4_pay1]; · iexact HatS4_pay1
  isplitl [Hxr4]; · iexact Hxr4
  isplitl [HatS5_pay1]; · iexact HatS5_pay1
  isplitl [Hxr5]; · iexact Hxr5
  isplitl [HatS6_pay1]; · iexact HatS6_pay1
  isplitl [Hxr6]; · iexact Hxr6
  isplitl [HatS7_pay1]; · iexact HatS7_pay1
  isplitl [Hxr7]; · iexact Hxr7
  isplitl [HatS8_pay1]; · iexact HatS8_pay1
  isplitl [Hxr8]; · iexact Hxr8
  isplitl [HatS9_pay1]; · iexact HatS9_pay1
  isplitl [Hxr9]; · iexact Hxr9
  isplitl [HatS10_pay1]; · iexact HatS10_pay1
  isplitl [Hxr10]; · iexact Hxr10
  isplitl [HatS11_pay1]; · iexact HatS11_pay1
  isplitl [Hxr11]; · iexact Hxr11
  isplitl [HatS12_pay1]; · iexact HatS12_pay1
  isplitl [Hxr12]; · iexact Hxr12
  isplitl [HatS13_pay1]; · iexact HatS13_pay1
  isplitl [Hxr13]; · iexact Hxr13
  isplitl [HatS14_pay1]; · iexact HatS14_pay1
  isplitl [Hxr14]; · iexact Hxr14
  isplitl [HwR]; · iexact HwR
  isplitl [Hw0]; · iexact Hw0
  isplitl [Hw1]; · iexact Hw1
  isplitl [Hw2]; · iexact Hw2
  isplitl [Hi0]; · iexact Hi0
  isplitl [Hi1]; · iexact Hi1
  isplitl [Hs2]; · iexact Hs2
  isplitl [Hs3]; · iexact Hs3
  isplitl [Hs4]; · iexact Hs4
  isplitl [Hout]; · iexact Hout
  iexact HO

end Cert.Kernel.A2A

end
-- ==== Proof.lean ====
/-
  The certificate of a sixteen-device fused all-to-all and matrix product with a GELU epilogue.

  The whole arrays are X : f32[4096, 4096] and W : f32[4096, 8192]. Device s holds column slab s of X (columns
  256·s … 256·s + 255) and a copy of W, and must end with row slab s of gelu (X · W), where
  gelu y = (1/2 · y) · (1 + tanh (c₁ · (y + c₀ · y³))). Entry (r, q) of X · W is the sum over the 4096 shared
  coordinates t of X[r, t] · W[t, q]; cut into sixteen runs of 256, the part over run s needs only column slab s of X
  — which device s holds — and rows 256·s … of W. So every device sends, to each of the fifteen others, the 256 rows of
  its slab that the other device's result needs, and device c adds up sixteen products of a 256×256 block with a
  256×8192 block, one per run, in the order c, c - 1, …, c - 15 (mod 16), and applies gelu. The runs are visited in
  a permuted order and the sum is grouped from the left; over the extended reals addition and multiplication are
  commutative and associative, so the result is the reference's, entry by entry, with no assumption that any entry is
  finite.

  The five claims are assembled from one fact about the kernel's region, at the word-level and at the ideal values
  alike: from every device's body — started from its buffers, its share of the protocol's ghost state and what it owes,
  it runs to the end, pays what it owes, and leaves its result buffer at the body's arithmetic — every fair execution of
  the sixteen devices terminates, faults nowhere, and leaves each device's result array at that arithmetic and its
  arguments untouched. The frames of the two kernels read off the untouched arguments; the reference's frame and value
  come from its own straight-line run; nothing of the kernel was rewritten for the ideal reading; and the algebraic claim
  joins the devices' results to the reference's by the regrouping above.
-/
import proofs.«900405_g7700000000000406_dist_a2a_gemm_m4096_k4096_n8192_f32_gelu_v7x_i16_1_alg».proof.Defs
import proofs.«900405_g7700000000000406_dist_a2a_gemm_m4096_k4096_n8192_f32_gelu_v7x_i16_1_alg».proof.Proof.Gen.Kernel
import proofs.«900405_g7700000000000406_dist_a2a_gemm_m4096_k4096_n8192_f32_gelu_v7x_i16_1_alg».proof.Proof.Gen.Kernel.Skeleton
import proofs.«900405_g7700000000000406_dist_a2a_gemm_m4096_k4096_n8192_f32_gelu_v7x_i16_1_alg».proof.Proof.Gen.Kernel.Launch
import proofs.«900405_g7700000000000406_dist_a2a_gemm_m4096_k4096_n8192_f32_gelu_v7x_i16_1_alg».proof.Proof.Gen.Kernel.Points
import proofs.«900405_g7700000000000406_dist_a2a_gemm_m4096_k4096_n8192_f32_gelu_v7x_i16_1_alg».proof.Proof.Gen.Kernel.Frame
import proofs.«900405_g7700000000000406_dist_a2a_gemm_m4096_k4096_n8192_f32_gelu_v7x_i16_1_alg».proof.Proof.Gen.KernelIdeal
import proofs.«900405_g7700000000000406_dist_a2a_gemm_m4096_k4096_n8192_f32_gelu_v7x_i16_1_alg».proof.Proof.Gen.KernelIdeal.Skeleton
import proofs.«900405_g7700000000000406_dist_a2a_gemm_m4096_k4096_n8192_f32_gelu_v7x_i16_1_alg».proof.Proof.Gen.KernelIdeal.Launch
import proofs.«900405_g7700000000000406_dist_a2a_gemm_m4096_k4096_n8192_f32_gelu_v7x_i16_1_alg».proof.Proof.Gen.KernelIdeal.Points
import proofs.«900405_g7700000000000406_dist_a2a_gemm_m4096_k4096_n8192_f32_gelu_v7x_i16_1_alg».proof.Proof.Gen.KernelIdeal.Frame
import proofs.«900405_g7700000000000406_dist_a2a_gemm_m4096_k4096_n8192_f32_gelu_v7x_i16_1_alg».proof.Proof.Gen.ReferenceIdeal
import proofs.«900405_g7700000000000406_dist_a2a_gemm_m4096_k4096_n8192_f32_gelu_v7x_i16_1_alg».proof.Proof.Gen.Pre_finite_inputs_Kernel
import proofs.«900405_g7700000000000406_dist_a2a_gemm_m4096_k4096_n8192_f32_gelu_v7x_i16_1_alg».proof.Proof.Gen.Pre_finite_inputs_ReferenceIdeal
import Idealize.ShloMosaic.Adequacy
import Idealize.ShloMosaic.Init
import proofs.«900405_g7700000000000406_dist_a2a_gemm_m4096_k4096_n8192_f32_gelu_v7x_i16_1_alg».proof.Proof.Assemble
import proofs.«900405_g7700000000000406_dist_a2a_gemm_m4096_k4096_n8192_f32_gelu_v7x_i16_1_alg».proof.Proof.Launch
import proofs.«900405_g7700000000000406_dist_a2a_gemm_m4096_k4096_n8192_f32_gelu_v7x_i16_1_alg».proof.Proof.BodyCtx
import proofs.«900405_g7700000000000406_dist_a2a_gemm_m4096_k4096_n8192_f32_gelu_v7x_i16_1_alg».proof.Proof.Bits.Frame
import proofs.«900405_g7700000000000406_dist_a2a_gemm_m4096_k4096_n8192_f32_gelu_v7x_i16_1_alg».proof.Proof.Bits.BodyCtx
import proofs.«900405_g7700000000000406_dist_a2a_gemm_m4096_k4096_n8192_f32_gelu_v7x_i16_1_alg».proof.Proof.Body
import proofs.«900405_g7700000000000406_dist_a2a_gemm_m4096_k4096_n8192_f32_gelu_v7x_i16_1_alg».proof.Proof.Bits.Body

noncomputable section

namespace Cert.Proof

open Idealize.ShloMosaic Idealize.SL.Sem

/-- Every fair execution of the idealized kernel on the sixteen devices ends with each device's arrays at their final
    contents: the launch of the region, from every device's body. -/
theorem run_ki (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      (Cert.KernelIdeal.A2A.s₀ m ρ) (Cert.KernelIdeal.A2A.RunPost m ρ) :=
  Cert.KernelIdeal.A2A.run_main m ρ
    (Cert.KernelIdeal.A2A.body_obligation_of m ρ fun c K W g1 fw fs0 fs1 fs2 fs3 fs4 fs5 fs6 fs7 fs8 fs9 fs10 fs11 fs12 fs13 fs14 f0 =>
      Cert.KernelIdeal.A2A.sound_body m ρ c K W g1 fw fs0 fs1 fs2 fs3 fs4 fs5 fs6 fs7 fs8 fs9 fs10 fs11 fs12 fs13 fs14 f0)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Cert.Kernel.A2A.frame_Kernel_of_body fun m ρ c =>
    Cert.Kernel.A2A.body_obligation_of m ρ (fun c K W g1 fw fs0 fs1 fs2 fs3 fs4 fs5 fs6 fs7 fs8 fs9 fs10 fs11 fs12 fs13 fs14 f0 =>
      Cert.Kernel.A2A.sound_body m ρ c K W g1 fw fs0 fs1 fs2 fs3 fs4 fs5 fs6 fs7 fs8 fs9 fs10 fs11 fs12 fs13 fs14 f0) c,
  Cert.KernelIdeal.A2A.frame_ki_of_run run_ki,
  Cert.Proof.RefSide.frame_ri,
  Cert.KernelIdeal.A2A.preserves,
  Cert.KernelIdeal.A2A.algebraic_of_run run_ki⟩

end Cert.Proof

end
